-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x96 : Shape := ⟨2, ![50000, 96]⟩
abbrev S96x96 : Shape := ⟨2, ![96, 96]⟩
abbrev S96 : Shape := ⟨1, ![96]⟩
abbrev S96x64 : Shape := ⟨2, ![96, 64]⟩
abbrev S64 : Shape := ⟨1, ![64]⟩
abbrev S800000 : Shape := ⟨1, ![800000]⟩
abbrev S_ : Shape := ⟨0, ![]⟩

class Facts : Prop where
  bcast_S_S50000x96 : S_.BroadcastsInDim S50000x96 (![] : Fin 0 → Fin S50000x96.rank)
  reducesTo_S50000x96_S_d0_1 : S50000x96.ReducesTo [0, 1] S_
  h_S_ : 0 < S_.numel
  bcast_S_S96x96 : S_.BroadcastsInDim S96x96 (![] : Fin 0 → Fin S96x96.rank)
  reducesTo_S96x96_S_d0_1 : S96x96.ReducesTo [0, 1] S_
  bcast_S_S96 : S_.BroadcastsInDim S96 (![] : Fin 0 → Fin S96.rank)
  reducesTo_S96_S_d0 : S96.ReducesTo [0] S_
  bcast_S_S96x64 : S_.BroadcastsInDim S96x64 (![] : Fin 0 → Fin S96x64.rank)
  reducesTo_S96x64_S_d0_1 : S96x64.ReducesTo [0, 1] S_
  bcast_S_S64 : S_.BroadcastsInDim S64 (![] : Fin 0 → Fin S64.rank)
  reducesTo_S64_S_d0 : S64.ReducesTo [0] S_

variable [Facts]

def fn_part4 {F : FTy → Type} [FloatOps F] (main_arg14 : FVec F S64 .f32) (main_v63 : IVec S_ 1) (main_v67 : IVec S_ 1) : IVec S_ 1 :=
  let main_v68 : IVec S_ 1 := andi main_v63 main_v67
  let main_v69 : FVec F S64 .f32 := Host.absf main_arg14
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  main_v73

def fn_part3 {F : FTy → Type} [FloatOps F] (main_arg11 : FVec F S96 .f32) (main_arg12 : FVec F S96 .f32) (main_arg13 : FVec F S96x64 .f32) (main_arg14 : FVec F S64 .f32) (main_v48 : IVec S_ 1) (main_v49 : FVec F S96 .f32) (main_v50 : FVec F S96 .f32) : IVec S_ 1 :=
  let main_v51 : IVec S96 1 := cmpf .olt main_v49 main_v50
  let main_c_19 : IVec S_ 1 := constantI S_ 1 1#1
  let main_v52 : IVec S_ 1 := (fun x v => Host.reduce IntOp.andi x v reducesTo_S96_S_d0 h_S_) main_v51 main_c_19
  let main_v53 : IVec S_ 1 := andi main_v48 main_v52
  let main_v54 : FVec F S96 .f32 := Host.absf main_arg11
  let main_cst_20 : FVec F S_ .f32 := constant S_ .f32 0x7F800000#32
  let main_v55 : FVec F S96 .f32 := broadcastInDim S96 ![] bcast_S_S96 main_cst_20
  let main_v56 : IVec S96 1 := cmpf .olt main_v54 main_v55
  let main_c_21 : IVec S_ 1 := constantI S_ 1 1#1
  let main_v57 : IVec S_ 1 := (fun x v => Host.reduce IntOp.andi x v reducesTo_S96_S_d0 h_S_) main_v56 main_c_21
  let main_v58 : IVec S_ 1 := andi main_v53 main_v57
  let main_v59 : FVec F S96 .f32 := Host.absf main_arg12
  let main_cst_22 : FVec F S_ .f32 := constant S_ .f32 0x7F800000#32
  let main_v60 : FVec F S96 .f32 := broadcastInDim S96 ![] bcast_S_S96 main_cst_22
  let main_v61 : IVec S96 1 := cmpf .olt main_v59 main_v60
  let main_c_23 : IVec S_ 1 := constantI S_ 1 1#1
  let main_v62 : IVec S_ 1 := (fun x v => Host.reduce IntOp.andi x v reducesTo_S96_S_d0 h_S_) main_v61 main_c_23
  let main_v63 : IVec S_ 1 := andi main_v58 main_v62
  let main_v64 : FVec F S96x64 .f32 := Host.absf main_arg13
  let main_cst_24 : FVec F S_ .f32 := constant S_ .f32 0x7F800000#32
  let main_v65 : FVec F S96x64 .f32 := broadcastInDim S96x64 ![] bcast_S_S96x64 main_cst_24
  let main_v66 : IVec S96x64 1 := cmpf .olt main_v64 main_v65
  let main_c_25 : IVec S_ 1 := constantI S_ 1 1#1
  let main_v67 : IVec S_ 1 := (fun x v => Host.reduce IntOp.andi x v reducesTo_S96x64_S_d0_1 h_S_) main_v66 main_c_25
  fn_part4 (F := F) main_arg14 main_v63 main_v67

def fn_part2 {F : FTy → Type} [FloatOps F] (main_arg7 : FVec F S96x96 .f32) (main_arg8 : FVec F S96 .f32) (main_arg9 : FVec F S96 .f32) (main_arg10 : FVec F S96 .f32) (main_arg11 : FVec F S96 .f32) (main_arg12 : FVec F S96 .f32) (main_arg13 : FVec F S96x64 .f32) (main_arg14 : FVec F S64 .f32) (main_v33 : IVec S_ 1) : IVec S_ 1 :=
  let main_v34 : FVec F S96x96 .f32 := Host.absf main_arg7
  let main_cst_12 : FVec F S_ .f32 := constant S_ .f32 0x7F800000#32
  let main_v35 : FVec F S96x96 .f32 := broadcastInDim S96x96 ![] bcast_S_S96x96 main_cst_12
  let main_v36 : IVec S96x96 1 := cmpf .olt main_v34 main_v35
  let main_c_13 : IVec S_ 1 := constantI S_ 1 1#1
  let main_v37 : IVec S_ 1 := (fun x v => Host.reduce IntOp.andi x v reducesTo_S96x96_S_d0_1 h_S_) main_v36 main_c_13
  let main_v38 : IVec S_ 1 := andi main_v33 main_v37
  let main_v39 : FVec F S96 .f32 := Host.absf main_arg8
  let main_cst_14 : FVec F S_ .f32 := constant S_ .f32 0x7F800000#32
  let main_v40 : FVec F S96 .f32 := broadcastInDim S96 ![] bcast_S_S96 main_cst_14
  let main_v41 : IVec S96 1 := cmpf .olt main_v39 main_v40
  let main_c_15 : IVec S_ 1 := constantI S_ 1 1#1
  let main_v42 : IVec S_ 1 := (fun x v => Host.reduce IntOp.andi x v reducesTo_S96_S_d0 h_S_) main_v41 main_c_15
  let main_v43 : IVec S_ 1 := andi main_v38 main_v42
  let main_v44 : FVec F S96 .f32 := Host.absf main_arg9
  let main_cst_16 : FVec F S_ .f32 := constant S_ .f32 0x7F800000#32
  let main_v45 : FVec F S96 .f32 := broadcastInDim S96 ![] bcast_S_S96 main_cst_16
  let main_v46 : IVec S96 1 := cmpf .olt main_v44 main_v45
  let main_c_17 : IVec S_ 1 := constantI S_ 1 1#1
  let main_v47 : IVec S_ 1 := (fun x v => Host.reduce IntOp.andi x v reducesTo_S96_S_d0 h_S_) main_v46 main_c_17
  let main_v48 : IVec S_ 1 := andi main_v43 main_v47
  let main_v49 : FVec F S96 .f32 := Host.absf main_arg10
  let main_cst_18 : FVec F S_ .f32 := constant S_ .f32 0x7F800000#32
  let main_v50 : FVec F S96 .f32 := broadcastInDim S96 ![] bcast_S_S96 main_cst_18
  fn_part3 (F := F) main_arg11 main_arg12 main_arg13 main_arg14 main_v48 main_v49 main_v50

def fn_part1 {F : FTy → Type} [FloatOps F] (main_arg4 : FVec F S96 .f32) (main_arg5 : FVec F S96x96 .f32) (main_arg6 : FVec F S96 .f32) (main_arg7 : FVec F S96x96 .f32) (main_arg8 : FVec F S96 .f32) (main_arg9 : FVec F S96 .f32) (main_arg10 : FVec F S96 .f32) (main_arg11 : FVec F S96 .f32) (main_arg12 : FVec F S96 .f32) (main_arg13 : FVec F S96x64 .f32) (main_arg14 : FVec F S64 .f32) (main_v13 : IVec S_ 1) (main_v16 : IVec S96x96 1) : IVec S_ 1 :=
  let main_c_5 : IVec S_ 1 := constantI S_ 1 1#1
  let main_v17 : IVec S_ 1 := (fun x v => Host.reduce IntOp.andi x v reducesTo_S96x96_S_d0_1 h_S_) main_v16 main_c_5
  let main_v18 : IVec S_ 1 := andi main_v13 main_v17
  let main_v19 : FVec F S96 .f32 := Host.absf main_arg4
  let main_cst_6 : FVec F S_ .f32 := constant S_ .f32 0x7F800000#32
  let main_v20 : FVec F S96 .f32 := broadcastInDim S96 ![] bcast_S_S96 main_cst_6
  let main_v21 : IVec S96 1 := cmpf .olt main_v19 main_v20
  let main_c_7 : IVec S_ 1 := constantI S_ 1 1#1
  let main_v22 : IVec S_ 1 := (fun x v => Host.reduce IntOp.andi x v reducesTo_S96_S_d0 h_S_) main_v21 main_c_7
  let main_v23 : IVec S_ 1 := andi main_v18 main_v22
  let main_v24 : FVec F S96x96 .f32 := Host.absf main_arg5
  let main_cst_8 : FVec F S_ .f32 := constant S_ .f32 0x7F800000#32
  let main_v25 : FVec F S96x96 .f32 := broadcastInDim S96x96 ![] bcast_S_S96x96 main_cst_8
  let main_v26 : IVec S96x96 1 := cmpf .olt main_v24 main_v25
  let main_c_9 : IVec S_ 1 := constantI S_ 1 1#1
  let main_v27 : IVec S_ 1 := (fun x v => Host.reduce IntOp.andi x v reducesTo_S96x96_S_d0_1 h_S_) main_v26 main_c_9
  let main_v28 : IVec S_ 1 := andi main_v23 main_v27
  let main_v29 : FVec F S96 .f32 := Host.absf main_arg6
  let main_cst_10 : FVec F S_ .f32 := constant S_ .f32 0x7F800000#32
  let main_v30 : FVec F S96 .f32 := broadcastInDim S96 ![] bcast_S_S96 main_cst_10
  let main_v31 : IVec S96 1 := cmpf .olt main_v29 main_v30
  let main_c_11 : IVec S_ 1 := constantI S_ 1 1#1
  let main_v32 : IVec S_ 1 := (fun x v => Host.reduce IntOp.andi x v reducesTo_S96_S_d0 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S50000x96 .f32) (main_arg1 : FVec F S96x96 .f32) (main_arg2 : FVec F S96 .f32) (main_arg3 : FVec F S96x96 .f32) (main_arg4 : FVec F S96 .f32) (main_arg5 : FVec F S96x96 .f32) (main_arg6 : FVec F S96 .f32) (main_arg7 : FVec F S96x96 .f32) (main_arg8 : FVec F S96 .f32) (main_arg9 : FVec F S96 .f32) (main_arg10 : FVec F S96 .f32) (main_arg11 : FVec F S96 .f32) (main_arg12 : FVec F S96 .f32) (main_arg13 : FVec F S96x64 .f32) (main_arg14 : FVec F S64 .f32) (main_arg15 : IVec S800000 32) (main_arg16 : IVec S800000 32) : IVec S_ 1 :=
  let main_v0 : FVec F S50000x96 .f32 := Host.absf main_arg0
  let main_cst : FVec F S_ .f32 := constant S_ .f32 0x7F800000#32
  let main_v1 : FVec F S50000x96 .f32 := broadcastInDim S50000x96 ![] bcast_S_S50000x96 main_cst
  let main_v2 : IVec S50000x96 1 := cmpf .olt main_v0 main_v1
  let main_c : IVec S_ 1 := constantI S_ 1 1#1
  let main_v3 : IVec S_ 1 := (fun x v => Host.reduce IntOp.andi x v reducesTo_S50000x96_S_d0_1 h_S_) main_v2 main_c
  let main_v4 : FVec F S96x96 .f32 := Host.absf main_arg1
  let main_cst_0 : FVec F S_ .f32 := constant S_ .f32 0x7F800000#32
  let main_v5 : FVec F S96x96 .f32 := broadcastInDim S96x96 ![] bcast_S_S96x96 main_cst_0
  let main_v6 : IVec S96x96 1 := cmpf .olt main_v4 main_v5
  let main_c_1 : IVec S_ 1 := constantI S_ 1 1#1
  let main_v7 : IVec S_ 1 := (fun x v => Host.reduce IntOp.andi x v reducesTo_S96x96_S_d0_1 h_S_) main_v6 main_c_1
  let main_v8 : IVec S_ 1 := andi main_v3 main_v7
  let main_v9 : FVec F S96 .f32 := Host.absf main_arg2
  let main_cst_2 : FVec F S_ .f32 := constant S_ .f32 0x7F800000#32
  let main_v10 : FVec F S96 .f32 := broadcastInDim S96 ![] bcast_S_S96 main_cst_2
  let main_v11 : IVec S96 1 := cmpf .olt main_v9 main_v10
  let main_c_3 : IVec S_ 1 := constantI S_ 1 1#1
  let main_v12 : IVec S_ 1 := (fun x v => Host.reduce IntOp.andi x v reducesTo_S96_S_d0 h_S_) main_v11 main_c_3
  let main_v13 : IVec S_ 1 := andi main_v8 main_v12
  let main_v14 : FVec F S96x96 .f32 := Host.absf main_arg3
  let main_cst_4 : FVec F S_ .f32 := constant S_ .f32 0x7F800000#32
  let main_v15 : FVec F S96x96 .f32 := broadcastInDim S96x96 ![] bcast_S_S96x96 main_cst_4
  let main_v16 : IVec S96x96 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S50000x96 : Shape := ⟨2, ![50000, 96]⟩
abbrev S96x96 : Shape := ⟨2, ![96, 96]⟩
abbrev S96 : Shape := ⟨1, ![96]⟩
abbrev S96x64 : Shape := ⟨2, ![96, 64]⟩
abbrev S64 : Shape := ⟨1, ![64]⟩
abbrev S800000 : Shape := ⟨1, ![800000]⟩
abbrev S_ : Shape := ⟨0, ![]⟩
abbrev S800000x1 : Shape := ⟨2, ![800000, 1]⟩
abbrev S800000x96 : Shape := ⟨2, ![800000, 96]⟩
abbrev S1x96 : Shape := ⟨2, ![1, 96]⟩
abbrev S10000x96 : Shape := ⟨2, ![10000, 96]⟩
abbrev S1x64 : Shape := ⟨2, ![1, 64]⟩
abbrev S50000x64 : Shape := ⟨2, ![50000, 64]⟩
abbrev S10000x64 : Shape := ⟨2, ![10000, 64]⟩

abbrev nBuf : Space → Nat
  | .hbm => 97
  | .vmem => 46
  | .smem => 0
  | _ => 0

abbrev bufTy : (tb : Table) → Fin (tcTables nBuf tb) → BufTy
  | .hbm, ⟨0, _⟩ => ⟨S50000x96, .f32⟩
  | .hbm, ⟨1, _⟩ => ⟨S96x96, .f32⟩
  | .hbm, ⟨2, _⟩ => ⟨S96, .f32⟩
  | .hbm, ⟨3, _⟩ => ⟨S96x96, .f32⟩
  | .hbm, ⟨4, _⟩ => ⟨S96, .f32⟩
  | .hbm, ⟨5, _⟩ => ⟨S96x96, .f32⟩
  | .hbm, ⟨6, _⟩ => ⟨S96, .f32⟩
  | .hbm, ⟨7, _⟩ => ⟨S96x96, .f32⟩
  | .hbm, ⟨8, _⟩ => ⟨S96, .f32⟩
  | .hbm, ⟨9, _⟩ => ⟨S96, .f32⟩
  | .hbm, ⟨10, _⟩ => ⟨S96, .f32⟩
  | .hbm, ⟨11, _⟩ => ⟨S96, .f32⟩
  | .hbm, ⟨12, _⟩ => ⟨S96, .f32⟩
  | .hbm, ⟨13, _⟩ => ⟨S96x64, .f32⟩
  | .hbm, ⟨14, _⟩ => ⟨S64, .f32⟩
  | .hbm, ⟨15, _⟩ => ⟨S800000, .i32⟩
  | .hbm, ⟨16, _⟩ => ⟨S800000, .i32⟩
  | .hbm, ⟨17, _⟩ => ⟨S96x96, .bf16⟩
  | .hbm, ⟨18, _⟩ => ⟨S96x96, .bf16⟩
  | .hbm, ⟨19, _⟩ => ⟨S96x96, .bf16⟩
  | .hbm, ⟨20, _⟩ => ⟨S96x96, .bf16⟩
  | .hbm, ⟨21, _⟩ => ⟨S96x64, .bf16⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S800000x96, .f32⟩
  | .hbm, ⟨31, _⟩ => ⟨S_, .f32⟩
  | .hbm, ⟨32, _⟩ => ⟨S50000x96, .f32⟩
  | .hbm, ⟨33, _⟩ => ⟨S800000x1, .i32⟩
  | .hbm, ⟨34, _⟩ => ⟨S50000x96, .f32⟩
  | .hbm, ⟨35, _⟩ => ⟨S1x96, .f32⟩
  | .hbm, ⟨36, _⟩ => ⟨S1x96, .f32⟩
  | .hbm, ⟨37, _⟩ => ⟨S50000x96, .f32⟩
  | .hbm, ⟨38, _⟩ => ⟨S1x96, .f32⟩
  | .hbm, ⟨39, _⟩ => ⟨S1x96, .f32⟩
  | .hbm, ⟨40, _⟩ => ⟨S96, .f32⟩
  | .hbm, ⟨41, _⟩ => ⟨S96, .f32⟩
  | .hbm, ⟨42, _⟩ => ⟨S_, .f32⟩
  | .hbm, ⟨43, _⟩ => ⟨S96, .f32⟩
  | .hbm, ⟨44, _⟩ => ⟨S96, .f32⟩
  | .hbm, ⟨45, _⟩ => ⟨S_, .f32⟩
  | .hbm, ⟨46, _⟩ => ⟨S96, .f32⟩
  | .hbm, ⟨47, _⟩ => ⟨S96, .f32⟩
  | .hbm, ⟨48, _⟩ => ⟨S96, .f32⟩
  | .hbm, ⟨49, _⟩ => ⟨S96, .f32⟩
  | .hbm, ⟨50, _⟩ => ⟨S_, .f32⟩
  | .hbm, ⟨51, _⟩ => ⟨S96, .f32⟩
  | .hbm, ⟨52, _⟩ => ⟨S96, .f32⟩
  | .hbm, ⟨53, _⟩ => ⟨S96, .f32⟩
  | .hbm, ⟨54, _⟩ => ⟨S1x96, .f32⟩
  | .hbm, ⟨55, _⟩ => ⟨S1x96, .f32⟩
  | .hbm, ⟨56, _⟩ => ⟨S1x96, .f32⟩
  | .hbm, ⟨57, _⟩ => ⟨S1x96, .f32⟩
  | .hbm, ⟨58, _⟩ => ⟨S50000x96, .f32⟩
  | .hbm, ⟨59, _⟩ => ⟨S_, .i32⟩
  | .hbm, ⟨60, _⟩ => ⟨S800000, .i32⟩
  | .hbm, ⟨61, _⟩ => ⟨S800000, .i1⟩
  | .hbm, ⟨62, _⟩ => ⟨S_, .i32⟩
  | .hbm, ⟨63, _⟩ => ⟨S800000, .i32⟩
  | .hbm, ⟨64, _⟩ => ⟨S800000, .i32⟩
  | .hbm, ⟨65, _⟩ => ⟨S800000, .i32⟩
  | .hbm, ⟨66, _⟩ => ⟨S800000x1, .i32⟩
  | .hbm, ⟨67, _⟩ => ⟨S800000x96, .f32⟩
  | .hbm, ⟨68, _⟩ => ⟨S_, .f32⟩
  | .hbm, ⟨69, _⟩ => ⟨S50000x96, .f32⟩
  | .hbm, ⟨70, _⟩ => ⟨S800000x1, .i32⟩
  | .hbm, ⟨71, _⟩ => ⟨S50000x96, .f32⟩
  | .hbm, ⟨72, _⟩ => ⟨S1x96, .f32⟩
  | .hbm, ⟨73, _⟩ => ⟨S1x96, .f32⟩
  | .hbm, ⟨74, _⟩ => ⟨S50000x96, .f32⟩
  | .hbm, ⟨75, _⟩ => ⟨S1x96, .f32⟩
  | .hbm, ⟨76, _⟩ => ⟨S1x96, .f32⟩
  | .hbm, ⟨77, _⟩ => ⟨S96, .f32⟩
  | .hbm, ⟨78, _⟩ => ⟨S96, .f32⟩
  | .hbm, ⟨79, _⟩ => ⟨S_, .f32⟩
  | .hbm, ⟨80, _⟩ => ⟨S96, .f32⟩
  | .hbm, ⟨81, _⟩ => ⟨S96, .f32⟩
  | .hbm, ⟨82, _⟩ => ⟨S_, .f32⟩
  | .hbm, ⟨83, _⟩ => ⟨S96, .f32⟩
  | .hbm, ⟨84, _⟩ => ⟨S96, .f32⟩
  | .hbm, ⟨85, _⟩ => ⟨S96, .f32⟩
  | .hbm, ⟨86, _⟩ => ⟨S96, .f32⟩
  | .hbm, ⟨87, _⟩ => ⟨S_, .f32⟩
  | .hbm, ⟨88, _⟩ => ⟨S96, .f32⟩
  | .hbm, ⟨89, _⟩ => ⟨S96, .f32⟩
  | .hbm, ⟨90, _⟩ => ⟨S96, .f32⟩
  | .hbm, ⟨91, _⟩ => ⟨S1x96, .f32⟩
  | .hbm, ⟨92, _⟩ => ⟨S1x96, .f32⟩
  | .hbm, ⟨93, _⟩ => ⟨S1x96, .f32⟩
  | .hbm, ⟨94, _⟩ => ⟨S1x96, .f32⟩
  | .hbm, ⟨95, _⟩ => ⟨S1x64, .f32⟩
  | .hbm, ⟨96, _⟩ => ⟨S50000x64, .f32⟩
  | .local _ .vmem, ⟨0, _⟩ => ⟨S10000x96, .f32⟩
  | .local _ .vmem, ⟨1, _⟩ => ⟨S10000x96, .f32⟩
  | .local _ .vmem, ⟨2, _⟩ => ⟨S10000x96, .f32⟩
  | .local _ .vmem, ⟨3, _⟩ => ⟨S10000x96, .f32⟩
  | .local _ .vmem, ⟨4, _⟩ => ⟨S96x96, .bf16⟩
  | .local _ .vmem, ⟨5, _⟩ => ⟨S1x96, .f32⟩
  | .local _ .vmem, ⟨6, _⟩ => ⟨S96x96, .bf16⟩
  | .local _ .vmem, ⟨7, _⟩ => ⟨S1x96, .f32⟩
  | .local _ .vmem, ⟨8, _⟩ => ⟨S10000x96, .f32⟩
  | .local _ .vmem, ⟨9, _⟩ => ⟨S10000x96, .f32⟩
  | .local _ .vmem, ⟨10, _⟩ => ⟨S1x96, .f32⟩
  | .local _ .vmem, ⟨11, _⟩ => ⟨S1x96, .f32⟩
  | .local _ .vmem, ⟨12, _⟩ => ⟨S1x96, .f32⟩
  | .local _ .vmem, ⟨13, _⟩ => ⟨S1x96, .f32⟩
  | .local _ .vmem, ⟨14, _⟩ => ⟨S10000x96, .f32⟩
  | .local _ .vmem, ⟨15, _⟩ => ⟨S10000x96, .f32⟩
  | .local _ .vmem, ⟨16, _⟩ => ⟨S1x96, .f32⟩
  | .local _ .vmem, ⟨17, _⟩ => ⟨S1x96, .f32⟩
  | .local _ .vmem, ⟨18, _⟩ => ⟨S1x96, .f32⟩
  | .local _ .vmem, ⟨19, _⟩ => ⟨S1x96, .f32⟩
  | .local _ .vmem, ⟨20, _⟩ => ⟨S10000x96, .f32⟩
  | .local _ .vmem, ⟨21, _⟩ => ⟨S10000x96, .f32⟩
  | .local _ .vmem, ⟨22, _⟩ => ⟨S10000x96, .f32⟩
  | .local _ .vmem, ⟨23, _⟩ => ⟨S10000x96, .f32⟩
  | .local _ .vmem, ⟨24, _⟩ => ⟨S10000x96, .f32⟩
  | .local _ .vmem, ⟨25, _⟩ => ⟨S10000x96, .f32⟩
  | .local _ .vmem, ⟨26, _⟩ => ⟨S96x96, .bf16⟩
  | .local _ .vmem, ⟨27, _⟩ => ⟨S1x96, .f32⟩
  | .local _ .vmem, ⟨28, _⟩ => ⟨S96x96, .bf16⟩
  | .local _ .vmem, ⟨29, _⟩ => ⟨S1x96, .f32⟩
  | .local _ .vmem, ⟨30, _⟩ => ⟨S10000x96, .f32⟩
  | .local _ .vmem, ⟨31, _⟩ => ⟨S10000x96, .f32⟩
  | .local _ .vmem, ⟨32, _⟩ => ⟨S1x96, .f32⟩
  | .local _ .vmem, ⟨33, _⟩ => ⟨S1x96, .f32⟩
  | .local _ .vmem, ⟨34, _⟩ => ⟨S1x96, .f32⟩
  | .local _ .vmem, ⟨35, _⟩ => ⟨S1x96, .f32⟩
  | .local _ .vmem, ⟨36, _⟩ => ⟨S10000x96, .f32⟩
  | .local _ .vmem, ⟨37, _⟩ => ⟨S10000x96, .f32⟩
  | .local _ .vmem, ⟨38, _⟩ => ⟨S1x96, .f32⟩
  | .local _ .vmem, ⟨39, _⟩ => ⟨S1x96, .f32⟩
  | .local _ .vmem, ⟨40, _⟩ => ⟨S1x96, .f32⟩
  | .local _ .vmem, ⟨41, _⟩ => ⟨S1x96, .f32⟩
  | .local _ .vmem, ⟨42, _⟩ => ⟨S96x64, .bf16⟩
  | .local _ .vmem, ⟨43, _⟩ => ⟨S1x64, .f32⟩
  | .local _ .vmem, ⟨44, _⟩ => ⟨S10000x64, .f32⟩
  | .local _ .vmem, ⟨45, _⟩ => ⟨S10000x64, .f32⟩
  | _, _ => ⟨S50000x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_c : Ref sig .tc := ⟨.hbm, 22, rfl⟩
abbrev main_v5 : Ref sig .tc := ⟨.hbm, 23, rfl⟩
abbrev main_v6 : Ref sig .tc := ⟨.hbm, 24, rfl⟩
abbrev main_c_0 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17_0 : Ref sig .tc := ⟨.hbm, 37, rfl⟩
abbrev main_v17_1 : Ref sig .tc := ⟨.hbm, 38, rfl⟩
abbrev main_v17_2 : Ref sig .tc := ⟨.hbm, 39, rfl⟩
abbrev main_v18 : Ref sig .tc := ⟨.hbm, 40, rfl⟩
abbrev main_v19 : Ref sig .tc := ⟨.hbm, 41, rfl⟩
abbrev main_cst_1 : Ref sig .tc := ⟨.hbm, 42, rfl⟩
abbrev main_v20 : Ref sig .tc := ⟨.hbm, 43, rfl⟩
abbrev main_v21 : Ref sig .tc := ⟨.hbm, 44, rfl⟩
abbrev main_cst_2 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_cst_3 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_c_4 : Ref sig .tc := ⟨.hbm, 59, rfl⟩
abbrev main_v34 : Ref sig .tc := ⟨.hbm, 60, rfl⟩
abbrev main_v35 : Ref sig .tc := ⟨.hbm, 61, rfl⟩
abbrev main_c_5 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_6 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46_0 : Ref sig .tc := ⟨.hbm, 74, rfl⟩
abbrev main_v46_1 : Ref sig .tc := ⟨.hbm, 75, rfl⟩
abbrev main_v46_2 : Ref sig .tc := ⟨.hbm, 76, rfl⟩
abbrev main_v47 : Ref sig .tc := ⟨.hbm, 77, rfl⟩
abbrev main_v48 : Ref sig .tc := ⟨.hbm, 78, rfl⟩
abbrev main_cst_7 : Ref sig .tc := ⟨.hbm, 79, rfl⟩
abbrev main_v49 : Ref sig .tc := ⟨.hbm, 80, rfl⟩
abbrev main_v50 : Ref sig .tc := ⟨.hbm, 81, rfl⟩
abbrev main_cst_8 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_cst_9 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_scratch0 : Ref sig .tc := ⟨.vmem, 12, rfl⟩
abbrev cc0_scratch1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg5_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg6_0 : Ref sig .tc := ⟨.vmem, 30, rfl⟩
abbrev cc2_stg6_1 : Ref sig .tc := ⟨.vmem, 31, rfl⟩
abbrev cc2_stg7_0 : Ref sig .tc := ⟨.vmem, 32, rfl⟩
abbrev cc2_stg8_0 : Ref sig .tc := ⟨.vmem, 33, rfl⟩
abbrev cc2_scratch0 : Ref sig .tc := ⟨.vmem, 34, rfl⟩
abbrev cc2_scratch1 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg2_0 : Ref sig .tc := ⟨.vmem, 39, rfl⟩
abbrev cc3_stg3_0 : Ref sig .tc := ⟨.vmem, 40, rfl⟩
abbrev cc3_stg4_0 : Ref sig .tc := ⟨.vmem, 41, rfl⟩
abbrev cc3_stg5_0 : Ref sig .tc := ⟨.vmem, 42, rfl⟩
abbrev cc3_stg6_0 : Ref sig .tc := ⟨.vmem, 43, rfl⟩
abbrev cc3_stg7_0 : Ref sig .tc := ⟨.vmem, 44, rfl⟩
abbrev cc3_stg7_1 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem5_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29
abbrev cc2_sem7_0 : DmaSem sig := 30
abbrev cc2_sem8_0 : DmaSem sig := 31
abbrev cc3_sem0_0 : DmaSem sig := 32
abbrev cc3_sem0_1 : DmaSem sig := 33
abbrev cc3_sem1_0 : DmaSem sig := 34
abbrev cc3_sem2_0 : DmaSem sig := 35
abbrev cc3_sem3_0 : DmaSem sig := 36
abbrev cc3_sem4_0 : DmaSem sig := 37
abbrev cc3_sem5_0 : DmaSem sig := 38
abbrev cc3_sem6_0 : DmaSem sig := 39
abbrev cc3_sem7_0 : DmaSem sig := 40
abbrev cc3_sem7_1 : DmaSem sig := 41

abbrev nD : Nat := 1
abbrev τ : Topo := Topo.v7x

variable {F : FTy → Type} [FloatOps F]

abbrev grid0 : Pipeline.Grid := ⟨1, ![5], ![false]⟩

def k0_cond2 (i : grid0.Coords) : BitVec 1 :=
  let arg0 : BitVec 32 := BitVec.ofNat 32 (i 0).val
  let c4_i32 : BitVec 32 := 4#32
  let v43 : BitVec 1 := Scalar.cmpi .eq arg0 c4_i32
  let v44 : BitVec 32 := Scalar.extui v43
  let c0_i32_27 : BitVec 32 := 0#32
  let v45 : BitVec 1 := Scalar.cmpi .ne v44 c0_i32_27
  v45

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S10000x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x96 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S96x96 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S96x96 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x96 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S10000x96 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x96 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x96 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x96 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x96 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x96 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x96 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x96 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![5], ![false]⟩

def k2_cond2 (i : grid2.Coords) : BitVec 1 :=
  let arg0 : BitVec 32 := BitVec.ofNat 32 (i 0).val
  let c4_i32 : BitVec 32 := 4#32
  let v44 : BitVec 1 := Scalar.cmpi .eq arg0 c4_i32
  let v45 : BitVec 32 := Scalar.extui v44
  let c0_i32_27 : BitVec 32 := 0#32
  let v46 : BitVec 1 := Scalar.cmpi .ne v45 c0_i32_27
  v46

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S10000x96 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x96 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S96x96 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x96 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S96x96 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x96 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S10000x96 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 1 → Memref sig .tc .vmem S1x96 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x96 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x96 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x96 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x96 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x96 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x96 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S96x64 .bf16 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S10000x64 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

class Facts₀ : Prop where
  bitsLt_bf16_f32 : FTy.bits .bf16 < FTy.bits .f32
  bcast_S_S800000 : S_.BroadcastsInDim S800000 (![] : Fin 0 → Fin S800000.rank)
  bcast_S800000_S800000x1_0 : S800000.BroadcastsInDim S800000x1 (![0] : Fin 1 → Fin S800000x1.rank)
  bcast_S_S50000x96 : S_.BroadcastsInDim S50000x96 (![] : Fin 0 → Fin S50000x96.rank)
  shapeCasts_S96_S1x96 : S96.ShapeCasts S1x96
  inb_S1x96_S1x96_0_0 : ∀ a, (![0, 0] : Fin 2 → Nat) a + S1x96.size a ≤ S1x96.size a
  h_S1x96 : 0 < S1x96.numel
  shapeCasts_S1x96_S1x96 : S1x96.ShapeCasts S1x96
  inb_S10000x96_S10000x96_0_0 : ∀ a, (![0, 0] : Fin 2 → Nat) a + S10000x96.size a ≤ S10000x96.size a
  h_S10000x96 : 0 < S10000x96.numel
  shapeCasts_S10000x96_S10000x96 : S10000x96.ShapeCasts S10000x96
  inb_S96x96_S96x96_0_0 : ∀ a, (![0, 0] : Fin 2 → Nat) a + S96x96.size a ≤ S96x96.size a
  h_S96x96 : 0 < S96x96.numel
  shapeCasts_S96x96_S96x96 : S96x96.ShapeCasts S96x96
  broadcasts_S1x96_S10000x96 : S1x96.Broadcasts S10000x96
  reduces_S10000x96_S96 : S10000x96.Reduces [0] S96
  shapeCasts_S1x96_S96 : S1x96.ShapeCasts S96
  bcast_S_S96 : S_.BroadcastsInDim S96 (![] : Fin 0 → Fin S96.rank)
  shapeCasts_S64_S1x64 : S64.ShapeCasts S1x64
  inb_S96x64_S96x64_0_0 : ∀ a, (![0, 0] : Fin 2 → Nat) a + S96x64.size a ≤ S96x64.size a
  h_S96x64 : 0 < S96x64.numel
  shapeCasts_S96x64_S96x64 : S96x64.ShapeCasts S96x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S10000x96_S96x96_S10000x96_1_0_0_1_n_n_wf : DotDims.WF S10000x96 S96x96 S10000x96 [1] [0] [0] [1] [] []
  dot_S10000x96_S96x64_S10000x64_1_0_0_1_n_n_wf : DotDims.WF S10000x96 S96x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x96.size a ≤ S50000x96.size a
  hwx0_0 : ∀ i : grid0.Coords, EltTy.bits .f32 = 32 ∨ (Rect.block (s := S50000x96) S10000x96.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x96.size a ≤ S50000x96.size a
  hwx0_1 : ∀ i : grid0.Coords, EltTy.bits .f32 = 32 ∨ (Rect.block (s := S50000x96) S10000x96.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S96x96.size a ≤ S96x96.size a
  hwx0_2 : ∀ i : grid0.Coords, EltTy.bits .bf16 = 32 ∨ (Rect.block (s := S96x96) S96x96.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x96.size a ≤ S1x96.size a
  hwx0_3 : ∀ i : grid0.Coords, EltTy.bits .f32 = 32 ∨ (Rect.block (s := S1x96) S1x96.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S96x96.size a ≤ S96x96.size a
  hwx0_4 : ∀ i : grid0.Coords, EltTy.bits .bf16 = 32 ∨ (Rect.block (s := S96x96) S96x96.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x96.size a ≤ S1x96.size a
  hwx0_5 : ∀ i : grid0.Coords, EltTy.bits .f32 = 32 ∨ (Rect.block (s := S1x96) S1x96.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x96.size a ≤ S50000x96.size a
  hwx0_6 : ∀ i : grid0.Coords, EltTy.bits .f32 = 32 ∨ (Rect.block (s := S50000x96) S10000x96.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x96.size a ≤ S1x96.size a
  hwx0_7 : ∀ i : grid0.Coords, EltTy.bits .f32 = 32 ∨ (Rect.block (s := S1x96) S1x96.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x96.size a ≤ S1x96.size a
  hwx0_8 : ∀ i : grid0.Coords, EltTy.bits .f32 = 32 ∨ (Rect.block (s := S1x96) S1x96.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x96.size a ≤ S50000x96.size a
  hwx1_0 : ∀ i : grid1.Coords, EltTy.bits .f32 = 32 ∨ (Rect.block (s := S50000x96) S10000x96.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x96.size a ≤ S1x96.size a
  hwx1_1 : ∀ i : grid1.Coords, EltTy.bits .f32 = 32 ∨ (Rect.block (s := S1x96) S1x96.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x96.size a ≤ S1x96.size a
  hwx1_2 : ∀ i : grid1.Coords, EltTy.bits .f32 = 32 ∨ (Rect.block (s := S1x96) S1x96.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x96.size a ≤ S1x96.size a
  hwx1_3 : ∀ i : grid1.Coords, EltTy.bits .f32 = 32 ∨ (Rect.block (s := S1x96) S1x96.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x96.size a ≤ S1x96.size a
  hwx1_4 : ∀ i : grid1.Coords, EltTy.bits .f32 = 32 ∨ (Rect.block (s := S1x96) S1x96.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x96.size a ≤ S50000x96.size a
  hwx1_5 : ∀ i : grid1.Coords, EltTy.bits .f32 = 32 ∨ (Rect.block (s := S50000x96) S10000x96.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x96.size a ≤ S50000x96.size a
  hwx2_0 : ∀ i : grid2.Coords, EltTy.bits .f32 = 32 ∨ (Rect.block (s := S50000x96) S10000x96.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x96.size a ≤ S50000x96.size a
  hwx2_1 : ∀ i : grid2.Coords, EltTy.bits .f32 = 32 ∨ (Rect.block (s := S50000x96) S10000x96.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S96x96.size a ≤ S96x96.size a
  hwx2_2 : ∀ i : grid2.Coords, EltTy.bits .bf16 = 32 ∨ (Rect.block (s := S96x96) S96x96.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x96.size a ≤ S1x96.size a
  hwx2_3 : ∀ i : grid2.Coords, EltTy.bits .f32 = 32 ∨ (Rect.block (s := S1x96) S1x96.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S96x96.size a ≤ S96x96.size a
  hwx2_4 : ∀ i : grid2.Coords, EltTy.bits .bf16 = 32 ∨ (Rect.block (s := S96x96) S96x96.size (cc2_transform_4 i) (hinb2_4 i)).WholeWords (EltTy.packing .bf16)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x96.size a ≤ S1x96.size a
  hwx2_5 : ∀ i : grid2.Coords, EltTy.bits .f32 = 32 ∨ (Rect.block (s := S1x96) S1x96.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S10000x96.size a ≤ S50000x96.size a
  hwx2_6 : ∀ i : grid2.Coords, EltTy.bits .f32 = 32 ∨ (Rect.block (s := S50000x96) S10000x96.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x96.size a ≤ S1x96.size a
  hwx2_7 : ∀ i : grid2.Coords, EltTy.bits .f32 = 32 ∨ (Rect.block (s := S1x96) S1x96.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x96.size a ≤ S1x96.size a
  hwx2_8 : ∀ i : grid2.Coords, EltTy.bits .f32 = 32 ∨ (Rect.block (s := S1x96) S1x96.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x96.size a ≤ S50000x96.size a
  hwx3_0 : ∀ i : grid3.Coords, EltTy.bits .f32 = 32 ∨ (Rect.block (s := S50000x96) S10000x96.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x96.size a ≤ S1x96.size a
  hwx3_1 : ∀ i : grid3.Coords, EltTy.bits .f32 = 32 ∨ (Rect.block (s := S1x96) S1x96.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x96.size a ≤ S1x96.size a
  hwx3_2 : ∀ i : grid3.Coords, EltTy.bits .f32 = 32 ∨ (Rect.block (s := S1x96) S1x96.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x96.size a ≤ S1x96.size a
  hwx3_3 : ∀ i : grid3.Coords, EltTy.bits .f32 = 32 ∨ (Rect.block (s := S1x96) S1x96.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x96.size a ≤ S1x96.size a
  hwx3_4 : ∀ i : grid3.Coords, EltTy.bits .f32 = 32 ∨ (Rect.block (s := S1x96) S1x96.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S96x64.size a ≤ S96x64.size a
  hwx3_5 : ∀ i : grid3.Coords, EltTy.bits .bf16 = 32 ∨ (Rect.block (s := S96x64) S96x64.size (cc3_transform_5 i) (hinb3_5 i)).WholeWords (EltTy.packing .bf16)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x64.size a ≤ S1x64.size a
  hwx3_6 : ∀ i : grid3.Coords, EltTy.bits .f32 = 32 ∨ (Rect.block (s := S1x64) S1x64.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S10000x64.size a ≤ S50000x64.size a
  hwx3_7 : ∀ i : grid3.Coords, EltTy.bits .f32 = 32 ∨ (Rect.block (s := S50000x64) S10000x64.size (cc3_transform_7 i) (hinb3_7 i)).WholeWords (EltTy.packing .f32)

variable [Facts₀]

def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S10000x96_S96x96_S10000x96_1_0_0_1_n_n : DotDims S10000x96 S96x96 S10000x96 where
  lhsContracting := [1]
  rhsContracting := [0]
  lhsNonContracting := [0]
  rhsNonContracting := [1]
  lhsBatch := []
  rhsBatch := []
  wf := dot_S10000x96_S96x96_S10000x96_1_0_0_1_n_n_wf
def dot_S10000x96_S96x64_S10000x64_1_0_0_1_n_n : DotDims S10000x96 S96x64 S10000x64 where
  lhsContracting := [1]
  rhsContracting := [0]
  lhsNonContracting := [0]
  rhsNonContracting := [1]
  lhsBatch := []
  rhsBatch := []
  wf := dot_S10000x96_S96x64_S10000x64_1_0_0_1_n_n_wf

abbrev win0_0 : Pipeline.Window sig grid0 :=
  Pipeline.Window.ofSpec (Memref.whole main_arg0) S10000x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S10000x96.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S96x96.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1x96.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S96x96.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S1x96.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v17_0) S10000x96.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v17_1) S1x96.size cc0_transform_7 reads0_7 true true 1 stage0_7 sem0_7
    hrank0 hreads0_7 hinb0_7 nbuf0_7 (Memref.isWhole_whole _) hwx0_7 hstage0_7

abbrev win0_8 : Pipeline.Window sig grid0 :=
  Pipeline.Window.ofSpec (Memref.whole main_v17_2) S1x96.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun i => !(k0_cond2 i == 1#1) | 8 => fun i => !(k0_cond2 i == 1#1) | ⟨_ + 9, h⟩ => absurd h (Nat.not_lt.2 (Nat.le_add_left _ _))

abbrev win1_0 : Pipeline.Window sig grid1 :=
  Pipeline.Window.ofSpec (Memref.whole main_v17_0) S10000x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S1x96.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v30) S1x96.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v31) S1x96.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v32) S1x96.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v33) S10000x96.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v33) S10000x96.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v43) S10000x96.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v2) S96x96.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v44) S1x96.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v3) S96x96.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v45) S1x96.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v46_0) S10000x96.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v46_1) S1x96.size cc2_transform_7 reads2_7 true true 1 stage2_7 sem2_7
    hrank2 hreads2_7 hinb2_7 nbuf2_7 (Memref.isWhole_whole _) hwx2_7 hstage2_7

abbrev win2_8 : Pipeline.Window sig grid2 :=
  Pipeline.Window.ofSpec (Memref.whole main_v46_2) S1x96.size cc2_transform_8 reads2_8 true true 1 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev idle2 : Fin 9 → grid2.Coords → Bool := fun | 0 => fun _ => false | 1 => fun _ => false | 2 => fun _ => false | 3 => fun _ => false | 4 => fun _ => false | 5 => fun _ => false | 6 => fun _ => false | 7 => fun i => !(k2_cond2 i == 1#1) | 8 => fun i => !(k2_cond2 i == 1#1) | ⟨_ + 9, h⟩ => absurd h (Nat.not_lt.2 (Nat.le_add_left _ _))

abbrev win3_0 : Pipeline.Window sig grid3 :=
  Pipeline.Window.ofSpec (Memref.whole main_v46_0) S10000x96.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v58) S1x96.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v59) S1x96.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v60) S1x96.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v61) S1x96.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v4) S96x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v62) S1x64.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v63) S10000x64.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

class Facts : Prop extends Facts₀ where

variable [Facts]
-- ==== ReferenceIdeal.lean ====
abbrev S50000x96 : Shape := ⟨2, ![50000, 96]⟩
abbrev S96x96 : Shape := ⟨2, ![96, 96]⟩
abbrev S96 : Shape := ⟨1, ![96]⟩
abbrev S96x64 : Shape := ⟨2, ![96, 64]⟩
abbrev S64 : Shape := ⟨1, ![64]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x96 : Shape := ⟨2, ![850000, 96]⟩
abbrev S1x96 : Shape := ⟨2, ![1, 96]⟩
abbrev S50000x64 : Shape := ⟨2, ![50000, 64]⟩
abbrev S1x64 : Shape := ⟨2, ![1, 64]⟩

abbrev nBuf : Space → Nat
  | .hbm => 168
  | .vmem => 0
  | .smem => 0
  | _ => 0

abbrev hbmTy0_0 (i : Nat) : BufTy := match i % 128 with
  | 0 => ⟨S50000x96, .f32⟩
  | 1 => ⟨S96x96, .f32⟩
  | 2 => ⟨S96, .f32⟩
  | 3 => ⟨S96x96, .f32⟩
  | 4 => ⟨S96, .f32⟩
  | 5 => ⟨S96x96, .f32⟩
  | 6 => ⟨S96, .f32⟩
  | 7 => ⟨S96x96, .f32⟩
  | 8 => ⟨S96, .f32⟩
  | 9 => ⟨S96, .f32⟩
  | 10 => ⟨S96, .f32⟩
  | 11 => ⟨S96, .f32⟩
  | 12 => ⟨S96, .f32⟩
  | 13 => ⟨S96x64, .f32⟩
  | 14 => ⟨S64, .f32⟩
  | 15 => ⟨S800000, .i32⟩
  | 16 => ⟨S800000, .i32⟩
  | 17 => ⟨S50000, .i32⟩
  | 18 => ⟨S850000, .i32⟩
  | 19 => ⟨S850000, .i32⟩
  | 20 => ⟨S_, .i32⟩
  | 21 => ⟨S850000, .i32⟩
  | 22 => ⟨S850000, .i1⟩
  | 23 => ⟨S_, .i32⟩
  | 24 => ⟨S850000, .i32⟩
  | 25 => ⟨S850000, .i32⟩
  | 26 => ⟨S850000, .i32⟩
  | 27 => ⟨S850000x1, .i32⟩
  | 28 => ⟨S850000x96, .f32⟩
  | 29 => ⟨S_, .f32⟩
  | 30 => ⟨S50000x96, .f32⟩
  | 31 => ⟨S850000x1, .i32⟩
  | 32 => ⟨S50000x96, .f32⟩
  | 33 => ⟨S50000x96, .f32⟩
  | 34 => ⟨S50000x96, .f32⟩
  | 35 => ⟨S1x96, .f32⟩
  | 36 => ⟨S50000x96, .f32⟩
  | 37 => ⟨S50000x96, .f32⟩
  | 38 => ⟨S_, .f32⟩
  | 39 => ⟨S50000x96, .f32⟩
  | 40 => ⟨S50000x96, .f32⟩
  | 41 => ⟨S50000x96, .f32⟩
  | 42 => ⟨S1x96, .f32⟩
  | 43 => ⟨S50000x96, .f32⟩
  | 44 => ⟨S50000x96, .f32⟩
  | 45 => ⟨S_, .f32⟩
  | 46 => ⟨S96, .f32⟩
  | 47 => ⟨S_, .f32⟩
  | 48 => ⟨S96, .f32⟩
  | 49 => ⟨S96, .f32⟩
  | 50 => ⟨S_, .i32⟩
  | 51 => ⟨S_, .f32⟩
  | 52 => ⟨S96, .f32⟩
  | 53 => ⟨S1x96, .f32⟩
  | 54 => ⟨S_, .f32⟩
  | 55 => ⟨S1x96, .f32⟩
  | 56 => ⟨S1x96, .f32⟩
  | 57 => ⟨S50000x96, .f32⟩
  | 58 => ⟨S50000x96, .f32⟩
  | 59 => ⟨S50000x96, .f32⟩
  | 60 => ⟨S_, .f32⟩
  | 61 => ⟨S_, .f32⟩
  | 62 => ⟨S_, .f32⟩
  | 63 => ⟨S_, .f32⟩
  | 64 => ⟨S96, .f32⟩
  | 65 => ⟨S96, .f32⟩
  | 66 => ⟨S96, .f32⟩
  | 67 => ⟨S_, .f32⟩
  | 68 => ⟨S_, .i1⟩
  | 69 => ⟨S_, .f32⟩
  | 70 => ⟨S_, .f32⟩
  | 71 => ⟨S96, .f32⟩
  | 72 => ⟨S96, .f32⟩
  | 73 => ⟨S1x96, .f32⟩
  | 74 => ⟨S50000x96, .f32⟩
  | 75 => ⟨S50000x96, .f32⟩
  | 76 => ⟨S_, .f32⟩
  | 77 => ⟨S96, .f32⟩
  | 78 => ⟨S96, .f32⟩
  | 79 => ⟨S96, .f32⟩
  | 80 => ⟨S1x96, .f32⟩
  | 81 => ⟨S50000x96, .f32⟩
  | 82 => ⟨S50000x96, .f32⟩
  | 83 => ⟨S1x96, .f32⟩
  | 84 => ⟨S50000x96, .f32⟩
  | 85 => ⟨S50000x96, .f32⟩
  | 86 => ⟨S1x96, .f32⟩
  | 87 => ⟨S50000x96, .f32⟩
  | 88 => ⟨S50000x96, .f32⟩
  | 89 => ⟨S_, .f32⟩
  | 90 => ⟨S50000x96, .f32⟩
  | 91 => ⟨S50000x96, .f32⟩
  | 92 => ⟨S_, .i32⟩
  | 93 => ⟨S850000, .i32⟩
  | 94 => ⟨S850000, .i1⟩
  | 95 => ⟨S_, .i32⟩
  | 96 => ⟨S850000, .i32⟩
  | 97 => ⟨S850000, .i32⟩
  | 98 => ⟨S850000, .i32⟩
  | 99 => ⟨S850000x1, .i32⟩
  | 100 => ⟨S850000x96, .f32⟩
  | 101 => ⟨S_, .f32⟩
  | 102 => ⟨S50000x96, .f32⟩
  | 103 => ⟨S850000x1, .i32⟩
  | 104 => ⟨S50000x96, .f32⟩
  | 105 => ⟨S50000x96, .f32⟩
  | 106 => ⟨S50000x96, .f32⟩
  | 107 => ⟨S1x96, .f32⟩
  | 108 => ⟨S50000x96, .f32⟩
  | 109 => ⟨S50000x96, .f32⟩
  | 110 => ⟨S_, .f32⟩
  | 111 => ⟨S50000x96, .f32⟩
  | 112 => ⟨S50000x96, .f32⟩
  | 113 => ⟨S50000x96, .f32⟩
  | 114 => ⟨S1x96, .f32⟩
  | 115 => ⟨S50000x96, .f32⟩
  | 116 => ⟨S50000x96, .f32⟩
  | 117 => ⟨S_, .f32⟩
  | 118 => ⟨S96, .f32⟩
  | 119 => ⟨S_, .f32⟩
  | 120 => ⟨S96, .f32⟩
  | 121 => ⟨S96, .f32⟩
  | 122 => ⟨S_, .i32⟩
  | 123 => ⟨S_, .f32⟩
  | 124 => ⟨S96, .f32⟩
  | 125 => ⟨S1x96, .f32⟩
  | 126 => ⟨S_, .f32⟩
  | 127 => ⟨S1x96, .f32⟩
  | _ => ⟨S50000x96, .f32⟩

abbrev hbmTy0_1 (i : Nat) : BufTy := match i % 128 with
  | 0 => ⟨S1x96, .f32⟩
  | 1 => ⟨S50000x96, .f32⟩
  | 2 => ⟨S50000x96, .f32⟩
  | 3 => ⟨S50000x96, .f32⟩
  | 4 => ⟨S_, .f32⟩
  | 5 => ⟨S_, .f32⟩
  | 6 => ⟨S_, .f32⟩
  | 7 => ⟨S_, .f32⟩
  | 8 => ⟨S96, .f32⟩
  | 9 => ⟨S96, .f32⟩
  | 10 => ⟨S96, .f32⟩
  | 11 => ⟨S_, .f32⟩
  | 12 => ⟨S_, .i1⟩
  | 13 => ⟨S_, .f32⟩
  | 14 => ⟨S_, .f32⟩
  | 15 => ⟨S96, .f32⟩
  | 16 => ⟨S96, .f32⟩
  | 17 => ⟨S1x96, .f32⟩
  | 18 => ⟨S50000x96, .f32⟩
  | 19 => ⟨S50000x96, .f32⟩
  | 20 => ⟨S_, .f32⟩
  | 21 => ⟨S96, .f32⟩
  | 22 => ⟨S96, .f32⟩
  | 23 => ⟨S96, .f32⟩
  | 24 => ⟨S1x96, .f32⟩
  | 25 => ⟨S50000x96, .f32⟩
  | 26 => ⟨S50000x96, .f32⟩
  | 27 => ⟨S1x96, .f32⟩
  | 28 => ⟨S50000x96, .f32⟩
  | 29 => ⟨S50000x96, .f32⟩
  | 30 => ⟨S1x96, .f32⟩
  | 31 => ⟨S50000x96, .f32⟩
  | 32 => ⟨S50000x96, .f32⟩
  | 33 => ⟨S_, .f32⟩
  | 34 => ⟨S50000x96, .f32⟩
  | 35 => ⟨S50000x96, .f32⟩
  | 36 => ⟨S50000x64, .f32⟩
  | 37 => ⟨S1x64, .f32⟩
  | 38 => ⟨S50000x64, .f32⟩
  | 39 => ⟨S50000x64, .f32⟩
  | _ => ⟨S50000x96, .f32⟩

abbrev hbmTy (i : Nat) : BufTy := match i / 128 with
  | 0 => hbmTy0_0 i
  | 1 => hbmTy0_1 i
  | _ => ⟨S50000x96, .f32⟩

abbrev bufTy : (tb : Table) → Fin (tcTables nBuf tb) → BufTy
  | .hbm, ⟨i, _⟩ => hbmTy i
  | _, _ => ⟨S50000x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_c : Ref sig .tc := ⟨.hbm, 20, rfl⟩
abbrev main_v3 : Ref sig .tc := ⟨.hbm, 21, rfl⟩
abbrev main_v4 : Ref sig .tc := ⟨.hbm, 22, rfl⟩
abbrev main_c_0 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_cst : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_1 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_cst_2 : Ref sig .tc := ⟨.hbm, 45, rfl⟩
abbrev main_v24 : Ref sig .tc := ⟨.hbm, 46, rfl⟩
abbrev main_cst_3 : Ref sig .tc := ⟨.hbm, 47, rfl⟩
abbrev main_v25 : Ref sig .tc := ⟨.hbm, 48, rfl⟩
abbrev main_v26 : Ref sig .tc := ⟨.hbm, 49, rfl⟩
abbrev main_c_4 : Ref sig .tc := ⟨.hbm, 50, rfl⟩
abbrev main_call0_cst : Ref sig .tc := ⟨.hbm, 51, rfl⟩
abbrev main_call0_v0 : Ref sig .tc := ⟨.hbm, 52, rfl⟩
abbrev main_call0_v1 : Ref sig .tc := ⟨.hbm, 53, rfl⟩
abbrev main_call0_cst_0 : Ref sig .tc := ⟨.hbm, 54, rfl⟩
abbrev main_call0_v2 : Ref sig .tc := ⟨.hbm, 55, rfl⟩
abbrev main_call0_v3 : Ref sig .tc := ⟨.hbm, 56, rfl⟩
abbrev main_call0_v4 : Ref sig .tc := ⟨.hbm, 57, rfl⟩
abbrev main_call0_v5 : Ref sig .tc := ⟨.hbm, 58, rfl⟩
abbrev main_call0_v6 : Ref sig .tc := ⟨.hbm, 59, rfl⟩
abbrev main_call0_v7 : Ref sig .tc := ⟨.hbm, 60, rfl⟩
abbrev main_call0_cst_1 : Ref sig .tc := ⟨.hbm, 61, rfl⟩
abbrev main_call0_v8 : Ref sig .tc := ⟨.hbm, 62, rfl⟩
abbrev main_call0_cst_2 : Ref sig .tc := ⟨.hbm, 63, rfl⟩
abbrev main_call0_v9 : Ref sig .tc := ⟨.hbm, 64, rfl⟩
abbrev main_call0_v10 : Ref sig .tc := ⟨.hbm, 65, rfl⟩
abbrev main_call0_v11 : Ref sig .tc := ⟨.hbm, 66, rfl⟩
abbrev main_call0_cst_3 : Ref sig .tc := ⟨.hbm, 67, rfl⟩
abbrev main_call0_v12 : Ref sig .tc := ⟨.hbm, 68, rfl⟩
abbrev main_call0_cst_4 : Ref sig .tc := ⟨.hbm, 69, rfl⟩
abbrev main_call0_call0_v0 : Ref sig .tc := ⟨.hbm, 70, rfl⟩
abbrev main_call0_call0_v1 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_cst_5 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_cst_6 : Ref sig .tc := ⟨.hbm, 89, rfl⟩
abbrev main_v43 : Ref sig .tc := ⟨.hbm, 90, rfl⟩
abbrev main_v44 : Ref sig .tc := ⟨.hbm, 91, rfl⟩
abbrev main_c_7 : Ref sig .tc := ⟨.hbm, 92, rfl⟩
abbrev main_v45 : Ref sig .tc := ⟨.hbm, 93, rfl⟩
abbrev main_v46 : Ref sig .tc := ⟨.hbm, 94, rfl⟩
abbrev main_c_8 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_cst_9 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_cst_10 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_cst_11 : Ref sig .tc := ⟨.hbm, 117, rfl⟩
abbrev main_v66 : Ref sig .tc := ⟨.hbm, 118, rfl⟩
abbrev main_cst_12 : Ref sig .tc := ⟨.hbm, 119, rfl⟩
abbrev main_v67 : Ref sig .tc := ⟨.hbm, 120, rfl⟩
abbrev main_v68 : Ref sig .tc := ⟨.hbm, 121, rfl⟩
abbrev main_c_13 : Ref sig .tc := ⟨.hbm, 122, rfl⟩
abbrev main_call1_cst : Ref sig .tc := ⟨.hbm, 123, rfl⟩
abbrev main_call1_v0 : Ref sig .tc := ⟨.hbm, 124, rfl⟩
abbrev main_call1_v1 : Ref sig .tc := ⟨.hbm, 125, rfl⟩
abbrev main_call1_cst_0 : Ref sig .tc := ⟨.hbm, 126, rfl⟩
abbrev main_call1_v2 : Ref sig .tc := ⟨.hbm, 127, rfl⟩
abbrev main_call1_v3 : Ref sig .tc := ⟨.hbm, 128, rfl⟩
abbrev main_call1_v4 : Ref sig .tc := ⟨.hbm, 129, rfl⟩
abbrev main_call1_v5 : Ref sig .tc := ⟨.hbm, 130, rfl⟩
abbrev main_call1_v6 : Ref sig .tc := ⟨.hbm, 131, rfl⟩
abbrev main_call1_v7 : Ref sig .tc := ⟨.hbm, 132, rfl⟩
abbrev main_call1_cst_1 : Ref sig .tc := ⟨.hbm, 133, rfl⟩
abbrev main_call1_v8 : Ref sig .tc := ⟨.hbm, 134, rfl⟩
abbrev main_call1_cst_2 : Ref sig .tc := ⟨.hbm, 135, rfl⟩
abbrev main_call1_v9 : Ref sig .tc := ⟨.hbm, 136, rfl⟩
abbrev main_call1_v10 : Ref sig .tc := ⟨.hbm, 137, rfl⟩
abbrev main_call1_v11 : Ref sig .tc := ⟨.hbm, 138, rfl⟩
abbrev main_call1_cst_3 : Ref sig .tc := ⟨.hbm, 139, rfl⟩
abbrev main_call1_v12 : Ref sig .tc := ⟨.hbm, 140, rfl⟩
abbrev main_call1_cst_4 : Ref sig .tc := ⟨.hbm, 141, rfl⟩
abbrev main_call1_call0_v0 : Ref sig .tc := ⟨.hbm, 142, rfl⟩
abbrev main_call1_call0_v1 : Ref sig .tc := ⟨.hbm, 143, rfl⟩
abbrev main_v69 : Ref sig .tc := ⟨.hbm, 144, rfl⟩
abbrev main_v70 : Ref sig .tc := ⟨.hbm, 145, rfl⟩
abbrev main_v71 : Ref sig .tc := ⟨.hbm, 146, rfl⟩
abbrev main_v72 : Ref sig .tc := ⟨.hbm, 147, rfl⟩
abbrev main_cst_14 : Ref sig .tc := ⟨.hbm, 148, rfl⟩
abbrev main_v73 : Ref sig .tc := ⟨.hbm, 149, rfl⟩
abbrev main_v74 : Ref sig .tc := ⟨.hbm, 150, rfl⟩
abbrev main_v75 : Ref sig .tc := ⟨.hbm, 151, rfl⟩
abbrev main_v76 : Ref sig .tc := ⟨.hbm, 152, rfl⟩
abbrev main_v77 : Ref sig .tc := ⟨.hbm, 153, rfl⟩
abbrev main_v78 : Ref sig .tc := ⟨.hbm, 154, rfl⟩
abbrev main_v79 : Ref sig .tc := ⟨.hbm, 155, rfl⟩
abbrev main_v80 : Ref sig .tc := ⟨.hbm, 156, rfl⟩
abbrev main_v81 : Ref sig .tc := ⟨.hbm, 157, rfl⟩
abbrev main_v82 : Ref sig .tc := ⟨.hbm, 158, rfl⟩
abbrev main_v83 : Ref sig .tc := ⟨.hbm, 159, rfl⟩
abbrev main_v84 : Ref sig .tc := ⟨.hbm, 160, rfl⟩
abbrev main_cst_15 : Ref sig .tc := ⟨.hbm, 161, rfl⟩
abbrev main_v85 : Ref sig .tc := ⟨.hbm, 162, rfl⟩
abbrev main_v86 : Ref sig .tc := ⟨.hbm, 163, rfl⟩
abbrev main_v87 : Ref sig .tc := ⟨.hbm, 164, rfl⟩
abbrev main_v88 : Ref sig .tc := ⟨.hbm, 165, rfl⟩
abbrev main_v89 : Ref sig .tc := ⟨.hbm, 166, rfl⟩
abbrev main_v90 : Ref sig .tc := ⟨.hbm, 167, rfl⟩

abbrev nD : Nat := 1
abbrev τ : Topo := Topo.v7x

variable {F : FTy → Type} [FloatOps F]

class Facts₀ : Prop where
  concatenates_S800000_S50000_S850000_d0 : Shape.Concatenates [S800000, S50000] S850000 0
  bcast_S_S850000 : S_.BroadcastsInDim S850000 (![] : Fin 0 → Fin S850000.rank)
  bcast_S850000_S850000x1_0 : S850000.BroadcastsInDim S850000x1 (![0] : Fin 1 → Fin S850000x1.rank)
  bcast_S_S50000x96 : S_.BroadcastsInDim S50000x96 (![] : Fin 0 → Fin S50000x96.rank)
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  reducesTo_S50000x96_S96_d0 : S50000x96.ReducesTo [0] S96
  h_S_ : 0 < S_.numel
  bcast_S_S96 : S_.BroadcastsInDim S96 (![] : Fin 0 → Fin S96.rank)
  bcast_S_S1x96 : S_.BroadcastsInDim S1x96 (![] : Fin 0 → Fin S1x96.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x96_S850000x1_S850000x96_1_0_n_n_0_1_196_wf : GatherDims.WF S50000x96 S850000x1 S850000x96 [1] [0] [] [0] [] 1 ![1, 96]
  scatter_S50000x96_S850000x1_S850000x96_1_0_0_1_wf : ScatterDims.WF S50000x96 S850000x1 S850000x96 [1] [0] [0] 1
  dot_S50000x96_S96x96_S50000x96_1_0_0_1_n_n_wf : DotDims.WF S50000x96 S96x96 S50000x96 [1] [0] [0] [1] [] []
  dot_S50000x96_S96x64_S50000x64_1_0_0_1_n_n_wf : DotDims.WF S50000x96 S96x64 S50000x64 [1] [0] [0] [1] [] []

variable [Facts₀]

def gather_S50000x96_S850000x1_S850000x96_1_0_n_n_0_1_196 : GatherDims S50000x96 S850000x1 S850000x96 where
  offsetDims := [1]
  collapsedSliceDims := [0]
  operandBatchingDims := []
  startIndicesBatchingDims := []
  startIndexMap := [0]
  indexVectorDim := 1
  sliceSizes := ![1, 96]
  wf := gather_S50000x96_S850000x1_S850000x96_1_0_n_n_0_1_196_wf
def scatter_S50000x96_S850000x1_S850000x96_1_0_0_1 : ScatterDims S50000x96 S850000x1 S850000x96 where
  updateWindowDims := [1]
  insertedWindowDims := [0]
  scatterDimsToOperandDims := [0]
  indexVectorDim := 1
  wf := scatter_S50000x96_S850000x1_S850000x96_1_0_0_1_wf
def dot_S50000x96_S96x96_S50000x96_1_0_0_1_n_n : DotDims S50000x96 S96x96 S50000x96 where
  lhsContracting := [1]
  rhsContracting := [0]
  lhsNonContracting := [0]
  rhsNonContracting := [1]
  lhsBatch := []
  rhsBatch := []
  wf := dot_S50000x96_S96x96_S50000x96_1_0_0_1_n_n_wf
def dot_S50000x96_S96x64_S50000x64_1_0_0_1_n_n : DotDims S50000x96 S96x64 S50000x64 where
  lhsContracting := [1]
  rhsContracting := [0]
  lhsNonContracting := [0]
  rhsNonContracting := [1]
  lhsBatch := []
  rhsBatch := []
  wf := dot_S50000x96_S96x64_S50000x64_1_0_0_1_n_n_wf

class Facts : Prop extends Facts₀ where

variable [Facts]
-- ==== Proof.Reg0Runs.lean ====
import proofs.«111056_j31628139167864_2_alg».proof.Proof.Gen.KernelIdeal.Launch
import proofs.«111056_j31628139167864_2_alg».proof.Proof.Gen.KernelIdeal.Skeleton
import proofs.«111056_j31628139167864_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0 (custom_call 0, the MLP kernel with its two carried column-sum accumulators): what its runs share -/

/-! ## The body's two branch conditions, decided over the five grid points -/

/-- The condition of the body's first conditional (zero the two accumulators): the point's coordinate is 0. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val = 0 :=
  (by decide +kernel : ∀ t : Fin grid0.N, cond0_0 (grid0.coords t) ↔ t.val = 0)

/-- The condition of the body's second conditional (copy the accumulators out): the point's coordinate is 4. -/
abbrev cond0_1 (i : grid0.Coords) : Prop := k0_cond2 i = 1#1
/-- It holds at the last point only. -/
theorem hcond0_1 : ∀ t : Fin cfg0.N, cond0_1 (grid0.coords t) ↔ t.val = 4 :=
  (by decide +kernel : ∀ t : Fin grid0.N, cond0_1 (grid0.coords t) ↔ t.val = 4)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
/-- Away from the last point the two statistics outputs are idle (nothing is stored into them) and not written back. -/
theorem idleAt0_7 : ∀ t : Fin cfg0.N, ¬cond0_1 (grid0.coords t) → cfg0.idle 7 (grid0.coords t) = true := by decide +kernel
theorem noFlush0_7 : ∀ t : Fin cfg0.N, ¬cond0_1 (grid0.coords t) → (cfg0.win 7).flush t = false := by decide +kernel
theorem idleAt0_8 : ∀ t : Fin cfg0.N, ¬cond0_1 (grid0.coords t) → cfg0.idle 8 (grid0.coords t) = true := by decide +kernel
theorem noFlush0_8 : ∀ t : Fin cfg0.N, ¬cond0_1 (grid0.coords t) → (cfg0.win 8).flush t = false := by decide +kernel
/-- At the last point they are live. -/
theorem liveAt0_7 : ∀ t : Fin cfg0.N, cond0_1 (grid0.coords t) → cfg0.idle 7 (grid0.coords t) = false := by decide +kernel
theorem liveAt0_8 : ∀ t : Fin cfg0.N, cond0_1 (grid0.coords t) → cfg0.idle 8 (grid0.coords t) = false := by decide +kernel

/-! ## The staging memrefs and the scratch -/

/-- One staging buffer of each output window, through which its contents are stated. -/
abbrev VO0_6 : View sig .tc .vmem S10000x96 .f32 := (Memref.whole cc0_stg6_0 : Memref sig .tc .vmem S10000x96 .f32).view
abbrev VO0_7 : View sig .tc .vmem S1x96 .f32 := (Memref.whole cc0_stg7_0 : Memref sig .tc .vmem S1x96 .f32).view
abbrev VO0_8 : View sig .tc .vmem S1x96 .f32 := (Memref.whole cc0_stg8_0 : Memref sig .tc .vmem S1x96 .f32).view
/-- The wholeness of each window's current staging memref at point `t`, as the pipeline passes it. -/
abbrev hs0_0 (t : Fin cfg0.N) : (st0_0 t).IsWhole := hstage0_0 ((cfg0.slots t 0).cast nbuf0_0)
abbrev hs0_1 (t : Fin cfg0.N) : (st0_1 t).IsWhole := hstage0_1 ((cfg0.slots t 1).cast nbuf0_1)
abbrev hs0_2 (t : Fin cfg0.N) : (st0_2 t).IsWhole := hstage0_2 ((cfg0.slots t 2).cast nbuf0_2)
abbrev hs0_3 (t : Fin cfg0.N) : (st0_3 t).IsWhole := hstage0_3 ((cfg0.slots t 3).cast nbuf0_3)
abbrev hs0_4 (t : Fin cfg0.N) : (st0_4 t).IsWhole := hstage0_4 ((cfg0.slots t 4).cast nbuf0_4)
abbrev hs0_5 (t : Fin cfg0.N) : (st0_5 t).IsWhole := hstage0_5 ((cfg0.slots t 5).cast nbuf0_5)
abbrev hs0_6 (t : Fin cfg0.N) : (st0_6 t).IsWhole := hstage0_6 ((cfg0.slots t 6).cast nbuf0_6)
abbrev hs0_7 (t : Fin cfg0.N) : (st0_7 t).IsWhole := hstage0_7 ((cfg0.slots t 7).cast nbuf0_7)
abbrev hs0_8 (t : Fin cfg0.N) : (st0_8 t).IsWhole := hstage0_8 ((cfg0.slots t 8).cast nbuf0_8)
/-- The two scratch operands: whole scoped buffers of the kernel's own, carried between points. -/
abbrev scM0_0 : Memref sig .tc .vmem S1x96 .f32 := Memref.whole cc0_scratch0
abbrev scM0_1 : Memref sig .tc .vmem S1x96 .f32 := Memref.whole cc0_scratch1
abbrev VS0_0 : View sig .tc .vmem S1x96 .f32 := scM0_0.view
abbrev VS0_1 : View sig .tc .vmem S1x96 .f32 := scM0_1.view

/-- The class's invariant with the two scratch operands as memrefs owned at some contents; every other scoped buffer
    stays unopened. -/
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d))
          ∗ Pipeline.scopedRestBut (Ix := Unit) (Name := ℕ) (U := UR sig nD τ) (Lvl := ℕ) (Val := Elt F) spec0 c [cc0_scratch0, cc0_scratch1]) ∗ (∃ r, prngReg c r)) := by
  unfold Pipeline.ΦA; rw [scopedRest0_split]; simp only [scM0_0, scM0_1, owns_whole]; try rfl

end Cert.KernelIdeal.Hand

end
-- ==== Proof.Reg0RunA.lean ====
/- Region 0's body at the first grid point: the two accumulators are zeroed, then accumulate; what the run leaves in each buffer it stores into. -/
import proofs.«111056_j31628139167864_2_alg».proof.Proof.Reg0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run at the first point (the accumulators are zeroed, then accumulate; nothing is copied out): on whole staging memrefs, the inputs' at their contents, the h2 output's at anything,
    the two idle statistics outputs' at contents handed back untouched, the two accumulators at anything,
    the body runs to a continuation that holds the inputs' as they were and each buffer it stored into with its pieces
    written, the pieces listed last store first. -/
noncomputable def kernelRun0_A (c : Dev nD) (i : grid0.Coords) (arg1 : Memref sig .tc .vmem S10000x96 .f32) (harg1 : arg1.IsWhole) (arg2 : Memref sig .tc .vmem S10000x96 .f32) (harg2 : arg2.IsWhole) (arg3 : Memref sig .tc .vmem S96x96 .bf16) (harg3 : arg3.IsWhole) (arg4 : Memref sig .tc .vmem S1x96 .f32) (harg4 : arg4.IsWhole) (arg5 : Memref sig .tc .vmem S96x96 .bf16) (harg5 : arg5.IsWhole) (arg6 : Memref sig .tc .vmem S1x96 .f32) (harg6 : arg6.IsWhole) (arg7 : Memref sig .tc .vmem S10000x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (arg11 : Memref sig .tc .vmem S1x96 .f32) (harg11 : arg11.IsWhole) (hc0 : cond0_0 i) (hc1 : ¬cond0_1 i)
    (x0 : Vec F S10000x96 .f32) (x1 : Vec F S10000x96 .f32) (x2 : Vec F S96x96 .bf16) (x3 : Vec F S1x96 .f32) (x4 : Vec F S96x96 .bf16) (x5 : Vec F S1x96 .f32) :
    Σ' (L6 : List (View.Piece (Elt F) S10000x96 .f32)) (LS0 : List (View.Piece (Elt F) S1x96 .f32)), { LS1 : List (View.Piece (Elt F) S1x96 .f32) //
      ∀ (xi7 : Vec F S1x96 .f32) (xi8 : Vec F S1x96 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xi8 ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ owns (c : Thread nD τ) arg9 fullShare xi8 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__mlp_kernel i arg1 harg1 arg2 harg2 arg3 harg3 arg4 harg4 arg5 harg5 arg6 harg6 arg7 harg7 arg8 harg8 arg9 harg9 arg10 harg10 arg11 harg11) K } := by
  refine ⟨?_, ?_, ?_, fun xi7 xi8 E K => ?run⟩
  case run =>
    simp only [cc0__mlp_kernel_eq_skeleton]; unfold cc0__mlp_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [H8]
    · iexists _; isplitr; · ipureintro; exact harg9.read_unread _
      iexact H8
    isplitl [HS0]; · iexists _; iexact HS0
    iexists _; iexact HS1

end Cert.KernelIdeal.Hand

end
-- ==== Proof.Reg0RunB.lean ====
/- Region 0's body at a middle grid point: the accumulators accumulate, nothing is zeroed or copied out; what the run leaves in each buffer it stores into. -/
import proofs.«111056_j31628139167864_2_alg».proof.Proof.Reg0RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run at a middle point (the accumulators accumulate; nothing is zeroed or copied out): on whole staging memrefs, the inputs' at their contents, the h2 output's at anything,
    the two idle statistics outputs' at contents handed back untouched, the two accumulators at what the point before left,
    the body runs to a continuation that holds the inputs' as they were and each buffer it stored into with its pieces
    written, the pieces listed last store first. -/
noncomputable def kernelRun0_B (c : Dev nD) (i : grid0.Coords) (arg1 : Memref sig .tc .vmem S10000x96 .f32) (harg1 : arg1.IsWhole) (arg2 : Memref sig .tc .vmem S10000x96 .f32) (harg2 : arg2.IsWhole) (arg3 : Memref sig .tc .vmem S96x96 .bf16) (harg3 : arg3.IsWhole) (arg4 : Memref sig .tc .vmem S1x96 .f32) (harg4 : arg4.IsWhole) (arg5 : Memref sig .tc .vmem S96x96 .bf16) (harg5 : arg5.IsWhole) (arg6 : Memref sig .tc .vmem S1x96 .f32) (harg6 : arg6.IsWhole) (arg7 : Memref sig .tc .vmem S10000x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (arg11 : Memref sig .tc .vmem S1x96 .f32) (harg11 : arg11.IsWhole) (hc0 : ¬cond0_0 i) (hc1 : ¬cond0_1 i)
    (x0 : Vec F S10000x96 .f32) (x1 : Vec F S10000x96 .f32) (x2 : Vec F S96x96 .bf16) (x3 : Vec F S1x96 .f32) (x4 : Vec F S96x96 .bf16) (x5 : Vec F S1x96 .f32) (xs0 : Vec F S1x96 .f32) (xs1 : Vec F S1x96 .f32) :
    Σ' (L6 : List (View.Piece (Elt F) S10000x96 .f32)) (LS0 : List (View.Piece (Elt F) S1x96 .f32)), { LS1 : List (View.Piece (Elt F) S1x96 .f32) //
      ∀ (xi7 : Vec F S1x96 .f32) (xi8 : Vec F S1x96 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xi8 ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ owns (c : Thread nD τ) arg9 fullShare xi8 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__mlp_kernel i arg1 harg1 arg2 harg2 arg3 harg3 arg4 harg4 arg5 harg5 arg6 harg6 arg7 harg7 arg8 harg8 arg9 harg9 arg10 harg10 arg11 harg11) K } := by
  refine ⟨?_, ?_, ?_, fun xi7 xi8 E K => ?run⟩
  case run =>
    simp only [cc0__mlp_kernel_eq_skeleton]; unfold cc0__mlp_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8; obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [H8]
    · iexists _; isplitr; · ipureintro; exact harg9.read_unread _
      iexact H8
    isplitl [HS0]; · iexists _; iexact HS0
    iexists _; iexact HS1

end Cert.KernelIdeal.Hand

end
-- ==== Proof.Reg0RunC.lean ====
/- Region 0's body at the last grid point: the accumulators accumulate and are copied to the two statistics outputs; what the run leaves in each buffer it stores into. -/
import proofs.«111056_j31628139167864_2_alg».proof.Proof.Reg0RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run at the last point (the accumulators accumulate and are copied to the two statistics outputs): on whole staging memrefs, the inputs' at their contents, the h2 output's at anything,
    the two statistics outputs' at anything, the two accumulators at what the point before left,
    the body runs to a continuation that holds the inputs' as they were and each buffer it stored into with its pieces
    written, the pieces listed last store first. -/
noncomputable def kernelRun0_C (c : Dev nD) (i : grid0.Coords) (arg1 : Memref sig .tc .vmem S10000x96 .f32) (harg1 : arg1.IsWhole) (arg2 : Memref sig .tc .vmem S10000x96 .f32) (harg2 : arg2.IsWhole) (arg3 : Memref sig .tc .vmem S96x96 .bf16) (harg3 : arg3.IsWhole) (arg4 : Memref sig .tc .vmem S1x96 .f32) (harg4 : arg4.IsWhole) (arg5 : Memref sig .tc .vmem S96x96 .bf16) (harg5 : arg5.IsWhole) (arg6 : Memref sig .tc .vmem S1x96 .f32) (harg6 : arg6.IsWhole) (arg7 : Memref sig .tc .vmem S10000x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (arg11 : Memref sig .tc .vmem S1x96 .f32) (harg11 : arg11.IsWhole) (hc0 : ¬cond0_0 i) (hc1 : cond0_1 i)
    (x0 : Vec F S10000x96 .f32) (x1 : Vec F S10000x96 .f32) (x2 : Vec F S96x96 .bf16) (x3 : Vec F S1x96 .f32) (x4 : Vec F S96x96 .bf16) (x5 : Vec F S1x96 .f32) (xs0 : Vec F S1x96 .f32) (xs1 : Vec F S1x96 .f32) :
    Σ' (L6 : List (View.Piece (Elt F) S10000x96 .f32)) (L7 : List (View.Piece (Elt F) S1x96 .f32)) (L8 : List (View.Piece (Elt F) S1x96 .f32)) (LS0 : List (View.Piece (Elt F) S1x96 .f32)), { LS1 : List (View.Piece (Elt F) S1x96 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__mlp_kernel i arg1 harg1 arg2 harg2 arg3 harg3 arg4 harg4 arg5 harg5 arg6 harg6 arg7 harg7 arg8 harg8 arg9 harg9 arg10 harg10 arg11 harg11) K } := by
  refine ⟨?_, ?_, ?_, ?_, ?_, fun E K => ?run⟩
  case run =>
    simp only [cc0__mlp_kernel_eq_skeleton]; unfold cc0__mlp_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    isplitl [HS0]; · iexists _; iexact HS0
    iexists _; iexact HS1

end Cert.KernelIdeal.Hand

end
-- ==== Proof.Reg0.lean ====
import proofs.«111056_j31628139167864_2_alg».proof.Proof.Reg0RunB
import proofs.«111056_j31628139167864_2_alg».proof.Proof.Reg0RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the TensorCore's buffer contents when the region is entered
variable (V : (c : Dev nD) → (b : Ref sig .tc) → Buf (Elt F) ((c : Thread nD τ).loc b))

/-! # Region 0: custom_call 0, the MLP kernel with two carried column-sum accumulators, at the entry contents `V` -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## Each input window's staging buffer holds its block at every point, fetched there or not -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

end Region0

/-! ## What each case's run leaves in the buffers it stores into -/

/-- The h2 output block at the first point: the run's pieces for it tile the buffer, so they cover it. -/
theorem cover0_A_6 (c : Dev nD) (i : grid0.Coords) (arg1 : Memref sig .tc .vmem S10000x96 .f32) (harg1 : arg1.IsWhole) (arg2 : Memref sig .tc .vmem S10000x96 .f32) (harg2 : arg2.IsWhole) (arg3 : Memref sig .tc .vmem S96x96 .bf16) (harg3 : arg3.IsWhole) (arg4 : Memref sig .tc .vmem S1x96 .f32) (harg4 : arg4.IsWhole) (arg5 : Memref sig .tc .vmem S96x96 .bf16) (harg5 : arg5.IsWhole) (arg6 : Memref sig .tc .vmem S1x96 .f32) (harg6 : arg6.IsWhole) (arg7 : Memref sig .tc .vmem S10000x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (arg11 : Memref sig .tc .vmem S1x96 .f32) (harg11 : arg11.IsWhole) (hc0 : cond0_0 i) (hc1 : ¬cond0_1 i)
    (x0 : Vec F S10000x96 .f32) (x1 : Vec F S10000x96 .f32) (x2 : Vec F S96x96 .bf16) (x3 : Vec F S1x96 .f32) (x4 : Vec F S96x96 .bf16) (x5 : Vec F S1x96 .f32) (y : S10000x96.Idx) :
    ∃ pc ∈ (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).1 S10000x96.size (by sl_kernel_rfl) y

/-- The h2 output block at the first point: what the run leaves in it, its pieces read back. -/
def out0_A_6 (c : Dev nD) (i : grid0.Coords) (arg1 : Memref sig .tc .vmem S10000x96 .f32) (harg1 : arg1.IsWhole) (arg2 : Memref sig .tc .vmem S10000x96 .f32) (harg2 : arg2.IsWhole) (arg3 : Memref sig .tc .vmem S96x96 .bf16) (harg3 : arg3.IsWhole) (arg4 : Memref sig .tc .vmem S1x96 .f32) (harg4 : arg4.IsWhole) (arg5 : Memref sig .tc .vmem S96x96 .bf16) (harg5 : arg5.IsWhole) (arg6 : Memref sig .tc .vmem S1x96 .f32) (harg6 : arg6.IsWhole) (arg7 : Memref sig .tc .vmem S10000x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (arg11 : Memref sig .tc .vmem S1x96 .f32) (harg11 : arg11.IsWhole) (hc0 : cond0_0 i) (hc1 : ¬cond0_1 i)
    (x0 : Vec F S10000x96 .f32) (x1 : Vec F S10000x96 .f32) (x2 : Vec F S96x96 .bf16) (x3 : Vec F S1x96 .f32) (x4 : Vec F S96x96 .bf16) (x5 : Vec F S1x96 .f32) : Vec F S10000x96 .f32 :=
  VO0_6.read (Elt F) (VO0_6.writes (Elt F) VO0_6.junk (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).1)

/-- The column-sum accumulator at the first point: the run's pieces for it tile the buffer, so they cover it. -/
theorem scover0_A_0 (c : Dev nD) (i : grid0.Coords) (arg1 : Memref sig .tc .vmem S10000x96 .f32) (harg1 : arg1.IsWhole) (arg2 : Memref sig .tc .vmem S10000x96 .f32) (harg2 : arg2.IsWhole) (arg3 : Memref sig .tc .vmem S96x96 .bf16) (harg3 : arg3.IsWhole) (arg4 : Memref sig .tc .vmem S1x96 .f32) (harg4 : arg4.IsWhole) (arg5 : Memref sig .tc .vmem S96x96 .bf16) (harg5 : arg5.IsWhole) (arg6 : Memref sig .tc .vmem S1x96 .f32) (harg6 : arg6.IsWhole) (arg7 : Memref sig .tc .vmem S10000x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (arg11 : Memref sig .tc .vmem S1x96 .f32) (harg11 : arg11.IsWhole) (hc0 : cond0_0 i) (hc1 : ¬cond0_1 i)
    (x0 : Vec F S10000x96 .f32) (x1 : Vec F S10000x96 .f32) (x2 : Vec F S96x96 .bf16) (x3 : Vec F S1x96 .f32) (x4 : Vec F S96x96 .bf16) (x5 : Vec F S1x96 .f32) (y : S1x96.Idx) :
    ∃ pc ∈ (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.1 S1x96.size (by sl_kernel_rfl) y

/-- The column-sum accumulator at the first point: what the run leaves in it, its pieces read back. -/
def sout0_A_0 (c : Dev nD) (i : grid0.Coords) (arg1 : Memref sig .tc .vmem S10000x96 .f32) (harg1 : arg1.IsWhole) (arg2 : Memref sig .tc .vmem S10000x96 .f32) (harg2 : arg2.IsWhole) (arg3 : Memref sig .tc .vmem S96x96 .bf16) (harg3 : arg3.IsWhole) (arg4 : Memref sig .tc .vmem S1x96 .f32) (harg4 : arg4.IsWhole) (arg5 : Memref sig .tc .vmem S96x96 .bf16) (harg5 : arg5.IsWhole) (arg6 : Memref sig .tc .vmem S1x96 .f32) (harg6 : arg6.IsWhole) (arg7 : Memref sig .tc .vmem S10000x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (arg11 : Memref sig .tc .vmem S1x96 .f32) (harg11 : arg11.IsWhole) (hc0 : cond0_0 i) (hc1 : ¬cond0_1 i)
    (x0 : Vec F S10000x96 .f32) (x1 : Vec F S10000x96 .f32) (x2 : Vec F S96x96 .bf16) (x3 : Vec F S1x96 .f32) (x4 : Vec F S96x96 .bf16) (x5 : Vec F S1x96 .f32) : Vec F S1x96 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.1)

/-- The column-sum-of-squares accumulator at the first point: the run's pieces for it tile the buffer, so they cover it. -/
theorem scover0_A_1 (c : Dev nD) (i : grid0.Coords) (arg1 : Memref sig .tc .vmem S10000x96 .f32) (harg1 : arg1.IsWhole) (arg2 : Memref sig .tc .vmem S10000x96 .f32) (harg2 : arg2.IsWhole) (arg3 : Memref sig .tc .vmem S96x96 .bf16) (harg3 : arg3.IsWhole) (arg4 : Memref sig .tc .vmem S1x96 .f32) (harg4 : arg4.IsWhole) (arg5 : Memref sig .tc .vmem S96x96 .bf16) (harg5 : arg5.IsWhole) (arg6 : Memref sig .tc .vmem S1x96 .f32) (harg6 : arg6.IsWhole) (arg7 : Memref sig .tc .vmem S10000x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (arg11 : Memref sig .tc .vmem S1x96 .f32) (harg11 : arg11.IsWhole) (hc0 : cond0_0 i) (hc1 : ¬cond0_1 i)
    (x0 : Vec F S10000x96 .f32) (x1 : Vec F S10000x96 .f32) (x2 : Vec F S96x96 .bf16) (x3 : Vec F S1x96 .f32) (x4 : Vec F S96x96 .bf16) (x5 : Vec F S1x96 .f32) (y : S1x96.Idx) :
    ∃ pc ∈ (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.2.1 S1x96.size (by sl_kernel_rfl) y

/-- The column-sum-of-squares accumulator at the first point: what the run leaves in it, its pieces read back. -/
def sout0_A_1 (c : Dev nD) (i : grid0.Coords) (arg1 : Memref sig .tc .vmem S10000x96 .f32) (harg1 : arg1.IsWhole) (arg2 : Memref sig .tc .vmem S10000x96 .f32) (harg2 : arg2.IsWhole) (arg3 : Memref sig .tc .vmem S96x96 .bf16) (harg3 : arg3.IsWhole) (arg4 : Memref sig .tc .vmem S1x96 .f32) (harg4 : arg4.IsWhole) (arg5 : Memref sig .tc .vmem S96x96 .bf16) (harg5 : arg5.IsWhole) (arg6 : Memref sig .tc .vmem S1x96 .f32) (harg6 : arg6.IsWhole) (arg7 : Memref sig .tc .vmem S10000x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (arg11 : Memref sig .tc .vmem S1x96 .f32) (harg11 : arg11.IsWhole) (hc0 : cond0_0 i) (hc1 : ¬cond0_1 i)
    (x0 : Vec F S10000x96 .f32) (x1 : Vec F S10000x96 .f32) (x2 : Vec F S96x96 .bf16) (x3 : Vec F S1x96 .f32) (x4 : Vec F S96x96 .bf16) (x5 : Vec F S1x96 .f32) : Vec F S1x96 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.2.1)

/-- The h2 output block at a middle point: the run's pieces for it tile the buffer, so they cover it. -/
theorem cover0_B_6 (c : Dev nD) (i : grid0.Coords) (arg1 : Memref sig .tc .vmem S10000x96 .f32) (harg1 : arg1.IsWhole) (arg2 : Memref sig .tc .vmem S10000x96 .f32) (harg2 : arg2.IsWhole) (arg3 : Memref sig .tc .vmem S96x96 .bf16) (harg3 : arg3.IsWhole) (arg4 : Memref sig .tc .vmem S1x96 .f32) (harg4 : arg4.IsWhole) (arg5 : Memref sig .tc .vmem S96x96 .bf16) (harg5 : arg5.IsWhole) (arg6 : Memref sig .tc .vmem S1x96 .f32) (harg6 : arg6.IsWhole) (arg7 : Memref sig .tc .vmem S10000x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (arg11 : Memref sig .tc .vmem S1x96 .f32) (harg11 : arg11.IsWhole) (hc0 : ¬cond0_0 i) (hc1 : ¬cond0_1 i)
    (x0 : Vec F S10000x96 .f32) (x1 : Vec F S10000x96 .f32) (x2 : Vec F S96x96 .bf16) (x3 : Vec F S1x96 .f32) (x4 : Vec F S96x96 .bf16) (x5 : Vec F S1x96 .f32) (xs0 : Vec F S1x96 .f32) (xs1 : Vec F S1x96 .f32) (y : S10000x96.Idx) :
    ∃ pc ∈ (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1 S10000x96.size (by sl_kernel_rfl) y

/-- The h2 output block at a middle point: what the run leaves in it, its pieces read back. -/
def out0_B_6 (c : Dev nD) (i : grid0.Coords) (arg1 : Memref sig .tc .vmem S10000x96 .f32) (harg1 : arg1.IsWhole) (arg2 : Memref sig .tc .vmem S10000x96 .f32) (harg2 : arg2.IsWhole) (arg3 : Memref sig .tc .vmem S96x96 .bf16) (harg3 : arg3.IsWhole) (arg4 : Memref sig .tc .vmem S1x96 .f32) (harg4 : arg4.IsWhole) (arg5 : Memref sig .tc .vmem S96x96 .bf16) (harg5 : arg5.IsWhole) (arg6 : Memref sig .tc .vmem S1x96 .f32) (harg6 : arg6.IsWhole) (arg7 : Memref sig .tc .vmem S10000x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (arg11 : Memref sig .tc .vmem S1x96 .f32) (harg11 : arg11.IsWhole) (hc0 : ¬cond0_0 i) (hc1 : ¬cond0_1 i)
    (x0 : Vec F S10000x96 .f32) (x1 : Vec F S10000x96 .f32) (x2 : Vec F S96x96 .bf16) (x3 : Vec F S1x96 .f32) (x4 : Vec F S96x96 .bf16) (x5 : Vec F S1x96 .f32) (xs0 : Vec F S1x96 .f32) (xs1 : Vec F S1x96 .f32) : Vec F S10000x96 .f32 :=
  VO0_6.read (Elt F) (VO0_6.writes (Elt F) VO0_6.junk (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1)

/-- The column-sum accumulator at a middle point: the run's pieces for it tile the buffer, so they cover it. -/
theorem scover0_B_0 (c : Dev nD) (i : grid0.Coords) (arg1 : Memref sig .tc .vmem S10000x96 .f32) (harg1 : arg1.IsWhole) (arg2 : Memref sig .tc .vmem S10000x96 .f32) (harg2 : arg2.IsWhole) (arg3 : Memref sig .tc .vmem S96x96 .bf16) (harg3 : arg3.IsWhole) (arg4 : Memref sig .tc .vmem S1x96 .f32) (harg4 : arg4.IsWhole) (arg5 : Memref sig .tc .vmem S96x96 .bf16) (harg5 : arg5.IsWhole) (arg6 : Memref sig .tc .vmem S1x96 .f32) (harg6 : arg6.IsWhole) (arg7 : Memref sig .tc .vmem S10000x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (arg11 : Memref sig .tc .vmem S1x96 .f32) (harg11 : arg11.IsWhole) (hc0 : ¬cond0_0 i) (hc1 : ¬cond0_1 i)
    (x0 : Vec F S10000x96 .f32) (x1 : Vec F S10000x96 .f32) (x2 : Vec F S96x96 .bf16) (x3 : Vec F S1x96 .f32) (x4 : Vec F S96x96 .bf16) (x5 : Vec F S1x96 .f32) (xs0 : Vec F S1x96 .f32) (xs1 : Vec F S1x96 .f32) (y : S1x96.Idx) :
    ∃ pc ∈ (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1 S1x96.size (by sl_kernel_rfl) y

/-- The column-sum accumulator at a middle point: what the run leaves in it, its pieces read back. -/
def sout0_B_0 (c : Dev nD) (i : grid0.Coords) (arg1 : Memref sig .tc .vmem S10000x96 .f32) (harg1 : arg1.IsWhole) (arg2 : Memref sig .tc .vmem S10000x96 .f32) (harg2 : arg2.IsWhole) (arg3 : Memref sig .tc .vmem S96x96 .bf16) (harg3 : arg3.IsWhole) (arg4 : Memref sig .tc .vmem S1x96 .f32) (harg4 : arg4.IsWhole) (arg5 : Memref sig .tc .vmem S96x96 .bf16) (harg5 : arg5.IsWhole) (arg6 : Memref sig .tc .vmem S1x96 .f32) (harg6 : arg6.IsWhole) (arg7 : Memref sig .tc .vmem S10000x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (arg11 : Memref sig .tc .vmem S1x96 .f32) (harg11 : arg11.IsWhole) (hc0 : ¬cond0_0 i) (hc1 : ¬cond0_1 i)
    (x0 : Vec F S10000x96 .f32) (x1 : Vec F S10000x96 .f32) (x2 : Vec F S96x96 .bf16) (x3 : Vec F S1x96 .f32) (x4 : Vec F S96x96 .bf16) (x5 : Vec F S1x96 .f32) (xs0 : Vec F S1x96 .f32) (xs1 : Vec F S1x96 .f32) : Vec F S1x96 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1)

/-- The column-sum-of-squares accumulator at a middle point: the run's pieces for it tile the buffer, so they cover it. -/
theorem scover0_B_1 (c : Dev nD) (i : grid0.Coords) (arg1 : Memref sig .tc .vmem S10000x96 .f32) (harg1 : arg1.IsWhole) (arg2 : Memref sig .tc .vmem S10000x96 .f32) (harg2 : arg2.IsWhole) (arg3 : Memref sig .tc .vmem S96x96 .bf16) (harg3 : arg3.IsWhole) (arg4 : Memref sig .tc .vmem S1x96 .f32) (harg4 : arg4.IsWhole) (arg5 : Memref sig .tc .vmem S96x96 .bf16) (harg5 : arg5.IsWhole) (arg6 : Memref sig .tc .vmem S1x96 .f32) (harg6 : arg6.IsWhole) (arg7 : Memref sig .tc .vmem S10000x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (arg11 : Memref sig .tc .vmem S1x96 .f32) (harg11 : arg11.IsWhole) (hc0 : ¬cond0_0 i) (hc1 : ¬cond0_1 i)
    (x0 : Vec F S10000x96 .f32) (x1 : Vec F S10000x96 .f32) (x2 : Vec F S96x96 .bf16) (x3 : Vec F S1x96 .f32) (x4 : Vec F S96x96 .bf16) (x5 : Vec F S1x96 .f32) (xs0 : Vec F S1x96 .f32) (xs1 : Vec F S1x96 .f32) (y : S1x96.Idx) :
    ∃ pc ∈ (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1 S1x96.size (by sl_kernel_rfl) y

/-- The column-sum-of-squares accumulator at a middle point: what the run leaves in it, its pieces read back. -/
def sout0_B_1 (c : Dev nD) (i : grid0.Coords) (arg1 : Memref sig .tc .vmem S10000x96 .f32) (harg1 : arg1.IsWhole) (arg2 : Memref sig .tc .vmem S10000x96 .f32) (harg2 : arg2.IsWhole) (arg3 : Memref sig .tc .vmem S96x96 .bf16) (harg3 : arg3.IsWhole) (arg4 : Memref sig .tc .vmem S1x96 .f32) (harg4 : arg4.IsWhole) (arg5 : Memref sig .tc .vmem S96x96 .bf16) (harg5 : arg5.IsWhole) (arg6 : Memref sig .tc .vmem S1x96 .f32) (harg6 : arg6.IsWhole) (arg7 : Memref sig .tc .vmem S10000x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (arg11 : Memref sig .tc .vmem S1x96 .f32) (harg11 : arg11.IsWhole) (hc0 : ¬cond0_0 i) (hc1 : ¬cond0_1 i)
    (x0 : Vec F S10000x96 .f32) (x1 : Vec F S10000x96 .f32) (x2 : Vec F S96x96 .bf16) (x3 : Vec F S1x96 .f32) (x4 : Vec F S96x96 .bf16) (x5 : Vec F S1x96 .f32) (xs0 : Vec F S1x96 .f32) (xs1 : Vec F S1x96 .f32) : Vec F S1x96 .f32 :=
  VS0_1.read (Elt F) (VS0_1.writes (Elt F) VS0_1.junk (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1)

/-- The h2 output block at the last point: the run's pieces for it tile the buffer, so they cover it. -/
theorem cover0_C_6 (c : Dev nD) (i : grid0.Coords) (arg1 : Memref sig .tc .vmem S10000x96 .f32) (harg1 : arg1.IsWhole) (arg2 : Memref sig .tc .vmem S10000x96 .f32) (harg2 : arg2.IsWhole) (arg3 : Memref sig .tc .vmem S96x96 .bf16) (harg3 : arg3.IsWhole) (arg4 : Memref sig .tc .vmem S1x96 .f32) (harg4 : arg4.IsWhole) (arg5 : Memref sig .tc .vmem S96x96 .bf16) (harg5 : arg5.IsWhole) (arg6 : Memref sig .tc .vmem S1x96 .f32) (harg6 : arg6.IsWhole) (arg7 : Memref sig .tc .vmem S10000x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (arg11 : Memref sig .tc .vmem S1x96 .f32) (harg11 : arg11.IsWhole) (hc0 : ¬cond0_0 i) (hc1 : cond0_1 i)
    (x0 : Vec F S10000x96 .f32) (x1 : Vec F S10000x96 .f32) (x2 : Vec F S96x96 .bf16) (x3 : Vec F S1x96 .f32) (x4 : Vec F S96x96 .bf16) (x5 : Vec F S1x96 .f32) (xs0 : Vec F S1x96 .f32) (xs1 : Vec F S1x96 .f32) (y : S10000x96.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1 S10000x96.size (by sl_kernel_rfl) y

/-- The h2 output block at the last point: what the run leaves in it, its pieces read back. -/
def out0_C_6 (c : Dev nD) (i : grid0.Coords) (arg1 : Memref sig .tc .vmem S10000x96 .f32) (harg1 : arg1.IsWhole) (arg2 : Memref sig .tc .vmem S10000x96 .f32) (harg2 : arg2.IsWhole) (arg3 : Memref sig .tc .vmem S96x96 .bf16) (harg3 : arg3.IsWhole) (arg4 : Memref sig .tc .vmem S1x96 .f32) (harg4 : arg4.IsWhole) (arg5 : Memref sig .tc .vmem S96x96 .bf16) (harg5 : arg5.IsWhole) (arg6 : Memref sig .tc .vmem S1x96 .f32) (harg6 : arg6.IsWhole) (arg7 : Memref sig .tc .vmem S10000x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (arg11 : Memref sig .tc .vmem S1x96 .f32) (harg11 : arg11.IsWhole) (hc0 : ¬cond0_0 i) (hc1 : cond0_1 i)
    (x0 : Vec F S10000x96 .f32) (x1 : Vec F S10000x96 .f32) (x2 : Vec F S96x96 .bf16) (x3 : Vec F S1x96 .f32) (x4 : Vec F S96x96 .bf16) (x5 : Vec F S1x96 .f32) (xs0 : Vec F S1x96 .f32) (xs1 : Vec F S1x96 .f32) : Vec F S10000x96 .f32 :=
  VO0_6.read (Elt F) (VO0_6.writes (Elt F) VO0_6.junk (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1)

/-- The column-sum output at the last point: the run's pieces for it tile the buffer, so they cover it. -/
theorem cover0_C_7 (c : Dev nD) (i : grid0.Coords) (arg1 : Memref sig .tc .vmem S10000x96 .f32) (harg1 : arg1.IsWhole) (arg2 : Memref sig .tc .vmem S10000x96 .f32) (harg2 : arg2.IsWhole) (arg3 : Memref sig .tc .vmem S96x96 .bf16) (harg3 : arg3.IsWhole) (arg4 : Memref sig .tc .vmem S1x96 .f32) (harg4 : arg4.IsWhole) (arg5 : Memref sig .tc .vmem S96x96 .bf16) (harg5 : arg5.IsWhole) (arg6 : Memref sig .tc .vmem S1x96 .f32) (harg6 : arg6.IsWhole) (arg7 : Memref sig .tc .vmem S10000x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (arg11 : Memref sig .tc .vmem S1x96 .f32) (harg11 : arg11.IsWhole) (hc0 : ¬cond0_0 i) (hc1 : cond0_1 i)
    (x0 : Vec F S10000x96 .f32) (x1 : Vec F S10000x96 .f32) (x2 : Vec F S96x96 .bf16) (x3 : Vec F S1x96 .f32) (x4 : Vec F S96x96 .bf16) (x5 : Vec F S1x96 .f32) (xs0 : Vec F S1x96 .f32) (xs1 : Vec F S1x96 .f32) (y : S1x96.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1 S1x96.size (by sl_kernel_rfl) y

/-- The column-sum output at the last point: what the run leaves in it, its pieces read back. -/
def out0_C_7 (c : Dev nD) (i : grid0.Coords) (arg1 : Memref sig .tc .vmem S10000x96 .f32) (harg1 : arg1.IsWhole) (arg2 : Memref sig .tc .vmem S10000x96 .f32) (harg2 : arg2.IsWhole) (arg3 : Memref sig .tc .vmem S96x96 .bf16) (harg3 : arg3.IsWhole) (arg4 : Memref sig .tc .vmem S1x96 .f32) (harg4 : arg4.IsWhole) (arg5 : Memref sig .tc .vmem S96x96 .bf16) (harg5 : arg5.IsWhole) (arg6 : Memref sig .tc .vmem S1x96 .f32) (harg6 : arg6.IsWhole) (arg7 : Memref sig .tc .vmem S10000x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (arg11 : Memref sig .tc .vmem S1x96 .f32) (harg11 : arg11.IsWhole) (hc0 : ¬cond0_0 i) (hc1 : cond0_1 i)
    (x0 : Vec F S10000x96 .f32) (x1 : Vec F S10000x96 .f32) (x2 : Vec F S96x96 .bf16) (x3 : Vec F S1x96 .f32) (x4 : Vec F S96x96 .bf16) (x5 : Vec F S1x96 .f32) (xs0 : Vec F S1x96 .f32) (xs1 : Vec F S1x96 .f32) : Vec F S1x96 .f32 :=
  VO0_7.read (Elt F) (VO0_7.writes (Elt F) VO0_7.junk (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1)

/-- The column-sum-of-squares output at the last point: the run's pieces for it tile the buffer, so they cover it. -/
theorem cover0_C_8 (c : Dev nD) (i : grid0.Coords) (arg1 : Memref sig .tc .vmem S10000x96 .f32) (harg1 : arg1.IsWhole) (arg2 : Memref sig .tc .vmem S10000x96 .f32) (harg2 : arg2.IsWhole) (arg3 : Memref sig .tc .vmem S96x96 .bf16) (harg3 : arg3.IsWhole) (arg4 : Memref sig .tc .vmem S1x96 .f32) (harg4 : arg4.IsWhole) (arg5 : Memref sig .tc .vmem S96x96 .bf16) (harg5 : arg5.IsWhole) (arg6 : Memref sig .tc .vmem S1x96 .f32) (harg6 : arg6.IsWhole) (arg7 : Memref sig .tc .vmem S10000x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (arg11 : Memref sig .tc .vmem S1x96 .f32) (harg11 : arg11.IsWhole) (hc0 : ¬cond0_0 i) (hc1 : cond0_1 i)
    (x0 : Vec F S10000x96 .f32) (x1 : Vec F S10000x96 .f32) (x2 : Vec F S96x96 .bf16) (x3 : Vec F S1x96 .f32) (x4 : Vec F S96x96 .bf16) (x5 : Vec F S1x96 .f32) (xs0 : Vec F S1x96 .f32) (xs1 : Vec F S1x96 .f32) (y : S1x96.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1 S1x96.size (by sl_kernel_rfl) y

/-- The column-sum-of-squares output at the last point: what the run leaves in it, its pieces read back. -/
def out0_C_8 (c : Dev nD) (i : grid0.Coords) (arg1 : Memref sig .tc .vmem S10000x96 .f32) (harg1 : arg1.IsWhole) (arg2 : Memref sig .tc .vmem S10000x96 .f32) (harg2 : arg2.IsWhole) (arg3 : Memref sig .tc .vmem S96x96 .bf16) (harg3 : arg3.IsWhole) (arg4 : Memref sig .tc .vmem S1x96 .f32) (harg4 : arg4.IsWhole) (arg5 : Memref sig .tc .vmem S96x96 .bf16) (harg5 : arg5.IsWhole) (arg6 : Memref sig .tc .vmem S1x96 .f32) (harg6 : arg6.IsWhole) (arg7 : Memref sig .tc .vmem S10000x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (arg11 : Memref sig .tc .vmem S1x96 .f32) (harg11 : arg11.IsWhole) (hc0 : ¬cond0_0 i) (hc1 : cond0_1 i)
    (x0 : Vec F S10000x96 .f32) (x1 : Vec F S10000x96 .f32) (x2 : Vec F S96x96 .bf16) (x3 : Vec F S1x96 .f32) (x4 : Vec F S96x96 .bf16) (x5 : Vec F S1x96 .f32) (xs0 : Vec F S1x96 .f32) (xs1 : Vec F S1x96 .f32) : Vec F S1x96 .f32 :=
  VO0_8.read (Elt F) (VO0_8.writes (Elt F) VO0_8.junk (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1)

/-- The column-sum accumulator at the last point: the run's pieces for it tile the buffer, so they cover it. -/
theorem scover0_C_0 (c : Dev nD) (i : grid0.Coords) (arg1 : Memref sig .tc .vmem S10000x96 .f32) (harg1 : arg1.IsWhole) (arg2 : Memref sig .tc .vmem S10000x96 .f32) (harg2 : arg2.IsWhole) (arg3 : Memref sig .tc .vmem S96x96 .bf16) (harg3 : arg3.IsWhole) (arg4 : Memref sig .tc .vmem S1x96 .f32) (harg4 : arg4.IsWhole) (arg5 : Memref sig .tc .vmem S96x96 .bf16) (harg5 : arg5.IsWhole) (arg6 : Memref sig .tc .vmem S1x96 .f32) (harg6 : arg6.IsWhole) (arg7 : Memref sig .tc .vmem S10000x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (arg11 : Memref sig .tc .vmem S1x96 .f32) (harg11 : arg11.IsWhole) (hc0 : ¬cond0_0 i) (hc1 : cond0_1 i)
    (x0 : Vec F S10000x96 .f32) (x1 : Vec F S10000x96 .f32) (x2 : Vec F S96x96 .bf16) (x3 : Vec F S1x96 .f32) (x4 : Vec F S96x96 .bf16) (x5 : Vec F S1x96 .f32) (xs0 : Vec F S1x96 .f32) (xs1 : Vec F S1x96 .f32) (y : S1x96.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1 S1x96.size (by sl_kernel_rfl) y

/-- The column-sum accumulator at the last point: what the run leaves in it, its pieces read back. -/
def sout0_C_0 (c : Dev nD) (i : grid0.Coords) (arg1 : Memref sig .tc .vmem S10000x96 .f32) (harg1 : arg1.IsWhole) (arg2 : Memref sig .tc .vmem S10000x96 .f32) (harg2 : arg2.IsWhole) (arg3 : Memref sig .tc .vmem S96x96 .bf16) (harg3 : arg3.IsWhole) (arg4 : Memref sig .tc .vmem S1x96 .f32) (harg4 : arg4.IsWhole) (arg5 : Memref sig .tc .vmem S96x96 .bf16) (harg5 : arg5.IsWhole) (arg6 : Memref sig .tc .vmem S1x96 .f32) (harg6 : arg6.IsWhole) (arg7 : Memref sig .tc .vmem S10000x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (arg11 : Memref sig .tc .vmem S1x96 .f32) (harg11 : arg11.IsWhole) (hc0 : ¬cond0_0 i) (hc1 : cond0_1 i)
    (x0 : Vec F S10000x96 .f32) (x1 : Vec F S10000x96 .f32) (x2 : Vec F S96x96 .bf16) (x3 : Vec F S1x96 .f32) (x4 : Vec F S96x96 .bf16) (x5 : Vec F S1x96 .f32) (xs0 : Vec F S1x96 .f32) (xs1 : Vec F S1x96 .f32) : Vec F S1x96 .f32 :=
  VS0_0.read (Elt F) (VS0_0.writes (Elt F) VS0_0.junk (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1)

/-- The column-sum-of-squares accumulator at the last point: the run's pieces for it tile the buffer, so they cover it. -/
theorem scover0_C_1 (c : Dev nD) (i : grid0.Coords) (arg1 : Memref sig .tc .vmem S10000x96 .f32) (harg1 : arg1.IsWhole) (arg2 : Memref sig .tc .vmem S10000x96 .f32) (harg2 : arg2.IsWhole) (arg3 : Memref sig .tc .vmem S96x96 .bf16) (harg3 : arg3.IsWhole) (arg4 : Memref sig .tc .vmem S1x96 .f32) (harg4 : arg4.IsWhole) (arg5 : Memref sig .tc .vmem S96x96 .bf16) (harg5 : arg5.IsWhole) (arg6 : Memref sig .tc .vmem S1x96 .f32) (harg6 : arg6.IsWhole) (arg7 : Memref sig .tc .vmem S10000x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (arg11 : Memref sig .tc .vmem S1x96 .f32) (harg11 : arg11.IsWhole) (hc0 : ¬cond0_0 i) (hc1 : cond0_1 i)
    (x0 : Vec F S10000x96 .f32) (x1 : Vec F S10000x96 .f32) (x2 : Vec F S96x96 .bf16) (x3 : Vec F S1x96 .f32) (x4 : Vec F S96x96 .bf16) (x5 : Vec F S1x96 .f32) (xs0 : Vec F S1x96 .f32) (xs1 : Vec F S1x96 .f32) (y : S1x96.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1 S1x96.size (by sl_kernel_rfl) y

/-- The column-sum-of-squares accumulator at the last point: what the run leaves in it, its pieces read back. -/
def sout0_C_1 (c : Dev nD) (i : grid0.Coords) (arg1 : Memref sig .tc .vmem S10000x96 .f32) (harg1 : arg1.IsWhole) (arg2 : Memref sig .tc .vmem S10000x96 .f32) (harg2 : arg2.IsWhole) (arg3 : Memref sig .tc .vmem S96x96 .bf16) (harg3 : arg3.IsWhole) (arg4 : Memref sig .tc .vmem S1x96 .f32) (harg4 : arg4.IsWhole) (arg5 : Memref sig .tc .vmem S96x96 .bf16) (harg5 : arg5.IsWhole) (arg6 : Memref sig .tc .vmem S1x96 .f32) (harg6 : arg6.IsWhole) (arg7 : Memref sig .tc .vmem S10000x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (arg11 : Memref sig .tc .vmem S1x96 .f32) (harg11 : arg11.IsWhole) (hc0 : ¬cond0_0 i) (hc1 : cond0_1 i)
    (x0 : Vec F S10000x96 .f32) (x1 : Vec F S10000x96 .f32) (x2 : Vec F S96x96 .bf16) (x3 : Vec F S1x96 .f32) (x4 : Vec F S96x96 .bf16) (x5 : Vec F S1x96 .f32) (xs0 : Vec F S1x96 .f32) (xs1 : Vec F S1x96 .f32) : Vec F S1x96 .f32 :=
  VS0_1.read (Elt F) (VS0_1.writes (Elt F) VS0_1.junk (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1)

/-- What an idle statistics output's buffer is said to hold at a point that stores nothing into it: a placeholder nothing
    consults (the window is neither written back there nor read at the next point). -/
def idle0_7 : Vec F S1x96 .f32 := VO0_7.read (Elt F) (VO0_7.writes (Elt F) VO0_7.junk [])
def idle0_8 : Vec F S1x96 .f32 := VO0_8.read (Elt F) (VO0_8.writes (Elt F) VO0_8.junk [])

section Region0
variable (V : (c : Dev nD) → (b : Ref sig .tc) → Buf (Elt F) ((c : Thread nD τ).loc b))

/-! ## What the outputs and the accumulators hold after each point -/

/-- THE ACCUMULATION. After the body at position `n`: the h2 block, the two statistics outputs, the two accumulators —
    the first point's run over the point's input blocks, then at each later point the middle (or, at point 4, the last)
    run over the point's input blocks and the accumulators as the point before left them. -/
def outsAt0 (c : Dev nD) : (n : ℕ) → n < cfg0.N → Vec F S10000x96 .f32 × Vec F S1x96 .f32 × Vec F S1x96 .f32 × Vec F S1x96 .f32 × Vec F S1x96 .f32
  | 0, hn => (out0_A_6 c (grid0.coords ⟨0, hn⟩) (st0_0 ⟨0, hn⟩) (hs0_0 ⟨0, hn⟩) (st0_1 ⟨0, hn⟩) (hs0_1 ⟨0, hn⟩) (st0_2 ⟨0, hn⟩) (hs0_2 ⟨0, hn⟩) (st0_3 ⟨0, hn⟩) (hs0_3 ⟨0, hn⟩) (st0_4 ⟨0, hn⟩) (hs0_4 ⟨0, hn⟩) (st0_5 ⟨0, hn⟩) (hs0_5 ⟨0, hn⟩) (st0_6 ⟨0, hn⟩) (hs0_6 ⟨0, hn⟩) (st0_7 ⟨0, hn⟩) (hs0_7 ⟨0, hn⟩) (st0_8 ⟨0, hn⟩) (hs0_8 ⟨0, hn⟩) scM0_0 (Memref.isWhole_whole _) scM0_1 (Memref.isWhole_whole _) ((hcond0_0 ⟨0, hn⟩).mpr rfl) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩), idle0_7, idle0_8, sout0_A_0 c (grid0.coords ⟨0, hn⟩) (st0_0 ⟨0, hn⟩) (hs0_0 ⟨0, hn⟩) (st0_1 ⟨0, hn⟩) (hs0_1 ⟨0, hn⟩) (st0_2 ⟨0, hn⟩) (hs0_2 ⟨0, hn⟩) (st0_3 ⟨0, hn⟩) (hs0_3 ⟨0, hn⟩) (st0_4 ⟨0, hn⟩) (hs0_4 ⟨0, hn⟩) (st0_5 ⟨0, hn⟩) (hs0_5 ⟨0, hn⟩) (st0_6 ⟨0, hn⟩) (hs0_6 ⟨0, hn⟩) (st0_7 ⟨0, hn⟩) (hs0_7 ⟨0, hn⟩) (st0_8 ⟨0, hn⟩) (hs0_8 ⟨0, hn⟩) scM0_0 (Memref.isWhole_whole _) scM0_1 (Memref.isWhole_whole _) ((hcond0_0 ⟨0, hn⟩).mpr rfl) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩), sout0_A_1 c (grid0.coords ⟨0, hn⟩) (st0_0 ⟨0, hn⟩) (hs0_0 ⟨0, hn⟩) (st0_1 ⟨0, hn⟩) (hs0_1 ⟨0, hn⟩) (st0_2 ⟨0, hn⟩) (hs0_2 ⟨0, hn⟩) (st0_3 ⟨0, hn⟩) (hs0_3 ⟨0, hn⟩) (st0_4 ⟨0, hn⟩) (hs0_4 ⟨0, hn⟩) (st0_5 ⟨0, hn⟩) (hs0_5 ⟨0, hn⟩) (st0_6 ⟨0, hn⟩) (hs0_6 ⟨0, hn⟩) (st0_7 ⟨0, hn⟩) (hs0_7 ⟨0, hn⟩) (st0_8 ⟨0, hn⟩) (hs0_8 ⟨0, hn⟩) scM0_0 (Memref.isWhole_whole _) scM0_1 (Memref.isWhole_whole _) ((hcond0_0 ⟨0, hn⟩).mpr rfl) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩))
  | n + 1, hn =>
    if h1 : n + 1 = 4 then
      (out0_C_6 c (grid0.coords ⟨n + 1, hn⟩) (st0_0 ⟨n + 1, hn⟩) (hs0_0 ⟨n + 1, hn⟩) (st0_1 ⟨n + 1, hn⟩) (hs0_1 ⟨n + 1, hn⟩) (st0_2 ⟨n + 1, hn⟩) (hs0_2 ⟨n + 1, hn⟩) (st0_3 ⟨n + 1, hn⟩) (hs0_3 ⟨n + 1, hn⟩) (st0_4 ⟨n + 1, hn⟩) (hs0_4 ⟨n + 1, hn⟩) (st0_5 ⟨n + 1, hn⟩) (hs0_5 ⟨n + 1, hn⟩) (st0_6 ⟨n + 1, hn⟩) (hs0_6 ⟨n + 1, hn⟩) (st0_7 ⟨n + 1, hn⟩) (hs0_7 ⟨n + 1, hn⟩) (st0_8 ⟨n + 1, hn⟩) (hs0_8 ⟨n + 1, hn⟩) scM0_0 (Memref.isWhole_whole _) scM0_1 (Memref.isWhole_whole _) (fun h => Nat.succ_ne_zero n ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.2.1 (outsAt0 c n (Nat.lt_of_succ_lt hn)).2.2.2.2, out0_C_7 c (grid0.coords ⟨n + 1, hn⟩) (st0_0 ⟨n + 1, hn⟩) (hs0_0 ⟨n + 1, hn⟩) (st0_1 ⟨n + 1, hn⟩) (hs0_1 ⟨n + 1, hn⟩) (st0_2 ⟨n + 1, hn⟩) (hs0_2 ⟨n + 1, hn⟩) (st0_3 ⟨n + 1, hn⟩) (hs0_3 ⟨n + 1, hn⟩) (st0_4 ⟨n + 1, hn⟩) (hs0_4 ⟨n + 1, hn⟩) (st0_5 ⟨n + 1, hn⟩) (hs0_5 ⟨n + 1, hn⟩) (st0_6 ⟨n + 1, hn⟩) (hs0_6 ⟨n + 1, hn⟩) (st0_7 ⟨n + 1, hn⟩) (hs0_7 ⟨n + 1, hn⟩) (st0_8 ⟨n + 1, hn⟩) (hs0_8 ⟨n + 1, hn⟩) scM0_0 (Memref.isWhole_whole _) scM0_1 (Memref.isWhole_whole _) (fun h => Nat.succ_ne_zero n ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.2.1 (outsAt0 c n (Nat.lt_of_succ_lt hn)).2.2.2.2, out0_C_8 c (grid0.coords ⟨n + 1, hn⟩) (st0_0 ⟨n + 1, hn⟩) (hs0_0 ⟨n + 1, hn⟩) (st0_1 ⟨n + 1, hn⟩) (hs0_1 ⟨n + 1, hn⟩) (st0_2 ⟨n + 1, hn⟩) (hs0_2 ⟨n + 1, hn⟩) (st0_3 ⟨n + 1, hn⟩) (hs0_3 ⟨n + 1, hn⟩) (st0_4 ⟨n + 1, hn⟩) (hs0_4 ⟨n + 1, hn⟩) (st0_5 ⟨n + 1, hn⟩) (hs0_5 ⟨n + 1, hn⟩) (st0_6 ⟨n + 1, hn⟩) (hs0_6 ⟨n + 1, hn⟩) (st0_7 ⟨n + 1, hn⟩) (hs0_7 ⟨n + 1, hn⟩) (st0_8 ⟨n + 1, hn⟩) (hs0_8 ⟨n + 1, hn⟩) scM0_0 (Memref.isWhole_whole _) scM0_1 (Memref.isWhole_whole _) (fun h => Nat.succ_ne_zero n ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.2.1 (outsAt0 c n (Nat.lt_of_succ_lt hn)).2.2.2.2, sout0_C_0 c (grid0.coords ⟨n + 1, hn⟩) (st0_0 ⟨n + 1, hn⟩) (hs0_0 ⟨n + 1, hn⟩) (st0_1 ⟨n + 1, hn⟩) (hs0_1 ⟨n + 1, hn⟩) (st0_2 ⟨n + 1, hn⟩) (hs0_2 ⟨n + 1, hn⟩) (st0_3 ⟨n + 1, hn⟩) (hs0_3 ⟨n + 1, hn⟩) (st0_4 ⟨n + 1, hn⟩) (hs0_4 ⟨n + 1, hn⟩) (st0_5 ⟨n + 1, hn⟩) (hs0_5 ⟨n + 1, hn⟩) (st0_6 ⟨n + 1, hn⟩) (hs0_6 ⟨n + 1, hn⟩) (st0_7 ⟨n + 1, hn⟩) (hs0_7 ⟨n + 1, hn⟩) (st0_8 ⟨n + 1, hn⟩) (hs0_8 ⟨n + 1, hn⟩) scM0_0 (Memref.isWhole_whole _) scM0_1 (Memref.isWhole_whole _) (fun h => Nat.succ_ne_zero n ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.2.1 (outsAt0 c n (Nat.lt_of_succ_lt hn)).2.2.2.2, sout0_C_1 c (grid0.coords ⟨n + 1, hn⟩) (st0_0 ⟨n + 1, hn⟩) (hs0_0 ⟨n + 1, hn⟩) (st0_1 ⟨n + 1, hn⟩) (hs0_1 ⟨n + 1, hn⟩) (st0_2 ⟨n + 1, hn⟩) (hs0_2 ⟨n + 1, hn⟩) (st0_3 ⟨n + 1, hn⟩) (hs0_3 ⟨n + 1, hn⟩) (st0_4 ⟨n + 1, hn⟩) (hs0_4 ⟨n + 1, hn⟩) (st0_5 ⟨n + 1, hn⟩) (hs0_5 ⟨n + 1, hn⟩) (st0_6 ⟨n + 1, hn⟩) (hs0_6 ⟨n + 1, hn⟩) (st0_7 ⟨n + 1, hn⟩) (hs0_7 ⟨n + 1, hn⟩) (st0_8 ⟨n + 1, hn⟩) (hs0_8 ⟨n + 1, hn⟩) scM0_0 (Memref.isWhole_whole _) scM0_1 (Memref.isWhole_whole _) (fun h => Nat.succ_ne_zero n ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.2.1 (outsAt0 c n (Nat.lt_of_succ_lt hn)).2.2.2.2)
    else
      (out0_B_6 c (grid0.coords ⟨n + 1, hn⟩) (st0_0 ⟨n + 1, hn⟩) (hs0_0 ⟨n + 1, hn⟩) (st0_1 ⟨n + 1, hn⟩) (hs0_1 ⟨n + 1, hn⟩) (st0_2 ⟨n + 1, hn⟩) (hs0_2 ⟨n + 1, hn⟩) (st0_3 ⟨n + 1, hn⟩) (hs0_3 ⟨n + 1, hn⟩) (st0_4 ⟨n + 1, hn⟩) (hs0_4 ⟨n + 1, hn⟩) (st0_5 ⟨n + 1, hn⟩) (hs0_5 ⟨n + 1, hn⟩) (st0_6 ⟨n + 1, hn⟩) (hs0_6 ⟨n + 1, hn⟩) (st0_7 ⟨n + 1, hn⟩) (hs0_7 ⟨n + 1, hn⟩) (st0_8 ⟨n + 1, hn⟩) (hs0_8 ⟨n + 1, hn⟩) scM0_0 (Memref.isWhole_whole _) scM0_1 (Memref.isWhole_whole _) (fun h => Nat.succ_ne_zero n ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.2.1 (outsAt0 c n (Nat.lt_of_succ_lt hn)).2.2.2.2, idle0_7, idle0_8, sout0_B_0 c (grid0.coords ⟨n + 1, hn⟩) (st0_0 ⟨n + 1, hn⟩) (hs0_0 ⟨n + 1, hn⟩) (st0_1 ⟨n + 1, hn⟩) (hs0_1 ⟨n + 1, hn⟩) (st0_2 ⟨n + 1, hn⟩) (hs0_2 ⟨n + 1, hn⟩) (st0_3 ⟨n + 1, hn⟩) (hs0_3 ⟨n + 1, hn⟩) (st0_4 ⟨n + 1, hn⟩) (hs0_4 ⟨n + 1, hn⟩) (st0_5 ⟨n + 1, hn⟩) (hs0_5 ⟨n + 1, hn⟩) (st0_6 ⟨n + 1, hn⟩) (hs0_6 ⟨n + 1, hn⟩) (st0_7 ⟨n + 1, hn⟩) (hs0_7 ⟨n + 1, hn⟩) (st0_8 ⟨n + 1, hn⟩) (hs0_8 ⟨n + 1, hn⟩) scM0_0 (Memref.isWhole_whole _) scM0_1 (Memref.isWhole_whole _) (fun h => Nat.succ_ne_zero n ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.2.1 (outsAt0 c n (Nat.lt_of_succ_lt hn)).2.2.2.2, sout0_B_1 c (grid0.coords ⟨n + 1, hn⟩) (st0_0 ⟨n + 1, hn⟩) (hs0_0 ⟨n + 1, hn⟩) (st0_1 ⟨n + 1, hn⟩) (hs0_1 ⟨n + 1, hn⟩) (st0_2 ⟨n + 1, hn⟩) (hs0_2 ⟨n + 1, hn⟩) (st0_3 ⟨n + 1, hn⟩) (hs0_3 ⟨n + 1, hn⟩) (st0_4 ⟨n + 1, hn⟩) (hs0_4 ⟨n + 1, hn⟩) (st0_5 ⟨n + 1, hn⟩) (hs0_5 ⟨n + 1, hn⟩) (st0_6 ⟨n + 1, hn⟩) (hs0_6 ⟨n + 1, hn⟩) (st0_7 ⟨n + 1, hn⟩) (hs0_7 ⟨n + 1, hn⟩) (st0_8 ⟨n + 1, hn⟩) (hs0_8 ⟨n + 1, hn⟩) scM0_0 (Memref.isWhole_whole _) scM0_1 (Memref.isWhole_whole _) (fun h => Nat.succ_ne_zero n ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.2.1 (outsAt0 c n (Nat.lt_of_succ_lt hn)).2.2.2.2)

/-- `outsAt0` at the first point: the first case's contents. -/
theorem outsAt0_first (c : Dev nD) (t : Fin cfg0.N) (h0 : t.val = 0) (h1 : ¬t.val = 4) :
    outsAt0 V c t.val t.isLt = (out0_A_6 c (grid0.coords t) (st0_0 t) (hs0_0 t) (st0_1 t) (hs0_1 t) (st0_2 t) (hs0_2 t) (st0_3 t) (hs0_3 t) (st0_4 t) (hs0_4 t) (st0_5 t) (hs0_5 t) (st0_6 t) (hs0_6 t) (st0_7 t) (hs0_7 t) (st0_8 t) (hs0_8 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t), idle0_7, idle0_8, sout0_A_0 c (grid0.coords t) (st0_0 t) (hs0_0 t) (st0_1 t) (hs0_1 t) (st0_2 t) (hs0_2 t) (st0_3 t) (hs0_3 t) (st0_4 t) (hs0_4 t) (st0_5 t) (hs0_5 t) (st0_6 t) (hs0_6 t) (st0_7 t) (hs0_7 t) (st0_8 t) (hs0_8 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t), sout0_A_1 c (grid0.coords t) (st0_0 t) (hs0_0 t) (st0_1 t) (hs0_1 t) (st0_2 t) (hs0_2 t) (st0_3 t) (hs0_3 t) (st0_4 t) (hs0_4 t) (st0_5 t) (hs0_5 t) (st0_6 t) (hs0_6 t) (st0_7 t) (hs0_7 t) (st0_8 t) (hs0_8 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t)) := by
  obtain ⟨n, hn⟩ := t
  cases n with
  | zero => exact rfl
  | succ n => exact absurd h0 (Nat.succ_ne_zero n)

/-- `outsAt0` at a middle point: the middle case's contents, over what the point before left in the accumulators. -/
theorem outsAt0_middle (c : Dev nD) (t : Fin cfg0.N) (h0 : ¬t.val = 0) (h1 : ¬t.val = 4) :
    outsAt0 V c t.val t.isLt = (out0_B_6 c (grid0.coords t) (st0_0 t) (hs0_0 t) (st0_1 t) (hs0_1 t) (st0_2 t) (hs0_2 t) (st0_3 t) (hs0_3 t) (st0_4 t) (hs0_4 t) (st0_5 t) (hs0_5 t) (st0_6 t) (hs0_6 t) (st0_7 t) (hs0_7 t) (st0_8 t) (hs0_8 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, idle0_7, idle0_8, sout0_B_0 c (grid0.coords t) (st0_0 t) (hs0_0 t) (st0_1 t) (hs0_1 t) (st0_2 t) (hs0_2 t) (st0_3 t) (hs0_3 t) (st0_4 t) (hs0_4 t) (st0_5 t) (hs0_5 t) (st0_6 t) (hs0_6 t) (st0_7 t) (hs0_7 t) (st0_8 t) (hs0_8 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_B_1 c (grid0.coords t) (st0_0 t) (hs0_0 t) (st0_1 t) (hs0_1 t) (st0_2 t) (hs0_2 t) (st0_3 t) (hs0_3 t) (st0_4 t) (hs0_4 t) (st0_5 t) (hs0_5 t) (st0_6 t) (hs0_6 t) (st0_7 t) (hs0_7 t) (st0_8 t) (hs0_8 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2) := by
  obtain ⟨n, hn⟩ := t
  cases n with
  | zero => exact absurd rfl h0
  | succ n => exact (dif_neg h1).trans rfl

/-- `outsAt0` at the last point: the last case's contents, over what the point before left in the accumulators. -/
theorem outsAt0_last (c : Dev nD) (t : Fin cfg0.N) (h0 : ¬t.val = 0) (h1 : t.val = 4) :
    outsAt0 V c t.val t.isLt = (out0_C_6 c (grid0.coords t) (st0_0 t) (hs0_0 t) (st0_1 t) (hs0_1 t) (st0_2 t) (hs0_2 t) (st0_3 t) (hs0_3 t) (st0_4 t) (hs0_4 t) (st0_5 t) (hs0_5 t) (st0_6 t) (hs0_6 t) (st0_7 t) (hs0_7 t) (st0_8 t) (hs0_8 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, out0_C_7 c (grid0.coords t) (st0_0 t) (hs0_0 t) (st0_1 t) (hs0_1 t) (st0_2 t) (hs0_2 t) (st0_3 t) (hs0_3 t) (st0_4 t) (hs0_4 t) (st0_5 t) (hs0_5 t) (st0_6 t) (hs0_6 t) (st0_7 t) (hs0_7 t) (st0_8 t) (hs0_8 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, out0_C_8 c (grid0.coords t) (st0_0 t) (hs0_0 t) (st0_1 t) (hs0_1 t) (st0_2 t) (hs0_2 t) (st0_3 t) (hs0_3 t) (st0_4 t) (hs0_4 t) (st0_5 t) (hs0_5 t) (st0_6 t) (hs0_6 t) (st0_7 t) (hs0_7 t) (st0_8 t) (hs0_8 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_C_0 c (grid0.coords t) (st0_0 t) (hs0_0 t) (st0_1 t) (hs0_1 t) (st0_2 t) (hs0_2 t) (st0_3 t) (hs0_3 t) (st0_4 t) (hs0_4 t) (st0_5 t) (hs0_5 t) (st0_6 t) (hs0_6 t) (st0_7 t) (hs0_7 t) (st0_8 t) (hs0_8 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_C_1 c (grid0.coords t) (st0_0 t) (hs0_0 t) (st0_1 t) (hs0_1 t) (st0_2 t) (hs0_2 t) (st0_3 t) (hs0_3 t) (st0_4 t) (hs0_4 t) (st0_5 t) (hs0_5 t) (st0_6 t) (hs0_6 t) (st0_7 t) (hs0_7 t) (st0_8 t) (hs0_8 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2) := by
  obtain ⟨n, hn⟩ := t
  cases n with
  | zero => exact absurd rfl h0
  | succ n => exact (dif_pos h1).trans rfl

/-! ## The region invariant: the accumulators carried between points -/

/-- Before position `n`: before the first point the class's invariant (every scoped buffer at anything); afterwards the
    two accumulators at what the point before left in them, the rest of the scoped buffers unopened, the generator
    register at some state. -/
def PhiS0 (c : Dev nD) : (n : ℕ) → n ≤ cfg0.N → sProp 𝕄
  | 0, _ => Pipeline.ΦA spec0 c
  | n + 1, hn => iprop(iprop(iprop(owns (c : Thread nD τ) scM0_0 fullShare ((outsAt0 V c n hn).2.2.2.1) ∗ owns (c : Thread nD τ) scM0_1 fullShare ((outsAt0 V c n hn).2.2.2.2))
      ∗ Pipeline.scopedRestBut (Ix := Unit) (Name := ℕ) (U := UR sig nD τ) (Lvl := ℕ) (Val := Elt F) spec0 c [cc0_scratch0, cc0_scratch1]) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(iprop(owns (c : Thread nD τ) scM0_0 fullShare ((outsAt0 V c n hn).2.2.2.1) ∗ owns (c : Thread nD τ) scM0_1 fullShare ((outsAt0 V c n hn).2.2.2.2))
      ∗ Pipeline.scopedRestBut (Ix := Unit) (Name := ℕ) (U := UR sig nD τ) (Lvl := ℕ) (Val := Elt F) spec0 c [cc0_scratch0, cc0_scratch1]) ∗ (∃ r, prngReg c r)) := rfl

theorem PhiS0_pos (c : Dev nD) (n : ℕ) (h : n ≤ cfg0.N) (hz : n ≠ 0) :
    PhiS0 V c n h = iprop(iprop(iprop(owns (c : Thread nD τ) scM0_0 fullShare ((outsAt0 V c (n - 1) (by omega)).2.2.2.1) ∗ owns (c : Thread nD τ) scM0_1 fullShare ((outsAt0 V c (n - 1) (by omega)).2.2.2.2))
      ∗ Pipeline.scopedRestBut (Ix := Unit) (Name := ℕ) (U := UR sig nD τ) (Lvl := ℕ) (Val := Elt F) spec0 c [cc0_scratch0, cc0_scratch1]) ∗ (∃ r, prngReg c r)) := by
  cases n with
  | zero => exact absurd rfl hz
  | succ n => rfl

/-! ## The pipeline's proof data -/

/-- The proof data of pipeline 0 on core `c`: the arrays as the region finds them; after the body at point `t` each
    input's buffer at its block and each output's at `outsAt0`'s component; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (outsAt0 V c t.val t.isLt).1
    | ⟨7, _⟩ => (outsAt0 V c t.val t.isLt).2.1
    | ⟨8, _⟩ => (outsAt0 V c t.val t.isLt).2.2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = (outsAt0 V c t.val t.isLt).1 := by dsimp only [dat0]
theorem after0_7 (c : Dev nD) (t : Fin cfg0.N) : (dat0 V c).after 7 t = (outsAt0 V c t.val t.isLt).2.1 := by dsimp only [dat0]
theorem after0_8 (c : Dev nD) (t : Fin cfg0.N) : (dat0 V c).after 8 t = (outsAt0 V c t.val t.isLt).2.2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t)

set_option maxHeartbeats 8000000 in
/-- The body at any point: the inputs' memrefs hold their blocks; the point is the first, a middle or the last one, and
    that case's run applies; the invariant hands the body the two accumulators at what the point before left (at anything
    at the first point) and takes them back at this point's contents; the rest of the scoped buffers, the generator
    register and the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  rw [show (dat0 V c).leavesExact 2 t = owns (c : Thread nD τ) (st0_2 t) fullShare ((dat0 V c).after 2 t) from by
    unfold Dat.leavesExact; rw [liveAt0_2 t], after0_2]
  rw [show (dat0 V c).leavesExact 3 t = owns (c : Thread nD τ) (st0_3 t) fullShare ((dat0 V c).after 3 t) from by
    unfold Dat.leavesExact; rw [liveAt0_3 t], after0_3]
  rw [show (dat0 V c).leavesExact 4 t = owns (c : Thread nD τ) (st0_4 t) fullShare ((dat0 V c).after 4 t) from by
    unfold Dat.leavesExact; rw [liveAt0_4 t], after0_4]
  rw [show (dat0 V c).leavesExact 5 t = owns (c : Thread nD τ) (st0_5 t) fullShare ((dat0 V c).after 5 t) from by
    unfold Dat.leavesExact; rw [liveAt0_5 t], after0_5]
  rw [show (dat0 V c).leavesExact 6 t = owns (c : Thread nD τ) (st0_6 t) fullShare ((dat0 V c).after 6 t) from by
    unfold Dat.leavesExact; rw [liveAt0_6 t], after0_6]
  have hN : t.val < 5 := lt_of_lt_of_eq t.isLt (show cfg0.N = 5 from N_0)
  by_cases h0 : t.val = 0
  · have h1 : ¬t.val = 4 := by omega
    rw [Dat.leavesExact_idle (dat0 V c) 7 t (idleAt0_7 t (fun h => h1 ((hcond0_1 t).mp h))) (noFlush0_7 t (fun h => h1 ((hcond0_1 t).mp h)))]
    rw [Dat.leavesExact_idle (dat0 V c) 8 t (idleAt0_8 t (fun h => h1 ((hcond0_1 t).mp h))) (noFlush0_8 t (fun h => h1 ((hcond0_1 t).mp h)))]
    rw [outsAt0_first V c t h0 h1]
    unfold out0_A_6 sout0_A_0 sout0_A_1; (try dsimp only)
    rw [PhiS0_castSucc V c t, PhiS0_zero V c _ _ h0, PhiA0_eq]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun0_A c (grid0.coords t) _ _ _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t)).2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    isplitl [HS0]; · iexact HS0
    isplitl [HS1]; · iexact HS1
    iintro ⟨H0, H1, H2, H3, H4, H5, ⟨%e6, H6⟩, H7, H8, ⟨%es0, HS0⟩, ⟨%es1, HS1⟩⟩
    isplitl [HS0 HS1 HR Hg]
    · isplitl [HS0 HS1 HR]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _)
          · unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover0_A_6 c _ _ _ _ _ _ _ _ _ _ _ _ _ _ _ _ _ _ _ _ _ _ _ _ _ _ _ _ _ _ _)
    isplitl [H7]; · iexists _; iexact H7
    iexists _; iexact H8
  · by_cases h1 : t.val = 4
    · rw [show (dat0 V c).leavesExact 7 t = owns (c : Thread nD τ) (st0_7 t) fullShare ((dat0 V c).after 7 t) from by
        unfold Dat.leavesExact; rw [liveAt0_7 t ((hcond0_1 t).mpr h1)], after0_7]
      rw [show (dat0 V c).leavesExact 8 t = owns (c : Thread nD τ) (st0_8 t) fullShare ((dat0 V c).after 8 t) from by
        unfold Dat.leavesExact; rw [liveAt0_8 t ((hcond0_1 t).mpr h1)], after0_8]
      rw [outsAt0_last V c t h0 h1]
      unfold out0_C_6 out0_C_7 out0_C_8 sout0_C_0 sout0_C_1; (try dsimp only)
      rw [PhiS0_castSucc V c t, PhiS0_pos V c _ _ h0]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_C c (grid0.coords t) _ _ _ _ _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) (iblk0 V c 5 t) _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS0]; · iexact HS0
      isplitl [HS1]; · iexact HS1
      iintro ⟨H0, H1, H2, H3, H4, H5, ⟨%e6, H6⟩, ⟨%e7, H7⟩, ⟨%e8, H8⟩, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _ _ _ _ _)
            · unfold owns; iexists _; isplitr
              swap; · iexact HS1
              ipureintro; exact View.read_writes_of_cover _ _ _ _ _ (scover0_C_1 c _ _ _ _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_C_6 c _ _ _ _ _ _ _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover0_C_7 c _ _ _ _ _ _ _ _ _ _ _ _ _ _ _ _ _ _ _ _ _ _ _ _ _ _ _ _ _ _ _ _ _)
      unfold owns; iexists _; isplitr
      swap; · iexact H8
      ipureintro; exact View.read_writes_of_cover _ _ _ _ _ (cover0_C_8 c _ _ _ _ _ _ _ _ _ _ _ _ _ _ _ _ _ _ _ _ _ _ _ _ _ _ _ _ _ _ _ _ _)
    · rw [Dat.leavesExact_idle (dat0 V c) 7 t (idleAt0_7 t (fun h => h1 ((hcond0_1 t).mp h))) (noFlush0_7 t (fun h => h1 ((hcond0_1 t).mp h)))]
      rw [Dat.leavesExact_idle (dat0 V c) 8 t (idleAt0_8 t (fun h => h1 ((hcond0_1 t).mp h))) (noFlush0_8 t (fun h => h1 ((hcond0_1 t).mp h)))]
      rw [outsAt0_middle V c t h0 h1]
      unfold out0_B_6 sout0_B_0 sout0_B_1; (try dsimp only)
      rw [PhiS0_castSucc V c t, PhiS0_pos V c _ _ h0]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_B c (grid0.coords t) _ _ _ _ _ _ _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) _ _).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexact H8
      isplitl [HS0]; · iexact HS0
      isplitl [HS1]; · iexact HS1
      iintro ⟨H0, H1, H2, H3, H4, H5, ⟨%e6, H6⟩, H7, H8, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _ _ _ _ _)
            · unfold owns; iexists _; isplitr
              swap; · iexact HS1
              ipureintro; exact View.read_writes_of_cover _ _ _ _ _ (scover0_B_1 c _ _ _ _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_B_6 c _ _ _ _ _ _ _ _ _ _ _ _ _ _ _ _ _ _ _ _ _ _ _ _ _ _ _ _ _ _ _ _ _)
      isplitl [H7]; · iexists _; iexact H7
      iexists _; iexact H8

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the class's back: the accumulators' named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 5 := N_0; omega)

end Region0

end Cert.KernelIdeal.Hand

end
-- ==== Proof.Reg1.lean ====
/- Region 1 of @main (custom_call 1, the batch-norm-and-activate kernel) at a parameter `V`, the TensorCore's
   buffer contents when the region is entered: each window's block at a point, what the body leaves in the output
   window's staging buffer (the canon of its one store over the input blocks), the body's triple, the proof data
   of the pipeline and its body obligation. -/
import proofs.«111056_j31628139167864_2_alg».proof.Proof.Gen.KernelIdeal.Launch
import proofs.«111056_j31628139167864_2_alg».proof.Proof.Gen.KernelIdeal.Skeleton
import proofs.«111056_j31628139167864_2_alg».proof.Proof.Gen.KernelIdeal.Points
import Idealize.ShloMosaic.Lib.Pipeline.FrameBody
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): unfetched, the block
    index has not moved; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s (`hA`) and whose body leaves the block in place (`hafter`): unfetched, the block
    index has not moved; the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s (`hA`) and whose body leaves the block in place (`hafter`): unfetched, the block
    index has not moved; the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s (`hA`) and whose body leaves the block in place (`hafter`): unfetched, the block
    index has not moved; the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof
    data whose array is `V`'s (`hA`) and whose body leaves the block in place (`hafter`): unfetched, the block
    index has not moved; the window is uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S10000x96 := Rect.unit (s := S10000x96) ![0, 0] S10000x96.size inb_S10000x96_S10000x96_0_0
abbrev r1_1 : Rect S1x96 := Rect.unit (s := S1x96) ![0, 0] S1x96.size inb_S1x96_S1x96_0_0

/-! ## What the body leaves in the output window's buffer -/

/-- Window 5's staging buffer after the body, from the input windows' blocks: its one store as a piece, the payload
    the skeleton's — relu (((x0 - x1) * x2) * x3 + x4), the four rows broadcast along the long axis. -/
def out1_5 (x0 : Vec F S10000x96 .f32) (x1 : Vec F S1x96 .f32) (x2 : Vec F S1x96 .f32) (x3 : Vec F S1x96 .f32) (x4 : Vec F S1x96 .f32) : Vec F S10000x96 .f32 :=
  View.canon [⟨r1_0, k1_pay1 (View.ld x0 r1_0) (View.ld x1 r1_1) (View.ld x2 r1_1) (View.ld x3 r1_1) (View.ld x4 r1_1)⟩]

/-- Its store tiles the buffer (one block, the whole of it), so it covers it. -/
theorem cover1_5 (p0 : Vec F S10000x96 .f32) (y : S10000x96.Idx) :
    ∃ pc ∈ ([⟨r1_0, p0⟩] : List (View.Piece (Elt F) S10000x96 .f32)), y ∈ pc.1.set :=
  View.cover_of_tiled [⟨r1_0, p0⟩] S10000x96.size (by rfl) y

/-! ## The body's triple -/

set_option maxHeartbeats 1000000 in
/-- The kernel body on whole staging memrefs, the inputs' at read contents `xW` and the output's at anything, runs to
    the continuation holding the inputs' as they were and the output's at `out1_5` of the inputs'. -/
theorem sound_kernel1 (c : Dev nD) (E : Set ℕ) (i : grid1.Coords) (arg1 : Memref sig .tc .vmem S10000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S10000x96 .f32) (harg6 : arg6.IsWhole)
    (x0 : Vec F S10000x96 .f32) (x1 : Vec F S1x96 .f32) (x2 : Vec F S1x96 .f32) (x3 : Vec F S1x96 .f32) (x4 : Vec F S1x96 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 x0 x1 x2 x3 x4)) -∗ K ⟨⟩))
      ⊢ wp frame (wpE (defs₀ (F := F)) Variants.none c none) E (cc1__bn_act_kernel i arg1 harg1 arg2 harg2 arg3 harg3 arg4 harg4 arg5 harg5 arg6 harg6) K := by
  simp only [cc1__bn_act_kernel_eq_skeleton]; unfold cc1__bn_act_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of pipeline 1 on core `c`: the arrays as the region finds them (`V`); after the body at
    point `t` each input's buffer at its block and the output's at `out1_5` of the input blocks; the invariant the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant is the class's at every point. -/
theorem Phi1 (c : Dev nD) (t : Fin (cfg1.N + 1)) : (dat1 V c).Φ t = Pipeline.ΦA spec1 c := rfl

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t` (the obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Reg2Runs.lean ====
import proofs.«111056_j31628139167864_2_alg».proof.Proof.Gen.KernelIdeal.Launch
import proofs.«111056_j31628139167864_2_alg».proof.Proof.Gen.KernelIdeal.Skeleton
import proofs.«111056_j31628139167864_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2 (custom_call 2, the MLP kernel with its two carried column-sum accumulators): what its runs share -/

/-! ## The body's two branch conditions, decided over the five grid points -/

/-- The condition of the body's first conditional (zero the two accumulators): the point's coordinate is 0. -/
abbrev cond2_0 (i : grid2.Coords) : Prop := (Scalar.cmpi .ne (Scalar.extui (Scalar.cmpi .eq (BitVec.ofNat 32 (i 0).val) 0#32)) 0#32) = 1#1
/-- It holds at the first point only. -/
theorem hcond2_0 : ∀ t : Fin cfg2.N, cond2_0 (grid2.coords t) ↔ t.val = 0 :=
  (by decide +kernel : ∀ t : Fin grid2.N, cond2_0 (grid2.coords t) ↔ t.val = 0)

/-- The condition of the body's second conditional (copy the accumulators out): the point's coordinate is 4. -/
abbrev cond2_1 (i : grid2.Coords) : Prop := k2_cond2 i = 1#1
/-- It holds at the last point only. -/
theorem hcond2_1 : ∀ t : Fin cfg2.N, cond2_1 (grid2.coords t) ↔ t.val = 4 :=
  (by decide +kernel : ∀ t : Fin grid2.N, cond2_1 (grid2.coords t) ↔ t.val = 4)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
theorem liveAt2_5 : ∀ t : Fin cfg2.N, cfg2.idle 5 (grid2.coords t) = false := by decide +kernel
theorem liveAt2_6 : ∀ t : Fin cfg2.N, cfg2.idle 6 (grid2.coords t) = false := by decide +kernel
/-- Away from the last point the two statistics outputs are idle (nothing is stored into them) and not written back. -/
theorem idleAt2_7 : ∀ t : Fin cfg2.N, ¬cond2_1 (grid2.coords t) → cfg2.idle 7 (grid2.coords t) = true := by decide +kernel
theorem noFlush2_7 : ∀ t : Fin cfg2.N, ¬cond2_1 (grid2.coords t) → (cfg2.win 7).flush t = false := by decide +kernel
theorem idleAt2_8 : ∀ t : Fin cfg2.N, ¬cond2_1 (grid2.coords t) → cfg2.idle 8 (grid2.coords t) = true := by decide +kernel
theorem noFlush2_8 : ∀ t : Fin cfg2.N, ¬cond2_1 (grid2.coords t) → (cfg2.win 8).flush t = false := by decide +kernel
/-- At the last point they are live. -/
theorem liveAt2_7 : ∀ t : Fin cfg2.N, cond2_1 (grid2.coords t) → cfg2.idle 7 (grid2.coords t) = false := by decide +kernel
theorem liveAt2_8 : ∀ t : Fin cfg2.N, cond2_1 (grid2.coords t) → cfg2.idle 8 (grid2.coords t) = false := by decide +kernel

/-! ## The staging memrefs and the scratch -/

/-- One staging buffer of each output window, through which its contents are stated. -/
abbrev VO2_6 : View sig .tc .vmem S10000x96 .f32 := (Memref.whole cc2_stg6_0 : Memref sig .tc .vmem S10000x96 .f32).view
abbrev VO2_7 : View sig .tc .vmem S1x96 .f32 := (Memref.whole cc2_stg7_0 : Memref sig .tc .vmem S1x96 .f32).view
abbrev VO2_8 : View sig .tc .vmem S1x96 .f32 := (Memref.whole cc2_stg8_0 : Memref sig .tc .vmem S1x96 .f32).view
/-- The wholeness of each window's current staging memref at point `t`, as the pipeline passes it. -/
abbrev hs2_0 (t : Fin cfg2.N) : (st2_0 t).IsWhole := hstage2_0 ((cfg2.slots t 0).cast nbuf2_0)
abbrev hs2_1 (t : Fin cfg2.N) : (st2_1 t).IsWhole := hstage2_1 ((cfg2.slots t 1).cast nbuf2_1)
abbrev hs2_2 (t : Fin cfg2.N) : (st2_2 t).IsWhole := hstage2_2 ((cfg2.slots t 2).cast nbuf2_2)
abbrev hs2_3 (t : Fin cfg2.N) : (st2_3 t).IsWhole := hstage2_3 ((cfg2.slots t 3).cast nbuf2_3)
abbrev hs2_4 (t : Fin cfg2.N) : (st2_4 t).IsWhole := hstage2_4 ((cfg2.slots t 4).cast nbuf2_4)
abbrev hs2_5 (t : Fin cfg2.N) : (st2_5 t).IsWhole := hstage2_5 ((cfg2.slots t 5).cast nbuf2_5)
abbrev hs2_6 (t : Fin cfg2.N) : (st2_6 t).IsWhole := hstage2_6 ((cfg2.slots t 6).cast nbuf2_6)
abbrev hs2_7 (t : Fin cfg2.N) : (st2_7 t).IsWhole := hstage2_7 ((cfg2.slots t 7).cast nbuf2_7)
abbrev hs2_8 (t : Fin cfg2.N) : (st2_8 t).IsWhole := hstage2_8 ((cfg2.slots t 8).cast nbuf2_8)
/-- The two scratch operands: whole scoped buffers of the kernel's own, carried between points. -/
abbrev scM2_0 : Memref sig .tc .vmem S1x96 .f32 := Memref.whole cc2_scratch0
abbrev scM2_1 : Memref sig .tc .vmem S1x96 .f32 := Memref.whole cc2_scratch1
abbrev VS2_0 : View sig .tc .vmem S1x96 .f32 := scM2_0.view
abbrev VS2_1 : View sig .tc .vmem S1x96 .f32 := scM2_1.view

/-- The class's invariant with the two scratch operands as memrefs owned at some contents; every other scoped buffer
    stays unopened. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d))
          ∗ Pipeline.scopedRestBut (Ix := Unit) (Name := ℕ) (U := UR sig nD τ) (Lvl := ℕ) (Val := Elt F) spec2 c [cc2_scratch0, cc2_scratch1]) ∗ (∃ r, prngReg c r)) := by
  unfold Pipeline.ΦA; rw [scopedRest2_split]; simp only [scM2_0, scM2_1, owns_whole]; try rfl

end Cert.KernelIdeal.Hand

end
-- ==== Proof.Reg2RunA.lean ====
/- Region 2's body at the first grid point: the two accumulators are zeroed, then accumulate; what the run leaves in each buffer it stores into. -/
import proofs.«111056_j31628139167864_2_alg».proof.Proof.Reg2Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run at the first point (the accumulators are zeroed, then accumulate; nothing is copied out): on whole staging memrefs, the inputs' at their contents, the h2 output's at anything,
    the two idle statistics outputs' at contents handed back untouched, the two accumulators at anything,
    the body runs to a continuation that holds the inputs' as they were and each buffer it stored into with its pieces
    written, the pieces listed last store first. -/
noncomputable def kernelRun2_A (c : Dev nD) (i : grid2.Coords) (arg1 : Memref sig .tc .vmem S10000x96 .f32) (harg1 : arg1.IsWhole) (arg2 : Memref sig .tc .vmem S10000x96 .f32) (harg2 : arg2.IsWhole) (arg3 : Memref sig .tc .vmem S96x96 .bf16) (harg3 : arg3.IsWhole) (arg4 : Memref sig .tc .vmem S1x96 .f32) (harg4 : arg4.IsWhole) (arg5 : Memref sig .tc .vmem S96x96 .bf16) (harg5 : arg5.IsWhole) (arg6 : Memref sig .tc .vmem S1x96 .f32) (harg6 : arg6.IsWhole) (arg7 : Memref sig .tc .vmem S10000x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (arg11 : Memref sig .tc .vmem S1x96 .f32) (harg11 : arg11.IsWhole) (hc0 : cond2_0 i) (hc1 : ¬cond2_1 i)
    (x0 : Vec F S10000x96 .f32) (x1 : Vec F S10000x96 .f32) (x2 : Vec F S96x96 .bf16) (x3 : Vec F S1x96 .f32) (x4 : Vec F S96x96 .bf16) (x5 : Vec F S1x96 .f32) :
    Σ' (L6 : List (View.Piece (Elt F) S10000x96 .f32)) (LS0 : List (View.Piece (Elt F) S1x96 .f32)), { LS1 : List (View.Piece (Elt F) S1x96 .f32) //
      ∀ (xi7 : Vec F S1x96 .f32) (xi8 : Vec F S1x96 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xi8 ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ owns (c : Thread nD τ) arg9 fullShare xi8 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc2__mlp_kernel i arg1 harg1 arg2 harg2 arg3 harg3 arg4 harg4 arg5 harg5 arg6 harg6 arg7 harg7 arg8 harg8 arg9 harg9 arg10 harg10 arg11 harg11) K } := by
  refine ⟨?_, ?_, ?_, fun xi7 xi8 E K => ?run⟩
  case run =>
    simp only [cc2__mlp_kernel_eq_skeleton]; unfold cc2__mlp_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [H8]
    · iexists _; isplitr; · ipureintro; exact harg9.read_unread _
      iexact H8
    isplitl [HS0]; · iexists _; iexact HS0
    iexists _; iexact HS1

end Cert.KernelIdeal.Hand

end
-- ==== Proof.Reg2RunB.lean ====
/- Region 2's body at a middle grid point: the accumulators accumulate, nothing is zeroed or copied out; what the run leaves in each buffer it stores into. -/
import proofs.«111056_j31628139167864_2_alg».proof.Proof.Reg2RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run at a middle point (the accumulators accumulate; nothing is zeroed or copied out): on whole staging memrefs, the inputs' at their contents, the h2 output's at anything,
    the two idle statistics outputs' at contents handed back untouched, the two accumulators at what the point before left,
    the body runs to a continuation that holds the inputs' as they were and each buffer it stored into with its pieces
    written, the pieces listed last store first. -/
noncomputable def kernelRun2_B (c : Dev nD) (i : grid2.Coords) (arg1 : Memref sig .tc .vmem S10000x96 .f32) (harg1 : arg1.IsWhole) (arg2 : Memref sig .tc .vmem S10000x96 .f32) (harg2 : arg2.IsWhole) (arg3 : Memref sig .tc .vmem S96x96 .bf16) (harg3 : arg3.IsWhole) (arg4 : Memref sig .tc .vmem S1x96 .f32) (harg4 : arg4.IsWhole) (arg5 : Memref sig .tc .vmem S96x96 .bf16) (harg5 : arg5.IsWhole) (arg6 : Memref sig .tc .vmem S1x96 .f32) (harg6 : arg6.IsWhole) (arg7 : Memref sig .tc .vmem S10000x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (arg11 : Memref sig .tc .vmem S1x96 .f32) (harg11 : arg11.IsWhole) (hc0 : ¬cond2_0 i) (hc1 : ¬cond2_1 i)
    (x0 : Vec F S10000x96 .f32) (x1 : Vec F S10000x96 .f32) (x2 : Vec F S96x96 .bf16) (x3 : Vec F S1x96 .f32) (x4 : Vec F S96x96 .bf16) (x5 : Vec F S1x96 .f32) (xs0 : Vec F S1x96 .f32) (xs1 : Vec F S1x96 .f32) :
    Σ' (L6 : List (View.Piece (Elt F) S10000x96 .f32)) (LS0 : List (View.Piece (Elt F) S1x96 .f32)), { LS1 : List (View.Piece (Elt F) S1x96 .f32) //
      ∀ (xi7 : Vec F S1x96 .f32) (xi8 : Vec F S1x96 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xi8 ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ owns (c : Thread nD τ) arg9 fullShare xi8 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc2__mlp_kernel i arg1 harg1 arg2 harg2 arg3 harg3 arg4 harg4 arg5 harg5 arg6 harg6 arg7 harg7 arg8 harg8 arg9 harg9 arg10 harg10 arg11 harg11) K } := by
  refine ⟨?_, ?_, ?_, fun xi7 xi8 E K => ?run⟩
  case run =>
    simp only [cc2__mlp_kernel_eq_skeleton]; unfold cc2__mlp_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8; obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [H8]
    · iexists _; isplitr; · ipureintro; exact harg9.read_unread _
      iexact H8
    isplitl [HS0]; · iexists _; iexact HS0
    iexists _; iexact HS1

end Cert.KernelIdeal.Hand

end
-- ==== Proof.Reg2RunC.lean ====
/- Region 2's body at the last grid point: the accumulators accumulate and are copied to the two statistics outputs; what the run leaves in each buffer it stores into. -/
import proofs.«111056_j31628139167864_2_alg».proof.Proof.Reg2RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run at the last point (the accumulators accumulate and are copied to the two statistics outputs): on whole staging memrefs, the inputs' at their contents, the h2 output's at anything,
    the two statistics outputs' at anything, the two accumulators at what the point before left,
    the body runs to a continuation that holds the inputs' as they were and each buffer it stored into with its pieces
    written, the pieces listed last store first. -/
noncomputable def kernelRun2_C (c : Dev nD) (i : grid2.Coords) (arg1 : Memref sig .tc .vmem S10000x96 .f32) (harg1 : arg1.IsWhole) (arg2 : Memref sig .tc .vmem S10000x96 .f32) (harg2 : arg2.IsWhole) (arg3 : Memref sig .tc .vmem S96x96 .bf16) (harg3 : arg3.IsWhole) (arg4 : Memref sig .tc .vmem S1x96 .f32) (harg4 : arg4.IsWhole) (arg5 : Memref sig .tc .vmem S96x96 .bf16) (harg5 : arg5.IsWhole) (arg6 : Memref sig .tc .vmem S1x96 .f32) (harg6 : arg6.IsWhole) (arg7 : Memref sig .tc .vmem S10000x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (arg11 : Memref sig .tc .vmem S1x96 .f32) (harg11 : arg11.IsWhole) (hc0 : ¬cond2_0 i) (hc1 : cond2_1 i)
    (x0 : Vec F S10000x96 .f32) (x1 : Vec F S10000x96 .f32) (x2 : Vec F S96x96 .bf16) (x3 : Vec F S1x96 .f32) (x4 : Vec F S96x96 .bf16) (x5 : Vec F S1x96 .f32) (xs0 : Vec F S1x96 .f32) (xs1 : Vec F S1x96 .f32) :
    Σ' (L6 : List (View.Piece (Elt F) S10000x96 .f32)) (L7 : List (View.Piece (Elt F) S1x96 .f32)) (L8 : List (View.Piece (Elt F) S1x96 .f32)) (LS0 : List (View.Piece (Elt F) S1x96 .f32)), { LS1 : List (View.Piece (Elt F) S1x96 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc2__mlp_kernel i arg1 harg1 arg2 harg2 arg3 harg3 arg4 harg4 arg5 harg5 arg6 harg6 arg7 harg7 arg8 harg8 arg9 harg9 arg10 harg10 arg11 harg11) K } := by
  refine ⟨?_, ?_, ?_, ?_, ?_, fun E K => ?run⟩
  case run =>
    simp only [cc2__mlp_kernel_eq_skeleton]; unfold cc2__mlp_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    isplitl [HS0]; · iexists _; iexact HS0
    iexists _; iexact HS1

end Cert.KernelIdeal.Hand

end
-- ==== Proof.Reg2.lean ====
import proofs.«111056_j31628139167864_2_alg».proof.Proof.Reg2RunB
import proofs.«111056_j31628139167864_2_alg».proof.Proof.Reg2RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
-- the TensorCore's buffer contents when the region is entered
variable (V : (c : Dev nD) → (b : Ref sig .tc) → Buf (Elt F) ((c : Thread nD τ).loc b))

/-! # Region 2: custom_call 2, the MLP kernel with two carried column-sum accumulators, at the entry contents `V` -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## Each input window's staging buffer holds its block at every point, fetched there or not -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

end Region2

/-! ## What each case's run leaves in the buffers it stores into -/

/-- The h2 output block at the first point: the run's pieces for it tile the buffer, so they cover it. -/
theorem cover2_A_6 (c : Dev nD) (i : grid2.Coords) (arg1 : Memref sig .tc .vmem S10000x96 .f32) (harg1 : arg1.IsWhole) (arg2 : Memref sig .tc .vmem S10000x96 .f32) (harg2 : arg2.IsWhole) (arg3 : Memref sig .tc .vmem S96x96 .bf16) (harg3 : arg3.IsWhole) (arg4 : Memref sig .tc .vmem S1x96 .f32) (harg4 : arg4.IsWhole) (arg5 : Memref sig .tc .vmem S96x96 .bf16) (harg5 : arg5.IsWhole) (arg6 : Memref sig .tc .vmem S1x96 .f32) (harg6 : arg6.IsWhole) (arg7 : Memref sig .tc .vmem S10000x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (arg11 : Memref sig .tc .vmem S1x96 .f32) (harg11 : arg11.IsWhole) (hc0 : cond2_0 i) (hc1 : ¬cond2_1 i)
    (x0 : Vec F S10000x96 .f32) (x1 : Vec F S10000x96 .f32) (x2 : Vec F S96x96 .bf16) (x3 : Vec F S1x96 .f32) (x4 : Vec F S96x96 .bf16) (x5 : Vec F S1x96 .f32) (y : S10000x96.Idx) :
    ∃ pc ∈ (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).1, y ∈ pc.1.set :=
  View.cover_of_tiledL (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).1 S10000x96.size (by sl_kernel_rfl) y

/-- The h2 output block at the first point: what the run leaves in it, its pieces read back. -/
def out2_A_6 (c : Dev nD) (i : grid2.Coords) (arg1 : Memref sig .tc .vmem S10000x96 .f32) (harg1 : arg1.IsWhole) (arg2 : Memref sig .tc .vmem S10000x96 .f32) (harg2 : arg2.IsWhole) (arg3 : Memref sig .tc .vmem S96x96 .bf16) (harg3 : arg3.IsWhole) (arg4 : Memref sig .tc .vmem S1x96 .f32) (harg4 : arg4.IsWhole) (arg5 : Memref sig .tc .vmem S96x96 .bf16) (harg5 : arg5.IsWhole) (arg6 : Memref sig .tc .vmem S1x96 .f32) (harg6 : arg6.IsWhole) (arg7 : Memref sig .tc .vmem S10000x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (arg11 : Memref sig .tc .vmem S1x96 .f32) (harg11 : arg11.IsWhole) (hc0 : cond2_0 i) (hc1 : ¬cond2_1 i)
    (x0 : Vec F S10000x96 .f32) (x1 : Vec F S10000x96 .f32) (x2 : Vec F S96x96 .bf16) (x3 : Vec F S1x96 .f32) (x4 : Vec F S96x96 .bf16) (x5 : Vec F S1x96 .f32) : Vec F S10000x96 .f32 :=
  VO2_6.read (Elt F) (VO2_6.writes (Elt F) VO2_6.junk (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).1)

/-- The column-sum accumulator at the first point: the run's pieces for it tile the buffer, so they cover it. -/
theorem scover2_A_0 (c : Dev nD) (i : grid2.Coords) (arg1 : Memref sig .tc .vmem S10000x96 .f32) (harg1 : arg1.IsWhole) (arg2 : Memref sig .tc .vmem S10000x96 .f32) (harg2 : arg2.IsWhole) (arg3 : Memref sig .tc .vmem S96x96 .bf16) (harg3 : arg3.IsWhole) (arg4 : Memref sig .tc .vmem S1x96 .f32) (harg4 : arg4.IsWhole) (arg5 : Memref sig .tc .vmem S96x96 .bf16) (harg5 : arg5.IsWhole) (arg6 : Memref sig .tc .vmem S1x96 .f32) (harg6 : arg6.IsWhole) (arg7 : Memref sig .tc .vmem S10000x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (arg11 : Memref sig .tc .vmem S1x96 .f32) (harg11 : arg11.IsWhole) (hc0 : cond2_0 i) (hc1 : ¬cond2_1 i)
    (x0 : Vec F S10000x96 .f32) (x1 : Vec F S10000x96 .f32) (x2 : Vec F S96x96 .bf16) (x3 : Vec F S1x96 .f32) (x4 : Vec F S96x96 .bf16) (x5 : Vec F S1x96 .f32) (y : S1x96.Idx) :
    ∃ pc ∈ (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).2.1, y ∈ pc.1.set :=
  View.cover_of_tiledL (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).2.1 S1x96.size (by sl_kernel_rfl) y

/-- The column-sum accumulator at the first point: what the run leaves in it, its pieces read back. -/
def sout2_A_0 (c : Dev nD) (i : grid2.Coords) (arg1 : Memref sig .tc .vmem S10000x96 .f32) (harg1 : arg1.IsWhole) (arg2 : Memref sig .tc .vmem S10000x96 .f32) (harg2 : arg2.IsWhole) (arg3 : Memref sig .tc .vmem S96x96 .bf16) (harg3 : arg3.IsWhole) (arg4 : Memref sig .tc .vmem S1x96 .f32) (harg4 : arg4.IsWhole) (arg5 : Memref sig .tc .vmem S96x96 .bf16) (harg5 : arg5.IsWhole) (arg6 : Memref sig .tc .vmem S1x96 .f32) (harg6 : arg6.IsWhole) (arg7 : Memref sig .tc .vmem S10000x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (arg11 : Memref sig .tc .vmem S1x96 .f32) (harg11 : arg11.IsWhole) (hc0 : cond2_0 i) (hc1 : ¬cond2_1 i)
    (x0 : Vec F S10000x96 .f32) (x1 : Vec F S10000x96 .f32) (x2 : Vec F S96x96 .bf16) (x3 : Vec F S1x96 .f32) (x4 : Vec F S96x96 .bf16) (x5 : Vec F S1x96 .f32) : Vec F S1x96 .f32 :=
  VS2_0.read (Elt F) (VS2_0.writes (Elt F) VS2_0.junk (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).2.1)

/-- The column-sum-of-squares accumulator at the first point: the run's pieces for it tile the buffer, so they cover it. -/
theorem scover2_A_1 (c : Dev nD) (i : grid2.Coords) (arg1 : Memref sig .tc .vmem S10000x96 .f32) (harg1 : arg1.IsWhole) (arg2 : Memref sig .tc .vmem S10000x96 .f32) (harg2 : arg2.IsWhole) (arg3 : Memref sig .tc .vmem S96x96 .bf16) (harg3 : arg3.IsWhole) (arg4 : Memref sig .tc .vmem S1x96 .f32) (harg4 : arg4.IsWhole) (arg5 : Memref sig .tc .vmem S96x96 .bf16) (harg5 : arg5.IsWhole) (arg6 : Memref sig .tc .vmem S1x96 .f32) (harg6 : arg6.IsWhole) (arg7 : Memref sig .tc .vmem S10000x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (arg11 : Memref sig .tc .vmem S1x96 .f32) (harg11 : arg11.IsWhole) (hc0 : cond2_0 i) (hc1 : ¬cond2_1 i)
    (x0 : Vec F S10000x96 .f32) (x1 : Vec F S10000x96 .f32) (x2 : Vec F S96x96 .bf16) (x3 : Vec F S1x96 .f32) (x4 : Vec F S96x96 .bf16) (x5 : Vec F S1x96 .f32) (y : S1x96.Idx) :
    ∃ pc ∈ (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).2.2.1, y ∈ pc.1.set :=
  View.cover_of_tiledL (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).2.2.1 S1x96.size (by sl_kernel_rfl) y

/-- The column-sum-of-squares accumulator at the first point: what the run leaves in it, its pieces read back. -/
def sout2_A_1 (c : Dev nD) (i : grid2.Coords) (arg1 : Memref sig .tc .vmem S10000x96 .f32) (harg1 : arg1.IsWhole) (arg2 : Memref sig .tc .vmem S10000x96 .f32) (harg2 : arg2.IsWhole) (arg3 : Memref sig .tc .vmem S96x96 .bf16) (harg3 : arg3.IsWhole) (arg4 : Memref sig .tc .vmem S1x96 .f32) (harg4 : arg4.IsWhole) (arg5 : Memref sig .tc .vmem S96x96 .bf16) (harg5 : arg5.IsWhole) (arg6 : Memref sig .tc .vmem S1x96 .f32) (harg6 : arg6.IsWhole) (arg7 : Memref sig .tc .vmem S10000x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (arg11 : Memref sig .tc .vmem S1x96 .f32) (harg11 : arg11.IsWhole) (hc0 : cond2_0 i) (hc1 : ¬cond2_1 i)
    (x0 : Vec F S10000x96 .f32) (x1 : Vec F S10000x96 .f32) (x2 : Vec F S96x96 .bf16) (x3 : Vec F S1x96 .f32) (x4 : Vec F S96x96 .bf16) (x5 : Vec F S1x96 .f32) : Vec F S1x96 .f32 :=
  VS2_1.read (Elt F) (VS2_1.writes (Elt F) VS2_1.junk (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).2.2.1)

/-- The h2 output block at a middle point: the run's pieces for it tile the buffer, so they cover it. -/
theorem cover2_B_6 (c : Dev nD) (i : grid2.Coords) (arg1 : Memref sig .tc .vmem S10000x96 .f32) (harg1 : arg1.IsWhole) (arg2 : Memref sig .tc .vmem S10000x96 .f32) (harg2 : arg2.IsWhole) (arg3 : Memref sig .tc .vmem S96x96 .bf16) (harg3 : arg3.IsWhole) (arg4 : Memref sig .tc .vmem S1x96 .f32) (harg4 : arg4.IsWhole) (arg5 : Memref sig .tc .vmem S96x96 .bf16) (harg5 : arg5.IsWhole) (arg6 : Memref sig .tc .vmem S1x96 .f32) (harg6 : arg6.IsWhole) (arg7 : Memref sig .tc .vmem S10000x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (arg11 : Memref sig .tc .vmem S1x96 .f32) (harg11 : arg11.IsWhole) (hc0 : ¬cond2_0 i) (hc1 : ¬cond2_1 i)
    (x0 : Vec F S10000x96 .f32) (x1 : Vec F S10000x96 .f32) (x2 : Vec F S96x96 .bf16) (x3 : Vec F S1x96 .f32) (x4 : Vec F S96x96 .bf16) (x5 : Vec F S1x96 .f32) (xs0 : Vec F S1x96 .f32) (xs1 : Vec F S1x96 .f32) (y : S10000x96.Idx) :
    ∃ pc ∈ (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1 S10000x96.size (by sl_kernel_rfl) y

/-- The h2 output block at a middle point: what the run leaves in it, its pieces read back. -/
def out2_B_6 (c : Dev nD) (i : grid2.Coords) (arg1 : Memref sig .tc .vmem S10000x96 .f32) (harg1 : arg1.IsWhole) (arg2 : Memref sig .tc .vmem S10000x96 .f32) (harg2 : arg2.IsWhole) (arg3 : Memref sig .tc .vmem S96x96 .bf16) (harg3 : arg3.IsWhole) (arg4 : Memref sig .tc .vmem S1x96 .f32) (harg4 : arg4.IsWhole) (arg5 : Memref sig .tc .vmem S96x96 .bf16) (harg5 : arg5.IsWhole) (arg6 : Memref sig .tc .vmem S1x96 .f32) (harg6 : arg6.IsWhole) (arg7 : Memref sig .tc .vmem S10000x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (arg11 : Memref sig .tc .vmem S1x96 .f32) (harg11 : arg11.IsWhole) (hc0 : ¬cond2_0 i) (hc1 : ¬cond2_1 i)
    (x0 : Vec F S10000x96 .f32) (x1 : Vec F S10000x96 .f32) (x2 : Vec F S96x96 .bf16) (x3 : Vec F S1x96 .f32) (x4 : Vec F S96x96 .bf16) (x5 : Vec F S1x96 .f32) (xs0 : Vec F S1x96 .f32) (xs1 : Vec F S1x96 .f32) : Vec F S10000x96 .f32 :=
  VO2_6.read (Elt F) (VO2_6.writes (Elt F) VO2_6.junk (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1)

/-- The column-sum accumulator at a middle point: the run's pieces for it tile the buffer, so they cover it. -/
theorem scover2_B_0 (c : Dev nD) (i : grid2.Coords) (arg1 : Memref sig .tc .vmem S10000x96 .f32) (harg1 : arg1.IsWhole) (arg2 : Memref sig .tc .vmem S10000x96 .f32) (harg2 : arg2.IsWhole) (arg3 : Memref sig .tc .vmem S96x96 .bf16) (harg3 : arg3.IsWhole) (arg4 : Memref sig .tc .vmem S1x96 .f32) (harg4 : arg4.IsWhole) (arg5 : Memref sig .tc .vmem S96x96 .bf16) (harg5 : arg5.IsWhole) (arg6 : Memref sig .tc .vmem S1x96 .f32) (harg6 : arg6.IsWhole) (arg7 : Memref sig .tc .vmem S10000x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (arg11 : Memref sig .tc .vmem S1x96 .f32) (harg11 : arg11.IsWhole) (hc0 : ¬cond2_0 i) (hc1 : ¬cond2_1 i)
    (x0 : Vec F S10000x96 .f32) (x1 : Vec F S10000x96 .f32) (x2 : Vec F S96x96 .bf16) (x3 : Vec F S1x96 .f32) (x4 : Vec F S96x96 .bf16) (x5 : Vec F S1x96 .f32) (xs0 : Vec F S1x96 .f32) (xs1 : Vec F S1x96 .f32) (y : S1x96.Idx) :
    ∃ pc ∈ (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1, y ∈ pc.1.set :=
  View.cover_of_tiledL (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1 S1x96.size (by sl_kernel_rfl) y

/-- The column-sum accumulator at a middle point: what the run leaves in it, its pieces read back. -/
def sout2_B_0 (c : Dev nD) (i : grid2.Coords) (arg1 : Memref sig .tc .vmem S10000x96 .f32) (harg1 : arg1.IsWhole) (arg2 : Memref sig .tc .vmem S10000x96 .f32) (harg2 : arg2.IsWhole) (arg3 : Memref sig .tc .vmem S96x96 .bf16) (harg3 : arg3.IsWhole) (arg4 : Memref sig .tc .vmem S1x96 .f32) (harg4 : arg4.IsWhole) (arg5 : Memref sig .tc .vmem S96x96 .bf16) (harg5 : arg5.IsWhole) (arg6 : Memref sig .tc .vmem S1x96 .f32) (harg6 : arg6.IsWhole) (arg7 : Memref sig .tc .vmem S10000x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (arg11 : Memref sig .tc .vmem S1x96 .f32) (harg11 : arg11.IsWhole) (hc0 : ¬cond2_0 i) (hc1 : ¬cond2_1 i)
    (x0 : Vec F S10000x96 .f32) (x1 : Vec F S10000x96 .f32) (x2 : Vec F S96x96 .bf16) (x3 : Vec F S1x96 .f32) (x4 : Vec F S96x96 .bf16) (x5 : Vec F S1x96 .f32) (xs0 : Vec F S1x96 .f32) (xs1 : Vec F S1x96 .f32) : Vec F S1x96 .f32 :=
  VS2_0.read (Elt F) (VS2_0.writes (Elt F) VS2_0.junk (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1)

/-- The column-sum-of-squares accumulator at a middle point: the run's pieces for it tile the buffer, so they cover it. -/
theorem scover2_B_1 (c : Dev nD) (i : grid2.Coords) (arg1 : Memref sig .tc .vmem S10000x96 .f32) (harg1 : arg1.IsWhole) (arg2 : Memref sig .tc .vmem S10000x96 .f32) (harg2 : arg2.IsWhole) (arg3 : Memref sig .tc .vmem S96x96 .bf16) (harg3 : arg3.IsWhole) (arg4 : Memref sig .tc .vmem S1x96 .f32) (harg4 : arg4.IsWhole) (arg5 : Memref sig .tc .vmem S96x96 .bf16) (harg5 : arg5.IsWhole) (arg6 : Memref sig .tc .vmem S1x96 .f32) (harg6 : arg6.IsWhole) (arg7 : Memref sig .tc .vmem S10000x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (arg11 : Memref sig .tc .vmem S1x96 .f32) (harg11 : arg11.IsWhole) (hc0 : ¬cond2_0 i) (hc1 : ¬cond2_1 i)
    (x0 : Vec F S10000x96 .f32) (x1 : Vec F S10000x96 .f32) (x2 : Vec F S96x96 .bf16) (x3 : Vec F S1x96 .f32) (x4 : Vec F S96x96 .bf16) (x5 : Vec F S1x96 .f32) (xs0 : Vec F S1x96 .f32) (xs1 : Vec F S1x96 .f32) (y : S1x96.Idx) :
    ∃ pc ∈ (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1 S1x96.size (by sl_kernel_rfl) y

/-- The column-sum-of-squares accumulator at a middle point: what the run leaves in it, its pieces read back. -/
def sout2_B_1 (c : Dev nD) (i : grid2.Coords) (arg1 : Memref sig .tc .vmem S10000x96 .f32) (harg1 : arg1.IsWhole) (arg2 : Memref sig .tc .vmem S10000x96 .f32) (harg2 : arg2.IsWhole) (arg3 : Memref sig .tc .vmem S96x96 .bf16) (harg3 : arg3.IsWhole) (arg4 : Memref sig .tc .vmem S1x96 .f32) (harg4 : arg4.IsWhole) (arg5 : Memref sig .tc .vmem S96x96 .bf16) (harg5 : arg5.IsWhole) (arg6 : Memref sig .tc .vmem S1x96 .f32) (harg6 : arg6.IsWhole) (arg7 : Memref sig .tc .vmem S10000x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (arg11 : Memref sig .tc .vmem S1x96 .f32) (harg11 : arg11.IsWhole) (hc0 : ¬cond2_0 i) (hc1 : ¬cond2_1 i)
    (x0 : Vec F S10000x96 .f32) (x1 : Vec F S10000x96 .f32) (x2 : Vec F S96x96 .bf16) (x3 : Vec F S1x96 .f32) (x4 : Vec F S96x96 .bf16) (x5 : Vec F S1x96 .f32) (xs0 : Vec F S1x96 .f32) (xs1 : Vec F S1x96 .f32) : Vec F S1x96 .f32 :=
  VS2_1.read (Elt F) (VS2_1.writes (Elt F) VS2_1.junk (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1)

/-- The h2 output block at the last point: the run's pieces for it tile the buffer, so they cover it. -/
theorem cover2_C_6 (c : Dev nD) (i : grid2.Coords) (arg1 : Memref sig .tc .vmem S10000x96 .f32) (harg1 : arg1.IsWhole) (arg2 : Memref sig .tc .vmem S10000x96 .f32) (harg2 : arg2.IsWhole) (arg3 : Memref sig .tc .vmem S96x96 .bf16) (harg3 : arg3.IsWhole) (arg4 : Memref sig .tc .vmem S1x96 .f32) (harg4 : arg4.IsWhole) (arg5 : Memref sig .tc .vmem S96x96 .bf16) (harg5 : arg5.IsWhole) (arg6 : Memref sig .tc .vmem S1x96 .f32) (harg6 : arg6.IsWhole) (arg7 : Memref sig .tc .vmem S10000x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (arg11 : Memref sig .tc .vmem S1x96 .f32) (harg11 : arg11.IsWhole) (hc0 : ¬cond2_0 i) (hc1 : cond2_1 i)
    (x0 : Vec F S10000x96 .f32) (x1 : Vec F S10000x96 .f32) (x2 : Vec F S96x96 .bf16) (x3 : Vec F S1x96 .f32) (x4 : Vec F S96x96 .bf16) (x5 : Vec F S1x96 .f32) (xs0 : Vec F S1x96 .f32) (xs1 : Vec F S1x96 .f32) (y : S10000x96.Idx) :
    ∃ pc ∈ (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1 S10000x96.size (by sl_kernel_rfl) y

/-- The h2 output block at the last point: what the run leaves in it, its pieces read back. -/
def out2_C_6 (c : Dev nD) (i : grid2.Coords) (arg1 : Memref sig .tc .vmem S10000x96 .f32) (harg1 : arg1.IsWhole) (arg2 : Memref sig .tc .vmem S10000x96 .f32) (harg2 : arg2.IsWhole) (arg3 : Memref sig .tc .vmem S96x96 .bf16) (harg3 : arg3.IsWhole) (arg4 : Memref sig .tc .vmem S1x96 .f32) (harg4 : arg4.IsWhole) (arg5 : Memref sig .tc .vmem S96x96 .bf16) (harg5 : arg5.IsWhole) (arg6 : Memref sig .tc .vmem S1x96 .f32) (harg6 : arg6.IsWhole) (arg7 : Memref sig .tc .vmem S10000x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (arg11 : Memref sig .tc .vmem S1x96 .f32) (harg11 : arg11.IsWhole) (hc0 : ¬cond2_0 i) (hc1 : cond2_1 i)
    (x0 : Vec F S10000x96 .f32) (x1 : Vec F S10000x96 .f32) (x2 : Vec F S96x96 .bf16) (x3 : Vec F S1x96 .f32) (x4 : Vec F S96x96 .bf16) (x5 : Vec F S1x96 .f32) (xs0 : Vec F S1x96 .f32) (xs1 : Vec F S1x96 .f32) : Vec F S10000x96 .f32 :=
  VO2_6.read (Elt F) (VO2_6.writes (Elt F) VO2_6.junk (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1)

/-- The column-sum output at the last point: the run's pieces for it tile the buffer, so they cover it. -/
theorem cover2_C_7 (c : Dev nD) (i : grid2.Coords) (arg1 : Memref sig .tc .vmem S10000x96 .f32) (harg1 : arg1.IsWhole) (arg2 : Memref sig .tc .vmem S10000x96 .f32) (harg2 : arg2.IsWhole) (arg3 : Memref sig .tc .vmem S96x96 .bf16) (harg3 : arg3.IsWhole) (arg4 : Memref sig .tc .vmem S1x96 .f32) (harg4 : arg4.IsWhole) (arg5 : Memref sig .tc .vmem S96x96 .bf16) (harg5 : arg5.IsWhole) (arg6 : Memref sig .tc .vmem S1x96 .f32) (harg6 : arg6.IsWhole) (arg7 : Memref sig .tc .vmem S10000x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (arg11 : Memref sig .tc .vmem S1x96 .f32) (harg11 : arg11.IsWhole) (hc0 : ¬cond2_0 i) (hc1 : cond2_1 i)
    (x0 : Vec F S10000x96 .f32) (x1 : Vec F S10000x96 .f32) (x2 : Vec F S96x96 .bf16) (x3 : Vec F S1x96 .f32) (x4 : Vec F S96x96 .bf16) (x5 : Vec F S1x96 .f32) (xs0 : Vec F S1x96 .f32) (xs1 : Vec F S1x96 .f32) (y : S1x96.Idx) :
    ∃ pc ∈ (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1, y ∈ pc.1.set :=
  View.cover_of_tiledL (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1 S1x96.size (by sl_kernel_rfl) y

/-- The column-sum output at the last point: what the run leaves in it, its pieces read back. -/
def out2_C_7 (c : Dev nD) (i : grid2.Coords) (arg1 : Memref sig .tc .vmem S10000x96 .f32) (harg1 : arg1.IsWhole) (arg2 : Memref sig .tc .vmem S10000x96 .f32) (harg2 : arg2.IsWhole) (arg3 : Memref sig .tc .vmem S96x96 .bf16) (harg3 : arg3.IsWhole) (arg4 : Memref sig .tc .vmem S1x96 .f32) (harg4 : arg4.IsWhole) (arg5 : Memref sig .tc .vmem S96x96 .bf16) (harg5 : arg5.IsWhole) (arg6 : Memref sig .tc .vmem S1x96 .f32) (harg6 : arg6.IsWhole) (arg7 : Memref sig .tc .vmem S10000x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (arg11 : Memref sig .tc .vmem S1x96 .f32) (harg11 : arg11.IsWhole) (hc0 : ¬cond2_0 i) (hc1 : cond2_1 i)
    (x0 : Vec F S10000x96 .f32) (x1 : Vec F S10000x96 .f32) (x2 : Vec F S96x96 .bf16) (x3 : Vec F S1x96 .f32) (x4 : Vec F S96x96 .bf16) (x5 : Vec F S1x96 .f32) (xs0 : Vec F S1x96 .f32) (xs1 : Vec F S1x96 .f32) : Vec F S1x96 .f32 :=
  VO2_7.read (Elt F) (VO2_7.writes (Elt F) VO2_7.junk (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1)

/-- The column-sum-of-squares output at the last point: the run's pieces for it tile the buffer, so they cover it. -/
theorem cover2_C_8 (c : Dev nD) (i : grid2.Coords) (arg1 : Memref sig .tc .vmem S10000x96 .f32) (harg1 : arg1.IsWhole) (arg2 : Memref sig .tc .vmem S10000x96 .f32) (harg2 : arg2.IsWhole) (arg3 : Memref sig .tc .vmem S96x96 .bf16) (harg3 : arg3.IsWhole) (arg4 : Memref sig .tc .vmem S1x96 .f32) (harg4 : arg4.IsWhole) (arg5 : Memref sig .tc .vmem S96x96 .bf16) (harg5 : arg5.IsWhole) (arg6 : Memref sig .tc .vmem S1x96 .f32) (harg6 : arg6.IsWhole) (arg7 : Memref sig .tc .vmem S10000x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (arg11 : Memref sig .tc .vmem S1x96 .f32) (harg11 : arg11.IsWhole) (hc0 : ¬cond2_0 i) (hc1 : cond2_1 i)
    (x0 : Vec F S10000x96 .f32) (x1 : Vec F S10000x96 .f32) (x2 : Vec F S96x96 .bf16) (x3 : Vec F S1x96 .f32) (x4 : Vec F S96x96 .bf16) (x5 : Vec F S1x96 .f32) (xs0 : Vec F S1x96 .f32) (xs1 : Vec F S1x96 .f32) (y : S1x96.Idx) :
    ∃ pc ∈ (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1 S1x96.size (by sl_kernel_rfl) y

/-- The column-sum-of-squares output at the last point: what the run leaves in it, its pieces read back. -/
def out2_C_8 (c : Dev nD) (i : grid2.Coords) (arg1 : Memref sig .tc .vmem S10000x96 .f32) (harg1 : arg1.IsWhole) (arg2 : Memref sig .tc .vmem S10000x96 .f32) (harg2 : arg2.IsWhole) (arg3 : Memref sig .tc .vmem S96x96 .bf16) (harg3 : arg3.IsWhole) (arg4 : Memref sig .tc .vmem S1x96 .f32) (harg4 : arg4.IsWhole) (arg5 : Memref sig .tc .vmem S96x96 .bf16) (harg5 : arg5.IsWhole) (arg6 : Memref sig .tc .vmem S1x96 .f32) (harg6 : arg6.IsWhole) (arg7 : Memref sig .tc .vmem S10000x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (arg11 : Memref sig .tc .vmem S1x96 .f32) (harg11 : arg11.IsWhole) (hc0 : ¬cond2_0 i) (hc1 : cond2_1 i)
    (x0 : Vec F S10000x96 .f32) (x1 : Vec F S10000x96 .f32) (x2 : Vec F S96x96 .bf16) (x3 : Vec F S1x96 .f32) (x4 : Vec F S96x96 .bf16) (x5 : Vec F S1x96 .f32) (xs0 : Vec F S1x96 .f32) (xs1 : Vec F S1x96 .f32) : Vec F S1x96 .f32 :=
  VO2_8.read (Elt F) (VO2_8.writes (Elt F) VO2_8.junk (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1)

/-- The column-sum accumulator at the last point: the run's pieces for it tile the buffer, so they cover it. -/
theorem scover2_C_0 (c : Dev nD) (i : grid2.Coords) (arg1 : Memref sig .tc .vmem S10000x96 .f32) (harg1 : arg1.IsWhole) (arg2 : Memref sig .tc .vmem S10000x96 .f32) (harg2 : arg2.IsWhole) (arg3 : Memref sig .tc .vmem S96x96 .bf16) (harg3 : arg3.IsWhole) (arg4 : Memref sig .tc .vmem S1x96 .f32) (harg4 : arg4.IsWhole) (arg5 : Memref sig .tc .vmem S96x96 .bf16) (harg5 : arg5.IsWhole) (arg6 : Memref sig .tc .vmem S1x96 .f32) (harg6 : arg6.IsWhole) (arg7 : Memref sig .tc .vmem S10000x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (arg11 : Memref sig .tc .vmem S1x96 .f32) (harg11 : arg11.IsWhole) (hc0 : ¬cond2_0 i) (hc1 : cond2_1 i)
    (x0 : Vec F S10000x96 .f32) (x1 : Vec F S10000x96 .f32) (x2 : Vec F S96x96 .bf16) (x3 : Vec F S1x96 .f32) (x4 : Vec F S96x96 .bf16) (x5 : Vec F S1x96 .f32) (xs0 : Vec F S1x96 .f32) (xs1 : Vec F S1x96 .f32) (y : S1x96.Idx) :
    ∃ pc ∈ (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1, y ∈ pc.1.set :=
  View.cover_of_tiledL (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1 S1x96.size (by sl_kernel_rfl) y

/-- The column-sum accumulator at the last point: what the run leaves in it, its pieces read back. -/
def sout2_C_0 (c : Dev nD) (i : grid2.Coords) (arg1 : Memref sig .tc .vmem S10000x96 .f32) (harg1 : arg1.IsWhole) (arg2 : Memref sig .tc .vmem S10000x96 .f32) (harg2 : arg2.IsWhole) (arg3 : Memref sig .tc .vmem S96x96 .bf16) (harg3 : arg3.IsWhole) (arg4 : Memref sig .tc .vmem S1x96 .f32) (harg4 : arg4.IsWhole) (arg5 : Memref sig .tc .vmem S96x96 .bf16) (harg5 : arg5.IsWhole) (arg6 : Memref sig .tc .vmem S1x96 .f32) (harg6 : arg6.IsWhole) (arg7 : Memref sig .tc .vmem S10000x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (arg11 : Memref sig .tc .vmem S1x96 .f32) (harg11 : arg11.IsWhole) (hc0 : ¬cond2_0 i) (hc1 : cond2_1 i)
    (x0 : Vec F S10000x96 .f32) (x1 : Vec F S10000x96 .f32) (x2 : Vec F S96x96 .bf16) (x3 : Vec F S1x96 .f32) (x4 : Vec F S96x96 .bf16) (x5 : Vec F S1x96 .f32) (xs0 : Vec F S1x96 .f32) (xs1 : Vec F S1x96 .f32) : Vec F S1x96 .f32 :=
  VS2_0.read (Elt F) (VS2_0.writes (Elt F) VS2_0.junk (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1)

/-- The column-sum-of-squares accumulator at the last point: the run's pieces for it tile the buffer, so they cover it. -/
theorem scover2_C_1 (c : Dev nD) (i : grid2.Coords) (arg1 : Memref sig .tc .vmem S10000x96 .f32) (harg1 : arg1.IsWhole) (arg2 : Memref sig .tc .vmem S10000x96 .f32) (harg2 : arg2.IsWhole) (arg3 : Memref sig .tc .vmem S96x96 .bf16) (harg3 : arg3.IsWhole) (arg4 : Memref sig .tc .vmem S1x96 .f32) (harg4 : arg4.IsWhole) (arg5 : Memref sig .tc .vmem S96x96 .bf16) (harg5 : arg5.IsWhole) (arg6 : Memref sig .tc .vmem S1x96 .f32) (harg6 : arg6.IsWhole) (arg7 : Memref sig .tc .vmem S10000x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (arg11 : Memref sig .tc .vmem S1x96 .f32) (harg11 : arg11.IsWhole) (hc0 : ¬cond2_0 i) (hc1 : cond2_1 i)
    (x0 : Vec F S10000x96 .f32) (x1 : Vec F S10000x96 .f32) (x2 : Vec F S96x96 .bf16) (x3 : Vec F S1x96 .f32) (x4 : Vec F S96x96 .bf16) (x5 : Vec F S1x96 .f32) (xs0 : Vec F S1x96 .f32) (xs1 : Vec F S1x96 .f32) (y : S1x96.Idx) :
    ∃ pc ∈ (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1, y ∈ pc.1.set :=
  View.cover_of_tiledL (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1 S1x96.size (by sl_kernel_rfl) y

/-- The column-sum-of-squares accumulator at the last point: what the run leaves in it, its pieces read back. -/
def sout2_C_1 (c : Dev nD) (i : grid2.Coords) (arg1 : Memref sig .tc .vmem S10000x96 .f32) (harg1 : arg1.IsWhole) (arg2 : Memref sig .tc .vmem S10000x96 .f32) (harg2 : arg2.IsWhole) (arg3 : Memref sig .tc .vmem S96x96 .bf16) (harg3 : arg3.IsWhole) (arg4 : Memref sig .tc .vmem S1x96 .f32) (harg4 : arg4.IsWhole) (arg5 : Memref sig .tc .vmem S96x96 .bf16) (harg5 : arg5.IsWhole) (arg6 : Memref sig .tc .vmem S1x96 .f32) (harg6 : arg6.IsWhole) (arg7 : Memref sig .tc .vmem S10000x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (arg11 : Memref sig .tc .vmem S1x96 .f32) (harg11 : arg11.IsWhole) (hc0 : ¬cond2_0 i) (hc1 : cond2_1 i)
    (x0 : Vec F S10000x96 .f32) (x1 : Vec F S10000x96 .f32) (x2 : Vec F S96x96 .bf16) (x3 : Vec F S1x96 .f32) (x4 : Vec F S96x96 .bf16) (x5 : Vec F S1x96 .f32) (xs0 : Vec F S1x96 .f32) (xs1 : Vec F S1x96 .f32) : Vec F S1x96 .f32 :=
  VS2_1.read (Elt F) (VS2_1.writes (Elt F) VS2_1.junk (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1)

/-- What an idle statistics output's buffer is said to hold at a point that stores nothing into it: a placeholder nothing
    consults (the window is neither written back there nor read at the next point). -/
def idle2_7 : Vec F S1x96 .f32 := VO2_7.read (Elt F) (VO2_7.writes (Elt F) VO2_7.junk [])
def idle2_8 : Vec F S1x96 .f32 := VO2_8.read (Elt F) (VO2_8.writes (Elt F) VO2_8.junk [])

section Region2
variable (V : (c : Dev nD) → (b : Ref sig .tc) → Buf (Elt F) ((c : Thread nD τ).loc b))

/-! ## What the outputs and the accumulators hold after each point -/

/-- THE ACCUMULATION. After the body at position `n`: the h2 block, the two statistics outputs, the two accumulators —
    the first point's run over the point's input blocks, then at each later point the middle (or, at point 4, the last)
    run over the point's input blocks and the accumulators as the point before left them. -/
def outsAt2 (c : Dev nD) : (n : ℕ) → n < cfg2.N → Vec F S10000x96 .f32 × Vec F S1x96 .f32 × Vec F S1x96 .f32 × Vec F S1x96 .f32 × Vec F S1x96 .f32
  | 0, hn => (out2_A_6 c (grid2.coords ⟨0, hn⟩) (st2_0 ⟨0, hn⟩) (hs2_0 ⟨0, hn⟩) (st2_1 ⟨0, hn⟩) (hs2_1 ⟨0, hn⟩) (st2_2 ⟨0, hn⟩) (hs2_2 ⟨0, hn⟩) (st2_3 ⟨0, hn⟩) (hs2_3 ⟨0, hn⟩) (st2_4 ⟨0, hn⟩) (hs2_4 ⟨0, hn⟩) (st2_5 ⟨0, hn⟩) (hs2_5 ⟨0, hn⟩) (st2_6 ⟨0, hn⟩) (hs2_6 ⟨0, hn⟩) (st2_7 ⟨0, hn⟩) (hs2_7 ⟨0, hn⟩) (st2_8 ⟨0, hn⟩) (hs2_8 ⟨0, hn⟩) scM2_0 (Memref.isWhole_whole _) scM2_1 (Memref.isWhole_whole _) ((hcond2_0 ⟨0, hn⟩).mpr rfl) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩), idle2_7, idle2_8, sout2_A_0 c (grid2.coords ⟨0, hn⟩) (st2_0 ⟨0, hn⟩) (hs2_0 ⟨0, hn⟩) (st2_1 ⟨0, hn⟩) (hs2_1 ⟨0, hn⟩) (st2_2 ⟨0, hn⟩) (hs2_2 ⟨0, hn⟩) (st2_3 ⟨0, hn⟩) (hs2_3 ⟨0, hn⟩) (st2_4 ⟨0, hn⟩) (hs2_4 ⟨0, hn⟩) (st2_5 ⟨0, hn⟩) (hs2_5 ⟨0, hn⟩) (st2_6 ⟨0, hn⟩) (hs2_6 ⟨0, hn⟩) (st2_7 ⟨0, hn⟩) (hs2_7 ⟨0, hn⟩) (st2_8 ⟨0, hn⟩) (hs2_8 ⟨0, hn⟩) scM2_0 (Memref.isWhole_whole _) scM2_1 (Memref.isWhole_whole _) ((hcond2_0 ⟨0, hn⟩).mpr rfl) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩), sout2_A_1 c (grid2.coords ⟨0, hn⟩) (st2_0 ⟨0, hn⟩) (hs2_0 ⟨0, hn⟩) (st2_1 ⟨0, hn⟩) (hs2_1 ⟨0, hn⟩) (st2_2 ⟨0, hn⟩) (hs2_2 ⟨0, hn⟩) (st2_3 ⟨0, hn⟩) (hs2_3 ⟨0, hn⟩) (st2_4 ⟨0, hn⟩) (hs2_4 ⟨0, hn⟩) (st2_5 ⟨0, hn⟩) (hs2_5 ⟨0, hn⟩) (st2_6 ⟨0, hn⟩) (hs2_6 ⟨0, hn⟩) (st2_7 ⟨0, hn⟩) (hs2_7 ⟨0, hn⟩) (st2_8 ⟨0, hn⟩) (hs2_8 ⟨0, hn⟩) scM2_0 (Memref.isWhole_whole _) scM2_1 (Memref.isWhole_whole _) ((hcond2_0 ⟨0, hn⟩).mpr rfl) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩))
  | n + 1, hn =>
    if h1 : n + 1 = 4 then
      (out2_C_6 c (grid2.coords ⟨n + 1, hn⟩) (st2_0 ⟨n + 1, hn⟩) (hs2_0 ⟨n + 1, hn⟩) (st2_1 ⟨n + 1, hn⟩) (hs2_1 ⟨n + 1, hn⟩) (st2_2 ⟨n + 1, hn⟩) (hs2_2 ⟨n + 1, hn⟩) (st2_3 ⟨n + 1, hn⟩) (hs2_3 ⟨n + 1, hn⟩) (st2_4 ⟨n + 1, hn⟩) (hs2_4 ⟨n + 1, hn⟩) (st2_5 ⟨n + 1, hn⟩) (hs2_5 ⟨n + 1, hn⟩) (st2_6 ⟨n + 1, hn⟩) (hs2_6 ⟨n + 1, hn⟩) (st2_7 ⟨n + 1, hn⟩) (hs2_7 ⟨n + 1, hn⟩) (st2_8 ⟨n + 1, hn⟩) (hs2_8 ⟨n + 1, hn⟩) scM2_0 (Memref.isWhole_whole _) scM2_1 (Memref.isWhole_whole _) (fun h => Nat.succ_ne_zero n ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.2.1 (outsAt2 c n (Nat.lt_of_succ_lt hn)).2.2.2.2, out2_C_7 c (grid2.coords ⟨n + 1, hn⟩) (st2_0 ⟨n + 1, hn⟩) (hs2_0 ⟨n + 1, hn⟩) (st2_1 ⟨n + 1, hn⟩) (hs2_1 ⟨n + 1, hn⟩) (st2_2 ⟨n + 1, hn⟩) (hs2_2 ⟨n + 1, hn⟩) (st2_3 ⟨n + 1, hn⟩) (hs2_3 ⟨n + 1, hn⟩) (st2_4 ⟨n + 1, hn⟩) (hs2_4 ⟨n + 1, hn⟩) (st2_5 ⟨n + 1, hn⟩) (hs2_5 ⟨n + 1, hn⟩) (st2_6 ⟨n + 1, hn⟩) (hs2_6 ⟨n + 1, hn⟩) (st2_7 ⟨n + 1, hn⟩) (hs2_7 ⟨n + 1, hn⟩) (st2_8 ⟨n + 1, hn⟩) (hs2_8 ⟨n + 1, hn⟩) scM2_0 (Memref.isWhole_whole _) scM2_1 (Memref.isWhole_whole _) (fun h => Nat.succ_ne_zero n ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.2.1 (outsAt2 c n (Nat.lt_of_succ_lt hn)).2.2.2.2, out2_C_8 c (grid2.coords ⟨n + 1, hn⟩) (st2_0 ⟨n + 1, hn⟩) (hs2_0 ⟨n + 1, hn⟩) (st2_1 ⟨n + 1, hn⟩) (hs2_1 ⟨n + 1, hn⟩) (st2_2 ⟨n + 1, hn⟩) (hs2_2 ⟨n + 1, hn⟩) (st2_3 ⟨n + 1, hn⟩) (hs2_3 ⟨n + 1, hn⟩) (st2_4 ⟨n + 1, hn⟩) (hs2_4 ⟨n + 1, hn⟩) (st2_5 ⟨n + 1, hn⟩) (hs2_5 ⟨n + 1, hn⟩) (st2_6 ⟨n + 1, hn⟩) (hs2_6 ⟨n + 1, hn⟩) (st2_7 ⟨n + 1, hn⟩) (hs2_7 ⟨n + 1, hn⟩) (st2_8 ⟨n + 1, hn⟩) (hs2_8 ⟨n + 1, hn⟩) scM2_0 (Memref.isWhole_whole _) scM2_1 (Memref.isWhole_whole _) (fun h => Nat.succ_ne_zero n ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.2.1 (outsAt2 c n (Nat.lt_of_succ_lt hn)).2.2.2.2, sout2_C_0 c (grid2.coords ⟨n + 1, hn⟩) (st2_0 ⟨n + 1, hn⟩) (hs2_0 ⟨n + 1, hn⟩) (st2_1 ⟨n + 1, hn⟩) (hs2_1 ⟨n + 1, hn⟩) (st2_2 ⟨n + 1, hn⟩) (hs2_2 ⟨n + 1, hn⟩) (st2_3 ⟨n + 1, hn⟩) (hs2_3 ⟨n + 1, hn⟩) (st2_4 ⟨n + 1, hn⟩) (hs2_4 ⟨n + 1, hn⟩) (st2_5 ⟨n + 1, hn⟩) (hs2_5 ⟨n + 1, hn⟩) (st2_6 ⟨n + 1, hn⟩) (hs2_6 ⟨n + 1, hn⟩) (st2_7 ⟨n + 1, hn⟩) (hs2_7 ⟨n + 1, hn⟩) (st2_8 ⟨n + 1, hn⟩) (hs2_8 ⟨n + 1, hn⟩) scM2_0 (Memref.isWhole_whole _) scM2_1 (Memref.isWhole_whole _) (fun h => Nat.succ_ne_zero n ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.2.1 (outsAt2 c n (Nat.lt_of_succ_lt hn)).2.2.2.2, sout2_C_1 c (grid2.coords ⟨n + 1, hn⟩) (st2_0 ⟨n + 1, hn⟩) (hs2_0 ⟨n + 1, hn⟩) (st2_1 ⟨n + 1, hn⟩) (hs2_1 ⟨n + 1, hn⟩) (st2_2 ⟨n + 1, hn⟩) (hs2_2 ⟨n + 1, hn⟩) (st2_3 ⟨n + 1, hn⟩) (hs2_3 ⟨n + 1, hn⟩) (st2_4 ⟨n + 1, hn⟩) (hs2_4 ⟨n + 1, hn⟩) (st2_5 ⟨n + 1, hn⟩) (hs2_5 ⟨n + 1, hn⟩) (st2_6 ⟨n + 1, hn⟩) (hs2_6 ⟨n + 1, hn⟩) (st2_7 ⟨n + 1, hn⟩) (hs2_7 ⟨n + 1, hn⟩) (st2_8 ⟨n + 1, hn⟩) (hs2_8 ⟨n + 1, hn⟩) scM2_0 (Memref.isWhole_whole _) scM2_1 (Memref.isWhole_whole _) (fun h => Nat.succ_ne_zero n ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.2.1 (outsAt2 c n (Nat.lt_of_succ_lt hn)).2.2.2.2)
    else
      (out2_B_6 c (grid2.coords ⟨n + 1, hn⟩) (st2_0 ⟨n + 1, hn⟩) (hs2_0 ⟨n + 1, hn⟩) (st2_1 ⟨n + 1, hn⟩) (hs2_1 ⟨n + 1, hn⟩) (st2_2 ⟨n + 1, hn⟩) (hs2_2 ⟨n + 1, hn⟩) (st2_3 ⟨n + 1, hn⟩) (hs2_3 ⟨n + 1, hn⟩) (st2_4 ⟨n + 1, hn⟩) (hs2_4 ⟨n + 1, hn⟩) (st2_5 ⟨n + 1, hn⟩) (hs2_5 ⟨n + 1, hn⟩) (st2_6 ⟨n + 1, hn⟩) (hs2_6 ⟨n + 1, hn⟩) (st2_7 ⟨n + 1, hn⟩) (hs2_7 ⟨n + 1, hn⟩) (st2_8 ⟨n + 1, hn⟩) (hs2_8 ⟨n + 1, hn⟩) scM2_0 (Memref.isWhole_whole _) scM2_1 (Memref.isWhole_whole _) (fun h => Nat.succ_ne_zero n ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.2.1 (outsAt2 c n (Nat.lt_of_succ_lt hn)).2.2.2.2, idle2_7, idle2_8, sout2_B_0 c (grid2.coords ⟨n + 1, hn⟩) (st2_0 ⟨n + 1, hn⟩) (hs2_0 ⟨n + 1, hn⟩) (st2_1 ⟨n + 1, hn⟩) (hs2_1 ⟨n + 1, hn⟩) (st2_2 ⟨n + 1, hn⟩) (hs2_2 ⟨n + 1, hn⟩) (st2_3 ⟨n + 1, hn⟩) (hs2_3 ⟨n + 1, hn⟩) (st2_4 ⟨n + 1, hn⟩) (hs2_4 ⟨n + 1, hn⟩) (st2_5 ⟨n + 1, hn⟩) (hs2_5 ⟨n + 1, hn⟩) (st2_6 ⟨n + 1, hn⟩) (hs2_6 ⟨n + 1, hn⟩) (st2_7 ⟨n + 1, hn⟩) (hs2_7 ⟨n + 1, hn⟩) (st2_8 ⟨n + 1, hn⟩) (hs2_8 ⟨n + 1, hn⟩) scM2_0 (Memref.isWhole_whole _) scM2_1 (Memref.isWhole_whole _) (fun h => Nat.succ_ne_zero n ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.2.1 (outsAt2 c n (Nat.lt_of_succ_lt hn)).2.2.2.2, sout2_B_1 c (grid2.coords ⟨n + 1, hn⟩) (st2_0 ⟨n + 1, hn⟩) (hs2_0 ⟨n + 1, hn⟩) (st2_1 ⟨n + 1, hn⟩) (hs2_1 ⟨n + 1, hn⟩) (st2_2 ⟨n + 1, hn⟩) (hs2_2 ⟨n + 1, hn⟩) (st2_3 ⟨n + 1, hn⟩) (hs2_3 ⟨n + 1, hn⟩) (st2_4 ⟨n + 1, hn⟩) (hs2_4 ⟨n + 1, hn⟩) (st2_5 ⟨n + 1, hn⟩) (hs2_5 ⟨n + 1, hn⟩) (st2_6 ⟨n + 1, hn⟩) (hs2_6 ⟨n + 1, hn⟩) (st2_7 ⟨n + 1, hn⟩) (hs2_7 ⟨n + 1, hn⟩) (st2_8 ⟨n + 1, hn⟩) (hs2_8 ⟨n + 1, hn⟩) scM2_0 (Memref.isWhole_whole _) scM2_1 (Memref.isWhole_whole _) (fun h => Nat.succ_ne_zero n ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.2.1 (outsAt2 c n (Nat.lt_of_succ_lt hn)).2.2.2.2)

/-- `outsAt2` at the first point: the first case's contents. -/
theorem outsAt2_first (c : Dev nD) (t : Fin cfg2.N) (h0 : t.val = 0) (h1 : ¬t.val = 4) :
    outsAt2 V c t.val t.isLt = (out2_A_6 c (grid2.coords t) (st2_0 t) (hs2_0 t) (st2_1 t) (hs2_1 t) (st2_2 t) (hs2_2 t) (st2_3 t) (hs2_3 t) (st2_4 t) (hs2_4 t) (st2_5 t) (hs2_5 t) (st2_6 t) (hs2_6 t) (st2_7 t) (hs2_7 t) (st2_8 t) (hs2_8 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t), idle2_7, idle2_8, sout2_A_0 c (grid2.coords t) (st2_0 t) (hs2_0 t) (st2_1 t) (hs2_1 t) (st2_2 t) (hs2_2 t) (st2_3 t) (hs2_3 t) (st2_4 t) (hs2_4 t) (st2_5 t) (hs2_5 t) (st2_6 t) (hs2_6 t) (st2_7 t) (hs2_7 t) (st2_8 t) (hs2_8 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t), sout2_A_1 c (grid2.coords t) (st2_0 t) (hs2_0 t) (st2_1 t) (hs2_1 t) (st2_2 t) (hs2_2 t) (st2_3 t) (hs2_3 t) (st2_4 t) (hs2_4 t) (st2_5 t) (hs2_5 t) (st2_6 t) (hs2_6 t) (st2_7 t) (hs2_7 t) (st2_8 t) (hs2_8 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t)) := by
  obtain ⟨n, hn⟩ := t
  cases n with
  | zero => exact rfl
  | succ n => exact absurd h0 (Nat.succ_ne_zero n)

/-- `outsAt2` at a middle point: the middle case's contents, over what the point before left in the accumulators. -/
theorem outsAt2_middle (c : Dev nD) (t : Fin cfg2.N) (h0 : ¬t.val = 0) (h1 : ¬t.val = 4) :
    outsAt2 V c t.val t.isLt = (out2_B_6 c (grid2.coords t) (st2_0 t) (hs2_0 t) (st2_1 t) (hs2_1 t) (st2_2 t) (hs2_2 t) (st2_3 t) (hs2_3 t) (st2_4 t) (hs2_4 t) (st2_5 t) (hs2_5 t) (st2_6 t) (hs2_6 t) (st2_7 t) (hs2_7 t) (st2_8 t) (hs2_8 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, idle2_7, idle2_8, sout2_B_0 c (grid2.coords t) (st2_0 t) (hs2_0 t) (st2_1 t) (hs2_1 t) (st2_2 t) (hs2_2 t) (st2_3 t) (hs2_3 t) (st2_4 t) (hs2_4 t) (st2_5 t) (hs2_5 t) (st2_6 t) (hs2_6 t) (st2_7 t) (hs2_7 t) (st2_8 t) (hs2_8 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, sout2_B_1 c (grid2.coords t) (st2_0 t) (hs2_0 t) (st2_1 t) (hs2_1 t) (st2_2 t) (hs2_2 t) (st2_3 t) (hs2_3 t) (st2_4 t) (hs2_4 t) (st2_5 t) (hs2_5 t) (st2_6 t) (hs2_6 t) (st2_7 t) (hs2_7 t) (st2_8 t) (hs2_8 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2) := by
  obtain ⟨n, hn⟩ := t
  cases n with
  | zero => exact absurd rfl h0
  | succ n => exact (dif_neg h1).trans rfl

/-- `outsAt2` at the last point: the last case's contents, over what the point before left in the accumulators. -/
theorem outsAt2_last (c : Dev nD) (t : Fin cfg2.N) (h0 : ¬t.val = 0) (h1 : t.val = 4) :
    outsAt2 V c t.val t.isLt = (out2_C_6 c (grid2.coords t) (st2_0 t) (hs2_0 t) (st2_1 t) (hs2_1 t) (st2_2 t) (hs2_2 t) (st2_3 t) (hs2_3 t) (st2_4 t) (hs2_4 t) (st2_5 t) (hs2_5 t) (st2_6 t) (hs2_6 t) (st2_7 t) (hs2_7 t) (st2_8 t) (hs2_8 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, out2_C_7 c (grid2.coords t) (st2_0 t) (hs2_0 t) (st2_1 t) (hs2_1 t) (st2_2 t) (hs2_2 t) (st2_3 t) (hs2_3 t) (st2_4 t) (hs2_4 t) (st2_5 t) (hs2_5 t) (st2_6 t) (hs2_6 t) (st2_7 t) (hs2_7 t) (st2_8 t) (hs2_8 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, out2_C_8 c (grid2.coords t) (st2_0 t) (hs2_0 t) (st2_1 t) (hs2_1 t) (st2_2 t) (hs2_2 t) (st2_3 t) (hs2_3 t) (st2_4 t) (hs2_4 t) (st2_5 t) (hs2_5 t) (st2_6 t) (hs2_6 t) (st2_7 t) (hs2_7 t) (st2_8 t) (hs2_8 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, sout2_C_0 c (grid2.coords t) (st2_0 t) (hs2_0 t) (st2_1 t) (hs2_1 t) (st2_2 t) (hs2_2 t) (st2_3 t) (hs2_3 t) (st2_4 t) (hs2_4 t) (st2_5 t) (hs2_5 t) (st2_6 t) (hs2_6 t) (st2_7 t) (hs2_7 t) (st2_8 t) (hs2_8 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, sout2_C_1 c (grid2.coords t) (st2_0 t) (hs2_0 t) (st2_1 t) (hs2_1 t) (st2_2 t) (hs2_2 t) (st2_3 t) (hs2_3 t) (st2_4 t) (hs2_4 t) (st2_5 t) (hs2_5 t) (st2_6 t) (hs2_6 t) (st2_7 t) (hs2_7 t) (st2_8 t) (hs2_8 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2) := by
  obtain ⟨n, hn⟩ := t
  cases n with
  | zero => exact absurd rfl h0
  | succ n => exact (dif_pos h1).trans rfl

/-! ## The region invariant: the accumulators carried between points -/

/-- Before position `n`: before the first point the class's invariant (every scoped buffer at anything); afterwards the
    two accumulators at what the point before left in them, the rest of the scoped buffers unopened, the generator
    register at some state. -/
def PhiS2 (c : Dev nD) : (n : ℕ) → n ≤ cfg2.N → sProp 𝕄
  | 0, _ => Pipeline.ΦA spec2 c
  | n + 1, hn => iprop(iprop(iprop(owns (c : Thread nD τ) scM2_0 fullShare ((outsAt2 V c n hn).2.2.2.1) ∗ owns (c : Thread nD τ) scM2_1 fullShare ((outsAt2 V c n hn).2.2.2.2))
      ∗ Pipeline.scopedRestBut (Ix := Unit) (Name := ℕ) (U := UR sig nD τ) (Lvl := ℕ) (Val := Elt F) spec2 c [cc2_scratch0, cc2_scratch1]) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(iprop(owns (c : Thread nD τ) scM2_0 fullShare ((outsAt2 V c n hn).2.2.2.1) ∗ owns (c : Thread nD τ) scM2_1 fullShare ((outsAt2 V c n hn).2.2.2.2))
      ∗ Pipeline.scopedRestBut (Ix := Unit) (Name := ℕ) (U := UR sig nD τ) (Lvl := ℕ) (Val := Elt F) spec2 c [cc2_scratch0, cc2_scratch1]) ∗ (∃ r, prngReg c r)) := rfl

theorem PhiS2_pos (c : Dev nD) (n : ℕ) (h : n ≤ cfg2.N) (hz : n ≠ 0) :
    PhiS2 V c n h = iprop(iprop(iprop(owns (c : Thread nD τ) scM2_0 fullShare ((outsAt2 V c (n - 1) (by omega)).2.2.2.1) ∗ owns (c : Thread nD τ) scM2_1 fullShare ((outsAt2 V c (n - 1) (by omega)).2.2.2.2))
      ∗ Pipeline.scopedRestBut (Ix := Unit) (Name := ℕ) (U := UR sig nD τ) (Lvl := ℕ) (Val := Elt F) spec2 c [cc2_scratch0, cc2_scratch1]) ∗ (∃ r, prngReg c r)) := by
  cases n with
  | zero => exact absurd rfl hz
  | succ n => rfl

/-! ## The pipeline's proof data -/

/-- The proof data of pipeline 2 on core `c`: the arrays as the region finds them; after the body at point `t` each
    input's buffer at its block and each output's at `outsAt2`'s component; the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => (outsAt2 V c t.val t.isLt).1
    | ⟨7, _⟩ => (outsAt2 V c t.val t.isLt).2.1
    | ⟨8, _⟩ => (outsAt2 V c t.val t.isLt).2.2.1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = (outsAt2 V c t.val t.isLt).1 := by dsimp only [dat2]
theorem after2_7 (c : Dev nD) (t : Fin cfg2.N) : (dat2 V c).after 7 t = (outsAt2 V c t.val t.isLt).2.1 := by dsimp only [dat2]
theorem after2_8 (c : Dev nD) (t : Fin cfg2.N) : (dat2 V c).after 8 t = (outsAt2 V c t.val t.isLt).2.2.1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t
    ∗ (dat2 V c).leavesExact 8 t)

set_option maxHeartbeats 8000000 in
/-- The body at any point: the inputs' memrefs hold their blocks; the point is the first, a middle or the last one, and
    that case's run applies; the invariant hands the body the two accumulators at what the point before left (at anything
    at the first point) and takes them back at this point's contents; the rest of the scoped buffers, the generator
    register and the core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (st2_0 t) fullShare ((dat2 V c).after 0 t) from by
    unfold Dat.leavesExact; rw [liveAt2_0 t], after2_0]
  rw [show (dat2 V c).leavesExact 1 t = owns (c : Thread nD τ) (st2_1 t) fullShare ((dat2 V c).after 1 t) from by
    unfold Dat.leavesExact; rw [liveAt2_1 t], after2_1]
  rw [show (dat2 V c).leavesExact 2 t = owns (c : Thread nD τ) (st2_2 t) fullShare ((dat2 V c).after 2 t) from by
    unfold Dat.leavesExact; rw [liveAt2_2 t], after2_2]
  rw [show (dat2 V c).leavesExact 3 t = owns (c : Thread nD τ) (st2_3 t) fullShare ((dat2 V c).after 3 t) from by
    unfold Dat.leavesExact; rw [liveAt2_3 t], after2_3]
  rw [show (dat2 V c).leavesExact 4 t = owns (c : Thread nD τ) (st2_4 t) fullShare ((dat2 V c).after 4 t) from by
    unfold Dat.leavesExact; rw [liveAt2_4 t], after2_4]
  rw [show (dat2 V c).leavesExact 5 t = owns (c : Thread nD τ) (st2_5 t) fullShare ((dat2 V c).after 5 t) from by
    unfold Dat.leavesExact; rw [liveAt2_5 t], after2_5]
  rw [show (dat2 V c).leavesExact 6 t = owns (c : Thread nD τ) (st2_6 t) fullShare ((dat2 V c).after 6 t) from by
    unfold Dat.leavesExact; rw [liveAt2_6 t], after2_6]
  have hN : t.val < 5 := lt_of_lt_of_eq t.isLt (show cfg2.N = 5 from N_2)
  by_cases h0 : t.val = 0
  · have h1 : ¬t.val = 4 := by omega
    rw [Dat.leavesExact_idle (dat2 V c) 7 t (idleAt2_7 t (fun h => h1 ((hcond2_1 t).mp h))) (noFlush2_7 t (fun h => h1 ((hcond2_1 t).mp h)))]
    rw [Dat.leavesExact_idle (dat2 V c) 8 t (idleAt2_8 t (fun h => h1 ((hcond2_1 t).mp h))) (noFlush2_8 t (fun h => h1 ((hcond2_1 t).mp h)))]
    rw [outsAt2_first V c t h0 h1]
    unfold out2_A_6 sout2_A_0 sout2_A_1; (try dsimp only)
    rw [PhiS2_castSucc V c t, PhiS2_zero V c _ _ h0, PhiA2_eq]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun2_A c (grid2.coords t) _ _ _ _ _ _ _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t) (iblk2 V c 5 t)).2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    isplitl [HS0]; · iexact HS0
    isplitl [HS1]; · iexact HS1
    iintro ⟨H0, H1, H2, H3, H4, H5, ⟨%e6, H6⟩, H7, H8, ⟨%es0, HS0⟩, ⟨%es1, HS1⟩⟩
    isplitl [HS0 HS1 HR Hg]
    · isplitl [HS0 HS1 HR]
      · isplitl [HS0 HS1]
        · isplitl [HS0]
          · unfold owns; iexists _; isplitr
            swap; · iexact HS0
            ipureintro; exact View.read_writes_of_cover _ _ _ _ _ (scover2_A_0 c _ _ _ _ _ _ _ _ _ _ _ _ _ _ _ _ _ _ _ _ _ _ _ _ _ _ _ _ _ _ _)
          · unfold owns; iexists _; isplitr
            swap; · iexact HS1
            ipureintro; exact View.read_writes_of_cover _ _ _ _ _ (scover2_A_1 c _ _ _ _ _ _ _ _ _ _ _ _ _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover2_A_6 c _ _ _ _ _ _ _ _ _ _ _ _ _ _ _ _ _ _ _ _ _ _ _ _ _ _ _ _ _ _ _)
    isplitl [H7]; · iexists _; iexact H7
    iexists _; iexact H8
  · by_cases h1 : t.val = 4
    · rw [show (dat2 V c).leavesExact 7 t = owns (c : Thread nD τ) (st2_7 t) fullShare ((dat2 V c).after 7 t) from by
        unfold Dat.leavesExact; rw [liveAt2_7 t ((hcond2_1 t).mpr h1)], after2_7]
      rw [show (dat2 V c).leavesExact 8 t = owns (c : Thread nD τ) (st2_8 t) fullShare ((dat2 V c).after 8 t) from by
        unfold Dat.leavesExact; rw [liveAt2_8 t ((hcond2_1 t).mpr h1)], after2_8]
      rw [outsAt2_last V c t h0 h1]
      unfold out2_C_6 out2_C_7 out2_C_8 sout2_C_0 sout2_C_1; (try dsimp only)
      rw [PhiS2_castSucc V c t, PhiS2_pos V c _ _ h0]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun2_C c (grid2.coords t) _ _ _ _ _ _ _ _ _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) (iblk2 V c 5 t) _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS0]; · iexact HS0
      isplitl [HS1]; · iexact HS1
      iintro ⟨H0, H1, H2, H3, H4, H5, ⟨%e6, H6⟩, ⟨%e7, H7⟩, ⟨%e8, H8⟩, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover2_C_0 c _ _ _ _ _ _ _ _ _ _ _ _ _ _ _ _ _ _ _ _ _ _ _ _ _ _ _ _ _ _ _ _ _)
            · unfold owns; iexists _; isplitr
              swap; · iexact HS1
              ipureintro; exact View.read_writes_of_cover _ _ _ _ _ (scover2_C_1 c _ _ _ _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover2_C_6 c _ _ _ _ _ _ _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover2_C_7 c _ _ _ _ _ _ _ _ _ _ _ _ _ _ _ _ _ _ _ _ _ _ _ _ _ _ _ _ _ _ _ _ _)
      unfold owns; iexists _; isplitr
      swap; · iexact H8
      ipureintro; exact View.read_writes_of_cover _ _ _ _ _ (cover2_C_8 c _ _ _ _ _ _ _ _ _ _ _ _ _ _ _ _ _ _ _ _ _ _ _ _ _ _ _ _ _ _ _ _ _)
    · rw [Dat.leavesExact_idle (dat2 V c) 7 t (idleAt2_7 t (fun h => h1 ((hcond2_1 t).mp h))) (noFlush2_7 t (fun h => h1 ((hcond2_1 t).mp h)))]
      rw [Dat.leavesExact_idle (dat2 V c) 8 t (idleAt2_8 t (fun h => h1 ((hcond2_1 t).mp h))) (noFlush2_8 t (fun h => h1 ((hcond2_1 t).mp h)))]
      rw [outsAt2_middle V c t h0 h1]
      unfold out2_B_6 sout2_B_0 sout2_B_1; (try dsimp only)
      rw [PhiS2_castSucc V c t, PhiS2_pos V c _ _ h0]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun2_B c (grid2.coords t) _ _ _ _ _ _ _ _ _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) _ _).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexact H8
      isplitl [HS0]; · iexact HS0
      isplitl [HS1]; · iexact HS1
      iintro ⟨H0, H1, H2, H3, H4, H5, ⟨%e6, H6⟩, H7, H8, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover2_B_0 c _ _ _ _ _ _ _ _ _ _ _ _ _ _ _ _ _ _ _ _ _ _ _ _ _ _ _ _ _ _ _ _ _)
            · unfold owns; iexists _; isplitr
              swap; · iexact HS1
              ipureintro; exact View.read_writes_of_cover _ _ _ _ _ (scover2_B_1 c _ _ _ _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover2_B_6 c _ _ _ _ _ _ _ _ _ _ _ _ _ _ _ _ _ _ _ _ _ _ _ _ _ _ _ _ _ _ _ _ _)
      isplitl [H7]; · iexists _; iexact H7
      iexists _; iexact H8

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the class's back: the accumulators' named contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

/-- The same after the last point. -/
theorem hout2 (c : Dev nD) : (dat2 V c).Φ (Fin.last cfg2.N) ⊢ Pipeline.ΦA spec2 c :=
  Phi_out2 V c _ (by rw [Fin.val_last]; have : cfg2.N = 5 := N_2; omega)

end Region2

end Cert.KernelIdeal.Hand

end
-- ==== Proof.Reg3.lean ====
/- Region 3 of @main (custom_call 3, `cc3__bn_proj_kernel`): the windows' blocks, what the body leaves in the
   output window's buffer, the body's triple, the pipeline's proof data and the body obligation, all at a
   parameter `V`: the TensorCore's buffer contents when the region is entered. -/
import proofs.«111056_j31628139167864_2_alg».proof.Proof.Gen.KernelIdeal.Launch
import proofs.«111056_j31628139167864_2_alg».proof.Proof.Gen.KernelIdeal.Skeleton
import proofs.«111056_j31628139167864_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not (an unfetched
    window's block index has not moved), for any proof data whose array is `V`'s and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, fetched there or not (an unfetched
    window's block index has not moved), for any proof data whose array is `V`'s and whose body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current staging buffer holds its block at every point, fetched there or not (an unfetched
    window's block index has not moved), for any proof data whose array is `V`'s and whose body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3's current staging buffer holds its block at every point, fetched there or not (an unfetched
    window's block index has not moved), for any proof data whose array is `V`'s and whose body leaves the block in place. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- Input window 4's current staging buffer holds its block at every point, fetched there or not (an unfetched
    window's block index has not moved), for any proof data whose array is `V`'s and whose body leaves the block in place. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
/-- Input window 5's current staging buffer holds its block at every point, fetched there or not (an unfetched
    window's block index has not moved), for any proof data whose array is `V`'s and whose body leaves the block in place. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)
/-- Input window 6's current staging buffer holds its block at every point, fetched there or not (an unfetched
    window's block index has not moved), for any proof data whose array is `V`'s and whose body leaves the block in place. -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

abbrev r3_0 : Rect S10000x64 := Rect.unit (s := S10000x64) ![0, 0] S10000x64.size inb_S10000x64_S10000x64_0_0

/-! ## What the body leaves in the output window's buffer -/

/-- Window 7's staging buffer after the body, from the input windows' blocks: its one store, of the whole block. -/
def out3_7 (x0 : Vec F S10000x96 .f32) (x1 : Vec F S1x96 .f32) (x2 : Vec F S1x96 .f32) (x3 : Vec F S1x96 .f32) (x4 : Vec F S1x96 .f32) (x5 : Vec F S96x64 .bf16) (x6 : Vec F S1x64 .f32) : Vec F S10000x64 .f32 :=
  View.canon [⟨r3_0, k3_pay1 (View.ld x0 (Rect.unit (s := S10000x96) ![0, 0] S10000x96.size inb_S10000x96_S10000x96_0_0)) (View.ld x1 (Rect.unit (s := S1x96) ![0, 0] S1x96.size inb_S1x96_S1x96_0_0)) (View.ld x2 (Rect.unit (s := S1x96) ![0, 0] S1x96.size inb_S1x96_S1x96_0_0)) (View.ld x3 (Rect.unit (s := S1x96) ![0, 0] S1x96.size inb_S1x96_S1x96_0_0)) (View.ld x4 (Rect.unit (s := S1x96) ![0, 0] S1x96.size inb_S1x96_S1x96_0_0)) (View.ld x5 (Rect.unit (s := S96x64) ![0, 0] S96x64.size inb_S96x64_S96x64_0_0)) (View.ld x6 (Rect.unit (s := S1x64) ![0, 0] S1x64.size inb_S1x64_S1x64_0_0))⟩]

/-- The store tiles the buffer, so it covers it. -/
theorem cover3_7 (p0 : Vec F S10000x64 .f32) (y : S10000x64.Idx) :
    ∃ pc ∈ ([⟨r3_0, p0⟩] : List (View.Piece (Elt F) S10000x64 .f32)), y ∈ pc.1.set :=
  View.cover_of_tiled [⟨r3_0, p0⟩] S10000x64.size (by rfl) y

/-! ## The body's triple -/

set_option maxHeartbeats 1000000 in
/-- The kernel body on whole staging memrefs, the inputs' at read contents `xW` and the output's at anything, runs to
    the continuation holding the inputs' as they were and the output's at `out3_7` of the inputs'. -/
theorem sound_kernel3 (c : Dev nD) (E : Set ℕ) (i : grid3.Coords) (arg1 : Memref sig .tc .vmem S10000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S96x64 .bf16) (harg6 : arg6.IsWhole) (arg7 : Memref sig .tc .vmem S1x64 .f32) (harg7 : arg7.IsWhole) (arg8 : Memref sig .tc .vmem S10000x64 .f32) (harg8 : arg8.IsWhole)
    (x0 : Vec F S10000x96 .f32) (x1 : Vec F S1x96 .f32) (x2 : Vec F S1x96 .f32) (x3 : Vec F S1x96 .f32) (x4 : Vec F S1x96 .f32) (x5 : Vec F S96x64 .bf16) (x6 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out3_7 x0 x1 x2 x3 x4 x5 x6)) -∗ K ⟨⟩))
      ⊢ wp frame (wpE (defs₀ (F := F)) Variants.none c none) E (cc3__bn_proj_kernel i arg1 harg1 arg2 harg2 arg3 harg3 arg4 harg4 arg5 harg5 arg6 harg6 arg7 harg7 arg8 harg8) K := by
  simp only [cc3__bn_proj_kernel_eq_skeleton]; unfold cc3__bn_proj_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover3_7 _)

/-! ## The pipeline's proof data -/

/-- The proof data of pipeline 3 on core `c`: the arrays as the region finds them (`V`); after the body at
    point `t` each input's buffer at its block and the output's at `out3_7` of the input blocks; the invariant the
    scoped rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => out3_7 (iblk3 V c 0 t) (iblk3 V c 1 t) (iblk3 V c 2 t) (iblk3 V c 3 t) (iblk3 V c 4 t) (iblk3 V c 5 t) (iblk3 V c 6 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- The invariant is the same at every point. -/
theorem Phi3 (c : Dev nD) (t) : (dat3 V c).Φ t = Pipeline.ΦA spec3 c := rfl

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = out3_7 (iblk3 V c 0 t) (iblk3 V c 1 t) (iblk3 V c 2 t) (iblk3 V c 3 t) (iblk3 V c 4 t) (iblk3 V c 5 t) (iblk3 V c 6 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t))

/-- The body at any point: the inputs' memrefs hold their blocks, so `sound_kernel3` applies; the invariant and
    the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel3 c Set.univ (grid3.coords t) _ _ _ _ _ _ _ _ _ _ _ _ _ _ _ _ (iblk3 V c 0 t) (iblk3 V c 1 t) (iblk3 V c 2 t) (iblk3 V c 3 t) (iblk3 V c 4 t) (iblk3 V c 5 t) (iblk3 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation3 (c : Dev nD) : BodyObligation (dat3 (F := F) V c) (defs₀ (F := F)) Variants.none () Set.univ := fun t => by
  rw [bigSep_W3, bigSep_W3]
  exact sound_body3 V c t

end Region3

end Cert.KernelIdeal.Hand

end
-- ==== Proof.Frames.lean ====
/- @main as its items: the buffers' contents at each boundary as a fold from the launch memory, each of the four
   regions entered and left at those contents, the run, and the frame: the seventeen argument arrays end as launched. -/
import proofs.«111056_j31628139167864_2_alg».proof.Proof.Reg0
import proofs.«111056_j31628139167864_2_alg».proof.Proof.Reg1
import proofs.«111056_j31628139167864_2_alg».proof.Proof.Reg2
import proofs.«111056_j31628139167864_2_alg».proof.Proof.Reg3
import proofs.«111056_j31628139167864_2_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The buffers' contents at each boundary between @main's items: a fold from the launch memory.
    A host stretch applies its operations; a region leaves each of its windows' arrays at what the
    write-backs of its grid points leave and every other buffer as it found it. -/

abbrev W0 : Dev nD → Valuation τ sig (Elt F) := fun c b => m ((c : Dev nD), b)
abbrev W1 : Dev nD → Valuation τ sig (Elt F) := fun c => StableHlo.after hostOps0 (W0 m c)
abbrev V1 : (c : Dev nD) → (b : Ref sig .tc) → Buf (Elt F) ((c : Thread nD τ).loc b) := fun c b => W1 m c b
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
theorem W1_of (c : Dev nD) (r : Ref sig .tc) (h : r ∉ hostOps0_W) : W1 m c r = W0 m c r :=
  StableHlo.after_of_writes_sub hostOps0 _ hostOps0_writes h
abbrev W3 : Dev nD → Valuation τ sig (Elt F) := fun c => StableHlo.after hostOps1 (W2 m c)
abbrev V3 : (c : Dev nD) → (b : Ref sig .tc) → Buf (Elt F) ((c : Thread nD τ).loc b) := fun c b => W3 m c b
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)
theorem W3_of (c : Dev nD) (r : Ref sig .tc) (h : r ∉ hostOps1_W) : W3 m c r = W2 m c r :=
  StableHlo.after_of_writes_sub hostOps1 _ hostOps1_writes h
abbrev W5 : Dev nD → Valuation τ sig (Elt F) := fun c => StableHlo.after hostOps2 (W4 m c)
abbrev V5 : (c : Dev nD) → (b : Ref sig .tc) → Buf (Elt F) ((c : Thread nD τ).loc b) := fun c b => W5 m c b
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev V6 : (c : Dev nD) → (b : Ref sig .tc) → Buf (Elt F) ((c : Thread nD τ).loc b) := fun c b => W6 m c b
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)
theorem W5_of (c : Dev nD) (r : Ref sig .tc) (h : r ∉ hostOps2_W) : W5 m c r = W4 m c r :=
  StableHlo.after_of_writes_sub hostOps2 _ hostOps2_writes h
abbrev W7 : Dev nD → Valuation τ sig (Elt F) := fun c => StableHlo.after hostOps3 (W6 m c)
abbrev V7 : (c : Dev nD) → (b : Ref sig .tc) → Buf (Elt F) ((c : Thread nD τ).loc b) := fun c b => W7 m c b
def W8 (c : Dev nD) : Valuation τ sig (Elt F) :=
  Pipeline.withArrays spec3 c (W7 m c) fun w => (dat3 (V7 m) c).arrAt w cfg3.N
theorem W8_arr (c : Dev nD) (w : Fin cfg3.W) :
    W8 m c (Proc.devRef .tc (Pipeline.arrRef spec3 w)) = (dat3 (V7 m) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb
abbrev V8 : (c : Dev nD) → (b : Ref sig .tc) → Buf (Elt F) ((c : Thread nD τ).loc b) := fun c b => W8 m c b
theorem hF3 (c : Dev nD) (w : Fin cfg3.W) : (dat3 (V7 m) c).arrAt w cfg3.N = V8 m c (Pipeline.arrRef spec3 w) :=
  (W8_arr m c w).symm
theorem hrest3 (c : Dev nD) : ∀ b, b ∉ Finset.univ.image (Pipeline.arrRef spec3) → V8 m c b = V7 m c b :=
  fun b hb => W8_of_ne m c b fun w e => hb (Finset.mem_image.mpr ⟨w, Finset.mem_univ _, e⟩)
theorem W7_of (c : Dev nD) (r : Ref sig .tc) (h : r ∉ hostOps3_W) : W7 m c r = W6 m c r :=
  StableHlo.after_of_writes_sub hostOps3 _ hostOps3_writes h

/-! ## No item changes an argument array -/

theorem W2_main_arg0 (c : Dev nD) : W2 m c (Proc.devRef .tc main_arg0) = W1 m c (Proc.devRef .tc main_arg0) :=
  (W2_arr m c 0).trans (((dat0 (V1 m) c).arrAt_in 0 rfl _).trans (A_eq0 (V1 m) c 0))
theorem W8_main_arg0 (c : Dev nD) : W8 m c (Proc.devRef .tc main_arg0) = m ((c : Thread nD τ).loc main_arg0) :=
  (W8_of_ne m c main_arg0 (by decide)).trans <| (W7_of m c main_arg0 (by decide)).trans <| (W6_of_ne m c main_arg0 (by decide)).trans <| (W5_of m c main_arg0 (by decide)).trans <| (W4_of_ne m c main_arg0 (by decide)).trans <| (W3_of m c main_arg0 (by decide)).trans <| (W2_main_arg0 m c).trans <| (W1_of m c main_arg0 (by decide)).trans rfl
theorem W8_main_arg1 (c : Dev nD) : W8 m c (Proc.devRef .tc main_arg1) = m ((c : Thread nD τ).loc main_arg1) :=
  (W8_of_ne m c main_arg1 (by decide)).trans <| (W7_of m c main_arg1 (by decide)).trans <| (W6_of_ne m c main_arg1 (by decide)).trans <| (W5_of m c main_arg1 (by decide)).trans <| (W4_of_ne m c main_arg1 (by decide)).trans <| (W3_of m c main_arg1 (by decide)).trans <| (W2_of_ne m c main_arg1 (by decide)).trans <| (W1_of m c main_arg1 (by decide)).trans rfl
theorem W8_main_arg2 (c : Dev nD) : W8 m c (Proc.devRef .tc main_arg2) = m ((c : Thread nD τ).loc main_arg2) :=
  (W8_of_ne m c main_arg2 (by decide)).trans <| (W7_of m c main_arg2 (by decide)).trans <| (W6_of_ne m c main_arg2 (by decide)).trans <| (W5_of m c main_arg2 (by decide)).trans <| (W4_of_ne m c main_arg2 (by decide)).trans <| (W3_of m c main_arg2 (by decide)).trans <| (W2_of_ne m c main_arg2 (by decide)).trans <| (W1_of m c main_arg2 (by decide)).trans rfl
theorem W8_main_arg3 (c : Dev nD) : W8 m c (Proc.devRef .tc main_arg3) = m ((c : Thread nD τ).loc main_arg3) :=
  (W8_of_ne m c main_arg3 (by decide)).trans <| (W7_of m c main_arg3 (by decide)).trans <| (W6_of_ne m c main_arg3 (by decide)).trans <| (W5_of m c main_arg3 (by decide)).trans <| (W4_of_ne m c main_arg3 (by decide)).trans <| (W3_of m c main_arg3 (by decide)).trans <| (W2_of_ne m c main_arg3 (by decide)).trans <| (W1_of m c main_arg3 (by decide)).trans rfl
theorem W8_main_arg4 (c : Dev nD) : W8 m c (Proc.devRef .tc main_arg4) = m ((c : Thread nD τ).loc main_arg4) :=
  (W8_of_ne m c main_arg4 (by decide)).trans <| (W7_of m c main_arg4 (by decide)).trans <| (W6_of_ne m c main_arg4 (by decide)).trans <| (W5_of m c main_arg4 (by decide)).trans <| (W4_of_ne m c main_arg4 (by decide)).trans <| (W3_of m c main_arg4 (by decide)).trans <| (W2_of_ne m c main_arg4 (by decide)).trans <| (W1_of m c main_arg4 (by decide)).trans rfl
theorem W8_main_arg5 (c : Dev nD) : W8 m c (Proc.devRef .tc main_arg5) = m ((c : Thread nD τ).loc main_arg5) :=
  (W8_of_ne m c main_arg5 (by decide)).trans <| (W7_of m c main_arg5 (by decide)).trans <| (W6_of_ne m c main_arg5 (by decide)).trans <| (W5_of m c main_arg5 (by decide)).trans <| (W4_of_ne m c main_arg5 (by decide)).trans <| (W3_of m c main_arg5 (by decide)).trans <| (W2_of_ne m c main_arg5 (by decide)).trans <| (W1_of m c main_arg5 (by decide)).trans rfl
theorem W8_main_arg6 (c : Dev nD) : W8 m c (Proc.devRef .tc main_arg6) = m ((c : Thread nD τ).loc main_arg6) :=
  (W8_of_ne m c main_arg6 (by decide)).trans <| (W7_of m c main_arg6 (by decide)).trans <| (W6_of_ne m c main_arg6 (by decide)).trans <| (W5_of m c main_arg6 (by decide)).trans <| (W4_of_ne m c main_arg6 (by decide)).trans <| (W3_of m c main_arg6 (by decide)).trans <| (W2_of_ne m c main_arg6 (by decide)).trans <| (W1_of m c main_arg6 (by decide)).trans rfl
theorem W8_main_arg7 (c : Dev nD) : W8 m c (Proc.devRef .tc main_arg7) = m ((c : Thread nD τ).loc main_arg7) :=
  (W8_of_ne m c main_arg7 (by decide)).trans <| (W7_of m c main_arg7 (by decide)).trans <| (W6_of_ne m c main_arg7 (by decide)).trans <| (W5_of m c main_arg7 (by decide)).trans <| (W4_of_ne m c main_arg7 (by decide)).trans <| (W3_of m c main_arg7 (by decide)).trans <| (W2_of_ne m c main_arg7 (by decide)).trans <| (W1_of m c main_arg7 (by decide)).trans rfl
theorem W8_main_arg8 (c : Dev nD) : W8 m c (Proc.devRef .tc main_arg8) = m ((c : Thread nD τ).loc main_arg8) :=
  (W8_of_ne m c main_arg8 (by decide)).trans <| (W7_of m c main_arg8 (by decide)).trans <| (W6_of_ne m c main_arg8 (by decide)).trans <| (W5_of m c main_arg8 (by decide)).trans <| (W4_of_ne m c main_arg8 (by decide)).trans <| (W3_of m c main_arg8 (by decide)).trans <| (W2_of_ne m c main_arg8 (by decide)).trans <| (W1_of m c main_arg8 (by decide)).trans rfl
theorem W8_main_arg9 (c : Dev nD) : W8 m c (Proc.devRef .tc main_arg9) = m ((c : Thread nD τ).loc main_arg9) :=
  (W8_of_ne m c main_arg9 (by decide)).trans <| (W7_of m c main_arg9 (by decide)).trans <| (W6_of_ne m c main_arg9 (by decide)).trans <| (W5_of m c main_arg9 (by decide)).trans <| (W4_of_ne m c main_arg9 (by decide)).trans <| (W3_of m c main_arg9 (by decide)).trans <| (W2_of_ne m c main_arg9 (by decide)).trans <| (W1_of m c main_arg9 (by decide)).trans rfl
theorem W8_main_arg10 (c : Dev nD) : W8 m c (Proc.devRef .tc main_arg10) = m ((c : Thread nD τ).loc main_arg10) :=
  (W8_of_ne m c main_arg10 (by decide)).trans <| (W7_of m c main_arg10 (by decide)).trans <| (W6_of_ne m c main_arg10 (by decide)).trans <| (W5_of m c main_arg10 (by decide)).trans <| (W4_of_ne m c main_arg10 (by decide)).trans <| (W3_of m c main_arg10 (by decide)).trans <| (W2_of_ne m c main_arg10 (by decide)).trans <| (W1_of m c main_arg10 (by decide)).trans rfl
theorem W8_main_arg11 (c : Dev nD) : W8 m c (Proc.devRef .tc main_arg11) = m ((c : Thread nD τ).loc main_arg11) :=
  (W8_of_ne m c main_arg11 (by decide)).trans <| (W7_of m c main_arg11 (by decide)).trans <| (W6_of_ne m c main_arg11 (by decide)).trans <| (W5_of m c main_arg11 (by decide)).trans <| (W4_of_ne m c main_arg11 (by decide)).trans <| (W3_of m c main_arg11 (by decide)).trans <| (W2_of_ne m c main_arg11 (by decide)).trans <| (W1_of m c main_arg11 (by decide)).trans rfl
theorem W8_main_arg12 (c : Dev nD) : W8 m c (Proc.devRef .tc main_arg12) = m ((c : Thread nD τ).loc main_arg12) :=
  (W8_of_ne m c main_arg12 (by decide)).trans <| (W7_of m c main_arg12 (by decide)).trans <| (W6_of_ne m c main_arg12 (by decide)).trans <| (W5_of m c main_arg12 (by decide)).trans <| (W4_of_ne m c main_arg12 (by decide)).trans <| (W3_of m c main_arg12 (by decide)).trans <| (W2_of_ne m c main_arg12 (by decide)).trans <| (W1_of m c main_arg12 (by decide)).trans rfl
theorem W8_main_arg13 (c : Dev nD) : W8 m c (Proc.devRef .tc main_arg13) = m ((c : Thread nD τ).loc main_arg13) :=
  (W8_of_ne m c main_arg13 (by decide)).trans <| (W7_of m c main_arg13 (by decide)).trans <| (W6_of_ne m c main_arg13 (by decide)).trans <| (W5_of m c main_arg13 (by decide)).trans <| (W4_of_ne m c main_arg13 (by decide)).trans <| (W3_of m c main_arg13 (by decide)).trans <| (W2_of_ne m c main_arg13 (by decide)).trans <| (W1_of m c main_arg13 (by decide)).trans rfl
theorem W8_main_arg14 (c : Dev nD) : W8 m c (Proc.devRef .tc main_arg14) = m ((c : Thread nD τ).loc main_arg14) :=
  (W8_of_ne m c main_arg14 (by decide)).trans <| (W7_of m c main_arg14 (by decide)).trans <| (W6_of_ne m c main_arg14 (by decide)).trans <| (W5_of m c main_arg14 (by decide)).trans <| (W4_of_ne m c main_arg14 (by decide)).trans <| (W3_of m c main_arg14 (by decide)).trans <| (W2_of_ne m c main_arg14 (by decide)).trans <| (W1_of m c main_arg14 (by decide)).trans rfl
theorem W8_main_arg15 (c : Dev nD) : W8 m c (Proc.devRef .tc main_arg15) = m ((c : Thread nD τ).loc main_arg15) :=
  (W8_of_ne m c main_arg15 (by decide)).trans <| (W7_of m c main_arg15 (by decide)).trans <| (W6_of_ne m c main_arg15 (by decide)).trans <| (W5_of m c main_arg15 (by decide)).trans <| (W4_of_ne m c main_arg15 (by decide)).trans <| (W3_of m c main_arg15 (by decide)).trans <| (W2_of_ne m c main_arg15 (by decide)).trans <| (W1_of m c main_arg15 (by decide)).trans rfl
theorem W8_main_arg16 (c : Dev nD) : W8 m c (Proc.devRef .tc main_arg16) = m ((c : Thread nD τ).loc main_arg16) :=
  (W8_of_ne m c main_arg16 (by decide)).trans <| (W7_of m c main_arg16 (by decide)).trans <| (W6_of_ne m c main_arg16 (by decide)).trans <| (W5_of m c main_arg16 (by decide)).trans <| (W4_of_ne m c main_arg16 (by decide)).trans <| (W3_of m c main_arg16 (by decide)).trans <| (W2_of_ne m c main_arg16 (by decide)).trans <| (W1_of m c main_arg16 (by decide)).trans rfl

/-! ## The proof data family and the thread state -/

abbrev adm : (p : Fin 4) → (pcfgs (F := F) p).Adm := fun p => (cfgs p).toPCfg_adm
def pdats : (p : Fin 4) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
  | ⟨3, _⟩ => fun c => dat3 (V7 m) c
abbrev 𝒱₀ : Variants := Variants.none
abbrev L : GSem nD τ sig → Finset Unit := fun _ => ∅
abbrev lv : GSem nD τ sig → Unit → ℕ := fun _ _ => 0
/-- What rides beside the buffers through every item: the core's generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W8 m c) ∗ ∃ r, prngReg c r)

/-! ## The regions as items -/

set_option backward.isDefEq.respectTransparency.types false in
/-- Region 0: entered from every unscoped buffer at `W1`, left at `W2`; its windows' arrays are split out of the
    unscoped buffers and put back at their exit contents; the generator register goes into the region's invariant and
    comes back; nothing is owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (dat0 (V1 m) c).Φ 0 from rfl]
    iintro ⟨Hp, -, Hr⟩
    iapply (hin0 (V1 m) c)
    unfold Pipeline.ΦA
    isplitl [Hr]; · iexact Hr
    iexact Hp
  hout c := by
    rw [Pipeline.ownSems0_none, show (pdats m 0 c).Φ (Fin.last _) = (dat0 (V1 m) c).Φ (Fin.last cfg0.N) from rfl]
    have h2 := hout0 (V1 m) c
    unfold Pipeline.ΦA at h2
    iintro H
    ihave H2 := h2 $$ H
    icases H2 with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at `W3`, left at `W4`; its windows' arrays are split out of the
    unscoped buffers and put back at their exit contents; the generator register goes into the region's invariant and
    comes back; nothing is owed. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from Phi1 _ c _]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from Phi1 _ c _]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered from every unscoped buffer at `W5`, left at `W6`; its windows' arrays are split out of the
    unscoped buffers and put back at their exit contents; the generator register goes into the region's invariant and
    comes back; nothing is owed. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = (dat2 (V5 m) c).Φ 0 from rfl]
    iintro ⟨Hp, -, Hr⟩
    iapply (hin2 (V5 m) c)
    unfold Pipeline.ΦA
    isplitl [Hr]; · iexact Hr
    iexact Hp
  hout c := by
    rw [Pipeline.ownSems0_none, show (pdats m 2 c).Φ (Fin.last _) = (dat2 (V5 m) c).Φ (Fin.last cfg2.N) from rfl]
    have h2 := hout2 (V5 m) c
    unfold Pipeline.ΦA at h2
    iintro H
    ihave H2 := h2 $$ H
    icases H2 with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: entered from every unscoped buffer at `W7`, left at `W8`; its windows' arrays are split out of the
    unscoped buffers and put back at their exit contents; the generator register goes into the region's invariant and
    comes back; nothing is owed. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m) c).loose
  hwaits := Pipeline.hwaits_of_owed_zero _ _ _ _ L lv 3 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec3 c (V7 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from Phi3 _ c _]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from Phi3 _ c _]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V7 m c) (V8 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as its items, and the run -/

abbrev segs : List (Pipeline.Seg (pcfgs (F := F)) adm (pdats m) () defs₀ 𝒱₀ L lv) :=
  [ .host (hseg hostOps0 hostOps0_sub hostOps0_fresh (W0 m)), .region (reg0 m),
    .host (hseg hostOps1 hostOps1_sub hostOps1_fresh (W2 m)), .region (reg1 m),
    .host (hseg hostOps2 hostOps2_sub hostOps2_fresh (W4 m)), .region (reg2 m),
    .host (hseg hostOps3 hostOps3_sub hostOps3_fresh (W6 m)), .region (reg3 m) ]
theorem main_run (c : Dev nD) : main (F := F) c = Pipeline.Seg.run (segs m) := (main_chain c).trans (by chain_rfl)

variable (ρ : Dev nD → PrngReg)

set_option backward.isDefEq.respectTransparency.types false in
/-- Every weakly fair execution of @main from `m` terminates without a fault, and in every final state each unscoped
    buffer of each core holds the last boundary's contents `W8`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W8 m c) ∗ R c) ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h c => h c)

/-- The frame: the seventeen argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c => ⟨(h c _ (mem_uc main_arg0 (by decide))).trans (W8_main_arg0 m c),
    (h c _ (mem_uc main_arg1 (by decide))).trans (W8_main_arg1 m c),
    (h c _ (mem_uc main_arg2 (by decide))).trans (W8_main_arg2 m c),
    (h c _ (mem_uc main_arg3 (by decide))).trans (W8_main_arg3 m c),
    (h c _ (mem_uc main_arg4 (by decide))).trans (W8_main_arg4 m c),
    (h c _ (mem_uc main_arg5 (by decide))).trans (W8_main_arg5 m c),
    (h c _ (mem_uc main_arg6 (by decide))).trans (W8_main_arg6 m c),
    (h c _ (mem_uc main_arg7 (by decide))).trans (W8_main_arg7 m c),
    (h c _ (mem_uc main_arg8 (by decide))).trans (W8_main_arg8 m c),
    (h c _ (mem_uc main_arg9 (by decide))).trans (W8_main_arg9 m c),
    (h c _ (mem_uc main_arg10 (by decide))).trans (W8_main_arg10 m c),
    (h c _ (mem_uc main_arg11 (by decide))).trans (W8_main_arg11 m c),
    (h c _ (mem_uc main_arg12 (by decide))).trans (W8_main_arg12 m c),
    (h c _ (mem_uc main_arg13 (by decide))).trans (W8_main_arg13 m c),
    (h c _ (mem_uc main_arg14 (by decide))).trans (W8_main_arg14 m c),
    (h c _ (mem_uc main_arg15 (by decide))).trans (W8_main_arg15 m c),
    (h c _ (mem_uc main_arg16 (by decide))).trans (W8_main_arg16 m c)⟩) (run_all m ρ)

/-- The run with the result named: `main_v63` ends at the last boundary's contents, the arguments as launched. -/
theorem run_result : θ_run defs (onTc (τ := τ) (main (F := F))) ⟨m, fun _ => 0, ρ⟩ (fun r => ∀ c : Dev nD,
      r.2.mem ((c.tc : Thread nD τ).loc main_v63) = W8 m c (Proc.devRef .tc main_v63)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c => ⟨h c _ (mem_uc main_v63 (by decide)), (h c _ (mem_uc main_arg0 (by decide))).trans (W8_main_arg0 m c),
    (h c _ (mem_uc main_arg1 (by decide))).trans (W8_main_arg1 m c),
    (h c _ (mem_uc main_arg2 (by decide))).trans (W8_main_arg2 m c),
    (h c _ (mem_uc main_arg3 (by decide))).trans (W8_main_arg3 m c),
    (h c _ (mem_uc main_arg4 (by decide))).trans (W8_main_arg4 m c),
    (h c _ (mem_uc main_arg5 (by decide))).trans (W8_main_arg5 m c),
    (h c _ (mem_uc main_arg6 (by decide))).trans (W8_main_arg6 m c),
    (h c _ (mem_uc main_arg7 (by decide))).trans (W8_main_arg7 m c),
    (h c _ (mem_uc main_arg8 (by decide))).trans (W8_main_arg8 m c),
    (h c _ (mem_uc main_arg9 (by decide))).trans (W8_main_arg9 m c),
    (h c _ (mem_uc main_arg10 (by decide))).trans (W8_main_arg10 m c),
    (h c _ (mem_uc main_arg11 (by decide))).trans (W8_main_arg11 m c),
    (h c _ (mem_uc main_arg12 (by decide))).trans (W8_main_arg12 m c),
    (h c _ (mem_uc main_arg13 (by decide))).trans (W8_main_arg13 m c),
    (h c _ (mem_uc main_arg14 (by decide))).trans (W8_main_arg14 m c),
    (h c _ (mem_uc main_arg15 (by decide))).trans (W8_main_arg15 m c),
    (h c _ (mem_uc main_arg16 (by decide))).trans (W8_main_arg16 m c)⟩) (run_all m ρ)

end Cert.KernelIdeal.Hand

end
-- ==== Proof.KReg0Runs.lean ====
import proofs.«111056_j31628139167864_2_alg».proof.Proof.Gen.Kernel.Launch
import proofs.«111056_j31628139167864_2_alg».proof.Proof.Gen.Kernel.Skeleton
import proofs.«111056_j31628139167864_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0 (custom_call 0, the MLP kernel with its two carried column-sum accumulators): what its runs share -/

/-! ## The body's two branch conditions, decided over the five grid points -/

/-- The condition of the body's first conditional (zero the two accumulators): the point's coordinate is 0. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val = 0 :=
  (by decide +kernel : ∀ t : Fin grid0.N, cond0_0 (grid0.coords t) ↔ t.val = 0)

/-- The condition of the body's second conditional (copy the accumulators out): the point's coordinate is 4. -/
abbrev cond0_1 (i : grid0.Coords) : Prop := k0_cond2 i = 1#1
/-- It holds at the last point only. -/
theorem hcond0_1 : ∀ t : Fin cfg0.N, cond0_1 (grid0.coords t) ↔ t.val = 4 :=
  (by decide +kernel : ∀ t : Fin grid0.N, cond0_1 (grid0.coords t) ↔ t.val = 4)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
/-- Away from the last point the two statistics outputs are idle (nothing is stored into them) and not written back. -/
theorem idleAt0_7 : ∀ t : Fin cfg0.N, ¬cond0_1 (grid0.coords t) → cfg0.idle 7 (grid0.coords t) = true := by decide +kernel
theorem noFlush0_7 : ∀ t : Fin cfg0.N, ¬cond0_1 (grid0.coords t) → (cfg0.win 7).flush t = false := by decide +kernel
theorem idleAt0_8 : ∀ t : Fin cfg0.N, ¬cond0_1 (grid0.coords t) → cfg0.idle 8 (grid0.coords t) = true := by decide +kernel
theorem noFlush0_8 : ∀ t : Fin cfg0.N, ¬cond0_1 (grid0.coords t) → (cfg0.win 8).flush t = false := by decide +kernel
/-- At the last point they are live. -/
theorem liveAt0_7 : ∀ t : Fin cfg0.N, cond0_1 (grid0.coords t) → cfg0.idle 7 (grid0.coords t) = false := by decide +kernel
theorem liveAt0_8 : ∀ t : Fin cfg0.N, cond0_1 (grid0.coords t) → cfg0.idle 8 (grid0.coords t) = false := by decide +kernel

/-! ## The staging memrefs and the scratch -/

/-- One staging buffer of each output window, through which its contents are stated. -/
abbrev VO0_6 : View sig .tc .vmem S10000x96 .f32 := (Memref.whole cc0_stg6_0 : Memref sig .tc .vmem S10000x96 .f32).view
abbrev VO0_7 : View sig .tc .vmem S1x96 .f32 := (Memref.whole cc0_stg7_0 : Memref sig .tc .vmem S1x96 .f32).view
abbrev VO0_8 : View sig .tc .vmem S1x96 .f32 := (Memref.whole cc0_stg8_0 : Memref sig .tc .vmem S1x96 .f32).view
/-- The wholeness of each window's current staging memref at point `t`, as the pipeline passes it. -/
abbrev hs0_0 (t : Fin cfg0.N) : (st0_0 t).IsWhole := hstage0_0 ((cfg0.slots t 0).cast nbuf0_0)
abbrev hs0_1 (t : Fin cfg0.N) : (st0_1 t).IsWhole := hstage0_1 ((cfg0.slots t 1).cast nbuf0_1)
abbrev hs0_2 (t : Fin cfg0.N) : (st0_2 t).IsWhole := hstage0_2 ((cfg0.slots t 2).cast nbuf0_2)
abbrev hs0_3 (t : Fin cfg0.N) : (st0_3 t).IsWhole := hstage0_3 ((cfg0.slots t 3).cast nbuf0_3)
abbrev hs0_4 (t : Fin cfg0.N) : (st0_4 t).IsWhole := hstage0_4 ((cfg0.slots t 4).cast nbuf0_4)
abbrev hs0_5 (t : Fin cfg0.N) : (st0_5 t).IsWhole := hstage0_5 ((cfg0.slots t 5).cast nbuf0_5)
abbrev hs0_6 (t : Fin cfg0.N) : (st0_6 t).IsWhole := hstage0_6 ((cfg0.slots t 6).cast nbuf0_6)
abbrev hs0_7 (t : Fin cfg0.N) : (st0_7 t).IsWhole := hstage0_7 ((cfg0.slots t 7).cast nbuf0_7)
abbrev hs0_8 (t : Fin cfg0.N) : (st0_8 t).IsWhole := hstage0_8 ((cfg0.slots t 8).cast nbuf0_8)
/-- The two scratch operands: whole scoped buffers of the kernel's own, carried between points. -/
abbrev scM0_0 : Memref sig .tc .vmem S1x96 .f32 := Memref.whole cc0_scratch0
abbrev scM0_1 : Memref sig .tc .vmem S1x96 .f32 := Memref.whole cc0_scratch1
abbrev VS0_0 : View sig .tc .vmem S1x96 .f32 := scM0_0.view
abbrev VS0_1 : View sig .tc .vmem S1x96 .f32 := scM0_1.view

/-- The class's invariant with the two scratch operands as memrefs owned at some contents; every other scoped buffer
    stays unopened. -/
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d))
          ∗ Pipeline.scopedRestBut (Ix := Unit) (Name := ℕ) (U := UR sig nD τ) (Lvl := ℕ) (Val := Elt F) spec0 c [cc0_scratch0, cc0_scratch1]) ∗ (∃ r, prngReg c r)) := by
  unfold Pipeline.ΦA; rw [scopedRest0_split]; simp only [scM0_0, scM0_1, owns_whole]; try rfl

end Cert.Kernel.Hand

end
-- ==== Proof.KReg0RunA.lean ====
/- Region 0's body at the first grid point: the two accumulators are zeroed, then accumulate; what the run leaves in each buffer it stores into. -/
import proofs.«111056_j31628139167864_2_alg».proof.Proof.KReg0Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run at the first point (the accumulators are zeroed, then accumulate; nothing is copied out): on whole staging memrefs, the inputs' at their contents, the h2 output's at anything,
    the two idle statistics outputs' at contents handed back untouched, the two accumulators at anything,
    the body runs to a continuation that holds the inputs' as they were and each buffer it stored into with its pieces
    written, the pieces listed last store first. -/
noncomputable def kernelRun0_A (c : Dev nD) (i : grid0.Coords) (arg1 : Memref sig .tc .vmem S10000x96 .f32) (harg1 : arg1.IsWhole) (arg2 : Memref sig .tc .vmem S10000x96 .f32) (harg2 : arg2.IsWhole) (arg3 : Memref sig .tc .vmem S96x96 .bf16) (harg3 : arg3.IsWhole) (arg4 : Memref sig .tc .vmem S1x96 .f32) (harg4 : arg4.IsWhole) (arg5 : Memref sig .tc .vmem S96x96 .bf16) (harg5 : arg5.IsWhole) (arg6 : Memref sig .tc .vmem S1x96 .f32) (harg6 : arg6.IsWhole) (arg7 : Memref sig .tc .vmem S10000x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (arg11 : Memref sig .tc .vmem S1x96 .f32) (harg11 : arg11.IsWhole) (hc0 : cond0_0 i) (hc1 : ¬cond0_1 i)
    (x0 : Vec F S10000x96 .f32) (x1 : Vec F S10000x96 .f32) (x2 : Vec F S96x96 .bf16) (x3 : Vec F S1x96 .f32) (x4 : Vec F S96x96 .bf16) (x5 : Vec F S1x96 .f32) :
    Σ' (L6 : List (View.Piece (Elt F) S10000x96 .f32)) (LS0 : List (View.Piece (Elt F) S1x96 .f32)), { LS1 : List (View.Piece (Elt F) S1x96 .f32) //
      ∀ (xi7 : Vec F S1x96 .f32) (xi8 : Vec F S1x96 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xi8 ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ owns (c : Thread nD τ) arg9 fullShare xi8 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__mlp_kernel i arg1 harg1 arg2 harg2 arg3 harg3 arg4 harg4 arg5 harg5 arg6 harg6 arg7 harg7 arg8 harg8 arg9 harg9 arg10 harg10 arg11 harg11) K } := by
  refine ⟨?_, ?_, ?_, fun xi7 xi8 E K => ?run⟩
  case run =>
    simp only [cc0__mlp_kernel_eq_skeleton]; unfold cc0__mlp_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [H8]
    · iexists _; isplitr; · ipureintro; exact harg9.read_unread _
      iexact H8
    isplitl [HS0]; · iexists _; iexact HS0
    iexists _; iexact HS1

end Cert.Kernel.Hand

end
-- ==== Proof.KReg0RunB.lean ====
/- Region 0's body at a middle grid point: the accumulators accumulate, nothing is zeroed or copied out; what the run leaves in each buffer it stores into. -/
import proofs.«111056_j31628139167864_2_alg».proof.Proof.KReg0RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run at a middle point (the accumulators accumulate; nothing is zeroed or copied out): on whole staging memrefs, the inputs' at their contents, the h2 output's at anything,
    the two idle statistics outputs' at contents handed back untouched, the two accumulators at what the point before left,
    the body runs to a continuation that holds the inputs' as they were and each buffer it stored into with its pieces
    written, the pieces listed last store first. -/
noncomputable def kernelRun0_B (c : Dev nD) (i : grid0.Coords) (arg1 : Memref sig .tc .vmem S10000x96 .f32) (harg1 : arg1.IsWhole) (arg2 : Memref sig .tc .vmem S10000x96 .f32) (harg2 : arg2.IsWhole) (arg3 : Memref sig .tc .vmem S96x96 .bf16) (harg3 : arg3.IsWhole) (arg4 : Memref sig .tc .vmem S1x96 .f32) (harg4 : arg4.IsWhole) (arg5 : Memref sig .tc .vmem S96x96 .bf16) (harg5 : arg5.IsWhole) (arg6 : Memref sig .tc .vmem S1x96 .f32) (harg6 : arg6.IsWhole) (arg7 : Memref sig .tc .vmem S10000x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (arg11 : Memref sig .tc .vmem S1x96 .f32) (harg11 : arg11.IsWhole) (hc0 : ¬cond0_0 i) (hc1 : ¬cond0_1 i)
    (x0 : Vec F S10000x96 .f32) (x1 : Vec F S10000x96 .f32) (x2 : Vec F S96x96 .bf16) (x3 : Vec F S1x96 .f32) (x4 : Vec F S96x96 .bf16) (x5 : Vec F S1x96 .f32) (xs0 : Vec F S1x96 .f32) (xs1 : Vec F S1x96 .f32) :
    Σ' (L6 : List (View.Piece (Elt F) S10000x96 .f32)) (LS0 : List (View.Piece (Elt F) S1x96 .f32)), { LS1 : List (View.Piece (Elt F) S1x96 .f32) //
      ∀ (xi7 : Vec F S1x96 .f32) (xi8 : Vec F S1x96 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xi8 ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ owns (c : Thread nD τ) arg9 fullShare xi8 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__mlp_kernel i arg1 harg1 arg2 harg2 arg3 harg3 arg4 harg4 arg5 harg5 arg6 harg6 arg7 harg7 arg8 harg8 arg9 harg9 arg10 harg10 arg11 harg11) K } := by
  refine ⟨?_, ?_, ?_, fun xi7 xi8 E K => ?run⟩
  case run =>
    simp only [cc0__mlp_kernel_eq_skeleton]; unfold cc0__mlp_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8; obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [H8]
    · iexists _; isplitr; · ipureintro; exact harg9.read_unread _
      iexact H8
    isplitl [HS0]; · iexists _; iexact HS0
    iexists _; iexact HS1

end Cert.Kernel.Hand

end
-- ==== Proof.KReg0RunC.lean ====
/- Region 0's body at the last grid point: the accumulators accumulate and are copied to the two statistics outputs; what the run leaves in each buffer it stores into. -/
import proofs.«111056_j31628139167864_2_alg».proof.Proof.KReg0RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run at the last point (the accumulators accumulate and are copied to the two statistics outputs): on whole staging memrefs, the inputs' at their contents, the h2 output's at anything,
    the two statistics outputs' at anything, the two accumulators at what the point before left,
    the body runs to a continuation that holds the inputs' as they were and each buffer it stored into with its pieces
    written, the pieces listed last store first. -/
noncomputable def kernelRun0_C (c : Dev nD) (i : grid0.Coords) (arg1 : Memref sig .tc .vmem S10000x96 .f32) (harg1 : arg1.IsWhole) (arg2 : Memref sig .tc .vmem S10000x96 .f32) (harg2 : arg2.IsWhole) (arg3 : Memref sig .tc .vmem S96x96 .bf16) (harg3 : arg3.IsWhole) (arg4 : Memref sig .tc .vmem S1x96 .f32) (harg4 : arg4.IsWhole) (arg5 : Memref sig .tc .vmem S96x96 .bf16) (harg5 : arg5.IsWhole) (arg6 : Memref sig .tc .vmem S1x96 .f32) (harg6 : arg6.IsWhole) (arg7 : Memref sig .tc .vmem S10000x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (arg11 : Memref sig .tc .vmem S1x96 .f32) (harg11 : arg11.IsWhole) (hc0 : ¬cond0_0 i) (hc1 : cond0_1 i)
    (x0 : Vec F S10000x96 .f32) (x1 : Vec F S10000x96 .f32) (x2 : Vec F S96x96 .bf16) (x3 : Vec F S1x96 .f32) (x4 : Vec F S96x96 .bf16) (x5 : Vec F S1x96 .f32) (xs0 : Vec F S1x96 .f32) (xs1 : Vec F S1x96 .f32) :
    Σ' (L6 : List (View.Piece (Elt F) S10000x96 .f32)) (L7 : List (View.Piece (Elt F) S1x96 .f32)) (L8 : List (View.Piece (Elt F) S1x96 .f32)) (LS0 : List (View.Piece (Elt F) S1x96 .f32)), { LS1 : List (View.Piece (Elt F) S1x96 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__mlp_kernel i arg1 harg1 arg2 harg2 arg3 harg3 arg4 harg4 arg5 harg5 arg6 harg6 arg7 harg7 arg8 harg8 arg9 harg9 arg10 harg10 arg11 harg11) K } := by
  refine ⟨?_, ?_, ?_, ?_, ?_, fun E K => ?run⟩
  case run =>
    simp only [cc0__mlp_kernel_eq_skeleton]; unfold cc0__mlp_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    isplitl [HS0]; · iexists _; iexact HS0
    iexists _; iexact HS1

end Cert.Kernel.Hand

end
-- ==== Proof.KReg0.lean ====
import proofs.«111056_j31628139167864_2_alg».proof.Proof.KReg0RunB
import proofs.«111056_j31628139167864_2_alg».proof.Proof.KReg0RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the TensorCore's buffer contents when the region is entered
variable (V : (c : Dev nD) → (b : Ref sig .tc) → Buf (Elt F) ((c : Thread nD τ).loc b))

/-! # Region 0: custom_call 0, the MLP kernel with two carried column-sum accumulators, at the entry contents `V` -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## Each input window's staging buffer holds its block at every point, fetched there or not -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

end Region0

/-! ## What each case's run leaves in the buffers it stores into -/

/-- The h2 output block at the first point: the run's pieces for it tile the buffer, so they cover it. -/
theorem cover0_A_6 (c : Dev nD) (i : grid0.Coords) (arg1 : Memref sig .tc .vmem S10000x96 .f32) (harg1 : arg1.IsWhole) (arg2 : Memref sig .tc .vmem S10000x96 .f32) (harg2 : arg2.IsWhole) (arg3 : Memref sig .tc .vmem S96x96 .bf16) (harg3 : arg3.IsWhole) (arg4 : Memref sig .tc .vmem S1x96 .f32) (harg4 : arg4.IsWhole) (arg5 : Memref sig .tc .vmem S96x96 .bf16) (harg5 : arg5.IsWhole) (arg6 : Memref sig .tc .vmem S1x96 .f32) (harg6 : arg6.IsWhole) (arg7 : Memref sig .tc .vmem S10000x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (arg11 : Memref sig .tc .vmem S1x96 .f32) (harg11 : arg11.IsWhole) (hc0 : cond0_0 i) (hc1 : ¬cond0_1 i)
    (x0 : Vec F S10000x96 .f32) (x1 : Vec F S10000x96 .f32) (x2 : Vec F S96x96 .bf16) (x3 : Vec F S1x96 .f32) (x4 : Vec F S96x96 .bf16) (x5 : Vec F S1x96 .f32) (y : S10000x96.Idx) :
    ∃ pc ∈ (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).1 S10000x96.size (by sl_kernel_rfl) y

/-- The h2 output block at the first point: what the run leaves in it, its pieces read back. -/
def out0_A_6 (c : Dev nD) (i : grid0.Coords) (arg1 : Memref sig .tc .vmem S10000x96 .f32) (harg1 : arg1.IsWhole) (arg2 : Memref sig .tc .vmem S10000x96 .f32) (harg2 : arg2.IsWhole) (arg3 : Memref sig .tc .vmem S96x96 .bf16) (harg3 : arg3.IsWhole) (arg4 : Memref sig .tc .vmem S1x96 .f32) (harg4 : arg4.IsWhole) (arg5 : Memref sig .tc .vmem S96x96 .bf16) (harg5 : arg5.IsWhole) (arg6 : Memref sig .tc .vmem S1x96 .f32) (harg6 : arg6.IsWhole) (arg7 : Memref sig .tc .vmem S10000x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (arg11 : Memref sig .tc .vmem S1x96 .f32) (harg11 : arg11.IsWhole) (hc0 : cond0_0 i) (hc1 : ¬cond0_1 i)
    (x0 : Vec F S10000x96 .f32) (x1 : Vec F S10000x96 .f32) (x2 : Vec F S96x96 .bf16) (x3 : Vec F S1x96 .f32) (x4 : Vec F S96x96 .bf16) (x5 : Vec F S1x96 .f32) : Vec F S10000x96 .f32 :=
  VO0_6.read (Elt F) (VO0_6.writes (Elt F) VO0_6.junk (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).1)

/-- The column-sum accumulator at the first point: the run's pieces for it tile the buffer, so they cover it. -/
theorem scover0_A_0 (c : Dev nD) (i : grid0.Coords) (arg1 : Memref sig .tc .vmem S10000x96 .f32) (harg1 : arg1.IsWhole) (arg2 : Memref sig .tc .vmem S10000x96 .f32) (harg2 : arg2.IsWhole) (arg3 : Memref sig .tc .vmem S96x96 .bf16) (harg3 : arg3.IsWhole) (arg4 : Memref sig .tc .vmem S1x96 .f32) (harg4 : arg4.IsWhole) (arg5 : Memref sig .tc .vmem S96x96 .bf16) (harg5 : arg5.IsWhole) (arg6 : Memref sig .tc .vmem S1x96 .f32) (harg6 : arg6.IsWhole) (arg7 : Memref sig .tc .vmem S10000x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (arg11 : Memref sig .tc .vmem S1x96 .f32) (harg11 : arg11.IsWhole) (hc0 : cond0_0 i) (hc1 : ¬cond0_1 i)
    (x0 : Vec F S10000x96 .f32) (x1 : Vec F S10000x96 .f32) (x2 : Vec F S96x96 .bf16) (x3 : Vec F S1x96 .f32) (x4 : Vec F S96x96 .bf16) (x5 : Vec F S1x96 .f32) (y : S1x96.Idx) :
    ∃ pc ∈ (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.1 S1x96.size (by sl_kernel_rfl) y

/-- The column-sum accumulator at the first point: what the run leaves in it, its pieces read back. -/
def sout0_A_0 (c : Dev nD) (i : grid0.Coords) (arg1 : Memref sig .tc .vmem S10000x96 .f32) (harg1 : arg1.IsWhole) (arg2 : Memref sig .tc .vmem S10000x96 .f32) (harg2 : arg2.IsWhole) (arg3 : Memref sig .tc .vmem S96x96 .bf16) (harg3 : arg3.IsWhole) (arg4 : Memref sig .tc .vmem S1x96 .f32) (harg4 : arg4.IsWhole) (arg5 : Memref sig .tc .vmem S96x96 .bf16) (harg5 : arg5.IsWhole) (arg6 : Memref sig .tc .vmem S1x96 .f32) (harg6 : arg6.IsWhole) (arg7 : Memref sig .tc .vmem S10000x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (arg11 : Memref sig .tc .vmem S1x96 .f32) (harg11 : arg11.IsWhole) (hc0 : cond0_0 i) (hc1 : ¬cond0_1 i)
    (x0 : Vec F S10000x96 .f32) (x1 : Vec F S10000x96 .f32) (x2 : Vec F S96x96 .bf16) (x3 : Vec F S1x96 .f32) (x4 : Vec F S96x96 .bf16) (x5 : Vec F S1x96 .f32) : Vec F S1x96 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.1)

/-- The column-sum-of-squares accumulator at the first point: the run's pieces for it tile the buffer, so they cover it. -/
theorem scover0_A_1 (c : Dev nD) (i : grid0.Coords) (arg1 : Memref sig .tc .vmem S10000x96 .f32) (harg1 : arg1.IsWhole) (arg2 : Memref sig .tc .vmem S10000x96 .f32) (harg2 : arg2.IsWhole) (arg3 : Memref sig .tc .vmem S96x96 .bf16) (harg3 : arg3.IsWhole) (arg4 : Memref sig .tc .vmem S1x96 .f32) (harg4 : arg4.IsWhole) (arg5 : Memref sig .tc .vmem S96x96 .bf16) (harg5 : arg5.IsWhole) (arg6 : Memref sig .tc .vmem S1x96 .f32) (harg6 : arg6.IsWhole) (arg7 : Memref sig .tc .vmem S10000x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (arg11 : Memref sig .tc .vmem S1x96 .f32) (harg11 : arg11.IsWhole) (hc0 : cond0_0 i) (hc1 : ¬cond0_1 i)
    (x0 : Vec F S10000x96 .f32) (x1 : Vec F S10000x96 .f32) (x2 : Vec F S96x96 .bf16) (x3 : Vec F S1x96 .f32) (x4 : Vec F S96x96 .bf16) (x5 : Vec F S1x96 .f32) (y : S1x96.Idx) :
    ∃ pc ∈ (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.2.1 S1x96.size (by sl_kernel_rfl) y

/-- The column-sum-of-squares accumulator at the first point: what the run leaves in it, its pieces read back. -/
def sout0_A_1 (c : Dev nD) (i : grid0.Coords) (arg1 : Memref sig .tc .vmem S10000x96 .f32) (harg1 : arg1.IsWhole) (arg2 : Memref sig .tc .vmem S10000x96 .f32) (harg2 : arg2.IsWhole) (arg3 : Memref sig .tc .vmem S96x96 .bf16) (harg3 : arg3.IsWhole) (arg4 : Memref sig .tc .vmem S1x96 .f32) (harg4 : arg4.IsWhole) (arg5 : Memref sig .tc .vmem S96x96 .bf16) (harg5 : arg5.IsWhole) (arg6 : Memref sig .tc .vmem S1x96 .f32) (harg6 : arg6.IsWhole) (arg7 : Memref sig .tc .vmem S10000x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (arg11 : Memref sig .tc .vmem S1x96 .f32) (harg11 : arg11.IsWhole) (hc0 : cond0_0 i) (hc1 : ¬cond0_1 i)
    (x0 : Vec F S10000x96 .f32) (x1 : Vec F S10000x96 .f32) (x2 : Vec F S96x96 .bf16) (x3 : Vec F S1x96 .f32) (x4 : Vec F S96x96 .bf16) (x5 : Vec F S1x96 .f32) : Vec F S1x96 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.2.1)

/-- The h2 output block at a middle point: the run's pieces for it tile the buffer, so they cover it. -/
theorem cover0_B_6 (c : Dev nD) (i : grid0.Coords) (arg1 : Memref sig .tc .vmem S10000x96 .f32) (harg1 : arg1.IsWhole) (arg2 : Memref sig .tc .vmem S10000x96 .f32) (harg2 : arg2.IsWhole) (arg3 : Memref sig .tc .vmem S96x96 .bf16) (harg3 : arg3.IsWhole) (arg4 : Memref sig .tc .vmem S1x96 .f32) (harg4 : arg4.IsWhole) (arg5 : Memref sig .tc .vmem S96x96 .bf16) (harg5 : arg5.IsWhole) (arg6 : Memref sig .tc .vmem S1x96 .f32) (harg6 : arg6.IsWhole) (arg7 : Memref sig .tc .vmem S10000x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (arg11 : Memref sig .tc .vmem S1x96 .f32) (harg11 : arg11.IsWhole) (hc0 : ¬cond0_0 i) (hc1 : ¬cond0_1 i)
    (x0 : Vec F S10000x96 .f32) (x1 : Vec F S10000x96 .f32) (x2 : Vec F S96x96 .bf16) (x3 : Vec F S1x96 .f32) (x4 : Vec F S96x96 .bf16) (x5 : Vec F S1x96 .f32) (xs0 : Vec F S1x96 .f32) (xs1 : Vec F S1x96 .f32) (y : S10000x96.Idx) :
    ∃ pc ∈ (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1 S10000x96.size (by sl_kernel_rfl) y

/-- The h2 output block at a middle point: what the run leaves in it, its pieces read back. -/
def out0_B_6 (c : Dev nD) (i : grid0.Coords) (arg1 : Memref sig .tc .vmem S10000x96 .f32) (harg1 : arg1.IsWhole) (arg2 : Memref sig .tc .vmem S10000x96 .f32) (harg2 : arg2.IsWhole) (arg3 : Memref sig .tc .vmem S96x96 .bf16) (harg3 : arg3.IsWhole) (arg4 : Memref sig .tc .vmem S1x96 .f32) (harg4 : arg4.IsWhole) (arg5 : Memref sig .tc .vmem S96x96 .bf16) (harg5 : arg5.IsWhole) (arg6 : Memref sig .tc .vmem S1x96 .f32) (harg6 : arg6.IsWhole) (arg7 : Memref sig .tc .vmem S10000x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (arg11 : Memref sig .tc .vmem S1x96 .f32) (harg11 : arg11.IsWhole) (hc0 : ¬cond0_0 i) (hc1 : ¬cond0_1 i)
    (x0 : Vec F S10000x96 .f32) (x1 : Vec F S10000x96 .f32) (x2 : Vec F S96x96 .bf16) (x3 : Vec F S1x96 .f32) (x4 : Vec F S96x96 .bf16) (x5 : Vec F S1x96 .f32) (xs0 : Vec F S1x96 .f32) (xs1 : Vec F S1x96 .f32) : Vec F S10000x96 .f32 :=
  VO0_6.read (Elt F) (VO0_6.writes (Elt F) VO0_6.junk (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1)

/-- The column-sum accumulator at a middle point: the run's pieces for it tile the buffer, so they cover it. -/
theorem scover0_B_0 (c : Dev nD) (i : grid0.Coords) (arg1 : Memref sig .tc .vmem S10000x96 .f32) (harg1 : arg1.IsWhole) (arg2 : Memref sig .tc .vmem S10000x96 .f32) (harg2 : arg2.IsWhole) (arg3 : Memref sig .tc .vmem S96x96 .bf16) (harg3 : arg3.IsWhole) (arg4 : Memref sig .tc .vmem S1x96 .f32) (harg4 : arg4.IsWhole) (arg5 : Memref sig .tc .vmem S96x96 .bf16) (harg5 : arg5.IsWhole) (arg6 : Memref sig .tc .vmem S1x96 .f32) (harg6 : arg6.IsWhole) (arg7 : Memref sig .tc .vmem S10000x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (arg11 : Memref sig .tc .vmem S1x96 .f32) (harg11 : arg11.IsWhole) (hc0 : ¬cond0_0 i) (hc1 : ¬cond0_1 i)
    (x0 : Vec F S10000x96 .f32) (x1 : Vec F S10000x96 .f32) (x2 : Vec F S96x96 .bf16) (x3 : Vec F S1x96 .f32) (x4 : Vec F S96x96 .bf16) (x5 : Vec F S1x96 .f32) (xs0 : Vec F S1x96 .f32) (xs1 : Vec F S1x96 .f32) (y : S1x96.Idx) :
    ∃ pc ∈ (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1 S1x96.size (by sl_kernel_rfl) y

/-- The column-sum accumulator at a middle point: what the run leaves in it, its pieces read back. -/
def sout0_B_0 (c : Dev nD) (i : grid0.Coords) (arg1 : Memref sig .tc .vmem S10000x96 .f32) (harg1 : arg1.IsWhole) (arg2 : Memref sig .tc .vmem S10000x96 .f32) (harg2 : arg2.IsWhole) (arg3 : Memref sig .tc .vmem S96x96 .bf16) (harg3 : arg3.IsWhole) (arg4 : Memref sig .tc .vmem S1x96 .f32) (harg4 : arg4.IsWhole) (arg5 : Memref sig .tc .vmem S96x96 .bf16) (harg5 : arg5.IsWhole) (arg6 : Memref sig .tc .vmem S1x96 .f32) (harg6 : arg6.IsWhole) (arg7 : Memref sig .tc .vmem S10000x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (arg11 : Memref sig .tc .vmem S1x96 .f32) (harg11 : arg11.IsWhole) (hc0 : ¬cond0_0 i) (hc1 : ¬cond0_1 i)
    (x0 : Vec F S10000x96 .f32) (x1 : Vec F S10000x96 .f32) (x2 : Vec F S96x96 .bf16) (x3 : Vec F S1x96 .f32) (x4 : Vec F S96x96 .bf16) (x5 : Vec F S1x96 .f32) (xs0 : Vec F S1x96 .f32) (xs1 : Vec F S1x96 .f32) : Vec F S1x96 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1)

/-- The column-sum-of-squares accumulator at a middle point: the run's pieces for it tile the buffer, so they cover it. -/
theorem scover0_B_1 (c : Dev nD) (i : grid0.Coords) (arg1 : Memref sig .tc .vmem S10000x96 .f32) (harg1 : arg1.IsWhole) (arg2 : Memref sig .tc .vmem S10000x96 .f32) (harg2 : arg2.IsWhole) (arg3 : Memref sig .tc .vmem S96x96 .bf16) (harg3 : arg3.IsWhole) (arg4 : Memref sig .tc .vmem S1x96 .f32) (harg4 : arg4.IsWhole) (arg5 : Memref sig .tc .vmem S96x96 .bf16) (harg5 : arg5.IsWhole) (arg6 : Memref sig .tc .vmem S1x96 .f32) (harg6 : arg6.IsWhole) (arg7 : Memref sig .tc .vmem S10000x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (arg11 : Memref sig .tc .vmem S1x96 .f32) (harg11 : arg11.IsWhole) (hc0 : ¬cond0_0 i) (hc1 : ¬cond0_1 i)
    (x0 : Vec F S10000x96 .f32) (x1 : Vec F S10000x96 .f32) (x2 : Vec F S96x96 .bf16) (x3 : Vec F S1x96 .f32) (x4 : Vec F S96x96 .bf16) (x5 : Vec F S1x96 .f32) (xs0 : Vec F S1x96 .f32) (xs1 : Vec F S1x96 .f32) (y : S1x96.Idx) :
    ∃ pc ∈ (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1 S1x96.size (by sl_kernel_rfl) y

/-- The column-sum-of-squares accumulator at a middle point: what the run leaves in it, its pieces read back. -/
def sout0_B_1 (c : Dev nD) (i : grid0.Coords) (arg1 : Memref sig .tc .vmem S10000x96 .f32) (harg1 : arg1.IsWhole) (arg2 : Memref sig .tc .vmem S10000x96 .f32) (harg2 : arg2.IsWhole) (arg3 : Memref sig .tc .vmem S96x96 .bf16) (harg3 : arg3.IsWhole) (arg4 : Memref sig .tc .vmem S1x96 .f32) (harg4 : arg4.IsWhole) (arg5 : Memref sig .tc .vmem S96x96 .bf16) (harg5 : arg5.IsWhole) (arg6 : Memref sig .tc .vmem S1x96 .f32) (harg6 : arg6.IsWhole) (arg7 : Memref sig .tc .vmem S10000x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (arg11 : Memref sig .tc .vmem S1x96 .f32) (harg11 : arg11.IsWhole) (hc0 : ¬cond0_0 i) (hc1 : ¬cond0_1 i)
    (x0 : Vec F S10000x96 .f32) (x1 : Vec F S10000x96 .f32) (x2 : Vec F S96x96 .bf16) (x3 : Vec F S1x96 .f32) (x4 : Vec F S96x96 .bf16) (x5 : Vec F S1x96 .f32) (xs0 : Vec F S1x96 .f32) (xs1 : Vec F S1x96 .f32) : Vec F S1x96 .f32 :=
  VS0_1.read (Elt F) (VS0_1.writes (Elt F) VS0_1.junk (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1)

/-- The h2 output block at the last point: the run's pieces for it tile the buffer, so they cover it. -/
theorem cover0_C_6 (c : Dev nD) (i : grid0.Coords) (arg1 : Memref sig .tc .vmem S10000x96 .f32) (harg1 : arg1.IsWhole) (arg2 : Memref sig .tc .vmem S10000x96 .f32) (harg2 : arg2.IsWhole) (arg3 : Memref sig .tc .vmem S96x96 .bf16) (harg3 : arg3.IsWhole) (arg4 : Memref sig .tc .vmem S1x96 .f32) (harg4 : arg4.IsWhole) (arg5 : Memref sig .tc .vmem S96x96 .bf16) (harg5 : arg5.IsWhole) (arg6 : Memref sig .tc .vmem S1x96 .f32) (harg6 : arg6.IsWhole) (arg7 : Memref sig .tc .vmem S10000x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (arg11 : Memref sig .tc .vmem S1x96 .f32) (harg11 : arg11.IsWhole) (hc0 : ¬cond0_0 i) (hc1 : cond0_1 i)
    (x0 : Vec F S10000x96 .f32) (x1 : Vec F S10000x96 .f32) (x2 : Vec F S96x96 .bf16) (x3 : Vec F S1x96 .f32) (x4 : Vec F S96x96 .bf16) (x5 : Vec F S1x96 .f32) (xs0 : Vec F S1x96 .f32) (xs1 : Vec F S1x96 .f32) (y : S10000x96.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1 S10000x96.size (by sl_kernel_rfl) y

/-- The h2 output block at the last point: what the run leaves in it, its pieces read back. -/
def out0_C_6 (c : Dev nD) (i : grid0.Coords) (arg1 : Memref sig .tc .vmem S10000x96 .f32) (harg1 : arg1.IsWhole) (arg2 : Memref sig .tc .vmem S10000x96 .f32) (harg2 : arg2.IsWhole) (arg3 : Memref sig .tc .vmem S96x96 .bf16) (harg3 : arg3.IsWhole) (arg4 : Memref sig .tc .vmem S1x96 .f32) (harg4 : arg4.IsWhole) (arg5 : Memref sig .tc .vmem S96x96 .bf16) (harg5 : arg5.IsWhole) (arg6 : Memref sig .tc .vmem S1x96 .f32) (harg6 : arg6.IsWhole) (arg7 : Memref sig .tc .vmem S10000x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (arg11 : Memref sig .tc .vmem S1x96 .f32) (harg11 : arg11.IsWhole) (hc0 : ¬cond0_0 i) (hc1 : cond0_1 i)
    (x0 : Vec F S10000x96 .f32) (x1 : Vec F S10000x96 .f32) (x2 : Vec F S96x96 .bf16) (x3 : Vec F S1x96 .f32) (x4 : Vec F S96x96 .bf16) (x5 : Vec F S1x96 .f32) (xs0 : Vec F S1x96 .f32) (xs1 : Vec F S1x96 .f32) : Vec F S10000x96 .f32 :=
  VO0_6.read (Elt F) (VO0_6.writes (Elt F) VO0_6.junk (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1)

/-- The column-sum output at the last point: the run's pieces for it tile the buffer, so they cover it. -/
theorem cover0_C_7 (c : Dev nD) (i : grid0.Coords) (arg1 : Memref sig .tc .vmem S10000x96 .f32) (harg1 : arg1.IsWhole) (arg2 : Memref sig .tc .vmem S10000x96 .f32) (harg2 : arg2.IsWhole) (arg3 : Memref sig .tc .vmem S96x96 .bf16) (harg3 : arg3.IsWhole) (arg4 : Memref sig .tc .vmem S1x96 .f32) (harg4 : arg4.IsWhole) (arg5 : Memref sig .tc .vmem S96x96 .bf16) (harg5 : arg5.IsWhole) (arg6 : Memref sig .tc .vmem S1x96 .f32) (harg6 : arg6.IsWhole) (arg7 : Memref sig .tc .vmem S10000x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (arg11 : Memref sig .tc .vmem S1x96 .f32) (harg11 : arg11.IsWhole) (hc0 : ¬cond0_0 i) (hc1 : cond0_1 i)
    (x0 : Vec F S10000x96 .f32) (x1 : Vec F S10000x96 .f32) (x2 : Vec F S96x96 .bf16) (x3 : Vec F S1x96 .f32) (x4 : Vec F S96x96 .bf16) (x5 : Vec F S1x96 .f32) (xs0 : Vec F S1x96 .f32) (xs1 : Vec F S1x96 .f32) (y : S1x96.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1 S1x96.size (by sl_kernel_rfl) y

/-- The column-sum output at the last point: what the run leaves in it, its pieces read back. -/
def out0_C_7 (c : Dev nD) (i : grid0.Coords) (arg1 : Memref sig .tc .vmem S10000x96 .f32) (harg1 : arg1.IsWhole) (arg2 : Memref sig .tc .vmem S10000x96 .f32) (harg2 : arg2.IsWhole) (arg3 : Memref sig .tc .vmem S96x96 .bf16) (harg3 : arg3.IsWhole) (arg4 : Memref sig .tc .vmem S1x96 .f32) (harg4 : arg4.IsWhole) (arg5 : Memref sig .tc .vmem S96x96 .bf16) (harg5 : arg5.IsWhole) (arg6 : Memref sig .tc .vmem S1x96 .f32) (harg6 : arg6.IsWhole) (arg7 : Memref sig .tc .vmem S10000x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (arg11 : Memref sig .tc .vmem S1x96 .f32) (harg11 : arg11.IsWhole) (hc0 : ¬cond0_0 i) (hc1 : cond0_1 i)
    (x0 : Vec F S10000x96 .f32) (x1 : Vec F S10000x96 .f32) (x2 : Vec F S96x96 .bf16) (x3 : Vec F S1x96 .f32) (x4 : Vec F S96x96 .bf16) (x5 : Vec F S1x96 .f32) (xs0 : Vec F S1x96 .f32) (xs1 : Vec F S1x96 .f32) : Vec F S1x96 .f32 :=
  VO0_7.read (Elt F) (VO0_7.writes (Elt F) VO0_7.junk (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1)

/-- The column-sum-of-squares output at the last point: the run's pieces for it tile the buffer, so they cover it. -/
theorem cover0_C_8 (c : Dev nD) (i : grid0.Coords) (arg1 : Memref sig .tc .vmem S10000x96 .f32) (harg1 : arg1.IsWhole) (arg2 : Memref sig .tc .vmem S10000x96 .f32) (harg2 : arg2.IsWhole) (arg3 : Memref sig .tc .vmem S96x96 .bf16) (harg3 : arg3.IsWhole) (arg4 : Memref sig .tc .vmem S1x96 .f32) (harg4 : arg4.IsWhole) (arg5 : Memref sig .tc .vmem S96x96 .bf16) (harg5 : arg5.IsWhole) (arg6 : Memref sig .tc .vmem S1x96 .f32) (harg6 : arg6.IsWhole) (arg7 : Memref sig .tc .vmem S10000x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (arg11 : Memref sig .tc .vmem S1x96 .f32) (harg11 : arg11.IsWhole) (hc0 : ¬cond0_0 i) (hc1 : cond0_1 i)
    (x0 : Vec F S10000x96 .f32) (x1 : Vec F S10000x96 .f32) (x2 : Vec F S96x96 .bf16) (x3 : Vec F S1x96 .f32) (x4 : Vec F S96x96 .bf16) (x5 : Vec F S1x96 .f32) (xs0 : Vec F S1x96 .f32) (xs1 : Vec F S1x96 .f32) (y : S1x96.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1 S1x96.size (by sl_kernel_rfl) y

/-- The column-sum-of-squares output at the last point: what the run leaves in it, its pieces read back. -/
def out0_C_8 (c : Dev nD) (i : grid0.Coords) (arg1 : Memref sig .tc .vmem S10000x96 .f32) (harg1 : arg1.IsWhole) (arg2 : Memref sig .tc .vmem S10000x96 .f32) (harg2 : arg2.IsWhole) (arg3 : Memref sig .tc .vmem S96x96 .bf16) (harg3 : arg3.IsWhole) (arg4 : Memref sig .tc .vmem S1x96 .f32) (harg4 : arg4.IsWhole) (arg5 : Memref sig .tc .vmem S96x96 .bf16) (harg5 : arg5.IsWhole) (arg6 : Memref sig .tc .vmem S1x96 .f32) (harg6 : arg6.IsWhole) (arg7 : Memref sig .tc .vmem S10000x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (arg11 : Memref sig .tc .vmem S1x96 .f32) (harg11 : arg11.IsWhole) (hc0 : ¬cond0_0 i) (hc1 : cond0_1 i)
    (x0 : Vec F S10000x96 .f32) (x1 : Vec F S10000x96 .f32) (x2 : Vec F S96x96 .bf16) (x3 : Vec F S1x96 .f32) (x4 : Vec F S96x96 .bf16) (x5 : Vec F S1x96 .f32) (xs0 : Vec F S1x96 .f32) (xs1 : Vec F S1x96 .f32) : Vec F S1x96 .f32 :=
  VO0_8.read (Elt F) (VO0_8.writes (Elt F) VO0_8.junk (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1)

/-- The column-sum accumulator at the last point: the run's pieces for it tile the buffer, so they cover it. -/
theorem scover0_C_0 (c : Dev nD) (i : grid0.Coords) (arg1 : Memref sig .tc .vmem S10000x96 .f32) (harg1 : arg1.IsWhole) (arg2 : Memref sig .tc .vmem S10000x96 .f32) (harg2 : arg2.IsWhole) (arg3 : Memref sig .tc .vmem S96x96 .bf16) (harg3 : arg3.IsWhole) (arg4 : Memref sig .tc .vmem S1x96 .f32) (harg4 : arg4.IsWhole) (arg5 : Memref sig .tc .vmem S96x96 .bf16) (harg5 : arg5.IsWhole) (arg6 : Memref sig .tc .vmem S1x96 .f32) (harg6 : arg6.IsWhole) (arg7 : Memref sig .tc .vmem S10000x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (arg11 : Memref sig .tc .vmem S1x96 .f32) (harg11 : arg11.IsWhole) (hc0 : ¬cond0_0 i) (hc1 : cond0_1 i)
    (x0 : Vec F S10000x96 .f32) (x1 : Vec F S10000x96 .f32) (x2 : Vec F S96x96 .bf16) (x3 : Vec F S1x96 .f32) (x4 : Vec F S96x96 .bf16) (x5 : Vec F S1x96 .f32) (xs0 : Vec F S1x96 .f32) (xs1 : Vec F S1x96 .f32) (y : S1x96.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1 S1x96.size (by sl_kernel_rfl) y

/-- The column-sum accumulator at the last point: what the run leaves in it, its pieces read back. -/
def sout0_C_0 (c : Dev nD) (i : grid0.Coords) (arg1 : Memref sig .tc .vmem S10000x96 .f32) (harg1 : arg1.IsWhole) (arg2 : Memref sig .tc .vmem S10000x96 .f32) (harg2 : arg2.IsWhole) (arg3 : Memref sig .tc .vmem S96x96 .bf16) (harg3 : arg3.IsWhole) (arg4 : Memref sig .tc .vmem S1x96 .f32) (harg4 : arg4.IsWhole) (arg5 : Memref sig .tc .vmem S96x96 .bf16) (harg5 : arg5.IsWhole) (arg6 : Memref sig .tc .vmem S1x96 .f32) (harg6 : arg6.IsWhole) (arg7 : Memref sig .tc .vmem S10000x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (arg11 : Memref sig .tc .vmem S1x96 .f32) (harg11 : arg11.IsWhole) (hc0 : ¬cond0_0 i) (hc1 : cond0_1 i)
    (x0 : Vec F S10000x96 .f32) (x1 : Vec F S10000x96 .f32) (x2 : Vec F S96x96 .bf16) (x3 : Vec F S1x96 .f32) (x4 : Vec F S96x96 .bf16) (x5 : Vec F S1x96 .f32) (xs0 : Vec F S1x96 .f32) (xs1 : Vec F S1x96 .f32) : Vec F S1x96 .f32 :=
  VS0_0.read (Elt F) (VS0_0.writes (Elt F) VS0_0.junk (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1)

/-- The column-sum-of-squares accumulator at the last point: the run's pieces for it tile the buffer, so they cover it. -/
theorem scover0_C_1 (c : Dev nD) (i : grid0.Coords) (arg1 : Memref sig .tc .vmem S10000x96 .f32) (harg1 : arg1.IsWhole) (arg2 : Memref sig .tc .vmem S10000x96 .f32) (harg2 : arg2.IsWhole) (arg3 : Memref sig .tc .vmem S96x96 .bf16) (harg3 : arg3.IsWhole) (arg4 : Memref sig .tc .vmem S1x96 .f32) (harg4 : arg4.IsWhole) (arg5 : Memref sig .tc .vmem S96x96 .bf16) (harg5 : arg5.IsWhole) (arg6 : Memref sig .tc .vmem S1x96 .f32) (harg6 : arg6.IsWhole) (arg7 : Memref sig .tc .vmem S10000x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (arg11 : Memref sig .tc .vmem S1x96 .f32) (harg11 : arg11.IsWhole) (hc0 : ¬cond0_0 i) (hc1 : cond0_1 i)
    (x0 : Vec F S10000x96 .f32) (x1 : Vec F S10000x96 .f32) (x2 : Vec F S96x96 .bf16) (x3 : Vec F S1x96 .f32) (x4 : Vec F S96x96 .bf16) (x5 : Vec F S1x96 .f32) (xs0 : Vec F S1x96 .f32) (xs1 : Vec F S1x96 .f32) (y : S1x96.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1 S1x96.size (by sl_kernel_rfl) y

/-- The column-sum-of-squares accumulator at the last point: what the run leaves in it, its pieces read back. -/
def sout0_C_1 (c : Dev nD) (i : grid0.Coords) (arg1 : Memref sig .tc .vmem S10000x96 .f32) (harg1 : arg1.IsWhole) (arg2 : Memref sig .tc .vmem S10000x96 .f32) (harg2 : arg2.IsWhole) (arg3 : Memref sig .tc .vmem S96x96 .bf16) (harg3 : arg3.IsWhole) (arg4 : Memref sig .tc .vmem S1x96 .f32) (harg4 : arg4.IsWhole) (arg5 : Memref sig .tc .vmem S96x96 .bf16) (harg5 : arg5.IsWhole) (arg6 : Memref sig .tc .vmem S1x96 .f32) (harg6 : arg6.IsWhole) (arg7 : Memref sig .tc .vmem S10000x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (arg11 : Memref sig .tc .vmem S1x96 .f32) (harg11 : arg11.IsWhole) (hc0 : ¬cond0_0 i) (hc1 : cond0_1 i)
    (x0 : Vec F S10000x96 .f32) (x1 : Vec F S10000x96 .f32) (x2 : Vec F S96x96 .bf16) (x3 : Vec F S1x96 .f32) (x4 : Vec F S96x96 .bf16) (x5 : Vec F S1x96 .f32) (xs0 : Vec F S1x96 .f32) (xs1 : Vec F S1x96 .f32) : Vec F S1x96 .f32 :=
  VS0_1.read (Elt F) (VS0_1.writes (Elt F) VS0_1.junk (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1)

/-- What an idle statistics output's buffer is said to hold at a point that stores nothing into it: a placeholder nothing
    consults (the window is neither written back there nor read at the next point). -/
def idle0_7 : Vec F S1x96 .f32 := VO0_7.read (Elt F) (VO0_7.writes (Elt F) VO0_7.junk [])
def idle0_8 : Vec F S1x96 .f32 := VO0_8.read (Elt F) (VO0_8.writes (Elt F) VO0_8.junk [])

section Region0
variable (V : (c : Dev nD) → (b : Ref sig .tc) → Buf (Elt F) ((c : Thread nD τ).loc b))

/-! ## What the outputs and the accumulators hold after each point -/

/-- THE ACCUMULATION. After the body at position `n`: the h2 block, the two statistics outputs, the two accumulators —
    the first point's run over the point's input blocks, then at each later point the middle (or, at point 4, the last)
    run over the point's input blocks and the accumulators as the point before left them. -/
def outsAt0 (c : Dev nD) : (n : ℕ) → n < cfg0.N → Vec F S10000x96 .f32 × Vec F S1x96 .f32 × Vec F S1x96 .f32 × Vec F S1x96 .f32 × Vec F S1x96 .f32
  | 0, hn => (out0_A_6 c (grid0.coords ⟨0, hn⟩) (st0_0 ⟨0, hn⟩) (hs0_0 ⟨0, hn⟩) (st0_1 ⟨0, hn⟩) (hs0_1 ⟨0, hn⟩) (st0_2 ⟨0, hn⟩) (hs0_2 ⟨0, hn⟩) (st0_3 ⟨0, hn⟩) (hs0_3 ⟨0, hn⟩) (st0_4 ⟨0, hn⟩) (hs0_4 ⟨0, hn⟩) (st0_5 ⟨0, hn⟩) (hs0_5 ⟨0, hn⟩) (st0_6 ⟨0, hn⟩) (hs0_6 ⟨0, hn⟩) (st0_7 ⟨0, hn⟩) (hs0_7 ⟨0, hn⟩) (st0_8 ⟨0, hn⟩) (hs0_8 ⟨0, hn⟩) scM0_0 (Memref.isWhole_whole _) scM0_1 (Memref.isWhole_whole _) ((hcond0_0 ⟨0, hn⟩).mpr rfl) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩), idle0_7, idle0_8, sout0_A_0 c (grid0.coords ⟨0, hn⟩) (st0_0 ⟨0, hn⟩) (hs0_0 ⟨0, hn⟩) (st0_1 ⟨0, hn⟩) (hs0_1 ⟨0, hn⟩) (st0_2 ⟨0, hn⟩) (hs0_2 ⟨0, hn⟩) (st0_3 ⟨0, hn⟩) (hs0_3 ⟨0, hn⟩) (st0_4 ⟨0, hn⟩) (hs0_4 ⟨0, hn⟩) (st0_5 ⟨0, hn⟩) (hs0_5 ⟨0, hn⟩) (st0_6 ⟨0, hn⟩) (hs0_6 ⟨0, hn⟩) (st0_7 ⟨0, hn⟩) (hs0_7 ⟨0, hn⟩) (st0_8 ⟨0, hn⟩) (hs0_8 ⟨0, hn⟩) scM0_0 (Memref.isWhole_whole _) scM0_1 (Memref.isWhole_whole _) ((hcond0_0 ⟨0, hn⟩).mpr rfl) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩), sout0_A_1 c (grid0.coords ⟨0, hn⟩) (st0_0 ⟨0, hn⟩) (hs0_0 ⟨0, hn⟩) (st0_1 ⟨0, hn⟩) (hs0_1 ⟨0, hn⟩) (st0_2 ⟨0, hn⟩) (hs0_2 ⟨0, hn⟩) (st0_3 ⟨0, hn⟩) (hs0_3 ⟨0, hn⟩) (st0_4 ⟨0, hn⟩) (hs0_4 ⟨0, hn⟩) (st0_5 ⟨0, hn⟩) (hs0_5 ⟨0, hn⟩) (st0_6 ⟨0, hn⟩) (hs0_6 ⟨0, hn⟩) (st0_7 ⟨0, hn⟩) (hs0_7 ⟨0, hn⟩) (st0_8 ⟨0, hn⟩) (hs0_8 ⟨0, hn⟩) scM0_0 (Memref.isWhole_whole _) scM0_1 (Memref.isWhole_whole _) ((hcond0_0 ⟨0, hn⟩).mpr rfl) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩))
  | n + 1, hn =>
    if h1 : n + 1 = 4 then
      (out0_C_6 c (grid0.coords ⟨n + 1, hn⟩) (st0_0 ⟨n + 1, hn⟩) (hs0_0 ⟨n + 1, hn⟩) (st0_1 ⟨n + 1, hn⟩) (hs0_1 ⟨n + 1, hn⟩) (st0_2 ⟨n + 1, hn⟩) (hs0_2 ⟨n + 1, hn⟩) (st0_3 ⟨n + 1, hn⟩) (hs0_3 ⟨n + 1, hn⟩) (st0_4 ⟨n + 1, hn⟩) (hs0_4 ⟨n + 1, hn⟩) (st0_5 ⟨n + 1, hn⟩) (hs0_5 ⟨n + 1, hn⟩) (st0_6 ⟨n + 1, hn⟩) (hs0_6 ⟨n + 1, hn⟩) (st0_7 ⟨n + 1, hn⟩) (hs0_7 ⟨n + 1, hn⟩) (st0_8 ⟨n + 1, hn⟩) (hs0_8 ⟨n + 1, hn⟩) scM0_0 (Memref.isWhole_whole _) scM0_1 (Memref.isWhole_whole _) (fun h => Nat.succ_ne_zero n ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.2.1 (outsAt0 c n (Nat.lt_of_succ_lt hn)).2.2.2.2, out0_C_7 c (grid0.coords ⟨n + 1, hn⟩) (st0_0 ⟨n + 1, hn⟩) (hs0_0 ⟨n + 1, hn⟩) (st0_1 ⟨n + 1, hn⟩) (hs0_1 ⟨n + 1, hn⟩) (st0_2 ⟨n + 1, hn⟩) (hs0_2 ⟨n + 1, hn⟩) (st0_3 ⟨n + 1, hn⟩) (hs0_3 ⟨n + 1, hn⟩) (st0_4 ⟨n + 1, hn⟩) (hs0_4 ⟨n + 1, hn⟩) (st0_5 ⟨n + 1, hn⟩) (hs0_5 ⟨n + 1, hn⟩) (st0_6 ⟨n + 1, hn⟩) (hs0_6 ⟨n + 1, hn⟩) (st0_7 ⟨n + 1, hn⟩) (hs0_7 ⟨n + 1, hn⟩) (st0_8 ⟨n + 1, hn⟩) (hs0_8 ⟨n + 1, hn⟩) scM0_0 (Memref.isWhole_whole _) scM0_1 (Memref.isWhole_whole _) (fun h => Nat.succ_ne_zero n ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.2.1 (outsAt0 c n (Nat.lt_of_succ_lt hn)).2.2.2.2, out0_C_8 c (grid0.coords ⟨n + 1, hn⟩) (st0_0 ⟨n + 1, hn⟩) (hs0_0 ⟨n + 1, hn⟩) (st0_1 ⟨n + 1, hn⟩) (hs0_1 ⟨n + 1, hn⟩) (st0_2 ⟨n + 1, hn⟩) (hs0_2 ⟨n + 1, hn⟩) (st0_3 ⟨n + 1, hn⟩) (hs0_3 ⟨n + 1, hn⟩) (st0_4 ⟨n + 1, hn⟩) (hs0_4 ⟨n + 1, hn⟩) (st0_5 ⟨n + 1, hn⟩) (hs0_5 ⟨n + 1, hn⟩) (st0_6 ⟨n + 1, hn⟩) (hs0_6 ⟨n + 1, hn⟩) (st0_7 ⟨n + 1, hn⟩) (hs0_7 ⟨n + 1, hn⟩) (st0_8 ⟨n + 1, hn⟩) (hs0_8 ⟨n + 1, hn⟩) scM0_0 (Memref.isWhole_whole _) scM0_1 (Memref.isWhole_whole _) (fun h => Nat.succ_ne_zero n ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.2.1 (outsAt0 c n (Nat.lt_of_succ_lt hn)).2.2.2.2, sout0_C_0 c (grid0.coords ⟨n + 1, hn⟩) (st0_0 ⟨n + 1, hn⟩) (hs0_0 ⟨n + 1, hn⟩) (st0_1 ⟨n + 1, hn⟩) (hs0_1 ⟨n + 1, hn⟩) (st0_2 ⟨n + 1, hn⟩) (hs0_2 ⟨n + 1, hn⟩) (st0_3 ⟨n + 1, hn⟩) (hs0_3 ⟨n + 1, hn⟩) (st0_4 ⟨n + 1, hn⟩) (hs0_4 ⟨n + 1, hn⟩) (st0_5 ⟨n + 1, hn⟩) (hs0_5 ⟨n + 1, hn⟩) (st0_6 ⟨n + 1, hn⟩) (hs0_6 ⟨n + 1, hn⟩) (st0_7 ⟨n + 1, hn⟩) (hs0_7 ⟨n + 1, hn⟩) (st0_8 ⟨n + 1, hn⟩) (hs0_8 ⟨n + 1, hn⟩) scM0_0 (Memref.isWhole_whole _) scM0_1 (Memref.isWhole_whole _) (fun h => Nat.succ_ne_zero n ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.2.1 (outsAt0 c n (Nat.lt_of_succ_lt hn)).2.2.2.2, sout0_C_1 c (grid0.coords ⟨n + 1, hn⟩) (st0_0 ⟨n + 1, hn⟩) (hs0_0 ⟨n + 1, hn⟩) (st0_1 ⟨n + 1, hn⟩) (hs0_1 ⟨n + 1, hn⟩) (st0_2 ⟨n + 1, hn⟩) (hs0_2 ⟨n + 1, hn⟩) (st0_3 ⟨n + 1, hn⟩) (hs0_3 ⟨n + 1, hn⟩) (st0_4 ⟨n + 1, hn⟩) (hs0_4 ⟨n + 1, hn⟩) (st0_5 ⟨n + 1, hn⟩) (hs0_5 ⟨n + 1, hn⟩) (st0_6 ⟨n + 1, hn⟩) (hs0_6 ⟨n + 1, hn⟩) (st0_7 ⟨n + 1, hn⟩) (hs0_7 ⟨n + 1, hn⟩) (st0_8 ⟨n + 1, hn⟩) (hs0_8 ⟨n + 1, hn⟩) scM0_0 (Memref.isWhole_whole _) scM0_1 (Memref.isWhole_whole _) (fun h => Nat.succ_ne_zero n ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.2.1 (outsAt0 c n (Nat.lt_of_succ_lt hn)).2.2.2.2)
    else
      (out0_B_6 c (grid0.coords ⟨n + 1, hn⟩) (st0_0 ⟨n + 1, hn⟩) (hs0_0 ⟨n + 1, hn⟩) (st0_1 ⟨n + 1, hn⟩) (hs0_1 ⟨n + 1, hn⟩) (st0_2 ⟨n + 1, hn⟩) (hs0_2 ⟨n + 1, hn⟩) (st0_3 ⟨n + 1, hn⟩) (hs0_3 ⟨n + 1, hn⟩) (st0_4 ⟨n + 1, hn⟩) (hs0_4 ⟨n + 1, hn⟩) (st0_5 ⟨n + 1, hn⟩) (hs0_5 ⟨n + 1, hn⟩) (st0_6 ⟨n + 1, hn⟩) (hs0_6 ⟨n + 1, hn⟩) (st0_7 ⟨n + 1, hn⟩) (hs0_7 ⟨n + 1, hn⟩) (st0_8 ⟨n + 1, hn⟩) (hs0_8 ⟨n + 1, hn⟩) scM0_0 (Memref.isWhole_whole _) scM0_1 (Memref.isWhole_whole _) (fun h => Nat.succ_ne_zero n ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.2.1 (outsAt0 c n (Nat.lt_of_succ_lt hn)).2.2.2.2, idle0_7, idle0_8, sout0_B_0 c (grid0.coords ⟨n + 1, hn⟩) (st0_0 ⟨n + 1, hn⟩) (hs0_0 ⟨n + 1, hn⟩) (st0_1 ⟨n + 1, hn⟩) (hs0_1 ⟨n + 1, hn⟩) (st0_2 ⟨n + 1, hn⟩) (hs0_2 ⟨n + 1, hn⟩) (st0_3 ⟨n + 1, hn⟩) (hs0_3 ⟨n + 1, hn⟩) (st0_4 ⟨n + 1, hn⟩) (hs0_4 ⟨n + 1, hn⟩) (st0_5 ⟨n + 1, hn⟩) (hs0_5 ⟨n + 1, hn⟩) (st0_6 ⟨n + 1, hn⟩) (hs0_6 ⟨n + 1, hn⟩) (st0_7 ⟨n + 1, hn⟩) (hs0_7 ⟨n + 1, hn⟩) (st0_8 ⟨n + 1, hn⟩) (hs0_8 ⟨n + 1, hn⟩) scM0_0 (Memref.isWhole_whole _) scM0_1 (Memref.isWhole_whole _) (fun h => Nat.succ_ne_zero n ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.2.1 (outsAt0 c n (Nat.lt_of_succ_lt hn)).2.2.2.2, sout0_B_1 c (grid0.coords ⟨n + 1, hn⟩) (st0_0 ⟨n + 1, hn⟩) (hs0_0 ⟨n + 1, hn⟩) (st0_1 ⟨n + 1, hn⟩) (hs0_1 ⟨n + 1, hn⟩) (st0_2 ⟨n + 1, hn⟩) (hs0_2 ⟨n + 1, hn⟩) (st0_3 ⟨n + 1, hn⟩) (hs0_3 ⟨n + 1, hn⟩) (st0_4 ⟨n + 1, hn⟩) (hs0_4 ⟨n + 1, hn⟩) (st0_5 ⟨n + 1, hn⟩) (hs0_5 ⟨n + 1, hn⟩) (st0_6 ⟨n + 1, hn⟩) (hs0_6 ⟨n + 1, hn⟩) (st0_7 ⟨n + 1, hn⟩) (hs0_7 ⟨n + 1, hn⟩) (st0_8 ⟨n + 1, hn⟩) (hs0_8 ⟨n + 1, hn⟩) scM0_0 (Memref.isWhole_whole _) scM0_1 (Memref.isWhole_whole _) (fun h => Nat.succ_ne_zero n ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.2.1 (outsAt0 c n (Nat.lt_of_succ_lt hn)).2.2.2.2)

/-- `outsAt0` at the first point: the first case's contents. -/
theorem outsAt0_first (c : Dev nD) (t : Fin cfg0.N) (h0 : t.val = 0) (h1 : ¬t.val = 4) :
    outsAt0 V c t.val t.isLt = (out0_A_6 c (grid0.coords t) (st0_0 t) (hs0_0 t) (st0_1 t) (hs0_1 t) (st0_2 t) (hs0_2 t) (st0_3 t) (hs0_3 t) (st0_4 t) (hs0_4 t) (st0_5 t) (hs0_5 t) (st0_6 t) (hs0_6 t) (st0_7 t) (hs0_7 t) (st0_8 t) (hs0_8 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t), idle0_7, idle0_8, sout0_A_0 c (grid0.coords t) (st0_0 t) (hs0_0 t) (st0_1 t) (hs0_1 t) (st0_2 t) (hs0_2 t) (st0_3 t) (hs0_3 t) (st0_4 t) (hs0_4 t) (st0_5 t) (hs0_5 t) (st0_6 t) (hs0_6 t) (st0_7 t) (hs0_7 t) (st0_8 t) (hs0_8 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t), sout0_A_1 c (grid0.coords t) (st0_0 t) (hs0_0 t) (st0_1 t) (hs0_1 t) (st0_2 t) (hs0_2 t) (st0_3 t) (hs0_3 t) (st0_4 t) (hs0_4 t) (st0_5 t) (hs0_5 t) (st0_6 t) (hs0_6 t) (st0_7 t) (hs0_7 t) (st0_8 t) (hs0_8 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t)) := by
  obtain ⟨n, hn⟩ := t
  cases n with
  | zero => exact rfl
  | succ n => exact absurd h0 (Nat.succ_ne_zero n)

/-- `outsAt0` at a middle point: the middle case's contents, over what the point before left in the accumulators. -/
theorem outsAt0_middle (c : Dev nD) (t : Fin cfg0.N) (h0 : ¬t.val = 0) (h1 : ¬t.val = 4) :
    outsAt0 V c t.val t.isLt = (out0_B_6 c (grid0.coords t) (st0_0 t) (hs0_0 t) (st0_1 t) (hs0_1 t) (st0_2 t) (hs0_2 t) (st0_3 t) (hs0_3 t) (st0_4 t) (hs0_4 t) (st0_5 t) (hs0_5 t) (st0_6 t) (hs0_6 t) (st0_7 t) (hs0_7 t) (st0_8 t) (hs0_8 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, idle0_7, idle0_8, sout0_B_0 c (grid0.coords t) (st0_0 t) (hs0_0 t) (st0_1 t) (hs0_1 t) (st0_2 t) (hs0_2 t) (st0_3 t) (hs0_3 t) (st0_4 t) (hs0_4 t) (st0_5 t) (hs0_5 t) (st0_6 t) (hs0_6 t) (st0_7 t) (hs0_7 t) (st0_8 t) (hs0_8 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_B_1 c (grid0.coords t) (st0_0 t) (hs0_0 t) (st0_1 t) (hs0_1 t) (st0_2 t) (hs0_2 t) (st0_3 t) (hs0_3 t) (st0_4 t) (hs0_4 t) (st0_5 t) (hs0_5 t) (st0_6 t) (hs0_6 t) (st0_7 t) (hs0_7 t) (st0_8 t) (hs0_8 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2) := by
  obtain ⟨n, hn⟩ := t
  cases n with
  | zero => exact absurd rfl h0
  | succ n => exact (dif_neg h1).trans rfl

/-- `outsAt0` at the last point: the last case's contents, over what the point before left in the accumulators. -/
theorem outsAt0_last (c : Dev nD) (t : Fin cfg0.N) (h0 : ¬t.val = 0) (h1 : t.val = 4) :
    outsAt0 V c t.val t.isLt = (out0_C_6 c (grid0.coords t) (st0_0 t) (hs0_0 t) (st0_1 t) (hs0_1 t) (st0_2 t) (hs0_2 t) (st0_3 t) (hs0_3 t) (st0_4 t) (hs0_4 t) (st0_5 t) (hs0_5 t) (st0_6 t) (hs0_6 t) (st0_7 t) (hs0_7 t) (st0_8 t) (hs0_8 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, out0_C_7 c (grid0.coords t) (st0_0 t) (hs0_0 t) (st0_1 t) (hs0_1 t) (st0_2 t) (hs0_2 t) (st0_3 t) (hs0_3 t) (st0_4 t) (hs0_4 t) (st0_5 t) (hs0_5 t) (st0_6 t) (hs0_6 t) (st0_7 t) (hs0_7 t) (st0_8 t) (hs0_8 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, out0_C_8 c (grid0.coords t) (st0_0 t) (hs0_0 t) (st0_1 t) (hs0_1 t) (st0_2 t) (hs0_2 t) (st0_3 t) (hs0_3 t) (st0_4 t) (hs0_4 t) (st0_5 t) (hs0_5 t) (st0_6 t) (hs0_6 t) (st0_7 t) (hs0_7 t) (st0_8 t) (hs0_8 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_C_0 c (grid0.coords t) (st0_0 t) (hs0_0 t) (st0_1 t) (hs0_1 t) (st0_2 t) (hs0_2 t) (st0_3 t) (hs0_3 t) (st0_4 t) (hs0_4 t) (st0_5 t) (hs0_5 t) (st0_6 t) (hs0_6 t) (st0_7 t) (hs0_7 t) (st0_8 t) (hs0_8 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_C_1 c (grid0.coords t) (st0_0 t) (hs0_0 t) (st0_1 t) (hs0_1 t) (st0_2 t) (hs0_2 t) (st0_3 t) (hs0_3 t) (st0_4 t) (hs0_4 t) (st0_5 t) (hs0_5 t) (st0_6 t) (hs0_6 t) (st0_7 t) (hs0_7 t) (st0_8 t) (hs0_8 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2) := by
  obtain ⟨n, hn⟩ := t
  cases n with
  | zero => exact absurd rfl h0
  | succ n => exact (dif_pos h1).trans rfl

/-! ## The region invariant: the accumulators carried between points -/

/-- Before position `n`: before the first point the class's invariant (every scoped buffer at anything); afterwards the
    two accumulators at what the point before left in them, the rest of the scoped buffers unopened, the generator
    register at some state. -/
def PhiS0 (c : Dev nD) : (n : ℕ) → n ≤ cfg0.N → sProp 𝕄
  | 0, _ => Pipeline.ΦA spec0 c
  | n + 1, hn => iprop(iprop(iprop(owns (c : Thread nD τ) scM0_0 fullShare ((outsAt0 V c n hn).2.2.2.1) ∗ owns (c : Thread nD τ) scM0_1 fullShare ((outsAt0 V c n hn).2.2.2.2))
      ∗ Pipeline.scopedRestBut (Ix := Unit) (Name := ℕ) (U := UR sig nD τ) (Lvl := ℕ) (Val := Elt F) spec0 c [cc0_scratch0, cc0_scratch1]) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(iprop(owns (c : Thread nD τ) scM0_0 fullShare ((outsAt0 V c n hn).2.2.2.1) ∗ owns (c : Thread nD τ) scM0_1 fullShare ((outsAt0 V c n hn).2.2.2.2))
      ∗ Pipeline.scopedRestBut (Ix := Unit) (Name := ℕ) (U := UR sig nD τ) (Lvl := ℕ) (Val := Elt F) spec0 c [cc0_scratch0, cc0_scratch1]) ∗ (∃ r, prngReg c r)) := rfl

theorem PhiS0_pos (c : Dev nD) (n : ℕ) (h : n ≤ cfg0.N) (hz : n ≠ 0) :
    PhiS0 V c n h = iprop(iprop(iprop(owns (c : Thread nD τ) scM0_0 fullShare ((outsAt0 V c (n - 1) (by omega)).2.2.2.1) ∗ owns (c : Thread nD τ) scM0_1 fullShare ((outsAt0 V c (n - 1) (by omega)).2.2.2.2))
      ∗ Pipeline.scopedRestBut (Ix := Unit) (Name := ℕ) (U := UR sig nD τ) (Lvl := ℕ) (Val := Elt F) spec0 c [cc0_scratch0, cc0_scratch1]) ∗ (∃ r, prngReg c r)) := by
  cases n with
  | zero => exact absurd rfl hz
  | succ n => rfl

/-! ## The pipeline's proof data -/

/-- The proof data of pipeline 0 on core `c`: the arrays as the region finds them; after the body at point `t` each
    input's buffer at its block and each output's at `outsAt0`'s component; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (outsAt0 V c t.val t.isLt).1
    | ⟨7, _⟩ => (outsAt0 V c t.val t.isLt).2.1
    | ⟨8, _⟩ => (outsAt0 V c t.val t.isLt).2.2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = (outsAt0 V c t.val t.isLt).1 := by dsimp only [dat0]
theorem after0_7 (c : Dev nD) (t : Fin cfg0.N) : (dat0 V c).after 7 t = (outsAt0 V c t.val t.isLt).2.1 := by dsimp only [dat0]
theorem after0_8 (c : Dev nD) (t : Fin cfg0.N) : (dat0 V c).after 8 t = (outsAt0 V c t.val t.isLt).2.2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t)

set_option maxHeartbeats 8000000 in
/-- The body at any point: the inputs' memrefs hold their blocks; the point is the first, a middle or the last one, and
    that case's run applies; the invariant hands the body the two accumulators at what the point before left (at anything
    at the first point) and takes them back at this point's contents; the rest of the scoped buffers, the generator
    register and the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  rw [show (dat0 V c).leavesExact 2 t = owns (c : Thread nD τ) (st0_2 t) fullShare ((dat0 V c).after 2 t) from by
    unfold Dat.leavesExact; rw [liveAt0_2 t], after0_2]
  rw [show (dat0 V c).leavesExact 3 t = owns (c : Thread nD τ) (st0_3 t) fullShare ((dat0 V c).after 3 t) from by
    unfold Dat.leavesExact; rw [liveAt0_3 t], after0_3]
  rw [show (dat0 V c).leavesExact 4 t = owns (c : Thread nD τ) (st0_4 t) fullShare ((dat0 V c).after 4 t) from by
    unfold Dat.leavesExact; rw [liveAt0_4 t], after0_4]
  rw [show (dat0 V c).leavesExact 5 t = owns (c : Thread nD τ) (st0_5 t) fullShare ((dat0 V c).after 5 t) from by
    unfold Dat.leavesExact; rw [liveAt0_5 t], after0_5]
  rw [show (dat0 V c).leavesExact 6 t = owns (c : Thread nD τ) (st0_6 t) fullShare ((dat0 V c).after 6 t) from by
    unfold Dat.leavesExact; rw [liveAt0_6 t], after0_6]
  have hN : t.val < 5 := lt_of_lt_of_eq t.isLt (show cfg0.N = 5 from N_0)
  by_cases h0 : t.val = 0
  · have h1 : ¬t.val = 4 := by omega
    rw [Dat.leavesExact_idle (dat0 V c) 7 t (idleAt0_7 t (fun h => h1 ((hcond0_1 t).mp h))) (noFlush0_7 t (fun h => h1 ((hcond0_1 t).mp h)))]
    rw [Dat.leavesExact_idle (dat0 V c) 8 t (idleAt0_8 t (fun h => h1 ((hcond0_1 t).mp h))) (noFlush0_8 t (fun h => h1 ((hcond0_1 t).mp h)))]
    rw [outsAt0_first V c t h0 h1]
    unfold out0_A_6 sout0_A_0 sout0_A_1; (try dsimp only)
    rw [PhiS0_castSucc V c t, PhiS0_zero V c _ _ h0, PhiA0_eq]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun0_A c (grid0.coords t) _ _ _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t)).2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    isplitl [HS0]; · iexact HS0
    isplitl [HS1]; · iexact HS1
    iintro ⟨H0, H1, H2, H3, H4, H5, ⟨%e6, H6⟩, H7, H8, ⟨%es0, HS0⟩, ⟨%es1, HS1⟩⟩
    isplitl [HS0 HS1 HR Hg]
    · isplitl [HS0 HS1 HR]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _)
          · unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover0_A_6 c _ _ _ _ _ _ _ _ _ _ _ _ _ _ _ _ _ _ _ _ _ _ _ _ _ _ _ _ _ _ _)
    isplitl [H7]; · iexists _; iexact H7
    iexists _; iexact H8
  · by_cases h1 : t.val = 4
    · rw [show (dat0 V c).leavesExact 7 t = owns (c : Thread nD τ) (st0_7 t) fullShare ((dat0 V c).after 7 t) from by
        unfold Dat.leavesExact; rw [liveAt0_7 t ((hcond0_1 t).mpr h1)], after0_7]
      rw [show (dat0 V c).leavesExact 8 t = owns (c : Thread nD τ) (st0_8 t) fullShare ((dat0 V c).after 8 t) from by
        unfold Dat.leavesExact; rw [liveAt0_8 t ((hcond0_1 t).mpr h1)], after0_8]
      rw [outsAt0_last V c t h0 h1]
      unfold out0_C_6 out0_C_7 out0_C_8 sout0_C_0 sout0_C_1; (try dsimp only)
      rw [PhiS0_castSucc V c t, PhiS0_pos V c _ _ h0]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_C c (grid0.coords t) _ _ _ _ _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) (iblk0 V c 5 t) _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS0]; · iexact HS0
      isplitl [HS1]; · iexact HS1
      iintro ⟨H0, H1, H2, H3, H4, H5, ⟨%e6, H6⟩, ⟨%e7, H7⟩, ⟨%e8, H8⟩, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _ _ _ _ _)
            · unfold owns; iexists _; isplitr
              swap; · iexact HS1
              ipureintro; exact View.read_writes_of_cover _ _ _ _ _ (scover0_C_1 c _ _ _ _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_C_6 c _ _ _ _ _ _ _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover0_C_7 c _ _ _ _ _ _ _ _ _ _ _ _ _ _ _ _ _ _ _ _ _ _ _ _ _ _ _ _ _ _ _ _ _)
      unfold owns; iexists _; isplitr
      swap; · iexact H8
      ipureintro; exact View.read_writes_of_cover _ _ _ _ _ (cover0_C_8 c _ _ _ _ _ _ _ _ _ _ _ _ _ _ _ _ _ _ _ _ _ _ _ _ _ _ _ _ _ _ _ _ _)
    · rw [Dat.leavesExact_idle (dat0 V c) 7 t (idleAt0_7 t (fun h => h1 ((hcond0_1 t).mp h))) (noFlush0_7 t (fun h => h1 ((hcond0_1 t).mp h)))]
      rw [Dat.leavesExact_idle (dat0 V c) 8 t (idleAt0_8 t (fun h => h1 ((hcond0_1 t).mp h))) (noFlush0_8 t (fun h => h1 ((hcond0_1 t).mp h)))]
      rw [outsAt0_middle V c t h0 h1]
      unfold out0_B_6 sout0_B_0 sout0_B_1; (try dsimp only)
      rw [PhiS0_castSucc V c t, PhiS0_pos V c _ _ h0]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_B c (grid0.coords t) _ _ _ _ _ _ _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) _ _).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexact H8
      isplitl [HS0]; · iexact HS0
      isplitl [HS1]; · iexact HS1
      iintro ⟨H0, H1, H2, H3, H4, H5, ⟨%e6, H6⟩, H7, H8, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _ _ _ _ _)
            · unfold owns; iexists _; isplitr
              swap; · iexact HS1
              ipureintro; exact View.read_writes_of_cover _ _ _ _ _ (scover0_B_1 c _ _ _ _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_B_6 c _ _ _ _ _ _ _ _ _ _ _ _ _ _ _ _ _ _ _ _ _ _ _ _ _ _ _ _ _ _ _ _ _)
      isplitl [H7]; · iexists _; iexact H7
      iexists _; iexact H8

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the class's back: the accumulators' named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 5 := N_0; omega)

end Region0

end Cert.Kernel.Hand

end
-- ==== Proof.KReg1.lean ====
/- Region 1 of @main (custom_call 1, the batch-norm-and-activate kernel) at a parameter `V`, the TensorCore's
   buffer contents when the region is entered: each window's block at a point, what the body leaves in the output
   window's staging buffer (the canon of its one store over the input blocks), the body's triple, the proof data
   of the pipeline and its body obligation. -/
import proofs.«111056_j31628139167864_2_alg».proof.Proof.Gen.Kernel.Launch
import proofs.«111056_j31628139167864_2_alg».proof.Proof.Gen.Kernel.Skeleton
import proofs.«111056_j31628139167864_2_alg».proof.Proof.Gen.Kernel.Points
import Idealize.ShloMosaic.Lib.Pipeline.FrameBody
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): unfetched, the block
    index has not moved; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s (`hA`) and whose body leaves the block in place (`hafter`): unfetched, the block
    index has not moved; the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s (`hA`) and whose body leaves the block in place (`hafter`): unfetched, the block
    index has not moved; the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s (`hA`) and whose body leaves the block in place (`hafter`): unfetched, the block
    index has not moved; the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof
    data whose array is `V`'s (`hA`) and whose body leaves the block in place (`hafter`): unfetched, the block
    index has not moved; the window is uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S10000x96 := Rect.unit (s := S10000x96) ![0, 0] S10000x96.size inb_S10000x96_S10000x96_0_0
abbrev r1_1 : Rect S1x96 := Rect.unit (s := S1x96) ![0, 0] S1x96.size inb_S1x96_S1x96_0_0

/-! ## What the body leaves in the output window's buffer -/

/-- Window 5's staging buffer after the body, from the input windows' blocks: its one store as a piece, the payload
    the skeleton's — relu (((x0 - x1) * x2) * x3 + x4), the four rows broadcast along the long axis. -/
def out1_5 (x0 : Vec F S10000x96 .f32) (x1 : Vec F S1x96 .f32) (x2 : Vec F S1x96 .f32) (x3 : Vec F S1x96 .f32) (x4 : Vec F S1x96 .f32) : Vec F S10000x96 .f32 :=
  View.canon [⟨r1_0, k1_pay1 (View.ld x0 r1_0) (View.ld x1 r1_1) (View.ld x2 r1_1) (View.ld x3 r1_1) (View.ld x4 r1_1)⟩]

/-- Its store tiles the buffer (one block, the whole of it), so it covers it. -/
theorem cover1_5 (p0 : Vec F S10000x96 .f32) (y : S10000x96.Idx) :
    ∃ pc ∈ ([⟨r1_0, p0⟩] : List (View.Piece (Elt F) S10000x96 .f32)), y ∈ pc.1.set :=
  View.cover_of_tiled [⟨r1_0, p0⟩] S10000x96.size (by rfl) y

/-! ## The body's triple -/

set_option maxHeartbeats 1000000 in
/-- The kernel body on whole staging memrefs, the inputs' at read contents `xW` and the output's at anything, runs to
    the continuation holding the inputs' as they were and the output's at `out1_5` of the inputs'. -/
theorem sound_kernel1 (c : Dev nD) (E : Set ℕ) (i : grid1.Coords) (arg1 : Memref sig .tc .vmem S10000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S10000x96 .f32) (harg6 : arg6.IsWhole)
    (x0 : Vec F S10000x96 .f32) (x1 : Vec F S1x96 .f32) (x2 : Vec F S1x96 .f32) (x3 : Vec F S1x96 .f32) (x4 : Vec F S1x96 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 x0 x1 x2 x3 x4)) -∗ K ⟨⟩))
      ⊢ wp frame (wpE (defs₀ (F := F)) Variants.none c none) E (cc1__bn_act_kernel i arg1 harg1 arg2 harg2 arg3 harg3 arg4 harg4 arg5 harg5 arg6 harg6) K := by
  simp only [cc1__bn_act_kernel_eq_skeleton]; unfold cc1__bn_act_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of pipeline 1 on core `c`: the arrays as the region finds them (`V`); after the body at
    point `t` each input's buffer at its block and the output's at `out1_5` of the input blocks; the invariant the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant is the class's at every point. -/
theorem Phi1 (c : Dev nD) (t : Fin (cfg1.N + 1)) : (dat1 V c).Φ t = Pipeline.ΦA spec1 c := rfl

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t` (the obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KReg2Runs.lean ====
import proofs.«111056_j31628139167864_2_alg».proof.Proof.Gen.Kernel.Launch
import proofs.«111056_j31628139167864_2_alg».proof.Proof.Gen.Kernel.Skeleton
import proofs.«111056_j31628139167864_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2 (custom_call 2, the MLP kernel with its two carried column-sum accumulators): what its runs share -/

/-! ## The body's two branch conditions, decided over the five grid points -/

/-- The condition of the body's first conditional (zero the two accumulators): the point's coordinate is 0. -/
abbrev cond2_0 (i : grid2.Coords) : Prop := (Scalar.cmpi .ne (Scalar.extui (Scalar.cmpi .eq (BitVec.ofNat 32 (i 0).val) 0#32)) 0#32) = 1#1
/-- It holds at the first point only. -/
theorem hcond2_0 : ∀ t : Fin cfg2.N, cond2_0 (grid2.coords t) ↔ t.val = 0 :=
  (by decide +kernel : ∀ t : Fin grid2.N, cond2_0 (grid2.coords t) ↔ t.val = 0)

/-- The condition of the body's second conditional (copy the accumulators out): the point's coordinate is 4. -/
abbrev cond2_1 (i : grid2.Coords) : Prop := k2_cond2 i = 1#1
/-- It holds at the last point only. -/
theorem hcond2_1 : ∀ t : Fin cfg2.N, cond2_1 (grid2.coords t) ↔ t.val = 4 :=
  (by decide +kernel : ∀ t : Fin grid2.N, cond2_1 (grid2.coords t) ↔ t.val = 4)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
theorem liveAt2_5 : ∀ t : Fin cfg2.N, cfg2.idle 5 (grid2.coords t) = false := by decide +kernel
theorem liveAt2_6 : ∀ t : Fin cfg2.N, cfg2.idle 6 (grid2.coords t) = false := by decide +kernel
/-- Away from the last point the two statistics outputs are idle (nothing is stored into them) and not written back. -/
theorem idleAt2_7 : ∀ t : Fin cfg2.N, ¬cond2_1 (grid2.coords t) → cfg2.idle 7 (grid2.coords t) = true := by decide +kernel
theorem noFlush2_7 : ∀ t : Fin cfg2.N, ¬cond2_1 (grid2.coords t) → (cfg2.win 7).flush t = false := by decide +kernel
theorem idleAt2_8 : ∀ t : Fin cfg2.N, ¬cond2_1 (grid2.coords t) → cfg2.idle 8 (grid2.coords t) = true := by decide +kernel
theorem noFlush2_8 : ∀ t : Fin cfg2.N, ¬cond2_1 (grid2.coords t) → (cfg2.win 8).flush t = false := by decide +kernel
/-- At the last point they are live. -/
theorem liveAt2_7 : ∀ t : Fin cfg2.N, cond2_1 (grid2.coords t) → cfg2.idle 7 (grid2.coords t) = false := by decide +kernel
theorem liveAt2_8 : ∀ t : Fin cfg2.N, cond2_1 (grid2.coords t) → cfg2.idle 8 (grid2.coords t) = false := by decide +kernel

/-! ## The staging memrefs and the scratch -/

/-- One staging buffer of each output window, through which its contents are stated. -/
abbrev VO2_6 : View sig .tc .vmem S10000x96 .f32 := (Memref.whole cc2_stg6_0 : Memref sig .tc .vmem S10000x96 .f32).view
abbrev VO2_7 : View sig .tc .vmem S1x96 .f32 := (Memref.whole cc2_stg7_0 : Memref sig .tc .vmem S1x96 .f32).view
abbrev VO2_8 : View sig .tc .vmem S1x96 .f32 := (Memref.whole cc2_stg8_0 : Memref sig .tc .vmem S1x96 .f32).view
/-- The wholeness of each window's current staging memref at point `t`, as the pipeline passes it. -/
abbrev hs2_0 (t : Fin cfg2.N) : (st2_0 t).IsWhole := hstage2_0 ((cfg2.slots t 0).cast nbuf2_0)
abbrev hs2_1 (t : Fin cfg2.N) : (st2_1 t).IsWhole := hstage2_1 ((cfg2.slots t 1).cast nbuf2_1)
abbrev hs2_2 (t : Fin cfg2.N) : (st2_2 t).IsWhole := hstage2_2 ((cfg2.slots t 2).cast nbuf2_2)
abbrev hs2_3 (t : Fin cfg2.N) : (st2_3 t).IsWhole := hstage2_3 ((cfg2.slots t 3).cast nbuf2_3)
abbrev hs2_4 (t : Fin cfg2.N) : (st2_4 t).IsWhole := hstage2_4 ((cfg2.slots t 4).cast nbuf2_4)
abbrev hs2_5 (t : Fin cfg2.N) : (st2_5 t).IsWhole := hstage2_5 ((cfg2.slots t 5).cast nbuf2_5)
abbrev hs2_6 (t : Fin cfg2.N) : (st2_6 t).IsWhole := hstage2_6 ((cfg2.slots t 6).cast nbuf2_6)
abbrev hs2_7 (t : Fin cfg2.N) : (st2_7 t).IsWhole := hstage2_7 ((cfg2.slots t 7).cast nbuf2_7)
abbrev hs2_8 (t : Fin cfg2.N) : (st2_8 t).IsWhole := hstage2_8 ((cfg2.slots t 8).cast nbuf2_8)
/-- The two scratch operands: whole scoped buffers of the kernel's own, carried between points. -/
abbrev scM2_0 : Memref sig .tc .vmem S1x96 .f32 := Memref.whole cc2_scratch0
abbrev scM2_1 : Memref sig .tc .vmem S1x96 .f32 := Memref.whole cc2_scratch1
abbrev VS2_0 : View sig .tc .vmem S1x96 .f32 := scM2_0.view
abbrev VS2_1 : View sig .tc .vmem S1x96 .f32 := scM2_1.view

/-- The class's invariant with the two scratch operands as memrefs owned at some contents; every other scoped buffer
    stays unopened. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d))
          ∗ Pipeline.scopedRestBut (Ix := Unit) (Name := ℕ) (U := UR sig nD τ) (Lvl := ℕ) (Val := Elt F) spec2 c [cc2_scratch0, cc2_scratch1]) ∗ (∃ r, prngReg c r)) := by
  unfold Pipeline.ΦA; rw [scopedRest2_split]; simp only [scM2_0, scM2_1, owns_whole]; try rfl

end Cert.Kernel.Hand

end
-- ==== Proof.KReg2RunA.lean ====
/- Region 2's body at the first grid point: the two accumulators are zeroed, then accumulate; what the run leaves in each buffer it stores into. -/
import proofs.«111056_j31628139167864_2_alg».proof.Proof.KReg2Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run at the first point (the accumulators are zeroed, then accumulate; nothing is copied out): on whole staging memrefs, the inputs' at their contents, the h2 output's at anything,
    the two idle statistics outputs' at contents handed back untouched, the two accumulators at anything,
    the body runs to a continuation that holds the inputs' as they were and each buffer it stored into with its pieces
    written, the pieces listed last store first. -/
noncomputable def kernelRun2_A (c : Dev nD) (i : grid2.Coords) (arg1 : Memref sig .tc .vmem S10000x96 .f32) (harg1 : arg1.IsWhole) (arg2 : Memref sig .tc .vmem S10000x96 .f32) (harg2 : arg2.IsWhole) (arg3 : Memref sig .tc .vmem S96x96 .bf16) (harg3 : arg3.IsWhole) (arg4 : Memref sig .tc .vmem S1x96 .f32) (harg4 : arg4.IsWhole) (arg5 : Memref sig .tc .vmem S96x96 .bf16) (harg5 : arg5.IsWhole) (arg6 : Memref sig .tc .vmem S1x96 .f32) (harg6 : arg6.IsWhole) (arg7 : Memref sig .tc .vmem S10000x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (arg11 : Memref sig .tc .vmem S1x96 .f32) (harg11 : arg11.IsWhole) (hc0 : cond2_0 i) (hc1 : ¬cond2_1 i)
    (x0 : Vec F S10000x96 .f32) (x1 : Vec F S10000x96 .f32) (x2 : Vec F S96x96 .bf16) (x3 : Vec F S1x96 .f32) (x4 : Vec F S96x96 .bf16) (x5 : Vec F S1x96 .f32) :
    Σ' (L6 : List (View.Piece (Elt F) S10000x96 .f32)) (LS0 : List (View.Piece (Elt F) S1x96 .f32)), { LS1 : List (View.Piece (Elt F) S1x96 .f32) //
      ∀ (xi7 : Vec F S1x96 .f32) (xi8 : Vec F S1x96 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xi8 ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ owns (c : Thread nD τ) arg9 fullShare xi8 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc2__mlp_kernel i arg1 harg1 arg2 harg2 arg3 harg3 arg4 harg4 arg5 harg5 arg6 harg6 arg7 harg7 arg8 harg8 arg9 harg9 arg10 harg10 arg11 harg11) K } := by
  refine ⟨?_, ?_, ?_, fun xi7 xi8 E K => ?run⟩
  case run =>
    simp only [cc2__mlp_kernel_eq_skeleton]; unfold cc2__mlp_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [H8]
    · iexists _; isplitr; · ipureintro; exact harg9.read_unread _
      iexact H8
    isplitl [HS0]; · iexists _; iexact HS0
    iexists _; iexact HS1

end Cert.Kernel.Hand

end
-- ==== Proof.KReg2RunB.lean ====
/- Region 2's body at a middle grid point: the accumulators accumulate, nothing is zeroed or copied out; what the run leaves in each buffer it stores into. -/
import proofs.«111056_j31628139167864_2_alg».proof.Proof.KReg2RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run at a middle point (the accumulators accumulate; nothing is zeroed or copied out): on whole staging memrefs, the inputs' at their contents, the h2 output's at anything,
    the two idle statistics outputs' at contents handed back untouched, the two accumulators at what the point before left,
    the body runs to a continuation that holds the inputs' as they were and each buffer it stored into with its pieces
    written, the pieces listed last store first. -/
noncomputable def kernelRun2_B (c : Dev nD) (i : grid2.Coords) (arg1 : Memref sig .tc .vmem S10000x96 .f32) (harg1 : arg1.IsWhole) (arg2 : Memref sig .tc .vmem S10000x96 .f32) (harg2 : arg2.IsWhole) (arg3 : Memref sig .tc .vmem S96x96 .bf16) (harg3 : arg3.IsWhole) (arg4 : Memref sig .tc .vmem S1x96 .f32) (harg4 : arg4.IsWhole) (arg5 : Memref sig .tc .vmem S96x96 .bf16) (harg5 : arg5.IsWhole) (arg6 : Memref sig .tc .vmem S1x96 .f32) (harg6 : arg6.IsWhole) (arg7 : Memref sig .tc .vmem S10000x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (arg11 : Memref sig .tc .vmem S1x96 .f32) (harg11 : arg11.IsWhole) (hc0 : ¬cond2_0 i) (hc1 : ¬cond2_1 i)
    (x0 : Vec F S10000x96 .f32) (x1 : Vec F S10000x96 .f32) (x2 : Vec F S96x96 .bf16) (x3 : Vec F S1x96 .f32) (x4 : Vec F S96x96 .bf16) (x5 : Vec F S1x96 .f32) (xs0 : Vec F S1x96 .f32) (xs1 : Vec F S1x96 .f32) :
    Σ' (L6 : List (View.Piece (Elt F) S10000x96 .f32)) (LS0 : List (View.Piece (Elt F) S1x96 .f32)), { LS1 : List (View.Piece (Elt F) S1x96 .f32) //
      ∀ (xi7 : Vec F S1x96 .f32) (xi8 : Vec F S1x96 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xi8 ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ owns (c : Thread nD τ) arg9 fullShare xi8 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc2__mlp_kernel i arg1 harg1 arg2 harg2 arg3 harg3 arg4 harg4 arg5 harg5 arg6 harg6 arg7 harg7 arg8 harg8 arg9 harg9 arg10 harg10 arg11 harg11) K } := by
  refine ⟨?_, ?_, ?_, fun xi7 xi8 E K => ?run⟩
  case run =>
    simp only [cc2__mlp_kernel_eq_skeleton]; unfold cc2__mlp_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8; obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [H8]
    · iexists _; isplitr; · ipureintro; exact harg9.read_unread _
      iexact H8
    isplitl [HS0]; · iexists _; iexact HS0
    iexists _; iexact HS1

end Cert.Kernel.Hand

end
-- ==== Proof.KReg2RunC.lean ====
/- Region 2's body at the last grid point: the accumulators accumulate and are copied to the two statistics outputs; what the run leaves in each buffer it stores into. -/
import proofs.«111056_j31628139167864_2_alg».proof.Proof.KReg2RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run at the last point (the accumulators accumulate and are copied to the two statistics outputs): on whole staging memrefs, the inputs' at their contents, the h2 output's at anything,
    the two statistics outputs' at anything, the two accumulators at what the point before left,
    the body runs to a continuation that holds the inputs' as they were and each buffer it stored into with its pieces
    written, the pieces listed last store first. -/
noncomputable def kernelRun2_C (c : Dev nD) (i : grid2.Coords) (arg1 : Memref sig .tc .vmem S10000x96 .f32) (harg1 : arg1.IsWhole) (arg2 : Memref sig .tc .vmem S10000x96 .f32) (harg2 : arg2.IsWhole) (arg3 : Memref sig .tc .vmem S96x96 .bf16) (harg3 : arg3.IsWhole) (arg4 : Memref sig .tc .vmem S1x96 .f32) (harg4 : arg4.IsWhole) (arg5 : Memref sig .tc .vmem S96x96 .bf16) (harg5 : arg5.IsWhole) (arg6 : Memref sig .tc .vmem S1x96 .f32) (harg6 : arg6.IsWhole) (arg7 : Memref sig .tc .vmem S10000x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (arg11 : Memref sig .tc .vmem S1x96 .f32) (harg11 : arg11.IsWhole) (hc0 : ¬cond2_0 i) (hc1 : cond2_1 i)
    (x0 : Vec F S10000x96 .f32) (x1 : Vec F S10000x96 .f32) (x2 : Vec F S96x96 .bf16) (x3 : Vec F S1x96 .f32) (x4 : Vec F S96x96 .bf16) (x5 : Vec F S1x96 .f32) (xs0 : Vec F S1x96 .f32) (xs1 : Vec F S1x96 .f32) :
    Σ' (L6 : List (View.Piece (Elt F) S10000x96 .f32)) (L7 : List (View.Piece (Elt F) S1x96 .f32)) (L8 : List (View.Piece (Elt F) S1x96 .f32)) (LS0 : List (View.Piece (Elt F) S1x96 .f32)), { LS1 : List (View.Piece (Elt F) S1x96 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc2__mlp_kernel i arg1 harg1 arg2 harg2 arg3 harg3 arg4 harg4 arg5 harg5 arg6 harg6 arg7 harg7 arg8 harg8 arg9 harg9 arg10 harg10 arg11 harg11) K } := by
  refine ⟨?_, ?_, ?_, ?_, ?_, fun E K => ?run⟩
  case run =>
    simp only [cc2__mlp_kernel_eq_skeleton]; unfold cc2__mlp_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    isplitl [HS0]; · iexists _; iexact HS0
    iexists _; iexact HS1

end Cert.Kernel.Hand

end
-- ==== Proof.KReg2.lean ====
import proofs.«111056_j31628139167864_2_alg».proof.Proof.KReg2RunB
import proofs.«111056_j31628139167864_2_alg».proof.Proof.KReg2RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
-- the TensorCore's buffer contents when the region is entered
variable (V : (c : Dev nD) → (b : Ref sig .tc) → Buf (Elt F) ((c : Thread nD τ).loc b))

/-! # Region 2: custom_call 2, the MLP kernel with two carried column-sum accumulators, at the entry contents `V` -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## Each input window's staging buffer holds its block at every point, fetched there or not -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

end Region2

/-! ## What each case's run leaves in the buffers it stores into -/

/-- The h2 output block at the first point: the run's pieces for it tile the buffer, so they cover it. -/
theorem cover2_A_6 (c : Dev nD) (i : grid2.Coords) (arg1 : Memref sig .tc .vmem S10000x96 .f32) (harg1 : arg1.IsWhole) (arg2 : Memref sig .tc .vmem S10000x96 .f32) (harg2 : arg2.IsWhole) (arg3 : Memref sig .tc .vmem S96x96 .bf16) (harg3 : arg3.IsWhole) (arg4 : Memref sig .tc .vmem S1x96 .f32) (harg4 : arg4.IsWhole) (arg5 : Memref sig .tc .vmem S96x96 .bf16) (harg5 : arg5.IsWhole) (arg6 : Memref sig .tc .vmem S1x96 .f32) (harg6 : arg6.IsWhole) (arg7 : Memref sig .tc .vmem S10000x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (arg11 : Memref sig .tc .vmem S1x96 .f32) (harg11 : arg11.IsWhole) (hc0 : cond2_0 i) (hc1 : ¬cond2_1 i)
    (x0 : Vec F S10000x96 .f32) (x1 : Vec F S10000x96 .f32) (x2 : Vec F S96x96 .bf16) (x3 : Vec F S1x96 .f32) (x4 : Vec F S96x96 .bf16) (x5 : Vec F S1x96 .f32) (y : S10000x96.Idx) :
    ∃ pc ∈ (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).1, y ∈ pc.1.set :=
  View.cover_of_tiledL (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).1 S10000x96.size (by sl_kernel_rfl) y

/-- The h2 output block at the first point: what the run leaves in it, its pieces read back. -/
def out2_A_6 (c : Dev nD) (i : grid2.Coords) (arg1 : Memref sig .tc .vmem S10000x96 .f32) (harg1 : arg1.IsWhole) (arg2 : Memref sig .tc .vmem S10000x96 .f32) (harg2 : arg2.IsWhole) (arg3 : Memref sig .tc .vmem S96x96 .bf16) (harg3 : arg3.IsWhole) (arg4 : Memref sig .tc .vmem S1x96 .f32) (harg4 : arg4.IsWhole) (arg5 : Memref sig .tc .vmem S96x96 .bf16) (harg5 : arg5.IsWhole) (arg6 : Memref sig .tc .vmem S1x96 .f32) (harg6 : arg6.IsWhole) (arg7 : Memref sig .tc .vmem S10000x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (arg11 : Memref sig .tc .vmem S1x96 .f32) (harg11 : arg11.IsWhole) (hc0 : cond2_0 i) (hc1 : ¬cond2_1 i)
    (x0 : Vec F S10000x96 .f32) (x1 : Vec F S10000x96 .f32) (x2 : Vec F S96x96 .bf16) (x3 : Vec F S1x96 .f32) (x4 : Vec F S96x96 .bf16) (x5 : Vec F S1x96 .f32) : Vec F S10000x96 .f32 :=
  VO2_6.read (Elt F) (VO2_6.writes (Elt F) VO2_6.junk (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).1)

/-- The column-sum accumulator at the first point: the run's pieces for it tile the buffer, so they cover it. -/
theorem scover2_A_0 (c : Dev nD) (i : grid2.Coords) (arg1 : Memref sig .tc .vmem S10000x96 .f32) (harg1 : arg1.IsWhole) (arg2 : Memref sig .tc .vmem S10000x96 .f32) (harg2 : arg2.IsWhole) (arg3 : Memref sig .tc .vmem S96x96 .bf16) (harg3 : arg3.IsWhole) (arg4 : Memref sig .tc .vmem S1x96 .f32) (harg4 : arg4.IsWhole) (arg5 : Memref sig .tc .vmem S96x96 .bf16) (harg5 : arg5.IsWhole) (arg6 : Memref sig .tc .vmem S1x96 .f32) (harg6 : arg6.IsWhole) (arg7 : Memref sig .tc .vmem S10000x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (arg11 : Memref sig .tc .vmem S1x96 .f32) (harg11 : arg11.IsWhole) (hc0 : cond2_0 i) (hc1 : ¬cond2_1 i)
    (x0 : Vec F S10000x96 .f32) (x1 : Vec F S10000x96 .f32) (x2 : Vec F S96x96 .bf16) (x3 : Vec F S1x96 .f32) (x4 : Vec F S96x96 .bf16) (x5 : Vec F S1x96 .f32) (y : S1x96.Idx) :
    ∃ pc ∈ (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).2.1, y ∈ pc.1.set :=
  View.cover_of_tiledL (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).2.1 S1x96.size (by sl_kernel_rfl) y

/-- The column-sum accumulator at the first point: what the run leaves in it, its pieces read back. -/
def sout2_A_0 (c : Dev nD) (i : grid2.Coords) (arg1 : Memref sig .tc .vmem S10000x96 .f32) (harg1 : arg1.IsWhole) (arg2 : Memref sig .tc .vmem S10000x96 .f32) (harg2 : arg2.IsWhole) (arg3 : Memref sig .tc .vmem S96x96 .bf16) (harg3 : arg3.IsWhole) (arg4 : Memref sig .tc .vmem S1x96 .f32) (harg4 : arg4.IsWhole) (arg5 : Memref sig .tc .vmem S96x96 .bf16) (harg5 : arg5.IsWhole) (arg6 : Memref sig .tc .vmem S1x96 .f32) (harg6 : arg6.IsWhole) (arg7 : Memref sig .tc .vmem S10000x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (arg11 : Memref sig .tc .vmem S1x96 .f32) (harg11 : arg11.IsWhole) (hc0 : cond2_0 i) (hc1 : ¬cond2_1 i)
    (x0 : Vec F S10000x96 .f32) (x1 : Vec F S10000x96 .f32) (x2 : Vec F S96x96 .bf16) (x3 : Vec F S1x96 .f32) (x4 : Vec F S96x96 .bf16) (x5 : Vec F S1x96 .f32) : Vec F S1x96 .f32 :=
  VS2_0.read (Elt F) (VS2_0.writes (Elt F) VS2_0.junk (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).2.1)

/-- The column-sum-of-squares accumulator at the first point: the run's pieces for it tile the buffer, so they cover it. -/
theorem scover2_A_1 (c : Dev nD) (i : grid2.Coords) (arg1 : Memref sig .tc .vmem S10000x96 .f32) (harg1 : arg1.IsWhole) (arg2 : Memref sig .tc .vmem S10000x96 .f32) (harg2 : arg2.IsWhole) (arg3 : Memref sig .tc .vmem S96x96 .bf16) (harg3 : arg3.IsWhole) (arg4 : Memref sig .tc .vmem S1x96 .f32) (harg4 : arg4.IsWhole) (arg5 : Memref sig .tc .vmem S96x96 .bf16) (harg5 : arg5.IsWhole) (arg6 : Memref sig .tc .vmem S1x96 .f32) (harg6 : arg6.IsWhole) (arg7 : Memref sig .tc .vmem S10000x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (arg11 : Memref sig .tc .vmem S1x96 .f32) (harg11 : arg11.IsWhole) (hc0 : cond2_0 i) (hc1 : ¬cond2_1 i)
    (x0 : Vec F S10000x96 .f32) (x1 : Vec F S10000x96 .f32) (x2 : Vec F S96x96 .bf16) (x3 : Vec F S1x96 .f32) (x4 : Vec F S96x96 .bf16) (x5 : Vec F S1x96 .f32) (y : S1x96.Idx) :
    ∃ pc ∈ (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).2.2.1, y ∈ pc.1.set :=
  View.cover_of_tiledL (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).2.2.1 S1x96.size (by sl_kernel_rfl) y

/-- The column-sum-of-squares accumulator at the first point: what the run leaves in it, its pieces read back. -/
def sout2_A_1 (c : Dev nD) (i : grid2.Coords) (arg1 : Memref sig .tc .vmem S10000x96 .f32) (harg1 : arg1.IsWhole) (arg2 : Memref sig .tc .vmem S10000x96 .f32) (harg2 : arg2.IsWhole) (arg3 : Memref sig .tc .vmem S96x96 .bf16) (harg3 : arg3.IsWhole) (arg4 : Memref sig .tc .vmem S1x96 .f32) (harg4 : arg4.IsWhole) (arg5 : Memref sig .tc .vmem S96x96 .bf16) (harg5 : arg5.IsWhole) (arg6 : Memref sig .tc .vmem S1x96 .f32) (harg6 : arg6.IsWhole) (arg7 : Memref sig .tc .vmem S10000x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (arg11 : Memref sig .tc .vmem S1x96 .f32) (harg11 : arg11.IsWhole) (hc0 : cond2_0 i) (hc1 : ¬cond2_1 i)
    (x0 : Vec F S10000x96 .f32) (x1 : Vec F S10000x96 .f32) (x2 : Vec F S96x96 .bf16) (x3 : Vec F S1x96 .f32) (x4 : Vec F S96x96 .bf16) (x5 : Vec F S1x96 .f32) : Vec F S1x96 .f32 :=
  VS2_1.read (Elt F) (VS2_1.writes (Elt F) VS2_1.junk (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).2.2.1)

/-- The h2 output block at a middle point: the run's pieces for it tile the buffer, so they cover it. -/
theorem cover2_B_6 (c : Dev nD) (i : grid2.Coords) (arg1 : Memref sig .tc .vmem S10000x96 .f32) (harg1 : arg1.IsWhole) (arg2 : Memref sig .tc .vmem S10000x96 .f32) (harg2 : arg2.IsWhole) (arg3 : Memref sig .tc .vmem S96x96 .bf16) (harg3 : arg3.IsWhole) (arg4 : Memref sig .tc .vmem S1x96 .f32) (harg4 : arg4.IsWhole) (arg5 : Memref sig .tc .vmem S96x96 .bf16) (harg5 : arg5.IsWhole) (arg6 : Memref sig .tc .vmem S1x96 .f32) (harg6 : arg6.IsWhole) (arg7 : Memref sig .tc .vmem S10000x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (arg11 : Memref sig .tc .vmem S1x96 .f32) (harg11 : arg11.IsWhole) (hc0 : ¬cond2_0 i) (hc1 : ¬cond2_1 i)
    (x0 : Vec F S10000x96 .f32) (x1 : Vec F S10000x96 .f32) (x2 : Vec F S96x96 .bf16) (x3 : Vec F S1x96 .f32) (x4 : Vec F S96x96 .bf16) (x5 : Vec F S1x96 .f32) (xs0 : Vec F S1x96 .f32) (xs1 : Vec F S1x96 .f32) (y : S10000x96.Idx) :
    ∃ pc ∈ (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1 S10000x96.size (by sl_kernel_rfl) y

/-- The h2 output block at a middle point: what the run leaves in it, its pieces read back. -/
def out2_B_6 (c : Dev nD) (i : grid2.Coords) (arg1 : Memref sig .tc .vmem S10000x96 .f32) (harg1 : arg1.IsWhole) (arg2 : Memref sig .tc .vmem S10000x96 .f32) (harg2 : arg2.IsWhole) (arg3 : Memref sig .tc .vmem S96x96 .bf16) (harg3 : arg3.IsWhole) (arg4 : Memref sig .tc .vmem S1x96 .f32) (harg4 : arg4.IsWhole) (arg5 : Memref sig .tc .vmem S96x96 .bf16) (harg5 : arg5.IsWhole) (arg6 : Memref sig .tc .vmem S1x96 .f32) (harg6 : arg6.IsWhole) (arg7 : Memref sig .tc .vmem S10000x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (arg11 : Memref sig .tc .vmem S1x96 .f32) (harg11 : arg11.IsWhole) (hc0 : ¬cond2_0 i) (hc1 : ¬cond2_1 i)
    (x0 : Vec F S10000x96 .f32) (x1 : Vec F S10000x96 .f32) (x2 : Vec F S96x96 .bf16) (x3 : Vec F S1x96 .f32) (x4 : Vec F S96x96 .bf16) (x5 : Vec F S1x96 .f32) (xs0 : Vec F S1x96 .f32) (xs1 : Vec F S1x96 .f32) : Vec F S10000x96 .f32 :=
  VO2_6.read (Elt F) (VO2_6.writes (Elt F) VO2_6.junk (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1)

/-- The column-sum accumulator at a middle point: the run's pieces for it tile the buffer, so they cover it. -/
theorem scover2_B_0 (c : Dev nD) (i : grid2.Coords) (arg1 : Memref sig .tc .vmem S10000x96 .f32) (harg1 : arg1.IsWhole) (arg2 : Memref sig .tc .vmem S10000x96 .f32) (harg2 : arg2.IsWhole) (arg3 : Memref sig .tc .vmem S96x96 .bf16) (harg3 : arg3.IsWhole) (arg4 : Memref sig .tc .vmem S1x96 .f32) (harg4 : arg4.IsWhole) (arg5 : Memref sig .tc .vmem S96x96 .bf16) (harg5 : arg5.IsWhole) (arg6 : Memref sig .tc .vmem S1x96 .f32) (harg6 : arg6.IsWhole) (arg7 : Memref sig .tc .vmem S10000x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (arg11 : Memref sig .tc .vmem S1x96 .f32) (harg11 : arg11.IsWhole) (hc0 : ¬cond2_0 i) (hc1 : ¬cond2_1 i)
    (x0 : Vec F S10000x96 .f32) (x1 : Vec F S10000x96 .f32) (x2 : Vec F S96x96 .bf16) (x3 : Vec F S1x96 .f32) (x4 : Vec F S96x96 .bf16) (x5 : Vec F S1x96 .f32) (xs0 : Vec F S1x96 .f32) (xs1 : Vec F S1x96 .f32) (y : S1x96.Idx) :
    ∃ pc ∈ (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1, y ∈ pc.1.set :=
  View.cover_of_tiledL (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1 S1x96.size (by sl_kernel_rfl) y

/-- The column-sum accumulator at a middle point: what the run leaves in it, its pieces read back. -/
def sout2_B_0 (c : Dev nD) (i : grid2.Coords) (arg1 : Memref sig .tc .vmem S10000x96 .f32) (harg1 : arg1.IsWhole) (arg2 : Memref sig .tc .vmem S10000x96 .f32) (harg2 : arg2.IsWhole) (arg3 : Memref sig .tc .vmem S96x96 .bf16) (harg3 : arg3.IsWhole) (arg4 : Memref sig .tc .vmem S1x96 .f32) (harg4 : arg4.IsWhole) (arg5 : Memref sig .tc .vmem S96x96 .bf16) (harg5 : arg5.IsWhole) (arg6 : Memref sig .tc .vmem S1x96 .f32) (harg6 : arg6.IsWhole) (arg7 : Memref sig .tc .vmem S10000x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (arg11 : Memref sig .tc .vmem S1x96 .f32) (harg11 : arg11.IsWhole) (hc0 : ¬cond2_0 i) (hc1 : ¬cond2_1 i)
    (x0 : Vec F S10000x96 .f32) (x1 : Vec F S10000x96 .f32) (x2 : Vec F S96x96 .bf16) (x3 : Vec F S1x96 .f32) (x4 : Vec F S96x96 .bf16) (x5 : Vec F S1x96 .f32) (xs0 : Vec F S1x96 .f32) (xs1 : Vec F S1x96 .f32) : Vec F S1x96 .f32 :=
  VS2_0.read (Elt F) (VS2_0.writes (Elt F) VS2_0.junk (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1)

/-- The column-sum-of-squares accumulator at a middle point: the run's pieces for it tile the buffer, so they cover it. -/
theorem scover2_B_1 (c : Dev nD) (i : grid2.Coords) (arg1 : Memref sig .tc .vmem S10000x96 .f32) (harg1 : arg1.IsWhole) (arg2 : Memref sig .tc .vmem S10000x96 .f32) (harg2 : arg2.IsWhole) (arg3 : Memref sig .tc .vmem S96x96 .bf16) (harg3 : arg3.IsWhole) (arg4 : Memref sig .tc .vmem S1x96 .f32) (harg4 : arg4.IsWhole) (arg5 : Memref sig .tc .vmem S96x96 .bf16) (harg5 : arg5.IsWhole) (arg6 : Memref sig .tc .vmem S1x96 .f32) (harg6 : arg6.IsWhole) (arg7 : Memref sig .tc .vmem S10000x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (arg11 : Memref sig .tc .vmem S1x96 .f32) (harg11 : arg11.IsWhole) (hc0 : ¬cond2_0 i) (hc1 : ¬cond2_1 i)
    (x0 : Vec F S10000x96 .f32) (x1 : Vec F S10000x96 .f32) (x2 : Vec F S96x96 .bf16) (x3 : Vec F S1x96 .f32) (x4 : Vec F S96x96 .bf16) (x5 : Vec F S1x96 .f32) (xs0 : Vec F S1x96 .f32) (xs1 : Vec F S1x96 .f32) (y : S1x96.Idx) :
    ∃ pc ∈ (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1 S1x96.size (by sl_kernel_rfl) y

/-- The column-sum-of-squares accumulator at a middle point: what the run leaves in it, its pieces read back. -/
def sout2_B_1 (c : Dev nD) (i : grid2.Coords) (arg1 : Memref sig .tc .vmem S10000x96 .f32) (harg1 : arg1.IsWhole) (arg2 : Memref sig .tc .vmem S10000x96 .f32) (harg2 : arg2.IsWhole) (arg3 : Memref sig .tc .vmem S96x96 .bf16) (harg3 : arg3.IsWhole) (arg4 : Memref sig .tc .vmem S1x96 .f32) (harg4 : arg4.IsWhole) (arg5 : Memref sig .tc .vmem S96x96 .bf16) (harg5 : arg5.IsWhole) (arg6 : Memref sig .tc .vmem S1x96 .f32) (harg6 : arg6.IsWhole) (arg7 : Memref sig .tc .vmem S10000x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (arg11 : Memref sig .tc .vmem S1x96 .f32) (harg11 : arg11.IsWhole) (hc0 : ¬cond2_0 i) (hc1 : ¬cond2_1 i)
    (x0 : Vec F S10000x96 .f32) (x1 : Vec F S10000x96 .f32) (x2 : Vec F S96x96 .bf16) (x3 : Vec F S1x96 .f32) (x4 : Vec F S96x96 .bf16) (x5 : Vec F S1x96 .f32) (xs0 : Vec F S1x96 .f32) (xs1 : Vec F S1x96 .f32) : Vec F S1x96 .f32 :=
  VS2_1.read (Elt F) (VS2_1.writes (Elt F) VS2_1.junk (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1)

/-- The h2 output block at the last point: the run's pieces for it tile the buffer, so they cover it. -/
theorem cover2_C_6 (c : Dev nD) (i : grid2.Coords) (arg1 : Memref sig .tc .vmem S10000x96 .f32) (harg1 : arg1.IsWhole) (arg2 : Memref sig .tc .vmem S10000x96 .f32) (harg2 : arg2.IsWhole) (arg3 : Memref sig .tc .vmem S96x96 .bf16) (harg3 : arg3.IsWhole) (arg4 : Memref sig .tc .vmem S1x96 .f32) (harg4 : arg4.IsWhole) (arg5 : Memref sig .tc .vmem S96x96 .bf16) (harg5 : arg5.IsWhole) (arg6 : Memref sig .tc .vmem S1x96 .f32) (harg6 : arg6.IsWhole) (arg7 : Memref sig .tc .vmem S10000x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (arg11 : Memref sig .tc .vmem S1x96 .f32) (harg11 : arg11.IsWhole) (hc0 : ¬cond2_0 i) (hc1 : cond2_1 i)
    (x0 : Vec F S10000x96 .f32) (x1 : Vec F S10000x96 .f32) (x2 : Vec F S96x96 .bf16) (x3 : Vec F S1x96 .f32) (x4 : Vec F S96x96 .bf16) (x5 : Vec F S1x96 .f32) (xs0 : Vec F S1x96 .f32) (xs1 : Vec F S1x96 .f32) (y : S10000x96.Idx) :
    ∃ pc ∈ (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1 S10000x96.size (by sl_kernel_rfl) y

/-- The h2 output block at the last point: what the run leaves in it, its pieces read back. -/
def out2_C_6 (c : Dev nD) (i : grid2.Coords) (arg1 : Memref sig .tc .vmem S10000x96 .f32) (harg1 : arg1.IsWhole) (arg2 : Memref sig .tc .vmem S10000x96 .f32) (harg2 : arg2.IsWhole) (arg3 : Memref sig .tc .vmem S96x96 .bf16) (harg3 : arg3.IsWhole) (arg4 : Memref sig .tc .vmem S1x96 .f32) (harg4 : arg4.IsWhole) (arg5 : Memref sig .tc .vmem S96x96 .bf16) (harg5 : arg5.IsWhole) (arg6 : Memref sig .tc .vmem S1x96 .f32) (harg6 : arg6.IsWhole) (arg7 : Memref sig .tc .vmem S10000x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (arg11 : Memref sig .tc .vmem S1x96 .f32) (harg11 : arg11.IsWhole) (hc0 : ¬cond2_0 i) (hc1 : cond2_1 i)
    (x0 : Vec F S10000x96 .f32) (x1 : Vec F S10000x96 .f32) (x2 : Vec F S96x96 .bf16) (x3 : Vec F S1x96 .f32) (x4 : Vec F S96x96 .bf16) (x5 : Vec F S1x96 .f32) (xs0 : Vec F S1x96 .f32) (xs1 : Vec F S1x96 .f32) : Vec F S10000x96 .f32 :=
  VO2_6.read (Elt F) (VO2_6.writes (Elt F) VO2_6.junk (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1)

/-- The column-sum output at the last point: the run's pieces for it tile the buffer, so they cover it. -/
theorem cover2_C_7 (c : Dev nD) (i : grid2.Coords) (arg1 : Memref sig .tc .vmem S10000x96 .f32) (harg1 : arg1.IsWhole) (arg2 : Memref sig .tc .vmem S10000x96 .f32) (harg2 : arg2.IsWhole) (arg3 : Memref sig .tc .vmem S96x96 .bf16) (harg3 : arg3.IsWhole) (arg4 : Memref sig .tc .vmem S1x96 .f32) (harg4 : arg4.IsWhole) (arg5 : Memref sig .tc .vmem S96x96 .bf16) (harg5 : arg5.IsWhole) (arg6 : Memref sig .tc .vmem S1x96 .f32) (harg6 : arg6.IsWhole) (arg7 : Memref sig .tc .vmem S10000x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (arg11 : Memref sig .tc .vmem S1x96 .f32) (harg11 : arg11.IsWhole) (hc0 : ¬cond2_0 i) (hc1 : cond2_1 i)
    (x0 : Vec F S10000x96 .f32) (x1 : Vec F S10000x96 .f32) (x2 : Vec F S96x96 .bf16) (x3 : Vec F S1x96 .f32) (x4 : Vec F S96x96 .bf16) (x5 : Vec F S1x96 .f32) (xs0 : Vec F S1x96 .f32) (xs1 : Vec F S1x96 .f32) (y : S1x96.Idx) :
    ∃ pc ∈ (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1, y ∈ pc.1.set :=
  View.cover_of_tiledL (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1 S1x96.size (by sl_kernel_rfl) y

/-- The column-sum output at the last point: what the run leaves in it, its pieces read back. -/
def out2_C_7 (c : Dev nD) (i : grid2.Coords) (arg1 : Memref sig .tc .vmem S10000x96 .f32) (harg1 : arg1.IsWhole) (arg2 : Memref sig .tc .vmem S10000x96 .f32) (harg2 : arg2.IsWhole) (arg3 : Memref sig .tc .vmem S96x96 .bf16) (harg3 : arg3.IsWhole) (arg4 : Memref sig .tc .vmem S1x96 .f32) (harg4 : arg4.IsWhole) (arg5 : Memref sig .tc .vmem S96x96 .bf16) (harg5 : arg5.IsWhole) (arg6 : Memref sig .tc .vmem S1x96 .f32) (harg6 : arg6.IsWhole) (arg7 : Memref sig .tc .vmem S10000x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (arg11 : Memref sig .tc .vmem S1x96 .f32) (harg11 : arg11.IsWhole) (hc0 : ¬cond2_0 i) (hc1 : cond2_1 i)
    (x0 : Vec F S10000x96 .f32) (x1 : Vec F S10000x96 .f32) (x2 : Vec F S96x96 .bf16) (x3 : Vec F S1x96 .f32) (x4 : Vec F S96x96 .bf16) (x5 : Vec F S1x96 .f32) (xs0 : Vec F S1x96 .f32) (xs1 : Vec F S1x96 .f32) : Vec F S1x96 .f32 :=
  VO2_7.read (Elt F) (VO2_7.writes (Elt F) VO2_7.junk (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1)

/-- The column-sum-of-squares output at the last point: the run's pieces for it tile the buffer, so they cover it. -/
theorem cover2_C_8 (c : Dev nD) (i : grid2.Coords) (arg1 : Memref sig .tc .vmem S10000x96 .f32) (harg1 : arg1.IsWhole) (arg2 : Memref sig .tc .vmem S10000x96 .f32) (harg2 : arg2.IsWhole) (arg3 : Memref sig .tc .vmem S96x96 .bf16) (harg3 : arg3.IsWhole) (arg4 : Memref sig .tc .vmem S1x96 .f32) (harg4 : arg4.IsWhole) (arg5 : Memref sig .tc .vmem S96x96 .bf16) (harg5 : arg5.IsWhole) (arg6 : Memref sig .tc .vmem S1x96 .f32) (harg6 : arg6.IsWhole) (arg7 : Memref sig .tc .vmem S10000x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (arg11 : Memref sig .tc .vmem S1x96 .f32) (harg11 : arg11.IsWhole) (hc0 : ¬cond2_0 i) (hc1 : cond2_1 i)
    (x0 : Vec F S10000x96 .f32) (x1 : Vec F S10000x96 .f32) (x2 : Vec F S96x96 .bf16) (x3 : Vec F S1x96 .f32) (x4 : Vec F S96x96 .bf16) (x5 : Vec F S1x96 .f32) (xs0 : Vec F S1x96 .f32) (xs1 : Vec F S1x96 .f32) (y : S1x96.Idx) :
    ∃ pc ∈ (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1 S1x96.size (by sl_kernel_rfl) y

/-- The column-sum-of-squares output at the last point: what the run leaves in it, its pieces read back. -/
def out2_C_8 (c : Dev nD) (i : grid2.Coords) (arg1 : Memref sig .tc .vmem S10000x96 .f32) (harg1 : arg1.IsWhole) (arg2 : Memref sig .tc .vmem S10000x96 .f32) (harg2 : arg2.IsWhole) (arg3 : Memref sig .tc .vmem S96x96 .bf16) (harg3 : arg3.IsWhole) (arg4 : Memref sig .tc .vmem S1x96 .f32) (harg4 : arg4.IsWhole) (arg5 : Memref sig .tc .vmem S96x96 .bf16) (harg5 : arg5.IsWhole) (arg6 : Memref sig .tc .vmem S1x96 .f32) (harg6 : arg6.IsWhole) (arg7 : Memref sig .tc .vmem S10000x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (arg11 : Memref sig .tc .vmem S1x96 .f32) (harg11 : arg11.IsWhole) (hc0 : ¬cond2_0 i) (hc1 : cond2_1 i)
    (x0 : Vec F S10000x96 .f32) (x1 : Vec F S10000x96 .f32) (x2 : Vec F S96x96 .bf16) (x3 : Vec F S1x96 .f32) (x4 : Vec F S96x96 .bf16) (x5 : Vec F S1x96 .f32) (xs0 : Vec F S1x96 .f32) (xs1 : Vec F S1x96 .f32) : Vec F S1x96 .f32 :=
  VO2_8.read (Elt F) (VO2_8.writes (Elt F) VO2_8.junk (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1)

/-- The column-sum accumulator at the last point: the run's pieces for it tile the buffer, so they cover it. -/
theorem scover2_C_0 (c : Dev nD) (i : grid2.Coords) (arg1 : Memref sig .tc .vmem S10000x96 .f32) (harg1 : arg1.IsWhole) (arg2 : Memref sig .tc .vmem S10000x96 .f32) (harg2 : arg2.IsWhole) (arg3 : Memref sig .tc .vmem S96x96 .bf16) (harg3 : arg3.IsWhole) (arg4 : Memref sig .tc .vmem S1x96 .f32) (harg4 : arg4.IsWhole) (arg5 : Memref sig .tc .vmem S96x96 .bf16) (harg5 : arg5.IsWhole) (arg6 : Memref sig .tc .vmem S1x96 .f32) (harg6 : arg6.IsWhole) (arg7 : Memref sig .tc .vmem S10000x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (arg11 : Memref sig .tc .vmem S1x96 .f32) (harg11 : arg11.IsWhole) (hc0 : ¬cond2_0 i) (hc1 : cond2_1 i)
    (x0 : Vec F S10000x96 .f32) (x1 : Vec F S10000x96 .f32) (x2 : Vec F S96x96 .bf16) (x3 : Vec F S1x96 .f32) (x4 : Vec F S96x96 .bf16) (x5 : Vec F S1x96 .f32) (xs0 : Vec F S1x96 .f32) (xs1 : Vec F S1x96 .f32) (y : S1x96.Idx) :
    ∃ pc ∈ (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1, y ∈ pc.1.set :=
  View.cover_of_tiledL (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1 S1x96.size (by sl_kernel_rfl) y

/-- The column-sum accumulator at the last point: what the run leaves in it, its pieces read back. -/
def sout2_C_0 (c : Dev nD) (i : grid2.Coords) (arg1 : Memref sig .tc .vmem S10000x96 .f32) (harg1 : arg1.IsWhole) (arg2 : Memref sig .tc .vmem S10000x96 .f32) (harg2 : arg2.IsWhole) (arg3 : Memref sig .tc .vmem S96x96 .bf16) (harg3 : arg3.IsWhole) (arg4 : Memref sig .tc .vmem S1x96 .f32) (harg4 : arg4.IsWhole) (arg5 : Memref sig .tc .vmem S96x96 .bf16) (harg5 : arg5.IsWhole) (arg6 : Memref sig .tc .vmem S1x96 .f32) (harg6 : arg6.IsWhole) (arg7 : Memref sig .tc .vmem S10000x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (arg11 : Memref sig .tc .vmem S1x96 .f32) (harg11 : arg11.IsWhole) (hc0 : ¬cond2_0 i) (hc1 : cond2_1 i)
    (x0 : Vec F S10000x96 .f32) (x1 : Vec F S10000x96 .f32) (x2 : Vec F S96x96 .bf16) (x3 : Vec F S1x96 .f32) (x4 : Vec F S96x96 .bf16) (x5 : Vec F S1x96 .f32) (xs0 : Vec F S1x96 .f32) (xs1 : Vec F S1x96 .f32) : Vec F S1x96 .f32 :=
  VS2_0.read (Elt F) (VS2_0.writes (Elt F) VS2_0.junk (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1)

/-- The column-sum-of-squares accumulator at the last point: the run's pieces for it tile the buffer, so they cover it. -/
theorem scover2_C_1 (c : Dev nD) (i : grid2.Coords) (arg1 : Memref sig .tc .vmem S10000x96 .f32) (harg1 : arg1.IsWhole) (arg2 : Memref sig .tc .vmem S10000x96 .f32) (harg2 : arg2.IsWhole) (arg3 : Memref sig .tc .vmem S96x96 .bf16) (harg3 : arg3.IsWhole) (arg4 : Memref sig .tc .vmem S1x96 .f32) (harg4 : arg4.IsWhole) (arg5 : Memref sig .tc .vmem S96x96 .bf16) (harg5 : arg5.IsWhole) (arg6 : Memref sig .tc .vmem S1x96 .f32) (harg6 : arg6.IsWhole) (arg7 : Memref sig .tc .vmem S10000x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (arg11 : Memref sig .tc .vmem S1x96 .f32) (harg11 : arg11.IsWhole) (hc0 : ¬cond2_0 i) (hc1 : cond2_1 i)
    (x0 : Vec F S10000x96 .f32) (x1 : Vec F S10000x96 .f32) (x2 : Vec F S96x96 .bf16) (x3 : Vec F S1x96 .f32) (x4 : Vec F S96x96 .bf16) (x5 : Vec F S1x96 .f32) (xs0 : Vec F S1x96 .f32) (xs1 : Vec F S1x96 .f32) (y : S1x96.Idx) :
    ∃ pc ∈ (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1, y ∈ pc.1.set :=
  View.cover_of_tiledL (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1 S1x96.size (by sl_kernel_rfl) y

/-- The column-sum-of-squares accumulator at the last point: what the run leaves in it, its pieces read back. -/
def sout2_C_1 (c : Dev nD) (i : grid2.Coords) (arg1 : Memref sig .tc .vmem S10000x96 .f32) (harg1 : arg1.IsWhole) (arg2 : Memref sig .tc .vmem S10000x96 .f32) (harg2 : arg2.IsWhole) (arg3 : Memref sig .tc .vmem S96x96 .bf16) (harg3 : arg3.IsWhole) (arg4 : Memref sig .tc .vmem S1x96 .f32) (harg4 : arg4.IsWhole) (arg5 : Memref sig .tc .vmem S96x96 .bf16) (harg5 : arg5.IsWhole) (arg6 : Memref sig .tc .vmem S1x96 .f32) (harg6 : arg6.IsWhole) (arg7 : Memref sig .tc .vmem S10000x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (arg11 : Memref sig .tc .vmem S1x96 .f32) (harg11 : arg11.IsWhole) (hc0 : ¬cond2_0 i) (hc1 : cond2_1 i)
    (x0 : Vec F S10000x96 .f32) (x1 : Vec F S10000x96 .f32) (x2 : Vec F S96x96 .bf16) (x3 : Vec F S1x96 .f32) (x4 : Vec F S96x96 .bf16) (x5 : Vec F S1x96 .f32) (xs0 : Vec F S1x96 .f32) (xs1 : Vec F S1x96 .f32) : Vec F S1x96 .f32 :=
  VS2_1.read (Elt F) (VS2_1.writes (Elt F) VS2_1.junk (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1)

/-- What an idle statistics output's buffer is said to hold at a point that stores nothing into it: a placeholder nothing
    consults (the window is neither written back there nor read at the next point). -/
def idle2_7 : Vec F S1x96 .f32 := VO2_7.read (Elt F) (VO2_7.writes (Elt F) VO2_7.junk [])
def idle2_8 : Vec F S1x96 .f32 := VO2_8.read (Elt F) (VO2_8.writes (Elt F) VO2_8.junk [])

section Region2
variable (V : (c : Dev nD) → (b : Ref sig .tc) → Buf (Elt F) ((c : Thread nD τ).loc b))

/-! ## What the outputs and the accumulators hold after each point -/

/-- THE ACCUMULATION. After the body at position `n`: the h2 block, the two statistics outputs, the two accumulators —
    the first point's run over the point's input blocks, then at each later point the middle (or, at point 4, the last)
    run over the point's input blocks and the accumulators as the point before left them. -/
def outsAt2 (c : Dev nD) : (n : ℕ) → n < cfg2.N → Vec F S10000x96 .f32 × Vec F S1x96 .f32 × Vec F S1x96 .f32 × Vec F S1x96 .f32 × Vec F S1x96 .f32
  | 0, hn => (out2_A_6 c (grid2.coords ⟨0, hn⟩) (st2_0 ⟨0, hn⟩) (hs2_0 ⟨0, hn⟩) (st2_1 ⟨0, hn⟩) (hs2_1 ⟨0, hn⟩) (st2_2 ⟨0, hn⟩) (hs2_2 ⟨0, hn⟩) (st2_3 ⟨0, hn⟩) (hs2_3 ⟨0, hn⟩) (st2_4 ⟨0, hn⟩) (hs2_4 ⟨0, hn⟩) (st2_5 ⟨0, hn⟩) (hs2_5 ⟨0, hn⟩) (st2_6 ⟨0, hn⟩) (hs2_6 ⟨0, hn⟩) (st2_7 ⟨0, hn⟩) (hs2_7 ⟨0, hn⟩) (st2_8 ⟨0, hn⟩) (hs2_8 ⟨0, hn⟩) scM2_0 (Memref.isWhole_whole _) scM2_1 (Memref.isWhole_whole _) ((hcond2_0 ⟨0, hn⟩).mpr rfl) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩), idle2_7, idle2_8, sout2_A_0 c (grid2.coords ⟨0, hn⟩) (st2_0 ⟨0, hn⟩) (hs2_0 ⟨0, hn⟩) (st2_1 ⟨0, hn⟩) (hs2_1 ⟨0, hn⟩) (st2_2 ⟨0, hn⟩) (hs2_2 ⟨0, hn⟩) (st2_3 ⟨0, hn⟩) (hs2_3 ⟨0, hn⟩) (st2_4 ⟨0, hn⟩) (hs2_4 ⟨0, hn⟩) (st2_5 ⟨0, hn⟩) (hs2_5 ⟨0, hn⟩) (st2_6 ⟨0, hn⟩) (hs2_6 ⟨0, hn⟩) (st2_7 ⟨0, hn⟩) (hs2_7 ⟨0, hn⟩) (st2_8 ⟨0, hn⟩) (hs2_8 ⟨0, hn⟩) scM2_0 (Memref.isWhole_whole _) scM2_1 (Memref.isWhole_whole _) ((hcond2_0 ⟨0, hn⟩).mpr rfl) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩), sout2_A_1 c (grid2.coords ⟨0, hn⟩) (st2_0 ⟨0, hn⟩) (hs2_0 ⟨0, hn⟩) (st2_1 ⟨0, hn⟩) (hs2_1 ⟨0, hn⟩) (st2_2 ⟨0, hn⟩) (hs2_2 ⟨0, hn⟩) (st2_3 ⟨0, hn⟩) (hs2_3 ⟨0, hn⟩) (st2_4 ⟨0, hn⟩) (hs2_4 ⟨0, hn⟩) (st2_5 ⟨0, hn⟩) (hs2_5 ⟨0, hn⟩) (st2_6 ⟨0, hn⟩) (hs2_6 ⟨0, hn⟩) (st2_7 ⟨0, hn⟩) (hs2_7 ⟨0, hn⟩) (st2_8 ⟨0, hn⟩) (hs2_8 ⟨0, hn⟩) scM2_0 (Memref.isWhole_whole _) scM2_1 (Memref.isWhole_whole _) ((hcond2_0 ⟨0, hn⟩).mpr rfl) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩))
  | n + 1, hn =>
    if h1 : n + 1 = 4 then
      (out2_C_6 c (grid2.coords ⟨n + 1, hn⟩) (st2_0 ⟨n + 1, hn⟩) (hs2_0 ⟨n + 1, hn⟩) (st2_1 ⟨n + 1, hn⟩) (hs2_1 ⟨n + 1, hn⟩) (st2_2 ⟨n + 1, hn⟩) (hs2_2 ⟨n + 1, hn⟩) (st2_3 ⟨n + 1, hn⟩) (hs2_3 ⟨n + 1, hn⟩) (st2_4 ⟨n + 1, hn⟩) (hs2_4 ⟨n + 1, hn⟩) (st2_5 ⟨n + 1, hn⟩) (hs2_5 ⟨n + 1, hn⟩) (st2_6 ⟨n + 1, hn⟩) (hs2_6 ⟨n + 1, hn⟩) (st2_7 ⟨n + 1, hn⟩) (hs2_7 ⟨n + 1, hn⟩) (st2_8 ⟨n + 1, hn⟩) (hs2_8 ⟨n + 1, hn⟩) scM2_0 (Memref.isWhole_whole _) scM2_1 (Memref.isWhole_whole _) (fun h => Nat.succ_ne_zero n ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.2.1 (outsAt2 c n (Nat.lt_of_succ_lt hn)).2.2.2.2, out2_C_7 c (grid2.coords ⟨n + 1, hn⟩) (st2_0 ⟨n + 1, hn⟩) (hs2_0 ⟨n + 1, hn⟩) (st2_1 ⟨n + 1, hn⟩) (hs2_1 ⟨n + 1, hn⟩) (st2_2 ⟨n + 1, hn⟩) (hs2_2 ⟨n + 1, hn⟩) (st2_3 ⟨n + 1, hn⟩) (hs2_3 ⟨n + 1, hn⟩) (st2_4 ⟨n + 1, hn⟩) (hs2_4 ⟨n + 1, hn⟩) (st2_5 ⟨n + 1, hn⟩) (hs2_5 ⟨n + 1, hn⟩) (st2_6 ⟨n + 1, hn⟩) (hs2_6 ⟨n + 1, hn⟩) (st2_7 ⟨n + 1, hn⟩) (hs2_7 ⟨n + 1, hn⟩) (st2_8 ⟨n + 1, hn⟩) (hs2_8 ⟨n + 1, hn⟩) scM2_0 (Memref.isWhole_whole _) scM2_1 (Memref.isWhole_whole _) (fun h => Nat.succ_ne_zero n ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.2.1 (outsAt2 c n (Nat.lt_of_succ_lt hn)).2.2.2.2, out2_C_8 c (grid2.coords ⟨n + 1, hn⟩) (st2_0 ⟨n + 1, hn⟩) (hs2_0 ⟨n + 1, hn⟩) (st2_1 ⟨n + 1, hn⟩) (hs2_1 ⟨n + 1, hn⟩) (st2_2 ⟨n + 1, hn⟩) (hs2_2 ⟨n + 1, hn⟩) (st2_3 ⟨n + 1, hn⟩) (hs2_3 ⟨n + 1, hn⟩) (st2_4 ⟨n + 1, hn⟩) (hs2_4 ⟨n + 1, hn⟩) (st2_5 ⟨n + 1, hn⟩) (hs2_5 ⟨n + 1, hn⟩) (st2_6 ⟨n + 1, hn⟩) (hs2_6 ⟨n + 1, hn⟩) (st2_7 ⟨n + 1, hn⟩) (hs2_7 ⟨n + 1, hn⟩) (st2_8 ⟨n + 1, hn⟩) (hs2_8 ⟨n + 1, hn⟩) scM2_0 (Memref.isWhole_whole _) scM2_1 (Memref.isWhole_whole _) (fun h => Nat.succ_ne_zero n ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.2.1 (outsAt2 c n (Nat.lt_of_succ_lt hn)).2.2.2.2, sout2_C_0 c (grid2.coords ⟨n + 1, hn⟩) (st2_0 ⟨n + 1, hn⟩) (hs2_0 ⟨n + 1, hn⟩) (st2_1 ⟨n + 1, hn⟩) (hs2_1 ⟨n + 1, hn⟩) (st2_2 ⟨n + 1, hn⟩) (hs2_2 ⟨n + 1, hn⟩) (st2_3 ⟨n + 1, hn⟩) (hs2_3 ⟨n + 1, hn⟩) (st2_4 ⟨n + 1, hn⟩) (hs2_4 ⟨n + 1, hn⟩) (st2_5 ⟨n + 1, hn⟩) (hs2_5 ⟨n + 1, hn⟩) (st2_6 ⟨n + 1, hn⟩) (hs2_6 ⟨n + 1, hn⟩) (st2_7 ⟨n + 1, hn⟩) (hs2_7 ⟨n + 1, hn⟩) (st2_8 ⟨n + 1, hn⟩) (hs2_8 ⟨n + 1, hn⟩) scM2_0 (Memref.isWhole_whole _) scM2_1 (Memref.isWhole_whole _) (fun h => Nat.succ_ne_zero n ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.2.1 (outsAt2 c n (Nat.lt_of_succ_lt hn)).2.2.2.2, sout2_C_1 c (grid2.coords ⟨n + 1, hn⟩) (st2_0 ⟨n + 1, hn⟩) (hs2_0 ⟨n + 1, hn⟩) (st2_1 ⟨n + 1, hn⟩) (hs2_1 ⟨n + 1, hn⟩) (st2_2 ⟨n + 1, hn⟩) (hs2_2 ⟨n + 1, hn⟩) (st2_3 ⟨n + 1, hn⟩) (hs2_3 ⟨n + 1, hn⟩) (st2_4 ⟨n + 1, hn⟩) (hs2_4 ⟨n + 1, hn⟩) (st2_5 ⟨n + 1, hn⟩) (hs2_5 ⟨n + 1, hn⟩) (st2_6 ⟨n + 1, hn⟩) (hs2_6 ⟨n + 1, hn⟩) (st2_7 ⟨n + 1, hn⟩) (hs2_7 ⟨n + 1, hn⟩) (st2_8 ⟨n + 1, hn⟩) (hs2_8 ⟨n + 1, hn⟩) scM2_0 (Memref.isWhole_whole _) scM2_1 (Memref.isWhole_whole _) (fun h => Nat.succ_ne_zero n ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.2.1 (outsAt2 c n (Nat.lt_of_succ_lt hn)).2.2.2.2)
    else
      (out2_B_6 c (grid2.coords ⟨n + 1, hn⟩) (st2_0 ⟨n + 1, hn⟩) (hs2_0 ⟨n + 1, hn⟩) (st2_1 ⟨n + 1, hn⟩) (hs2_1 ⟨n + 1, hn⟩) (st2_2 ⟨n + 1, hn⟩) (hs2_2 ⟨n + 1, hn⟩) (st2_3 ⟨n + 1, hn⟩) (hs2_3 ⟨n + 1, hn⟩) (st2_4 ⟨n + 1, hn⟩) (hs2_4 ⟨n + 1, hn⟩) (st2_5 ⟨n + 1, hn⟩) (hs2_5 ⟨n + 1, hn⟩) (st2_6 ⟨n + 1, hn⟩) (hs2_6 ⟨n + 1, hn⟩) (st2_7 ⟨n + 1, hn⟩) (hs2_7 ⟨n + 1, hn⟩) (st2_8 ⟨n + 1, hn⟩) (hs2_8 ⟨n + 1, hn⟩) scM2_0 (Memref.isWhole_whole _) scM2_1 (Memref.isWhole_whole _) (fun h => Nat.succ_ne_zero n ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.2.1 (outsAt2 c n (Nat.lt_of_succ_lt hn)).2.2.2.2, idle2_7, idle2_8, sout2_B_0 c (grid2.coords ⟨n + 1, hn⟩) (st2_0 ⟨n + 1, hn⟩) (hs2_0 ⟨n + 1, hn⟩) (st2_1 ⟨n + 1, hn⟩) (hs2_1 ⟨n + 1, hn⟩) (st2_2 ⟨n + 1, hn⟩) (hs2_2 ⟨n + 1, hn⟩) (st2_3 ⟨n + 1, hn⟩) (hs2_3 ⟨n + 1, hn⟩) (st2_4 ⟨n + 1, hn⟩) (hs2_4 ⟨n + 1, hn⟩) (st2_5 ⟨n + 1, hn⟩) (hs2_5 ⟨n + 1, hn⟩) (st2_6 ⟨n + 1, hn⟩) (hs2_6 ⟨n + 1, hn⟩) (st2_7 ⟨n + 1, hn⟩) (hs2_7 ⟨n + 1, hn⟩) (st2_8 ⟨n + 1, hn⟩) (hs2_8 ⟨n + 1, hn⟩) scM2_0 (Memref.isWhole_whole _) scM2_1 (Memref.isWhole_whole _) (fun h => Nat.succ_ne_zero n ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.2.1 (outsAt2 c n (Nat.lt_of_succ_lt hn)).2.2.2.2, sout2_B_1 c (grid2.coords ⟨n + 1, hn⟩) (st2_0 ⟨n + 1, hn⟩) (hs2_0 ⟨n + 1, hn⟩) (st2_1 ⟨n + 1, hn⟩) (hs2_1 ⟨n + 1, hn⟩) (st2_2 ⟨n + 1, hn⟩) (hs2_2 ⟨n + 1, hn⟩) (st2_3 ⟨n + 1, hn⟩) (hs2_3 ⟨n + 1, hn⟩) (st2_4 ⟨n + 1, hn⟩) (hs2_4 ⟨n + 1, hn⟩) (st2_5 ⟨n + 1, hn⟩) (hs2_5 ⟨n + 1, hn⟩) (st2_6 ⟨n + 1, hn⟩) (hs2_6 ⟨n + 1, hn⟩) (st2_7 ⟨n + 1, hn⟩) (hs2_7 ⟨n + 1, hn⟩) (st2_8 ⟨n + 1, hn⟩) (hs2_8 ⟨n + 1, hn⟩) scM2_0 (Memref.isWhole_whole _) scM2_1 (Memref.isWhole_whole _) (fun h => Nat.succ_ne_zero n ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.2.1 (outsAt2 c n (Nat.lt_of_succ_lt hn)).2.2.2.2)

/-- `outsAt2` at the first point: the first case's contents. -/
theorem outsAt2_first (c : Dev nD) (t : Fin cfg2.N) (h0 : t.val = 0) (h1 : ¬t.val = 4) :
    outsAt2 V c t.val t.isLt = (out2_A_6 c (grid2.coords t) (st2_0 t) (hs2_0 t) (st2_1 t) (hs2_1 t) (st2_2 t) (hs2_2 t) (st2_3 t) (hs2_3 t) (st2_4 t) (hs2_4 t) (st2_5 t) (hs2_5 t) (st2_6 t) (hs2_6 t) (st2_7 t) (hs2_7 t) (st2_8 t) (hs2_8 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t), idle2_7, idle2_8, sout2_A_0 c (grid2.coords t) (st2_0 t) (hs2_0 t) (st2_1 t) (hs2_1 t) (st2_2 t) (hs2_2 t) (st2_3 t) (hs2_3 t) (st2_4 t) (hs2_4 t) (st2_5 t) (hs2_5 t) (st2_6 t) (hs2_6 t) (st2_7 t) (hs2_7 t) (st2_8 t) (hs2_8 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t), sout2_A_1 c (grid2.coords t) (st2_0 t) (hs2_0 t) (st2_1 t) (hs2_1 t) (st2_2 t) (hs2_2 t) (st2_3 t) (hs2_3 t) (st2_4 t) (hs2_4 t) (st2_5 t) (hs2_5 t) (st2_6 t) (hs2_6 t) (st2_7 t) (hs2_7 t) (st2_8 t) (hs2_8 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t)) := by
  obtain ⟨n, hn⟩ := t
  cases n with
  | zero => exact rfl
  | succ n => exact absurd h0 (Nat.succ_ne_zero n)

/-- `outsAt2` at a middle point: the middle case's contents, over what the point before left in the accumulators. -/
theorem outsAt2_middle (c : Dev nD) (t : Fin cfg2.N) (h0 : ¬t.val = 0) (h1 : ¬t.val = 4) :
    outsAt2 V c t.val t.isLt = (out2_B_6 c (grid2.coords t) (st2_0 t) (hs2_0 t) (st2_1 t) (hs2_1 t) (st2_2 t) (hs2_2 t) (st2_3 t) (hs2_3 t) (st2_4 t) (hs2_4 t) (st2_5 t) (hs2_5 t) (st2_6 t) (hs2_6 t) (st2_7 t) (hs2_7 t) (st2_8 t) (hs2_8 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, idle2_7, idle2_8, sout2_B_0 c (grid2.coords t) (st2_0 t) (hs2_0 t) (st2_1 t) (hs2_1 t) (st2_2 t) (hs2_2 t) (st2_3 t) (hs2_3 t) (st2_4 t) (hs2_4 t) (st2_5 t) (hs2_5 t) (st2_6 t) (hs2_6 t) (st2_7 t) (hs2_7 t) (st2_8 t) (hs2_8 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, sout2_B_1 c (grid2.coords t) (st2_0 t) (hs2_0 t) (st2_1 t) (hs2_1 t) (st2_2 t) (hs2_2 t) (st2_3 t) (hs2_3 t) (st2_4 t) (hs2_4 t) (st2_5 t) (hs2_5 t) (st2_6 t) (hs2_6 t) (st2_7 t) (hs2_7 t) (st2_8 t) (hs2_8 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2) := by
  obtain ⟨n, hn⟩ := t
  cases n with
  | zero => exact absurd rfl h0
  | succ n => exact (dif_neg h1).trans rfl

/-- `outsAt2` at the last point: the last case's contents, over what the point before left in the accumulators. -/
theorem outsAt2_last (c : Dev nD) (t : Fin cfg2.N) (h0 : ¬t.val = 0) (h1 : t.val = 4) :
    outsAt2 V c t.val t.isLt = (out2_C_6 c (grid2.coords t) (st2_0 t) (hs2_0 t) (st2_1 t) (hs2_1 t) (st2_2 t) (hs2_2 t) (st2_3 t) (hs2_3 t) (st2_4 t) (hs2_4 t) (st2_5 t) (hs2_5 t) (st2_6 t) (hs2_6 t) (st2_7 t) (hs2_7 t) (st2_8 t) (hs2_8 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, out2_C_7 c (grid2.coords t) (st2_0 t) (hs2_0 t) (st2_1 t) (hs2_1 t) (st2_2 t) (hs2_2 t) (st2_3 t) (hs2_3 t) (st2_4 t) (hs2_4 t) (st2_5 t) (hs2_5 t) (st2_6 t) (hs2_6 t) (st2_7 t) (hs2_7 t) (st2_8 t) (hs2_8 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, out2_C_8 c (grid2.coords t) (st2_0 t) (hs2_0 t) (st2_1 t) (hs2_1 t) (st2_2 t) (hs2_2 t) (st2_3 t) (hs2_3 t) (st2_4 t) (hs2_4 t) (st2_5 t) (hs2_5 t) (st2_6 t) (hs2_6 t) (st2_7 t) (hs2_7 t) (st2_8 t) (hs2_8 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, sout2_C_0 c (grid2.coords t) (st2_0 t) (hs2_0 t) (st2_1 t) (hs2_1 t) (st2_2 t) (hs2_2 t) (st2_3 t) (hs2_3 t) (st2_4 t) (hs2_4 t) (st2_5 t) (hs2_5 t) (st2_6 t) (hs2_6 t) (st2_7 t) (hs2_7 t) (st2_8 t) (hs2_8 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, sout2_C_1 c (grid2.coords t) (st2_0 t) (hs2_0 t) (st2_1 t) (hs2_1 t) (st2_2 t) (hs2_2 t) (st2_3 t) (hs2_3 t) (st2_4 t) (hs2_4 t) (st2_5 t) (hs2_5 t) (st2_6 t) (hs2_6 t) (st2_7 t) (hs2_7 t) (st2_8 t) (hs2_8 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2) := by
  obtain ⟨n, hn⟩ := t
  cases n with
  | zero => exact absurd rfl h0
  | succ n => exact (dif_pos h1).trans rfl

/-! ## The region invariant: the accumulators carried between points -/

/-- Before position `n`: before the first point the class's invariant (every scoped buffer at anything); afterwards the
    two accumulators at what the point before left in them, the rest of the scoped buffers unopened, the generator
    register at some state. -/
def PhiS2 (c : Dev nD) : (n : ℕ) → n ≤ cfg2.N → sProp 𝕄
  | 0, _ => Pipeline.ΦA spec2 c
  | n + 1, hn => iprop(iprop(iprop(owns (c : Thread nD τ) scM2_0 fullShare ((outsAt2 V c n hn).2.2.2.1) ∗ owns (c : Thread nD τ) scM2_1 fullShare ((outsAt2 V c n hn).2.2.2.2))
      ∗ Pipeline.scopedRestBut (Ix := Unit) (Name := ℕ) (U := UR sig nD τ) (Lvl := ℕ) (Val := Elt F) spec2 c [cc2_scratch0, cc2_scratch1]) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(iprop(owns (c : Thread nD τ) scM2_0 fullShare ((outsAt2 V c n hn).2.2.2.1) ∗ owns (c : Thread nD τ) scM2_1 fullShare ((outsAt2 V c n hn).2.2.2.2))
      ∗ Pipeline.scopedRestBut (Ix := Unit) (Name := ℕ) (U := UR sig nD τ) (Lvl := ℕ) (Val := Elt F) spec2 c [cc2_scratch0, cc2_scratch1]) ∗ (∃ r, prngReg c r)) := rfl

theorem PhiS2_pos (c : Dev nD) (n : ℕ) (h : n ≤ cfg2.N) (hz : n ≠ 0) :
    PhiS2 V c n h = iprop(iprop(iprop(owns (c : Thread nD τ) scM2_0 fullShare ((outsAt2 V c (n - 1) (by omega)).2.2.2.1) ∗ owns (c : Thread nD τ) scM2_1 fullShare ((outsAt2 V c (n - 1) (by omega)).2.2.2.2))
      ∗ Pipeline.scopedRestBut (Ix := Unit) (Name := ℕ) (U := UR sig nD τ) (Lvl := ℕ) (Val := Elt F) spec2 c [cc2_scratch0, cc2_scratch1]) ∗ (∃ r, prngReg c r)) := by
  cases n with
  | zero => exact absurd rfl hz
  | succ n => rfl

/-! ## The pipeline's proof data -/

/-- The proof data of pipeline 2 on core `c`: the arrays as the region finds them; after the body at point `t` each
    input's buffer at its block and each output's at `outsAt2`'s component; the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => (outsAt2 V c t.val t.isLt).1
    | ⟨7, _⟩ => (outsAt2 V c t.val t.isLt).2.1
    | ⟨8, _⟩ => (outsAt2 V c t.val t.isLt).2.2.1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = (outsAt2 V c t.val t.isLt).1 := by dsimp only [dat2]
theorem after2_7 (c : Dev nD) (t : Fin cfg2.N) : (dat2 V c).after 7 t = (outsAt2 V c t.val t.isLt).2.1 := by dsimp only [dat2]
theorem after2_8 (c : Dev nD) (t : Fin cfg2.N) : (dat2 V c).after 8 t = (outsAt2 V c t.val t.isLt).2.2.1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t
    ∗ (dat2 V c).leavesExact 8 t)

set_option maxHeartbeats 8000000 in
/-- The body at any point: the inputs' memrefs hold their blocks; the point is the first, a middle or the last one, and
    that case's run applies; the invariant hands the body the two accumulators at what the point before left (at anything
    at the first point) and takes them back at this point's contents; the rest of the scoped buffers, the generator
    register and the core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (st2_0 t) fullShare ((dat2 V c).after 0 t) from by
    unfold Dat.leavesExact; rw [liveAt2_0 t], after2_0]
  rw [show (dat2 V c).leavesExact 1 t = owns (c : Thread nD τ) (st2_1 t) fullShare ((dat2 V c).after 1 t) from by
    unfold Dat.leavesExact; rw [liveAt2_1 t], after2_1]
  rw [show (dat2 V c).leavesExact 2 t = owns (c : Thread nD τ) (st2_2 t) fullShare ((dat2 V c).after 2 t) from by
    unfold Dat.leavesExact; rw [liveAt2_2 t], after2_2]
  rw [show (dat2 V c).leavesExact 3 t = owns (c : Thread nD τ) (st2_3 t) fullShare ((dat2 V c).after 3 t) from by
    unfold Dat.leavesExact; rw [liveAt2_3 t], after2_3]
  rw [show (dat2 V c).leavesExact 4 t = owns (c : Thread nD τ) (st2_4 t) fullShare ((dat2 V c).after 4 t) from by
    unfold Dat.leavesExact; rw [liveAt2_4 t], after2_4]
  rw [show (dat2 V c).leavesExact 5 t = owns (c : Thread nD τ) (st2_5 t) fullShare ((dat2 V c).after 5 t) from by
    unfold Dat.leavesExact; rw [liveAt2_5 t], after2_5]
  rw [show (dat2 V c).leavesExact 6 t = owns (c : Thread nD τ) (st2_6 t) fullShare ((dat2 V c).after 6 t) from by
    unfold Dat.leavesExact; rw [liveAt2_6 t], after2_6]
  have hN : t.val < 5 := lt_of_lt_of_eq t.isLt (show cfg2.N = 5 from N_2)
  by_cases h0 : t.val = 0
  · have h1 : ¬t.val = 4 := by omega
    rw [Dat.leavesExact_idle (dat2 V c) 7 t (idleAt2_7 t (fun h => h1 ((hcond2_1 t).mp h))) (noFlush2_7 t (fun h => h1 ((hcond2_1 t).mp h)))]
    rw [Dat.leavesExact_idle (dat2 V c) 8 t (idleAt2_8 t (fun h => h1 ((hcond2_1 t).mp h))) (noFlush2_8 t (fun h => h1 ((hcond2_1 t).mp h)))]
    rw [outsAt2_first V c t h0 h1]
    unfold out2_A_6 sout2_A_0 sout2_A_1; (try dsimp only)
    rw [PhiS2_castSucc V c t, PhiS2_zero V c _ _ h0, PhiA2_eq]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun2_A c (grid2.coords t) _ _ _ _ _ _ _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t) (iblk2 V c 5 t)).2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    isplitl [HS0]; · iexact HS0
    isplitl [HS1]; · iexact HS1
    iintro ⟨H0, H1, H2, H3, H4, H5, ⟨%e6, H6⟩, H7, H8, ⟨%es0, HS0⟩, ⟨%es1, HS1⟩⟩
    isplitl [HS0 HS1 HR Hg]
    · isplitl [HS0 HS1 HR]
      · isplitl [HS0 HS1]
        · isplitl [HS0]
          · unfold owns; iexists _; isplitr
            swap; · iexact HS0
            ipureintro; exact View.read_writes_of_cover _ _ _ _ _ (scover2_A_0 c _ _ _ _ _ _ _ _ _ _ _ _ _ _ _ _ _ _ _ _ _ _ _ _ _ _ _ _ _ _ _)
          · unfold owns; iexists _; isplitr
            swap; · iexact HS1
            ipureintro; exact View.read_writes_of_cover _ _ _ _ _ (scover2_A_1 c _ _ _ _ _ _ _ _ _ _ _ _ _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover2_A_6 c _ _ _ _ _ _ _ _ _ _ _ _ _ _ _ _ _ _ _ _ _ _ _ _ _ _ _ _ _ _ _)
    isplitl [H7]; · iexists _; iexact H7
    iexists _; iexact H8
  · by_cases h1 : t.val = 4
    · rw [show (dat2 V c).leavesExact 7 t = owns (c : Thread nD τ) (st2_7 t) fullShare ((dat2 V c).after 7 t) from by
        unfold Dat.leavesExact; rw [liveAt2_7 t ((hcond2_1 t).mpr h1)], after2_7]
      rw [show (dat2 V c).leavesExact 8 t = owns (c : Thread nD τ) (st2_8 t) fullShare ((dat2 V c).after 8 t) from by
        unfold Dat.leavesExact; rw [liveAt2_8 t ((hcond2_1 t).mpr h1)], after2_8]
      rw [outsAt2_last V c t h0 h1]
      unfold out2_C_6 out2_C_7 out2_C_8 sout2_C_0 sout2_C_1; (try dsimp only)
      rw [PhiS2_castSucc V c t, PhiS2_pos V c _ _ h0]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun2_C c (grid2.coords t) _ _ _ _ _ _ _ _ _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) (iblk2 V c 5 t) _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS0]; · iexact HS0
      isplitl [HS1]; · iexact HS1
      iintro ⟨H0, H1, H2, H3, H4, H5, ⟨%e6, H6⟩, ⟨%e7, H7⟩, ⟨%e8, H8⟩, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover2_C_0 c _ _ _ _ _ _ _ _ _ _ _ _ _ _ _ _ _ _ _ _ _ _ _ _ _ _ _ _ _ _ _ _ _)
            · unfold owns; iexists _; isplitr
              swap; · iexact HS1
              ipureintro; exact View.read_writes_of_cover _ _ _ _ _ (scover2_C_1 c _ _ _ _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover2_C_6 c _ _ _ _ _ _ _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover2_C_7 c _ _ _ _ _ _ _ _ _ _ _ _ _ _ _ _ _ _ _ _ _ _ _ _ _ _ _ _ _ _ _ _ _)
      unfold owns; iexists _; isplitr
      swap; · iexact H8
      ipureintro; exact View.read_writes_of_cover _ _ _ _ _ (cover2_C_8 c _ _ _ _ _ _ _ _ _ _ _ _ _ _ _ _ _ _ _ _ _ _ _ _ _ _ _ _ _ _ _ _ _)
    · rw [Dat.leavesExact_idle (dat2 V c) 7 t (idleAt2_7 t (fun h => h1 ((hcond2_1 t).mp h))) (noFlush2_7 t (fun h => h1 ((hcond2_1 t).mp h)))]
      rw [Dat.leavesExact_idle (dat2 V c) 8 t (idleAt2_8 t (fun h => h1 ((hcond2_1 t).mp h))) (noFlush2_8 t (fun h => h1 ((hcond2_1 t).mp h)))]
      rw [outsAt2_middle V c t h0 h1]
      unfold out2_B_6 sout2_B_0 sout2_B_1; (try dsimp only)
      rw [PhiS2_castSucc V c t, PhiS2_pos V c _ _ h0]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun2_B c (grid2.coords t) _ _ _ _ _ _ _ _ _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) _ _).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexact H8
      isplitl [HS0]; · iexact HS0
      isplitl [HS1]; · iexact HS1
      iintro ⟨H0, H1, H2, H3, H4, H5, ⟨%e6, H6⟩, H7, H8, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover2_B_0 c _ _ _ _ _ _ _ _ _ _ _ _ _ _ _ _ _ _ _ _ _ _ _ _ _ _ _ _ _ _ _ _ _)
            · unfold owns; iexists _; isplitr
              swap; · iexact HS1
              ipureintro; exact View.read_writes_of_cover _ _ _ _ _ (scover2_B_1 c _ _ _ _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover2_B_6 c _ _ _ _ _ _ _ _ _ _ _ _ _ _ _ _ _ _ _ _ _ _ _ _ _ _ _ _ _ _ _ _ _)
      isplitl [H7]; · iexists _; iexact H7
      iexists _; iexact H8

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the class's back: the accumulators' named contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

/-- The same after the last point. -/
theorem hout2 (c : Dev nD) : (dat2 V c).Φ (Fin.last cfg2.N) ⊢ Pipeline.ΦA spec2 c :=
  Phi_out2 V c _ (by rw [Fin.val_last]; have : cfg2.N = 5 := N_2; omega)

end Region2

end Cert.Kernel.Hand

end
-- ==== Proof.KReg3.lean ====
/- Region 3 of @main (custom_call 3, `cc3__bn_proj_kernel`): the windows' blocks, what the body leaves in the
   output window's buffer, the body's triple, the pipeline's proof data and the body obligation, all at a
   parameter `V`: the TensorCore's buffer contents when the region is entered. -/
import proofs.«111056_j31628139167864_2_alg».proof.Proof.Gen.Kernel.Launch
import proofs.«111056_j31628139167864_2_alg».proof.Proof.Gen.Kernel.Skeleton
import proofs.«111056_j31628139167864_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not (an unfetched
    window's block index has not moved), for any proof data whose array is `V`'s and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, fetched there or not (an unfetched
    window's block index has not moved), for any proof data whose array is `V`'s and whose body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current staging buffer holds its block at every point, fetched there or not (an unfetched
    window's block index has not moved), for any proof data whose array is `V`'s and whose body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3's current staging buffer holds its block at every point, fetched there or not (an unfetched
    window's block index has not moved), for any proof data whose array is `V`'s and whose body leaves the block in place. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- Input window 4's current staging buffer holds its block at every point, fetched there or not (an unfetched
    window's block index has not moved), for any proof data whose array is `V`'s and whose body leaves the block in place. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
/-- Input window 5's current staging buffer holds its block at every point, fetched there or not (an unfetched
    window's block index has not moved), for any proof data whose array is `V`'s and whose body leaves the block in place. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)
/-- Input window 6's current staging buffer holds its block at every point, fetched there or not (an unfetched
    window's block index has not moved), for any proof data whose array is `V`'s and whose body leaves the block in place. -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

abbrev r3_0 : Rect S10000x64 := Rect.unit (s := S10000x64) ![0, 0] S10000x64.size inb_S10000x64_S10000x64_0_0

/-! ## What the body leaves in the output window's buffer -/

/-- Window 7's staging buffer after the body, from the input windows' blocks: its one store, of the whole block. -/
def out3_7 (x0 : Vec F S10000x96 .f32) (x1 : Vec F S1x96 .f32) (x2 : Vec F S1x96 .f32) (x3 : Vec F S1x96 .f32) (x4 : Vec F S1x96 .f32) (x5 : Vec F S96x64 .bf16) (x6 : Vec F S1x64 .f32) : Vec F S10000x64 .f32 :=
  View.canon [⟨r3_0, k3_pay1 (View.ld x0 (Rect.unit (s := S10000x96) ![0, 0] S10000x96.size inb_S10000x96_S10000x96_0_0)) (View.ld x1 (Rect.unit (s := S1x96) ![0, 0] S1x96.size inb_S1x96_S1x96_0_0)) (View.ld x2 (Rect.unit (s := S1x96) ![0, 0] S1x96.size inb_S1x96_S1x96_0_0)) (View.ld x3 (Rect.unit (s := S1x96) ![0, 0] S1x96.size inb_S1x96_S1x96_0_0)) (View.ld x4 (Rect.unit (s := S1x96) ![0, 0] S1x96.size inb_S1x96_S1x96_0_0)) (View.ld x5 (Rect.unit (s := S96x64) ![0, 0] S96x64.size inb_S96x64_S96x64_0_0)) (View.ld x6 (Rect.unit (s := S1x64) ![0, 0] S1x64.size inb_S1x64_S1x64_0_0))⟩]

/-- The store tiles the buffer, so it covers it. -/
theorem cover3_7 (p0 : Vec F S10000x64 .f32) (y : S10000x64.Idx) :
    ∃ pc ∈ ([⟨r3_0, p0⟩] : List (View.Piece (Elt F) S10000x64 .f32)), y ∈ pc.1.set :=
  View.cover_of_tiled [⟨r3_0, p0⟩] S10000x64.size (by rfl) y

/-! ## The body's triple -/

set_option maxHeartbeats 1000000 in
/-- The kernel body on whole staging memrefs, the inputs' at read contents `xW` and the output's at anything, runs to
    the continuation holding the inputs' as they were and the output's at `out3_7` of the inputs'. -/
theorem sound_kernel3 (c : Dev nD) (E : Set ℕ) (i : grid3.Coords) (arg1 : Memref sig .tc .vmem S10000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S96x64 .bf16) (harg6 : arg6.IsWhole) (arg7 : Memref sig .tc .vmem S1x64 .f32) (harg7 : arg7.IsWhole) (arg8 : Memref sig .tc .vmem S10000x64 .f32) (harg8 : arg8.IsWhole)
    (x0 : Vec F S10000x96 .f32) (x1 : Vec F S1x96 .f32) (x2 : Vec F S1x96 .f32) (x3 : Vec F S1x96 .f32) (x4 : Vec F S1x96 .f32) (x5 : Vec F S96x64 .bf16) (x6 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out3_7 x0 x1 x2 x3 x4 x5 x6)) -∗ K ⟨⟩))
      ⊢ wp frame (wpE (defs₀ (F := F)) Variants.none c none) E (cc3__bn_proj_kernel i arg1 harg1 arg2 harg2 arg3 harg3 arg4 harg4 arg5 harg5 arg6 harg6 arg7 harg7 arg8 harg8) K := by
  simp only [cc3__bn_proj_kernel_eq_skeleton]; unfold cc3__bn_proj_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover3_7 _)

/-! ## The pipeline's proof data -/

/-- The proof data of pipeline 3 on core `c`: the arrays as the region finds them (`V`); after the body at
    point `t` each input's buffer at its block and the output's at `out3_7` of the input blocks; the invariant the
    scoped rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => out3_7 (iblk3 V c 0 t) (iblk3 V c 1 t) (iblk3 V c 2 t) (iblk3 V c 3 t) (iblk3 V c 4 t) (iblk3 V c 5 t) (iblk3 V c 6 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- The invariant is the same at every point. -/
theorem Phi3 (c : Dev nD) (t) : (dat3 V c).Φ t = Pipeline.ΦA spec3 c := rfl

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = out3_7 (iblk3 V c 0 t) (iblk3 V c 1 t) (iblk3 V c 2 t) (iblk3 V c 3 t) (iblk3 V c 4 t) (iblk3 V c 5 t) (iblk3 V c 6 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t))

/-- The body at any point: the inputs' memrefs hold their blocks, so `sound_kernel3` applies; the invariant and
    the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel3 c Set.univ (grid3.coords t) _ _ _ _ _ _ _ _ _ _ _ _ _ _ _ _ (iblk3 V c 0 t) (iblk3 V c 1 t) (iblk3 V c 2 t) (iblk3 V c 3 t) (iblk3 V c 4 t) (iblk3 V c 5 t) (iblk3 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation3 (c : Dev nD) : BodyObligation (dat3 (F := F) V c) (defs₀ (F := F)) Variants.none () Set.univ := fun t => by
  rw [bigSep_W3, bigSep_W3]
  exact sound_body3 V c t

end Region3

end Cert.Kernel.Hand

end
-- ==== Proof.KFrames.lean ====
/- @main as its items: the buffers' contents at each boundary as a fold from the launch memory, each of the four
   regions entered and left at those contents, the run, and the frame: the seventeen argument arrays end as launched. -/
import proofs.«111056_j31628139167864_2_alg».proof.Proof.KReg0
import proofs.«111056_j31628139167864_2_alg».proof.Proof.KReg1
import proofs.«111056_j31628139167864_2_alg».proof.Proof.KReg2
import proofs.«111056_j31628139167864_2_alg».proof.Proof.KReg3
import proofs.«111056_j31628139167864_2_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The buffers' contents at each boundary between @main's items: a fold from the launch memory.
    A host stretch applies its operations; a region leaves each of its windows' arrays at what the
    write-backs of its grid points leave and every other buffer as it found it. -/

abbrev W0 : Dev nD → Valuation τ sig (Elt F) := fun c b => m ((c : Dev nD), b)
abbrev W1 : Dev nD → Valuation τ sig (Elt F) := fun c => StableHlo.after hostOps0 (W0 m c)
abbrev V1 : (c : Dev nD) → (b : Ref sig .tc) → Buf (Elt F) ((c : Thread nD τ).loc b) := fun c b => W1 m c b
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
theorem W1_of (c : Dev nD) (r : Ref sig .tc) (h : r ∉ hostOps0_W) : W1 m c r = W0 m c r :=
  StableHlo.after_of_writes_sub hostOps0 _ hostOps0_writes h
abbrev W3 : Dev nD → Valuation τ sig (Elt F) := fun c => StableHlo.after hostOps1 (W2 m c)
abbrev V3 : (c : Dev nD) → (b : Ref sig .tc) → Buf (Elt F) ((c : Thread nD τ).loc b) := fun c b => W3 m c b
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)
theorem W3_of (c : Dev nD) (r : Ref sig .tc) (h : r ∉ hostOps1_W) : W3 m c r = W2 m c r :=
  StableHlo.after_of_writes_sub hostOps1 _ hostOps1_writes h
abbrev W5 : Dev nD → Valuation τ sig (Elt F) := fun c => StableHlo.after hostOps2 (W4 m c)
abbrev V5 : (c : Dev nD) → (b : Ref sig .tc) → Buf (Elt F) ((c : Thread nD τ).loc b) := fun c b => W5 m c b
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev V6 : (c : Dev nD) → (b : Ref sig .tc) → Buf (Elt F) ((c : Thread nD τ).loc b) := fun c b => W6 m c b
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)
theorem W5_of (c : Dev nD) (r : Ref sig .tc) (h : r ∉ hostOps2_W) : W5 m c r = W4 m c r :=
  StableHlo.after_of_writes_sub hostOps2 _ hostOps2_writes h
abbrev W7 : Dev nD → Valuation τ sig (Elt F) := fun c => StableHlo.after hostOps3 (W6 m c)
abbrev V7 : (c : Dev nD) → (b : Ref sig .tc) → Buf (Elt F) ((c : Thread nD τ).loc b) := fun c b => W7 m c b
def W8 (c : Dev nD) : Valuation τ sig (Elt F) :=
  Pipeline.withArrays spec3 c (W7 m c) fun w => (dat3 (V7 m) c).arrAt w cfg3.N
theorem W8_arr (c : Dev nD) (w : Fin cfg3.W) :
    W8 m c (Proc.devRef .tc (Pipeline.arrRef spec3 w)) = (dat3 (V7 m) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb
abbrev V8 : (c : Dev nD) → (b : Ref sig .tc) → Buf (Elt F) ((c : Thread nD τ).loc b) := fun c b => W8 m c b
theorem hF3 (c : Dev nD) (w : Fin cfg3.W) : (dat3 (V7 m) c).arrAt w cfg3.N = V8 m c (Pipeline.arrRef spec3 w) :=
  (W8_arr m c w).symm
theorem hrest3 (c : Dev nD) : ∀ b, b ∉ Finset.univ.image (Pipeline.arrRef spec3) → V8 m c b = V7 m c b :=
  fun b hb => W8_of_ne m c b fun w e => hb (Finset.mem_image.mpr ⟨w, Finset.mem_univ _, e⟩)
theorem W7_of (c : Dev nD) (r : Ref sig .tc) (h : r ∉ hostOps3_W) : W7 m c r = W6 m c r :=
  StableHlo.after_of_writes_sub hostOps3 _ hostOps3_writes h

/-! ## No item changes an argument array -/

theorem W2_main_arg0 (c : Dev nD) : W2 m c (Proc.devRef .tc main_arg0) = W1 m c (Proc.devRef .tc main_arg0) :=
  (W2_arr m c 0).trans (((dat0 (V1 m) c).arrAt_in 0 rfl _).trans (A_eq0 (V1 m) c 0))
theorem W8_main_arg0 (c : Dev nD) : W8 m c (Proc.devRef .tc main_arg0) = m ((c : Thread nD τ).loc main_arg0) :=
  (W8_of_ne m c main_arg0 (by decide)).trans <| (W7_of m c main_arg0 (by decide)).trans <| (W6_of_ne m c main_arg0 (by decide)).trans <| (W5_of m c main_arg0 (by decide)).trans <| (W4_of_ne m c main_arg0 (by decide)).trans <| (W3_of m c main_arg0 (by decide)).trans <| (W2_main_arg0 m c).trans <| (W1_of m c main_arg0 (by decide)).trans rfl
theorem W8_main_arg1 (c : Dev nD) : W8 m c (Proc.devRef .tc main_arg1) = m ((c : Thread nD τ).loc main_arg1) :=
  (W8_of_ne m c main_arg1 (by decide)).trans <| (W7_of m c main_arg1 (by decide)).trans <| (W6_of_ne m c main_arg1 (by decide)).trans <| (W5_of m c main_arg1 (by decide)).trans <| (W4_of_ne m c main_arg1 (by decide)).trans <| (W3_of m c main_arg1 (by decide)).trans <| (W2_of_ne m c main_arg1 (by decide)).trans <| (W1_of m c main_arg1 (by decide)).trans rfl
theorem W8_main_arg2 (c : Dev nD) : W8 m c (Proc.devRef .tc main_arg2) = m ((c : Thread nD τ).loc main_arg2) :=
  (W8_of_ne m c main_arg2 (by decide)).trans <| (W7_of m c main_arg2 (by decide)).trans <| (W6_of_ne m c main_arg2 (by decide)).trans <| (W5_of m c main_arg2 (by decide)).trans <| (W4_of_ne m c main_arg2 (by decide)).trans <| (W3_of m c main_arg2 (by decide)).trans <| (W2_of_ne m c main_arg2 (by decide)).trans <| (W1_of m c main_arg2 (by decide)).trans rfl
theorem W8_main_arg3 (c : Dev nD) : W8 m c (Proc.devRef .tc main_arg3) = m ((c : Thread nD τ).loc main_arg3) :=
  (W8_of_ne m c main_arg3 (by decide)).trans <| (W7_of m c main_arg3 (by decide)).trans <| (W6_of_ne m c main_arg3 (by decide)).trans <| (W5_of m c main_arg3 (by decide)).trans <| (W4_of_ne m c main_arg3 (by decide)).trans <| (W3_of m c main_arg3 (by decide)).trans <| (W2_of_ne m c main_arg3 (by decide)).trans <| (W1_of m c main_arg3 (by decide)).trans rfl
theorem W8_main_arg4 (c : Dev nD) : W8 m c (Proc.devRef .tc main_arg4) = m ((c : Thread nD τ).loc main_arg4) :=
  (W8_of_ne m c main_arg4 (by decide)).trans <| (W7_of m c main_arg4 (by decide)).trans <| (W6_of_ne m c main_arg4 (by decide)).trans <| (W5_of m c main_arg4 (by decide)).trans <| (W4_of_ne m c main_arg4 (by decide)).trans <| (W3_of m c main_arg4 (by decide)).trans <| (W2_of_ne m c main_arg4 (by decide)).trans <| (W1_of m c main_arg4 (by decide)).trans rfl
theorem W8_main_arg5 (c : Dev nD) : W8 m c (Proc.devRef .tc main_arg5) = m ((c : Thread nD τ).loc main_arg5) :=
  (W8_of_ne m c main_arg5 (by decide)).trans <| (W7_of m c main_arg5 (by decide)).trans <| (W6_of_ne m c main_arg5 (by decide)).trans <| (W5_of m c main_arg5 (by decide)).trans <| (W4_of_ne m c main_arg5 (by decide)).trans <| (W3_of m c main_arg5 (by decide)).trans <| (W2_of_ne m c main_arg5 (by decide)).trans <| (W1_of m c main_arg5 (by decide)).trans rfl
theorem W8_main_arg6 (c : Dev nD) : W8 m c (Proc.devRef .tc main_arg6) = m ((c : Thread nD τ).loc main_arg6) :=
  (W8_of_ne m c main_arg6 (by decide)).trans <| (W7_of m c main_arg6 (by decide)).trans <| (W6_of_ne m c main_arg6 (by decide)).trans <| (W5_of m c main_arg6 (by decide)).trans <| (W4_of_ne m c main_arg6 (by decide)).trans <| (W3_of m c main_arg6 (by decide)).trans <| (W2_of_ne m c main_arg6 (by decide)).trans <| (W1_of m c main_arg6 (by decide)).trans rfl
theorem W8_main_arg7 (c : Dev nD) : W8 m c (Proc.devRef .tc main_arg7) = m ((c : Thread nD τ).loc main_arg7) :=
  (W8_of_ne m c main_arg7 (by decide)).trans <| (W7_of m c main_arg7 (by decide)).trans <| (W6_of_ne m c main_arg7 (by decide)).trans <| (W5_of m c main_arg7 (by decide)).trans <| (W4_of_ne m c main_arg7 (by decide)).trans <| (W3_of m c main_arg7 (by decide)).trans <| (W2_of_ne m c main_arg7 (by decide)).trans <| (W1_of m c main_arg7 (by decide)).trans rfl
theorem W8_main_arg8 (c : Dev nD) : W8 m c (Proc.devRef .tc main_arg8) = m ((c : Thread nD τ).loc main_arg8) :=
  (W8_of_ne m c main_arg8 (by decide)).trans <| (W7_of m c main_arg8 (by decide)).trans <| (W6_of_ne m c main_arg8 (by decide)).trans <| (W5_of m c main_arg8 (by decide)).trans <| (W4_of_ne m c main_arg8 (by decide)).trans <| (W3_of m c main_arg8 (by decide)).trans <| (W2_of_ne m c main_arg8 (by decide)).trans <| (W1_of m c main_arg8 (by decide)).trans rfl
theorem W8_main_arg9 (c : Dev nD) : W8 m c (Proc.devRef .tc main_arg9) = m ((c : Thread nD τ).loc main_arg9) :=
  (W8_of_ne m c main_arg9 (by decide)).trans <| (W7_of m c main_arg9 (by decide)).trans <| (W6_of_ne m c main_arg9 (by decide)).trans <| (W5_of m c main_arg9 (by decide)).trans <| (W4_of_ne m c main_arg9 (by decide)).trans <| (W3_of m c main_arg9 (by decide)).trans <| (W2_of_ne m c main_arg9 (by decide)).trans <| (W1_of m c main_arg9 (by decide)).trans rfl
theorem W8_main_arg10 (c : Dev nD) : W8 m c (Proc.devRef .tc main_arg10) = m ((c : Thread nD τ).loc main_arg10) :=
  (W8_of_ne m c main_arg10 (by decide)).trans <| (W7_of m c main_arg10 (by decide)).trans <| (W6_of_ne m c main_arg10 (by decide)).trans <| (W5_of m c main_arg10 (by decide)).trans <| (W4_of_ne m c main_arg10 (by decide)).trans <| (W3_of m c main_arg10 (by decide)).trans <| (W2_of_ne m c main_arg10 (by decide)).trans <| (W1_of m c main_arg10 (by decide)).trans rfl
theorem W8_main_arg11 (c : Dev nD) : W8 m c (Proc.devRef .tc main_arg11) = m ((c : Thread nD τ).loc main_arg11) :=
  (W8_of_ne m c main_arg11 (by decide)).trans <| (W7_of m c main_arg11 (by decide)).trans <| (W6_of_ne m c main_arg11 (by decide)).trans <| (W5_of m c main_arg11 (by decide)).trans <| (W4_of_ne m c main_arg11 (by decide)).trans <| (W3_of m c main_arg11 (by decide)).trans <| (W2_of_ne m c main_arg11 (by decide)).trans <| (W1_of m c main_arg11 (by decide)).trans rfl
theorem W8_main_arg12 (c : Dev nD) : W8 m c (Proc.devRef .tc main_arg12) = m ((c : Thread nD τ).loc main_arg12) :=
  (W8_of_ne m c main_arg12 (by decide)).trans <| (W7_of m c main_arg12 (by decide)).trans <| (W6_of_ne m c main_arg12 (by decide)).trans <| (W5_of m c main_arg12 (by decide)).trans <| (W4_of_ne m c main_arg12 (by decide)).trans <| (W3_of m c main_arg12 (by decide)).trans <| (W2_of_ne m c main_arg12 (by decide)).trans <| (W1_of m c main_arg12 (by decide)).trans rfl
theorem W8_main_arg13 (c : Dev nD) : W8 m c (Proc.devRef .tc main_arg13) = m ((c : Thread nD τ).loc main_arg13) :=
  (W8_of_ne m c main_arg13 (by decide)).trans <| (W7_of m c main_arg13 (by decide)).trans <| (W6_of_ne m c main_arg13 (by decide)).trans <| (W5_of m c main_arg13 (by decide)).trans <| (W4_of_ne m c main_arg13 (by decide)).trans <| (W3_of m c main_arg13 (by decide)).trans <| (W2_of_ne m c main_arg13 (by decide)).trans <| (W1_of m c main_arg13 (by decide)).trans rfl
theorem W8_main_arg14 (c : Dev nD) : W8 m c (Proc.devRef .tc main_arg14) = m ((c : Thread nD τ).loc main_arg14) :=
  (W8_of_ne m c main_arg14 (by decide)).trans <| (W7_of m c main_arg14 (by decide)).trans <| (W6_of_ne m c main_arg14 (by decide)).trans <| (W5_of m c main_arg14 (by decide)).trans <| (W4_of_ne m c main_arg14 (by decide)).trans <| (W3_of m c main_arg14 (by decide)).trans <| (W2_of_ne m c main_arg14 (by decide)).trans <| (W1_of m c main_arg14 (by decide)).trans rfl
theorem W8_main_arg15 (c : Dev nD) : W8 m c (Proc.devRef .tc main_arg15) = m ((c : Thread nD τ).loc main_arg15) :=
  (W8_of_ne m c main_arg15 (by decide)).trans <| (W7_of m c main_arg15 (by decide)).trans <| (W6_of_ne m c main_arg15 (by decide)).trans <| (W5_of m c main_arg15 (by decide)).trans <| (W4_of_ne m c main_arg15 (by decide)).trans <| (W3_of m c main_arg15 (by decide)).trans <| (W2_of_ne m c main_arg15 (by decide)).trans <| (W1_of m c main_arg15 (by decide)).trans rfl
theorem W8_main_arg16 (c : Dev nD) : W8 m c (Proc.devRef .tc main_arg16) = m ((c : Thread nD τ).loc main_arg16) :=
  (W8_of_ne m c main_arg16 (by decide)).trans <| (W7_of m c main_arg16 (by decide)).trans <| (W6_of_ne m c main_arg16 (by decide)).trans <| (W5_of m c main_arg16 (by decide)).trans <| (W4_of_ne m c main_arg16 (by decide)).trans <| (W3_of m c main_arg16 (by decide)).trans <| (W2_of_ne m c main_arg16 (by decide)).trans <| (W1_of m c main_arg16 (by decide)).trans rfl

/-! ## The proof data family and the thread state -/

abbrev adm : (p : Fin 4) → (pcfgs (F := F) p).Adm := fun p => (cfgs p).toPCfg_adm
def pdats : (p : Fin 4) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
  | ⟨3, _⟩ => fun c => dat3 (V7 m) c
abbrev 𝒱₀ : Variants := Variants.none
abbrev L : GSem nD τ sig → Finset Unit := fun _ => ∅
abbrev lv : GSem nD τ sig → Unit → ℕ := fun _ _ => 0
/-- What rides beside the buffers through every item: the core's generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W8 m c) ∗ ∃ r, prngReg c r)

/-! ## The regions as items -/

set_option backward.isDefEq.respectTransparency.types false in
/-- Region 0: entered from every unscoped buffer at `W1`, left at `W2`; its windows' arrays are split out of the
    unscoped buffers and put back at their exit contents; the generator register goes into the region's invariant and
    comes back; nothing is owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (dat0 (V1 m) c).Φ 0 from rfl]
    iintro ⟨Hp, -, Hr⟩
    iapply (hin0 (V1 m) c)
    unfold Pipeline.ΦA
    isplitl [Hr]; · iexact Hr
    iexact Hp
  hout c := by
    rw [Pipeline.ownSems0_none, show (pdats m 0 c).Φ (Fin.last _) = (dat0 (V1 m) c).Φ (Fin.last cfg0.N) from rfl]
    have h2 := hout0 (V1 m) c
    unfold Pipeline.ΦA at h2
    iintro H
    ihave H2 := h2 $$ H
    icases H2 with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at `W3`, left at `W4`; its windows' arrays are split out of the
    unscoped buffers and put back at their exit contents; the generator register goes into the region's invariant and
    comes back; nothing is owed. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from Phi1 _ c _]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from Phi1 _ c _]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered from every unscoped buffer at `W5`, left at `W6`; its windows' arrays are split out of the
    unscoped buffers and put back at their exit contents; the generator register goes into the region's invariant and
    comes back; nothing is owed. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = (dat2 (V5 m) c).Φ 0 from rfl]
    iintro ⟨Hp, -, Hr⟩
    iapply (hin2 (V5 m) c)
    unfold Pipeline.ΦA
    isplitl [Hr]; · iexact Hr
    iexact Hp
  hout c := by
    rw [Pipeline.ownSems0_none, show (pdats m 2 c).Φ (Fin.last _) = (dat2 (V5 m) c).Φ (Fin.last cfg2.N) from rfl]
    have h2 := hout2 (V5 m) c
    unfold Pipeline.ΦA at h2
    iintro H
    ihave H2 := h2 $$ H
    icases H2 with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: entered from every unscoped buffer at `W7`, left at `W8`; its windows' arrays are split out of the
    unscoped buffers and put back at their exit contents; the generator register goes into the region's invariant and
    comes back; nothing is owed. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m) c).loose
  hwaits := Pipeline.hwaits_of_owed_zero _ _ _ _ L lv 3 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec3 c (V7 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from Phi3 _ c _]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from Phi3 _ c _]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V7 m c) (V8 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as its items, and the run -/

abbrev segs : List (Pipeline.Seg (pcfgs (F := F)) adm (pdats m) () defs₀ 𝒱₀ L lv) :=
  [ .host (hseg hostOps0 hostOps0_sub hostOps0_fresh (W0 m)), .region (reg0 m),
    .host (hseg hostOps1 hostOps1_sub hostOps1_fresh (W2 m)), .region (reg1 m),
    .host (hseg hostOps2 hostOps2_sub hostOps2_fresh (W4 m)), .region (reg2 m),
    .host (hseg hostOps3 hostOps3_sub hostOps3_fresh (W6 m)), .region (reg3 m) ]
theorem main_run (c : Dev nD) : main (F := F) c = Pipeline.Seg.run (segs m) := (main_chain c).trans (by chain_rfl)

variable (ρ : Dev nD → PrngReg)

set_option backward.isDefEq.respectTransparency.types false in
/-- Every weakly fair execution of @main from `m` terminates without a fault, and in every final state each unscoped
    buffer of each core holds the last boundary's contents `W8`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W8 m c) ∗ R c) ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h c => h c)

/-- The frame: the seventeen argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c => ⟨(h c _ (mem_uc main_arg0 (by decide))).trans (W8_main_arg0 m c),
    (h c _ (mem_uc main_arg1 (by decide))).trans (W8_main_arg1 m c),
    (h c _ (mem_uc main_arg2 (by decide))).trans (W8_main_arg2 m c),
    (h c _ (mem_uc main_arg3 (by decide))).trans (W8_main_arg3 m c),
    (h c _ (mem_uc main_arg4 (by decide))).trans (W8_main_arg4 m c),
    (h c _ (mem_uc main_arg5 (by decide))).trans (W8_main_arg5 m c),
    (h c _ (mem_uc main_arg6 (by decide))).trans (W8_main_arg6 m c),
    (h c _ (mem_uc main_arg7 (by decide))).trans (W8_main_arg7 m c),
    (h c _ (mem_uc main_arg8 (by decide))).trans (W8_main_arg8 m c),
    (h c _ (mem_uc main_arg9 (by decide))).trans (W8_main_arg9 m c),
    (h c _ (mem_uc main_arg10 (by decide))).trans (W8_main_arg10 m c),
    (h c _ (mem_uc main_arg11 (by decide))).trans (W8_main_arg11 m c),
    (h c _ (mem_uc main_arg12 (by decide))).trans (W8_main_arg12 m c),
    (h c _ (mem_uc main_arg13 (by decide))).trans (W8_main_arg13 m c),
    (h c _ (mem_uc main_arg14 (by decide))).trans (W8_main_arg14 m c),
    (h c _ (mem_uc main_arg15 (by decide))).trans (W8_main_arg15 m c),
    (h c _ (mem_uc main_arg16 (by decide))).trans (W8_main_arg16 m c)⟩) (run_all m ρ)

/-- The run with the result named: `main_v63` ends at the last boundary's contents, the arguments as launched. -/
theorem run_result : θ_run defs (onTc (τ := τ) (main (F := F))) ⟨m, fun _ => 0, ρ⟩ (fun r => ∀ c : Dev nD,
      r.2.mem ((c.tc : Thread nD τ).loc main_v63) = W8 m c (Proc.devRef .tc main_v63)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c => ⟨h c _ (mem_uc main_v63 (by decide)), (h c _ (mem_uc main_arg0 (by decide))).trans (W8_main_arg0 m c),
    (h c _ (mem_uc main_arg1 (by decide))).trans (W8_main_arg1 m c),
    (h c _ (mem_uc main_arg2 (by decide))).trans (W8_main_arg2 m c),
    (h c _ (mem_uc main_arg3 (by decide))).trans (W8_main_arg3 m c),
    (h c _ (mem_uc main_arg4 (by decide))).trans (W8_main_arg4 m c),
    (h c _ (mem_uc main_arg5 (by decide))).trans (W8_main_arg5 m c),
    (h c _ (mem_uc main_arg6 (by decide))).trans (W8_main_arg6 m c),
    (h c _ (mem_uc main_arg7 (by decide))).trans (W8_main_arg7 m c),
    (h c _ (mem_uc main_arg8 (by decide))).trans (W8_main_arg8 m c),
    (h c _ (mem_uc main_arg9 (by decide))).trans (W8_main_arg9 m c),
    (h c _ (mem_uc main_arg10 (by decide))).trans (W8_main_arg10 m c),
    (h c _ (mem_uc main_arg11 (by decide))).trans (W8_main_arg11 m c),
    (h c _ (mem_uc main_arg12 (by decide))).trans (W8_main_arg12 m c),
    (h c _ (mem_uc main_arg13 (by decide))).trans (W8_main_arg13 m c),
    (h c _ (mem_uc main_arg14 (by decide))).trans (W8_main_arg14 m c),
    (h c _ (mem_uc main_arg15 (by decide))).trans (W8_main_arg15 m c),
    (h c _ (mem_uc main_arg16 (by decide))).trans (W8_main_arg16 m c)⟩) (run_all m ρ)

end Cert.Kernel.Hand

end
-- ==== Proof.RefRunOps.lean ====
/- The reference program's @main as a list of its host operations, the two calls of @_var (and, inside each,
   the call of @_where) written out at their call sites over the calls' buffer records. -/
import proofs.«111056_j31628139167864_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of @main's first window (statements 1 … 60), the first batch-norm variance call inlined. -/
abbrev ops0 : List (HloOp τ sig (Elt F)) :=
  [ StableHlo.nullary main_v0 (iotaInDim S50000 32 0),
    StableHlo.binary main_arg15 main_v0 main_v1 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.binary main_arg16 main_v0 main_v2 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.nullary main_c (constantI S_ 32 0#32),
    StableHlo.unary main_c main_v3 (broadcastInDim S850000 ![] bcast_S_S850000 : (⟨S_, .i32⟩ : BufTy).Contents (Elt F) → (⟨S850000, .i32⟩ : BufTy).Contents (Elt F)),
    StableHlo.binary main_v1 main_v3 main_v4 (cmpi .slt : (⟨S850000, .i32⟩ : BufTy).Contents (Elt F) → (⟨S850000, .i32⟩ : BufTy).Contents (Elt F) → (⟨S850000, .i1⟩ : BufTy).Contents (Elt F)),
    StableHlo.nullary main_c_0 (constantI S_ 32 50000#32),
    StableHlo.unary main_c_0 main_v5 (broadcastInDim S850000 ![] bcast_S_S850000 : (⟨S_, .i32⟩ : BufTy).Contents (Elt F) → (⟨S850000, .i32⟩ : BufTy).Contents (Elt F)),
    StableHlo.binary main_v1 main_v5 main_v6 (addi : (⟨S850000, .i32⟩ : BufTy).Contents (Elt F) → (⟨S850000, .i32⟩ : BufTy).Contents (Elt F) → (⟨S850000, .i32⟩ : BufTy).Contents (Elt F)),
    StableHlo.ternary main_v4 main_v6 main_v1 main_v7 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v7 main_v8 (broadcastInDim S850000x1 ![0] bcast_S850000_S850000x1_0 : (⟨S850000, .i32⟩ : BufTy).Contents (Elt F) → (⟨S850000x1, .i32⟩ : BufTy).Contents (Elt F)),
    StableHlo.binary main_arg0 main_v8 main_v9 ((fun x i => Host.gather gather_S50000x96_S850000x1_S850000x96_1_0_n_n_0_1_196 x i) : (⟨S50000x96, .f32⟩ : BufTy).Contents (Elt F) → (⟨S850000x1, .i32⟩ : BufTy).Contents (Elt F) → (⟨S850000x96, .f32⟩ : BufTy).Contents (Elt F)),
    StableHlo.nullary main_cst (constant S_ .f32 0x00000000#32),
    StableHlo.unary main_cst main_v10 (broadcastInDim S50000x96 ![] bcast_S_S50000x96 : (⟨S_, .f32⟩ : BufTy).Contents (Elt F) → (⟨S50000x96, .f32⟩ : BufTy).Contents (Elt F)),
    StableHlo.unary main_v2 main_v11 (broadcastInDim S850000x1 ![0] bcast_S850000_S850000x1_0 : (⟨S850000, .i32⟩ : BufTy).Contents (Elt F) → (⟨S850000x1, .i32⟩ : BufTy).Contents (Elt F)),
    StableHlo.ternary main_v10 main_v11 main_v9 main_v12 ((fun x i u => Host.scatterAdd scatter_S50000x96_S850000x1_S850000x96_1_0_0_1 x i u) : (⟨S50000x96, .f32⟩ : BufTy).Contents (Elt F) → (⟨S850000x1, .i32⟩ : BufTy).Contents (Elt F) → (⟨S850000x96, .f32⟩ : BufTy).Contents (Elt F) → (⟨S50000x96, .f32⟩ : BufTy).Contents (Elt F)),
    StableHlo.binary main_arg0 main_v12 main_v13 (addf : (⟨S50000x96, .f32⟩ : BufTy).Contents (Elt F) → (⟨S50000x96, .f32⟩ : BufTy).Contents (Elt F) → (⟨S50000x96, .f32⟩ : BufTy).Contents (Elt F)),
    StableHlo.binary main_v13 main_arg1 main_v14 ((fun l r => Host.dotGeneral dot_S50000x96_S96x96_S50000x96_1_0_0_1_n_n none l r) : (⟨S50000x96, .f32⟩ : BufTy).Contents (Elt F) → (⟨S96x96, .f32⟩ : BufTy).Contents (Elt F) → (⟨S50000x96, .f32⟩ : BufTy).Contents (Elt F)),
    StableHlo.unary main_arg2 main_v15 (broadcastInDim S1x96 ![1] bcast_S96_S1x96_1 : (⟨S96, .f32⟩ : BufTy).Contents (Elt F) → (⟨S1x96, .f32⟩ : BufTy).Contents (Elt F)),
    StableHlo.unary main_v15 main_v16 (broadcastInDim S50000x96 ![0, 1] bcast_S1x96_S50000x96_0_1 : (⟨S1x96, .f32⟩ : BufTy).Contents (Elt F) → (⟨S50000x96, .f32⟩ : BufTy).Contents (Elt F)),
    StableHlo.binary main_v14 main_v16 main_v17 (addf : (⟨S50000x96, .f32⟩ : BufTy).Contents (Elt F) → (⟨S50000x96, .f32⟩ : BufTy).Contents (Elt F) → (⟨S50000x96, .f32⟩ : BufTy).Contents (Elt F)),
    StableHlo.nullary main_cst_1 (constant S_ .f32 0x00000000#32),
    StableHlo.unary main_cst_1 main_v18 (broadcastInDim S50000x96 ![] bcast_S_S50000x96 : (⟨S_, .f32⟩ : BufTy).Contents (Elt F) → (⟨S50000x96, .f32⟩ : BufTy).Contents (Elt F)),
    StableHlo.binary main_v17 main_v18 main_v19 (maximumf : (⟨S50000x96, .f32⟩ : BufTy).Contents (Elt F) → (⟨S50000x96, .f32⟩ : BufTy).Contents (Elt F) → (⟨S50000x96, .f32⟩ : BufTy).Contents (Elt F)),
    StableHlo.binary main_v19 main_arg3 main_v20 ((fun l r => Host.dotGeneral dot_S50000x96_S96x96_S50000x96_1_0_0_1_n_n none l r) : (⟨S50000x96, .f32⟩ : BufTy).Contents (Elt F) → (⟨S96x96, .f32⟩ : BufTy).Contents (Elt F) → (⟨S50000x96, .f32⟩ : BufTy).Contents (Elt F)),
    StableHlo.unary main_arg4 main_v21 (broadcastInDim S1x96 ![1] bcast_S96_S1x96_1 : (⟨S96, .f32⟩ : BufTy).Contents (Elt F) → (⟨S1x96, .f32⟩ : BufTy).Contents (Elt F)),
    StableHlo.unary main_v21 main_v22 (broadcastInDim S50000x96 ![0, 1] bcast_S1x96_S50000x96_0_1 : (⟨S1x96, .f32⟩ : BufTy).Contents (Elt F) → (⟨S50000x96, .f32⟩ : BufTy).Contents (Elt F)),
    StableHlo.binary main_v20 main_v22 main_v23 (addf : (⟨S50000x96, .f32⟩ : BufTy).Contents (Elt F) → (⟨S50000x96, .f32⟩ : BufTy).Contents (Elt F) → (⟨S50000x96, .f32⟩ : BufTy).Contents (Elt F)),
    StableHlo.nullary main_cst_2 (constant S_ .f32 0x00000000#32),
    StableHlo.binary main_v23 main_cst_2 main_v24 ((fun x v => Host.reduceAdd x v reducesTo_S50000x96_S96_d0 h_S_) : (⟨S50000x96, .f32⟩ : BufTy).Contents (Elt F) → (⟨S_, .f32⟩ : BufTy).Contents (Elt F) → (⟨S96, .f32⟩ : BufTy).Contents (Elt F)),
    StableHlo.nullary main_cst_3 (constant S_ .f32 0x47435000#32),
    StableHlo.unary main_cst_3 main_v25 (broadcastInDim S96 ![] bcast_S_S96 : (⟨S_, .f32⟩ : BufTy).Contents (Elt F) → (⟨S96, .f32⟩ : BufTy).Contents (Elt F)),
    StableHlo.binary main_v24 main_v25 main_v26 (Host.divf : (⟨S96, .f32⟩ : BufTy).Contents (Elt F) → (⟨S96, .f32⟩ : BufTy).Contents (Elt F) → (⟨S96, .f32⟩ : BufTy).Contents (Elt F)),
    StableHlo.nullary main_c_4 (constantI S_ 32 0#32),
    StableHlo.TRef.nullary main_call0.cst (constant S_ .f32 0x00000000#32),
    StableHlo.TRef.binary (.of main_v23 : StableHlo.TRef sig ⟨S50000x96, .f32⟩) main_call0.cst main_call0.v0 (fun x v => Host.reduceAdd x v reducesTo_S50000x96_S96_d0 h_S_),
    StableHlo.TRef.unary main_call0.v0 main_call0.v1 (broadcastInDim S1x96 ![1] bcast_S96_S1x96_1),
    StableHlo.TRef.nullary main_call0.cst_0 (constant S_ .f32 0x47435000#32),
    StableHlo.TRef.unary main_call0.cst_0 main_call0.v2 (broadcastInDim S1x96 ![] bcast_S_S1x96),
    StableHlo.TRef.binary main_call0.v1 main_call0.v2 main_call0.v3 Host.divf,
    StableHlo.TRef.unary main_call0.v3 main_call0.v4 (broadcastInDim S50000x96 ![0, 1] bcast_S1x96_S50000x96_0_1),
    StableHlo.TRef.binary (.of main_v23 : StableHlo.TRef sig ⟨S50000x96, .f32⟩) main_call0.v4 main_call0.v5 subf,
    StableHlo.TRef.binary main_call0.v5 main_call0.v5 main_call0.v6 mulf,
    StableHlo.TRef.unary (.of main_c_4 : StableHlo.TRef sig ⟨S_, .i32⟩) main_call0.v7 (sitofp .f32),
    StableHlo.TRef.nullary main_call0.cst_1 (constant S_ .f32 0x47435000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S50000x96_S96_d0 h_S_),
    StableHlo.TRef.unary main_call0.v8 main_call0.v10 (broadcastInDim S96 ![] bcast_S_S96),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S96 ![] bcast_S_S96),
    StableHlo.TRef.ternary main_call0.v12 main_call0.v11 main_call0.call0.v1 main_call0.call0.v2 (fun p a b => select (broadcastInDim S96 ![] bcast_S_S96 p) a b),
    StableHlo.unary main_v26 main_v28 (broadcastInDim S1x96 ![1] bcast_S96_S1x96_1 : (⟨S96, .f32⟩ : BufTy).Contents (Elt F) → (⟨S1x96, .f32⟩ : BufTy).Contents (Elt F)),
    StableHlo.unary main_v28 main_v29 (broadcastInDim S50000x96 ![0, 1] bcast_S1x96_S50000x96_0_1 : (⟨S1x96, .f32⟩ : BufTy).Contents (Elt F) → (⟨S50000x96, .f32⟩ : BufTy).Contents (Elt F)),
    StableHlo.binary main_v23 main_v29 main_v30 (subf : (⟨S50000x96, .f32⟩ : BufTy).Contents (Elt F) → (⟨S50000x96, .f32⟩ : BufTy).Contents (Elt F) → (⟨S50000x96, .f32⟩ : BufTy).Contents (Elt F)),
    StableHlo.nullary main_cst_5 (constant S_ .f32 0x3727C5AC#32),
    StableHlo.unary main_cst_5 main_v31 (broadcastInDim S96 ![] bcast_S_S96 : (⟨S_, .f32⟩ : BufTy).Contents (Elt F) → (⟨S96, .f32⟩ : BufTy).Contents (Elt F)),
    StableHlo.binary main_v27 main_v31 main_v32 (addf : (⟨S96, .f32⟩ : BufTy).Contents (Elt F) → (⟨S96, .f32⟩ : BufTy).Contents (Elt F) → (⟨S96, .f32⟩ : BufTy).Contents (Elt F)),
    StableHlo.unary main_v32 main_v33 (Host.rsqrt : (⟨S96, .f32⟩ : BufTy).Contents (Elt F) → (⟨S96, .f32⟩ : BufTy).Contents (Elt F)),
    StableHlo.unary main_v33 main_v34 (broadcastInDim S1x96 ![1] bcast_S96_S1x96_1 : (⟨S96, .f32⟩ : BufTy).Contents (Elt F) → (⟨S1x96, .f32⟩ : BufTy).Contents (Elt F)),
    StableHlo.unary main_v34 main_v35 (broadcastInDim S50000x96 ![0, 1] bcast_S1x96_S50000x96_0_1 : (⟨S1x96, .f32⟩ : BufTy).Contents (Elt F) → (⟨S50000x96, .f32⟩ : BufTy).Contents (Elt F)),
    StableHlo.binary main_v30 main_v35 main_v36 (mulf : (⟨S50000x96, .f32⟩ : BufTy).Contents (Elt F) → (⟨S50000x96, .f32⟩ : BufTy).Contents (Elt F) → (⟨S50000x96, .f32⟩ : BufTy).Contents (Elt F)),
    StableHlo.unary main_arg9 main_v37 (broadcastInDim S1x96 ![1] bcast_S96_S1x96_1 : (⟨S96, .f32⟩ : BufTy).Contents (Elt F) → (⟨S1x96, .f32⟩ : BufTy).Contents (Elt F)),
    StableHlo.unary main_v37 main_v38 (broadcastInDim S50000x96 ![0, 1] bcast_S1x96_S50000x96_0_1 : (⟨S1x96, .f32⟩ : BufTy).Contents (Elt F) → (⟨S50000x96, .f32⟩ : BufTy).Contents (Elt F)),
    StableHlo.binary main_v36 main_v38 main_v39 (mulf : (⟨S50000x96, .f32⟩ : BufTy).Contents (Elt F) → (⟨S50000x96, .f32⟩ : BufTy).Contents (Elt F) → (⟨S50000x96, .f32⟩ : BufTy).Contents (Elt F)),
    StableHlo.unary main_arg10 main_v40 (broadcastInDim S1x96 ![1] bcast_S96_S1x96_1 : (⟨S96, .f32⟩ : BufTy).Contents (Elt F) → (⟨S1x96, .f32⟩ : BufTy).Contents (Elt F)),
    StableHlo.unary main_v40 main_v41 (broadcastInDim S50000x96 ![0, 1] bcast_S1x96_S50000x96_0_1 : (⟨S1x96, .f32⟩ : BufTy).Contents (Elt F) → (⟨S50000x96, .f32⟩ : BufTy).Contents (Elt F)),
    StableHlo.binary main_v39 main_v41 main_v42 (addf : (⟨S50000x96, .f32⟩ : BufTy).Contents (Elt F) → (⟨S50000x96, .f32⟩ : BufTy).Contents (Elt F) → (⟨S50000x96, .f32⟩ : BufTy).Contents (Elt F)),
    StableHlo.nullary main_cst_6 (constant S_ .f32 0x00000000#32),
    StableHlo.unary main_cst_6 main_v43 (broadcastInDim S50000x96 ![] bcast_S_S50000x96 : (⟨S_, .f32⟩ : BufTy).Contents (Elt F) → (⟨S50000x96, .f32⟩ : BufTy).Contents (Elt F)),
    StableHlo.binary main_v42 main_v43 main_v44 (maximumf : (⟨S50000x96, .f32⟩ : BufTy).Contents (Elt F) → (⟨S50000x96, .f32⟩ : BufTy).Contents (Elt F) → (⟨S50000x96, .f32⟩ : BufTy).Contents (Elt F)),
    StableHlo.nullary main_c_7 (constantI S_ 32 0#32),
    StableHlo.unary main_c_7 main_v45 (broadcastInDim S850000 ![] bcast_S_S850000 : (⟨S_, .i32⟩ : BufTy).Contents (Elt F) → (⟨S850000, .i32⟩ : BufTy).Contents (Elt F)),
    StableHlo.binary main_v1 main_v45 main_v46 (cmpi .slt : (⟨S850000, .i32⟩ : BufTy).Contents (Elt F) → (⟨S850000, .i32⟩ : BufTy).Contents (Elt F) → (⟨S850000, .i1⟩ : BufTy).Contents (Elt F)),
    StableHlo.nullary main_c_8 (constantI S_ 32 50000#32),
    StableHlo.unary main_c_8 main_v47 (broadcastInDim S850000 ![] bcast_S_S850000 : (⟨S_, .i32⟩ : BufTy).Contents (Elt F) → (⟨S850000, .i32⟩ : BufTy).Contents (Elt F)),
    StableHlo.binary main_v1 main_v47 main_v48 (addi : (⟨S850000, .i32⟩ : BufTy).Contents (Elt F) → (⟨S850000, .i32⟩ : BufTy).Contents (Elt F) → (⟨S850000, .i32⟩ : BufTy).Contents (Elt F)) ]

/-- The operations of @main's second window (statements 61 … 110), the second batch-norm variance call inlined. -/
abbrev ops1 : List (HloOp τ sig (Elt F)) :=
  [ StableHlo.ternary main_v46 main_v48 main_v1 main_v49 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v49 main_v50 (broadcastInDim S850000x1 ![0] bcast_S850000_S850000x1_0 : (⟨S850000, .i32⟩ : BufTy).Contents (Elt F) → (⟨S850000x1, .i32⟩ : BufTy).Contents (Elt F)),
    StableHlo.binary main_v44 main_v50 main_v51 ((fun x i => Host.gather gather_S50000x96_S850000x1_S850000x96_1_0_n_n_0_1_196 x i) : (⟨S50000x96, .f32⟩ : BufTy).Contents (Elt F) → (⟨S850000x1, .i32⟩ : BufTy).Contents (Elt F) → (⟨S850000x96, .f32⟩ : BufTy).Contents (Elt F)),
    StableHlo.nullary main_cst_9 (constant S_ .f32 0x00000000#32),
    StableHlo.unary main_cst_9 main_v52 (broadcastInDim S50000x96 ![] bcast_S_S50000x96 : (⟨S_, .f32⟩ : BufTy).Contents (Elt F) → (⟨S50000x96, .f32⟩ : BufTy).Contents (Elt F)),
    StableHlo.unary main_v2 main_v53 (broadcastInDim S850000x1 ![0] bcast_S850000_S850000x1_0 : (⟨S850000, .i32⟩ : BufTy).Contents (Elt F) → (⟨S850000x1, .i32⟩ : BufTy).Contents (Elt F)),
    StableHlo.ternary main_v52 main_v53 main_v51 main_v54 ((fun x i u => Host.scatterAdd scatter_S50000x96_S850000x1_S850000x96_1_0_0_1 x i u) : (⟨S50000x96, .f32⟩ : BufTy).Contents (Elt F) → (⟨S850000x1, .i32⟩ : BufTy).Contents (Elt F) → (⟨S850000x96, .f32⟩ : BufTy).Contents (Elt F) → (⟨S50000x96, .f32⟩ : BufTy).Contents (Elt F)),
    StableHlo.binary main_v44 main_v54 main_v55 (addf : (⟨S50000x96, .f32⟩ : BufTy).Contents (Elt F) → (⟨S50000x96, .f32⟩ : BufTy).Contents (Elt F) → (⟨S50000x96, .f32⟩ : BufTy).Contents (Elt F)),
    StableHlo.binary main_v55 main_arg5 main_v56 ((fun l r => Host.dotGeneral dot_S50000x96_S96x96_S50000x96_1_0_0_1_n_n none l r) : (⟨S50000x96, .f32⟩ : BufTy).Contents (Elt F) → (⟨S96x96, .f32⟩ : BufTy).Contents (Elt F) → (⟨S50000x96, .f32⟩ : BufTy).Contents (Elt F)),
    StableHlo.unary main_arg6 main_v57 (broadcastInDim S1x96 ![1] bcast_S96_S1x96_1 : (⟨S96, .f32⟩ : BufTy).Contents (Elt F) → (⟨S1x96, .f32⟩ : BufTy).Contents (Elt F)),
    StableHlo.unary main_v57 main_v58 (broadcastInDim S50000x96 ![0, 1] bcast_S1x96_S50000x96_0_1 : (⟨S1x96, .f32⟩ : BufTy).Contents (Elt F) → (⟨S50000x96, .f32⟩ : BufTy).Contents (Elt F)),
    StableHlo.binary main_v56 main_v58 main_v59 (addf : (⟨S50000x96, .f32⟩ : BufTy).Contents (Elt F) → (⟨S50000x96, .f32⟩ : BufTy).Contents (Elt F) → (⟨S50000x96, .f32⟩ : BufTy).Contents (Elt F)),
    StableHlo.nullary main_cst_10 (constant S_ .f32 0x00000000#32),
    StableHlo.unary main_cst_10 main_v60 (broadcastInDim S50000x96 ![] bcast_S_S50000x96 : (⟨S_, .f32⟩ : BufTy).Contents (Elt F) → (⟨S50000x96, .f32⟩ : BufTy).Contents (Elt F)),
    StableHlo.binary main_v59 main_v60 main_v61 (maximumf : (⟨S50000x96, .f32⟩ : BufTy).Contents (Elt F) → (⟨S50000x96, .f32⟩ : BufTy).Contents (Elt F) → (⟨S50000x96, .f32⟩ : BufTy).Contents (Elt F)),
    StableHlo.binary main_v61 main_arg7 main_v62 ((fun l r => Host.dotGeneral dot_S50000x96_S96x96_S50000x96_1_0_0_1_n_n none l r) : (⟨S50000x96, .f32⟩ : BufTy).Contents (Elt F) → (⟨S96x96, .f32⟩ : BufTy).Contents (Elt F) → (⟨S50000x96, .f32⟩ : BufTy).Contents (Elt F)),
    StableHlo.unary main_arg8 main_v63 (broadcastInDim S1x96 ![1] bcast_S96_S1x96_1 : (⟨S96, .f32⟩ : BufTy).Contents (Elt F) → (⟨S1x96, .f32⟩ : BufTy).Contents (Elt F)),
    StableHlo.unary main_v63 main_v64 (broadcastInDim S50000x96 ![0, 1] bcast_S1x96_S50000x96_0_1 : (⟨S1x96, .f32⟩ : BufTy).Contents (Elt F) → (⟨S50000x96, .f32⟩ : BufTy).Contents (Elt F)),
    StableHlo.binary main_v62 main_v64 main_v65 (addf : (⟨S50000x96, .f32⟩ : BufTy).Contents (Elt F) → (⟨S50000x96, .f32⟩ : BufTy).Contents (Elt F) → (⟨S50000x96, .f32⟩ : BufTy).Contents (Elt F)),
    StableHlo.nullary main_cst_11 (constant S_ .f32 0x00000000#32),
    StableHlo.binary main_v65 main_cst_11 main_v66 ((fun x v => Host.reduceAdd x v reducesTo_S50000x96_S96_d0 h_S_) : (⟨S50000x96, .f32⟩ : BufTy).Contents (Elt F) → (⟨S_, .f32⟩ : BufTy).Contents (Elt F) → (⟨S96, .f32⟩ : BufTy).Contents (Elt F)),
    StableHlo.nullary main_cst_12 (constant S_ .f32 0x47435000#32),
    StableHlo.unary main_cst_12 main_v67 (broadcastInDim S96 ![] bcast_S_S96 : (⟨S_, .f32⟩ : BufTy).Contents (Elt F) → (⟨S96, .f32⟩ : BufTy).Contents (Elt F)),
    StableHlo.binary main_v66 main_v67 main_v68 (Host.divf : (⟨S96, .f32⟩ : BufTy).Contents (Elt F) → (⟨S96, .f32⟩ : BufTy).Contents (Elt F) → (⟨S96, .f32⟩ : BufTy).Contents (Elt F)),
    StableHlo.nullary main_c_13 (constantI S_ 32 0#32),
    StableHlo.TRef.nullary main_call1.cst (constant S_ .f32 0x00000000#32),
    StableHlo.TRef.binary (.of main_v65 : StableHlo.TRef sig ⟨S50000x96, .f32⟩) main_call1.cst main_call1.v0 (fun x v => Host.reduceAdd x v reducesTo_S50000x96_S96_d0 h_S_),
    StableHlo.TRef.unary main_call1.v0 main_call1.v1 (broadcastInDim S1x96 ![1] bcast_S96_S1x96_1),
    StableHlo.TRef.nullary main_call1.cst_0 (constant S_ .f32 0x47435000#32),
    StableHlo.TRef.unary main_call1.cst_0 main_call1.v2 (broadcastInDim S1x96 ![] bcast_S_S1x96),
    StableHlo.TRef.binary main_call1.v1 main_call1.v2 main_call1.v3 Host.divf,
    StableHlo.TRef.unary main_call1.v3 main_call1.v4 (broadcastInDim S50000x96 ![0, 1] bcast_S1x96_S50000x96_0_1),
    StableHlo.TRef.binary (.of main_v65 : StableHlo.TRef sig ⟨S50000x96, .f32⟩) main_call1.v4 main_call1.v5 subf,
    StableHlo.TRef.binary main_call1.v5 main_call1.v5 main_call1.v6 mulf,
    StableHlo.TRef.unary (.of main_c_13 : StableHlo.TRef sig ⟨S_, .i32⟩) main_call1.v7 (sitofp .f32),
    StableHlo.TRef.nullary main_call1.cst_1 (constant S_ .f32 0x47435000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S50000x96_S96_d0 h_S_),
    StableHlo.TRef.unary main_call1.v8 main_call1.v10 (broadcastInDim S96 ![] bcast_S_S96),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S96 ![] bcast_S_S96),
    StableHlo.TRef.ternary main_call1.v12 main_call1.v11 main_call1.call0.v1 main_call1.call0.v2 (fun p a b => select (broadcastInDim S96 ![] bcast_S_S96 p) a b),
    StableHlo.unary main_v68 main_v70 (broadcastInDim S1x96 ![1] bcast_S96_S1x96_1 : (⟨S96, .f32⟩ : BufTy).Contents (Elt F) → (⟨S1x96, .f32⟩ : BufTy).Contents (Elt F)),
    StableHlo.unary main_v70 main_v71 (broadcastInDim S50000x96 ![0, 1] bcast_S1x96_S50000x96_0_1 : (⟨S1x96, .f32⟩ : BufTy).Contents (Elt F) → (⟨S50000x96, .f32⟩ : BufTy).Contents (Elt F)),
    StableHlo.binary main_v65 main_v71 main_v72 (subf : (⟨S50000x96, .f32⟩ : BufTy).Contents (Elt F) → (⟨S50000x96, .f32⟩ : BufTy).Contents (Elt F) → (⟨S50000x96, .f32⟩ : BufTy).Contents (Elt F)),
    StableHlo.nullary main_cst_14 (constant S_ .f32 0x3727C5AC#32),
    StableHlo.unary main_cst_14 main_v73 (broadcastInDim S96 ![] bcast_S_S96 : (⟨S_, .f32⟩ : BufTy).Contents (Elt F) → (⟨S96, .f32⟩ : BufTy).Contents (Elt F)),
    StableHlo.binary main_v69 main_v73 main_v74 (addf : (⟨S96, .f32⟩ : BufTy).Contents (Elt F) → (⟨S96, .f32⟩ : BufTy).Contents (Elt F) → (⟨S96, .f32⟩ : BufTy).Contents (Elt F)),
    StableHlo.unary main_v74 main_v75 (Host.rsqrt : (⟨S96, .f32⟩ : BufTy).Contents (Elt F) → (⟨S96, .f32⟩ : BufTy).Contents (Elt F)),
    StableHlo.unary main_v75 main_v76 (broadcastInDim S1x96 ![1] bcast_S96_S1x96_1 : (⟨S96, .f32⟩ : BufTy).Contents (Elt F) → (⟨S1x96, .f32⟩ : BufTy).Contents (Elt F)),
    StableHlo.unary main_v76 main_v77 (broadcastInDim S50000x96 ![0, 1] bcast_S1x96_S50000x96_0_1 : (⟨S1x96, .f32⟩ : BufTy).Contents (Elt F) → (⟨S50000x96, .f32⟩ : BufTy).Contents (Elt F)),
    StableHlo.binary main_v72 main_v77 main_v78 (mulf : (⟨S50000x96, .f32⟩ : BufTy).Contents (Elt F) → (⟨S50000x96, .f32⟩ : BufTy).Contents (Elt F) → (⟨S50000x96, .f32⟩ : BufTy).Contents (Elt F)),
    StableHlo.unary main_arg11 main_v79 (broadcastInDim S1x96 ![1] bcast_S96_S1x96_1 : (⟨S96, .f32⟩ : BufTy).Contents (Elt F) → (⟨S1x96, .f32⟩ : BufTy).Contents (Elt F)),
    StableHlo.unary main_v79 main_v80 (broadcastInDim S50000x96 ![0, 1] bcast_S1x96_S50000x96_0_1 : (⟨S1x96, .f32⟩ : BufTy).Contents (Elt F) → (⟨S50000x96, .f32⟩ : BufTy).Contents (Elt F)),
    StableHlo.binary main_v78 main_v80 main_v81 (mulf : (⟨S50000x96, .f32⟩ : BufTy).Contents (Elt F) → (⟨S50000x96, .f32⟩ : BufTy).Contents (Elt F) → (⟨S50000x96, .f32⟩ : BufTy).Contents (Elt F)),
    StableHlo.unary main_arg12 main_v82 (broadcastInDim S1x96 ![1] bcast_S96_S1x96_1 : (⟨S96, .f32⟩ : BufTy).Contents (Elt F) → (⟨S1x96, .f32⟩ : BufTy).Contents (Elt F)),
    StableHlo.unary main_v82 main_v83 (broadcastInDim S50000x96 ![0, 1] bcast_S1x96_S50000x96_0_1 : (⟨S1x96, .f32⟩ : BufTy).Contents (Elt F) → (⟨S50000x96, .f32⟩ : BufTy).Contents (Elt F)),
    StableHlo.binary main_v81 main_v83 main_v84 (addf : (⟨S50000x96, .f32⟩ : BufTy).Contents (Elt F) → (⟨S50000x96, .f32⟩ : BufTy).Contents (Elt F) → (⟨S50000x96, .f32⟩ : BufTy).Contents (Elt F)),
    StableHlo.nullary main_cst_15 (constant S_ .f32 0x00000000#32),
    StableHlo.unary main_cst_15 main_v85 (broadcastInDim S50000x96 ![] bcast_S_S50000x96 : (⟨S_, .f32⟩ : BufTy).Contents (Elt F) → (⟨S50000x96, .f32⟩ : BufTy).Contents (Elt F)),
    StableHlo.binary main_v84 main_v85 main_v86 (maximumf : (⟨S50000x96, .f32⟩ : BufTy).Contents (Elt F) → (⟨S50000x96, .f32⟩ : BufTy).Contents (Elt F) → (⟨S50000x96, .f32⟩ : BufTy).Contents (Elt F)),
    StableHlo.binary main_v86 main_arg13 main_v87 ((fun l r => Host.dotGeneral dot_S50000x96_S96x64_S50000x64_1_0_0_1_n_n none l r) : (⟨S50000x96, .f32⟩ : BufTy).Contents (Elt F) → (⟨S96x64, .f32⟩ : BufTy).Contents (Elt F) → (⟨S50000x64, .f32⟩ : BufTy).Contents (Elt F)),
    StableHlo.unary main_arg14 main_v88 (broadcastInDim S1x64 ![1] bcast_S64_S1x64_1 : (⟨S64, .f32⟩ : BufTy).Contents (Elt F) → (⟨S1x64, .f32⟩ : BufTy).Contents (Elt F)),
    StableHlo.unary main_v88 main_v89 (broadcastInDim S50000x64 ![0, 1] bcast_S1x64_S50000x64_0_1 : (⟨S1x64, .f32⟩ : BufTy).Contents (Elt F) → (⟨S50000x64, .f32⟩ : BufTy).Contents (Elt F)),
    StableHlo.binary main_v87 main_v89 main_v90 (addf : (⟨S50000x64, .f32⟩ : BufTy).Contents (Elt F) → (⟨S50000x64, .f32⟩ : BufTy).Contents (Elt F) → (⟨S50000x64, .f32⟩ : BufTy).Contents (Elt F)) ]

/-- @main's 151 operations, in order. -/
abbrev ops : List (HloOp τ sig (Elt F)) :=
  [ StableHlo.nullary main_v0 (iotaInDim S50000 32 0),
    StableHlo.binary main_arg15 main_v0 main_v1 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.binary main_arg16 main_v0 main_v2 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.nullary main_c (constantI S_ 32 0#32),
    StableHlo.unary main_c main_v3 (broadcastInDim S850000 ![] bcast_S_S850000 : (⟨S_, .i32⟩ : BufTy).Contents (Elt F) → (⟨S850000, .i32⟩ : BufTy).Contents (Elt F)),
    StableHlo.binary main_v1 main_v3 main_v4 (cmpi .slt : (⟨S850000, .i32⟩ : BufTy).Contents (Elt F) → (⟨S850000, .i32⟩ : BufTy).Contents (Elt F) → (⟨S850000, .i1⟩ : BufTy).Contents (Elt F)),
    StableHlo.nullary main_c_0 (constantI S_ 32 50000#32),
    StableHlo.unary main_c_0 main_v5 (broadcastInDim S850000 ![] bcast_S_S850000 : (⟨S_, .i32⟩ : BufTy).Contents (Elt F) → (⟨S850000, .i32⟩ : BufTy).Contents (Elt F)),
    StableHlo.binary main_v1 main_v5 main_v6 (addi : (⟨S850000, .i32⟩ : BufTy).Contents (Elt F) → (⟨S850000, .i32⟩ : BufTy).Contents (Elt F) → (⟨S850000, .i32⟩ : BufTy).Contents (Elt F)),
    StableHlo.ternary main_v4 main_v6 main_v1 main_v7 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v7 main_v8 (broadcastInDim S850000x1 ![0] bcast_S850000_S850000x1_0 : (⟨S850000, .i32⟩ : BufTy).Contents (Elt F) → (⟨S850000x1, .i32⟩ : BufTy).Contents (Elt F)),
    StableHlo.binary main_arg0 main_v8 main_v9 ((fun x i => Host.gather gather_S50000x96_S850000x1_S850000x96_1_0_n_n_0_1_196 x i) : (⟨S50000x96, .f32⟩ : BufTy).Contents (Elt F) → (⟨S850000x1, .i32⟩ : BufTy).Contents (Elt F) → (⟨S850000x96, .f32⟩ : BufTy).Contents (Elt F)),
    StableHlo.nullary main_cst (constant S_ .f32 0x00000000#32),
    StableHlo.unary main_cst main_v10 (broadcastInDim S50000x96 ![] bcast_S_S50000x96 : (⟨S_, .f32⟩ : BufTy).Contents (Elt F) → (⟨S50000x96, .f32⟩ : BufTy).Contents (Elt F)),
    StableHlo.unary main_v2 main_v11 (broadcastInDim S850000x1 ![0] bcast_S850000_S850000x1_0 : (⟨S850000, .i32⟩ : BufTy).Contents (Elt F) → (⟨S850000x1, .i32⟩ : BufTy).Contents (Elt F)),
    StableHlo.ternary main_v10 main_v11 main_v9 main_v12 ((fun x i u => Host.scatterAdd scatter_S50000x96_S850000x1_S850000x96_1_0_0_1 x i u) : (⟨S50000x96, .f32⟩ : BufTy).Contents (Elt F) → (⟨S850000x1, .i32⟩ : BufTy).Contents (Elt F) → (⟨S850000x96, .f32⟩ : BufTy).Contents (Elt F) → (⟨S50000x96, .f32⟩ : BufTy).Contents (Elt F)),
    StableHlo.binary main_arg0 main_v12 main_v13 (addf : (⟨S50000x96, .f32⟩ : BufTy).Contents (Elt F) → (⟨S50000x96, .f32⟩ : BufTy).Contents (Elt F) → (⟨S50000x96, .f32⟩ : BufTy).Contents (Elt F)),
    StableHlo.binary main_v13 main_arg1 main_v14 ((fun l r => Host.dotGeneral dot_S50000x96_S96x96_S50000x96_1_0_0_1_n_n none l r) : (⟨S50000x96, .f32⟩ : BufTy).Contents (Elt F) → (⟨S96x96, .f32⟩ : BufTy).Contents (Elt F) → (⟨S50000x96, .f32⟩ : BufTy).Contents (Elt F)),
    StableHlo.unary main_arg2 main_v15 (broadcastInDim S1x96 ![1] bcast_S96_S1x96_1 : (⟨S96, .f32⟩ : BufTy).Contents (Elt F) → (⟨S1x96, .f32⟩ : BufTy).Contents (Elt F)),
    StableHlo.unary main_v15 main_v16 (broadcastInDim S50000x96 ![0, 1] bcast_S1x96_S50000x96_0_1 : (⟨S1x96, .f32⟩ : BufTy).Contents (Elt F) → (⟨S50000x96, .f32⟩ : BufTy).Contents (Elt F)),
    StableHlo.binary main_v14 main_v16 main_v17 (addf : (⟨S50000x96, .f32⟩ : BufTy).Contents (Elt F) → (⟨S50000x96, .f32⟩ : BufTy).Contents (Elt F) → (⟨S50000x96, .f32⟩ : BufTy).Contents (Elt F)),
    StableHlo.nullary main_cst_1 (constant S_ .f32 0x00000000#32),
    StableHlo.unary main_cst_1 main_v18 (broadcastInDim S50000x96 ![] bcast_S_S50000x96 : (⟨S_, .f32⟩ : BufTy).Contents (Elt F) → (⟨S50000x96, .f32⟩ : BufTy).Contents (Elt F)),
    StableHlo.binary main_v17 main_v18 main_v19 (maximumf : (⟨S50000x96, .f32⟩ : BufTy).Contents (Elt F) → (⟨S50000x96, .f32⟩ : BufTy).Contents (Elt F) → (⟨S50000x96, .f32⟩ : BufTy).Contents (Elt F)),
    StableHlo.binary main_v19 main_arg3 main_v20 ((fun l r => Host.dotGeneral dot_S50000x96_S96x96_S50000x96_1_0_0_1_n_n none l r) : (⟨S50000x96, .f32⟩ : BufTy).Contents (Elt F) → (⟨S96x96, .f32⟩ : BufTy).Contents (Elt F) → (⟨S50000x96, .f32⟩ : BufTy).Contents (Elt F)),
    StableHlo.unary main_arg4 main_v21 (broadcastInDim S1x96 ![1] bcast_S96_S1x96_1 : (⟨S96, .f32⟩ : BufTy).Contents (Elt F) → (⟨S1x96, .f32⟩ : BufTy).Contents (Elt F)),
    StableHlo.unary main_v21 main_v22 (broadcastInDim S50000x96 ![0, 1] bcast_S1x96_S50000x96_0_1 : (⟨S1x96, .f32⟩ : BufTy).Contents (Elt F) → (⟨S50000x96, .f32⟩ : BufTy).Contents (Elt F)),
    StableHlo.binary main_v20 main_v22 main_v23 (addf : (⟨S50000x96, .f32⟩ : BufTy).Contents (Elt F) → (⟨S50000x96, .f32⟩ : BufTy).Contents (Elt F) → (⟨S50000x96, .f32⟩ : BufTy).Contents (Elt F)),
    StableHlo.nullary main_cst_2 (constant S_ .f32 0x00000000#32),
    StableHlo.binary main_v23 main_cst_2 main_v24 ((fun x v => Host.reduceAdd x v reducesTo_S50000x96_S96_d0 h_S_) : (⟨S50000x96, .f32⟩ : BufTy).Contents (Elt F) → (⟨S_, .f32⟩ : BufTy).Contents (Elt F) → (⟨S96, .f32⟩ : BufTy).Contents (Elt F)),
    StableHlo.nullary main_cst_3 (constant S_ .f32 0x47435000#32),
    StableHlo.unary main_cst_3 main_v25 (broadcastInDim S96 ![] bcast_S_S96 : (⟨S_, .f32⟩ : BufTy).Contents (Elt F) → (⟨S96, .f32⟩ : BufTy).Contents (Elt F)),
    StableHlo.binary main_v24 main_v25 main_v26 (Host.divf : (⟨S96, .f32⟩ : BufTy).Contents (Elt F) → (⟨S96, .f32⟩ : BufTy).Contents (Elt F) → (⟨S96, .f32⟩ : BufTy).Contents (Elt F)),
    StableHlo.nullary main_c_4 (constantI S_ 32 0#32),
    StableHlo.TRef.nullary main_call0.cst (constant S_ .f32 0x00000000#32),
    StableHlo.TRef.binary (.of main_v23 : StableHlo.TRef sig ⟨S50000x96, .f32⟩) main_call0.cst main_call0.v0 (fun x v => Host.reduceAdd x v reducesTo_S50000x96_S96_d0 h_S_),
    StableHlo.TRef.unary main_call0.v0 main_call0.v1 (broadcastInDim S1x96 ![1] bcast_S96_S1x96_1),
    StableHlo.TRef.nullary main_call0.cst_0 (constant S_ .f32 0x47435000#32),
    StableHlo.TRef.unary main_call0.cst_0 main_call0.v2 (broadcastInDim S1x96 ![] bcast_S_S1x96),
    StableHlo.TRef.binary main_call0.v1 main_call0.v2 main_call0.v3 Host.divf,
    StableHlo.TRef.unary main_call0.v3 main_call0.v4 (broadcastInDim S50000x96 ![0, 1] bcast_S1x96_S50000x96_0_1),
    StableHlo.TRef.binary (.of main_v23 : StableHlo.TRef sig ⟨S50000x96, .f32⟩) main_call0.v4 main_call0.v5 subf,
    StableHlo.TRef.binary main_call0.v5 main_call0.v5 main_call0.v6 mulf,
    StableHlo.TRef.unary (.of main_c_4 : StableHlo.TRef sig ⟨S_, .i32⟩) main_call0.v7 (sitofp .f32),
    StableHlo.TRef.nullary main_call0.cst_1 (constant S_ .f32 0x47435000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S50000x96_S96_d0 h_S_),
    StableHlo.TRef.unary main_call0.v8 main_call0.v10 (broadcastInDim S96 ![] bcast_S_S96),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S96 ![] bcast_S_S96),
    StableHlo.TRef.ternary main_call0.v12 main_call0.v11 main_call0.call0.v1 main_call0.call0.v2 (fun p a b => select (broadcastInDim S96 ![] bcast_S_S96 p) a b),
    StableHlo.unary main_v26 main_v28 (broadcastInDim S1x96 ![1] bcast_S96_S1x96_1 : (⟨S96, .f32⟩ : BufTy).Contents (Elt F) → (⟨S1x96, .f32⟩ : BufTy).Contents (Elt F)),
    StableHlo.unary main_v28 main_v29 (broadcastInDim S50000x96 ![0, 1] bcast_S1x96_S50000x96_0_1 : (⟨S1x96, .f32⟩ : BufTy).Contents (Elt F) → (⟨S50000x96, .f32⟩ : BufTy).Contents (Elt F)),
    StableHlo.binary main_v23 main_v29 main_v30 (subf : (⟨S50000x96, .f32⟩ : BufTy).Contents (Elt F) → (⟨S50000x96, .f32⟩ : BufTy).Contents (Elt F) → (⟨S50000x96, .f32⟩ : BufTy).Contents (Elt F)),
    StableHlo.nullary main_cst_5 (constant S_ .f32 0x3727C5AC#32),
    StableHlo.unary main_cst_5 main_v31 (broadcastInDim S96 ![] bcast_S_S96 : (⟨S_, .f32⟩ : BufTy).Contents (Elt F) → (⟨S96, .f32⟩ : BufTy).Contents (Elt F)),
    StableHlo.binary main_v27 main_v31 main_v32 (addf : (⟨S96, .f32⟩ : BufTy).Contents (Elt F) → (⟨S96, .f32⟩ : BufTy).Contents (Elt F) → (⟨S96, .f32⟩ : BufTy).Contents (Elt F)),
    StableHlo.unary main_v32 main_v33 (Host.rsqrt : (⟨S96, .f32⟩ : BufTy).Contents (Elt F) → (⟨S96, .f32⟩ : BufTy).Contents (Elt F)),
    StableHlo.unary main_v33 main_v34 (broadcastInDim S1x96 ![1] bcast_S96_S1x96_1 : (⟨S96, .f32⟩ : BufTy).Contents (Elt F) → (⟨S1x96, .f32⟩ : BufTy).Contents (Elt F)),
    StableHlo.unary main_v34 main_v35 (broadcastInDim S50000x96 ![0, 1] bcast_S1x96_S50000x96_0_1 : (⟨S1x96, .f32⟩ : BufTy).Contents (Elt F) → (⟨S50000x96, .f32⟩ : BufTy).Contents (Elt F)),
    StableHlo.binary main_v30 main_v35 main_v36 (mulf : (⟨S50000x96, .f32⟩ : BufTy).Contents (Elt F) → (⟨S50000x96, .f32⟩ : BufTy).Contents (Elt F) → (⟨S50000x96, .f32⟩ : BufTy).Contents (Elt F)),
    StableHlo.unary main_arg9 main_v37 (broadcastInDim S1x96 ![1] bcast_S96_S1x96_1 : (⟨S96, .f32⟩ : BufTy).Contents (Elt F) → (⟨S1x96, .f32⟩ : BufTy).Contents (Elt F)),
    StableHlo.unary main_v37 main_v38 (broadcastInDim S50000x96 ![0, 1] bcast_S1x96_S50000x96_0_1 : (⟨S1x96, .f32⟩ : BufTy).Contents (Elt F) → (⟨S50000x96, .f32⟩ : BufTy).Contents (Elt F)),
    StableHlo.binary main_v36 main_v38 main_v39 (mulf : (⟨S50000x96, .f32⟩ : BufTy).Contents (Elt F) → (⟨S50000x96, .f32⟩ : BufTy).Contents (Elt F) → (⟨S50000x96, .f32⟩ : BufTy).Contents (Elt F)),
    StableHlo.unary main_arg10 main_v40 (broadcastInDim S1x96 ![1] bcast_S96_S1x96_1 : (⟨S96, .f32⟩ : BufTy).Contents (Elt F) → (⟨S1x96, .f32⟩ : BufTy).Contents (Elt F)),
    StableHlo.unary main_v40 main_v41 (broadcastInDim S50000x96 ![0, 1] bcast_S1x96_S50000x96_0_1 : (⟨S1x96, .f32⟩ : BufTy).Contents (Elt F) → (⟨S50000x96, .f32⟩ : BufTy).Contents (Elt F)),
    StableHlo.binary main_v39 main_v41 main_v42 (addf : (⟨S50000x96, .f32⟩ : BufTy).Contents (Elt F) → (⟨S50000x96, .f32⟩ : BufTy).Contents (Elt F) → (⟨S50000x96, .f32⟩ : BufTy).Contents (Elt F)),
    StableHlo.nullary main_cst_6 (constant S_ .f32 0x00000000#32),
    StableHlo.unary main_cst_6 main_v43 (broadcastInDim S50000x96 ![] bcast_S_S50000x96 : (⟨S_, .f32⟩ : BufTy).Contents (Elt F) → (⟨S50000x96, .f32⟩ : BufTy).Contents (Elt F)),
    StableHlo.binary main_v42 main_v43 main_v44 (maximumf : (⟨S50000x96, .f32⟩ : BufTy).Contents (Elt F) → (⟨S50000x96, .f32⟩ : BufTy).Contents (Elt F) → (⟨S50000x96, .f32⟩ : BufTy).Contents (Elt F)),
    StableHlo.nullary main_c_7 (constantI S_ 32 0#32),
    StableHlo.unary main_c_7 main_v45 (broadcastInDim S850000 ![] bcast_S_S850000 : (⟨S_, .i32⟩ : BufTy).Contents (Elt F) → (⟨S850000, .i32⟩ : BufTy).Contents (Elt F)),
    StableHlo.binary main_v1 main_v45 main_v46 (cmpi .slt : (⟨S850000, .i32⟩ : BufTy).Contents (Elt F) → (⟨S850000, .i32⟩ : BufTy).Contents (Elt F) → (⟨S850000, .i1⟩ : BufTy).Contents (Elt F)),
    StableHlo.nullary main_c_8 (constantI S_ 32 50000#32),
    StableHlo.unary main_c_8 main_v47 (broadcastInDim S850000 ![] bcast_S_S850000 : (⟨S_, .i32⟩ : BufTy).Contents (Elt F) → (⟨S850000, .i32⟩ : BufTy).Contents (Elt F)),
    StableHlo.binary main_v1 main_v47 main_v48 (addi : (⟨S850000, .i32⟩ : BufTy).Contents (Elt F) → (⟨S850000, .i32⟩ : BufTy).Contents (Elt F) → (⟨S850000, .i32⟩ : BufTy).Contents (Elt F)),
    StableHlo.ternary main_v46 main_v48 main_v1 main_v49 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v49 main_v50 (broadcastInDim S850000x1 ![0] bcast_S850000_S850000x1_0 : (⟨S850000, .i32⟩ : BufTy).Contents (Elt F) → (⟨S850000x1, .i32⟩ : BufTy).Contents (Elt F)),
    StableHlo.binary main_v44 main_v50 main_v51 ((fun x i => Host.gather gather_S50000x96_S850000x1_S850000x96_1_0_n_n_0_1_196 x i) : (⟨S50000x96, .f32⟩ : BufTy).Contents (Elt F) → (⟨S850000x1, .i32⟩ : BufTy).Contents (Elt F) → (⟨S850000x96, .f32⟩ : BufTy).Contents (Elt F)),
    StableHlo.nullary main_cst_9 (constant S_ .f32 0x00000000#32),
    StableHlo.unary main_cst_9 main_v52 (broadcastInDim S50000x96 ![] bcast_S_S50000x96 : (⟨S_, .f32⟩ : BufTy).Contents (Elt F) → (⟨S50000x96, .f32⟩ : BufTy).Contents (Elt F)),
    StableHlo.unary main_v2 main_v53 (broadcastInDim S850000x1 ![0] bcast_S850000_S850000x1_0 : (⟨S850000, .i32⟩ : BufTy).Contents (Elt F) → (⟨S850000x1, .i32⟩ : BufTy).Contents (Elt F)),
    StableHlo.ternary main_v52 main_v53 main_v51 main_v54 ((fun x i u => Host.scatterAdd scatter_S50000x96_S850000x1_S850000x96_1_0_0_1 x i u) : (⟨S50000x96, .f32⟩ : BufTy).Contents (Elt F) → (⟨S850000x1, .i32⟩ : BufTy).Contents (Elt F) → (⟨S850000x96, .f32⟩ : BufTy).Contents (Elt F) → (⟨S50000x96, .f32⟩ : BufTy).Contents (Elt F)),
    StableHlo.binary main_v44 main_v54 main_v55 (addf : (⟨S50000x96, .f32⟩ : BufTy).Contents (Elt F) → (⟨S50000x96, .f32⟩ : BufTy).Contents (Elt F) → (⟨S50000x96, .f32⟩ : BufTy).Contents (Elt F)),
    StableHlo.binary main_v55 main_arg5 main_v56 ((fun l r => Host.dotGeneral dot_S50000x96_S96x96_S50000x96_1_0_0_1_n_n none l r) : (⟨S50000x96, .f32⟩ : BufTy).Contents (Elt F) → (⟨S96x96, .f32⟩ : BufTy).Contents (Elt F) → (⟨S50000x96, .f32⟩ : BufTy).Contents (Elt F)),
    StableHlo.unary main_arg6 main_v57 (broadcastInDim S1x96 ![1] bcast_S96_S1x96_1 : (⟨S96, .f32⟩ : BufTy).Contents (Elt F) → (⟨S1x96, .f32⟩ : BufTy).Contents (Elt F)),
    StableHlo.unary main_v57 main_v58 (broadcastInDim S50000x96 ![0, 1] bcast_S1x96_S50000x96_0_1 : (⟨S1x96, .f32⟩ : BufTy).Contents (Elt F) → (⟨S50000x96, .f32⟩ : BufTy).Contents (Elt F)),
    StableHlo.binary main_v56 main_v58 main_v59 (addf : (⟨S50000x96, .f32⟩ : BufTy).Contents (Elt F) → (⟨S50000x96, .f32⟩ : BufTy).Contents (Elt F) → (⟨S50000x96, .f32⟩ : BufTy).Contents (Elt F)),
    StableHlo.nullary main_cst_10 (constant S_ .f32 0x00000000#32),
    StableHlo.unary main_cst_10 main_v60 (broadcastInDim S50000x96 ![] bcast_S_S50000x96 : (⟨S_, .f32⟩ : BufTy).Contents (Elt F) → (⟨S50000x96, .f32⟩ : BufTy).Contents (Elt F)),
    StableHlo.binary main_v59 main_v60 main_v61 (maximumf : (⟨S50000x96, .f32⟩ : BufTy).Contents (Elt F) → (⟨S50000x96, .f32⟩ : BufTy).Contents (Elt F) → (⟨S50000x96, .f32⟩ : BufTy).Contents (Elt F)),
    StableHlo.binary main_v61 main_arg7 main_v62 ((fun l r => Host.dotGeneral dot_S50000x96_S96x96_S50000x96_1_0_0_1_n_n none l r) : (⟨S50000x96, .f32⟩ : BufTy).Contents (Elt F) → (⟨S96x96, .f32⟩ : BufTy).Contents (Elt F) → (⟨S50000x96, .f32⟩ : BufTy).Contents (Elt F)),
    StableHlo.unary main_arg8 main_v63 (broadcastInDim S1x96 ![1] bcast_S96_S1x96_1 : (⟨S96, .f32⟩ : BufTy).Contents (Elt F) → (⟨S1x96, .f32⟩ : BufTy).Contents (Elt F)),
    StableHlo.unary main_v63 main_v64 (broadcastInDim S50000x96 ![0, 1] bcast_S1x96_S50000x96_0_1 : (⟨S1x96, .f32⟩ : BufTy).Contents (Elt F) → (⟨S50000x96, .f32⟩ : BufTy).Contents (Elt F)),
    StableHlo.binary main_v62 main_v64 main_v65 (addf : (⟨S50000x96, .f32⟩ : BufTy).Contents (Elt F) → (⟨S50000x96, .f32⟩ : BufTy).Contents (Elt F) → (⟨S50000x96, .f32⟩ : BufTy).Contents (Elt F)),
    StableHlo.nullary main_cst_11 (constant S_ .f32 0x00000000#32),
    StableHlo.binary main_v65 main_cst_11 main_v66 ((fun x v => Host.reduceAdd x v reducesTo_S50000x96_S96_d0 h_S_) : (⟨S50000x96, .f32⟩ : BufTy).Contents (Elt F) → (⟨S_, .f32⟩ : BufTy).Contents (Elt F) → (⟨S96, .f32⟩ : BufTy).Contents (Elt F)),
    StableHlo.nullary main_cst_12 (constant S_ .f32 0x47435000#32),
    StableHlo.unary main_cst_12 main_v67 (broadcastInDim S96 ![] bcast_S_S96 : (⟨S_, .f32⟩ : BufTy).Contents (Elt F) → (⟨S96, .f32⟩ : BufTy).Contents (Elt F)),
    StableHlo.binary main_v66 main_v67 main_v68 (Host.divf : (⟨S96, .f32⟩ : BufTy).Contents (Elt F) → (⟨S96, .f32⟩ : BufTy).Contents (Elt F) → (⟨S96, .f32⟩ : BufTy).Contents (Elt F)),
    StableHlo.nullary main_c_13 (constantI S_ 32 0#32),
    StableHlo.TRef.nullary main_call1.cst (constant S_ .f32 0x00000000#32),
    StableHlo.TRef.binary (.of main_v65 : StableHlo.TRef sig ⟨S50000x96, .f32⟩) main_call1.cst main_call1.v0 (fun x v => Host.reduceAdd x v reducesTo_S50000x96_S96_d0 h_S_),
    StableHlo.TRef.unary main_call1.v0 main_call1.v1 (broadcastInDim S1x96 ![1] bcast_S96_S1x96_1),
    StableHlo.TRef.nullary main_call1.cst_0 (constant S_ .f32 0x47435000#32),
    StableHlo.TRef.unary main_call1.cst_0 main_call1.v2 (broadcastInDim S1x96 ![] bcast_S_S1x96),
    StableHlo.TRef.binary main_call1.v1 main_call1.v2 main_call1.v3 Host.divf,
    StableHlo.TRef.unary main_call1.v3 main_call1.v4 (broadcastInDim S50000x96 ![0, 1] bcast_S1x96_S50000x96_0_1),
    StableHlo.TRef.binary (.of main_v65 : StableHlo.TRef sig ⟨S50000x96, .f32⟩) main_call1.v4 main_call1.v5 subf,
    StableHlo.TRef.binary main_call1.v5 main_call1.v5 main_call1.v6 mulf,
    StableHlo.TRef.unary (.of main_c_13 : StableHlo.TRef sig ⟨S_, .i32⟩) main_call1.v7 (sitofp .f32),
    StableHlo.TRef.nullary main_call1.cst_1 (constant S_ .f32 0x47435000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S50000x96_S96_d0 h_S_),
    StableHlo.TRef.unary main_call1.v8 main_call1.v10 (broadcastInDim S96 ![] bcast_S_S96),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S96 ![] bcast_S_S96),
    StableHlo.TRef.ternary main_call1.v12 main_call1.v11 main_call1.call0.v1 main_call1.call0.v2 (fun p a b => select (broadcastInDim S96 ![] bcast_S_S96 p) a b),
    StableHlo.unary main_v68 main_v70 (broadcastInDim S1x96 ![1] bcast_S96_S1x96_1 : (⟨S96, .f32⟩ : BufTy).Contents (Elt F) → (⟨S1x96, .f32⟩ : BufTy).Contents (Elt F)),
    StableHlo.unary main_v70 main_v71 (broadcastInDim S50000x96 ![0, 1] bcast_S1x96_S50000x96_0_1 : (⟨S1x96, .f32⟩ : BufTy).Contents (Elt F) → (⟨S50000x96, .f32⟩ : BufTy).Contents (Elt F)),
    StableHlo.binary main_v65 main_v71 main_v72 (subf : (⟨S50000x96, .f32⟩ : BufTy).Contents (Elt F) → (⟨S50000x96, .f32⟩ : BufTy).Contents (Elt F) → (⟨S50000x96, .f32⟩ : BufTy).Contents (Elt F)),
    StableHlo.nullary main_cst_14 (constant S_ .f32 0x3727C5AC#32),
    StableHlo.unary main_cst_14 main_v73 (broadcastInDim S96 ![] bcast_S_S96 : (⟨S_, .f32⟩ : BufTy).Contents (Elt F) → (⟨S96, .f32⟩ : BufTy).Contents (Elt F)),
    StableHlo.binary main_v69 main_v73 main_v74 (addf : (⟨S96, .f32⟩ : BufTy).Contents (Elt F) → (⟨S96, .f32⟩ : BufTy).Contents (Elt F) → (⟨S96, .f32⟩ : BufTy).Contents (Elt F)),
    StableHlo.unary main_v74 main_v75 (Host.rsqrt : (⟨S96, .f32⟩ : BufTy).Contents (Elt F) → (⟨S96, .f32⟩ : BufTy).Contents (Elt F)),
    StableHlo.unary main_v75 main_v76 (broadcastInDim S1x96 ![1] bcast_S96_S1x96_1 : (⟨S96, .f32⟩ : BufTy).Contents (Elt F) → (⟨S1x96, .f32⟩ : BufTy).Contents (Elt F)),
    StableHlo.unary main_v76 main_v77 (broadcastInDim S50000x96 ![0, 1] bcast_S1x96_S50000x96_0_1 : (⟨S1x96, .f32⟩ : BufTy).Contents (Elt F) → (⟨S50000x96, .f32⟩ : BufTy).Contents (Elt F)),
    StableHlo.binary main_v72 main_v77 main_v78 (mulf : (⟨S50000x96, .f32⟩ : BufTy).Contents (Elt F) → (⟨S50000x96, .f32⟩ : BufTy).Contents (Elt F) → (⟨S50000x96, .f32⟩ : BufTy).Contents (Elt F)),
    StableHlo.unary main_arg11 main_v79 (broadcastInDim S1x96 ![1] bcast_S96_S1x96_1 : (⟨S96, .f32⟩ : BufTy).Contents (Elt F) → (⟨S1x96, .f32⟩ : BufTy).Contents (Elt F)),
    StableHlo.unary main_v79 main_v80 (broadcastInDim S50000x96 ![0, 1] bcast_S1x96_S50000x96_0_1 : (⟨S1x96, .f32⟩ : BufTy).Contents (Elt F) → (⟨S50000x96, .f32⟩ : BufTy).Contents (Elt F)),
    StableHlo.binary main_v78 main_v80 main_v81 (mulf : (⟨S50000x96, .f32⟩ : BufTy).Contents (Elt F) → (⟨S50000x96, .f32⟩ : BufTy).Contents (Elt F) → (⟨S50000x96, .f32⟩ : BufTy).Contents (Elt F)),
    StableHlo.unary main_arg12 main_v82 (broadcastInDim S1x96 ![1] bcast_S96_S1x96_1 : (⟨S96, .f32⟩ : BufTy).Contents (Elt F) → (⟨S1x96, .f32⟩ : BufTy).Contents (Elt F)),
    StableHlo.unary main_v82 main_v83 (broadcastInDim S50000x96 ![0, 1] bcast_S1x96_S50000x96_0_1 : (⟨S1x96, .f32⟩ : BufTy).Contents (Elt F) → (⟨S50000x96, .f32⟩ : BufTy).Contents (Elt F)),
    StableHlo.binary main_v81 main_v83 main_v84 (addf : (⟨S50000x96, .f32⟩ : BufTy).Contents (Elt F) → (⟨S50000x96, .f32⟩ : BufTy).Contents (Elt F) → (⟨S50000x96, .f32⟩ : BufTy).Contents (Elt F)),
    StableHlo.nullary main_cst_15 (constant S_ .f32 0x00000000#32),
    StableHlo.unary main_cst_15 main_v85 (broadcastInDim S50000x96 ![] bcast_S_S50000x96 : (⟨S_, .f32⟩ : BufTy).Contents (Elt F) → (⟨S50000x96, .f32⟩ : BufTy).Contents (Elt F)),
    StableHlo.binary main_v84 main_v85 main_v86 (maximumf : (⟨S50000x96, .f32⟩ : BufTy).Contents (Elt F) → (⟨S50000x96, .f32⟩ : BufTy).Contents (Elt F) → (⟨S50000x96, .f32⟩ : BufTy).Contents (Elt F)),
    StableHlo.binary main_v86 main_arg13 main_v87 ((fun l r => Host.dotGeneral dot_S50000x96_S96x64_S50000x64_1_0_0_1_n_n none l r) : (⟨S50000x96, .f32⟩ : BufTy).Contents (Elt F) → (⟨S96x64, .f32⟩ : BufTy).Contents (Elt F) → (⟨S50000x64, .f32⟩ : BufTy).Contents (Elt F)),
    StableHlo.unary main_arg14 main_v88 (broadcastInDim S1x64 ![1] bcast_S64_S1x64_1 : (⟨S64, .f32⟩ : BufTy).Contents (Elt F) → (⟨S1x64, .f32⟩ : BufTy).Contents (Elt F)),
    StableHlo.unary main_v88 main_v89 (broadcastInDim S50000x64 ![0, 1] bcast_S1x64_S50000x64_0_1 : (⟨S1x64, .f32⟩ : BufTy).Contents (Elt F) → (⟨S50000x64, .f32⟩ : BufTy).Contents (Elt F)),
    StableHlo.binary main_v87 main_v89 main_v90 (addf : (⟨S50000x64, .f32⟩ : BufTy).Contents (Elt F) → (⟨S50000x64, .f32⟩ : BufTy).Contents (Elt F) → (⟨S50000x64, .f32⟩ : BufTy).Contents (Elt F)) ]

theorem ops_eq : (ops : List (HloOp τ sig (Elt F))) = ops0 ++ ops1 := rfl

end Cert.ReferenceIdeal.RefRun

end
-- ==== Proof.RefRunMain.lean ====
/- @main of the reference program is the straight line of its operations: the two windows it is printed in, each
   with its call of @_var (and, inside, of @_where) unfolded at the call site, are sequences of single operations
   once sequencing is reassociated; the two windows in turn are the concatenated list. -/
import proofs.«111056_j31628139167864_2_alg».proof.Proof.RefRunOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- The first window is the line of its operations. -/
theorem part0_eq (c : Dev nD) : main_part0 (F := F) c = seq ops0 := by
  simp only [main_part0, fn_var.body, fn_where.body, seq, bind_assoc, pure_bind]
  rfl

set_option maxRecDepth 8192 in
set_option maxHeartbeats 4000000 in
/-- The second window is the line of its operations. -/
theorem part1_eq (c : Dev nD) : main_part1 (F := F) c = seq ops1 := by
  simp only [main_part1, fn_var.body, fn_where.body, seq, bind_assoc, pure_bind]

/-- @main is the line of all its operations. -/
theorem main_eq (c : Dev nD) : main (F := F) c = seq ops := by
  rw [ops_eq, seq_append, ← part0_eq c, ← part1_eq c]
  rfl

end Cert.ReferenceIdeal.RefRun

end
-- ==== Proof.RefRun.lean ====
/- The run of the reference program: every weakly fair execution of @main terminates with the result buffer at
   the fold of its operations over the launch contents, and the seventeen argument buffers as they were (no
   operation of the line writes one). -/
import proofs.«111056_j31628139167864_2_alg».proof.Defs
import proofs.«111056_j31628139167864_2_alg».proof.Proof.RefRunMain
import proofs.«111056_j31628139167864_2_alg».proof.Proof.Gen.Pre_finite_inputs

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

theorem scopedRefs_eq : (Finset.univ.filter fun b : Ref sig .tc => b.isScoped) = ∅ := by decide
theorem scopedSems_eq : (Finset.univ.filter fun sm : SemLoc sig => sm.isScoped .tc) = ∅ := by decide

/-- The fold of two lines run one after the other is the second's fold over the first's. -/
theorem after_append' : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_append' l₁ l₂]

/-- Every operation of the first window reads and writes TensorCore buffers only. -/
theorem ops0_sub : (ops0 : List (HloOp τ sig (Elt F))).Forall fun op => op.bufs ⊆ tcRefs τ sig :=
  ⟨nullary_bufs_sub .., binary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    nullary_bufs_sub .., unary_bufs_sub .., unary_bufs_sub .., ternary_bufs_sub .., binary_bufs_sub .., binary_bufs_sub ..,
    unary_bufs_sub .., unary_bufs_sub .., binary_bufs_sub .., nullary_bufs_sub .., unary_bufs_sub .., binary_bufs_sub ..,
    binary_bufs_sub .., unary_bufs_sub .., unary_bufs_sub .., binary_bufs_sub .., nullary_bufs_sub .., binary_bufs_sub ..,
    nullary_bufs_sub .., unary_bufs_sub .., binary_bufs_sub .., nullary_bufs_sub .., nullary_bufs_sub .., binary_bufs_sub ..,
    unary_bufs_sub .., nullary_bufs_sub .., unary_bufs_sub .., binary_bufs_sub .., unary_bufs_sub .., binary_bufs_sub ..,
    binary_bufs_sub .., unary_bufs_sub .., nullary_bufs_sub .., binary_bufs_sub .., nullary_bufs_sub .., binary_bufs_sub ..,
    unary_bufs_sub .., binary_bufs_sub .., nullary_bufs_sub .., binary_bufs_sub .., nullary_bufs_sub .., unary_bufs_sub ..,
    unary_bufs_sub .., ternary_bufs_sub .., unary_bufs_sub .., unary_bufs_sub .., binary_bufs_sub .., nullary_bufs_sub ..,
    unary_bufs_sub .., binary_bufs_sub .., unary_bufs_sub .., unary_bufs_sub .., unary_bufs_sub .., binary_bufs_sub ..,
    unary_bufs_sub .., unary_bufs_sub .., binary_bufs_sub .., unary_bufs_sub .., unary_bufs_sub .., binary_bufs_sub ..,
    nullary_bufs_sub .., unary_bufs_sub .., binary_bufs_sub .., nullary_bufs_sub .., unary_bufs_sub .., binary_bufs_sub ..,
    nullary_bufs_sub .., unary_bufs_sub .., binary_bufs_sub ..⟩

/-- Every operation of the second window reads and writes TensorCore buffers only. -/
theorem ops1_sub : (ops1 : List (HloOp τ sig (Elt F))).Forall fun op => op.bufs ⊆ tcRefs τ sig :=
  ⟨ternary_bufs_sub .., unary_bufs_sub .., binary_bufs_sub .., nullary_bufs_sub .., unary_bufs_sub .., unary_bufs_sub ..,
    ternary_bufs_sub .., binary_bufs_sub .., binary_bufs_sub .., unary_bufs_sub .., unary_bufs_sub .., binary_bufs_sub ..,
    nullary_bufs_sub .., unary_bufs_sub .., binary_bufs_sub .., binary_bufs_sub .., unary_bufs_sub .., unary_bufs_sub ..,
    binary_bufs_sub .., nullary_bufs_sub .., binary_bufs_sub .., nullary_bufs_sub .., unary_bufs_sub .., binary_bufs_sub ..,
    nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., binary_bufs_sub .., nullary_bufs_sub ..,
    binary_bufs_sub .., nullary_bufs_sub .., unary_bufs_sub .., unary_bufs_sub .., ternary_bufs_sub .., unary_bufs_sub ..,
    unary_bufs_sub .., binary_bufs_sub .., nullary_bufs_sub .., unary_bufs_sub .., binary_bufs_sub .., unary_bufs_sub ..,
    unary_bufs_sub .., unary_bufs_sub .., binary_bufs_sub .., unary_bufs_sub .., unary_bufs_sub .., binary_bufs_sub ..,
    unary_bufs_sub .., unary_bufs_sub .., binary_bufs_sub .., nullary_bufs_sub .., unary_bufs_sub .., binary_bufs_sub ..,
    binary_bufs_sub .., unary_bufs_sub .., unary_bufs_sub .., binary_bufs_sub ..⟩

theorem ops_sub : (ops : List (HloOp τ sig (Elt F))).Forall fun op => op.bufs ⊆ tcRefs τ sig := by
  rw [ops_eq, List.forall_iff_forall_mem]
  intro op h
  rcases List.mem_append.1 h with h | h
  · exact List.forall_iff_forall_mem.1 ops0_sub op h
  · exact List.forall_iff_forall_mem.1 ops1_sub op h

/-- Every operation determines the contents it writes. -/
theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl⟩

theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl⟩

theorem ops_fresh : ∀ op ∈ (ops : List (HloOp τ sig (Elt F))), op.fresh = ∅ := by
  rw [ops_eq]
  intro op h
  rcases List.mem_append.1 h with h | h
  · exact List.forall_iff_forall_mem.1 ops0_fresh op h
  · exact List.forall_iff_forall_mem.1 ops1_fresh op h

/-- The buffers the first window's operations write, in order. -/
abbrev W0 : List (Ref sig .tc) :=
  [main_v0, main_v1, main_v2, main_c, main_v3, main_v4, main_c_0, main_v5, main_v6, main_v7,
   main_v8, main_v9, main_cst, main_v10, main_v11, main_v12, main_v13, main_v14, main_v15, main_v16,
   main_v17, main_cst_1, main_v18, main_v19, main_v20, main_v21, main_v22, main_v23, main_cst_2, main_v24,
   main_cst_3, main_v25, main_v26, main_c_4, main_call0_cst, main_call0_v0, main_call0_v1, main_call0_cst_0, main_call0_v2, main_call0_v3,
   main_call0_v4, main_call0_v5, main_call0_v6, main_call0_v7, main_call0_cst_1, main_call0_v8, main_call0_cst_2, main_call0_v9, main_call0_v10, main_call0_v11,
   main_call0_cst_3, main_call0_v12, main_call0_cst_4, main_call0_call0_v0, main_call0_call0_v1, main_v27, main_v28, main_v29, main_v30, main_cst_5,
   main_v31, main_v32, main_v33, main_v34, main_v35, main_v36, main_v37, main_v38, main_v39, main_v40,
   main_v41, main_v42, main_cst_6, main_v43, main_v44, main_c_7, main_v45, main_v46, main_c_8, main_v47,
   main_v48]

/-- The buffers the second window's operations write, in order. -/
abbrev W1 : List (Ref sig .tc) :=
  [main_v49, main_v50, main_v51, main_cst_9, main_v52, main_v53, main_v54, main_v55, main_v56, main_v57,
   main_v58, main_v59, main_cst_10, main_v60, main_v61, main_v62, main_v63, main_v64, main_v65, main_cst_11,
   main_v66, main_cst_12, main_v67, main_v68, main_c_13, main_call1_cst, main_call1_v0, main_call1_v1, main_call1_cst_0, main_call1_v2,
   main_call1_v3, main_call1_v4, main_call1_v5, main_call1_v6, main_call1_v7, main_call1_cst_1, main_call1_v8, main_call1_cst_2, main_call1_v9, main_call1_v10,
   main_call1_v11, main_call1_cst_3, main_call1_v12, main_call1_cst_4, main_call1_call0_v0, main_call1_call0_v1, main_v69, main_v70, main_v71, main_v72,
   main_cst_14, main_v73, main_v74, main_v75, main_v76, main_v77, main_v78, main_v79, main_v80, main_v81,
   main_v82, main_v83, main_v84, main_cst_15, main_v85, main_v86, main_v87, main_v88, main_v89, main_v90]

set_option maxRecDepth 8192 in
set_option maxHeartbeats 4000000 in
theorem ops0_writes : (ops0 : List (HloOp τ sig (Elt F))).Forall fun op =>
    op.writes ⊆ (W0.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_,
    ?_, ?_, ?_, ?_, ?_, ?_, ?_, ?_, ?_, ?_, ?_, ?_, ?_, ?_, ?_, ?_, ?_, ?_, ?_, ?_, ?_, ?_, ?_, ?_, ?_, ?_, ?_, ?_, ?_, ?_,
    ?_, ?_, ?_, ?_, ?_, ?_, ?_, ?_, ?_, ?_, ?_, ?_, ?_, ?_, ?_, ?_, ?_, ?_, ?_, ?_, ?_⟩ <;>
    (simp only [nullary_writes, unary_writes, binary_writes, ternary_writes, Finset.singleton_subset_iff, List.mem_toFinset]
     exact List.mem_map_of_mem (by decide))

set_option maxRecDepth 8192 in
set_option maxHeartbeats 4000000 in
theorem ops1_writes : (ops1 : List (HloOp τ sig (Elt F))).Forall fun op =>
    op.writes ⊆ (W1.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_,
    ?_, ?_, ?_, ?_, ?_, ?_, ?_, ?_, ?_, ?_, ?_, ?_, ?_, ?_, ?_, ?_, ?_, ?_, ?_, ?_, ?_, ?_, ?_, ?_, ?_, ?_, ?_, ?_, ?_, ?_,
    ?_, ?_, ?_, ?_, ?_, ?_, ?_, ?_, ?_, ?_⟩ <;>
    (simp only [nullary_writes, unary_writes, binary_writes, ternary_writes, Finset.singleton_subset_iff, List.mem_toFinset]
     exact List.mem_map_of_mem (by decide))

/-- A buffer neither window writes keeps its contents through the whole line. -/
theorem after_keep (V : Valuation τ sig (Elt F)) (r : Ref sig .tc) (h0 : r ∉ W0) (h1 : r ∉ W1) :
    after ops V (Proc.devRef .tc r) = V (Proc.devRef .tc r) := by
  rw [ops_eq, after_append', after_of_writes_sub ops1 _ ops1_writes h1, after_of_writes_sub ops0 _ ops0_writes h0]

/-- On every device, for any float values, from any memory with zero counters: every weakly fair execution of
    @main terminates with the result at the fold of the operations over the launch contents and the arguments
    unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v90) = after ops (fun b => m (c, b)) (Proc.devRef .tc main_v90)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run defs _ _).mono (fun _ h c => ⟨h c main_v90,
      (h c main_arg0).trans (after_keep _ main_arg0 (by decide) (by decide)),
      (h c main_arg1).trans (after_keep _ main_arg1 (by decide) (by decide)),
      (h c main_arg2).trans (after_keep _ main_arg2 (by decide) (by decide)),
      (h c main_arg3).trans (after_keep _ main_arg3 (by decide) (by decide)),
      (h c main_arg4).trans (after_keep _ main_arg4 (by decide) (by decide)),
      (h c main_arg5).trans (after_keep _ main_arg5 (by decide) (by decide)),
      (h c main_arg6).trans (after_keep _ main_arg6 (by decide) (by decide)),
      (h c main_arg7).trans (after_keep _ main_arg7 (by decide) (by decide)),
      (h c main_arg8).trans (after_keep _ main_arg8 (by decide) (by decide)),
      (h c main_arg9).trans (after_keep _ main_arg9 (by decide) (by decide)),
      (h c main_arg10).trans (after_keep _ main_arg10 (by decide) (by decide)),
      (h c main_arg11).trans (after_keep _ main_arg11 (by decide) (by decide)),
      (h c main_arg12).trans (after_keep _ main_arg12 (by decide) (by decide)),
      (h c main_arg13).trans (after_keep _ main_arg13 (by decide) (by decide)),
      (h c main_arg14).trans (after_keep _ main_arg14 (by decide) (by decide)),
      (h c main_arg15).trans (after_keep _ main_arg15 (by decide) (by decide)),
      (h c main_arg16).trans (after_keep _ main_arg16 (by decide) (by decide))⟩)
    (run_seq scopedRefs_eq scopedSems_eq defs main (fun _ => ops) main_eq (fun _ => ops_sub) m ρ (fun _ => ops_fresh))

/-- The reference program runs, and its argument arrays end unchanged. -/
theorem frame_ref : Cert.frame_ReferenceIdeal :=
  fun m g _ => (θ_run _ _ _).mono (fun _ h c => (h c).2) (run m g)

end Cert.ReferenceIdeal.RefRun

end
-- ==== Proof.HostK.lean ====
/- The host operations between the regions as functions of the buffers they read: vectors as one-row matrices and
   back, the per-feature mean and inverse deviation from the column sums, the neighbour sum over the incoming edges. -/
import proofs.«111056_j31628139167864_2_alg».proof.Proof.Gen.KernelIdeal.Launch
import Idealize.ShloMosaic.Lib.StableHlo.Run
import Idealize.ShloMosaic.Lib.Tactic

set_option maxRecDepth 16384

noncomputable section

namespace Cert.KernelIdeal.HandValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

/-! ## The host operations between the regions, as functions of the buffers they read -/

/-- A vector `[96]` as the one-row matrix `[1, 96]`. -/
def rowOf (x : FVec F S96 .f32) : FVec F S1x96 .f32 := shapeCast S1x96 x shapeCasts_S96_S1x96
/-- A one-row matrix `[1, 96]` as the vector `[96]`. -/
def vecOf (x : FVec F S1x96 .f32) : FVec F S96 .f32 := shapeCast S96 x shapeCasts_S1x96_S96
/-- A vector `[64]` as the one-row matrix `[1, 64]`. -/
def rowOf64 (x : FVec F S64 .f32) : FVec F S1x64 .f32 := shapeCast S1x64 x shapeCasts_S64_S1x64

/-- The per-feature mean from the column sums: the sums divided by the node count. -/
def muVec (s : FVec F S1x96 .f32) : FVec F S96 .f32 :=
  Host.divf (vecOf s) (broadcastInDim S96 ![] bcast_S_S96 (constant S_ .f32 0x47435000#32))
/-- The per-feature inverse deviation: rsqrt (sumsq / count − mean² + ε). -/
def invVec (s q : FVec F S1x96 .f32) : FVec F S96 .f32 :=
  Host.rsqrt (addf (subf (Host.divf (vecOf q) (broadcastInDim S96 ![] bcast_S_S96 (constant S_ .f32 0x47435000#32)))
      (mulf (muVec s) (muVec s)))
    (broadcastInDim S96 ![] bcast_S_S96 (constant S_ .f32 0x3727C5AC#32)))

/-- The sum over the incoming edges of the source rows: gather the rows at the wrapped source indices, accumulate
    them at the destination indices onto zeros. -/
def hostAgg (X : FVec F S50000x96 .f32) (s d : IVec S800000 32) : FVec F S50000x96 .f32 :=
  Host.scatterAdd scatter_S50000x96_S800000x1_S800000x96_1_0_0_1
    (broadcastInDim S50000x96 ![] bcast_S_S50000x96 (constant S_ .f32 0x00000000#32))
    (broadcastInDim S800000x1 ![0] bcast_S800000_S800000x1_0 d)
    (Host.gather gather_S50000x96_S800000x1_S800000x96_1_0_n_n_0_1_196 X
      (broadcastInDim S800000x1 ![0] bcast_S800000_S800000x1_0
        (select (cmpi CmpIPredicate.slt s (broadcastInDim S800000 ![] bcast_S_S800000 (constantI S_ 32 0#32)))
          (addi s (broadcastInDim S800000 ![] bcast_S_S800000 (constantI S_ 32 50000#32))) s)))

variable (V : Valuation τ sig (Elt F))

theorem ho0_v14 : StableHlo.after hostOps0 V (Proc.devRef .tc main_v14) = hostAgg (V (Proc.devRef .tc main_arg0)) (V (Proc.devRef .tc main_arg15)) (V (Proc.devRef .tc main_arg16)) := by
  after_results_simp; rfl
theorem ho0_v0 : StableHlo.after hostOps0 V (Proc.devRef .tc main_v0) = truncf .bf16 (V (Proc.devRef .tc main_arg1)) bitsLt_bf16_f32 := by
  after_results_simp
theorem ho0_v1 : StableHlo.after hostOps0 V (Proc.devRef .tc main_v1) = truncf .bf16 (V (Proc.devRef .tc main_arg3)) bitsLt_bf16_f32 := by
  after_results_simp
theorem ho0_v2 : StableHlo.after hostOps0 V (Proc.devRef .tc main_v2) = truncf .bf16 (V (Proc.devRef .tc main_arg5)) bitsLt_bf16_f32 := by
  after_results_simp
theorem ho0_v3 : StableHlo.after hostOps0 V (Proc.devRef .tc main_v3) = truncf .bf16 (V (Proc.devRef .tc main_arg7)) bitsLt_bf16_f32 := by
  after_results_simp
theorem ho0_v4 : StableHlo.after hostOps0 V (Proc.devRef .tc main_v4) = truncf .bf16 (V (Proc.devRef .tc main_arg13)) bitsLt_bf16_f32 := by
  after_results_simp
theorem ho0_v15 : StableHlo.after hostOps0 V (Proc.devRef .tc main_v15) = rowOf (V (Proc.devRef .tc main_arg2)) := by
  after_results_simp; rfl
theorem ho0_v16 : StableHlo.after hostOps0 V (Proc.devRef .tc main_v16) = rowOf (V (Proc.devRef .tc main_arg4)) := by
  after_results_simp; rfl

theorem ho1_v29 : StableHlo.after hostOps1 V (Proc.devRef .tc main_v29) = rowOf (muVec (V (Proc.devRef .tc main_v17_1))) := by
  after_results_simp; rfl
theorem ho1_v30 : StableHlo.after hostOps1 V (Proc.devRef .tc main_v30) = rowOf (invVec (V (Proc.devRef .tc main_v17_1)) (V (Proc.devRef .tc main_v17_2))) := by
  after_results_simp; rfl
theorem ho1_v31 : StableHlo.after hostOps1 V (Proc.devRef .tc main_v31) = rowOf (V (Proc.devRef .tc main_arg9)) := by
  after_results_simp; rfl
theorem ho1_v32 : StableHlo.after hostOps1 V (Proc.devRef .tc main_v32) = rowOf (V (Proc.devRef .tc main_arg10)) := by
  after_results_simp; rfl

theorem ho2_v43 : StableHlo.after hostOps2 V (Proc.devRef .tc main_v43) = hostAgg (V (Proc.devRef .tc main_v33)) (V (Proc.devRef .tc main_arg15)) (V (Proc.devRef .tc main_arg16)) := by
  after_results_simp; rfl
theorem ho2_v44 : StableHlo.after hostOps2 V (Proc.devRef .tc main_v44) = rowOf (V (Proc.devRef .tc main_arg6)) := by
  after_results_simp; rfl
theorem ho2_v45 : StableHlo.after hostOps2 V (Proc.devRef .tc main_v45) = rowOf (V (Proc.devRef .tc main_arg8)) := by
  after_results_simp; rfl

theorem ho3_v58 : StableHlo.after hostOps3 V (Proc.devRef .tc main_v58) = rowOf (muVec (V (Proc.devRef .tc main_v46_1))) := by
  after_results_simp; rfl
theorem ho3_v59 : StableHlo.after hostOps3 V (Proc.devRef .tc main_v59) = rowOf (invVec (V (Proc.devRef .tc main_v46_1)) (V (Proc.devRef .tc main_v46_2))) := by
  after_results_simp; rfl
theorem ho3_v60 : StableHlo.after hostOps3 V (Proc.devRef .tc main_v60) = rowOf (V (Proc.devRef .tc main_arg11)) := by
  after_results_simp; rfl
theorem ho3_v61 : StableHlo.after hostOps3 V (Proc.devRef .tc main_v61) = rowOf (V (Proc.devRef .tc main_arg12)) := by
  after_results_simp; rfl
theorem ho3_v62 : StableHlo.after hostOps3 V (Proc.devRef .tc main_v62) = rowOf64 (V (Proc.devRef .tc main_arg14)) := by
  after_results_simp; rfl

end Cert.KernelIdeal.HandValue

end
-- ==== Proof.LibGatherScatter.lean ====
/-
  Index lemmas for the host gather and the host accumulating scatter at the dimension numbers of a row lookup
  `x[idx]` and of an accumulation `x.at[idx].add(u)` along axis 0, with the indices carried as a column `[M, 1]`
  (the index vector's axis is the last one and has size one). `N` is the number of rows of the operand, `M` the
  number of indices, `C` the number of columns. A gathered element is the operand's at the index read signed and
  clamped into `[0, N − 1]`; an update lands on row `n` exactly when its index, read signed and NOT clamped, is `n`;
  so at the exact sum an accumulated row is the operand's plus the sum of the updates whose index is that row.
-/
import Idealize.ShloMosaic.Lib.ValueIdx
import Idealize.ShloMosaic.PureOps.Ideal
import Idealize.ShloMosaic.PureOps.Ideal.Laws

noncomputable section

open scoped BigOperators

namespace Cert.GatherScatter

open Idealize.ShloMosaic Idealize.ShloMosaic.ValueIdx

/-! ## The gather of whole rows: operand `[N, C]`, indices `[M, 1]`, result `[M, C]` -/

/-- The dimension numbers of a gather of whole rows: operand `[N, C]`, start indices `[M, 1]`, result `[M, C]`;
    the result's axis 1 is the one offset axis, the operand's axis 0 is collapsed and is the one the start index
    names, a slice is one row `[1, C]`. The conditions `wf` are decided on a program's literal shapes. -/
abbrev rowGatherDims (N M C : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, j)`: the operand's element in column `j` of the row whose number is the start
    index `idx[e, 0]`, read signed and clamped into `[0, N − 1]`. -/
theorem gather_row_apply {α : Type} {N M C w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (j : Fin C) :
    Host.gather (rowGatherDims N M C wf) x idx (ix2 e j)
      = x (ix2 ⟨min (idx (ix2 e 0)).toInt.toNat (N - 1), by omega⟩ j) := by
  -- axis 0: no batching and no offset coordinate (the axis is collapsed); the start is the clamped index
  have h0 : (rowGatherDims N M C wf).start (ix2 e j) idx 0 + (rowGatherDims N M C wf).batchCoord (ix2 e j) 0
      + (rowGatherDims N M C wf).offCoord (ix2 e j) 0 = min (idx (ix2 e 0)).toInt.toNat (N - 1) := by
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N M C wf).startIndexMap from List.mem_singleton.mpr rfl)]
    have hsi : (rowGatherDims N M C wf).siIdx (ix2 e j) ⟨List.idxOf (0 : Fin 2) (rowGatherDims N M C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  -- axis 1: the start index does not name it (start 0), no batching; the offset coordinate is the column
  have h1 : (rowGatherDims N M C wf).start (ix2 e j) idx 1 + (rowGatherDims N M C wf).batchCoord (ix2 e j) 1
      + (rowGatherDims N M C wf).offCoord (ix2 e j) 1 = j.val := by
    rw [GatherDims.batchCoord_eq_zero _ _ _ List.not_mem_nil]
    unfold GatherDims.start GatherDims.offCoord
    have hne : (1 : Fin 2) ∉ [(0 : Fin 2)] := by decide
    rw [dif_neg (show (1 : Fin 2) ∉ (rowGatherDims N M C wf).startIndexMap from hne),
      dif_pos ((GatherDims.mem_sKept _ _).mpr ⟨hne, List.not_mem_nil⟩)]
    simp only [Nat.add_zero, Nat.zero_add]
    rfl
  unfold Host.gather
  congr 1
  funext a
  refine Fin.ext ?_
  match a with
  | ⟨0, _⟩ => exact h0
  | ⟨1, _⟩ => exact h1

/-! ## The gather of single elements: operand `[N]`, indices `[M, 1]`, result `[M]` -/

/-- The dimension numbers of a gather of single elements of a flat operand: operand `[N]`, start indices `[M, 1]`,
    result `[M]`; no offset axis, the operand's one axis is collapsed and is the one the start index names, a slice
    is one element. The conditions `wf` are decided on a program's literal shapes. -/
abbrev flatGatherDims (N M : Nat)
    (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- THE FLAT GATHER READ AT `e`: the operand's element whose number is the start index `idx[e, 0]`, read signed and
    clamped into `[0, N − 1]`. -/
theorem gather_flat_apply {α : Type} {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (flatGatherDims N M wf) x idx (ix1 e)
      = x (ix1 ⟨min (idx (ix2 e 0)).toInt.toNat (N - 1), by omega⟩) := by
  unfold Host.gather
  congr 1
  funext a
  obtain rfl : a = 0 := Subsingleton.elim _ _
  refine Fin.ext ?_
  show (flatGatherDims N M wf).start (ix1 e) idx 0 + (flatGatherDims N M wf).batchCoord (ix1 e) 0
    + (flatGatherDims N M wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatGatherDims N M wf).startIndexMap from List.mem_singleton.mpr rfl)]
  have hsi : (flatGatherDims N M wf).siIdx (ix1 e) ⟨List.idxOf (0 : Fin 1) (flatGatherDims N M wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-! ## The accumulation of whole rows: operand `[N, C]`, indices `[M, 1]`, updates `[M, C]` -/

/-- The dimension numbers of a scatter of whole rows: operand `[N, C]`, scatter indices `[M, 1]`, updates `[M, C]`;
    the updates' axis 1 is the one window axis, the operand's axis 0 is inserted and is the one the scatter index
    names. The conditions `wf` are decided on a program's literal shapes. -/
abbrev rowScatterDims (N M C : Nat)
    (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

section RowScatter
variable {N M C w : Nat} (wf : ScatterDims.WF ⟨2, ![N, C]⟩ ⟨2, ![M, 1]⟩ ⟨2, ![M, C]⟩ [1] [0] [0] 1)
  (idx : IVec ⟨2, ![M, 1]⟩ w) (e : Fin M) (j : Fin C)

/-- On the operand's axis 0 the window of update `(e, j)` starts at the scatter index `idx[e, 0]`, read signed. -/
theorem rowScatter_start_zero :
    (rowScatterDims N M C wf).start (ix2 e j) idx 0 = (idx (ix2 e 0)).toInt := by
  unfold ScatterDims.start
  rw [dif_pos (show (0 : Fin 2) ∈ (rowScatterDims N M C wf).scatterDimsToOperandDims from List.mem_singleton.mpr rfl)]
  have hsi : (rowScatterDims N M C wf).siIdx (ix2 e j)
      ⟨List.idxOf (0 : Fin 2) (rowScatterDims N M C wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- On the operand's axis 1, which the scatter index does not name, the window starts at `0`. -/
theorem rowScatter_start_one : (rowScatterDims N M C wf).start (ix2 e j) idx 1 = 0 := by
  unfold ScatterDims.start
  have hne : (1 : Fin 2) ∉ [(0 : Fin 2)] := by decide
  rw [dif_neg (show (1 : Fin 2) ∉ (rowScatterDims N M C wf).scatterDimsToOperandDims from hne)]

/-- The operand's axis 0 is inserted: the window coordinate there is `0`. -/
theorem rowScatter_window_zero : (rowScatterDims N M C wf).window (ix2 e j) 0 = 0 := by
  unfold ScatterDims.window
  have hk : (0 : Fin 2) ∉ (List.finRange 2).filter (· ∉ [(0 : Fin 2)]) := by decide
  rw [dif_neg (show (0 : Fin 2) ∉ (rowScatterDims N M C wf).sKept from hk)]

/-- On the operand's axis 1 the window coordinate of update `(e, j)` is the column `j`. -/
theorem rowScatter_window_one : (rowScatterDims N M C wf).window (ix2 e j) 1 = j.val := by
  unfold ScatterDims.window
  have hk : (1 : Fin 2) ∈ (List.finRange 2).filter (· ∉ [(0 : Fin 2)]) := by decide
  rw [dif_pos (show (1 : Fin 2) ∈ (rowScatterDims N M C wf).sKept from hk)]
  rfl

/-- WHERE A ROW UPDATE LANDS: update `(e, j)` lands on operand element `(n, j')` exactly when its scatter index
    `idx[e, 0]`, read signed (and not clamped), is `n` and the columns agree; an index outside `[0, N − 1]` lands
    nowhere. -/
theorem scatter_row_lands (n : Fin N) (j' : Fin C) :
    (rowScatterDims N M C wf).resultIdx? (ix2 e j) idx = some (ix2 n j')
      ↔ (idx (ix2 e 0)).toInt = (n.val : Int) ∧ j = j' := by
  have s0 := rowScatter_start_zero wf idx e j
  have s1 := rowScatter_start_one wf idx e j
  have w0 := rowScatter_window_zero wf e j
  have w1 := rowScatter_window_one wf e j
  unfold ScatterDims.resultIdx?
  split
  · rename_i h
    rw [Option.some.injEq]
    constructor
    · intro hf
      have h0 := h 0
      have e0 := congrArg Fin.val (congrFun hf 0)
      have e1 := congrArg Fin.val (congrFun hf 1)
      simp only [s0, s1, w0, w1] at h0 e0 e1
      refine ⟨?_, Fin.ext ?_⟩
      · have : ((idx (ix2 e 0)).toInt + ((0 : Nat) : Int)).toNat = n.val := e0
        omega
      · have : ((0 : Int) + (j.val : Int)).toNat = j'.val := e1
        omega
    · rintro ⟨hn, rfl⟩
      funext a
      refine Fin.ext ?_
      match a with
      | ⟨0, _⟩ =>
        show ((rowScatterDims N M C wf).start (ix2 e j) idx 0 + ((rowScatterDims N M C wf).window (ix2 e j) 0 : Nat)).toNat = n.val
        rw [s0, w0, hn]; omega
      | ⟨1, _⟩ =>
        show ((rowScatterDims N M C wf).start (ix2 e j) idx 1 + ((rowScatterDims N M C wf).window (ix2 e j) 1 : Nat)).toNat = j.val
        rw [s1, w1]; omega
  · rename_i h
    constructor
    · intro hf; exact absurd hf (by simp)
    · rintro ⟨hn, rfl⟩
      refine absurd (fun a => ?_) h
      match a with
      | ⟨0, _⟩ =>
        show 0 ≤ (rowScatterDims N M C wf).start (ix2 e j) idx 0 + ((rowScatterDims N M C wf).window (ix2 e j) 0 : Nat)
          ∧ (rowScatterDims N M C wf).start (ix2 e j) idx 0 + ((rowScatterDims N M C wf).window (ix2 e j) 0 : Nat) < (N : Int)
        rw [s0, w0, hn]; have := n.isLt; omega
      | ⟨1, _⟩ =>
        show 0 ≤ (rowScatterDims N M C wf).start (ix2 e j) idx 1 + ((rowScatterDims N M C wf).window (ix2 e j) 1 : Nat)
          ∧ (rowScatterDims N M C wf).start (ix2 e j) idx 1 + ((rowScatterDims N M C wf).window (ix2 e j) 1 : Nat) < (C : Int)
        rw [s1, w1]; have := j.isLt; omega

end RowScatter

/-- THE ROW ACCUMULATION READ AT `(n, j)`, at the exact sum: the operand's element plus the sum, over the updates
    `e` whose scatter index `idx[e, 0]` read signed is the row `n`, of the update's element in column `j`. -/
theorem scatterAdd_row_apply {N M C w : Nat}
    (wf : ScatterDims.WF ⟨2, ![N, C]⟩ ⟨2, ![M, 1]⟩ ⟨2, ![M, C]⟩ [1] [0] [0] 1)
    (x : (⟨2, ![N, C]⟩ : Shape).Idx → EReal) (idx : IVec ⟨2, ![M, 1]⟩ w)
    (upd : (⟨2, ![M, C]⟩ : Shape).Idx → EReal) (n : Fin N) (j : Fin C) :
    Ideal.hostScatterAdd (rowScatterDims N M C wf) x idx upd (ix2 n j)
      = x (ix2 n j) + ∑ e ∈ Finset.univ.filter (fun e : Fin M => (idx (ix2 e 0)).toInt = (n.val : Int)),
          upd (ix2 e j) := by
  unfold Ideal.hostScatterAdd
  refine congrArg (x (ix2 n j) + ·) ?_
  rw [Finset.sum_filter, sum_idx2, Finset.sum_filter]
  refine Finset.sum_congr rfl fun e _ => ?_
  simp only [scatter_row_lands]
  by_cases hn : (idx (ix2 e 0)).toInt = (n.val : Int)
  · simp only [hn, true_and, if_true]
    rw [Finset.sum_ite_eq' Finset.univ j (fun b => upd (ix2 e b)), if_pos (Finset.mem_univ j)]
  · simp only [hn, false_and, if_false, Finset.sum_const_zero]

/-! ## The accumulation of single elements: operand `[N]`, indices `[M, 1]`, updates `[M]` -/

/-- The dimension numbers of a scatter of single elements into a flat operand: operand `[N]`, scatter indices
    `[M, 1]`, updates `[M]`; no window axis, the operand's one axis is inserted and is the one the scatter index
    names. The conditions `wf` are decided on a program's literal shapes. -/
abbrev flatScatterDims (N M : Nat)
    (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

section FlatScatter
variable {N M w : Nat} (wf : ScatterDims.WF ⟨1, ![N]⟩ ⟨2, ![M, 1]⟩ ⟨1, ![M]⟩ [] [0] [0] 1)
  (idx : IVec ⟨2, ![M, 1]⟩ w) (e : Fin M)

/-- On the operand's one axis the window of update `e` starts at the scatter index `idx[e, 0]`, read signed. -/
theorem flatScatter_start_zero :
    (flatScatterDims N M wf).start (ix1 e) idx 0 = (idx (ix2 e 0)).toInt := by
  unfold ScatterDims.start
  rw [dif_pos (show (0 : Fin 1) ∈ (flatScatterDims N M wf).scatterDimsToOperandDims from List.mem_singleton.mpr rfl)]
  have hsi : (flatScatterDims N M wf).siIdx (ix1 e)
      ⟨List.idxOf (0 : Fin 1) (flatScatterDims N M wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- The operand's one axis is inserted: the window coordinate there is `0`. -/
theorem flatScatter_window_zero : (flatScatterDims N M wf).window (ix1 e) 0 = 0 := by
  unfold ScatterDims.window
  have hk : (0 : Fin 1) ∉ (List.finRange 1).filter (· ∉ [(0 : Fin 1)]) := by decide
  rw [dif_neg (show (0 : Fin 1) ∉ (flatScatterDims N M wf).sKept from hk)]

/-- WHERE A FLAT UPDATE LANDS: update `e` lands on operand element `n` exactly when its scatter index `idx[e, 0]`,
    read signed (and not clamped), is `n`; an index outside `[0, N − 1]` lands nowhere. -/
theorem scatter_flat_lands (n : Fin N) :
    (flatScatterDims N M wf).resultIdx? (ix1 e) idx = some (ix1 n) ↔ (idx (ix2 e 0)).toInt = (n.val : Int) := by
  have s0 := flatScatter_start_zero wf idx e
  have w0 := flatScatter_window_zero wf e
  unfold ScatterDims.resultIdx?
  split
  · rename_i h
    rw [Option.some.injEq]
    constructor
    · intro hf
      have h0 := h 0
      have e0 := congrArg Fin.val (congrFun hf 0)
      simp only [s0, w0] at h0 e0
      have : ((idx (ix2 e 0)).toInt + ((0 : Nat) : Int)).toNat = n.val := e0
      omega
    · intro hn
      funext a
      obtain rfl : a = 0 := Subsingleton.elim _ _
      refine Fin.ext ?_
      show ((flatScatterDims N M wf).start (ix1 e) idx 0 + ((flatScatterDims N M wf).window (ix1 e) 0 : Nat)).toNat = n.val
      rw [s0, w0, hn]; omega
  · rename_i h
    constructor
    · intro hf; exact absurd hf (by simp)
    · intro hn
      refine absurd (fun a => ?_) h
      obtain rfl : a = 0 := Subsingleton.elim _ _
      show 0 ≤ (flatScatterDims N M wf).start (ix1 e) idx 0 + ((flatScatterDims N M wf).window (ix1 e) 0 : Nat)
        ∧ (flatScatterDims N M wf).start (ix1 e) idx 0 + ((flatScatterDims N M wf).window (ix1 e) 0 : Nat) < (N : Int)
      rw [s0, w0, hn]; have := n.isLt; omega

end FlatScatter

/-- A sum over a rank-1 index set is the sum over its one coordinate. -/
theorem sum_idx1 {A : Type*} [AddCommMonoid A] {n : Nat} (f : (⟨1, ![n]⟩ : Shape).Idx → A) :
    ∑ i, f i = ∑ a : Fin n, f (ix1 a) := by
  refine Fintype.sum_equiv ⟨fun i => i 0, fun a => ix1 a, fun i => (eq_ix1 i).symm, fun _ => rfl⟩ _ _ fun i => ?_
  exact congrArg f (eq_ix1 i)

/-- THE FLAT ACCUMULATION READ AT `n`, at the exact sum: the operand's element plus the sum of the updates `e` whose
    scatter index `idx[e, 0]` read signed is `n`. -/
theorem scatterAdd_flat_apply {N M w : Nat}
    (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w)
    (upd : (⟨1, ![M]⟩ : Shape).Idx → EReal) (n : Fin N) :
    Ideal.hostScatterAdd (flatScatterDims N M wf) x idx upd (ix1 n)
      = x (ix1 n) + ∑ e ∈ Finset.univ.filter (fun e : Fin M => (idx (ix2 e 0)).toInt = (n.val : Int)),
          upd (ix1 e) := by
  unfold Ideal.hostScatterAdd
  refine congrArg (x (ix1 n) + ·) ?_
  rw [Finset.sum_filter, sum_idx1, Finset.sum_filter]
  refine Finset.sum_congr rfl fun e _ => ?_
  simp only [scatter_flat_lands]

end Cert.GatherScatter

end
-- ==== Proof.LibHostReads.lean ====
/-
  Host-side array operations read at an index, on the extended reals.

  The reads that plain array code needs again and again: a plain matrix product [m,k]·[k,n] at (a, b) is the finite sum
  Σ_c L(a,c)·R(c,b), whatever name the product's dimension record was printed under, as long as it is the plain one; a
  scalar broadcast to any shape reads the scalar; a bias vector [n] broadcast to one row [1,n] and then down m rows reads,
  at (r, c), the bias at c; a vector [m] made a column [m,1] reads, at (r, ·), the vector at r; and a column [m,1]
  repeated along n columns reads, at (r, d), the column at r. Generic in the extents (an extent that must not be the unit
  extent says so) and, for the layout reads, in the element type; the indices are written by coordinates (ix1, ix2), so
  each lemma applies to a printed operation by unification.
-/
import Idealize.ShloMosaic.Lib.StackMember
import Idealize.ShloMosaic.Lib.Pipeline.Value
import Idealize.ShloMosaic.Lib.ValueIdx

noncomputable section

open scoped BigOperators

namespace Cert.LibHostReads

open Idealize.ShloMosaic Idealize.ShloMosaic.ValueIdx

variable {α : Type}

/-- A plain m×k by k×n product read at (a, b): Σ_c L(a,c)·R(c,b). -/
theorem dot_apply {m k n : Nat} (D : DotDims ⟨2, ![m, k]⟩ ⟨2, ![k, n]⟩ ⟨2, ![m, n]⟩) (hD : D = DotDims.plain m k n)
    (L : FVec Ideal ⟨2, ![m, k]⟩ .f32) (R : FVec Ideal ⟨2, ![k, n]⟩ .f32) (a : Fin m) (b : Fin n) :
    Host.dotGeneral D none L R (ix2 a b) = ∑ c : Fin k, L (ix2 a c) * R (ix2 c b) := by
  subst hD
  exact StackMember.dotGeneral_plain_apply none L R a b

/-- A scalar broadcast to any shape reads the scalar everywhere. -/
theorem splat_apply {t : Shape} (h : (⟨0, ![]⟩ : Shape).BroadcastsInDim t ![]) (y : (⟨0, ![]⟩ : Shape).Idx → α) (j : t.Idx) :
    broadcastInDim t ![] h y j = y ix0 :=
  broadcastInDim_apply _ h y j ix0 (fun a => a.elim0)

/-- A vector of length n broadcast to one row and then to m rows reads, at (r, c), the vector at c. -/
theorem rowBias_apply {m n : Nat} (hn : n ≠ 1)
    (h1 : (⟨1, ![n]⟩ : Shape).BroadcastsInDim ⟨2, ![1, n]⟩ ![1])
    (h2 : (⟨2, ![1, n]⟩ : Shape).BroadcastsInDim ⟨2, ![m, n]⟩ ![0, 1])
    (b : (⟨1, ![n]⟩ : Shape).Idx → α) (r : Fin m) (c : Fin n) :
    broadcastInDim ⟨2, ![m, n]⟩ ![0, 1] h2 (broadcastInDim ⟨2, ![1, n]⟩ ![1] h1 b) (ix2 r c) = b (ix1 c) := by
  rw [broadcastInDim_apply _ h2 _ (ix2 r c) (ix2 (0 : Fin 1) c) (fun a => match a with
      | ⟨0, _⟩ => by show 0 = if (1 : Nat) = 1 then 0 else r.val; rw [if_pos rfl]
      | ⟨1, _⟩ => by show c.val = if n = 1 then 0 else c.val; rw [if_neg hn]),
    broadcastInDim_apply _ h1 b (ix2 (0 : Fin 1) c) (ix1 c) (fun a => match a with
      | ⟨0, _⟩ => by show c.val = if n = 1 then 0 else c.val; rw [if_neg hn])]

/-- A vector of length m as a column reads, at (r, z), the vector at r. -/
theorem col_apply {m : Nat} (hm : m ≠ 1) (h1 : (⟨1, ![m]⟩ : Shape).BroadcastsInDim ⟨2, ![m, 1]⟩ ![0])
    (v : (⟨1, ![m]⟩ : Shape).Idx → α) (r : Fin m) (z : Fin 1) :
    broadcastInDim ⟨2, ![m, 1]⟩ ![0] h1 v (ix2 r z) = v (ix1 r) :=
  broadcastInDim_apply _ h1 v (ix2 r z) (ix1 r) (fun a => match a with
    | ⟨0, _⟩ => by show r.val = if m = 1 then 0 else r.val; rw [if_neg hm])

/-- A column broadcast along its rows reads, at (r, d), the column at r. -/
theorem colBcast_apply {m n : Nat} (hm : m ≠ 1) (h2 : (⟨2, ![m, 1]⟩ : Shape).BroadcastsInDim ⟨2, ![m, n]⟩ ![0, 1])
    (Y : (⟨2, ![m, 1]⟩ : Shape).Idx → α) (r : Fin m) (d : Fin n) :
    broadcastInDim ⟨2, ![m, n]⟩ ![0, 1] h2 Y (ix2 r d) = Y (ix2 r (0 : Fin 1)) :=
  broadcastInDim_apply _ h2 Y (ix2 r d) (ix2 r (0 : Fin 1)) (fun a => match a with
    | ⟨0, _⟩ => by show r.val = if m = 1 then 0 else r.val; rw [if_neg hm]
    | ⟨1, _⟩ => by show 0 = if (1 : Nat) = 1 then 0 else d.val; rw [if_pos rfl])

end Cert.LibHostReads

end
-- ==== Proof.AggRead.lean ====
/-
  A neighbour sum on the host read at an entry, at the exact reals.

  The rows of an N×C array gathered along M source indices (a negative index first wrapped by a constant k) and
  accumulated onto a zero N×C array along M destination indices: entry (v, j) is zero plus the sum, over the indices e
  whose destination word read signed is v, of the array at the source's row — the wrapped source word read signed and
  clamped into the rows — column j. Generic in the three extents, in the wrap constant, and in the
  dimension records and broadcast facts it is applied to (the records need only be the row gather's and the row
  accumulation's).
-/
import proofs.«111056_j31628139167864_2_alg».proof.Proof.LibGatherScatter
import proofs.«111056_j31628139167864_2_alg».proof.Proof.LibHostReads
import Idealize.ShloMosaic.PureOps.Ideal.Laws

noncomputable section

open scoped BigOperators

namespace Cert.AggRead

open Idealize.ShloMosaic Idealize.ShloMosaic.ValueIdx Cert.GatherScatter Cert.LibHostReads

/-- A source word, a negative one (read signed) wrapped by `k`: what the entrywise compare, add and select read to. -/
def wrapIdx (k w : BitVec 32) : BitVec 32 :=
  Scalar.select (IntOp.cmpi .slt w 0#32) (IntOp.addi w k) w

/-- The same as a conditional on the signed comparison. -/
theorem wrapIdx_eq (k w : BitVec 32) : wrapIdx k w = if w.slt 0#32 then w + k else w := by
  unfold wrapIdx Scalar.select IntOp.cmpi IntOp.addi
  cases h : w.slt 0#32 <;> simp [h]

/-- An entrywise integer comparison, and an entrywise integer sum, read at an entry. -/
theorem cmpi_apply {s : Shape} {w : Nat} (p : CmpIPredicate) (x y : IVec s w) (i : s.Idx) :
    cmpi p x y i = IntOp.cmpi p (x i) (y i) := rfl
theorem addi_apply {s : Shape} {w : Nat} (x y : IVec s w) (i : s.Idx) : addi x y i = IntOp.addi (x i) (y i) := rfl

/-- The source column read at `(e, z)`: the wrapped source word. -/
theorem wrapCol_apply {M : Nat} (hM : M ≠ 1)
    (hcol : (⟨1, ![M]⟩ : Shape).BroadcastsInDim ⟨2, ![M, 1]⟩ ![0])
    (hsp : (⟨0, ![]⟩ : Shape).BroadcastsInDim ⟨1, ![M]⟩ ![])
    (src : IVec ⟨1, ![M]⟩ 32) (k : BitVec 32) (e : Fin M) (z : Fin 1) :
    broadcastInDim ⟨2, ![M, 1]⟩ ![0] hcol
        (select (cmpi .slt src (broadcastInDim ⟨1, ![M]⟩ ![] hsp (constantI ⟨0, ![]⟩ 32 0#32)))
          (addi src (broadcastInDim ⟨1, ![M]⟩ ![] hsp (constantI ⟨0, ![]⟩ 32 k))) src) (ix2 e z)
      = wrapIdx k (src (ix1 e)) := by
  rw [col_apply hM, select_apply, cmpi_apply, addi_apply, splat_apply, splat_apply]
  rfl

/-- THE NEIGHBOUR SUM READ AT `(v, j)`. -/
theorem agg_apply {N C M : Nat} (hN : 0 < N) (hM : M ≠ 1)
    (D_g : GatherDims ⟨2, ![N, C]⟩ ⟨2, ![M, 1]⟩ ⟨2, ![M, C]⟩)
    (wf_g : GatherDims.WF ⟨2, ![N, C]⟩ ⟨2, ![M, 1]⟩ ⟨2, ![M, C]⟩ [1] [0] [] [0] [] 1 ![1, C])
    (hg : D_g = rowGatherDims N M C wf_g)
    (D_s : ScatterDims ⟨2, ![N, C]⟩ ⟨2, ![M, 1]⟩ ⟨2, ![M, C]⟩)
    (wf_s : ScatterDims.WF ⟨2, ![N, C]⟩ ⟨2, ![M, 1]⟩ ⟨2, ![M, C]⟩ [1] [0] [0] 1)
    (hs : D_s = rowScatterDims N M C wf_s)
    (h0 : (⟨0, ![]⟩ : Shape).BroadcastsInDim ⟨2, ![N, C]⟩ ![])
    (hcol : (⟨1, ![M]⟩ : Shape).BroadcastsInDim ⟨2, ![M, 1]⟩ ![0])
    (hsp : (⟨0, ![]⟩ : Shape).BroadcastsInDim ⟨1, ![M]⟩ ![])
    (X : FVec Ideal ⟨2, ![N, C]⟩ .f32) (src dst : IVec ⟨1, ![M]⟩ 32) (k : BitVec 32) (v : Fin N) (j : Fin C) :
    Host.scatterAdd D_s (broadcastInDim ⟨2, ![N, C]⟩ ![] h0 (constant (F := Ideal) ⟨0, ![]⟩ .f32 0x00000000#32))
        (broadcastInDim ⟨2, ![M, 1]⟩ ![0] hcol dst)
        (Host.gather D_g X (broadcastInDim ⟨2, ![M, 1]⟩ ![0] hcol
          (select (cmpi .slt src (broadcastInDim ⟨1, ![M]⟩ ![] hsp (constantI ⟨0, ![]⟩ 32 0#32)))
            (addi src (broadcastInDim ⟨1, ![M]⟩ ![] hsp (constantI ⟨0, ![]⟩ 32 k))) src))) (ix2 v j)
      = 0 + ∑ e ∈ Finset.univ.filter (fun e : Fin M => (dst (ix1 e)).toInt = (v.val : Int)),
          X (ix2 ⟨min (wrapIdx k (src (ix1 e))).toInt.toNat (N - 1), by omega⟩ j) := by
  subst hg hs
  show Ideal.hostScatterAdd (rowScatterDims N M C wf_s) _ _ _ (ix2 v j) = _
  rw [scatterAdd_row_apply, splat_apply]
  refine congrArg₂ (· + ·) Ideal.ofBits_zero_f32 ?_
  refine Finset.sum_congr (Finset.filter_congr fun e _ => by rw [col_apply hM]) (fun e _ => ?_)
  rw [gather_row_apply hN]
  refine congrArg (fun r => X (ix2 r j)) (Fin.ext ?_)
  simp only [wrapCol_apply hM]

end Cert.AggRead

end
-- ==== Proof.NetSpec.lean ====
/-
  The pieces of a graph-network layer as entry-by-entry functions on the extended reals, over plain finite index
  types: a Linear–ReLU–Linear perceptron on rows, column sums and sums of squares, batch normalisation followed by
  the rectifier, and a linear head.
-/
import Idealize.ShloMosaic.PureOps.Ideal

noncomputable section

open scoped BigOperators

namespace Cert.NetSpec

open Idealize.ShloMosaic

variable {n d o : ℕ}

/-- Linear, rectifier, linear, on each row: `max (P·Wa + ba) 0 · Wb + bb`. -/
def mlp (P : Fin n → Fin d → EReal) (Wa : Fin d → Fin d → EReal) (ba : Fin d → EReal)
    (Wb : Fin d → Fin d → EReal) (bb : Fin d → EReal) : Fin n → Fin d → EReal :=
  fun r j => (∑ k, max ((∑ l, P r l * Wa l k) + ba k) 0 * Wb k j) + bb j

/-- The sum down each column. -/
def colSum (H : Fin n → Fin d → EReal) : Fin d → EReal := fun j => ∑ r, H r j

/-- The sum of squares down each column. -/
def colSumSq (H : Fin n → Fin d → EReal) : Fin d → EReal := fun j => ∑ r, H r j * H r j

/-- Normalise each column by a mean and an inverse deviation, scale, shift, rectify. -/
def bnRelu (H : Fin n → Fin d → EReal) (mu inv g b : Fin d → EReal) : Fin n → Fin d → EReal :=
  fun r j => max (((H r j - mu j) * inv j) * g j + b j) 0

/-- The linear head `Y·Wp + bp`. -/
def head (Y : Fin n → Fin d → EReal) (Wp : Fin d → Fin o → EReal) (bp : Fin o → EReal) : Fin n → Fin o → EReal :=
  fun r q => (∑ k, Y r k * Wp k q) + bp q

/-- The mean of each column as the kernel's host code spells it: the column sum divided by the count. -/
def meanK (c : EReal) (H : Fin n → Fin d → EReal) : Fin d → EReal := fun j => Ideal.div (colSum H j) c

/-- The inverse deviation as the kernel's host code spells it: rsqrt (sumsq / count − mean² + ε). -/
def invK (c e : EReal) (H : Fin n → Fin d → EReal) : Fin d → EReal :=
  fun j => Ideal.rsqrt ((Ideal.div (colSumSq H j) c - meanK c H j * meanK c H j) + e)

/-- The sum over the edges landing on node `v` of the source rows. -/
def agg {m : ℕ} (X : Fin n → Fin d → EReal) (row : Fin m → Fin n) (dstv : Fin m → Int) : Fin n → Fin d → EReal :=
  fun v j => ∑ e ∈ Finset.univ.filter (fun e : Fin m => dstv e = (v.val : Int)), X (row e) j

end Cert.NetSpec

end
-- ==== Proof.HostKRead.lean ====
/- The host's neighbour sum read at an entry: the row an edge's source word selects, the node its destination word
   names, and entry (v, j) as zero plus the sum of the source rows' entries over the edges landing on v. -/
import proofs.«111056_j31628139167864_2_alg».proof.Proof.HostK
import proofs.«111056_j31628139167864_2_alg».proof.Proof.AggRead
import proofs.«111056_j31628139167864_2_alg».proof.Proof.NetSpec
import Idealize.ShloMosaic.Lib.ValueIdx

set_option maxRecDepth 16384

noncomputable section

namespace Cert.KernelIdeal.HandValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen Idealize.ShloMosaic.ValueIdx

/-- The row an edge's source word selects: the word wrapped by the node count when negative, read signed, clamped
    into the table. -/
def srcRow {M : ℕ} (s : IVec (⟨1, ![M]⟩ : Shape) 32) (e : Fin M) : Fin 50000 :=
  ⟨min (Cert.AggRead.wrapIdx 50000#32 (s (ix1 e))).toInt.toNat (50000 - 1), by omega⟩

/-- The node an edge's destination word names, read signed (a word outside the table names no node). -/
def dstInt {M : ℕ} (d : IVec (⟨1, ![M]⟩ : Shape) 32) (e : Fin M) : Int := (d (ix1 e)).toInt

/-- The host aggregation at an entry: zero plus the sum, over the edges whose destination is the node, of the
    source rows' entries. -/
theorem hostAgg_apply (X : FVec Ideal S50000x96 .f32) (s d : IVec S800000 32) (v : Fin 50000) (j : Fin 96) :
    hostAgg (F := Ideal) X s d (ix2 v j)
      = 0 + Cert.NetSpec.agg (fun r l => X (ix2 r l)) (srcRow s) (dstInt d) v j := by
  unfold hostAgg Cert.NetSpec.agg srcRow dstInt
  exact Cert.AggRead.agg_apply (N := 50000) (C := 96) (M := 800000) (by decide) (by decide)
    gather_S50000x96_S800000x1_S800000x96_1_0_n_n_0_1_196 gather_S50000x96_S800000x1_S800000x96_1_0_n_n_0_1_196.wf rfl
    scatter_S50000x96_S800000x1_S800000x96_1_0_0_1 scatter_S50000x96_S800000x1_S800000x96_1_0_0_1.wf rfl
    bcast_S_S50000x96 bcast_S800000_S800000x1_0 bcast_S_S800000 X s d 50000#32 v j

end Cert.KernelIdeal.HandValue

end
-- ==== Proof.Reg1Value.lean ====
/- The value of region 1 of @main (the batch-norm-and-activate kernel) at the ideal instance: the region's output
   array as one function of its five input arrays, index by index — at row p and column q,
   max (((a0 p q - a1 0 q) * a2 0 q) * a3 0 q + a4 0 q) 0 — and the proof that the array the region's write-backs
   leave is that function of the arrays as the region finds them. -/
import proofs.«111056_j31628139167864_2_alg».proof.Proof.Reg1
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

/-! ## The specification -/

/-- The region's output array from its input arrays: at row `p`, column `q`, the entry of the first array less the
    first row's entry at `q`, times the second row's, times the third row's, plus the fourth row's, clamped below at 0. -/
def G1 (a0 : FVec Ideal S50000x96 .f32) (a1 : FVec Ideal S1x96 .f32) (a2 : FVec Ideal S1x96 .f32) (a3 : FVec Ideal S1x96 .f32) (a4 : FVec Ideal S1x96 .f32) : FVec Ideal S50000x96 .f32 :=
  fun i => max (((a0 (ix2 (n0 := 50000) (n1 := 96) (i 0) (i 1)) - a1 (ix2 (n0 := 1) (n1 := 96) 0 (i 1))) * a2 (ix2 (n0 := 1) (n1 := 96) 0 (i 1))) * a3 (ix2 (n0 := 1) (n1 := 96) 0 (i 1)) + a4 (ix2 (n0 := 1) (n1 := 96) 0 (i 1))) 0

/-- `G1` at an index given by its coordinates. -/
theorem G1_apply (a0 : FVec Ideal S50000x96 .f32) (a1 a2 a3 a4 : FVec Ideal S1x96 .f32) (p : Fin 50000) (q : Fin 96) :
    G1 a0 a1 a2 a3 a4 (ix2 p q) = max (((a0 (ix2 p q) - a1 (ix2 0 q)) * a2 (ix2 0 q)) * a3 (ix2 0 q) + a4 (ix2 0 q)) 0 := rfl

/-! ## The kernel's payload at an index -/

/-- What the body stores, read at row `p`, column `q` of the block: the same expression of the loaded block and rows
    (the shape casts are identities, the rows are broadcast along the long axis, the constant is zero). -/
theorem pay1_apply (x0 : Vec Ideal S10000x96 .f32) (x1 x2 x3 x4 : Vec Ideal S1x96 .f32) (p : Fin 10000) (q : Fin 96) :
    k1_pay1 x0 x1 x2 x3 x4 (ix2 p q) = max (((x0 (ix2 p q) - x1 (ix2 0 q)) * x2 (ix2 0 q)) * x3 (ix2 0 q) + x4 (ix2 0 q)) 0 := by
  unfold k1_pay1
  simp only [shapeCast_self]
  rw [maximumf_apply, addf_apply, mulf_apply, mulf_apply, subf_apply, broadcast_apply,
    broadcastTo_1b_ab_apply, broadcastTo_1b_ab_apply, broadcastTo_1b_ab_apply, broadcastTo_1b_ab_apply, Ideal.ofBits_def, Ideal.ofBits_zero_f32]

/-! ## From blocks to the array -/

theorem hz : (![0, 0] : Fin 2 → Nat) = fun _ => 0 := funext fun a => by fin_cases a <;> rfl

/-- The printed index maps, decided over the grid: the first input's and the output's blocks are the point's own
    along the long axis, the four rows' blocks stay at the origin. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The stored expression of a block's entries is `G1` of the arrays at the array's index `k`, when the block's entry
    is the first array's at `k`, `k`'s column is `q`, and the block's rows are the arrays' rows. -/
theorem block_eq (x0 : Vec Ideal S10000x96 .f32) (x1 x2 x3 x4 : Vec Ideal S1x96 .f32)
    (A0 : FVec Ideal S50000x96 .f32) (A1 A2 A3 A4 : FVec Ideal S1x96 .f32) (p : Fin 10000) (q : Fin 96) (k : S50000x96.Idx)
    (hk1 : (k 1).val = q.val) (h0 : x0 (ix2 p q) = A0 k) (h1 : x1 (ix2 0 q) = A1 (ix2 0 q)) (h2 : x2 (ix2 0 q) = A2 (ix2 0 q))
    (h3 : x3 (ix2 0 q) = A3 (ix2 0 q)) (h4 : x4 (ix2 0 q) = A4 (ix2 0 q)) :
    max (((x0 (ix2 p q) - x1 (ix2 0 q)) * x2 (ix2 0 q)) * x3 (ix2 0 q) + x4 (ix2 0 q)) 0 = G1 A0 A1 A2 A3 A4 k := by
  obtain ⟨k0, k1, rfl⟩ : ∃ (k0 : Fin 50000) (k1 : Fin 96), k = ix2 k0 k1 := ⟨k 0, k 1, eq_ix2 k⟩
  obtain rfl : k1 = q := Fin.ext hk1
  rw [G1_apply, h0, h1, h2, h3, h4]

variable (V : (c : Dev nD) → (b : Ref sig .tc) → Buf (Elt Ideal) ((c : Thread nD τ).loc b))

/-- The first input's block at point `t` is rows `10000 t … 10000 t + 9999` of its array: a block's coordinate is the
    block index times the block's extent plus the coordinate inside the block. -/
theorem iblk1_0_apply (c : Dev nD) (t : Fin cfg1.N) (p : Fin 10000) (q : Fin 96) (k : S50000x96.Idx)
    (hk0 : (k 0).val = t.val * 10000 + p.val) (hk1 : (k 1).val = q.val) :
    (iblk1 V c 0 t : Vec Ideal S10000x96 .f32) (ix2 p q) = (V c (Pipeline.arrRef spec1 0) : FVec Ideal S50000x96 .f32) k := by
  obtain ⟨e0, e1, -⟩ := idx_facts1 t
  show (V c (Pipeline.arrRef spec1 0) : FVec Ideal S50000x96 .f32) (((cfg1.win 0).blk t).view.emb (ix2 p q)) = (V c (Pipeline.arrRef spec1 0) : FVec Ideal S50000x96 .f32) k
  refine congrArg (V c (Pipeline.arrRef spec1 0) : FVec Ideal S50000x96 .f32) ?_
  funext a; apply Fin.ext
  match a with
  | ⟨0, _⟩ => show win1_0.index t (0 : Fin 2) * 10000 + 1 * p.val = (k 0).val; omega
  | ⟨1, _⟩ => show win1_0.index t (1 : Fin 2) * 96 + 1 * q.val = (k 1).val; omega

/-- Row window 1's block is its whole one-row array at every point. -/
theorem iblk1_1_apply (c : Dev nD) (t : Fin cfg1.N) (q : Fin 96) :
    (iblk1 V c 1 t : Vec Ideal S1x96 .f32) (ix2 0 q) = (V c (Pipeline.arrRef spec1 1) : FVec Ideal S1x96 .f32) (ix2 0 q) := by
  have e := idx_facts1 t
  show (V c (Pipeline.arrRef spec1 1) : FVec Ideal S1x96 .f32) (((cfg1.win 1).blk t).view.emb (ix2 0 q)) = (V c (Pipeline.arrRef spec1 1) : FVec Ideal S1x96 .f32) (ix2 0 q)
  refine congrArg (V c (Pipeline.arrRef spec1 1) : FVec Ideal S1x96 .f32) ?_
  funext a; apply Fin.ext
  match a with
  | ⟨0, _⟩ => show win1_1.index t (0 : Fin 2) * 1 + 1 * 0 = 0; omega
  | ⟨1, _⟩ => show win1_1.index t (1 : Fin 2) * 96 + 1 * q.val = q.val; omega

/-- Row window 2's block is its whole one-row array at every point. -/
theorem iblk1_2_apply (c : Dev nD) (t : Fin cfg1.N) (q : Fin 96) :
    (iblk1 V c 2 t : Vec Ideal S1x96 .f32) (ix2 0 q) = (V c (Pipeline.arrRef spec1 2) : FVec Ideal S1x96 .f32) (ix2 0 q) := by
  have e := idx_facts1 t
  show (V c (Pipeline.arrRef spec1 2) : FVec Ideal S1x96 .f32) (((cfg1.win 2).blk t).view.emb (ix2 0 q)) = (V c (Pipeline.arrRef spec1 2) : FVec Ideal S1x96 .f32) (ix2 0 q)
  refine congrArg (V c (Pipeline.arrRef spec1 2) : FVec Ideal S1x96 .f32) ?_
  funext a; apply Fin.ext
  match a with
  | ⟨0, _⟩ => show win1_2.index t (0 : Fin 2) * 1 + 1 * 0 = 0; omega
  | ⟨1, _⟩ => show win1_2.index t (1 : Fin 2) * 96 + 1 * q.val = q.val; omega

/-- Row window 3's block is its whole one-row array at every point. -/
theorem iblk1_3_apply (c : Dev nD) (t : Fin cfg1.N) (q : Fin 96) :
    (iblk1 V c 3 t : Vec Ideal S1x96 .f32) (ix2 0 q) = (V c (Pipeline.arrRef spec1 3) : FVec Ideal S1x96 .f32) (ix2 0 q) := by
  have e := idx_facts1 t
  show (V c (Pipeline.arrRef spec1 3) : FVec Ideal S1x96 .f32) (((cfg1.win 3).blk t).view.emb (ix2 0 q)) = (V c (Pipeline.arrRef spec1 3) : FVec Ideal S1x96 .f32) (ix2 0 q)
  refine congrArg (V c (Pipeline.arrRef spec1 3) : FVec Ideal S1x96 .f32) ?_
  funext a; apply Fin.ext
  match a with
  | ⟨0, _⟩ => show win1_3.index t (0 : Fin 2) * 1 + 1 * 0 = 0; omega
  | ⟨1, _⟩ => show win1_3.index t (1 : Fin 2) * 96 + 1 * q.val = q.val; omega

/-- Row window 4's block is its whole one-row array at every point. -/
theorem iblk1_4_apply (c : Dev nD) (t : Fin cfg1.N) (q : Fin 96) :
    (iblk1 V c 4 t : Vec Ideal S1x96 .f32) (ix2 0 q) = (V c (Pipeline.arrRef spec1 4) : FVec Ideal S1x96 .f32) (ix2 0 q) := by
  have e := idx_facts1 t
  show (V c (Pipeline.arrRef spec1 4) : FVec Ideal S1x96 .f32) (((cfg1.win 4).blk t).view.emb (ix2 0 q)) = (V c (Pipeline.arrRef spec1 4) : FVec Ideal S1x96 .f32) (ix2 0 q)
  refine congrArg (V c (Pipeline.arrRef spec1 4) : FVec Ideal S1x96 .f32) ?_
  funext a; apply Fin.ext
  match a with
  | ⟨0, _⟩ => show win1_4.index t (0 : Fin 2) * 1 + 1 * 0 = 0; omega
  | ⟨1, _⟩ => show win1_4.index t (1 : Fin 2) * 96 + 1 * q.val = q.val; omega

/-- What point `t` writes back is block `t` of `G1` of the arrays as the region finds them. -/
theorem flushed1_eq (c : Dev nD) (t : Fin cfg1.N) :
    (dat1 V c).flushed 5 t = ((cfg1.win 5).blk t).view.read (Elt Ideal)
      (G1 (V c (Pipeline.arrRef spec1 0)) (V c (Pipeline.arrRef spec1 1)) (V c (Pipeline.arrRef spec1 2)) (V c (Pipeline.arrRef spec1 3)) (V c (Pipeline.arrRef spec1 4))) := by
  show (cfg1.win 5).cut (grid1.coords t) ((dat1 V c).after 5 t) = _
  rw [after1_5]
  unfold out1_5
  rw [View.canon_unit_zero hz]
  simp only [View.ld_unit_zero (S := S10000x96) hz, View.ld_unit_zero (S := S1x96) hz]
  obtain ⟨-, -, -, -, -, -, -, -, -, -, e50, e51⟩ := idx_facts1 t
  funext j
  obtain ⟨p, q, rfl⟩ : ∃ (p : Fin 10000) (q : Fin 96), j = ix2 p q := ⟨j 0, j 1, eq_ix2 j⟩
  have hN : cfg1.N = 5 := N_1
  have ht : t.val < 5 := hN ▸ t.isLt
  show k1_pay1 (iblk1 V c 0 t) (iblk1 V c 1 t) (iblk1 V c 2 t) (iblk1 V c 3 t) (iblk1 V c 4 t) (ix2 p q)
    = G1 (V c (Pipeline.arrRef spec1 0)) (V c (Pipeline.arrRef spec1 1)) (V c (Pipeline.arrRef spec1 2)) (V c (Pipeline.arrRef spec1 3)) (V c (Pipeline.arrRef spec1 4))
        (((cfg1.win 5).blk t).view.emb (ix2 p q))
  refine (pay1_apply (iblk1 V c 0 t) (iblk1 V c 1 t) (iblk1 V c 2 t) (iblk1 V c 3 t) (iblk1 V c 4 t) p q).trans ?_
  exact block_eq (iblk1 V c 0 t) (iblk1 V c 1 t) (iblk1 V c 2 t) (iblk1 V c 3 t) (iblk1 V c 4 t)
    (V c (Pipeline.arrRef spec1 0)) (V c (Pipeline.arrRef spec1 1)) (V c (Pipeline.arrRef spec1 2)) (V c (Pipeline.arrRef spec1 3)) (V c (Pipeline.arrRef spec1 4))
    p q (((cfg1.win 5).blk t).view.emb (ix2 p q))
    (by show win1_5.index t (1 : Fin 2) * 96 + 1 * q.val = q.val; omega)
    (iblk1_0_apply V c t p q (((cfg1.win 5).blk t).view.emb (ix2 p q))
      (by show win1_5.index t (0 : Fin 2) * 10000 + 1 * p.val = t.val * 10000 + p.val; omega)
      (by show win1_5.index t (1 : Fin 2) * 96 + 1 * q.val = q.val; omega))
    (iblk1_1_apply V c t q) (iblk1_2_apply V c t q) (iblk1_3_apply V c t q) (iblk1_4_apply V c t q)

/-- An index of the array is in point `t`'s block iff each coordinate is in the block's range on its axis. -/
theorem mem_blk1 (t : Fin cfg1.N) (i : S50000x96.Idx) :
    i ∈ ((cfg1.win 5).blk t).view.set ↔ ∀ a : Fin 2, win1_5.index t a * S10000x96.size a ≤ (i a).val ∧ (i a).val < win1_5.index t a * S10000x96.size a + S10000x96.size a := by
  show i ∈ ((View.whole main_v33).slice (win1_5.rect t)).set ↔ _
  rw [View.set_slice_whole, Rect.mem_set_unit]
  exact Iff.rfl

/-- Every index of the array is in some point's block: row `r` is covered by point `r / 10000`. -/
theorem covered1 (i : S50000x96.Idx) : ∃ t : Fin cfg1.N, (cfg1.win 5).flush t = true ∧ i ∈ ((cfg1.win 5).blk t).view.set := by
  have hi0 : (i 0).val < 50000 := (i 0).isLt
  have hi1 : (i 1).val < 96 := (i 1).isLt
  have hN : cfg1.N = 5 := N_1
  refine ⟨⟨(i 0).val / 10000, by rw [hN]; omega⟩, flush1_5 _, ?_⟩
  rw [mem_blk1]
  obtain ⟨-, -, -, -, -, -, -, -, -, -, e50, e51⟩ := idx_facts1 ⟨(i 0).val / 10000, by rw [hN]; omega⟩
  intro a
  match a with
  | ⟨0, _⟩ =>
    show win1_5.index ⟨(i 0).val / 10000, _⟩ (0 : Fin 2) * 10000 ≤ (i 0).val ∧ (i 0).val < win1_5.index ⟨(i 0).val / 10000, _⟩ (0 : Fin 2) * 10000 + 10000
    rw [e50]; show (i 0).val / 10000 * 10000 ≤ (i 0).val ∧ (i 0).val < (i 0).val / 10000 * 10000 + 10000; omega
  | ⟨1, _⟩ =>
    show win1_5.index ⟨(i 0).val / 10000, _⟩ (1 : Fin 2) * 96 ≤ (i 1).val ∧ (i 1).val < win1_5.index ⟨(i 0).val / 10000, _⟩ (1 : Fin 2) * 96 + 96
    rw [e51]; omega

/-- The array the region's write-backs leave is `G1` of the arrays as the region finds them. -/
theorem final1 (c : Dev nD) : (dat1 V c).arrAt 5 cfg1.N
    = G1 (V c (Pipeline.arrRef spec1 0)) (V c (Pipeline.arrRef spec1 1)) (V c (Pipeline.arrRef spec1 2)) (V c (Pipeline.arrRef spec1 3)) (V c (Pipeline.arrRef spec1 4)) :=
  (dat1 V c).arrAt_eq_of_cover 5 _ (fun t _ => flushed1_eq V c t) covered1

end Cert.KernelIdeal.HandValue

end
-- ==== Proof.Reg3Value.lean ====
/- Region 3 of @main at the ideal values: the result array after the region as ONE function `G3` of the region's
   input arrays, index by index — each row of the first array normalised (less the mean row, times the inverse
   deviation row), scaled and shifted, rectified at zero, multiplied into the weights, plus the bias row.
   The stored block at an index (`projPay_apply`), each input block read where the output's rectangle says
   (`iblk3_W_apply`), what a point writes back (`flushed3_eq`), the cover by arithmetic (row `r` is written by point
   `r / 10000`), and the array (`final3`). -/
import proofs.«111056_j31628139167864_2_alg».proof.Proof.Reg3
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ## The body's payload at an index -/

/-- The product's dimension numbers: rows of the left operand against columns of the right. -/
abbrev D3 : DotDims S10000x96 S96x64 S10000x64 := dot_S10000x96_S96x64_S10000x64_1_0_0_1_n_n

/-- The left operand of the product is read at the output's row and the contraction position. -/
theorem lhs_idx3 (p : Fin 10000) (q : Fin 64) (k : Fin 96) :
    D3.lhsIdx (ix2 p q) ((contrEquiv1 D3 96 rfl rfl).symm k) = ix2 p k := by
  have hk := contrEquiv1_symm_val D3 96 rfl rfl k
  funext a; apply Fin.ext
  match a with
  | ⟨0, _⟩ =>
    show (D3.lhsIdx (ix2 p q) _ 0).val = p.val
    unfold DotDims.lhsIdx
    rw [dif_neg (show ¬(0 : Fin S10000x96.rank) ∈ D3.lhsBatch by decide), dif_pos (show (0 : Fin S10000x96.rank) ∈ D3.lhsNonContracting by decide)]
    rfl
  | ⟨1, _⟩ => exact (D3.lhsIdx_val_of_single rfl _ _).trans hk

/-- The right operand is read at the contraction position and the output's column. -/
theorem rhs_idx3 (p : Fin 10000) (q : Fin 64) (k : Fin 96) :
    D3.rhsIdx (ix2 p q) ((contrEquiv1 D3 96 rfl rfl).symm k) = ix2 k q := by
  have hk := contrEquiv1_symm_val D3 96 rfl rfl k
  funext a; apply Fin.ext
  match a with
  | ⟨0, _⟩ => exact (D3.rhsIdx_val_of_single rfl _ _).trans hk
  | ⟨1, _⟩ =>
    show (D3.rhsIdx (ix2 p q) _ 1).val = q.val
    unfold DotDims.rhsIdx
    rw [dif_neg (show ¬(1 : Fin S96x64.rank) ∈ D3.rhsBatch by decide), dif_pos (show (1 : Fin S96x64.rank) ∈ D3.rhsNonContracting by decide)]
    rfl

/-- The stored value at row `p`, column `q` of the block: the normalised, scaled, shifted and rectified row of the
    first operand against column `q` of the weights, plus the bias. -/
theorem projPay_apply (x0 : Vec Ideal S10000x96 .f32) (x1 x2 x3 x4 : Vec Ideal S1x96 .f32) (x5 : Vec Ideal S96x64 .bf16)
    (x6 : Vec Ideal S1x64 .f32) (p : Fin 10000) (q : Fin 64) :
    k3_pay1 x0 x1 x2 x3 x4 x5 x6 (ix2 p q)
      = (∑ k : Fin 96, max ((x0 (ix2 p k) - x1 (ix2 (0 : Fin 1) k)) * x2 (ix2 (0 : Fin 1) k) * x3 (ix2 (0 : Fin 1) k) + x4 (ix2 (0 : Fin 1) k)) 0
            * x5 (ix2 k q)) + x6 (ix2 (0 : Fin 1) q) := by
  unfold k3_pay1
  rw [addf_apply]
  simp only [matmul]
  rw [Ideal.matmul_constant_zero_apply, broadcastTo_1b_ab_apply, shapeCast_self, ← Equiv.sum_comp (contrEquiv1 D3 96 rfl rfl).symm]
  congr 1
  · refine Finset.sum_congr rfl fun k _ => ?_
    rw [lhs_idx3, rhs_idx3, shapeCast_self, truncf_apply, maximumf_apply, addf_apply, mulf_apply, mulf_apply, subf_apply]
    simp only [broadcastTo_1b_ab_apply, shapeCast_self, broadcast_apply]
    rw [show (Scalar.ofBits .f32 0x00000000#32 : Ideal .f32) = 0 from Ideal.ofBits_zero_f32]
  · rw [shapeCast_self]

/-! ## The region's output as one function of its input arrays -/

theorem hz3 : (![0, 0] : Fin 2 → Nat) = fun _ => 0 := funext fun a => by fin_cases a <;> rfl

/-- Row `r`, column `q` of the result: row `r` of the first array less the mean row, times the inverse deviation, times the
    scale, plus the shift, rectified at zero, against column `q` of the weights, plus the bias. -/
def G3 (a0 : FVec Ideal S50000x96 .f32) (a1 a2 a3 a4 : FVec Ideal S1x96 .f32) (a5 : FVec Ideal S96x64 .bf16)
    (a6 : FVec Ideal S1x64 .f32) : FVec Ideal S50000x64 .f32 := fun i =>
  (∑ k : Fin 96, max ((a0 (ix2 (i 0 : Fin 50000) k) - a1 (ix2 (0 : Fin 1) k)) * a2 (ix2 (0 : Fin 1) k) * a3 (ix2 (0 : Fin 1) k)
        + a4 (ix2 (0 : Fin 1) k)) 0 * a5 (ix2 k (i 1 : Fin 64))) + a6 (ix2 (0 : Fin 1) (i 1 : Fin 64))

/-- The stored value at any index of the block. -/
theorem projPay_apply' (x0 : Vec Ideal S10000x96 .f32) (x1 x2 x3 x4 : Vec Ideal S1x96 .f32) (x5 : Vec Ideal S96x64 .bf16)
    (x6 : Vec Ideal S1x64 .f32) (y : S10000x64.Idx) :
    k3_pay1 x0 x1 x2 x3 x4 x5 x6 y
      = (∑ k : Fin 96, max ((x0 (ix2 (y 0 : Fin 10000) k) - x1 (ix2 (0 : Fin 1) k)) * x2 (ix2 (0 : Fin 1) k) * x3 (ix2 (0 : Fin 1) k) + x4 (ix2 (0 : Fin 1) k)) 0
            * x5 (ix2 k (y 1 : Fin 64))) + x6 (ix2 (0 : Fin 1) (y 1 : Fin 64)) := by
  obtain ⟨p, q, rfl⟩ : ∃ (p : Fin 10000) (q : Fin 64), y = ix2 p q := ⟨y 0, y 1, eq_ix2 y⟩
  exact projPay_apply x0 x1 x2 x3 x4 x5 x6 p q

/-! ## From blocks to the array -/

/-- The printed index maps over the grid: the first input and the output move down the rows with the point, every other
    window stays on its one block. -/
theorem idx_facts3 : ∀ t : Fin cfg3.N, win3_0.index t (0 : Fin 2) = t.val ∧ win3_0.index t (1 : Fin 2) = 0
    ∧ win3_7.index t (0 : Fin 2) = t.val ∧ win3_7.index t (1 : Fin 2) = 0
    ∧ (win3_1.index t (0 : Fin 2) = 0 ∧ win3_1.index t (1 : Fin 2) = 0) ∧ (win3_2.index t (0 : Fin 2) = 0 ∧ win3_2.index t (1 : Fin 2) = 0)
    ∧ (win3_3.index t (0 : Fin 2) = 0 ∧ win3_3.index t (1 : Fin 2) = 0) ∧ (win3_4.index t (0 : Fin 2) = 0 ∧ win3_4.index t (1 : Fin 2) = 0)
    ∧ (win3_5.index t (0 : Fin 2) = 0 ∧ win3_5.index t (1 : Fin 2) = 0) ∧ (win3_6.index t (0 : Fin 2) = 0 ∧ win3_6.index t (1 : Fin 2) = 0) :=
  (by decide +kernel : ∀ t : Fin grid3.N, _)

/-- The first input's block at point `t` is rows `10000 t … 10000 t + 9999` of its array. -/
theorem iblk3_0_apply (c : Dev nD) (t : Fin cfg3.N) (x : S10000x96.Idx) (i : S50000x96.Idx)
    (h0 : (i 0).val = t.val * 10000 + (x 0).val) (h1 : (i 1).val = (x 1).val) :
    (iblk3 V c 0 t : Vec Ideal S10000x96 .f32) x = (V c (Pipeline.arrRef spec3 0) : S50000x96.Idx → Elt Ideal .f32) i := by
  obtain ⟨e0, e1, -⟩ := idx_facts3 t
  unfold iblk3
  rw [View.read_apply]
  refine congrArg (V c (Pipeline.arrRef spec3 0)) ?_
  funext a
  apply Fin.ext
  match a with
  | ⟨0, _⟩ => show win3_0.index t (0 : Fin 2) * 10000 + 1 * (x 0).val = (i 0).val; rw [e0, h0]; omega
  | ⟨1, _⟩ => show win3_0.index t (1 : Fin 2) * 96 + 1 * (x 1).val = (i 1).val; rw [e1, h1]; omega

/-- Input window 1 stages its whole array at every point. -/
theorem iblk3_1_apply (c : Dev nD) (t : Fin cfg3.N) (x : S1x96.Idx) :
    (iblk3 V c 1 t : Vec Ideal S1x96 .f32) x = (V c (Pipeline.arrRef spec3 1) : S1x96.Idx → Elt Ideal .f32) x := by
  obtain ⟨-, -, -, -, h1, h2, h3, h4, h5, h6⟩ := idx_facts3 t
  unfold iblk3
  rw [View.read_apply]
  refine congrArg (V c (Pipeline.arrRef spec3 1)) ?_
  funext a
  apply Fin.ext
  match a with
  | ⟨0, _⟩ => show win3_1.index t (0 : Fin 2) * 1 + 1 * (x 0).val = (x 0).val; rw [h1.1]; omega
  | ⟨1, _⟩ => show win3_1.index t (1 : Fin 2) * 96 + 1 * (x 1).val = (x 1).val; rw [h1.2]; omega

/-- Input window 2 stages its whole array at every point. -/
theorem iblk3_2_apply (c : Dev nD) (t : Fin cfg3.N) (x : S1x96.Idx) :
    (iblk3 V c 2 t : Vec Ideal S1x96 .f32) x = (V c (Pipeline.arrRef spec3 2) : S1x96.Idx → Elt Ideal .f32) x := by
  obtain ⟨-, -, -, -, h1, h2, h3, h4, h5, h6⟩ := idx_facts3 t
  unfold iblk3
  rw [View.read_apply]
  refine congrArg (V c (Pipeline.arrRef spec3 2)) ?_
  funext a
  apply Fin.ext
  match a with
  | ⟨0, _⟩ => show win3_2.index t (0 : Fin 2) * 1 + 1 * (x 0).val = (x 0).val; rw [h2.1]; omega
  | ⟨1, _⟩ => show win3_2.index t (1 : Fin 2) * 96 + 1 * (x 1).val = (x 1).val; rw [h2.2]; omega

/-- Input window 3 stages its whole array at every point. -/
theorem iblk3_3_apply (c : Dev nD) (t : Fin cfg3.N) (x : S1x96.Idx) :
    (iblk3 V c 3 t : Vec Ideal S1x96 .f32) x = (V c (Pipeline.arrRef spec3 3) : S1x96.Idx → Elt Ideal .f32) x := by
  obtain ⟨-, -, -, -, h1, h2, h3, h4, h5, h6⟩ := idx_facts3 t
  unfold iblk3
  rw [View.read_apply]
  refine congrArg (V c (Pipeline.arrRef spec3 3)) ?_
  funext a
  apply Fin.ext
  match a with
  | ⟨0, _⟩ => show win3_3.index t (0 : Fin 2) * 1 + 1 * (x 0).val = (x 0).val; rw [h3.1]; omega
  | ⟨1, _⟩ => show win3_3.index t (1 : Fin 2) * 96 + 1 * (x 1).val = (x 1).val; rw [h3.2]; omega

/-- Input window 4 stages its whole array at every point. -/
theorem iblk3_4_apply (c : Dev nD) (t : Fin cfg3.N) (x : S1x96.Idx) :
    (iblk3 V c 4 t : Vec Ideal S1x96 .f32) x = (V c (Pipeline.arrRef spec3 4) : S1x96.Idx → Elt Ideal .f32) x := by
  obtain ⟨-, -, -, -, h1, h2, h3, h4, h5, h6⟩ := idx_facts3 t
  unfold iblk3
  rw [View.read_apply]
  refine congrArg (V c (Pipeline.arrRef spec3 4)) ?_
  funext a
  apply Fin.ext
  match a with
  | ⟨0, _⟩ => show win3_4.index t (0 : Fin 2) * 1 + 1 * (x 0).val = (x 0).val; rw [h4.1]; omega
  | ⟨1, _⟩ => show win3_4.index t (1 : Fin 2) * 96 + 1 * (x 1).val = (x 1).val; rw [h4.2]; omega

/-- Input window 5 stages its whole array at every point. -/
theorem iblk3_5_apply (c : Dev nD) (t : Fin cfg3.N) (x : S96x64.Idx) :
    (iblk3 V c 5 t : Vec Ideal S96x64 .bf16) x = (V c (Pipeline.arrRef spec3 5) : S96x64.Idx → Elt Ideal .bf16) x := by
  obtain ⟨-, -, -, -, h1, h2, h3, h4, h5, h6⟩ := idx_facts3 t
  unfold iblk3
  rw [View.read_apply]
  refine congrArg (V c (Pipeline.arrRef spec3 5)) ?_
  funext a
  apply Fin.ext
  match a with
  | ⟨0, _⟩ => show win3_5.index t (0 : Fin 2) * 96 + 1 * (x 0).val = (x 0).val; rw [h5.1]; omega
  | ⟨1, _⟩ => show win3_5.index t (1 : Fin 2) * 64 + 1 * (x 1).val = (x 1).val; rw [h5.2]; omega

/-- Input window 6 stages its whole array at every point. -/
theorem iblk3_6_apply (c : Dev nD) (t : Fin cfg3.N) (x : S1x64.Idx) :
    (iblk3 V c 6 t : Vec Ideal S1x64 .f32) x = (V c (Pipeline.arrRef spec3 6) : S1x64.Idx → Elt Ideal .f32) x := by
  obtain ⟨-, -, -, -, h1, h2, h3, h4, h5, h6⟩ := idx_facts3 t
  unfold iblk3
  rw [View.read_apply]
  refine congrArg (V c (Pipeline.arrRef spec3 6)) ?_
  funext a
  apply Fin.ext
  match a with
  | ⟨0, _⟩ => show win3_6.index t (0 : Fin 2) * 1 + 1 * (x 0).val = (x 0).val; rw [h6.1]; omega
  | ⟨1, _⟩ => show win3_6.index t (1 : Fin 2) * 64 + 1 * (x 1).val = (x 1).val; rw [h6.2]; omega

/-- `G3` at row `r`, column `q`. -/
theorem G3_apply (a0 : FVec Ideal S50000x96 .f32) (a1 a2 a3 a4 : FVec Ideal S1x96 .f32) (a5 : FVec Ideal S96x64 .bf16)
    (a6 : FVec Ideal S1x64 .f32) (r : Fin 50000) (q : Fin 64) :
    G3 a0 a1 a2 a3 a4 a5 a6 (ix2 r q)
      = (∑ k : Fin 96, max ((a0 (ix2 r k) - a1 (ix2 (0 : Fin 1) k)) * a2 (ix2 (0 : Fin 1) k) * a3 (ix2 (0 : Fin 1) k)
          + a4 (ix2 (0 : Fin 1) k)) 0 * a5 (ix2 k q)) + a6 (ix2 (0 : Fin 1) q) := rfl

/-- The stored value at row `p`, column `q` of a block is `G3` at row `r`, column `q`, as soon as the loaded blocks agree with
    the arrays where the two formulas read them. -/
theorem block3_eq_of (x0 : Vec Ideal S10000x96 .f32) (x1 x2 x3 x4 : Vec Ideal S1x96 .f32) (x5 : Vec Ideal S96x64 .bf16)
    (x6 : Vec Ideal S1x64 .f32) (a0 : FVec Ideal S50000x96 .f32) (a1 a2 a3 a4 : FVec Ideal S1x96 .f32) (a5 : FVec Ideal S96x64 .bf16)
    (a6 : FVec Ideal S1x64 .f32) (p : Fin 10000) (q : Fin 64) (r : Fin 50000)
    (H0 : ∀ k : Fin 96, x0 (ix2 p k) = a0 (ix2 r k))
    (H1 : ∀ k : Fin 96, x1 (ix2 (0 : Fin 1) k) = a1 (ix2 (0 : Fin 1) k))
    (H2 : ∀ k : Fin 96, x2 (ix2 (0 : Fin 1) k) = a2 (ix2 (0 : Fin 1) k))
    (H3 : ∀ k : Fin 96, x3 (ix2 (0 : Fin 1) k) = a3 (ix2 (0 : Fin 1) k))
    (H4 : ∀ k : Fin 96, x4 (ix2 (0 : Fin 1) k) = a4 (ix2 (0 : Fin 1) k))
    (H5 : ∀ k : Fin 96, x5 (ix2 k q) = a5 (ix2 k q))
    (H6 : x6 (ix2 (0 : Fin 1) q) = a6 (ix2 (0 : Fin 1) q)) :
    k3_pay1 x0 x1 x2 x3 x4 x5 x6 (ix2 p q) = G3 a0 a1 a2 a3 a4 a5 a6 (ix2 r q) := by
  rw [projPay_apply, G3_apply]
  refine congrArg₂ (· + ·) (Finset.sum_congr rfl fun k _ => ?_) H6
  rw [H0, H1, H2, H3, H4, H5]

set_option maxHeartbeats 1000000 in
/-- The value stored at index `y` of the block at point `t` is `G3` of the arrays at the index `i` of the result that
    `y` sits at: `10000 t` rows further down, the same column. -/
theorem block3_eq (c : Dev nD) (t : Fin cfg3.N) (y : S10000x64.Idx) (i : S50000x64.Idx)
    (h0 : (i 0).val = t.val * 10000 + (y 0).val) (h1 : (i 1).val = (y 1).val) :
    k3_pay1 (iblk3 V c 0 t) (iblk3 V c 1 t) (iblk3 V c 2 t) (iblk3 V c 3 t) (iblk3 V c 4 t) (iblk3 V c 5 t) (iblk3 V c 6 t) y = G3 (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) i := by
  obtain ⟨p, q, rfl⟩ : ∃ (p : Fin 10000) (q : Fin 64), y = ix2 p q := ⟨y 0, y 1, eq_ix2 y⟩
  obtain ⟨r, q', rfl⟩ : ∃ (r : Fin 50000) (q' : Fin 64), i = ix2 r q' := ⟨i 0, i 1, eq_ix2 i⟩
  have h0' : r.val = t.val * 10000 + p.val := h0
  obtain rfl : q = q' := (Fin.ext h1).symm
  exact block3_eq_of _ _ _ _ _ _ _ _ _ _ _ _ _ _ p q r (fun k => iblk3_0_apply V c t (ix2 p k) (ix2 r k) h0' rfl)
    (fun k => iblk3_1_apply V c t (ix2 (0 : Fin 1) k)) (fun k => iblk3_2_apply V c t (ix2 (0 : Fin 1) k))
    (fun k => iblk3_3_apply V c t (ix2 (0 : Fin 1) k)) (fun k => iblk3_4_apply V c t (ix2 (0 : Fin 1) k))
    (fun k => iblk3_5_apply V c t (ix2 k q)) (iblk3_6_apply V c t (ix2 (0 : Fin 1) q))

/-- What point `t` writes back is block `t` of `G3` of the arrays as the region finds them. -/
theorem flushed3_eq (c : Dev nD) (t : Fin cfg3.N) :
    (dat3 V c).flushed 7 t = ((cfg3.win 7).blk t).view.read (Elt Ideal) (G3 (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6))) := by
  show (cfg3.win 7).cut (grid3.coords t) ((dat3 V c).after 7 t) = _
  rw [after3_7]
  unfold out3_7
  rw [View.canon_unit_zero hz3]
  simp only [View.ld_unit_zero (S := S10000x96) hz3, View.ld_unit_zero (S := S1x96) hz3, View.ld_unit_zero (S := S96x64) hz3,
    View.ld_unit_zero (S := S1x64) hz3]
  obtain ⟨-, -, e2, e3, -⟩ := idx_facts3 t
  funext j
  refine block3_eq V c t j (((cfg3.win 7).blk t).view.emb j) ?_ ?_
  · show win3_7.index t (0 : Fin 2) * 10000 + 1 * (j 0).val = t.val * 10000 + (j 0).val
    rw [e2]; omega
  · show win3_7.index t (1 : Fin 2) * 64 + 1 * (j 1).val = (j 1).val
    rw [e3]; omega

/-- An index of the result is in point `t`'s block iff each coordinate is in the block's range on its axis. -/
theorem mem_blk3 (t : Fin cfg3.N) (i : S50000x64.Idx) :
    i ∈ ((cfg3.win 7).blk t).view.set ↔ ∀ a : Fin 2, win3_7.index t a * S10000x64.size a ≤ (i a).val ∧ (i a).val < win3_7.index t a * S10000x64.size a + S10000x64.size a := by
  show i ∈ ((View.whole main_v63).slice (win3_7.rect t)).set ↔ _
  rw [View.set_slice_whole, Rect.mem_set_unit]
  exact Iff.rfl

/-- Row `r` of the result is written back by point `r / 10000`. -/
theorem covered3 (i : S50000x64.Idx) : ∃ t : Fin cfg3.N, (cfg3.win 7).flush t = true ∧ i ∈ ((cfg3.win 7).blk t).view.set := by
  have hi0 : (i 0).val < 50000 := idx2_lt0 i
  have hi1 : (i 1).val < 64 := idx2_lt1 i
  refine ⟨⟨(i 0).val / 10000, by rw [show cfg3.N = 5 from N_3]; omega⟩, flush3_7 _, ?_⟩
  rw [mem_blk3]
  obtain ⟨-, -, e2, e3, -⟩ := idx_facts3 ⟨(i 0).val / 10000, by rw [show cfg3.N = 5 from N_3]; omega⟩
  intro a
  match a with
  | ⟨0, _⟩ =>
    show win3_7.index _ (0 : Fin 2) * 10000 ≤ (i 0).val ∧ (i 0).val < win3_7.index _ (0 : Fin 2) * 10000 + 10000
    rw [e2]; show (i 0).val / 10000 * 10000 ≤ (i 0).val ∧ (i 0).val < (i 0).val / 10000 * 10000 + 10000; omega
  | ⟨1, _⟩ =>
    show win3_7.index _ (1 : Fin 2) * 64 ≤ (i 1).val ∧ (i 1).val < win3_7.index _ (1 : Fin 2) * 64 + 64
    rw [e3]; omega

/-- The result array after the region: `G3` of the input arrays as the region finds them. -/
theorem final3 (c : Dev nD) : (dat3 V c).arrAt 7 cfg3.N = G3 (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) :=
  (dat3 V c).arrAt_eq_of_cover 7 (G3 (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6))) (fun t _ => flushed3_eq V c t) covered3

end Cert.KernelIdeal.HandValue

end
-- ==== Proof.KSpec.lean ====
/- The kernel side in the vocabulary of the entry-level specification: an array of shape [n, d] as the function of
   its two coordinates, a one-row array and a vector as functions of one; the two pointwise regions' results as the
   specification's batch normalisation with rectifier and its linear head; the host's reshapes, format changes, mean
   and inverse deviation between the regions as the identity, the identity, and the specification's two statistics. -/
import proofs.«111056_j31628139167864_2_alg».proof.Proof.NetSpec
import proofs.«111056_j31628139167864_2_alg».proof.Proof.HostK
import proofs.«111056_j31628139167864_2_alg».proof.Proof.Reg1Value
import proofs.«111056_j31628139167864_2_alg».proof.Proof.Reg3Value
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.HandValue

open Cert.KernelIdeal Cert.KernelIdeal.Gen
open Idealize.ShloMosaic Idealize.ShloMosaic.ValueIdx

/-! ## Arrays as functions of their coordinates -/

/-- A matrix as the function of its row and column. -/
def mat {n d : ℕ} {φ : FTy} (x : FVec Ideal ⟨2, ![n, d]⟩ φ) : Fin n → Fin d → EReal := fun r j => x (ix2 r j)
/-- A one-row matrix as the function of its column. -/
def rowv {d : ℕ} (x : FVec Ideal ⟨2, ![1, d]⟩ .f32) : Fin d → EReal := fun j => x (ix2 0 j)
/-- A vector as the function of its position. -/
def vecv {d : ℕ} (x : FVec Ideal ⟨1, ![d]⟩ .f32) : Fin d → EReal := fun j => x (ix1 j)

/-- Two matrices with the same entries are equal. -/
theorem mat_ext {n d : ℕ} {φ : FTy} (x y : FVec Ideal ⟨2, ![n, d]⟩ φ) (h : mat x = mat y) : x = y := by
  funext i
  obtain ⟨r, j, rfl⟩ : ∃ (r : Fin n) (j : Fin d), i = ix2 r j := ⟨i 0, i 1, eq_ix2 i⟩
  exact congrFun (congrFun h r) j

/-- Two one-row matrices with the same entries are equal. -/
theorem rowv_ext {d : ℕ} (x y : FVec Ideal ⟨2, ![1, d]⟩ .f32) (h : rowv x = rowv y) : x = y := by
  funext i
  obtain ⟨z, j, rfl⟩ : ∃ (z : Fin 1) (j : Fin d), i = ix2 z j := ⟨i 0, i 1, eq_ix2 i⟩
  obtain rfl : z = 0 := Subsingleton.elim _ _
  exact congrFun h j

/-- Two vectors with the same entries are equal. -/
theorem vecv_ext {d : ℕ} (x y : FVec Ideal ⟨1, ![d]⟩ .f32) (h : vecv x = vecv y) : x = y := by
  funext i
  obtain ⟨j, rfl⟩ : ∃ j : Fin d, i = ix1 j := ⟨i 0, eq_ix1 i⟩
  exact congrFun h j

/-! ## The two pointwise regions -/

/-- Region 1's result is the batch normalisation with rectifier of its first array by its four rows. -/
theorem G1_spec (a0 : FVec Ideal S50000x96 .f32) (a1 a2 a3 a4 : FVec Ideal S1x96 .f32) :
    mat (G1 a0 a1 a2 a3 a4) = Cert.NetSpec.bnRelu (mat a0) (rowv a1) (rowv a2) (rowv a3) (rowv a4) := by
  funext r j
  exact G1_apply a0 a1 a2 a3 a4 r j

/-- Region 3's result is the linear head of the batch normalisation with rectifier of its first array. -/
theorem G3_spec (a0 : FVec Ideal S50000x96 .f32) (a1 a2 a3 a4 : FVec Ideal S1x96 .f32) (a5 : FVec Ideal S96x64 .bf16)
    (a6 : FVec Ideal S1x64 .f32) :
    mat (G3 a0 a1 a2 a3 a4 a5 a6)
      = Cert.NetSpec.head (Cert.NetSpec.bnRelu (mat a0) (rowv a1) (rowv a2) (rowv a3) (rowv a4)) (mat a5) (rowv a6) := by
  funext r q
  exact G3_apply a0 a1 a2 a3 a4 a5 a6 r q

/-! ## The host's reshapes and format changes -/

/-- A vector laid out as one row has the vector's entries. -/
theorem rowv_rowOf (x : FVec Ideal S96 .f32) : rowv (rowOf x) = vecv x := by
  funext j
  exact shapeCast_a_1a_apply x shapeCasts_S96_S1x96 0 j

/-- A row laid out as a vector has the row's entries. -/
theorem vecv_vecOf (s : FVec Ideal S1x96 .f32) : vecv (vecOf s) = rowv s := by
  funext j
  exact shapeCast_1a_a_apply s shapeCasts_S1x96_S96 j

/-- The same for the head's bias. -/
theorem rowv_rowOf64 (x : FVec Ideal S64 .f32) : rowv (rowOf64 x) = vecv x := by
  funext j
  exact shapeCast_a_1a_apply x shapeCasts_S64_S1x64 0 j

/-- A change of float format keeps every entry, on the extended reals. -/
theorem mat_truncf (W : FVec Ideal S96x96 .f32) : mat (truncf .bf16 W bitsLt_bf16_f32) = mat W := rfl
theorem mat_truncf64 (W : FVec Ideal S96x64 .f32) : mat (truncf .bf16 W bitsLt_bf16_f32) = mat W := rfl

/-! ## The host's statistics -/

/-- The scalar constant spread over the features reads the constant. -/
theorem splat96 (b : BitVec 32) (j : Fin 96) :
    (broadcastInDim S96 ![] bcast_S_S96 (constant (F := Ideal) S_ .f32 b) : FVec Ideal S96 .f32) (ix1 j) = Ideal.ofBits .f32 b :=
  broadcastInDim_apply _ bcast_S_S96 _ (ix1 j) ix0 (fun a => a.elim0)

/-- The mean vector: each column sum divided by the count. -/
theorem vecv_muVec (s : FVec Ideal S1x96 .f32) :
    vecv (muVec s) = fun j => Ideal.div (rowv s j) (Ideal.ofBits .f32 0x47435000#32) := by
  funext j
  show FloatOps.hostDivf (vecOf s (ix1 j)) ((broadcastInDim S96 ![] bcast_S_S96 (constant (F := Ideal) S_ .f32 0x47435000#32) : FVec Ideal S96 .f32) (ix1 j)) = _
  rw [splat96, Ideal.hostDivf_def]
  exact congrArg (Ideal.div · _) (congrFun (vecv_vecOf s) j)

/-- The inverse deviation vector: rsqrt (sum of squares / count − mean² + ε). -/
theorem vecv_invVec (s q : FVec Ideal S1x96 .f32) :
    vecv (invVec s q) = fun j => Ideal.rsqrt ((Ideal.div (rowv q j) (Ideal.ofBits .f32 0x47435000#32)
      - Ideal.div (rowv s j) (Ideal.ofBits .f32 0x47435000#32) * Ideal.div (rowv s j) (Ideal.ofBits .f32 0x47435000#32))
      + Ideal.ofBits .f32 0x3727C5AC#32) := by
  funext j
  have hm := congrFun (vecv_muVec s) j
  have hq := congrFun (vecv_vecOf q) j
  show FloatOps.hostUnary .rsqrt ((FloatOps.hostDivf (vecOf q (ix1 j)) ((broadcastInDim S96 ![] bcast_S_S96 (constant (F := Ideal) S_ .f32 0x47435000#32) : FVec Ideal S96 .f32) (ix1 j))
      - muVec s (ix1 j) * muVec s (ix1 j))
      + (broadcastInDim S96 ![] bcast_S_S96 (constant (F := Ideal) S_ .f32 0x3727C5AC#32) : FVec Ideal S96 .f32) (ix1 j)) = _
  rw [splat96, splat96, Ideal.hostDivf_def, Ideal.hostUnary_rsqrt_def]
  rw [show muVec s (ix1 j) = Ideal.div (rowv s j) (Ideal.ofBits .f32 0x47435000#32) from hm,
    show vecOf q (ix1 j) = rowv q j from hq]

/-- With the column sums of `H` in `s`, the mean vector is the specification's mean. -/
theorem vecv_muVec_meanK {n : ℕ} (s : FVec Ideal S1x96 .f32) (H : Fin n → Fin 96 → EReal)
    (hs : Cert.NetSpec.colSum H = rowv s) :
    vecv (muVec s) = Cert.NetSpec.meanK (Ideal.ofBits .f32 0x47435000#32) H := by
  rw [vecv_muVec]
  funext j
  unfold Cert.NetSpec.meanK
  rw [hs]

/-- With the column sums of `H` in `s` and its column sums of squares in `q`, the inverse deviation vector is the
    specification's. -/
theorem vecv_invVec_invK {n : ℕ} (s q : FVec Ideal S1x96 .f32) (H : Fin n → Fin 96 → EReal)
    (hs : Cert.NetSpec.colSum H = rowv s) (hq : Cert.NetSpec.colSumSq H = rowv q) :
    vecv (invVec s q) = Cert.NetSpec.invK (Ideal.ofBits .f32 0x47435000#32) (Ideal.ofBits .f32 0x3727C5AC#32) H := by
  rw [vecv_invVec]
  funext j
  unfold Cert.NetSpec.invK Cert.NetSpec.meanK
  rw [hs, hq]

end Cert.KernelIdeal.HandValue

end
-- ==== Proof.LibRealClosed.lean ====
/-
  Arrays of extended reals whose every entry is a real number, and the host operations that keep them so.

  On the extended reals the field laws fail at the infinities (a product distributes over a sum only off them), so a
  proof that rearranges sums of products first shows that every number in sight is real. The facts here do that
  without reading any array at an index: an entry of a matrix product is a finite sum of products of entries; an entry
  of a transposed, sliced, reshaped, broadcast or concatenated array is an entry of an operand; sums, differences,
  products and negatives of reals are real; and a quotient of reals is real when the divisor is not zero.
-/
import Idealize.ShloMosaic.PureOps.Ideal
import Idealize.ShloMosaic.PureOps.Ideal.Laws
import Idealize.ShloMosaic.Lib.ValueIdx

noncomputable section

open scoped BigOperators

namespace Cert.LibRealClosed

open Idealize.ShloMosaic

/-- An extended real that is a real number (neither infinity). -/
def IsReal (x : EReal) : Prop := ∃ r : ℝ, x = (r : EReal)

theorem IsReal.coe (r : ℝ) : IsReal (r : EReal) := ⟨r, rfl⟩

theorem IsReal.zero : IsReal (0 : EReal) := ⟨0, rfl⟩

theorem IsReal.one : IsReal (1 : EReal) := ⟨1, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.neg {x : EReal} (hx : IsReal x) : IsReal (-x) := by
  obtain ⟨a, rfl⟩ := hx; exact ⟨-a, (EReal.coe_neg a).symm⟩

/-- A finite sum of reals is real. -/
theorem IsReal.sum {ι : Type*} (s : Finset ι) (f : ι → EReal) (h : ∀ i ∈ s, IsReal (f i)) : IsReal (∑ i ∈ s, f i) := by
  classical
  induction s using Finset.induction_on with
  | empty => rw [Finset.sum_empty]; exact IsReal.zero
  | insert a s ha ih =>
    rw [Finset.sum_insert ha]
    exact (h _ (Finset.mem_insert_self _ _)).add (ih fun i hi => h i (Finset.mem_insert_of_mem hi))

/-- The quotient of a real by a real other than zero is real: it is the product with the reciprocal. -/
theorem IsReal.div {x y : EReal} (hx : IsReal x) (hy : IsReal y) (h0 : y ≠ 0) : IsReal (Ideal.div x y) := by
  obtain ⟨a, rfl⟩ := hx; obtain ⟨b, rfl⟩ := hy
  have hb : b ≠ 0 := fun h => h0 (by rw [h]; rfl)
  rw [Ideal.div_coe hb, ← EReal.coe_mul]
  exact ⟨_, rfl⟩

/-- A real is neither infinity; conversely an extended real strictly between the infinities is real. -/
theorem isReal_of_abs_lt_top {x : EReal} (h : max x (-x) < ⊤) : IsReal x := by
  induction x using EReal.rec with
  | bot => exact absurd h (by simp)
  | coe r => exact ⟨r, rfl⟩
  | top => exact absurd h (by simp)

/-- Every entry of the array is a real number. -/
def AllReal {S : Shape} {φ : FTy} (v : FVec Ideal S φ) : Prop := ∀ i, IsReal (v i)

variable {s t : Shape} {φ : FTy}

/-- An entry of a matrix product (any dimension numbers) is a finite sum of products of entries of the operands. -/
theorem AllReal.dotGeneral {sl sr so : Shape} {φ₁ φ₂ : FTy} (d : DotDims sl sr so) (p : Option ContractPrecision)
    {l : FVec Ideal sl φ₁} {r : FVec Ideal sr φ₂} (hl : AllReal l) (hr : AllReal r) :
    AllReal (Host.dotGeneral d p l r) := by
  intro j
  show IsReal (FloatOps.dotGeneral d p _ l r j)
  rw [Ideal.dotGeneral_apply]
  exact IsReal.sum _ _ fun k _ => (hl _).mul (hr _)

theorem AllReal.transpose (perm : List (Fin s.rank)) {x : FVec Ideal s φ} (h : s.Transposes perm t) (hx : AllReal x) :
    AllReal (φ := φ) (transpose t perm x h) := fun _ => hx _

theorem AllReal.slice (off : Fin s.rank → Nat) {x : FVec Ideal s φ} (h : s.Slices off t) (hx : AllReal x) :
    AllReal (φ := φ) (extractStridedSlice t off x h) := fun _ => hx _

theorem AllReal.shapeCast {x : FVec Ideal s φ} (h : s.ShapeCasts t) (hx : AllReal x) :
    AllReal (φ := φ) (shapeCast t x h) := fun _ => hx _

theorem AllReal.broadcastInDim (dims : Fin s.rank → Fin t.rank) (h : s.BroadcastsInDim t dims) {x : FVec Ideal s φ}
    (hx : AllReal x) : AllReal (φ := φ) (broadcastInDim t dims h x) := fun _ => hx _

/-- An entry of arrays joined along an axis is an entry of one of them. -/
theorem AllReal.concatenate (a : Fin t.rank) (xs : List ((s : Shape) × (s.Idx → Ideal φ)))
    (h : Shape.Concatenates (xs.map (·.1)) t a) (hx : ∀ p ∈ xs, ∀ i, IsReal (p.2 i)) :
    AllReal (φ := φ) (concatenate t a xs h) := by
  intro j
  unfold Idealize.ShloMosaic.concatenate
  exact hx _ (List.getElem_mem _) _

theorem AllReal.addf {x y : FVec Ideal s φ} (hx : AllReal x) (hy : AllReal y) : AllReal (addf x y) :=
  fun i => (hx i).add (hy i)

theorem AllReal.subf {x y : FVec Ideal s φ} (hx : AllReal x) (hy : AllReal y) : AllReal (subf x y) :=
  fun i => (hx i).sub (hy i)

theorem AllReal.mulf {x y : FVec Ideal s φ} (hx : AllReal x) (hy : AllReal y) : AllReal (mulf x y) :=
  fun i => (hx i).mul (hy i)

theorem AllReal.hostNegf {x : FVec Ideal s φ} (hx : AllReal x) : AllReal (Host.negf x) :=
  fun i => (hx i).neg

/-- The quotient of two arrays of reals is an array of reals when no divisor is zero. -/
theorem AllReal.hostDivf {x y : FVec Ideal s φ} (hx : AllReal x) (hy : AllReal y) (h0 : ∀ i, y i ≠ 0) :
    AllReal (Host.divf x y) :=
  fun i => (hx i).div (hy i) (h0 i)

end Cert.LibRealClosed

end
-- ==== Proof.NetMath.lean ====
/-
  The algebra that joins a fused two-layer graph network to its plain description, on the extended reals.

  A layer multiplies the node features by two weight matrices with a clamp at zero between them, then normalizes each
  column by its mean and variance over the nodes. One description computes the variance as the mean of the squares
  less the square of the mean, from column sums gathered while the rows stream by; the other as the mean of the
  squared deviations. The two agree whenever every number in sight is real, and then the reciprocal square root of
  the variance plus a positive constant is real too. On the extended reals products distribute over sums only off
  the infinities, so each step first shows that its operands are real.
-/
import proofs.«111056_j31628139167864_2_alg».proof.Proof.LibRealClosed
import proofs.«111056_j31628139167864_2_alg».proof.Proof.NetSpec
import Idealize.ShloMosaic.PureOps.Ideal
import Idealize.ShloMosaic.PureOps.Ideal.Laws
import Mathlib

noncomputable section

open scoped BigOperators

namespace Cert.NetMath

open Idealize.ShloMosaic Cert.LibRealClosed Cert.NetSpec

/-! ## Three constants -/

/-- The word `0x40000000` is the number two. -/
theorem lit_two : Ideal.ofBits .f32 0x40000000#32 = ((2 : ℝ) : EReal) := by
  simp [Ideal.ofBits, Ideal.ieee]
  rw [← EReal.coe_mul]
  norm_num

/-- The word `0x47435000` is the number fifty thousand. -/
theorem lit_count : Ideal.ofBits .f32 0x47435000#32 = ((50000 : ℝ) : EReal) := by
  simp [Ideal.ofBits, Ideal.ieee]
  rw [← EReal.coe_mul]
  norm_num

/-- The word `0x3727C5AC` is a positive real number. -/
theorem lit_eps : ∃ e : ℝ, 0 < e ∧ Ideal.ofBits .f32 0x3727C5AC#32 = (e : EReal) := by
  refine ⟨(2 ^ 23 + 2606508 : ℕ) * (2 : ℝ) ^ ((110 : ℤ) - 127 - 23), by positivity, ?_⟩
  simp [Ideal.ofBits, Ideal.ieee]

/-! ## Doubling -/

/-- Twice an extended real is the number added to itself, at the infinities too. -/
theorem two_mul_self (x : EReal) : ((2 : ℝ) : EReal) * x = x + x := by
  induction x using EReal.rec with
  | bot => rw [EReal.coe_mul_bot_of_pos (by norm_num), EReal.bot_add]
  | coe r => rw [← EReal.coe_mul, ← EReal.coe_add, two_mul]
  | top => rw [EReal.coe_mul_top_of_pos (by norm_num), EReal.top_add_top]

/-- Twice `x` plus `a` is `x` plus (`a` plus `x`): a node's own features counted once with its neighbours' sum and
    once more. Addition of extended reals is commutative and associative everywhere. -/
theorem two_mul_add (x a : EReal) : ((2 : ℝ) : EReal) * x + a = x + (a + x) := by
  rw [two_mul_self, add_assoc, add_comm x a]

/-! ## Sums -/

/-- A finite sum of real numbers, taken in the extended reals, is the real sum. -/
theorem coe_sum {ι : Type*} (s : Finset ι) (f : ι → ℝ) : (∑ i ∈ s, ((f i : ℝ) : EReal)) = ((∑ i ∈ s, f i : ℝ) : EReal) := by
  classical
  induction s using Finset.induction_on with
  | empty => rw [Finset.sum_empty, Finset.sum_empty, EReal.coe_zero]
  | insert a s ha ih => rw [Finset.sum_insert ha, Finset.sum_insert ha, ih, EReal.coe_add]

/-- A sum over the members of a joined index range that satisfy a condition splits into the sums over each part. -/
theorem sum_filter_append {M n : ℕ} (p : Fin (M + n) → Prop) [DecidablePred p] (g : Fin (M + n) → EReal) :
    ∑ e ∈ Finset.univ.filter p, g e
      = ∑ e ∈ (Finset.univ : Finset (Fin M)).filter (fun e => p (Fin.castAdd n e)), g (Fin.castAdd n e)
        + ∑ u ∈ (Finset.univ : Finset (Fin n)).filter (fun u => p (Fin.natAdd M u)), g (Fin.natAdd M u) := by
  rw [Finset.sum_filter, Finset.sum_filter, Finset.sum_filter, Fin.sum_univ_add]

/-- A sum over the one index equal to `v` is the term at `v`. -/
theorem sum_filter_eq_self {n : ℕ} (v : Fin n) (g : Fin n → EReal) :
    ∑ u ∈ Finset.univ.filter (fun u => u = v), g u = g v := by
  rw [Finset.sum_filter, Finset.sum_ite_eq' Finset.univ v g, if_pos (Finset.mem_univ v)]

/-! ## The variance law -/

/-- In the reals: the mean of the squares less the square of the mean is the mean of the squared deviations. -/
theorem real_var_law {n : ℕ} (hn : 0 < n) (h : Fin n → ℝ) :
    (∑ r, h r * h r) * (1 / (n : ℝ)) - ((∑ r, h r) * (1 / (n : ℝ))) * ((∑ r, h r) * (1 / (n : ℝ)))
      = (∑ r, (h r - (∑ r, h r) * (1 / (n : ℝ))) * (h r - (∑ r, h r) * (1 / (n : ℝ)))) * (1 / (n : ℝ)) := by
  have hn' : (n : ℝ) ≠ 0 := Nat.cast_ne_zero.mpr (Nat.pos_iff_ne_zero.mp hn)
  generalize hs : (∑ r, h r) = s
  have key : ∀ a : ℝ, ∑ r, (h r - a) * (h r - a) = (∑ r, h r * h r) - 2 * a * s + (n : ℝ) * (a * a) := by
    intro a
    have e : ∀ r, (h r - a) * (h r - a) = h r * h r - 2 * a * h r + a * a := fun r => by ring
    simp only [e, Finset.sum_add_distrib, Finset.sum_sub_distrib, ← Finset.mul_sum, Finset.sum_const, Finset.card_univ,
      Fintype.card_fin, nsmul_eq_mul, hs]
    ring
  rw [key]
  field_simp
  ring

section Variance
variable {n : ℕ} (hn : 0 < n) (h : Fin n → ℝ) (c : EReal) (hc : c = ((n : ℝ) : EReal))

include hn hc in
/-- The mean of real numbers — their sum divided by their count — is real. -/
theorem mean_eq : Ideal.div (∑ r, (h r : EReal)) c = (((∑ r, h r) * (1 / (n : ℝ)) : ℝ) : EReal) := by
  have hn' : (n : ℝ) ≠ 0 := Nat.cast_ne_zero.mpr (Nat.pos_iff_ne_zero.mp hn)
  rw [hc, Ideal.div_coe hn', coe_sum, ← EReal.coe_mul]

include hn hc in
theorem mean_real : ∃ a : ℝ, Ideal.div (∑ r, (h r : EReal)) c = (a : EReal) := ⟨_, mean_eq hn h c hc⟩

include hn hc in
/-- The mean of the squared deviations from the mean, as a real number. -/
theorem dev_eq : Ideal.div (∑ r, ((h r : EReal) - Ideal.div (∑ r, (h r : EReal)) c) * ((h r : EReal) - Ideal.div (∑ r, (h r : EReal)) c)) c
    = (((∑ r, (h r - (∑ r, h r) * (1 / (n : ℝ))) * (h r - (∑ r, h r) * (1 / (n : ℝ)))) * (1 / (n : ℝ)) : ℝ) : EReal) := by
  have hn' : (n : ℝ) ≠ 0 := Nat.cast_ne_zero.mpr (Nat.pos_iff_ne_zero.mp hn)
  rw [mean_eq hn h c hc]
  simp only [← EReal.coe_sub, ← EReal.coe_mul]
  rw [hc, Ideal.div_coe hn', coe_sum, ← EReal.coe_mul]

include hn hc in
/-- The variance law on the extended reals, for real data: the mean of the squares less the square of the mean is the
    mean of the squared deviations. -/
theorem var_law : Ideal.div (∑ r, (h r : EReal) * (h r : EReal)) c - Ideal.div (∑ r, (h r : EReal)) c * Ideal.div (∑ r, (h r : EReal)) c
    = Ideal.div (∑ r, ((h r : EReal) - Ideal.div (∑ r, (h r : EReal)) c) * ((h r : EReal) - Ideal.div (∑ r, (h r : EReal)) c)) c := by
  have hn' : (n : ℝ) ≠ 0 := Nat.cast_ne_zero.mpr (Nat.pos_iff_ne_zero.mp hn)
  rw [dev_eq hn h c hc, mean_eq hn h c hc]
  simp only [← EReal.coe_mul]
  rw [hc, Ideal.div_coe hn', coe_sum, ← EReal.coe_mul, ← EReal.coe_sub, real_var_law hn h]

include hn hc in
/-- The mean of the squared deviations is a real number that is not negative. -/
theorem var_nonneg : ∃ v : ℝ, 0 ≤ v ∧
    Ideal.div (∑ r, ((h r : EReal) - Ideal.div (∑ r, (h r : EReal)) c) * ((h r : EReal) - Ideal.div (∑ r, (h r : EReal)) c)) c = (v : EReal) :=
  ⟨_, mul_nonneg (Finset.sum_nonneg fun r _ => mul_self_nonneg _) (by positivity), dev_eq hn h c hc⟩

end Variance

/-! ## Reciprocal square roots and maxima of reals -/

/-- The reciprocal square root of a real that is not negative plus a positive real is real. -/
theorem rsqrt_real (v e : ℝ) (hv : 0 ≤ v) (he : 0 < e) : ∃ s : ℝ, Ideal.rsqrt ((v : EReal) + (e : EReal)) = (s : EReal) := by
  have hpos : 0 < v + e := by linarith
  refine ⟨(Real.sqrt (v + e))⁻¹, ?_⟩
  rw [← EReal.coe_add, Ideal.rsqrt_coe, if_neg (not_lt.mpr hpos.le), if_neg hpos.ne']

/-- The larger of two reals, taken in the extended reals, is the real maximum. -/
theorem max_real (a b : ℝ) : max (a : EReal) (b : EReal) = ((max a b : ℝ) : EReal) := by
  rcases le_total a b with hab | hab
  · rw [max_eq_right hab, max_eq_right (EReal.coe_le_coe_iff.mpr hab)]
  · rw [max_eq_left hab, max_eq_left (EReal.coe_le_coe_iff.mpr hab)]

/-- The larger of two reals is real. -/
theorem isReal_max {x y : EReal} (hx : IsReal x) (hy : IsReal y) : IsReal (max x y) := by
  obtain ⟨a, rfl⟩ := hx; obtain ⟨b, rfl⟩ := hy; exact ⟨_, max_real a b⟩

/-! ## The layer's pieces keep real data real -/

section Pieces
variable {n d o : ℕ}

/-- Linear, rectifier, linear of real data is real: finite sums of products, and maxima against zero. -/
theorem mlp_real (P : Fin n → Fin d → EReal) (Wa : Fin d → Fin d → EReal) (ba : Fin d → EReal)
    (Wb : Fin d → Fin d → EReal) (bb : Fin d → EReal) (hP : ∀ r l, IsReal (P r l)) (hWa : ∀ l k, IsReal (Wa l k))
    (hba : ∀ k, IsReal (ba k)) (hWb : ∀ k j, IsReal (Wb k j)) (hbb : ∀ j, IsReal (bb j)) :
    ∀ r j, IsReal (mlp P Wa ba Wb bb r j) := fun r j =>
  (IsReal.sum _ _ fun k _ =>
    (isReal_max ((IsReal.sum _ _ fun l _ => (hP r l).mul (hWa l k)).add (hba k)) IsReal.zero).mul (hWb k j)).add (hbb j)

theorem colSum_real (H : Fin n → Fin d → EReal) (hH : ∀ r j, IsReal (H r j)) : ∀ j, IsReal (colSum H j) :=
  fun j => IsReal.sum _ _ fun r _ => hH r j

theorem colSumSq_real (H : Fin n → Fin d → EReal) (hH : ∀ r j, IsReal (H r j)) : ∀ j, IsReal (colSumSq H j) :=
  fun j => IsReal.sum _ _ fun r _ => (hH r j).mul (hH r j)

theorem bnRelu_real (H : Fin n → Fin d → EReal) (mu inv g b : Fin d → EReal) (hH : ∀ r j, IsReal (H r j))
    (hmu : ∀ j, IsReal (mu j)) (hinv : ∀ j, IsReal (inv j)) (hg : ∀ j, IsReal (g j)) (hb : ∀ j, IsReal (b j)) :
    ∀ r j, IsReal (bnRelu H mu inv g b r j) := fun r j =>
  isReal_max (((((hH r j).sub (hmu j)).mul (hinv j)).mul (hg j)).add (hb j)) IsReal.zero

theorem head_real (Y : Fin n → Fin d → EReal) (Wp : Fin d → Fin o → EReal) (bp : Fin o → EReal)
    (hY : ∀ r k, IsReal (Y r k)) (hWp : ∀ k q, IsReal (Wp k q)) (hbp : ∀ q, IsReal (bp q)) :
    ∀ r q, IsReal (head Y Wp bp r q) := fun r q =>
  (IsReal.sum _ _ fun k _ => (hY r k).mul (hWp k q)).add (hbp q)

/-! ## The two spellings of the inverse deviation agree on real data -/

/-- The inverse deviation spelt with the mean of the squared deviations from the column's mean. -/
def invR (c e : EReal) (H : Fin n → Fin d → EReal) : Fin d → EReal :=
  fun j => Ideal.rsqrt (Ideal.div (∑ r, (H r j - meanK c H j) * (H r j - meanK c H j)) c + e)

variable (hn : 0 < n) (H : Fin n → Fin d → EReal) (hH : ∀ r j, IsReal (H r j)) (c : EReal) (hc : c = ((n : ℝ) : EReal))
  (e : ℝ) (he : 0 < e)

include hn hH hc in
/-- Each column's mean is real. -/
theorem meanK_real : ∀ j, IsReal (meanK c H j) := by
  intro j
  choose h hh using hH
  unfold meanK colSum
  simp only [hh]
  exact mean_real hn (fun r => h r j) c hc

include hn hH hc in
/-- The mean of the squares less the square of the mean is the mean of the squared deviations, column by column. -/
theorem var_agree (j : Fin d) :
    Ideal.div (colSumSq H j) c - meanK c H j * meanK c H j = Ideal.div (∑ r, (H r j - meanK c H j) * (H r j - meanK c H j)) c := by
  choose h hh using hH
  unfold meanK colSum colSumSq
  simp only [hh]
  exact var_law hn (fun r => h r j) c hc

include hn hH hc in
/-- The two spellings of the inverse deviation are the same function. -/
theorem invK_eq_invR : invK c (e : EReal) H = invR c (e : EReal) H := by
  funext j
  unfold invK invR
  rw [var_agree hn H hH c hc j]

include hn hH hc he in
/-- The inverse deviation is real: the variance is a real that is not negative and the constant is positive. -/
theorem invR_real : ∀ j, IsReal (invR c (e : EReal) H j) := by
  intro j
  choose h hh using hH
  unfold invR meanK colSum
  simp only [hh]
  obtain ⟨v, hv, hveq⟩ := var_nonneg hn (fun r => h r j) c hc
  rw [hveq]
  exact rsqrt_real v e hv he

include hn hH hc he in
theorem invK_real : ∀ j, IsReal (invK c (e : EReal) H j) := by
  rw [invK_eq_invR hn H hH c hc e]
  exact invR_real hn H hH c hc e he

end Pieces

end Cert.NetMath

end
-- ==== Proof.NetLayer.lean ====
/-
  One layer of the graph network, and two layers chained, as entry-by-entry functions on the extended reals: the
  spelling that doubles a node's features and adds the sum over its real neighbours, normalising with the variance
  computed as the mean of the squares less the square of the mean, against the spelling that adds the sum over the
  neighbours with a self-loop appended, normalising with the mean of the squared deviations. On real data the two are
  the same function.
-/
import proofs.«111056_j31628139167864_2_alg».proof.Proof.NetMath
import proofs.«111056_j31628139167864_2_alg».proof.Proof.NetSpec

noncomputable section

open scoped BigOperators

namespace Cert.NetLayer

open Idealize.ShloMosaic Cert.NetSpec Cert.NetMath Cert.LibRealClosed

variable {n d o : ℕ}

/-! ## The perceptron's input -/

/-- Twice the features plus the neighbours' sum is the features plus (the neighbours' sum plus the features). -/
theorem pre_eq (X A : Fin n → Fin d → EReal) :
    (fun r l => ((2 : ℝ) : EReal) * X r l + A r l) = (fun r l => X r l + (A r l + X r l)) := by
  funext r l; exact two_mul_add _ _

/-! ## Sums over incoming edges -/

/-- A sum of real rows over the edges landing on a node is real. -/
theorem agg_real {m : ℕ} (X : Fin n → Fin d → EReal) (row : Fin m → Fin n) (dstv : Fin m → Int)
    (hX : ∀ r j, IsReal (X r j)) : ∀ v j, IsReal (agg X row dstv v j) :=
  fun v j => IsReal.sum _ _ fun e _ => hX (row e) j

theorem zero_add_agg_real {m : ℕ} (X : Fin n → Fin d → EReal) (row : Fin m → Fin n) (dstv : Fin m → Int)
    (hX : ∀ r j, IsReal (X r j)) : ∀ v j, IsReal (0 + agg X row dstv v j) :=
  fun v j => IsReal.zero.add (agg_real X row dstv hX v j)

/-- Appending one self-loop per node to the edge list adds the node's own row to the sum over its incoming edges. -/
theorem agg_append {M : ℕ} (X : Fin n → Fin d → EReal) (row : Fin M → Fin n) (dstv : Fin M → Int)
    (row' : Fin (M + n) → Fin n) (dstv' : Fin (M + n) → Int)
    (h1 : ∀ e, row' (Fin.castAdd n e) = row e) (h2 : ∀ e, dstv' (Fin.castAdd n e) = dstv e)
    (h3 : ∀ u, row' (Fin.natAdd M u) = u) (h4 : ∀ u, dstv' (Fin.natAdd M u) = (u.val : Int)) (v : Fin n) (j : Fin d) :
    agg X row' dstv' v j = agg X row dstv v j + X v j := by
  unfold agg
  rw [sum_filter_append (fun e => dstv' e = (v.val : Int)) (fun e => X (row' e) j)]
  congr 1
  · exact Finset.sum_congr (Finset.filter_congr fun e _ => by rw [h2]) fun e _ => by rw [h1]
  · rw [← sum_filter_eq_self v (fun u => X u j)]
    refine Finset.sum_congr (Finset.filter_congr fun u _ => ?_) fun u _ => by rw [h3]
    rw [h4]
    constructor
    · intro h; exact Fin.ext (by exact_mod_cast h)
    · rintro rfl; rfl

/-! ## One layer -/

/-- A layer spelt with doubled features, the real neighbours' sum, and the variance as mean of squares less squared mean. -/
def layerK (two c e : EReal) (X A : Fin n → Fin d → EReal) (Wa : Fin d → Fin d → EReal) (ba : Fin d → EReal)
    (Wb : Fin d → Fin d → EReal) (bb g b : Fin d → EReal) : Fin n → Fin d → EReal :=
  bnRelu (mlp (fun r l => two * X r l + A r l) Wa ba Wb bb)
    (meanK c (mlp (fun r l => two * X r l + A r l) Wa ba Wb bb))
    (invK c e (mlp (fun r l => two * X r l + A r l) Wa ba Wb bb)) g b

/-- A layer spelt with the features plus the sum over neighbours and self-loop, and the variance as mean squared deviation. -/
def layerR (c e : EReal) (X A' : Fin n → Fin d → EReal) (Wa : Fin d → Fin d → EReal) (ba : Fin d → EReal)
    (Wb : Fin d → Fin d → EReal) (bb g b : Fin d → EReal) : Fin n → Fin d → EReal :=
  bnRelu (mlp (fun r l => X r l + A' r l) Wa ba Wb bb)
    (meanK c (mlp (fun r l => X r l + A' r l) Wa ba Wb bb))
    (invR c e (mlp (fun r l => X r l + A' r l) Wa ba Wb bb)) g b

section Layer
variable (hn : 0 < n) (two c : EReal) (h2 : two = ((2 : ℝ) : EReal)) (hc : c = ((n : ℝ) : EReal)) (e : ℝ) (he : 0 < e)
  (X A A' : Fin n → Fin d → EReal) (Wa : Fin d → Fin d → EReal) (ba : Fin d → EReal) (Wb : Fin d → Fin d → EReal)
  (bb g b : Fin d → EReal) (hA' : ∀ v j, A' v j = A v j + X v j)
  (hX : ∀ r j, IsReal (X r j)) (hA : ∀ r j, IsReal (A r j)) (hWa : ∀ l k, IsReal (Wa l k)) (hba : ∀ k, IsReal (ba k))
  (hWb : ∀ k j, IsReal (Wb k j)) (hbb : ∀ j, IsReal (bb j)) (hg : ∀ j, IsReal (g j)) (hb : ∀ j, IsReal (b j))

include h2 hX hA hWa hba hWb hbb in
/-- The perceptron's output on real data is real. -/
theorem hidden_real : ∀ r j, IsReal (mlp (fun r l => two * X r l + A r l) Wa ba Wb bb r j) :=
  mlp_real _ Wa ba Wb bb (fun r l => by rw [h2]; exact ((IsReal.coe 2).mul (hX r l)).add (hA r l)) hWa hba hWb hbb

include hn h2 hc hA' hX hA hWa hba hWb hbb in
/-- On real data the two spellings of a layer are the same function. -/
theorem layer_eq : layerK two c (e : EReal) X A Wa ba Wb bb g b = layerR c (e : EReal) X A' Wa ba Wb bb g b := by
  have hpre : (fun r l => two * X r l + A r l) = (fun r l => X r l + A' r l) := by
    funext r l; rw [h2, hA', two_mul_add]
  have hH := hidden_real two h2 X A Wa ba Wb bb hX hA hWa hba hWb hbb
  unfold layerK layerR
  rw [invK_eq_invR hn _ hH c hc e, hpre]

include hn h2 hc he hX hA hWa hba hWb hbb hg hb in
/-- A layer's output on real data is real. -/
theorem layerK_real : ∀ r j, IsReal (layerK two c (e : EReal) X A Wa ba Wb bb g b r j) := by
  have hH := hidden_real two h2 X A Wa ba Wb bb hX hA hWa hba hWb hbb
  unfold layerK
  exact bnRelu_real _ _ _ g b hH (meanK_real hn _ hH c hc) (invK_real hn _ hH c hc e he) hg hb

include hn h2 hc hA' hX hA hWa hba hWb hbb in
/-- The linear head of the two spellings of a layer. -/
theorem headLayer_eq (Wp : Fin d → Fin o → EReal) (bp : Fin o → EReal) :
    head (layerK two c (e : EReal) X A Wa ba Wb bb g b) Wp bp = head (layerR c (e : EReal) X A' Wa ba Wb bb g b) Wp bp :=
  congrArg (fun L => head L Wp bp) (layer_eq hn two c h2 hc e X A A' Wa ba Wb bb g b hA' hX hA hWa hba hWb hbb)

end Layer

/-! ## Two layers and the head -/

section Net
variable (hn : 0 < n) (two c : EReal) (h2 : two = ((2 : ℝ) : EReal)) (hc : c = ((n : ℝ) : EReal)) (e : ℝ) (he : 0 < e)
  (X : Fin n → Fin d → EReal)
  (aggK aggR : (Fin n → Fin d → EReal) → (Fin n → Fin d → EReal))
  (hagg : ∀ Y v j, aggR Y v j = aggK Y v j + Y v j)
  (haggreal : ∀ Y, (∀ r j, IsReal (Y r j)) → ∀ r j, IsReal (aggK Y r j))
  (Wa0 : Fin d → Fin d → EReal) (ba0 : Fin d → EReal) (Wb0 : Fin d → Fin d → EReal) (bb0 g0 b0 : Fin d → EReal)
  (Wa1 : Fin d → Fin d → EReal) (ba1 : Fin d → EReal) (Wb1 : Fin d → Fin d → EReal) (bb1 g1 b1 : Fin d → EReal)
  (Wp : Fin d → Fin o → EReal) (bp : Fin o → EReal)
  (hX : ∀ r j, IsReal (X r j))
  (hWa0 : ∀ l k, IsReal (Wa0 l k)) (hba0 : ∀ k, IsReal (ba0 k)) (hWb0 : ∀ k j, IsReal (Wb0 k j)) (hbb0 : ∀ j, IsReal (bb0 j))
  (hg0 : ∀ j, IsReal (g0 j)) (hb0 : ∀ j, IsReal (b0 j))
  (hWa1 : ∀ l k, IsReal (Wa1 l k)) (hba1 : ∀ k, IsReal (ba1 k)) (hWb1 : ∀ k j, IsReal (Wb1 k j)) (hbb1 : ∀ j, IsReal (bb1 j))

include hn h2 hc he hagg haggreal hX hWa0 hba0 hWb0 hbb0 hg0 hb0 hWa1 hba1 hWb1 hbb1 in
/-- Two layers and the head: on real data the two spellings of the network are the same function. -/
theorem net_eq :
    head (layerK two c (e : EReal) (layerK two c (e : EReal) X (aggK X) Wa0 ba0 Wb0 bb0 g0 b0)
        (aggK (layerK two c (e : EReal) X (aggK X) Wa0 ba0 Wb0 bb0 g0 b0)) Wa1 ba1 Wb1 bb1 g1 b1) Wp bp
      = head (layerR c (e : EReal) (layerR c (e : EReal) X (aggR X) Wa0 ba0 Wb0 bb0 g0 b0)
        (aggR (layerR c (e : EReal) X (aggR X) Wa0 ba0 Wb0 bb0 g0 b0)) Wa1 ba1 Wb1 bb1 g1 b1) Wp bp := by
  have e1 : layerK two c (e : EReal) X (aggK X) Wa0 ba0 Wb0 bb0 g0 b0 = layerR c (e : EReal) X (aggR X) Wa0 ba0 Wb0 bb0 g0 b0 :=
    layer_eq hn two c h2 hc e X (aggK X) (aggR X) Wa0 ba0 Wb0 bb0 g0 b0 (hagg X) hX (haggreal X hX) hWa0 hba0 hWb0 hbb0
  have r1 : ∀ r j, IsReal (layerK two c (e : EReal) X (aggK X) Wa0 ba0 Wb0 bb0 g0 b0 r j) :=
    layerK_real hn two c h2 hc e he X (aggK X) Wa0 ba0 Wb0 bb0 g0 b0 hX (haggreal X hX) hWa0 hba0 hWb0 hbb0 hg0 hb0
  rw [← e1]
  exact headLayer_eq hn two c h2 hc e _ (aggK _) (aggR _) Wa1 ba1 Wb1 bb1 g1 b1 (hagg _) r1 (haggreal _ r1) hWa1 hba1 hWb1 hbb1 Wp bp

end Net

end Cert.NetLayer

end
-- ==== Proof.NetBridge.lean ====
/-
  The two programs' results in one vocabulary. A two-layer graph network on the extended reals, entry by entry:
  the kernel's form (the self-loop folded in as `2·h + Σ`, the variance as `E[x²] − E[x]²`) and the reference's
  form (the self-loops as extra edges, the variance as the mean squared deviation), as functions of the
  argument arrays; and their equality when every float argument's entries are real numbers.
-/
import proofs.«111056_j31628139167864_2_alg».proof.Proof.NetLayer
import proofs.«111056_j31628139167864_2_alg».proof.Proof.AggRead
import Idealize.ShloMosaic.Lib.ValueIdx

noncomputable section

namespace Cert.NetBridge

open Idealize.ShloMosaic Idealize.ShloMosaic.ValueIdx Cert.LibRealClosed

/-- A matrix array as a function of its row and column. -/
def mat {n d : ℕ} {φ : FTy} (x : FVec Ideal ⟨2, ![n, d]⟩ φ) : Fin n → Fin d → EReal := fun r j => x (ix2 r j)
/-- A vector array as a function of its position. -/
def vecv {d : ℕ} (x : FVec Ideal ⟨1, ![d]⟩ .f32) : Fin d → EReal := fun j => x (ix1 j)

/-- Two matrix arrays with the same entries are equal. -/
theorem mat_ext {n d : ℕ} {φ : FTy} (x y : FVec Ideal ⟨2, ![n, d]⟩ φ) (h : mat x = mat y) : x = y := by
  funext i
  obtain ⟨p, q, rfl⟩ : ∃ (p : Fin n) (q : Fin d), i = ix2 p q := ⟨i 0, i 1, eq_ix2 i⟩
  exact congrFun (congrFun h p) q

abbrev cnt : EReal := Ideal.ofBits .f32 0x47435000#32
abbrev eps : EReal := Ideal.ofBits .f32 0x3727C5AC#32
abbrev two : EReal := Ideal.ofBits .f32 0x40000000#32

/-- The row an edge's source word selects: the word wrapped by the node count when negative, read signed, clamped
    into the table. -/
def srcRow {M : ℕ} (s : IVec (⟨1, ![M]⟩ : Shape) 32) (e : Fin M) : Fin 50000 :=
  ⟨min (Cert.AggRead.wrapIdx 50000#32 (s (ix1 e))).toInt.toNat (50000 - 1), by omega⟩
/-- The node an edge's destination word names, read signed (a word outside the table names no node). -/
def dstInt {M : ℕ} (d : IVec (⟨1, ![M]⟩ : Shape) 32) (e : Fin M) : Int := (d (ix1 e)).toInt

/-- The kernel's aggregation: zero plus the sum over the edges entering the node. -/
def aggKf (s d : IVec (⟨1, ![800000]⟩ : Shape) 32) (Y : Fin 50000 → Fin 96 → EReal) : Fin 50000 → Fin 96 → EReal :=
  fun v j => 0 + Cert.NetSpec.agg Y (srcRow s) (dstInt d) v j
/-- The reference's aggregation: the same sum plus the node's own row (its self-loop). -/
def aggRf (s d : IVec (⟨1, ![800000]⟩ : Shape) 32) (Y : Fin 50000 → Fin 96 → EReal) : Fin 50000 → Fin 96 → EReal :=
  fun v j => Cert.NetSpec.agg Y (srcRow s) (dstInt d) v j + Y v j

/-- The network in the kernel's form. -/
def kNet (X : FVec Ideal (⟨2, ![50000, 96]⟩ : Shape) .f32) (Wa0 : FVec Ideal (⟨2, ![96, 96]⟩ : Shape) .f32) (ba0 : FVec Ideal (⟨1, ![96]⟩ : Shape) .f32) (Wb0 : FVec Ideal (⟨2, ![96, 96]⟩ : Shape) .f32) (bb0 : FVec Ideal (⟨1, ![96]⟩ : Shape) .f32) (Wa1 : FVec Ideal (⟨2, ![96, 96]⟩ : Shape) .f32) (ba1 : FVec Ideal (⟨1, ![96]⟩ : Shape) .f32) (Wb1 : FVec Ideal (⟨2, ![96, 96]⟩ : Shape) .f32) (bb1 : FVec Ideal (⟨1, ![96]⟩ : Shape) .f32) (g0 b0 g1 b1 : FVec Ideal (⟨1, ![96]⟩ : Shape) .f32) (Wp : FVec Ideal (⟨2, ![96, 64]⟩ : Shape) .f32) (bp : FVec Ideal (⟨1, ![64]⟩ : Shape) .f32) (s d : IVec (⟨1, ![800000]⟩ : Shape) 32) : Fin 50000 → Fin 64 → EReal :=
  Cert.NetSpec.head (Cert.NetLayer.layerK two cnt eps (Cert.NetLayer.layerK two cnt eps (mat X) (aggKf s d (mat X)) (mat Wa0) (vecv ba0) (mat Wb0) (vecv bb0) (vecv g0) (vecv b0)) (aggKf s d (Cert.NetLayer.layerK two cnt eps (mat X) (aggKf s d (mat X)) (mat Wa0) (vecv ba0) (mat Wb0) (vecv bb0) (vecv g0) (vecv b0))) (mat Wa1) (vecv ba1) (mat Wb1) (vecv bb1) (vecv g1) (vecv b1)) (mat Wp) (vecv bp)

/-- The network in the reference's form. -/
def rNet (X : FVec Ideal (⟨2, ![50000, 96]⟩ : Shape) .f32) (Wa0 : FVec Ideal (⟨2, ![96, 96]⟩ : Shape) .f32) (ba0 : FVec Ideal (⟨1, ![96]⟩ : Shape) .f32) (Wb0 : FVec Ideal (⟨2, ![96, 96]⟩ : Shape) .f32) (bb0 : FVec Ideal (⟨1, ![96]⟩ : Shape) .f32) (Wa1 : FVec Ideal (⟨2, ![96, 96]⟩ : Shape) .f32) (ba1 : FVec Ideal (⟨1, ![96]⟩ : Shape) .f32) (Wb1 : FVec Ideal (⟨2, ![96, 96]⟩ : Shape) .f32) (bb1 : FVec Ideal (⟨1, ![96]⟩ : Shape) .f32) (g0 b0 g1 b1 : FVec Ideal (⟨1, ![96]⟩ : Shape) .f32) (Wp : FVec Ideal (⟨2, ![96, 64]⟩ : Shape) .f32) (bp : FVec Ideal (⟨1, ![64]⟩ : Shape) .f32) (s d : IVec (⟨1, ![800000]⟩ : Shape) 32) : Fin 50000 → Fin 64 → EReal :=
  Cert.NetSpec.head (Cert.NetLayer.layerR cnt eps (Cert.NetLayer.layerR cnt eps (mat X) (aggRf s d (mat X)) (mat Wa0) (vecv ba0) (mat Wb0) (vecv bb0) (vecv g0) (vecv b0)) (aggRf s d (Cert.NetLayer.layerR cnt eps (mat X) (aggRf s d (mat X)) (mat Wa0) (vecv ba0) (mat Wb0) (vecv bb0) (vecv g0) (vecv b0))) (mat Wa1) (vecv ba1) (mat Wb1) (vecv bb1) (vecv g1) (vecv b1)) (mat Wp) (vecv bp)

/-- On real data the two forms are one function. -/
theorem net_eq' (X : FVec Ideal (⟨2, ![50000, 96]⟩ : Shape) .f32) (Wa0 : FVec Ideal (⟨2, ![96, 96]⟩ : Shape) .f32) (ba0 : FVec Ideal (⟨1, ![96]⟩ : Shape) .f32) (Wb0 : FVec Ideal (⟨2, ![96, 96]⟩ : Shape) .f32) (bb0 : FVec Ideal (⟨1, ![96]⟩ : Shape) .f32) (Wa1 : FVec Ideal (⟨2, ![96, 96]⟩ : Shape) .f32) (ba1 : FVec Ideal (⟨1, ![96]⟩ : Shape) .f32) (Wb1 : FVec Ideal (⟨2, ![96, 96]⟩ : Shape) .f32) (bb1 : FVec Ideal (⟨1, ![96]⟩ : Shape) .f32) (g0 b0 g1 b1 : FVec Ideal (⟨1, ![96]⟩ : Shape) .f32) (Wp : FVec Ideal (⟨2, ![96, 64]⟩ : Shape) .f32) (bp : FVec Ideal (⟨1, ![64]⟩ : Shape) .f32) (s d : IVec (⟨1, ![800000]⟩ : Shape) 32)
    (hX : ∀ i, ∃ r : ℝ, X i = (r : EReal)) (hWa0 : ∀ i, ∃ r : ℝ, Wa0 i = (r : EReal)) (hba0 : ∀ i, ∃ r : ℝ, ba0 i = (r : EReal))
    (hWb0 : ∀ i, ∃ r : ℝ, Wb0 i = (r : EReal)) (hbb0 : ∀ i, ∃ r : ℝ, bb0 i = (r : EReal))
    (hWa1 : ∀ i, ∃ r : ℝ, Wa1 i = (r : EReal)) (hba1 : ∀ i, ∃ r : ℝ, ba1 i = (r : EReal))
    (hWb1 : ∀ i, ∃ r : ℝ, Wb1 i = (r : EReal)) (hbb1 : ∀ i, ∃ r : ℝ, bb1 i = (r : EReal))
    (hg0 : ∀ i, ∃ r : ℝ, g0 i = (r : EReal)) (hb0 : ∀ i, ∃ r : ℝ, b0 i = (r : EReal)) :
    kNet X Wa0 ba0 Wb0 bb0 Wa1 ba1 Wb1 bb1 g0 b0 g1 b1 Wp bp s d
      = rNet X Wa0 ba0 Wb0 bb0 Wa1 ba1 Wb1 bb1 g0 b0 g1 b1 Wp bp s d := by
  obtain ⟨e, he, hE⟩ := Cert.NetMath.lit_eps
  have hE' : eps = ((e : ℝ) : EReal) := hE
  have hagg : ∀ (Y : Fin 50000 → Fin 96 → EReal) v j, aggRf s d Y v j = aggKf s d Y v j + Y v j := by
    intro Y v j; simp only [aggRf, aggKf, zero_add]
  have haggreal : ∀ (Y : Fin 50000 → Fin 96 → EReal), (∀ r j, IsReal (Y r j)) → ∀ r j, IsReal (aggKf s d Y r j) :=
    fun Y hY => Cert.NetLayer.zero_add_agg_real Y _ _ hY
  unfold kNet rNet
  rw [hE']
  exact Cert.NetLayer.net_eq (n := 50000) (by norm_num) two cnt Cert.NetMath.lit_two
    (by rw [show cnt = _ from Cert.NetMath.lit_count]; norm_num) e he
    (mat X) (aggKf s d) (aggRf s d) hagg haggreal
    (mat Wa0) (vecv ba0) (mat Wb0) (vecv bb0) (vecv g0) (vecv b0) (mat Wa1) (vecv ba1) (mat Wb1) (vecv bb1) (vecv g1) (vecv b1) (mat Wp) (vecv bp)
    (fun r j => hX (ix2 r j)) (fun r j => hWa0 (ix2 r j)) (fun j => hba0 (ix1 j)) (fun r j => hWb0 (ix2 r j)) (fun j => hbb0 (ix1 j))
    (fun j => hg0 (ix1 j)) (fun j => hb0 (ix1 j)) (fun r j => hWa1 (ix2 r j)) (fun j => hba1 (ix1 j)) (fun r j => hWb1 (ix2 r j)) (fun j => hbb1 (ix1 j))

end Cert.NetBridge

end
-- ==== Proof.RegValueLib.lean ====
import proofs.«111056_j31628139167864_2_alg».proof.Proof.Gen.KernelIdeal
import Idealize.ShloMosaic.Lib.Pipeline.Value
import Idealize.ShloMosaic.Lib.StackMember
import Idealize.ShloMosaic.Lib.KernelVsHost
import Idealize.ShloMosaic.Lib.ValueLayout
import Idealize.ShloMosaic.Lib.ValueIdx
import Idealize.ShloMosaic.PureOps.Ideal.Laws
import Mathlib.Algebra.BigOperators.Fin
set_option maxRecDepth 16384
noncomputable section
open scoped BigOperators
open Idealize.ShloMosaic Idealize.ShloMosaic.TcCoe Idealize.SL.Sem
open Idealize.ShloMosaic.ValueIdx
namespace Cert.KernelIdeal.HandValue
open Cert.KernelIdeal Cert.KernelIdeal.Gen

/-! # What the values of the two MLP regions share: the payloads' operations entry by entry, at the extended reals -/

theorem hzz : (![0, 0] : Fin 2 → Nat) = fun _ => 0 := funext fun a => by fin_cases a <;> rfl

/-- The kernel's literal 2.0, left as the word. -/
abbrev two : EReal := Ideal.ofBits .f32 0x40000000#32

/-- A plain m×k by k×n product accumulated into the zero block, at an entry: the sum over the contracted coordinate. -/
theorem matmul_plain_zero_at {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  rw [matmul_zero_eq_dotGeneral]
  exact StackMember.dotGeneral_plain_apply prec A B a b

theorem dot_eq_plain : dot_S10000x96_S96x96_S10000x96_1_0_0_1_n_n = DotDims.plain 10000 96 96 := rfl

theorem ofBits_zero : (FloatOps.ofBits (F := Ideal) FTy.f32 0#32) = (0 : EReal) := Ideal.ofBits_zero_f32

/-- One row's MLP: Linear, rectifier, Linear on the row `2·h + agg`. -/
def mlpRow (h agg : Fin 96 → EReal) (Wa : FVec Ideal S96x96 .bf16) (ba : FVec Ideal S1x96 .f32)
    (Wb : FVec Ideal S96x96 .bf16) (bb : FVec Ideal S1x96 .f32) (j : Fin 96) : EReal :=
  (∑ m : Fin 96, max ((∑ k : Fin 96, (two * h k + agg k) * Wa (ix2 k m)) + ba (ix2 (0 : Fin 1) m)) 0 * Wb (ix2 m j)) + bb (ix2 (0 : Fin 1) j)

/-- The source index of a column reduction of a (10000, 96) block. -/
theorem lift_col (j : Fin 96) (k : Fin 10000) : reduces_S10000x96_S96.lift (ix1 j) k = ix2 k j := by
  funext c
  apply Fin.ext
  match c with
  | ⟨0, _⟩ => rfl
  | ⟨1, _⟩ => rfl

/-- The column sums of a (10000, 96) block, cast to one row, at (0, j). -/
theorem colsum_apply (v : FVec Ideal S10000x96 .f32) (j : Fin 96) :
    shapeCast S1x96 (multiReduction .add [0] S96 v 0x00000000#32 reduces_S10000x96_S96 (.inl rfl) rfl) shapeCasts_S96_S1x96 (ix2 (0 : Fin 1) j)
      = ∑ r : Fin 10000, v (ix2 r j) := by
  rw [shapeCast_apply _ shapeCasts_S96_S1x96 (ix2 (0 : Fin 1) j) (ix1 j) (by
    rw [Shape.rowMajor_val_one, Shape.rowMajor_val_two]; show j.val = 0 * 96 + j.val; omega)]
  refine (Ideal.multiReduction_add_single v _ reduces_S10000x96_S96 (.inl rfl) rfl (ix1 j)).trans ?_
  exact Finset.sum_congr rfl fun k _ => congrArg v (lift_col j k)

/-- A sum over 50000 rows is the sum over the five blocks of the sums over each block's 10000 rows. -/
theorem sum_fin_blocks {M : Type*} [AddCommMonoid M] (f : Fin 50000 → M) :
    ∑ R : Fin 50000, f R
      = ∑ t : Fin 5, ∑ r : Fin 10000, f ⟨10000 * t.val + r.val, by have := t.isLt; have := r.isLt; omega⟩ := by
  have e := (Equiv.sum_comp (finProdFinEquiv : Fin 5 × Fin 10000 ≃ Fin (5 * 10000)) (fun R => f R)).symm
  rw [Fintype.sum_prod_type] at e
  refine e.trans (Finset.sum_congr rfl fun t _ => Finset.sum_congr rfl fun r _ => congrArg f (Fin.ext ?_))
  show r.val + 10000 * t.val = 10000 * t.val + r.val
  omega

/-- The same with the five blocks written out. -/
theorem sum_five_blocks {M : Type*} [AddCommMonoid M] (f : Fin 50000 → M) :
    ∑ R : Fin 50000, f R
      = (∑ r : Fin 10000, f ⟨10000 * 0 + r.val, by have := r.isLt; omega⟩) + (∑ r : Fin 10000, f ⟨10000 * 1 + r.val, by have := r.isLt; omega⟩)
        + (∑ r : Fin 10000, f ⟨10000 * 2 + r.val, by have := r.isLt; omega⟩) + (∑ r : Fin 10000, f ⟨10000 * 3 + r.val, by have := r.isLt; omega⟩)
        + (∑ r : Fin 10000, f ⟨10000 * 4 + r.val, by have := r.isLt; omega⟩) := by
  rw [sum_fin_blocks, Fin.sum_univ_five]
  rfl

end Cert.KernelIdeal.HandValue
end
-- ==== Proof.Reg0ValuePieces.lean ====
import proofs.«111056_j31628139167864_2_alg».proof.Proof.Reg0
import proofs.«111056_j31628139167864_2_alg».proof.Proof.RegValueLib
import Idealize.ShloMosaic.Lib.Pipeline.Value
import Idealize.ShloMosaic.Lib.Tactic
set_option maxRecDepth 16384
set_option pp.maxSteps 20000
set_option pp.deepTerms false
set_option pp.proofs false
noncomputable section
open Idealize.ShloMosaic Idealize.ShloMosaic.TcCoe Idealize.SL.Sem Idealize.ShloMosaic.Tactic
open Idealize.ShloMosaic.Pipeline (Dat)
namespace Cert.KernelIdeal.HandValue
open Cert.KernelIdeal Cert.KernelIdeal.Gen Cert.KernelIdeal.Hand
variable {F : FTy → Type} [FloatOps F]

/-! # Region 0's value: what each case stores, piece by piece, as the payloads of its stores (any float instance) -/

theorem out0_A_6_eq (c : Dev nD) (i : grid0.Coords) (arg1 : Memref sig .tc .vmem S10000x96 .f32) (harg1 : arg1.IsWhole) (arg2 : Memref sig .tc .vmem S10000x96 .f32) (harg2 : arg2.IsWhole) (arg3 : Memref sig .tc .vmem S96x96 .bf16) (harg3 : arg3.IsWhole) (arg4 : Memref sig .tc .vmem S1x96 .f32) (harg4 : arg4.IsWhole) (arg5 : Memref sig .tc .vmem S96x96 .bf16) (harg5 : arg5.IsWhole) (arg6 : Memref sig .tc .vmem S1x96 .f32) (harg6 : arg6.IsWhole) (arg7 : Memref sig .tc .vmem S10000x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (arg11 : Memref sig .tc .vmem S1x96 .f32) (harg11 : arg11.IsWhole) (hc0 : cond0_0 i) (hc1 : ¬cond0_1 i)
    (x0 : Vec F S10000x96 .f32) (x1 : Vec F S10000x96 .f32) (x2 : Vec F S96x96 .bf16) (x3 : Vec F S1x96 .f32) (x4 : Vec F S96x96 .bf16) (x5 : Vec F S1x96 .f32) : out0_A_6 c i arg1 harg1 arg2 harg2 arg3 harg3 arg4 harg4 arg5 harg5 arg6 harg6 arg7 harg7 arg8 harg8 arg9 harg9 arg10 harg10 arg11 harg11 hc0 hc1 x0 x1 x2 x3 x4 x5 = k0_pay5 x0 x1 x2 x3 x4 x5 := by
  unfold out0_A_6
  rw [View.read_writes_eq_canon _ _ _ (cover0_A_6 c i arg1 harg1 arg2 harg2 arg3 harg3 arg4 harg4 arg5 harg5 arg6 harg6 arg7 harg7 arg8 harg8 arg9 harg9 arg10 harg10 arg11 harg11 hc0 hc1 x0 x1 x2 x3 x4 x5)]
  unfold kernelRun0_A
  dsimp only
  sl_unfold_words
  first
    | rw [View.canon_cons_unit_zero (S := S10000x96) hzz]
    | rw [View.canon_unit_zero hzz]
  (try rw [View.readCov_unit_zero (S := S1x96) _ hzz])
  simp only [View.readAt_eq_ld, harg1.read_unread, harg2.read_unread, harg3.read_unread, harg4.read_unread, harg5.read_unread, harg6.read_unread, harg10.read_unread, harg11.read_unread, View.ld_unit_zero (S := S10000x96) hzz, View.ld_unit_zero (S := S96x96) hzz, View.ld_unit_zero (S := S1x96) hzz]

theorem sout0_A_0_eq (c : Dev nD) (i : grid0.Coords) (arg1 : Memref sig .tc .vmem S10000x96 .f32) (harg1 : arg1.IsWhole) (arg2 : Memref sig .tc .vmem S10000x96 .f32) (harg2 : arg2.IsWhole) (arg3 : Memref sig .tc .vmem S96x96 .bf16) (harg3 : arg3.IsWhole) (arg4 : Memref sig .tc .vmem S1x96 .f32) (harg4 : arg4.IsWhole) (arg5 : Memref sig .tc .vmem S96x96 .bf16) (harg5 : arg5.IsWhole) (arg6 : Memref sig .tc .vmem S1x96 .f32) (harg6 : arg6.IsWhole) (arg7 : Memref sig .tc .vmem S10000x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (arg11 : Memref sig .tc .vmem S1x96 .f32) (harg11 : arg11.IsWhole) (hc0 : cond0_0 i) (hc1 : ¬cond0_1 i)
    (x0 : Vec F S10000x96 .f32) (x1 : Vec F S10000x96 .f32) (x2 : Vec F S96x96 .bf16) (x3 : Vec F S1x96 .f32) (x4 : Vec F S96x96 .bf16) (x5 : Vec F S1x96 .f32) : sout0_A_0 c i arg1 harg1 arg2 harg2 arg3 harg3 arg4 harg4 arg5 harg5 arg6 harg6 arg7 harg7 arg8 harg8 arg9 harg9 arg10 harg10 arg11 harg11 hc0 hc1 x0 x1 x2 x3 x4 x5 = k0_pay1 (k0_pay6 x0 x1 x2 x3 x4 x5 (k0_pay3 (F := F))) := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 hc0 hc1 x0 x1 x2 x3 x4 x5)]
  unfold kernelRun0_A
  dsimp only
  sl_unfold_words
  first
    | rw [View.canon_cons_unit_zero (S := S1x96) hzz]
    | rw [View.canon_unit_zero hzz]
  (try rw [View.readCov_unit_zero (S := S1x96) _ hzz])
  simp only [View.readAt_eq_ld, harg1.read_unread, harg2.read_unread, harg3.read_unread, harg4.read_unread, harg5.read_unread, harg6.read_unread, harg10.read_unread, harg11.read_unread, View.ld_unit_zero (S := S10000x96) hzz, View.ld_unit_zero (S := S96x96) hzz, View.ld_unit_zero (S := S1x96) hzz]

theorem sout0_A_1_eq (c : Dev nD) (i : grid0.Coords) (arg1 : Memref sig .tc .vmem S10000x96 .f32) (harg1 : arg1.IsWhole) (arg2 : Memref sig .tc .vmem S10000x96 .f32) (harg2 : arg2.IsWhole) (arg3 : Memref sig .tc .vmem S96x96 .bf16) (harg3 : arg3.IsWhole) (arg4 : Memref sig .tc .vmem S1x96 .f32) (harg4 : arg4.IsWhole) (arg5 : Memref sig .tc .vmem S96x96 .bf16) (harg5 : arg5.IsWhole) (arg6 : Memref sig .tc .vmem S1x96 .f32) (harg6 : arg6.IsWhole) (arg7 : Memref sig .tc .vmem S10000x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (arg11 : Memref sig .tc .vmem S1x96 .f32) (harg11 : arg11.IsWhole) (hc0 : cond0_0 i) (hc1 : ¬cond0_1 i)
    (x0 : Vec F S10000x96 .f32) (x1 : Vec F S10000x96 .f32) (x2 : Vec F S96x96 .bf16) (x3 : Vec F S1x96 .f32) (x4 : Vec F S96x96 .bf16) (x5 : Vec F S1x96 .f32) : sout0_A_1 c i arg1 harg1 arg2 harg2 arg3 harg3 arg4 harg4 arg5 harg5 arg6 harg6 arg7 harg7 arg8 harg8 arg9 harg9 arg10 harg10 arg11 harg11 hc0 hc1 x0 x1 x2 x3 x4 x5 = k0_pay2 (k0_pay5 x0 x1 x2 x3 x4 x5) (k0_pay4 (F := F)) := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 arg11 harg11 hc0 hc1 x0 x1 x2 x3 x4 x5)]
  unfold kernelRun0_A
  dsimp only
  sl_unfold_words
  first
    | rw [View.canon_cons_unit_zero (S := S1x96) hzz]
    | rw [View.canon_unit_zero hzz]
  (try rw [View.readCov_unit_zero (S := S1x96) _ hzz])
  simp only [View.readAt_eq_ld, harg1.read_unread, harg2.read_unread, harg3.read_unread, harg4.read_unread, harg5.read_unread, harg6.read_unread, harg10.read_unread, harg11.read_unread, View.ld_unit_zero (S := S10000x96) hzz, View.ld_unit_zero (S := S96x96) hzz, View.ld_unit_zero (S := S1x96) hzz]

theorem out0_B_6_eq (c : Dev nD) (i : grid0.Coords) (arg1 : Memref sig .tc .vmem S10000x96 .f32) (harg1 : arg1.IsWhole) (arg2 : Memref sig .tc .vmem S10000x96 .f32) (harg2 : arg2.IsWhole) (arg3 : Memref sig .tc .vmem S96x96 .bf16) (harg3 : arg3.IsWhole) (arg4 : Memref sig .tc .vmem S1x96 .f32) (harg4 : arg4.IsWhole) (arg5 : Memref sig .tc .vmem S96x96 .bf16) (harg5 : arg5.IsWhole) (arg6 : Memref sig .tc .vmem S1x96 .f32) (harg6 : arg6.IsWhole) (arg7 : Memref sig .tc .vmem S10000x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (arg11 : Memref sig .tc .vmem S1x96 .f32) (harg11 : arg11.IsWhole) (hc0 : ¬cond0_0 i) (hc1 : ¬cond0_1 i)
    (x0 : Vec F S10000x96 .f32) (x1 : Vec F S10000x96 .f32) (x2 : Vec F S96x96 .bf16) (x3 : Vec F S1x96 .f32) (x4 : Vec F S96x96 .bf16) (x5 : Vec F S1x96 .f32) (xs0 : Vec F S1x96 .f32) (xs1 : Vec F S1x96 .f32) : out0_B_6 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k0_pay5 x0 x1 x2 x3 x4 x5 := by
  unfold out0_B_6
  rw [View.read_writes_eq_canon _ _ _ (cover0_B_6 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_B
  dsimp only
  sl_unfold_words
  first
    | rw [View.canon_cons_unit_zero (S := S10000x96) hzz]
    | rw [View.canon_unit_zero hzz]
  (try rw [View.readCov_unit_zero (S := S1x96) _ hzz])
  simp only [View.readAt_eq_ld, harg1.read_unread, harg2.read_unread, harg3.read_unread, harg4.read_unread, harg5.read_unread, harg6.read_unread, harg10.read_unread, harg11.read_unread, View.ld_unit_zero (S := S10000x96) hzz, View.ld_unit_zero (S := S96x96) hzz, View.ld_unit_zero (S := S1x96) hzz]

theorem sout0_B_0_eq (c : Dev nD) (i : grid0.Coords) (arg1 : Memref sig .tc .vmem S10000x96 .f32) (harg1 : arg1.IsWhole) (arg2 : Memref sig .tc .vmem S10000x96 .f32) (harg2 : arg2.IsWhole) (arg3 : Memref sig .tc .vmem S96x96 .bf16) (harg3 : arg3.IsWhole) (arg4 : Memref sig .tc .vmem S1x96 .f32) (harg4 : arg4.IsWhole) (arg5 : Memref sig .tc .vmem S96x96 .bf16) (harg5 : arg5.IsWhole) (arg6 : Memref sig .tc .vmem S1x96 .f32) (harg6 : arg6.IsWhole) (arg7 : Memref sig .tc .vmem S10000x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (arg11 : Memref sig .tc .vmem S1x96 .f32) (harg11 : arg11.IsWhole) (hc0 : ¬cond0_0 i) (hc1 : ¬cond0_1 i)
    (x0 : Vec F S10000x96 .f32) (x1 : Vec F S10000x96 .f32) (x2 : Vec F S96x96 .bf16) (x3 : Vec F S1x96 .f32) (x4 : Vec F S96x96 .bf16) (x5 : Vec F S1x96 .f32) (xs0 : Vec F S1x96 .f32) (xs1 : Vec F S1x96 .f32) : sout0_B_0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k0_pay1 (k0_pay6 x0 x1 x2 x3 x4 x5 xs0) := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_B
  dsimp only
  sl_unfold_words
  first
    | rw [View.canon_cons_unit_zero (S := S1x96) hzz]
    | rw [View.canon_unit_zero hzz]
  (try rw [View.readCov_unit_zero (S := S1x96) _ hzz])
  simp only [View.readAt_eq_ld, harg1.read_unread, harg2.read_unread, harg3.read_unread, harg4.read_unread, harg5.read_unread, harg6.read_unread, harg10.read_unread, harg11.read_unread, View.ld_unit_zero (S := S10000x96) hzz, View.ld_unit_zero (S := S96x96) hzz, View.ld_unit_zero (S := S1x96) hzz]

theorem sout0_B_1_eq (c : Dev nD) (i : grid0.Coords) (arg1 : Memref sig .tc .vmem S10000x96 .f32) (harg1 : arg1.IsWhole) (arg2 : Memref sig .tc .vmem S10000x96 .f32) (harg2 : arg2.IsWhole) (arg3 : Memref sig .tc .vmem S96x96 .bf16) (harg3 : arg3.IsWhole) (arg4 : Memref sig .tc .vmem S1x96 .f32) (harg4 : arg4.IsWhole) (arg5 : Memref sig .tc .vmem S96x96 .bf16) (harg5 : arg5.IsWhole) (arg6 : Memref sig .tc .vmem S1x96 .f32) (harg6 : arg6.IsWhole) (arg7 : Memref sig .tc .vmem S10000x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (arg11 : Memref sig .tc .vmem S1x96 .f32) (harg11 : arg11.IsWhole) (hc0 : ¬cond0_0 i) (hc1 : ¬cond0_1 i)
    (x0 : Vec F S10000x96 .f32) (x1 : Vec F S10000x96 .f32) (x2 : Vec F S96x96 .bf16) (x3 : Vec F S1x96 .f32) (x4 : Vec F S96x96 .bf16) (x5 : Vec F S1x96 .f32) (xs0 : Vec F S1x96 .f32) (xs1 : Vec F S1x96 .f32) : sout0_B_1 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k0_pay2 (k0_pay5 x0 x1 x2 x3 x4 x5) xs1 := by
  unfold sout0_B_1
  rw [View.read_writes_eq_canon _ _ _ (scover0_B_1 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_B
  dsimp only
  sl_unfold_words
  first
    | rw [View.canon_cons_unit_zero (S := S1x96) hzz]
    | rw [View.canon_unit_zero hzz]
  (try rw [View.readCov_unit_zero (S := S1x96) _ hzz])
  simp only [View.readAt_eq_ld, harg1.read_unread, harg2.read_unread, harg3.read_unread, harg4.read_unread, harg5.read_unread, harg6.read_unread, harg10.read_unread, harg11.read_unread, View.ld_unit_zero (S := S10000x96) hzz, View.ld_unit_zero (S := S96x96) hzz, View.ld_unit_zero (S := S1x96) hzz]

theorem out0_C_6_eq (c : Dev nD) (i : grid0.Coords) (arg1 : Memref sig .tc .vmem S10000x96 .f32) (harg1 : arg1.IsWhole) (arg2 : Memref sig .tc .vmem S10000x96 .f32) (harg2 : arg2.IsWhole) (arg3 : Memref sig .tc .vmem S96x96 .bf16) (harg3 : arg3.IsWhole) (arg4 : Memref sig .tc .vmem S1x96 .f32) (harg4 : arg4.IsWhole) (arg5 : Memref sig .tc .vmem S96x96 .bf16) (harg5 : arg5.IsWhole) (arg6 : Memref sig .tc .vmem S1x96 .f32) (harg6 : arg6.IsWhole) (arg7 : Memref sig .tc .vmem S10000x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (arg11 : Memref sig .tc .vmem S1x96 .f32) (harg11 : arg11.IsWhole) (hc0 : ¬cond0_0 i) (hc1 : cond0_1 i)
    (x0 : Vec F S10000x96 .f32) (x1 : Vec F S10000x96 .f32) (x2 : Vec F S96x96 .bf16) (x3 : Vec F S1x96 .f32) (x4 : Vec F S96x96 .bf16) (x5 : Vec F S1x96 .f32) (xs0 : Vec F S1x96 .f32) (xs1 : Vec F S1x96 .f32) : out0_C_6 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k0_pay5 x0 x1 x2 x3 x4 x5 := by
  unfold out0_C_6
  rw [View.read_writes_eq_canon _ _ _ (cover0_C_6 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_C
  dsimp only
  sl_unfold_words
  first
    | rw [View.canon_cons_unit_zero (S := S10000x96) hzz]
    | rw [View.canon_unit_zero hzz]
  (try rw [View.readCov_unit_zero (S := S1x96) _ hzz])
  simp only [View.readAt_eq_ld, harg1.read_unread, harg2.read_unread, harg3.read_unread, harg4.read_unread, harg5.read_unread, harg6.read_unread, harg10.read_unread, harg11.read_unread, View.ld_unit_zero (S := S10000x96) hzz, View.ld_unit_zero (S := S96x96) hzz, View.ld_unit_zero (S := S1x96) hzz]

theorem out0_C_7_eq (c : Dev nD) (i : grid0.Coords) (arg1 : Memref sig .tc .vmem S10000x96 .f32) (harg1 : arg1.IsWhole) (arg2 : Memref sig .tc .vmem S10000x96 .f32) (harg2 : arg2.IsWhole) (arg3 : Memref sig .tc .vmem S96x96 .bf16) (harg3 : arg3.IsWhole) (arg4 : Memref sig .tc .vmem S1x96 .f32) (harg4 : arg4.IsWhole) (arg5 : Memref sig .tc .vmem S96x96 .bf16) (harg5 : arg5.IsWhole) (arg6 : Memref sig .tc .vmem S1x96 .f32) (harg6 : arg6.IsWhole) (arg7 : Memref sig .tc .vmem S10000x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (arg11 : Memref sig .tc .vmem S1x96 .f32) (harg11 : arg11.IsWhole) (hc0 : ¬cond0_0 i) (hc1 : cond0_1 i)
    (x0 : Vec F S10000x96 .f32) (x1 : Vec F S10000x96 .f32) (x2 : Vec F S96x96 .bf16) (x3 : Vec F S1x96 .f32) (x4 : Vec F S96x96 .bf16) (x5 : Vec F S1x96 .f32) (xs0 : Vec F S1x96 .f32) (xs1 : Vec F S1x96 .f32) : out0_C_7 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k0_pay1 (k0_pay6 x0 x1 x2 x3 x4 x5 xs0) := by
  unfold out0_C_7
  rw [View.read_writes_eq_canon _ _ _ (cover0_C_7 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_C
  dsimp only
  sl_unfold_words
  first
    | rw [View.canon_cons_unit_zero (S := S1x96) hzz]
    | rw [View.canon_unit_zero hzz]
  (try rw [View.readCov_unit_zero (S := S1x96) _ hzz])
  simp only [View.readAt_eq_ld, harg1.read_unread, harg2.read_unread, harg3.read_unread, harg4.read_unread, harg5.read_unread, harg6.read_unread, harg10.read_unread, harg11.read_unread, View.ld_unit_zero (S := S10000x96) hzz, View.ld_unit_zero (S := S96x96) hzz, View.ld_unit_zero (S := S1x96) hzz]

theorem out0_C_8_eq (c : Dev nD) (i : grid0.Coords) (arg1 : Memref sig .tc .vmem S10000x96 .f32) (harg1 : arg1.IsWhole) (arg2 : Memref sig .tc .vmem S10000x96 .f32) (harg2 : arg2.IsWhole) (arg3 : Memref sig .tc .vmem S96x96 .bf16) (harg3 : arg3.IsWhole) (arg4 : Memref sig .tc .vmem S1x96 .f32) (harg4 : arg4.IsWhole) (arg5 : Memref sig .tc .vmem S96x96 .bf16) (harg5 : arg5.IsWhole) (arg6 : Memref sig .tc .vmem S1x96 .f32) (harg6 : arg6.IsWhole) (arg7 : Memref sig .tc .vmem S10000x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (arg11 : Memref sig .tc .vmem S1x96 .f32) (harg11 : arg11.IsWhole) (hc0 : ¬cond0_0 i) (hc1 : cond0_1 i)
    (x0 : Vec F S10000x96 .f32) (x1 : Vec F S10000x96 .f32) (x2 : Vec F S96x96 .bf16) (x3 : Vec F S1x96 .f32) (x4 : Vec F S96x96 .bf16) (x5 : Vec F S1x96 .f32) (xs0 : Vec F S1x96 .f32) (xs1 : Vec F S1x96 .f32) : out0_C_8 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k0_pay2 (k0_pay5 x0 x1 x2 x3 x4 x5) xs1 := by
  unfold out0_C_8
  rw [View.read_writes_eq_canon _ _ _ (cover0_C_8 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_C
  dsimp only
  sl_unfold_words
  first
    | rw [View.canon_cons_unit_zero (S := S1x96) hzz]
    | rw [View.canon_unit_zero hzz]
  (try rw [View.readCov_unit_zero (S := S1x96) _ hzz])
  simp only [View.readAt_eq_ld, harg1.read_unread, harg2.read_unread, harg3.read_unread, harg4.read_unread, harg5.read_unread, harg6.read_unread, harg10.read_unread, harg11.read_unread, View.ld_unit_zero (S := S10000x96) hzz, View.ld_unit_zero (S := S96x96) hzz, View.ld_unit_zero (S := S1x96) hzz]

theorem sout0_C_0_eq (c : Dev nD) (i : grid0.Coords) (arg1 : Memref sig .tc .vmem S10000x96 .f32) (harg1 : arg1.IsWhole) (arg2 : Memref sig .tc .vmem S10000x96 .f32) (harg2 : arg2.IsWhole) (arg3 : Memref sig .tc .vmem S96x96 .bf16) (harg3 : arg3.IsWhole) (arg4 : Memref sig .tc .vmem S1x96 .f32) (harg4 : arg4.IsWhole) (arg5 : Memref sig .tc .vmem S96x96 .bf16) (harg5 : arg5.IsWhole) (arg6 : Memref sig .tc .vmem S1x96 .f32) (harg6 : arg6.IsWhole) (arg7 : Memref sig .tc .vmem S10000x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (arg11 : Memref sig .tc .vmem S1x96 .f32) (harg11 : arg11.IsWhole) (hc0 : ¬cond0_0 i) (hc1 : cond0_1 i)
    (x0 : Vec F S10000x96 .f32) (x1 : Vec F S10000x96 .f32) (x2 : Vec F S96x96 .bf16) (x3 : Vec F S1x96 .f32) (x4 : Vec F S96x96 .bf16) (x5 : Vec F S1x96 .f32) (xs0 : Vec F S1x96 .f32) (xs1 : Vec F S1x96 .f32) : sout0_C_0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k0_pay1 (k0_pay6 x0 x1 x2 x3 x4 x5 xs0) := by
  unfold sout0_C_0
  rw [View.read_writes_eq_canon _ _ _ (scover0_C_0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_C
  dsimp only
  sl_unfold_words
  first
    | rw [View.canon_cons_unit_zero (S := S1x96) hzz]
    | rw [View.canon_unit_zero hzz]
  (try rw [View.readCov_unit_zero (S := S1x96) _ hzz])
  simp only [View.readAt_eq_ld, harg1.read_unread, harg2.read_unread, harg3.read_unread, harg4.read_unread, harg5.read_unread, harg6.read_unread, harg10.read_unread, harg11.read_unread, View.ld_unit_zero (S := S10000x96) hzz, View.ld_unit_zero (S := S96x96) hzz, View.ld_unit_zero (S := S1x96) hzz]

theorem sout0_C_1_eq (c : Dev nD) (i : grid0.Coords) (arg1 : Memref sig .tc .vmem S10000x96 .f32) (harg1 : arg1.IsWhole) (arg2 : Memref sig .tc .vmem S10000x96 .f32) (harg2 : arg2.IsWhole) (arg3 : Memref sig .tc .vmem S96x96 .bf16) (harg3 : arg3.IsWhole) (arg4 : Memref sig .tc .vmem S1x96 .f32) (harg4 : arg4.IsWhole) (arg5 : Memref sig .tc .vmem S96x96 .bf16) (harg5 : arg5.IsWhole) (arg6 : Memref sig .tc .vmem S1x96 .f32) (harg6 : arg6.IsWhole) (arg7 : Memref sig .tc .vmem S10000x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (arg11 : Memref sig .tc .vmem S1x96 .f32) (harg11 : arg11.IsWhole) (hc0 : ¬cond0_0 i) (hc1 : cond0_1 i)
    (x0 : Vec F S10000x96 .f32) (x1 : Vec F S10000x96 .f32) (x2 : Vec F S96x96 .bf16) (x3 : Vec F S1x96 .f32) (x4 : Vec F S96x96 .bf16) (x5 : Vec F S1x96 .f32) (xs0 : Vec F S1x96 .f32) (xs1 : Vec F S1x96 .f32) : sout0_C_1 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k0_pay2 (k0_pay5 x0 x1 x2 x3 x4 x5) xs1 := by
  unfold sout0_C_1
  rw [View.read_writes_eq_canon _ _ _ (scover0_C_1 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_C
  dsimp only
  sl_unfold_words
  first
    | rw [View.canon_cons_unit_zero (S := S1x96) hzz]
    | rw [View.canon_unit_zero hzz]
  (try rw [View.readCov_unit_zero (S := S1x96) _ hzz])
  simp only [View.readAt_eq_ld, harg1.read_unread, harg2.read_unread, harg3.read_unread, harg4.read_unread, harg5.read_unread, harg6.read_unread, harg10.read_unread, harg11.read_unread, View.ld_unit_zero (S := S10000x96) hzz, View.ld_unit_zero (S := S96x96) hzz, View.ld_unit_zero (S := S1x96) hzz]

end Cert.KernelIdeal.HandValue
end
-- ==== Proof.Reg0ValueChain.lean ====
import proofs.«111056_j31628139167864_2_alg».proof.Proof.Reg0ValuePieces
set_option maxRecDepth 16384
set_option pp.maxSteps 20000
set_option pp.deepTerms false
set_option pp.proofs false
noncomputable section
open Idealize.ShloMosaic Idealize.ShloMosaic.TcCoe Idealize.SL.Sem Idealize.ShloMosaic.Tactic
open Idealize.ShloMosaic.Pipeline (Dat)
namespace Cert.KernelIdeal.HandValue
open Cert.KernelIdeal Cert.KernelIdeal.Gen Cert.KernelIdeal.Hand
variable {F : FTy → Type} [FloatOps F]

/-! # Region 0's value: the h2 block and the two running column sums after each point (any float instance) -/

section
variable (V : (c : Dev nD) → (b : Ref sig .tc) → Buf (Elt F) ((c : Thread nD τ).loc b))

/-- The h2 block the body stores at point `t`: the MLP of the point's input blocks. -/
def h2At (c : Dev nD) (t : Fin cfg0.N) : Vec F S10000x96 .f32 := k0_pay5 (iblk0 V c 0 t) (iblk0 V c 1 t) (iblk0 V c 2 t) (iblk0 V c 3 t) (iblk0 V c 4 t) (iblk0 V c 5 t)

/-- The running column sum of h2 after point `n`: zero plus the first block's column sums, then one block's more per point. -/
def accS (c : Dev nD) : (n : ℕ) → n < cfg0.N → Vec F S1x96 .f32
  | 0, h => k0_pay1 (k0_pay6 (iblk0 V c 0 ⟨0, h⟩) (iblk0 V c 1 ⟨0, h⟩) (iblk0 V c 2 ⟨0, h⟩) (iblk0 V c 3 ⟨0, h⟩) (iblk0 V c 4 ⟨0, h⟩) (iblk0 V c 5 ⟨0, h⟩) (k0_pay3 (F := F)))
  | n + 1, h => k0_pay1 (k0_pay6 (iblk0 V c 0 ⟨n + 1, h⟩) (iblk0 V c 1 ⟨n + 1, h⟩) (iblk0 V c 2 ⟨n + 1, h⟩) (iblk0 V c 3 ⟨n + 1, h⟩) (iblk0 V c 4 ⟨n + 1, h⟩) (iblk0 V c 5 ⟨n + 1, h⟩) (accS c n (Nat.lt_of_succ_lt h)))

/-- The running column sum of h2's squares after point `n`. -/
def accQ (c : Dev nD) : (n : ℕ) → n < cfg0.N → Vec F S1x96 .f32
  | 0, h => k0_pay2 (h2At V c ⟨0, h⟩) (k0_pay4 (F := F))
  | n + 1, h => k0_pay2 (h2At V c ⟨n + 1, h⟩) (accQ c n (Nat.lt_of_succ_lt h))

/-- What the buffers hold after point `n`, by induction on the point: the h2 output's buffer the point's h2 block, the two
    accumulators the running sums, and at the last point the two statistics outputs' buffers those sums too. -/
theorem outsAt0_inv (c : Dev nD) : ∀ (n : ℕ) (h : n < cfg0.N),
    (outsAt0 V c n h).1 = h2At V c ⟨n, h⟩ ∧ (outsAt0 V c n h).2.2.2.1 = accS V c n h ∧ (outsAt0 V c n h).2.2.2.2 = accQ V c n h
      ∧ (n = 4 → (outsAt0 V c n h).2.1 = accS V c n h ∧ (outsAt0 V c n h).2.2.1 = accQ V c n h)
  | 0, h => by
    rw [outsAt0_first V c ⟨0, h⟩ rfl (fun h4 : (0 : ℕ) = 4 => absurd h4 (by decide))]
    rw [out0_A_6_eq, sout0_A_0_eq, sout0_A_1_eq]
    exact ⟨rfl, rfl, rfl, fun h4 : (0 : ℕ) = 4 => absurd h4 (by decide)⟩
  | n + 1, h => by
    have ih := outsAt0_inv c n (Nat.lt_of_succ_lt h)
    have e : ∀ hp, outsAt0 V c ((⟨n + 1, h⟩ : Fin cfg0.N).val - 1) hp = outsAt0 V c n (Nat.lt_of_succ_lt h) := fun _ => rfl
    by_cases h4 : n + 1 = 4
    · rw [outsAt0_last V c ⟨n + 1, h⟩ (Nat.succ_ne_zero n) h4]
      rw [out0_C_6_eq, out0_C_7_eq, out0_C_8_eq, sout0_C_0_eq, sout0_C_1_eq]
      dsimp only
      rw [e, ih.2.1, ih.2.2.1]
      exact ⟨rfl, rfl, rfl, fun _ => ⟨rfl, rfl⟩⟩
    · rw [outsAt0_middle V c ⟨n + 1, h⟩ (Nat.succ_ne_zero n) h4]
      rw [out0_B_6_eq, sout0_B_0_eq, sout0_B_1_eq]
      dsimp only
      rw [e, ih.2.1, ih.2.2.1]
      exact ⟨rfl, rfl, rfl, fun h4' => absurd h4' h4⟩

theorem h2_after (c : Dev nD) (t : Fin cfg0.N) : (dat0 V c).after 6 t = h2At V c t := by
  rw [after0_6]; exact (outsAt0_inv V c t.val t.isLt).1

theorem sum_after (c : Dev nD) (t : Fin cfg0.N) (h4 : t.val = 4) : (dat0 V c).after 7 t = accS V c t.val t.isLt := by
  rw [after0_7]; exact ((outsAt0_inv V c t.val t.isLt).2.2.2 h4).1

theorem sumsq_after (c : Dev nD) (t : Fin cfg0.N) (h4 : t.val = 4) : (dat0 V c).after 8 t = accQ V c t.val t.isLt := by
  rw [after0_8]; exact ((outsAt0_inv V c t.val t.isLt).2.2.2 h4).2

end
end Cert.KernelIdeal.HandValue
end
-- ==== Proof.Reg0ValueArr.lean ====
import proofs.«111056_j31628139167864_2_alg».proof.Proof.Reg0ValueChain
import Idealize.ShloMosaic.Lib.ValueIdx
set_option maxRecDepth 16384
set_option pp.maxSteps 20000
set_option pp.deepTerms false
set_option pp.proofs false
noncomputable section
open Idealize.ShloMosaic Idealize.ShloMosaic.TcCoe Idealize.SL.Sem Idealize.ShloMosaic.Tactic
open Idealize.ShloMosaic.Pipeline (Dat)
namespace Cert.KernelIdeal.HandValue
open Cert.KernelIdeal Cert.KernelIdeal.Gen Cert.KernelIdeal.Hand
variable {F : FTy → Type} [FloatOps F]

open Idealize.ShloMosaic.ValueIdx

/-! # Region 0's value: the three result arrays after the region (any float instance) -/

section
variable (V : (c : Dev nD) → (b : Ref sig .tc) → Buf (Elt F) ((c : Thread nD τ).loc b))

/-! ## Where the windows' blocks sit -/

theorem index0_0 (t : Fin cfg0.N) : win0_0.index t 0 = t.val ∧ win0_0.index t 1 = 0 := by
  rcases fin_N0 t with rfl | rfl | rfl | rfl | rfl <;> decide
theorem index0_1 (t : Fin cfg0.N) : win0_1.index t 0 = t.val ∧ win0_1.index t 1 = 0 := by
  rcases fin_N0 t with rfl | rfl | rfl | rfl | rfl <;> decide
theorem index0_6 (t : Fin cfg0.N) : win0_6.index t 0 = t.val ∧ win0_6.index t 1 = 0 := by
  rcases fin_N0 t with rfl | rfl | rfl | rfl | rfl <;> decide

/-- Row `j 0` of block `t` of a (50000, 96) array: row `10000 t + j 0`. -/
def row0 (t : Fin cfg0.N) (j : S10000x96.Idx) : S50000x96.Idx :=
  ix2 ⟨10000 * t.val + (j 0).val, by have h : (j 0).val < 10000 := (j 0).isLt; have ht := t.isLt; have hN : cfg0.N = 5 := N_0; omega⟩ (j 1)

/-- Window 0's block at point `t` is rows `[10000 t, 10000 t + 10000)` of its array. -/
theorem iblk0_0_apply (c : Dev nD) (t : Fin cfg0.N) (j : S10000x96.Idx) :
    (iblk0 V c 0 t : Vec F S10000x96 .f32) j = (V c (Pipeline.arrRef spec0 0) : Vec F S50000x96 .f32) (row0 t j) := by
  unfold iblk0
  rw [View.read_apply]
  show V c main_arg0 _ = V c main_arg0 _
  congr 1
  funext a
  apply Fin.ext
  match a with
  | ⟨0, _⟩ => show win0_0.index t 0 * 10000 + 1 * (j 0).val = 10000 * t.val + (j 0).val; rw [(index0_0 t).1]; omega
  | ⟨1, _⟩ => show win0_0.index t 1 * 96 + 1 * (j 1).val = (j 1).val; rw [(index0_0 t).2]; omega

/-- Window 1's likewise. -/
theorem iblk0_1_apply (c : Dev nD) (t : Fin cfg0.N) (j : S10000x96.Idx) :
    (iblk0 V c 1 t : Vec F S10000x96 .f32) j = (V c (Pipeline.arrRef spec0 1) : Vec F S50000x96 .f32) (row0 t j) := by
  unfold iblk0
  rw [View.read_apply]
  show V c main_v14 _ = V c main_v14 _
  congr 1
  funext a
  apply Fin.ext
  match a with
  | ⟨0, _⟩ => show win0_1.index t 0 * 10000 + 1 * (j 0).val = 10000 * t.val + (j 0).val; rw [(index0_1 t).1]; omega
  | ⟨1, _⟩ => show win0_1.index t 1 * 96 + 1 * (j 1).val = (j 1).val; rw [(index0_1 t).2]; omega

/-! ## The h2 result: the five blocks stacked -/

/-- The five h2 blocks stacked: row `r` of the (50000, 96) result is row `r % 10000` of block `r / 10000`. -/
def stack0 (c : Dev nD) : Buf (Elt F) ((c : Thread nD τ).loc main_v17_0) := fun i =>
  h2At V c ⟨(i 0).val / 10000, by have h : (i 0).val < 50000 := (i 0).isLt; have hN : cfg0.N = 5 := N_0; omega⟩
    (ix2 (⟨(i 0).val % 10000, Nat.mod_lt _ (by decide)⟩ : Fin 10000) (i 1))

theorem stack0_at (c : Dev nD) (t : Fin cfg0.N) (j : S10000x96.Idx) (i : S50000x96.Idx)
    (h0 : (i 0).val = 10000 * t.val + (j 0).val) (h1 : (i 1).val = (j 1).val) : stack0 V c i = h2At V c t j := by
  unfold stack0
  have hj : (j 0).val < 10000 := (j 0).isLt
  have ht : (i 0).val / 10000 = t.val := by omega
  have hm : (i 0).val % 10000 = (j 0).val := by omega
  have ej : (ix2 (⟨(i 0).val % 10000, Nat.mod_lt _ (by decide)⟩ : Fin 10000) (i 1) : S10000x96.Idx) = j := by
    funext a
    match a with
    | ⟨0, _⟩ => exact Fin.ext hm
    | ⟨1, _⟩ => exact Fin.ext h1
  rw [ej]
  congr 1
  exact Fin.ext ht

/-- Every point writes the h2 output's block back, and the block is the point's rows of the stack. -/
theorem flushed0_6 (c : Dev nD) (t : Fin cfg0.N) (hf : (cfg0.win 6).flush t = true) :
    (dat0 V c).flushed 6 t = ((cfg0.win 6).blk t).view.read (Elt F) (stack0 V c) := by
  show (cfg0.win 6).cut (grid0.coords t) ((dat0 V c).after 6 t) = _
  rw [h2_after]
  show h2At V c t = _
  funext j
  rw [View.read_apply]
  show h2At V c t j = stack0 V c _
  symm
  apply stack0_at V c t j
  · show win0_6.index t 0 * 10000 + 1 * (j 0).val = 10000 * t.val + (j 0).val; rw [(index0_6 t).1]; omega
  · show win0_6.index t 1 * 96 + 1 * (j 1).val = (j 1).val; rw [(index0_6 t).2]; omega

theorem xsize0_6 : ∀ t : Fin cfg0.N, win0_6.xsize (grid0.coords t) 0 = 10000 ∧ win0_6.xsize (grid0.coords t) 1 = 96 := by decide +kernel

/-- So the h2 result array ends holding the stack: the five blocks tile it. -/
theorem final_h2 (c : Dev nD) : (dat0 V c).arrAt 6 cfg0.N = stack0 V c :=
  (dat0 V c).arrAt_eq_of_cover 6 (stack0 V c) (flushed0_6 V c) fun i => by
    have h0 : (i 0 : Nat) < 50000 := (i 0).isLt
    have h1 : (i 1 : Nat) < 96 := (i 1).isLt
    have hN : cfg0.N = 5 := N_0
    have ht : (i 0 : Nat) / 10000 < cfg0.N := by omega
    refine ⟨⟨(i 0 : Nat) / 10000, ht⟩, flush0_6 _, ?_⟩
    show i ∈ ((View.whole main_v17_0).slice (win0_6.rect ⟨(i 0 : Nat) / 10000, ht⟩)).set
    rw [View.set_slice_whole, Rect.mem_set_unit]
    intro a
    match a with
    | ⟨0, _⟩ =>
      show win0_6.index ⟨(i 0 : Nat) / 10000, ht⟩ 0 * win0_6.size 0 ≤ (i 0 : Nat) ∧ (i 0 : Nat) < win0_6.index ⟨(i 0 : Nat) / 10000, ht⟩ 0 * win0_6.size 0 + win0_6.xsize (grid0.coords ⟨(i 0 : Nat) / 10000, ht⟩) 0
      rw [(index0_6 ⟨(i 0 : Nat) / 10000, ht⟩).1, (xsize0_6 ⟨(i 0 : Nat) / 10000, ht⟩).1, show win0_6.size 0 = 10000 from rfl]
      show (i 0 : Nat) / 10000 * 10000 ≤ (i 0 : Nat) ∧ (i 0 : Nat) < (i 0 : Nat) / 10000 * 10000 + 10000
      omega
    | ⟨1, _⟩ =>
      show win0_6.index ⟨(i 0 : Nat) / 10000, ht⟩ 1 * win0_6.size 1 ≤ (i 1 : Nat) ∧ (i 1 : Nat) < win0_6.index ⟨(i 0 : Nat) / 10000, ht⟩ 1 * win0_6.size 1 + win0_6.xsize (grid0.coords ⟨(i 0 : Nat) / 10000, ht⟩) 1
      rw [(index0_6 ⟨(i 0 : Nat) / 10000, ht⟩).2, (xsize0_6 ⟨(i 0 : Nat) / 10000, ht⟩).2]
      omega

/-! ## The two statistics results: the running sums after the last point -/

theorem lt4 : 4 < cfg0.N := by rw [show cfg0.N = 5 from N_0]; decide

/-- The column sums after the last point, as contents of their result arrays (one block, the whole array). -/
abbrev sum0 (c : Dev nD) : Buf (Elt F) ((c : Thread nD τ).loc main_v17_1) := accS V c 4 lt4
abbrev sumsq0 (c : Dev nD) : Buf (Elt F) ((c : Thread nD τ).loc main_v17_2) := accQ V c 4 lt4

theorem flushed0_7 (c : Dev nD) (t : Fin cfg0.N) (hf : (cfg0.win 7).flush t = true) :
    (dat0 V c).flushed 7 t = ((cfg0.win 7).blk t).view.read (Elt F) (sum0 V c) := by
  have hN : cfg0.N = 5 := N_0
  have h4 : t.val = 4 := by have := (flush0_7 t).mp hf; have := t.isLt; omega
  obtain rfl : t = t0_4 := Fin.ext h4
  show (cfg0.win 7).cut (grid0.coords t0_4) ((dat0 V c).after 7 t0_4) = _
  rw [sum_after V c t0_4 rfl]
  have hz' : (fun a => win0_7.index t0_4 a * main_v17_1.ty.shape.size a) = fun _ => 0 := funext fun a => by fin_cases a <;> decide
  exact (Memref.read_access_unit_zero (Elt F) main_v17_1 hz' (fun a => by rw [congrFun hz' a]; simp) (sum0 V c)).symm

theorem flushed0_8 (c : Dev nD) (t : Fin cfg0.N) (hf : (cfg0.win 8).flush t = true) :
    (dat0 V c).flushed 8 t = ((cfg0.win 8).blk t).view.read (Elt F) (sumsq0 V c) := by
  have hN : cfg0.N = 5 := N_0
  have h4 : t.val = 4 := by have := (flush0_8 t).mp hf; have := t.isLt; omega
  obtain rfl : t = t0_4 := Fin.ext h4
  show (cfg0.win 8).cut (grid0.coords t0_4) ((dat0 V c).after 8 t0_4) = _
  rw [sumsq_after V c t0_4 rfl]
  have hz' : (fun a => win0_8.index t0_4 a * main_v17_2.ty.shape.size a) = fun _ => 0 := funext fun a => by fin_cases a <;> decide
  exact (Memref.read_access_unit_zero (Elt F) main_v17_2 hz' (fun a => by rw [congrFun hz' a]; simp) (sumsq0 V c)).symm

theorem final_sum (c : Dev nD) : (dat0 V c).arrAt 7 cfg0.N = sum0 V c :=
  (dat0 V c).arrAt_eq_of_cover 7 (sum0 V c) (flushed0_7 V c) fun i =>
    ⟨t0_4, (flush0_7 t0_4).mpr rfl, by
      show i ∈ ((View.whole main_v17_1).slice (win0_7.rect t0_4)).set
      rw [View.set_slice_whole, Rect.mem_set_unit]
      intro a
      have h0 : (i 0 : Nat) < 1 := (i 0).isLt
      have h1 : (i 1 : Nat) < 96 := (i 1).isLt
      match a with
      | ⟨0, _⟩ => show win0_7.index t0_4 0 * win0_7.size 0 ≤ (i 0 : Nat) ∧ (i 0 : Nat) < win0_7.index t0_4 0 * win0_7.size 0 + win0_7.xsize (grid0.coords t0_4) 0
                  rw [show win0_7.index t0_4 0 * win0_7.size 0 = 0 from by decide +kernel, show win0_7.xsize (grid0.coords t0_4) 0 = 1 from by decide +kernel]; omega
      | ⟨1, _⟩ => show win0_7.index t0_4 1 * win0_7.size 1 ≤ (i 1 : Nat) ∧ (i 1 : Nat) < win0_7.index t0_4 1 * win0_7.size 1 + win0_7.xsize (grid0.coords t0_4) 1
                  rw [show win0_7.index t0_4 1 * win0_7.size 1 = 0 from by decide +kernel, show win0_7.xsize (grid0.coords t0_4) 1 = 96 from by decide +kernel]; omega⟩

theorem final_sumsq (c : Dev nD) : (dat0 V c).arrAt 8 cfg0.N = sumsq0 V c :=
  (dat0 V c).arrAt_eq_of_cover 8 (sumsq0 V c) (flushed0_8 V c) fun i =>
    ⟨t0_4, (flush0_8 t0_4).mpr rfl, by
      show i ∈ ((View.whole main_v17_2).slice (win0_8.rect t0_4)).set
      rw [View.set_slice_whole, Rect.mem_set_unit]
      intro a
      have h0 : (i 0 : Nat) < 1 := (i 0).isLt
      have h1 : (i 1 : Nat) < 96 := (i 1).isLt
      match a with
      | ⟨0, _⟩ => show win0_8.index t0_4 0 * win0_8.size 0 ≤ (i 0 : Nat) ∧ (i 0 : Nat) < win0_8.index t0_4 0 * win0_8.size 0 + win0_8.xsize (grid0.coords t0_4) 0
                  rw [show win0_8.index t0_4 0 * win0_8.size 0 = 0 from by decide +kernel, show win0_8.xsize (grid0.coords t0_4) 0 = 1 from by decide +kernel]; omega
      | ⟨1, _⟩ => show win0_8.index t0_4 1 * win0_8.size 1 ≤ (i 1 : Nat) ∧ (i 1 : Nat) < win0_8.index t0_4 1 * win0_8.size 1 + win0_8.xsize (grid0.coords t0_4) 1
                  rw [show win0_8.index t0_4 1 * win0_8.size 1 = 0 from by decide +kernel, show win0_8.xsize (grid0.coords t0_4) 1 = 96 from by decide +kernel]; omega⟩

end
end Cert.KernelIdeal.HandValue
end
-- ==== Proof.Reg0ValueIdeal.lean ====
import proofs.«111056_j31628139167864_2_alg».proof.Proof.Reg0ValueArr
import Idealize.ShloMosaic.Lib.StackMember
import Idealize.ShloMosaic.Lib.KernelVsHost
import Idealize.ShloMosaic.Lib.ValueLayout
import Idealize.ShloMosaic.Lib.ValueIdx
import Idealize.ShloMosaic.PureOps.Ideal.Laws
import Mathlib.Algebra.BigOperators.Fin
set_option maxRecDepth 16384
set_option pp.maxSteps 20000
set_option pp.deepTerms false
set_option pp.proofs false
noncomputable section
open scoped BigOperators
open Idealize.ShloMosaic Idealize.ShloMosaic.TcCoe Idealize.SL.Sem Idealize.ShloMosaic.Tactic
open Idealize.ShloMosaic.Pipeline (Dat)
open Idealize.ShloMosaic.ValueIdx
namespace Cert.KernelIdeal.HandValue
open Cert.KernelIdeal Cert.KernelIdeal.Gen Cert.KernelIdeal.Hand

/-! # Region 0's value: the payloads entry by entry and the three results in closed form, at the extended reals -/

/-- The MLP payload at entry (r, j). -/
theorem pay5_apply (x0 x1 : FVec Ideal S10000x96 .f32) (x2 : FVec Ideal S96x96 .bf16) (x3 : FVec Ideal S1x96 .f32)
    (x4 : FVec Ideal S96x96 .bf16) (x5 : FVec Ideal S1x96 .f32) (r : Fin 10000) (j : Fin 96) :
    k0_pay5 (F := Ideal) x0 x1 x2 x3 x4 x5 (ix2 r j) = mlpRow (fun k => x0 (ix2 r k)) (fun k => x1 (ix2 r k)) x2 x3 x4 x5 j := by
  unfold k0_pay5 mlpRow
  simp only [shapeCast_self, dot_eq_plain]
  simp only [addf_apply, matmul_plain_zero_at, truncf_apply, maximumf_apply, mulf_apply, broadcast_apply, broadcastTo_1b_ab_apply]
  simp only [ofBits_zero]
  rfl

/-- The first accumulator's new contents at (0, j): what it held plus the block's column sum. -/
theorem pay1_pay6_apply (x0 x1 : FVec Ideal S10000x96 .f32) (x2 : FVec Ideal S96x96 .bf16) (x3 : FVec Ideal S1x96 .f32)
    (x4 : FVec Ideal S96x96 .bf16) (x5 : FVec Ideal S1x96 .f32) (v28 : FVec Ideal S1x96 .f32) (j : Fin 96) :
    k0_pay1 (F := Ideal) (k0_pay6 x0 x1 x2 x3 x4 x5 v28) (ix2 (0 : Fin 1) j)
      = v28 (ix2 (0 : Fin 1) j) + ∑ r : Fin 10000, k0_pay5 (F := Ideal) x0 x1 x2 x3 x4 x5 (ix2 r j) := by
  unfold k0_pay1 k0_pay6
  simp only [shapeCast_self]
  rw [addf_apply, colsum_apply]

/-- The second accumulator's new contents at (0, j): what it held plus the column sum of the block's squares. -/
theorem pay2_apply (v26 : FVec Ideal S10000x96 .f32) (v35 : FVec Ideal S1x96 .f32) (j : Fin 96) :
    k0_pay2 (F := Ideal) v26 v35 (ix2 (0 : Fin 1) j) = v35 (ix2 (0 : Fin 1) j) + ∑ r : Fin 10000, v26 (ix2 r j) * v26 (ix2 r j) := by
  unfold k0_pay2
  simp only [shapeCast_self]
  rw [addf_apply, colsum_apply]
  rfl

theorem pay3_apply (i : S1x96.Idx) : k0_pay3 (F := Ideal) i = 0 := by
  unfold k0_pay3
  simp only [shapeCast_self]
  exact ofBits_zero

theorem pay4_apply (i : S1x96.Idx) : k0_pay4 (F := Ideal) i = 0 := by
  unfold k0_pay4
  simp only [shapeCast_self]
  exact ofBits_zero

end Cert.KernelIdeal.HandValue
end
-- ==== Proof.Reg0Value.lean ====
import proofs.«111056_j31628139167864_2_alg».proof.Proof.Reg0ValueIdeal
import Idealize.ShloMosaic.Lib.StackMember
import Idealize.ShloMosaic.Lib.KernelVsHost
import Idealize.ShloMosaic.Lib.ValueLayout
import Idealize.ShloMosaic.Lib.ValueIdx
import Idealize.ShloMosaic.PureOps.Ideal.Laws
import Mathlib.Algebra.BigOperators.Fin
set_option maxRecDepth 16384
set_option pp.maxSteps 20000
set_option pp.deepTerms false
set_option pp.proofs false
noncomputable section
open scoped BigOperators
open Idealize.ShloMosaic Idealize.ShloMosaic.TcCoe Idealize.SL.Sem Idealize.ShloMosaic.Tactic
open Idealize.ShloMosaic.Pipeline (Dat)
open Idealize.ShloMosaic.ValueIdx
namespace Cert.KernelIdeal.HandValue
open Cert.KernelIdeal Cert.KernelIdeal.Gen Cert.KernelIdeal.Hand

/-! # Region 0's value: the three result arrays in closed form over the region-entry arrays, at the extended reals -/

/-! ## The closed forms -/

/-- h2 = MLP(2·h + agg), entry by entry. -/
def G0_h2 (h agg : FVec Ideal S50000x96 .f32) (Wa : FVec Ideal S96x96 .bf16) (ba : FVec Ideal S1x96 .f32)
    (Wb : FVec Ideal S96x96 .bf16) (bb : FVec Ideal S1x96 .f32) : FVec Ideal S50000x96 .f32 := fun i =>
  mlpRow (fun k => h (ix2 (i 0 : Fin 50000) k)) (fun k => agg (ix2 (i 0 : Fin 50000) k)) Wa ba Wb bb (i 1 : Fin 96)

/-- The column sums of h2. -/
def G0_sum (h agg : FVec Ideal S50000x96 .f32) (Wa : FVec Ideal S96x96 .bf16) (ba : FVec Ideal S1x96 .f32)
    (Wb : FVec Ideal S96x96 .bf16) (bb : FVec Ideal S1x96 .f32) : FVec Ideal S1x96 .f32 := fun i =>
  ∑ r : Fin 50000, G0_h2 h agg Wa ba Wb bb (ix2 r (i 1 : Fin 96))

/-- The column sums of h2's squares. -/
def G0_sumsq (h agg : FVec Ideal S50000x96 .f32) (Wa : FVec Ideal S96x96 .bf16) (ba : FVec Ideal S1x96 .f32)
    (Wb : FVec Ideal S96x96 .bf16) (bb : FVec Ideal S1x96 .f32) : FVec Ideal S1x96 .f32 := fun i =>
  ∑ r : Fin 50000, G0_h2 h agg Wa ba Wb bb (ix2 r (i 1 : Fin 96)) * G0_h2 h agg Wa ba Wb bb (ix2 r (i 1 : Fin 96))

section
variable (V : (c : Dev nD) → (b : Ref sig .tc) → Buf (Elt Ideal) ((c : Thread nD τ).loc b))

/-! ## The whole-array windows' blocks are their arrays -/

theorem index0_2 (t : Fin cfg0.N) : win0_2.index t 0 = 0 ∧ win0_2.index t 1 = 0 := by
  rcases fin_N0 t with rfl | rfl | rfl | rfl | rfl <;> decide
theorem index0_3 (t : Fin cfg0.N) : win0_3.index t 0 = 0 ∧ win0_3.index t 1 = 0 := by
  rcases fin_N0 t with rfl | rfl | rfl | rfl | rfl <;> decide
theorem index0_4 (t : Fin cfg0.N) : win0_4.index t 0 = 0 ∧ win0_4.index t 1 = 0 := by
  rcases fin_N0 t with rfl | rfl | rfl | rfl | rfl <;> decide
theorem index0_5 (t : Fin cfg0.N) : win0_5.index t 0 = 0 ∧ win0_5.index t 1 = 0 := by
  rcases fin_N0 t with rfl | rfl | rfl | rfl | rfl <;> decide

theorem iblk0_2_eq (c : Dev nD) (t : Fin cfg0.N) : (iblk0 V c 2 t : Vec Ideal S96x96 .bf16) = (V c (Pipeline.arrRef spec0 2)) := by
  unfold iblk0
  have hz' : (fun a => win0_2.index t a * main_v0.ty.shape.size a) = fun _ => 0 := funext fun a => by
    match a with
    | ⟨0, _⟩ => show win0_2.index t 0 * _ = 0; rw [(index0_2 t).1, Nat.zero_mul]
    | ⟨1, _⟩ => show win0_2.index t 1 * _ = 0; rw [(index0_2 t).2, Nat.zero_mul]
  exact Memref.read_access_unit_zero (Elt Ideal) main_v0 hz' (fun a => by rw [congrFun hz' a]; simp) _

theorem iblk0_3_eq (c : Dev nD) (t : Fin cfg0.N) : (iblk0 V c 3 t : Vec Ideal S1x96 .f32) = (V c (Pipeline.arrRef spec0 3)) := by
  unfold iblk0
  have hz' : (fun a => win0_3.index t a * main_v15.ty.shape.size a) = fun _ => 0 := funext fun a => by
    match a with
    | ⟨0, _⟩ => show win0_3.index t 0 * _ = 0; rw [(index0_3 t).1, Nat.zero_mul]
    | ⟨1, _⟩ => show win0_3.index t 1 * _ = 0; rw [(index0_3 t).2, Nat.zero_mul]
  exact Memref.read_access_unit_zero (Elt Ideal) main_v15 hz' (fun a => by rw [congrFun hz' a]; simp) _

theorem iblk0_4_eq (c : Dev nD) (t : Fin cfg0.N) : (iblk0 V c 4 t : Vec Ideal S96x96 .bf16) = (V c (Pipeline.arrRef spec0 4)) := by
  unfold iblk0
  have hz' : (fun a => win0_4.index t a * main_v1.ty.shape.size a) = fun _ => 0 := funext fun a => by
    match a with
    | ⟨0, _⟩ => show win0_4.index t 0 * _ = 0; rw [(index0_4 t).1, Nat.zero_mul]
    | ⟨1, _⟩ => show win0_4.index t 1 * _ = 0; rw [(index0_4 t).2, Nat.zero_mul]
  exact Memref.read_access_unit_zero (Elt Ideal) main_v1 hz' (fun a => by rw [congrFun hz' a]; simp) _

theorem iblk0_5_eq (c : Dev nD) (t : Fin cfg0.N) : (iblk0 V c 5 t : Vec Ideal S1x96 .f32) = (V c (Pipeline.arrRef spec0 5)) := by
  unfold iblk0
  have hz' : (fun a => win0_5.index t a * main_v16.ty.shape.size a) = fun _ => 0 := funext fun a => by
    match a with
    | ⟨0, _⟩ => show win0_5.index t 0 * _ = 0; rw [(index0_5 t).1, Nat.zero_mul]
    | ⟨1, _⟩ => show win0_5.index t 1 * _ = 0; rw [(index0_5 t).2, Nat.zero_mul]
  exact Memref.read_access_unit_zero (Elt Ideal) main_v16 hz' (fun a => by rw [congrFun hz' a]; simp) _

/-! ## The h2 block at a point is its rows of the closed form -/

theorem h2At_apply (c : Dev nD) (t : Fin cfg0.N) (r : Fin 10000) (j : Fin 96) :
    h2At V c t (ix2 r j) = G0_h2 (V c (Pipeline.arrRef spec0 0)) (V c (Pipeline.arrRef spec0 1)) (V c (Pipeline.arrRef spec0 2)) (V c (Pipeline.arrRef spec0 3)) (V c (Pipeline.arrRef spec0 4)) (V c (Pipeline.arrRef spec0 5))
      (ix2 (⟨10000 * t.val + r.val, by have ht := t.isLt; have hN : cfg0.N = 5 := N_0; have := r.isLt; omega⟩ : Fin 50000) j) := by
  unfold h2At
  rw [pay5_apply, iblk0_2_eq, iblk0_3_eq, iblk0_4_eq, iblk0_5_eq]
  have e0 : (fun k : Fin 96 => (iblk0 V c 0 t : Vec Ideal S10000x96 .f32) (ix2 r k))
      = fun k => ((V c (Pipeline.arrRef spec0 0)) : Vec Ideal S50000x96 .f32) (ix2 (⟨10000 * t.val + r.val, by have ht := t.isLt; have hN : cfg0.N = 5 := N_0; have := r.isLt; omega⟩ : Fin 50000) k) :=
    funext fun k => iblk0_0_apply V c t (ix2 r k)
  have e1 : (fun k : Fin 96 => (iblk0 V c 1 t : Vec Ideal S10000x96 .f32) (ix2 r k))
      = fun k => ((V c (Pipeline.arrRef spec0 1)) : Vec Ideal S50000x96 .f32) (ix2 (⟨10000 * t.val + r.val, by have ht := t.isLt; have hN : cfg0.N = 5 := N_0; have := r.isLt; omega⟩ : Fin 50000) k) :=
    funext fun k => iblk0_1_apply V c t (ix2 r k)
  rw [e0, e1]
  rfl

/-! ## The running sums, point by point -/

theorem accS_zero_apply (c : Dev nD) (h : 0 < cfg0.N) (j : Fin 96) :
    accS V c 0 h (ix2 (0 : Fin 1) j) = ∑ r : Fin 10000, h2At V c ⟨0, h⟩ (ix2 r j) := by
  rw [show accS V c 0 h = k0_pay1 (k0_pay6 (iblk0 V c 0 ⟨0, h⟩) (iblk0 V c 1 ⟨0, h⟩) (iblk0 V c 2 ⟨0, h⟩) (iblk0 V c 3 ⟨0, h⟩) (iblk0 V c 4 ⟨0, h⟩) (iblk0 V c 5 ⟨0, h⟩) (k0_pay3 (F := Ideal))) from rfl, pay1_pay6_apply, pay3_apply, zero_add]
  rfl

theorem accS_succ_apply (c : Dev nD) (n : ℕ) (h : n + 1 < cfg0.N) (j : Fin 96) :
    accS V c (n + 1) h (ix2 (0 : Fin 1) j) = accS V c n (Nat.lt_of_succ_lt h) (ix2 (0 : Fin 1) j) + ∑ r : Fin 10000, h2At V c ⟨n + 1, h⟩ (ix2 r j) := by
  rw [show accS V c (n + 1) h = k0_pay1 (k0_pay6 (iblk0 V c 0 ⟨n + 1, h⟩) (iblk0 V c 1 ⟨n + 1, h⟩) (iblk0 V c 2 ⟨n + 1, h⟩) (iblk0 V c 3 ⟨n + 1, h⟩) (iblk0 V c 4 ⟨n + 1, h⟩) (iblk0 V c 5 ⟨n + 1, h⟩) (accS V c n (Nat.lt_of_succ_lt h))) from rfl, pay1_pay6_apply]
  rfl

theorem accQ_zero_apply (c : Dev nD) (h : 0 < cfg0.N) (j : Fin 96) :
    accQ V c 0 h (ix2 (0 : Fin 1) j) = ∑ r : Fin 10000, h2At V c ⟨0, h⟩ (ix2 r j) * h2At V c ⟨0, h⟩ (ix2 r j) := by
  rw [show accQ V c 0 h = k0_pay2 (h2At V c ⟨0, h⟩) (k0_pay4 (F := Ideal)) from rfl, pay2_apply, pay4_apply, zero_add]

theorem accQ_succ_apply (c : Dev nD) (n : ℕ) (h : n + 1 < cfg0.N) (j : Fin 96) :
    accQ V c (n + 1) h (ix2 (0 : Fin 1) j) = accQ V c n (Nat.lt_of_succ_lt h) (ix2 (0 : Fin 1) j)
      + ∑ r : Fin 10000, h2At V c ⟨n + 1, h⟩ (ix2 r j) * h2At V c ⟨n + 1, h⟩ (ix2 r j) := by
  rw [show accQ V c (n + 1) h = k0_pay2 (h2At V c ⟨n + 1, h⟩) (accQ V c n (Nat.lt_of_succ_lt h)) from rfl, pay2_apply]

/-! ## The three results -/

theorem h2At_apply' (c : Dev nD) (n : ℕ) (hn : n < cfg0.N) (r : Fin 10000) (j : Fin 96) (hlt : 10000 * n + r.val < 50000) :
    h2At V c ⟨n, hn⟩ (ix2 r j) = G0_h2 (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (ix2 (⟨10000 * n + r.val, hlt⟩ : Fin 50000) j) :=
  h2At_apply V c ⟨n, hn⟩ r j

/-- One block's column sum, over the closed form's rows. -/
theorem blockSum (c : Dev nD) (n : ℕ) (hn : n < cfg0.N) (j : Fin 96) (hb : ∀ r : Fin 10000, 10000 * n + r.val < 50000) :
    ∑ r : Fin 10000, h2At V c ⟨n, hn⟩ (ix2 r j)
      = ∑ r : Fin 10000, G0_h2 (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (ix2 (⟨10000 * n + r.val, hb r⟩ : Fin 50000) j) :=
  Finset.sum_congr rfl fun r _ => h2At_apply' V c n hn r j (hb r)

/-- One block's column sum of squares, over the closed form's rows. -/
theorem blockSumSq (c : Dev nD) (n : ℕ) (hn : n < cfg0.N) (j : Fin 96) (hb : ∀ r : Fin 10000, 10000 * n + r.val < 50000) :
    ∑ r : Fin 10000, h2At V c ⟨n, hn⟩ (ix2 r j) * h2At V c ⟨n, hn⟩ (ix2 r j)
      = ∑ r : Fin 10000, G0_h2 (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (ix2 (⟨10000 * n + r.val, hb r⟩ : Fin 50000) j)
          * G0_h2 (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (ix2 (⟨10000 * n + r.val, hb r⟩ : Fin 50000) j) :=
  Finset.sum_congr rfl fun r _ => by rw [h2At_apply' V c n hn r j (hb r)]

set_option maxHeartbeats 4000000 in
/-- The h2 result array after the region. -/
theorem final0_6 (c : Dev nD) : (dat0 V c).arrAt 6 cfg0.N = G0_h2 (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) := by
  rw [final_h2]
  funext i
  obtain ⟨R, j, rfl⟩ : ∃ (R : Fin 50000) (j : Fin 96), i = ix2 R j := ⟨i 0, i 1, eq_ix2 i⟩
  have hN : cfg0.N = 5 := N_0
  have hR := R.isLt
  have ht : R.val / 10000 < cfg0.N := by omega
  refine (stack0_at V c ⟨R.val / 10000, ht⟩ (ix2 (⟨R.val % 10000, Nat.mod_lt _ (by decide)⟩ : Fin 10000) j) (ix2 R j) ?_ rfl).trans ?_
  · show R.val = 10000 * (R.val / 10000) + R.val % 10000
    omega
  · rw [h2At_apply]
    congr 1
    funext a
    match a with
    | ⟨0, _⟩ => exact Fin.ext (by show 10000 * (R.val / 10000) + R.val % 10000 = R.val; omega)
    | ⟨1, _⟩ => rfl

set_option maxHeartbeats 4000000 in
/-- The column-sum result array after the region. -/
theorem final0_7 (c : Dev nD) : (dat0 V c).arrAt 7 cfg0.N = G0_sum (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) := by
  rw [final_sum]
  funext i
  obtain ⟨z, j, rfl⟩ : ∃ (z : Fin 1) (j : Fin 96), i = ix2 z j := ⟨i 0, i 1, eq_ix2 i⟩
  obtain rfl : z = 0 := Subsingleton.elim _ _
  show accS V c 4 lt4 (ix2 (0 : Fin 1) j) = ∑ R : Fin 50000, G0_h2 (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (ix2 R j)
  rw [accS_succ_apply V c 3, accS_succ_apply V c 2, accS_succ_apply V c 1, accS_succ_apply V c 0, accS_zero_apply]
  refine Eq.trans ?_ (sum_five_blocks (fun R : Fin 50000 => G0_h2 (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (ix2 R j))).symm
  exact congrArg₂ (· + ·) (congrArg₂ (· + ·) (congrArg₂ (· + ·) (congrArg₂ (· + ·)
    (blockSum V c 0 _ j (fun r => by have := r.isLt; omega)) (blockSum V c 1 _ j (fun r => by have := r.isLt; omega)))
    (blockSum V c 2 _ j (fun r => by have := r.isLt; omega))) (blockSum V c 3 _ j (fun r => by have := r.isLt; omega)))
    (blockSum V c 4 _ j (fun r => by have := r.isLt; omega))

set_option maxHeartbeats 4000000 in
/-- The column-sum-of-squares result array after the region. -/
theorem final0_8 (c : Dev nD) : (dat0 V c).arrAt 8 cfg0.N = G0_sumsq (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) := by
  rw [final_sumsq]
  funext i
  obtain ⟨z, j, rfl⟩ : ∃ (z : Fin 1) (j : Fin 96), i = ix2 z j := ⟨i 0, i 1, eq_ix2 i⟩
  obtain rfl : z = 0 := Subsingleton.elim _ _
  show accQ V c 4 lt4 (ix2 (0 : Fin 1) j) = ∑ R : Fin 50000, G0_h2 (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (ix2 R j) * G0_h2 (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (ix2 R j)
  rw [accQ_succ_apply V c 3, accQ_succ_apply V c 2, accQ_succ_apply V c 1, accQ_succ_apply V c 0, accQ_zero_apply]
  refine Eq.trans ?_ (sum_five_blocks (fun R : Fin 50000 => G0_h2 (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (ix2 R j) * G0_h2 (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (ix2 R j))).symm
  exact congrArg₂ (· + ·) (congrArg₂ (· + ·) (congrArg₂ (· + ·) (congrArg₂ (· + ·)
    (blockSumSq V c 0 _ j (fun r => by have := r.isLt; omega)) (blockSumSq V c 1 _ j (fun r => by have := r.isLt; omega)))
    (blockSumSq V c 2 _ j (fun r => by have := r.isLt; omega))) (blockSumSq V c 3 _ j (fun r => by have := r.isLt; omega)))
    (blockSumSq V c 4 _ j (fun r => by have := r.isLt; omega))

end
end Cert.KernelIdeal.HandValue
end
-- ==== Proof.Reg0ValueLink.lean ====
import proofs.«111056_j31628139167864_2_alg».proof.Proof.Reg0Value
import proofs.«111056_j31628139167864_2_alg».proof.Proof.NetSpec
import Idealize.ShloMosaic.Lib.StackMember
import Idealize.ShloMosaic.Lib.KernelVsHost
import Idealize.ShloMosaic.Lib.ValueLayout
import Idealize.ShloMosaic.Lib.ValueIdx
import Idealize.ShloMosaic.PureOps.Ideal.Laws
import Mathlib.Algebra.BigOperators.Fin
set_option maxRecDepth 16384
set_option pp.maxSteps 20000
set_option pp.deepTerms false
set_option pp.proofs false
noncomputable section
open scoped BigOperators
open Idealize.ShloMosaic Idealize.ShloMosaic.TcCoe Idealize.SL.Sem Idealize.ShloMosaic.Tactic
open Idealize.ShloMosaic.Pipeline (Dat)
open Idealize.ShloMosaic.ValueIdx
namespace Cert.KernelIdeal.HandValue
open Cert.KernelIdeal Cert.KernelIdeal.Gen Cert.KernelIdeal.Hand

/-! # Region 0's closed forms are the layer specification's perceptron and its column sums -/

/-- h2, as a matrix of entries, is the specification's perceptron on the rows `2·h + agg`. -/
theorem G0_h2_spec (h agg : FVec Ideal S50000x96 .f32) (Wa : FVec Ideal S96x96 .bf16) (ba : FVec Ideal S1x96 .f32)
    (Wb : FVec Ideal S96x96 .bf16) (bb : FVec Ideal S1x96 .f32) :
    (fun (r : Fin 50000) (j : Fin 96) => G0_h2 h agg Wa ba Wb bb (ix2 r j))
      = Cert.NetSpec.mlp (fun (r : Fin 50000) (l : Fin 96) => two * h (ix2 r l) + agg (ix2 r l)) (fun k m => Wa (ix2 k m))
          (fun m => ba (ix2 (0 : Fin 1) m)) (fun m j => Wb (ix2 m j)) (fun j => bb (ix2 (0 : Fin 1) j)) := rfl

/-- The column-sum result, as a row of entries, is the specification's column sum of that perceptron. -/
theorem G0_sum_spec (h agg : FVec Ideal S50000x96 .f32) (Wa : FVec Ideal S96x96 .bf16) (ba : FVec Ideal S1x96 .f32)
    (Wb : FVec Ideal S96x96 .bf16) (bb : FVec Ideal S1x96 .f32) :
    (fun (j : Fin 96) => G0_sum h agg Wa ba Wb bb (ix2 (0 : Fin 1) j))
      = Cert.NetSpec.colSum (Cert.NetSpec.mlp (fun (r : Fin 50000) (l : Fin 96) => two * h (ix2 r l) + agg (ix2 r l)) (fun k m => Wa (ix2 k m))
          (fun m => ba (ix2 (0 : Fin 1) m)) (fun m j => Wb (ix2 m j)) (fun j => bb (ix2 (0 : Fin 1) j))) := rfl

/-- The column-sum-of-squares result likewise. -/
theorem G0_sumsq_spec (h agg : FVec Ideal S50000x96 .f32) (Wa : FVec Ideal S96x96 .bf16) (ba : FVec Ideal S1x96 .f32)
    (Wb : FVec Ideal S96x96 .bf16) (bb : FVec Ideal S1x96 .f32) :
    (fun (j : Fin 96) => G0_sumsq h agg Wa ba Wb bb (ix2 (0 : Fin 1) j))
      = Cert.NetSpec.colSumSq (Cert.NetSpec.mlp (fun (r : Fin 50000) (l : Fin 96) => two * h (ix2 r l) + agg (ix2 r l)) (fun k m => Wa (ix2 k m))
          (fun m => ba (ix2 (0 : Fin 1) m)) (fun m j => Wb (ix2 m j)) (fun j => bb (ix2 (0 : Fin 1) j))) := rfl

end Cert.KernelIdeal.HandValue
end
-- ==== Proof.Reg2ValuePieces.lean ====
import proofs.«111056_j31628139167864_2_alg».proof.Proof.Reg2
import proofs.«111056_j31628139167864_2_alg».proof.Proof.RegValueLib
import Idealize.ShloMosaic.Lib.Pipeline.Value
import Idealize.ShloMosaic.Lib.Tactic
set_option maxRecDepth 16384
set_option pp.maxSteps 20000
set_option pp.deepTerms false
set_option pp.proofs false
noncomputable section
open Idealize.ShloMosaic Idealize.ShloMosaic.TcCoe Idealize.SL.Sem Idealize.ShloMosaic.Tactic
open Idealize.ShloMosaic.Pipeline (Dat)
namespace Cert.KernelIdeal.HandValue
open Cert.KernelIdeal Cert.KernelIdeal.Gen Cert.KernelIdeal.Hand
variable {F : FTy → Type} [FloatOps F]

/-! # Region 2's value: what each case stores, piece by piece, as the payloads of its stores (any float instance) -/

theorem out2_A_6_eq (c : Dev nD) (i : grid2.Coords) (arg1 : Memref sig .tc .vmem S10000x96 .f32) (harg1 : arg1.IsWhole) (arg2 : Memref sig .tc .vmem S10000x96 .f32) (harg2 : arg2.IsWhole) (arg3 : Memref sig .tc .vmem S96x96 .bf16) (harg3 : arg3.IsWhole) (arg4 : Memref sig .tc .vmem S1x96 .f32) (harg4 : arg4.IsWhole) (arg5 : Memref sig .tc .vmem S96x96 .bf16) (harg5 : arg5.IsWhole) (arg6 : Memref sig .tc .vmem S1x96 .f32) (harg6 : arg6.IsWhole) (arg7 : Memref sig .tc .vmem S10000x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (arg11 : Memref sig .tc .vmem S1x96 .f32) (harg11 : arg11.IsWhole) (hc0 : cond2_0 i) (hc1 : ¬cond2_1 i)
    (x0 : Vec F S10000x96 .f32) (x1 : Vec F S10000x96 .f32) (x2 : Vec F S96x96 .bf16) (x3 : Vec F S1x96 .f32) (x4 : Vec F S96x96 .bf16) (x5 : Vec F S1x96 .f32) : out2_A_6 c i arg1 harg1 arg2 harg2 arg3 harg3 arg4 harg4 arg5 harg5 arg6 harg6 arg7 harg7 arg8 harg8 arg9 harg9 arg10 harg10 arg11 harg11 hc0 hc1 x0 x1 x2 x3 x4 x5 = k2_pay5 x0 x1 x2 x3 x4 x5 := by
  unfold out2_A_6
  rw [View.read_writes_eq_canon _ _ _ (cover2_A_6 c i arg1 harg1 arg2 harg2 arg3 harg3 arg4 harg4 arg5 harg5 arg6 harg6 arg7 harg7 arg8 harg8 arg9 harg9 arg10 harg10 arg11 harg11 hc0 hc1 x0 x1 x2 x3 x4 x5)]
  unfold kernelRun2_A
  dsimp only
  sl_unfold_words
  first
    | rw [View.canon_cons_unit_zero (S := S10000x96) hzz]
    | rw [View.canon_unit_zero hzz]
  (try rw [View.readCov_unit_zero (S := S1x96) _ hzz])
  simp only [View.readAt_eq_ld, harg1.read_unread, harg2.read_unread, harg3.read_unread, harg4.read_unread, harg5.read_unread, harg6.read_unread, harg10.read_unread, harg11.read_unread, View.ld_unit_zero (S := S10000x96) hzz, View.ld_unit_zero (S := S96x96) hzz, View.ld_unit_zero (S := S1x96) hzz]

theorem sout2_A_0_eq (c : Dev nD) (i : grid2.Coords) (arg1 : Memref sig .tc .vmem S10000x96 .f32) (harg1 : arg1.IsWhole) (arg2 : Memref sig .tc .vmem S10000x96 .f32) (harg2 : arg2.IsWhole) (arg3 : Memref sig .tc .vmem S96x96 .bf16) (harg3 : arg3.IsWhole) (arg4 : Memref sig .tc .vmem S1x96 .f32) (harg4 : arg4.IsWhole) (arg5 : Memref sig .tc .vmem S96x96 .bf16) (harg5 : arg5.IsWhole) (arg6 : Memref sig .tc .vmem S1x96 .f32) (harg6 : arg6.IsWhole) (arg7 : Memref sig .tc .vmem S10000x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (arg11 : Memref sig .tc .vmem S1x96 .f32) (harg11 : arg11.IsWhole) (hc0 : cond2_0 i) (hc1 : ¬cond2_1 i)
    (x0 : Vec F S10000x96 .f32) (x1 : Vec F S10000x96 .f32) (x2 : Vec F S96x96 .bf16) (x3 : Vec F S1x96 .f32) (x4 : Vec F S96x96 .bf16) (x5 : Vec F S1x96 .f32) : sout2_A_0 c i arg1 harg1 arg2 harg2 arg3 harg3 arg4 harg4 arg5 harg5 arg6 harg6 arg7 harg7 arg8 harg8 arg9 harg9 arg10 harg10 arg11 harg11 hc0 hc1 x0 x1 x2 x3 x4 x5 = k2_pay1 (k2_pay6 x0 x1 x2 x3 x4 x5 (k2_pay3 (F := F))) := by
  unfold sout2_A_0
  rw [View.read_writes_eq_canon _ _ _ (scover2_A_0 c i arg1 harg1 arg2 harg2 arg3 harg3 arg4 harg4 arg5 harg5 arg6 harg6 arg7 harg7 arg8 harg8 arg9 harg9 arg10 harg10 arg11 harg11 hc0 hc1 x0 x1 x2 x3 x4 x5)]
  unfold kernelRun2_A
  dsimp only
  sl_unfold_words
  first
    | rw [View.canon_cons_unit_zero (S := S1x96) hzz]
    | rw [View.canon_unit_zero hzz]
  (try rw [View.readCov_unit_zero (S := S1x96) _ hzz])
  simp only [View.readAt_eq_ld, harg1.read_unread, harg2.read_unread, harg3.read_unread, harg4.read_unread, harg5.read_unread, harg6.read_unread, harg10.read_unread, harg11.read_unread, View.ld_unit_zero (S := S10000x96) hzz, View.ld_unit_zero (S := S96x96) hzz, View.ld_unit_zero (S := S1x96) hzz]

theorem sout2_A_1_eq (c : Dev nD) (i : grid2.Coords) (arg1 : Memref sig .tc .vmem S10000x96 .f32) (harg1 : arg1.IsWhole) (arg2 : Memref sig .tc .vmem S10000x96 .f32) (harg2 : arg2.IsWhole) (arg3 : Memref sig .tc .vmem S96x96 .bf16) (harg3 : arg3.IsWhole) (arg4 : Memref sig .tc .vmem S1x96 .f32) (harg4 : arg4.IsWhole) (arg5 : Memref sig .tc .vmem S96x96 .bf16) (harg5 : arg5.IsWhole) (arg6 : Memref sig .tc .vmem S1x96 .f32) (harg6 : arg6.IsWhole) (arg7 : Memref sig .tc .vmem S10000x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (arg11 : Memref sig .tc .vmem S1x96 .f32) (harg11 : arg11.IsWhole) (hc0 : cond2_0 i) (hc1 : ¬cond2_1 i)
    (x0 : Vec F S10000x96 .f32) (x1 : Vec F S10000x96 .f32) (x2 : Vec F S96x96 .bf16) (x3 : Vec F S1x96 .f32) (x4 : Vec F S96x96 .bf16) (x5 : Vec F S1x96 .f32) : sout2_A_1 c i arg1 harg1 arg2 harg2 arg3 harg3 arg4 harg4 arg5 harg5 arg6 harg6 arg7 harg7 arg8 harg8 arg9 harg9 arg10 harg10 arg11 harg11 hc0 hc1 x0 x1 x2 x3 x4 x5 = k2_pay2 (k2_pay5 x0 x1 x2 x3 x4 x5) (k2_pay4 (F := F)) := by
  unfold sout2_A_1
  rw [View.read_writes_eq_canon _ _ _ (scover2_A_1 c i arg1 harg1 arg2 harg2 arg3 harg3 arg4 harg4 arg5 harg5 arg6 harg6 arg7 harg7 arg8 harg8 arg9 harg9 arg10 harg10 arg11 harg11 hc0 hc1 x0 x1 x2 x3 x4 x5)]
  unfold kernelRun2_A
  dsimp only
  sl_unfold_words
  first
    | rw [View.canon_cons_unit_zero (S := S1x96) hzz]
    | rw [View.canon_unit_zero hzz]
  (try rw [View.readCov_unit_zero (S := S1x96) _ hzz])
  simp only [View.readAt_eq_ld, harg1.read_unread, harg2.read_unread, harg3.read_unread, harg4.read_unread, harg5.read_unread, harg6.read_unread, harg10.read_unread, harg11.read_unread, View.ld_unit_zero (S := S10000x96) hzz, View.ld_unit_zero (S := S96x96) hzz, View.ld_unit_zero (S := S1x96) hzz]

theorem out2_B_6_eq (c : Dev nD) (i : grid2.Coords) (arg1 : Memref sig .tc .vmem S10000x96 .f32) (harg1 : arg1.IsWhole) (arg2 : Memref sig .tc .vmem S10000x96 .f32) (harg2 : arg2.IsWhole) (arg3 : Memref sig .tc .vmem S96x96 .bf16) (harg3 : arg3.IsWhole) (arg4 : Memref sig .tc .vmem S1x96 .f32) (harg4 : arg4.IsWhole) (arg5 : Memref sig .tc .vmem S96x96 .bf16) (harg5 : arg5.IsWhole) (arg6 : Memref sig .tc .vmem S1x96 .f32) (harg6 : arg6.IsWhole) (arg7 : Memref sig .tc .vmem S10000x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (arg11 : Memref sig .tc .vmem S1x96 .f32) (harg11 : arg11.IsWhole) (hc0 : ¬cond2_0 i) (hc1 : ¬cond2_1 i)
    (x0 : Vec F S10000x96 .f32) (x1 : Vec F S10000x96 .f32) (x2 : Vec F S96x96 .bf16) (x3 : Vec F S1x96 .f32) (x4 : Vec F S96x96 .bf16) (x5 : Vec F S1x96 .f32) (xs0 : Vec F S1x96 .f32) (xs1 : Vec F S1x96 .f32) : out2_B_6 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k2_pay5 x0 x1 x2 x3 x4 x5 := by
  unfold out2_B_6
  rw [View.read_writes_eq_canon _ _ _ (cover2_B_6 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun2_B
  dsimp only
  sl_unfold_words
  first
    | rw [View.canon_cons_unit_zero (S := S10000x96) hzz]
    | rw [View.canon_unit_zero hzz]
  (try rw [View.readCov_unit_zero (S := S1x96) _ hzz])
  simp only [View.readAt_eq_ld, harg1.read_unread, harg2.read_unread, harg3.read_unread, harg4.read_unread, harg5.read_unread, harg6.read_unread, harg10.read_unread, harg11.read_unread, View.ld_unit_zero (S := S10000x96) hzz, View.ld_unit_zero (S := S96x96) hzz, View.ld_unit_zero (S := S1x96) hzz]

theorem sout2_B_0_eq (c : Dev nD) (i : grid2.Coords) (arg1 : Memref sig .tc .vmem S10000x96 .f32) (harg1 : arg1.IsWhole) (arg2 : Memref sig .tc .vmem S10000x96 .f32) (harg2 : arg2.IsWhole) (arg3 : Memref sig .tc .vmem S96x96 .bf16) (harg3 : arg3.IsWhole) (arg4 : Memref sig .tc .vmem S1x96 .f32) (harg4 : arg4.IsWhole) (arg5 : Memref sig .tc .vmem S96x96 .bf16) (harg5 : arg5.IsWhole) (arg6 : Memref sig .tc .vmem S1x96 .f32) (harg6 : arg6.IsWhole) (arg7 : Memref sig .tc .vmem S10000x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (arg11 : Memref sig .tc .vmem S1x96 .f32) (harg11 : arg11.IsWhole) (hc0 : ¬cond2_0 i) (hc1 : ¬cond2_1 i)
    (x0 : Vec F S10000x96 .f32) (x1 : Vec F S10000x96 .f32) (x2 : Vec F S96x96 .bf16) (x3 : Vec F S1x96 .f32) (x4 : Vec F S96x96 .bf16) (x5 : Vec F S1x96 .f32) (xs0 : Vec F S1x96 .f32) (xs1 : Vec F S1x96 .f32) : sout2_B_0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k2_pay1 (k2_pay6 x0 x1 x2 x3 x4 x5 xs0) := by
  unfold sout2_B_0
  rw [View.read_writes_eq_canon _ _ _ (scover2_B_0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun2_B
  dsimp only
  sl_unfold_words
  first
    | rw [View.canon_cons_unit_zero (S := S1x96) hzz]
    | rw [View.canon_unit_zero hzz]
  (try rw [View.readCov_unit_zero (S := S1x96) _ hzz])
  simp only [View.readAt_eq_ld, harg1.read_unread, harg2.read_unread, harg3.read_unread, harg4.read_unread, harg5.read_unread, harg6.read_unread, harg10.read_unread, harg11.read_unread, View.ld_unit_zero (S := S10000x96) hzz, View.ld_unit_zero (S := S96x96) hzz, View.ld_unit_zero (S := S1x96) hzz]

theorem sout2_B_1_eq (c : Dev nD) (i : grid2.Coords) (arg1 : Memref sig .tc .vmem S10000x96 .f32) (harg1 : arg1.IsWhole) (arg2 : Memref sig .tc .vmem S10000x96 .f32) (harg2 : arg2.IsWhole) (arg3 : Memref sig .tc .vmem S96x96 .bf16) (harg3 : arg3.IsWhole) (arg4 : Memref sig .tc .vmem S1x96 .f32) (harg4 : arg4.IsWhole) (arg5 : Memref sig .tc .vmem S96x96 .bf16) (harg5 : arg5.IsWhole) (arg6 : Memref sig .tc .vmem S1x96 .f32) (harg6 : arg6.IsWhole) (arg7 : Memref sig .tc .vmem S10000x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (arg11 : Memref sig .tc .vmem S1x96 .f32) (harg11 : arg11.IsWhole) (hc0 : ¬cond2_0 i) (hc1 : ¬cond2_1 i)
    (x0 : Vec F S10000x96 .f32) (x1 : Vec F S10000x96 .f32) (x2 : Vec F S96x96 .bf16) (x3 : Vec F S1x96 .f32) (x4 : Vec F S96x96 .bf16) (x5 : Vec F S1x96 .f32) (xs0 : Vec F S1x96 .f32) (xs1 : Vec F S1x96 .f32) : sout2_B_1 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k2_pay2 (k2_pay5 x0 x1 x2 x3 x4 x5) xs1 := by
  unfold sout2_B_1
  rw [View.read_writes_eq_canon _ _ _ (scover2_B_1 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun2_B
  dsimp only
  sl_unfold_words
  first
    | rw [View.canon_cons_unit_zero (S := S1x96) hzz]
    | rw [View.canon_unit_zero hzz]
  (try rw [View.readCov_unit_zero (S := S1x96) _ hzz])
  simp only [View.readAt_eq_ld, harg1.read_unread, harg2.read_unread, harg3.read_unread, harg4.read_unread, harg5.read_unread, harg6.read_unread, harg10.read_unread, harg11.read_unread, View.ld_unit_zero (S := S10000x96) hzz, View.ld_unit_zero (S := S96x96) hzz, View.ld_unit_zero (S := S1x96) hzz]

theorem out2_C_6_eq (c : Dev nD) (i : grid2.Coords) (arg1 : Memref sig .tc .vmem S10000x96 .f32) (harg1 : arg1.IsWhole) (arg2 : Memref sig .tc .vmem S10000x96 .f32) (harg2 : arg2.IsWhole) (arg3 : Memref sig .tc .vmem S96x96 .bf16) (harg3 : arg3.IsWhole) (arg4 : Memref sig .tc .vmem S1x96 .f32) (harg4 : arg4.IsWhole) (arg5 : Memref sig .tc .vmem S96x96 .bf16) (harg5 : arg5.IsWhole) (arg6 : Memref sig .tc .vmem S1x96 .f32) (harg6 : arg6.IsWhole) (arg7 : Memref sig .tc .vmem S10000x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (arg11 : Memref sig .tc .vmem S1x96 .f32) (harg11 : arg11.IsWhole) (hc0 : ¬cond2_0 i) (hc1 : cond2_1 i)
    (x0 : Vec F S10000x96 .f32) (x1 : Vec F S10000x96 .f32) (x2 : Vec F S96x96 .bf16) (x3 : Vec F S1x96 .f32) (x4 : Vec F S96x96 .bf16) (x5 : Vec F S1x96 .f32) (xs0 : Vec F S1x96 .f32) (xs1 : Vec F S1x96 .f32) : out2_C_6 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k2_pay5 x0 x1 x2 x3 x4 x5 := by
  unfold out2_C_6
  rw [View.read_writes_eq_canon _ _ _ (cover2_C_6 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun2_C
  dsimp only
  sl_unfold_words
  first
    | rw [View.canon_cons_unit_zero (S := S10000x96) hzz]
    | rw [View.canon_unit_zero hzz]
  (try rw [View.readCov_unit_zero (S := S1x96) _ hzz])
  simp only [View.readAt_eq_ld, harg1.read_unread, harg2.read_unread, harg3.read_unread, harg4.read_unread, harg5.read_unread, harg6.read_unread, harg10.read_unread, harg11.read_unread, View.ld_unit_zero (S := S10000x96) hzz, View.ld_unit_zero (S := S96x96) hzz, View.ld_unit_zero (S := S1x96) hzz]

theorem out2_C_7_eq (c : Dev nD) (i : grid2.Coords) (arg1 : Memref sig .tc .vmem S10000x96 .f32) (harg1 : arg1.IsWhole) (arg2 : Memref sig .tc .vmem S10000x96 .f32) (harg2 : arg2.IsWhole) (arg3 : Memref sig .tc .vmem S96x96 .bf16) (harg3 : arg3.IsWhole) (arg4 : Memref sig .tc .vmem S1x96 .f32) (harg4 : arg4.IsWhole) (arg5 : Memref sig .tc .vmem S96x96 .bf16) (harg5 : arg5.IsWhole) (arg6 : Memref sig .tc .vmem S1x96 .f32) (harg6 : arg6.IsWhole) (arg7 : Memref sig .tc .vmem S10000x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (arg11 : Memref sig .tc .vmem S1x96 .f32) (harg11 : arg11.IsWhole) (hc0 : ¬cond2_0 i) (hc1 : cond2_1 i)
    (x0 : Vec F S10000x96 .f32) (x1 : Vec F S10000x96 .f32) (x2 : Vec F S96x96 .bf16) (x3 : Vec F S1x96 .f32) (x4 : Vec F S96x96 .bf16) (x5 : Vec F S1x96 .f32) (xs0 : Vec F S1x96 .f32) (xs1 : Vec F S1x96 .f32) : out2_C_7 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k2_pay1 (k2_pay6 x0 x1 x2 x3 x4 x5 xs0) := by
  unfold out2_C_7
  rw [View.read_writes_eq_canon _ _ _ (cover2_C_7 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun2_C
  dsimp only
  sl_unfold_words
  first
    | rw [View.canon_cons_unit_zero (S := S1x96) hzz]
    | rw [View.canon_unit_zero hzz]
  (try rw [View.readCov_unit_zero (S := S1x96) _ hzz])
  simp only [View.readAt_eq_ld, harg1.read_unread, harg2.read_unread, harg3.read_unread, harg4.read_unread, harg5.read_unread, harg6.read_unread, harg10.read_unread, harg11.read_unread, View.ld_unit_zero (S := S10000x96) hzz, View.ld_unit_zero (S := S96x96) hzz, View.ld_unit_zero (S := S1x96) hzz]

theorem out2_C_8_eq (c : Dev nD) (i : grid2.Coords) (arg1 : Memref sig .tc .vmem S10000x96 .f32) (harg1 : arg1.IsWhole) (arg2 : Memref sig .tc .vmem S10000x96 .f32) (harg2 : arg2.IsWhole) (arg3 : Memref sig .tc .vmem S96x96 .bf16) (harg3 : arg3.IsWhole) (arg4 : Memref sig .tc .vmem S1x96 .f32) (harg4 : arg4.IsWhole) (arg5 : Memref sig .tc .vmem S96x96 .bf16) (harg5 : arg5.IsWhole) (arg6 : Memref sig .tc .vmem S1x96 .f32) (harg6 : arg6.IsWhole) (arg7 : Memref sig .tc .vmem S10000x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (arg11 : Memref sig .tc .vmem S1x96 .f32) (harg11 : arg11.IsWhole) (hc0 : ¬cond2_0 i) (hc1 : cond2_1 i)
    (x0 : Vec F S10000x96 .f32) (x1 : Vec F S10000x96 .f32) (x2 : Vec F S96x96 .bf16) (x3 : Vec F S1x96 .f32) (x4 : Vec F S96x96 .bf16) (x5 : Vec F S1x96 .f32) (xs0 : Vec F S1x96 .f32) (xs1 : Vec F S1x96 .f32) : out2_C_8 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k2_pay2 (k2_pay5 x0 x1 x2 x3 x4 x5) xs1 := by
  unfold out2_C_8
  rw [View.read_writes_eq_canon _ _ _ (cover2_C_8 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun2_C
  dsimp only
  sl_unfold_words
  first
    | rw [View.canon_cons_unit_zero (S := S1x96) hzz]
    | rw [View.canon_unit_zero hzz]
  (try rw [View.readCov_unit_zero (S := S1x96) _ hzz])
  simp only [View.readAt_eq_ld, harg1.read_unread, harg2.read_unread, harg3.read_unread, harg4.read_unread, harg5.read_unread, harg6.read_unread, harg10.read_unread, harg11.read_unread, View.ld_unit_zero (S := S10000x96) hzz, View.ld_unit_zero (S := S96x96) hzz, View.ld_unit_zero (S := S1x96) hzz]

theorem sout2_C_0_eq (c : Dev nD) (i : grid2.Coords) (arg1 : Memref sig .tc .vmem S10000x96 .f32) (harg1 : arg1.IsWhole) (arg2 : Memref sig .tc .vmem S10000x96 .f32) (harg2 : arg2.IsWhole) (arg3 : Memref sig .tc .vmem S96x96 .bf16) (harg3 : arg3.IsWhole) (arg4 : Memref sig .tc .vmem S1x96 .f32) (harg4 : arg4.IsWhole) (arg5 : Memref sig .tc .vmem S96x96 .bf16) (harg5 : arg5.IsWhole) (arg6 : Memref sig .tc .vmem S1x96 .f32) (harg6 : arg6.IsWhole) (arg7 : Memref sig .tc .vmem S10000x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (arg11 : Memref sig .tc .vmem S1x96 .f32) (harg11 : arg11.IsWhole) (hc0 : ¬cond2_0 i) (hc1 : cond2_1 i)
    (x0 : Vec F S10000x96 .f32) (x1 : Vec F S10000x96 .f32) (x2 : Vec F S96x96 .bf16) (x3 : Vec F S1x96 .f32) (x4 : Vec F S96x96 .bf16) (x5 : Vec F S1x96 .f32) (xs0 : Vec F S1x96 .f32) (xs1 : Vec F S1x96 .f32) : sout2_C_0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k2_pay1 (k2_pay6 x0 x1 x2 x3 x4 x5 xs0) := by
  unfold sout2_C_0
  rw [View.read_writes_eq_canon _ _ _ (scover2_C_0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun2_C
  dsimp only
  sl_unfold_words
  first
    | rw [View.canon_cons_unit_zero (S := S1x96) hzz]
    | rw [View.canon_unit_zero hzz]
  (try rw [View.readCov_unit_zero (S := S1x96) _ hzz])
  simp only [View.readAt_eq_ld, harg1.read_unread, harg2.read_unread, harg3.read_unread, harg4.read_unread, harg5.read_unread, harg6.read_unread, harg10.read_unread, harg11.read_unread, View.ld_unit_zero (S := S10000x96) hzz, View.ld_unit_zero (S := S96x96) hzz, View.ld_unit_zero (S := S1x96) hzz]

theorem sout2_C_1_eq (c : Dev nD) (i : grid2.Coords) (arg1 : Memref sig .tc .vmem S10000x96 .f32) (harg1 : arg1.IsWhole) (arg2 : Memref sig .tc .vmem S10000x96 .f32) (harg2 : arg2.IsWhole) (arg3 : Memref sig .tc .vmem S96x96 .bf16) (harg3 : arg3.IsWhole) (arg4 : Memref sig .tc .vmem S1x96 .f32) (harg4 : arg4.IsWhole) (arg5 : Memref sig .tc .vmem S96x96 .bf16) (harg5 : arg5.IsWhole) (arg6 : Memref sig .tc .vmem S1x96 .f32) (harg6 : arg6.IsWhole) (arg7 : Memref sig .tc .vmem S10000x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (arg11 : Memref sig .tc .vmem S1x96 .f32) (harg11 : arg11.IsWhole) (hc0 : ¬cond2_0 i) (hc1 : cond2_1 i)
    (x0 : Vec F S10000x96 .f32) (x1 : Vec F S10000x96 .f32) (x2 : Vec F S96x96 .bf16) (x3 : Vec F S1x96 .f32) (x4 : Vec F S96x96 .bf16) (x5 : Vec F S1x96 .f32) (xs0 : Vec F S1x96 .f32) (xs1 : Vec F S1x96 .f32) : sout2_C_1 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k2_pay2 (k2_pay5 x0 x1 x2 x3 x4 x5) xs1 := by
  unfold sout2_C_1
  rw [View.read_writes_eq_canon _ _ _ (scover2_C_1 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun2_C
  dsimp only
  sl_unfold_words
  first
    | rw [View.canon_cons_unit_zero (S := S1x96) hzz]
    | rw [View.canon_unit_zero hzz]
  (try rw [View.readCov_unit_zero (S := S1x96) _ hzz])
  simp only [View.readAt_eq_ld, harg1.read_unread, harg2.read_unread, harg3.read_unread, harg4.read_unread, harg5.read_unread, harg6.read_unread, harg10.read_unread, harg11.read_unread, View.ld_unit_zero (S := S10000x96) hzz, View.ld_unit_zero (S := S96x96) hzz, View.ld_unit_zero (S := S1x96) hzz]

end Cert.KernelIdeal.HandValue
end
-- ==== Proof.Reg2ValueChain.lean ====
import proofs.«111056_j31628139167864_2_alg».proof.Proof.Reg2ValuePieces
set_option maxRecDepth 16384
set_option pp.maxSteps 20000
set_option pp.deepTerms false
set_option pp.proofs false
noncomputable section
open Idealize.ShloMosaic Idealize.ShloMosaic.TcCoe Idealize.SL.Sem Idealize.ShloMosaic.Tactic
open Idealize.ShloMosaic.Pipeline (Dat)
namespace Cert.KernelIdeal.HandValue
open Cert.KernelIdeal Cert.KernelIdeal.Gen Cert.KernelIdeal.Hand
variable {F : FTy → Type} [FloatOps F]

/-! # Region 2's value: the h2 block and the two running column sums after each point (any float instance) -/

section
variable (V : (c : Dev nD) → (b : Ref sig .tc) → Buf (Elt F) ((c : Thread nD τ).loc b))

/-- The h2 block the body stores at point `t`: the MLP of the point's input blocks. -/
def h2At2 (c : Dev nD) (t : Fin cfg2.N) : Vec F S10000x96 .f32 := k2_pay5 (iblk2 V c 0 t) (iblk2 V c 1 t) (iblk2 V c 2 t) (iblk2 V c 3 t) (iblk2 V c 4 t) (iblk2 V c 5 t)

/-- The running column sum of h2 after point `n`: zero plus the first block's column sums, then one block's more per point. -/
def accS2 (c : Dev nD) : (n : ℕ) → n < cfg2.N → Vec F S1x96 .f32
  | 0, h => k2_pay1 (k2_pay6 (iblk2 V c 0 ⟨0, h⟩) (iblk2 V c 1 ⟨0, h⟩) (iblk2 V c 2 ⟨0, h⟩) (iblk2 V c 3 ⟨0, h⟩) (iblk2 V c 4 ⟨0, h⟩) (iblk2 V c 5 ⟨0, h⟩) (k2_pay3 (F := F)))
  | n + 1, h => k2_pay1 (k2_pay6 (iblk2 V c 0 ⟨n + 1, h⟩) (iblk2 V c 1 ⟨n + 1, h⟩) (iblk2 V c 2 ⟨n + 1, h⟩) (iblk2 V c 3 ⟨n + 1, h⟩) (iblk2 V c 4 ⟨n + 1, h⟩) (iblk2 V c 5 ⟨n + 1, h⟩) (accS2 c n (Nat.lt_of_succ_lt h)))

/-- The running column sum of h2's squares after point `n`. -/
def accQ2 (c : Dev nD) : (n : ℕ) → n < cfg2.N → Vec F S1x96 .f32
  | 0, h => k2_pay2 (h2At2 V c ⟨0, h⟩) (k2_pay4 (F := F))
  | n + 1, h => k2_pay2 (h2At2 V c ⟨n + 1, h⟩) (accQ2 c n (Nat.lt_of_succ_lt h))

/-- What the buffers hold after point `n`, by induction on the point: the h2 output's buffer the point's h2 block, the two
    accumulators the running sums, and at the last point the two statistics outputs' buffers those sums too. -/
theorem outsAt2_inv (c : Dev nD) : ∀ (n : ℕ) (h : n < cfg2.N),
    (outsAt2 V c n h).1 = h2At2 V c ⟨n, h⟩ ∧ (outsAt2 V c n h).2.2.2.1 = accS2 V c n h ∧ (outsAt2 V c n h).2.2.2.2 = accQ2 V c n h
      ∧ (n = 4 → (outsAt2 V c n h).2.1 = accS2 V c n h ∧ (outsAt2 V c n h).2.2.1 = accQ2 V c n h)
  | 0, h => by
    rw [outsAt2_first V c ⟨0, h⟩ rfl (fun h4 : (0 : ℕ) = 4 => absurd h4 (by decide))]
    rw [out2_A_6_eq, sout2_A_0_eq, sout2_A_1_eq]
    exact ⟨rfl, rfl, rfl, fun h4 : (0 : ℕ) = 4 => absurd h4 (by decide)⟩
  | n + 1, h => by
    have ih := outsAt2_inv c n (Nat.lt_of_succ_lt h)
    have e : ∀ hp, outsAt2 V c ((⟨n + 1, h⟩ : Fin cfg2.N).val - 1) hp = outsAt2 V c n (Nat.lt_of_succ_lt h) := fun _ => rfl
    by_cases h4 : n + 1 = 4
    · rw [outsAt2_last V c ⟨n + 1, h⟩ (Nat.succ_ne_zero n) h4]
      rw [out2_C_6_eq, out2_C_7_eq, out2_C_8_eq, sout2_C_0_eq, sout2_C_1_eq]
      dsimp only
      rw [e, ih.2.1, ih.2.2.1]
      exact ⟨rfl, rfl, rfl, fun _ => ⟨rfl, rfl⟩⟩
    · rw [outsAt2_middle V c ⟨n + 1, h⟩ (Nat.succ_ne_zero n) h4]
      rw [out2_B_6_eq, sout2_B_0_eq, sout2_B_1_eq]
      dsimp only
      rw [e, ih.2.1, ih.2.2.1]
      exact ⟨rfl, rfl, rfl, fun h4' => absurd h4' h4⟩

theorem h2_after2 (c : Dev nD) (t : Fin cfg2.N) : (dat2 V c).after 6 t = h2At2 V c t := by
  rw [after2_6]; exact (outsAt2_inv V c t.val t.isLt).1

theorem sum_after2 (c : Dev nD) (t : Fin cfg2.N) (h4 : t.val = 4) : (dat2 V c).after 7 t = accS2 V c t.val t.isLt := by
  rw [after2_7]; exact ((outsAt2_inv V c t.val t.isLt).2.2.2 h4).1

theorem sumsq_after2 (c : Dev nD) (t : Fin cfg2.N) (h4 : t.val = 4) : (dat2 V c).after 8 t = accQ2 V c t.val t.isLt := by
  rw [after2_8]; exact ((outsAt2_inv V c t.val t.isLt).2.2.2 h4).2

end
end Cert.KernelIdeal.HandValue
end
-- ==== Proof.Reg2ValueArr.lean ====
import proofs.«111056_j31628139167864_2_alg».proof.Proof.Reg2ValueChain
import Idealize.ShloMosaic.Lib.ValueIdx
set_option maxRecDepth 16384
set_option pp.maxSteps 20000
set_option pp.deepTerms false
set_option pp.proofs false
noncomputable section
open Idealize.ShloMosaic Idealize.ShloMosaic.TcCoe Idealize.SL.Sem Idealize.ShloMosaic.Tactic
open Idealize.ShloMosaic.Pipeline (Dat)
namespace Cert.KernelIdeal.HandValue
open Cert.KernelIdeal Cert.KernelIdeal.Gen Cert.KernelIdeal.Hand
variable {F : FTy → Type} [FloatOps F]

open Idealize.ShloMosaic.ValueIdx

/-! # Region 2's value: the three result arrays after the region (any float instance) -/

section
variable (V : (c : Dev nD) → (b : Ref sig .tc) → Buf (Elt F) ((c : Thread nD τ).loc b))

/-! ## Where the windows' blocks sit -/

theorem index2_0 (t : Fin cfg2.N) : win2_0.index t 0 = t.val ∧ win2_0.index t 1 = 0 := by
  rcases fin_N2 t with rfl | rfl | rfl | rfl | rfl <;> decide
theorem index2_1 (t : Fin cfg2.N) : win2_1.index t 0 = t.val ∧ win2_1.index t 1 = 0 := by
  rcases fin_N2 t with rfl | rfl | rfl | rfl | rfl <;> decide
theorem index2_6 (t : Fin cfg2.N) : win2_6.index t 0 = t.val ∧ win2_6.index t 1 = 0 := by
  rcases fin_N2 t with rfl | rfl | rfl | rfl | rfl <;> decide

/-- Row `j 0` of block `t` of a (50000, 96) array: row `10000 t + j 0`. -/
def row2 (t : Fin cfg2.N) (j : S10000x96.Idx) : S50000x96.Idx :=
  ix2 ⟨10000 * t.val + (j 0).val, by have h : (j 0).val < 10000 := (j 0).isLt; have ht := t.isLt; have hN : cfg2.N = 5 := N_2; omega⟩ (j 1)

/-- Window 0's block at point `t` is rows `[10000 t, 10000 t + 10000)` of its array. -/
theorem iblk2_0_apply (c : Dev nD) (t : Fin cfg2.N) (j : S10000x96.Idx) :
    (iblk2 V c 0 t : Vec F S10000x96 .f32) j = (V c (Pipeline.arrRef spec2 0) : Vec F S50000x96 .f32) (row2 t j) := by
  unfold iblk2
  rw [View.read_apply]
  show V c main_v33 _ = V c main_v33 _
  congr 1
  funext a
  apply Fin.ext
  match a with
  | ⟨0, _⟩ => show win2_0.index t 0 * 10000 + 1 * (j 0).val = 10000 * t.val + (j 0).val; rw [(index2_0 t).1]; omega
  | ⟨1, _⟩ => show win2_0.index t 1 * 96 + 1 * (j 1).val = (j 1).val; rw [(index2_0 t).2]; omega

/-- Window 1's likewise. -/
theorem iblk2_1_apply (c : Dev nD) (t : Fin cfg2.N) (j : S10000x96.Idx) :
    (iblk2 V c 1 t : Vec F S10000x96 .f32) j = (V c (Pipeline.arrRef spec2 1) : Vec F S50000x96 .f32) (row2 t j) := by
  unfold iblk2
  rw [View.read_apply]
  show V c main_v43 _ = V c main_v43 _
  congr 1
  funext a
  apply Fin.ext
  match a with
  | ⟨0, _⟩ => show win2_1.index t 0 * 10000 + 1 * (j 0).val = 10000 * t.val + (j 0).val; rw [(index2_1 t).1]; omega
  | ⟨1, _⟩ => show win2_1.index t 1 * 96 + 1 * (j 1).val = (j 1).val; rw [(index2_1 t).2]; omega

/-! ## The h2 result: the five blocks stacked -/

/-- The five h2 blocks stacked: row `r` of the (50000, 96) result is row `r % 10000` of block `r / 10000`. -/
def stack2 (c : Dev nD) : Buf (Elt F) ((c : Thread nD τ).loc main_v46_0) := fun i =>
  h2At2 V c ⟨(i 0).val / 10000, by have h : (i 0).val < 50000 := (i 0).isLt; have hN : cfg2.N = 5 := N_2; omega⟩
    (ix2 (⟨(i 0).val % 10000, Nat.mod_lt _ (by decide)⟩ : Fin 10000) (i 1))

theorem stack2_at (c : Dev nD) (t : Fin cfg2.N) (j : S10000x96.Idx) (i : S50000x96.Idx)
    (h0 : (i 0).val = 10000 * t.val + (j 0).val) (h1 : (i 1).val = (j 1).val) : stack2 V c i = h2At2 V c t j := by
  unfold stack2
  have hj : (j 0).val < 10000 := (j 0).isLt
  have ht : (i 0).val / 10000 = t.val := by omega
  have hm : (i 0).val % 10000 = (j 0).val := by omega
  have ej : (ix2 (⟨(i 0).val % 10000, Nat.mod_lt _ (by decide)⟩ : Fin 10000) (i 1) : S10000x96.Idx) = j := by
    funext a
    match a with
    | ⟨0, _⟩ => exact Fin.ext hm
    | ⟨1, _⟩ => exact Fin.ext h1
  rw [ej]
  congr 1
  exact Fin.ext ht

/-- Every point writes the h2 output's block back, and the block is the point's rows of the stack. -/
theorem flushed2_6 (c : Dev nD) (t : Fin cfg2.N) (hf : (cfg2.win 6).flush t = true) :
    (dat2 V c).flushed 6 t = ((cfg2.win 6).blk t).view.read (Elt F) (stack2 V c) := by
  show (cfg2.win 6).cut (grid2.coords t) ((dat2 V c).after 6 t) = _
  rw [h2_after2]
  show h2At2 V c t = _
  funext j
  rw [View.read_apply]
  show h2At2 V c t j = stack2 V c _
  symm
  apply stack2_at V c t j
  · show win2_6.index t 0 * 10000 + 1 * (j 0).val = 10000 * t.val + (j 0).val; rw [(index2_6 t).1]; omega
  · show win2_6.index t 1 * 96 + 1 * (j 1).val = (j 1).val; rw [(index2_6 t).2]; omega

theorem xsize2_6 : ∀ t : Fin cfg2.N, win2_6.xsize (grid2.coords t) 0 = 10000 ∧ win2_6.xsize (grid2.coords t) 1 = 96 := by decide +kernel

/-- So the h2 result array ends holding the stack: the five blocks tile it. -/
theorem final2_h2 (c : Dev nD) : (dat2 V c).arrAt 6 cfg2.N = stack2 V c :=
  (dat2 V c).arrAt_eq_of_cover 6 (stack2 V c) (flushed2_6 V c) fun i => by
    have h0 : (i 0 : Nat) < 50000 := (i 0).isLt
    have h1 : (i 1 : Nat) < 96 := (i 1).isLt
    have hN : cfg2.N = 5 := N_2
    have ht : (i 0 : Nat) / 10000 < cfg2.N := by omega
    refine ⟨⟨(i 0 : Nat) / 10000, ht⟩, flush2_6 _, ?_⟩
    show i ∈ ((View.whole main_v46_0).slice (win2_6.rect ⟨(i 0 : Nat) / 10000, ht⟩)).set
    rw [View.set_slice_whole, Rect.mem_set_unit]
    intro a
    match a with
    | ⟨0, _⟩ =>
      show win2_6.index ⟨(i 0 : Nat) / 10000, ht⟩ 0 * win2_6.size 0 ≤ (i 0 : Nat) ∧ (i 0 : Nat) < win2_6.index ⟨(i 0 : Nat) / 10000, ht⟩ 0 * win2_6.size 0 + win2_6.xsize (grid2.coords ⟨(i 0 : Nat) / 10000, ht⟩) 0
      rw [(index2_6 ⟨(i 0 : Nat) / 10000, ht⟩).1, (xsize2_6 ⟨(i 0 : Nat) / 10000, ht⟩).1, show win2_6.size 0 = 10000 from rfl]
      show (i 0 : Nat) / 10000 * 10000 ≤ (i 0 : Nat) ∧ (i 0 : Nat) < (i 0 : Nat) / 10000 * 10000 + 10000
      omega
    | ⟨1, _⟩ =>
      show win2_6.index ⟨(i 0 : Nat) / 10000, ht⟩ 1 * win2_6.size 1 ≤ (i 1 : Nat) ∧ (i 1 : Nat) < win2_6.index ⟨(i 0 : Nat) / 10000, ht⟩ 1 * win2_6.size 1 + win2_6.xsize (grid2.coords ⟨(i 0 : Nat) / 10000, ht⟩) 1
      rw [(index2_6 ⟨(i 0 : Nat) / 10000, ht⟩).2, (xsize2_6 ⟨(i 0 : Nat) / 10000, ht⟩).2]
      omega

/-! ## The two statistics results: the running sums after the last point -/

theorem lt4_2 : 4 < cfg2.N := by rw [show cfg2.N = 5 from N_2]; decide

/-- The column sums after the last point, as contents of their result arrays (one block, the whole array). -/
abbrev sum2 (c : Dev nD) : Buf (Elt F) ((c : Thread nD τ).loc main_v46_1) := accS2 V c 4 lt4_2
abbrev sumsq2 (c : Dev nD) : Buf (Elt F) ((c : Thread nD τ).loc main_v46_2) := accQ2 V c 4 lt4_2

theorem flushed2_7 (c : Dev nD) (t : Fin cfg2.N) (hf : (cfg2.win 7).flush t = true) :
    (dat2 V c).flushed 7 t = ((cfg2.win 7).blk t).view.read (Elt F) (sum2 V c) := by
  have hN : cfg2.N = 5 := N_2
  have h4 : t.val = 4 := by have := (flush2_7 t).mp hf; have := t.isLt; omega
  obtain rfl : t = t2_4 := Fin.ext h4
  show (cfg2.win 7).cut (grid2.coords t2_4) ((dat2 V c).after 7 t2_4) = _
  rw [sum_after2 V c t2_4 rfl]
  have hz' : (fun a => win2_7.index t2_4 a * main_v46_1.ty.shape.size a) = fun _ => 0 := funext fun a => by fin_cases a <;> decide
  exact (Memref.read_access_unit_zero (Elt F) main_v46_1 hz' (fun a => by rw [congrFun hz' a]; simp) (sum2 V c)).symm

theorem flushed2_8 (c : Dev nD) (t : Fin cfg2.N) (hf : (cfg2.win 8).flush t = true) :
    (dat2 V c).flushed 8 t = ((cfg2.win 8).blk t).view.read (Elt F) (sumsq2 V c) := by
  have hN : cfg2.N = 5 := N_2
  have h4 : t.val = 4 := by have := (flush2_8 t).mp hf; have := t.isLt; omega
  obtain rfl : t = t2_4 := Fin.ext h4
  show (cfg2.win 8).cut (grid2.coords t2_4) ((dat2 V c).after 8 t2_4) = _
  rw [sumsq_after2 V c t2_4 rfl]
  have hz' : (fun a => win2_8.index t2_4 a * main_v46_2.ty.shape.size a) = fun _ => 0 := funext fun a => by fin_cases a <;> decide
  exact (Memref.read_access_unit_zero (Elt F) main_v46_2 hz' (fun a => by rw [congrFun hz' a]; simp) (sumsq2 V c)).symm

theorem final2_sum (c : Dev nD) : (dat2 V c).arrAt 7 cfg2.N = sum2 V c :=
  (dat2 V c).arrAt_eq_of_cover 7 (sum2 V c) (flushed2_7 V c) fun i =>
    ⟨t2_4, (flush2_7 t2_4).mpr rfl, by
      show i ∈ ((View.whole main_v46_1).slice (win2_7.rect t2_4)).set
      rw [View.set_slice_whole, Rect.mem_set_unit]
      intro a
      have h0 : (i 0 : Nat) < 1 := (i 0).isLt
      have h1 : (i 1 : Nat) < 96 := (i 1).isLt
      match a with
      | ⟨0, _⟩ => show win2_7.index t2_4 0 * win2_7.size 0 ≤ (i 0 : Nat) ∧ (i 0 : Nat) < win2_7.index t2_4 0 * win2_7.size 0 + win2_7.xsize (grid2.coords t2_4) 0
                  rw [show win2_7.index t2_4 0 * win2_7.size 0 = 0 from by decide +kernel, show win2_7.xsize (grid2.coords t2_4) 0 = 1 from by decide +kernel]; omega
      | ⟨1, _⟩ => show win2_7.index t2_4 1 * win2_7.size 1 ≤ (i 1 : Nat) ∧ (i 1 : Nat) < win2_7.index t2_4 1 * win2_7.size 1 + win2_7.xsize (grid2.coords t2_4) 1
                  rw [show win2_7.index t2_4 1 * win2_7.size 1 = 0 from by decide +kernel, show win2_7.xsize (grid2.coords t2_4) 1 = 96 from by decide +kernel]; omega⟩

theorem final2_sumsq (c : Dev nD) : (dat2 V c).arrAt 8 cfg2.N = sumsq2 V c :=
  (dat2 V c).arrAt_eq_of_cover 8 (sumsq2 V c) (flushed2_8 V c) fun i =>
    ⟨t2_4, (flush2_8 t2_4).mpr rfl, by
      show i ∈ ((View.whole main_v46_2).slice (win2_8.rect t2_4)).set
      rw [View.set_slice_whole, Rect.mem_set_unit]
      intro a
      have h0 : (i 0 : Nat) < 1 := (i 0).isLt
      have h1 : (i 1 : Nat) < 96 := (i 1).isLt
      match a with
      | ⟨0, _⟩ => show win2_8.index t2_4 0 * win2_8.size 0 ≤ (i 0 : Nat) ∧ (i 0 : Nat) < win2_8.index t2_4 0 * win2_8.size 0 + win2_8.xsize (grid2.coords t2_4) 0
                  rw [show win2_8.index t2_4 0 * win2_8.size 0 = 0 from by decide +kernel, show win2_8.xsize (grid2.coords t2_4) 0 = 1 from by decide +kernel]; omega
      | ⟨1, _⟩ => show win2_8.index t2_4 1 * win2_8.size 1 ≤ (i 1 : Nat) ∧ (i 1 : Nat) < win2_8.index t2_4 1 * win2_8.size 1 + win2_8.xsize (grid2.coords t2_4) 1
                  rw [show win2_8.index t2_4 1 * win2_8.size 1 = 0 from by decide +kernel, show win2_8.xsize (grid2.coords t2_4) 1 = 96 from by decide +kernel]; omega⟩

end
end Cert.KernelIdeal.HandValue
end
-- ==== Proof.Reg2ValueIdeal.lean ====
import proofs.«111056_j31628139167864_2_alg».proof.Proof.Reg2ValueArr
import Idealize.ShloMosaic.Lib.StackMember
import Idealize.ShloMosaic.Lib.KernelVsHost
import Idealize.ShloMosaic.Lib.ValueLayout
import Idealize.ShloMosaic.Lib.ValueIdx
import Idealize.ShloMosaic.PureOps.Ideal.Laws
import Mathlib.Algebra.BigOperators.Fin
set_option maxRecDepth 16384
set_option pp.maxSteps 20000
set_option pp.deepTerms false
set_option pp.proofs false
noncomputable section
open scoped BigOperators
open Idealize.ShloMosaic Idealize.ShloMosaic.TcCoe Idealize.SL.Sem Idealize.ShloMosaic.Tactic
open Idealize.ShloMosaic.Pipeline (Dat)
open Idealize.ShloMosaic.ValueIdx
namespace Cert.KernelIdeal.HandValue
open Cert.KernelIdeal Cert.KernelIdeal.Gen Cert.KernelIdeal.Hand

/-! # Region 2's value: the payloads entry by entry and the three results in closed form, at the extended reals -/

/-- The MLP payload at entry (r, j). -/
theorem pay5_apply2 (x0 x1 : FVec Ideal S10000x96 .f32) (x2 : FVec Ideal S96x96 .bf16) (x3 : FVec Ideal S1x96 .f32)
    (x4 : FVec Ideal S96x96 .bf16) (x5 : FVec Ideal S1x96 .f32) (r : Fin 10000) (j : Fin 96) :
    k2_pay5 (F := Ideal) x0 x1 x2 x3 x4 x5 (ix2 r j) = mlpRow (fun k => x0 (ix2 r k)) (fun k => x1 (ix2 r k)) x2 x3 x4 x5 j := by
  unfold k2_pay5 mlpRow
  simp only [shapeCast_self, dot_eq_plain]
  simp only [addf_apply, matmul_plain_zero_at, truncf_apply, maximumf_apply, mulf_apply, broadcast_apply, broadcastTo_1b_ab_apply]
  simp only [ofBits_zero]
  rfl

/-- The first accumulator's new contents at (0, j): what it held plus the block's column sum. -/
theorem pay1_pay6_apply2 (x0 x1 : FVec Ideal S10000x96 .f32) (x2 : FVec Ideal S96x96 .bf16) (x3 : FVec Ideal S1x96 .f32)
    (x4 : FVec Ideal S96x96 .bf16) (x5 : FVec Ideal S1x96 .f32) (v28 : FVec Ideal S1x96 .f32) (j : Fin 96) :
    k2_pay1 (F := Ideal) (k2_pay6 x0 x1 x2 x3 x4 x5 v28) (ix2 (0 : Fin 1) j)
      = v28 (ix2 (0 : Fin 1) j) + ∑ r : Fin 10000, k2_pay5 (F := Ideal) x0 x1 x2 x3 x4 x5 (ix2 r j) := by
  unfold k2_pay1 k2_pay6
  simp only [shapeCast_self]
  rw [addf_apply, colsum_apply]

/-- The second accumulator's new contents at (0, j): what it held plus the column sum of the block's squares. -/
theorem pay2_apply2 (v26 : FVec Ideal S10000x96 .f32) (v35 : FVec Ideal S1x96 .f32) (j : Fin 96) :
    k2_pay2 (F := Ideal) v26 v35 (ix2 (0 : Fin 1) j) = v35 (ix2 (0 : Fin 1) j) + ∑ r : Fin 10000, v26 (ix2 r j) * v26 (ix2 r j) := by
  unfold k2_pay2
  simp only [shapeCast_self]
  rw [addf_apply, colsum_apply]
  rfl

theorem pay3_apply2 (i : S1x96.Idx) : k2_pay3 (F := Ideal) i = 0 := by
  unfold k2_pay3
  simp only [shapeCast_self]
  exact ofBits_zero

theorem pay4_apply2 (i : S1x96.Idx) : k2_pay4 (F := Ideal) i = 0 := by
  unfold k2_pay4
  simp only [shapeCast_self]
  exact ofBits_zero

end Cert.KernelIdeal.HandValue
end
-- ==== Proof.Reg2Value.lean ====
import proofs.«111056_j31628139167864_2_alg».proof.Proof.Reg2ValueIdeal
import Idealize.ShloMosaic.Lib.StackMember
import Idealize.ShloMosaic.Lib.KernelVsHost
import Idealize.ShloMosaic.Lib.ValueLayout
import Idealize.ShloMosaic.Lib.ValueIdx
import Idealize.ShloMosaic.PureOps.Ideal.Laws
import Mathlib.Algebra.BigOperators.Fin
set_option maxRecDepth 16384
set_option pp.maxSteps 20000
set_option pp.deepTerms false
set_option pp.proofs false
noncomputable section
open scoped BigOperators
open Idealize.ShloMosaic Idealize.ShloMosaic.TcCoe Idealize.SL.Sem Idealize.ShloMosaic.Tactic
open Idealize.ShloMosaic.Pipeline (Dat)
open Idealize.ShloMosaic.ValueIdx
namespace Cert.KernelIdeal.HandValue
open Cert.KernelIdeal Cert.KernelIdeal.Gen Cert.KernelIdeal.Hand

/-! # Region 2's value: the three result arrays in closed form over the region-entry arrays, at the extended reals -/

/-! ## The closed forms -/

/-- h2 = MLP(2·h + agg), entry by entry. -/
def G2_h2 (h agg : FVec Ideal S50000x96 .f32) (Wa : FVec Ideal S96x96 .bf16) (ba : FVec Ideal S1x96 .f32)
    (Wb : FVec Ideal S96x96 .bf16) (bb : FVec Ideal S1x96 .f32) : FVec Ideal S50000x96 .f32 := fun i =>
  mlpRow (fun k => h (ix2 (i 0 : Fin 50000) k)) (fun k => agg (ix2 (i 0 : Fin 50000) k)) Wa ba Wb bb (i 1 : Fin 96)

/-- The column sums of h2. -/
def G2_sum (h agg : FVec Ideal S50000x96 .f32) (Wa : FVec Ideal S96x96 .bf16) (ba : FVec Ideal S1x96 .f32)
    (Wb : FVec Ideal S96x96 .bf16) (bb : FVec Ideal S1x96 .f32) : FVec Ideal S1x96 .f32 := fun i =>
  ∑ r : Fin 50000, G2_h2 h agg Wa ba Wb bb (ix2 r (i 1 : Fin 96))

/-- The column sums of h2's squares. -/
def G2_sumsq (h agg : FVec Ideal S50000x96 .f32) (Wa : FVec Ideal S96x96 .bf16) (ba : FVec Ideal S1x96 .f32)
    (Wb : FVec Ideal S96x96 .bf16) (bb : FVec Ideal S1x96 .f32) : FVec Ideal S1x96 .f32 := fun i =>
  ∑ r : Fin 50000, G2_h2 h agg Wa ba Wb bb (ix2 r (i 1 : Fin 96)) * G2_h2 h agg Wa ba Wb bb (ix2 r (i 1 : Fin 96))

section
variable (V : (c : Dev nD) → (b : Ref sig .tc) → Buf (Elt Ideal) ((c : Thread nD τ).loc b))

/-! ## The whole-array windows' blocks are their arrays -/

theorem index2_2 (t : Fin cfg2.N) : win2_2.index t 0 = 0 ∧ win2_2.index t 1 = 0 := by
  rcases fin_N2 t with rfl | rfl | rfl | rfl | rfl <;> decide
theorem index2_3 (t : Fin cfg2.N) : win2_3.index t 0 = 0 ∧ win2_3.index t 1 = 0 := by
  rcases fin_N2 t with rfl | rfl | rfl | rfl | rfl <;> decide
theorem index2_4 (t : Fin cfg2.N) : win2_4.index t 0 = 0 ∧ win2_4.index t 1 = 0 := by
  rcases fin_N2 t with rfl | rfl | rfl | rfl | rfl <;> decide
theorem index2_5 (t : Fin cfg2.N) : win2_5.index t 0 = 0 ∧ win2_5.index t 1 = 0 := by
  rcases fin_N2 t with rfl | rfl | rfl | rfl | rfl <;> decide

theorem iblk2_2_eq (c : Dev nD) (t : Fin cfg2.N) : (iblk2 V c 2 t : Vec Ideal S96x96 .bf16) = (V c (Pipeline.arrRef spec2 2)) := by
  unfold iblk2
  have hz' : (fun a => win2_2.index t a * main_v2.ty.shape.size a) = fun _ => 0 := funext fun a => by
    match a with
    | ⟨0, _⟩ => show win2_2.index t 0 * _ = 0; rw [(index2_2 t).1, Nat.zero_mul]
    | ⟨1, _⟩ => show win2_2.index t 1 * _ = 0; rw [(index2_2 t).2, Nat.zero_mul]
  exact Memref.read_access_unit_zero (Elt Ideal) main_v2 hz' (fun a => by rw [congrFun hz' a]; simp) _

theorem iblk2_3_eq (c : Dev nD) (t : Fin cfg2.N) : (iblk2 V c 3 t : Vec Ideal S1x96 .f32) = (V c (Pipeline.arrRef spec2 3)) := by
  unfold iblk2
  have hz' : (fun a => win2_3.index t a * main_v44.ty.shape.size a) = fun _ => 0 := funext fun a => by
    match a with
    | ⟨0, _⟩ => show win2_3.index t 0 * _ = 0; rw [(index2_3 t).1, Nat.zero_mul]
    | ⟨1, _⟩ => show win2_3.index t 1 * _ = 0; rw [(index2_3 t).2, Nat.zero_mul]
  exact Memref.read_access_unit_zero (Elt Ideal) main_v44 hz' (fun a => by rw [congrFun hz' a]; simp) _

theorem iblk2_4_eq (c : Dev nD) (t : Fin cfg2.N) : (iblk2 V c 4 t : Vec Ideal S96x96 .bf16) = (V c (Pipeline.arrRef spec2 4)) := by
  unfold iblk2
  have hz' : (fun a => win2_4.index t a * main_v3.ty.shape.size a) = fun _ => 0 := funext fun a => by
    match a with
    | ⟨0, _⟩ => show win2_4.index t 0 * _ = 0; rw [(index2_4 t).1, Nat.zero_mul]
    | ⟨1, _⟩ => show win2_4.index t 1 * _ = 0; rw [(index2_4 t).2, Nat.zero_mul]
  exact Memref.read_access_unit_zero (Elt Ideal) main_v3 hz' (fun a => by rw [congrFun hz' a]; simp) _

theorem iblk2_5_eq (c : Dev nD) (t : Fin cfg2.N) : (iblk2 V c 5 t : Vec Ideal S1x96 .f32) = (V c (Pipeline.arrRef spec2 5)) := by
  unfold iblk2
  have hz' : (fun a => win2_5.index t a * main_v45.ty.shape.size a) = fun _ => 0 := funext fun a => by
    match a with
    | ⟨0, _⟩ => show win2_5.index t 0 * _ = 0; rw [(index2_5 t).1, Nat.zero_mul]
    | ⟨1, _⟩ => show win2_5.index t 1 * _ = 0; rw [(index2_5 t).2, Nat.zero_mul]
  exact Memref.read_access_unit_zero (Elt Ideal) main_v45 hz' (fun a => by rw [congrFun hz' a]; simp) _

/-! ## The h2 block at a point is its rows of the closed form -/

theorem h2At2_apply (c : Dev nD) (t : Fin cfg2.N) (r : Fin 10000) (j : Fin 96) :
    h2At2 V c t (ix2 r j) = G2_h2 (V c (Pipeline.arrRef spec2 0)) (V c (Pipeline.arrRef spec2 1)) (V c (Pipeline.arrRef spec2 2)) (V c (Pipeline.arrRef spec2 3)) (V c (Pipeline.arrRef spec2 4)) (V c (Pipeline.arrRef spec2 5))
      (ix2 (⟨10000 * t.val + r.val, by have ht := t.isLt; have hN : cfg2.N = 5 := N_2; have := r.isLt; omega⟩ : Fin 50000) j) := by
  unfold h2At2
  rw [pay5_apply2, iblk2_2_eq, iblk2_3_eq, iblk2_4_eq, iblk2_5_eq]
  have e0 : (fun k : Fin 96 => (iblk2 V c 0 t : Vec Ideal S10000x96 .f32) (ix2 r k))
      = fun k => ((V c (Pipeline.arrRef spec2 0)) : Vec Ideal S50000x96 .f32) (ix2 (⟨10000 * t.val + r.val, by have ht := t.isLt; have hN : cfg2.N = 5 := N_2; have := r.isLt; omega⟩ : Fin 50000) k) :=
    funext fun k => iblk2_0_apply V c t (ix2 r k)
  have e1 : (fun k : Fin 96 => (iblk2 V c 1 t : Vec Ideal S10000x96 .f32) (ix2 r k))
      = fun k => ((V c (Pipeline.arrRef spec2 1)) : Vec Ideal S50000x96 .f32) (ix2 (⟨10000 * t.val + r.val, by have ht := t.isLt; have hN : cfg2.N = 5 := N_2; have := r.isLt; omega⟩ : Fin 50000) k) :=
    funext fun k => iblk2_1_apply V c t (ix2 r k)
  rw [e0, e1]
  rfl

/-! ## The running sums, point by point -/

theorem accS2_zero_apply (c : Dev nD) (h : 0 < cfg2.N) (j : Fin 96) :
    accS2 V c 0 h (ix2 (0 : Fin 1) j) = ∑ r : Fin 10000, h2At2 V c ⟨0, h⟩ (ix2 r j) := by
  rw [show accS2 V c 0 h = k2_pay1 (k2_pay6 (iblk2 V c 0 ⟨0, h⟩) (iblk2 V c 1 ⟨0, h⟩) (iblk2 V c 2 ⟨0, h⟩) (iblk2 V c 3 ⟨0, h⟩) (iblk2 V c 4 ⟨0, h⟩) (iblk2 V c 5 ⟨0, h⟩) (k2_pay3 (F := Ideal))) from rfl, pay1_pay6_apply2, pay3_apply2, zero_add]
  rfl

theorem accS2_succ_apply (c : Dev nD) (n : ℕ) (h : n + 1 < cfg2.N) (j : Fin 96) :
    accS2 V c (n + 1) h (ix2 (0 : Fin 1) j) = accS2 V c n (Nat.lt_of_succ_lt h) (ix2 (0 : Fin 1) j) + ∑ r : Fin 10000, h2At2 V c ⟨n + 1, h⟩ (ix2 r j) := by
  rw [show accS2 V c (n + 1) h = k2_pay1 (k2_pay6 (iblk2 V c 0 ⟨n + 1, h⟩) (iblk2 V c 1 ⟨n + 1, h⟩) (iblk2 V c 2 ⟨n + 1, h⟩) (iblk2 V c 3 ⟨n + 1, h⟩) (iblk2 V c 4 ⟨n + 1, h⟩) (iblk2 V c 5 ⟨n + 1, h⟩) (accS2 V c n (Nat.lt_of_succ_lt h))) from rfl, pay1_pay6_apply2]
  rfl

theorem accQ2_zero_apply (c : Dev nD) (h : 0 < cfg2.N) (j : Fin 96) :
    accQ2 V c 0 h (ix2 (0 : Fin 1) j) = ∑ r : Fin 10000, h2At2 V c ⟨0, h⟩ (ix2 r j) * h2At2 V c ⟨0, h⟩ (ix2 r j) := by
  rw [show accQ2 V c 0 h = k2_pay2 (h2At2 V c ⟨0, h⟩) (k2_pay4 (F := Ideal)) from rfl, pay2_apply2, pay4_apply2, zero_add]

theorem accQ2_succ_apply (c : Dev nD) (n : ℕ) (h : n + 1 < cfg2.N) (j : Fin 96) :
    accQ2 V c (n + 1) h (ix2 (0 : Fin 1) j) = accQ2 V c n (Nat.lt_of_succ_lt h) (ix2 (0 : Fin 1) j)
      + ∑ r : Fin 10000, h2At2 V c ⟨n + 1, h⟩ (ix2 r j) * h2At2 V c ⟨n + 1, h⟩ (ix2 r j) := by
  rw [show accQ2 V c (n + 1) h = k2_pay2 (h2At2 V c ⟨n + 1, h⟩) (accQ2 V c n (Nat.lt_of_succ_lt h)) from rfl, pay2_apply2]

/-! ## The three results -/

theorem h2At2_apply' (c : Dev nD) (n : ℕ) (hn : n < cfg2.N) (r : Fin 10000) (j : Fin 96) (hlt : 10000 * n + r.val < 50000) :
    h2At2 V c ⟨n, hn⟩ (ix2 r j) = G2_h2 (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (ix2 (⟨10000 * n + r.val, hlt⟩ : Fin 50000) j) :=
  h2At2_apply V c ⟨n, hn⟩ r j

/-- One block's column sum, over the closed form's rows. -/
theorem blockSum2 (c : Dev nD) (n : ℕ) (hn : n < cfg2.N) (j : Fin 96) (hb : ∀ r : Fin 10000, 10000 * n + r.val < 50000) :
    ∑ r : Fin 10000, h2At2 V c ⟨n, hn⟩ (ix2 r j)
      = ∑ r : Fin 10000, G2_h2 (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (ix2 (⟨10000 * n + r.val, hb r⟩ : Fin 50000) j) :=
  Finset.sum_congr rfl fun r _ => h2At2_apply' V c n hn r j (hb r)

/-- One block's column sum of squares, over the closed form's rows. -/
theorem blockSumSq2 (c : Dev nD) (n : ℕ) (hn : n < cfg2.N) (j : Fin 96) (hb : ∀ r : Fin 10000, 10000 * n + r.val < 50000) :
    ∑ r : Fin 10000, h2At2 V c ⟨n, hn⟩ (ix2 r j) * h2At2 V c ⟨n, hn⟩ (ix2 r j)
      = ∑ r : Fin 10000, G2_h2 (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (ix2 (⟨10000 * n + r.val, hb r⟩ : Fin 50000) j)
          * G2_h2 (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (ix2 (⟨10000 * n + r.val, hb r⟩ : Fin 50000) j) :=
  Finset.sum_congr rfl fun r _ => by rw [h2At2_apply' V c n hn r j (hb r)]

set_option maxHeartbeats 4000000 in
/-- The h2 result array after the region. -/
theorem final2_6 (c : Dev nD) : (dat2 V c).arrAt 6 cfg2.N = G2_h2 (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) := by
  rw [final2_h2]
  funext i
  obtain ⟨R, j, rfl⟩ : ∃ (R : Fin 50000) (j : Fin 96), i = ix2 R j := ⟨i 0, i 1, eq_ix2 i⟩
  have hN : cfg2.N = 5 := N_2
  have hR := R.isLt
  have ht : R.val / 10000 < cfg2.N := by omega
  refine (stack2_at V c ⟨R.val / 10000, ht⟩ (ix2 (⟨R.val % 10000, Nat.mod_lt _ (by decide)⟩ : Fin 10000) j) (ix2 R j) ?_ rfl).trans ?_
  · show R.val = 10000 * (R.val / 10000) + R.val % 10000
    omega
  · rw [h2At2_apply]
    congr 1
    funext a
    match a with
    | ⟨0, _⟩ => exact Fin.ext (by show 10000 * (R.val / 10000) + R.val % 10000 = R.val; omega)
    | ⟨1, _⟩ => rfl

set_option maxHeartbeats 4000000 in
/-- The column-sum result array after the region. -/
theorem final2_7 (c : Dev nD) : (dat2 V c).arrAt 7 cfg2.N = G2_sum (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) := by
  rw [final2_sum]
  funext i
  obtain ⟨z, j, rfl⟩ : ∃ (z : Fin 1) (j : Fin 96), i = ix2 z j := ⟨i 0, i 1, eq_ix2 i⟩
  obtain rfl : z = 0 := Subsingleton.elim _ _
  show accS2 V c 4 lt4_2 (ix2 (0 : Fin 1) j) = ∑ R : Fin 50000, G2_h2 (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (ix2 R j)
  rw [accS2_succ_apply V c 3, accS2_succ_apply V c 2, accS2_succ_apply V c 1, accS2_succ_apply V c 0, accS2_zero_apply]
  refine Eq.trans ?_ (sum_five_blocks (fun R : Fin 50000 => G2_h2 (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (ix2 R j))).symm
  exact congrArg₂ (· + ·) (congrArg₂ (· + ·) (congrArg₂ (· + ·) (congrArg₂ (· + ·)
    (blockSum2 V c 0 _ j (fun r => by have := r.isLt; omega)) (blockSum2 V c 1 _ j (fun r => by have := r.isLt; omega)))
    (blockSum2 V c 2 _ j (fun r => by have := r.isLt; omega))) (blockSum2 V c 3 _ j (fun r => by have := r.isLt; omega)))
    (blockSum2 V c 4 _ j (fun r => by have := r.isLt; omega))

set_option maxHeartbeats 4000000 in
/-- The column-sum-of-squares result array after the region. -/
theorem final2_8 (c : Dev nD) : (dat2 V c).arrAt 8 cfg2.N = G2_sumsq (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) := by
  rw [final2_sumsq]
  funext i
  obtain ⟨z, j, rfl⟩ : ∃ (z : Fin 1) (j : Fin 96), i = ix2 z j := ⟨i 0, i 1, eq_ix2 i⟩
  obtain rfl : z = 0 := Subsingleton.elim _ _
  show accQ2 V c 4 lt4_2 (ix2 (0 : Fin 1) j) = ∑ R : Fin 50000, G2_h2 (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (ix2 R j) * G2_h2 (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (ix2 R j)
  rw [accQ2_succ_apply V c 3, accQ2_succ_apply V c 2, accQ2_succ_apply V c 1, accQ2_succ_apply V c 0, accQ2_zero_apply]
  refine Eq.trans ?_ (sum_five_blocks (fun R : Fin 50000 => G2_h2 (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (ix2 R j) * G2_h2 (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (ix2 R j))).symm
  exact congrArg₂ (· + ·) (congrArg₂ (· + ·) (congrArg₂ (· + ·) (congrArg₂ (· + ·)
    (blockSumSq2 V c 0 _ j (fun r => by have := r.isLt; omega)) (blockSumSq2 V c 1 _ j (fun r => by have := r.isLt; omega)))
    (blockSumSq2 V c 2 _ j (fun r => by have := r.isLt; omega))) (blockSumSq2 V c 3 _ j (fun r => by have := r.isLt; omega)))
    (blockSumSq2 V c 4 _ j (fun r => by have := r.isLt; omega))

end
end Cert.KernelIdeal.HandValue
end
-- ==== Proof.Reg2ValueLink.lean ====
import proofs.«111056_j31628139167864_2_alg».proof.Proof.Reg2Value
import proofs.«111056_j31628139167864_2_alg».proof.Proof.NetSpec
import Idealize.ShloMosaic.Lib.StackMember
import Idealize.ShloMosaic.Lib.KernelVsHost
import Idealize.ShloMosaic.Lib.ValueLayout
import Idealize.ShloMosaic.Lib.ValueIdx
import Idealize.ShloMosaic.PureOps.Ideal.Laws
import Mathlib.Algebra.BigOperators.Fin
set_option maxRecDepth 16384
set_option pp.maxSteps 20000
set_option pp.deepTerms false
set_option pp.proofs false
noncomputable section
open scoped BigOperators
open Idealize.ShloMosaic Idealize.ShloMosaic.TcCoe Idealize.SL.Sem Idealize.ShloMosaic.Tactic
open Idealize.ShloMosaic.Pipeline (Dat)
open Idealize.ShloMosaic.ValueIdx
namespace Cert.KernelIdeal.HandValue
open Cert.KernelIdeal Cert.KernelIdeal.Gen Cert.KernelIdeal.Hand

/-! # Region 2's closed forms are the layer specification's perceptron and its column sums -/

/-- h2, as a matrix of entries, is the specification's perceptron on the rows `2·h + agg`. -/
theorem G2_h2_spec (h agg : FVec Ideal S50000x96 .f32) (Wa : FVec Ideal S96x96 .bf16) (ba : FVec Ideal S1x96 .f32)
    (Wb : FVec Ideal S96x96 .bf16) (bb : FVec Ideal S1x96 .f32) :
    (fun (r : Fin 50000) (j : Fin 96) => G2_h2 h agg Wa ba Wb bb (ix2 r j))
      = Cert.NetSpec.mlp (fun (r : Fin 50000) (l : Fin 96) => two * h (ix2 r l) + agg (ix2 r l)) (fun k m => Wa (ix2 k m))
          (fun m => ba (ix2 (0 : Fin 1) m)) (fun m j => Wb (ix2 m j)) (fun j => bb (ix2 (0 : Fin 1) j)) := rfl

/-- The column-sum result, as a row of entries, is the specification's column sum of that perceptron. -/
theorem G2_sum_spec (h agg : FVec Ideal S50000x96 .f32) (Wa : FVec Ideal S96x96 .bf16) (ba : FVec Ideal S1x96 .f32)
    (Wb : FVec Ideal S96x96 .bf16) (bb : FVec Ideal S1x96 .f32) :
    (fun (j : Fin 96) => G2_sum h agg Wa ba Wb bb (ix2 (0 : Fin 1) j))
      = Cert.NetSpec.colSum (Cert.NetSpec.mlp (fun (r : Fin 50000) (l : Fin 96) => two * h (ix2 r l) + agg (ix2 r l)) (fun k m => Wa (ix2 k m))
          (fun m => ba (ix2 (0 : Fin 1) m)) (fun m j => Wb (ix2 m j)) (fun j => bb (ix2 (0 : Fin 1) j))) := rfl

/-- The column-sum-of-squares result likewise. -/
theorem G2_sumsq_spec (h agg : FVec Ideal S50000x96 .f32) (Wa : FVec Ideal S96x96 .bf16) (ba : FVec Ideal S1x96 .f32)
    (Wb : FVec Ideal S96x96 .bf16) (bb : FVec Ideal S1x96 .f32) :
    (fun (j : Fin 96) => G2_sumsq h agg Wa ba Wb bb (ix2 (0 : Fin 1) j))
      = Cert.NetSpec.colSumSq (Cert.NetSpec.mlp (fun (r : Fin 50000) (l : Fin 96) => two * h (ix2 r l) + agg (ix2 r l)) (fun k m => Wa (ix2 k m))
          (fun m => ba (ix2 (0 : Fin 1) m)) (fun m j => Wb (ix2 m j)) (fun j => bb (ix2 (0 : Fin 1) j))) := rfl

end Cert.KernelIdeal.HandValue
end
-- ==== Proof.KChain.lean ====
/- The kernel program's result read back to the launch memory: every buffer a region or a host stretch consumes,
   followed back through the items that do not write it to the item that produced it, as a named term of the launch
   memory's arrays; and the result array, in the vocabulary of the entry-level specification, as the linear head of
   the second layer's batch-normalised perceptron of the first layer's. -/
import proofs.«111056_j31628139167864_2_alg».proof.Proof.Frames
import proofs.«111056_j31628139167864_2_alg».proof.Proof.HostK
import proofs.«111056_j31628139167864_2_alg».proof.Proof.HostKRead
import proofs.«111056_j31628139167864_2_alg».proof.Proof.KSpec
import proofs.«111056_j31628139167864_2_alg».proof.Proof.NetBridge
import proofs.«111056_j31628139167864_2_alg».proof.Proof.Reg0ValueLink
import proofs.«111056_j31628139167864_2_alg».proof.Proof.Reg2ValueLink

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx

/-- A perceptron region's result as a function of its six input arrays. -/
abbrev MlpFn (S : Shape) : Type :=
  FVec Ideal S50000x96 .f32 → FVec Ideal S50000x96 .f32 → FVec Ideal S96x96 .bf16 → FVec Ideal S1x96 .f32
    → FVec Ideal S96x96 .bf16 → FVec Ideal S1x96 .f32 → FVec Ideal S .f32

/-- The node count, the variance's guard and the self-loop's factor, as the program's words. -/
abbrev kCnt : EReal := Ideal.ofBits .f32 0x47435000#32
abbrev kEps : EReal := Ideal.ofBits .f32 0x3727C5AC#32
abbrev kTwo : EReal := Ideal.ofBits .f32 0x40000000#32

section Chain
variable (m : (ℓ : Loc nD τ sig) → Buf (Elt Ideal) ℓ) (c : Dev nD)

/-! ## The launch memory's arrays -/

/-- The node features. -/
abbrev aX : FVec Ideal S50000x96 .f32 := m ((c : Thread nD τ).loc main_arg0)
/-- Layer 0's first weights. -/
abbrev aW0a : FVec Ideal S96x96 .f32 := m ((c : Thread nD τ).loc main_arg1)
/-- Layer 0's first bias. -/
abbrev ab0a : FVec Ideal S96 .f32 := m ((c : Thread nD τ).loc main_arg2)
/-- Layer 0's second weights. -/
abbrev aW0b : FVec Ideal S96x96 .f32 := m ((c : Thread nD τ).loc main_arg3)
/-- Layer 0's second bias. -/
abbrev ab0b : FVec Ideal S96 .f32 := m ((c : Thread nD τ).loc main_arg4)
/-- Layer 1's first weights. -/
abbrev aW1a : FVec Ideal S96x96 .f32 := m ((c : Thread nD τ).loc main_arg5)
/-- Layer 1's first bias. -/
abbrev ab1a : FVec Ideal S96 .f32 := m ((c : Thread nD τ).loc main_arg6)
/-- Layer 1's second weights. -/
abbrev aW1b : FVec Ideal S96x96 .f32 := m ((c : Thread nD τ).loc main_arg7)
/-- Layer 1's second bias. -/
abbrev ab1b : FVec Ideal S96 .f32 := m ((c : Thread nD τ).loc main_arg8)
/-- Layer 0's scale. -/
abbrev aG0 : FVec Ideal S96 .f32 := m ((c : Thread nD τ).loc main_arg9)
/-- Layer 0's shift. -/
abbrev aB0 : FVec Ideal S96 .f32 := m ((c : Thread nD τ).loc main_arg10)
/-- Layer 1's scale. -/
abbrev aG1 : FVec Ideal S96 .f32 := m ((c : Thread nD τ).loc main_arg11)
/-- Layer 1's shift. -/
abbrev aB1 : FVec Ideal S96 .f32 := m ((c : Thread nD τ).loc main_arg12)
/-- The head's weights. -/
abbrev aWp : FVec Ideal S96x64 .f32 := m ((c : Thread nD τ).loc main_arg13)
/-- The head's bias. -/
abbrev abp : FVec Ideal S64 .f32 := m ((c : Thread nD τ).loc main_arg14)
/-- The edges' source words. -/
abbrev aSrc : IVec S800000 32 := m ((c : Thread nD τ).loc main_arg15)
/-- The edges' destination words. -/
abbrev aDst : IVec S800000 32 := m ((c : Thread nD τ).loc main_arg16)

/-! ## The specification's stages over the launch memory -/

/-- Zero plus the sum over the edges landing on a node of the source rows. -/
abbrev aggK (Y : Fin 50000 → Fin 96 → EReal) : Fin 50000 → Fin 96 → EReal :=
  fun v j => 0 + Cert.NetSpec.agg Y (srcRow (aSrc m c)) (dstInt (aDst m c)) v j
/-- Layer 0's perceptron of the features and their aggregate. -/
abbrev kH1 : Fin 50000 → Fin 96 → EReal :=
  Cert.NetSpec.mlp (fun r l => kTwo * mat (aX m c) r l + aggK m c (mat (aX m c)) r l) (mat (aW0a m c)) (vecv (ab0a m c)) (mat (aW0b m c)) (vecv (ab0b m c))
/-- Layer 0's output: batch-normalised, rectified. -/
abbrev kL1 : Fin 50000 → Fin 96 → EReal :=
  Cert.NetSpec.bnRelu (kH1 m c) (Cert.NetSpec.meanK kCnt (kH1 m c)) (Cert.NetSpec.invK kCnt kEps (kH1 m c)) (vecv (aG0 m c)) (vecv (aB0 m c))
/-- Layer 1's perceptron. -/
abbrev kH2 : Fin 50000 → Fin 96 → EReal :=
  Cert.NetSpec.mlp (fun r l => kTwo * kL1 m c r l + aggK m c (kL1 m c) r l) (mat (aW1a m c)) (vecv (ab1a m c)) (mat (aW1b m c)) (vecv (ab1b m c))

/-! ## The arguments at the boundaries -/

theorem W0_arg (b : Ref sig .tc) : W0 m c (Proc.devRef .tc b) = m ((c : Thread nD τ).loc b) := rfl

theorem W2_arg9 : W2 m c (Proc.devRef .tc main_arg9) = aG0 m c :=
  (W2_of_ne m c main_arg9 (by decide)).trans ((W1_of m c main_arg9 (by decide)).trans (W0_arg m c main_arg9))
theorem W2_arg10 : W2 m c (Proc.devRef .tc main_arg10) = aB0 m c :=
  (W2_of_ne m c main_arg10 (by decide)).trans ((W1_of m c main_arg10 (by decide)).trans (W0_arg m c main_arg10))
theorem W4_arg6 : W4 m c (Proc.devRef .tc main_arg6) = ab1a m c :=
  (W4_of_ne m c main_arg6 (by decide)).trans ((W3_of m c main_arg6 (by decide)).trans ((W2_of_ne m c main_arg6 (by decide)).trans ((W1_of m c main_arg6 (by decide)).trans (W0_arg m c main_arg6))))
theorem W4_arg8 : W4 m c (Proc.devRef .tc main_arg8) = ab1b m c :=
  (W4_of_ne m c main_arg8 (by decide)).trans ((W3_of m c main_arg8 (by decide)).trans ((W2_of_ne m c main_arg8 (by decide)).trans ((W1_of m c main_arg8 (by decide)).trans (W0_arg m c main_arg8))))
theorem W4_arg15 : W4 m c (Proc.devRef .tc main_arg15) = aSrc m c :=
  (W4_of_ne m c main_arg15 (by decide)).trans ((W3_of m c main_arg15 (by decide)).trans ((W2_of_ne m c main_arg15 (by decide)).trans ((W1_of m c main_arg15 (by decide)).trans (W0_arg m c main_arg15))))
theorem W4_arg16 : W4 m c (Proc.devRef .tc main_arg16) = aDst m c :=
  (W4_of_ne m c main_arg16 (by decide)).trans ((W3_of m c main_arg16 (by decide)).trans ((W2_of_ne m c main_arg16 (by decide)).trans ((W1_of m c main_arg16 (by decide)).trans (W0_arg m c main_arg16))))
theorem W6_arg11 : W6 m c (Proc.devRef .tc main_arg11) = aG1 m c :=
  (W6_of_ne m c main_arg11 (by decide)).trans ((W5_of m c main_arg11 (by decide)).trans ((W4_of_ne m c main_arg11 (by decide)).trans ((W3_of m c main_arg11 (by decide)).trans ((W2_of_ne m c main_arg11 (by decide)).trans ((W1_of m c main_arg11 (by decide)).trans (W0_arg m c main_arg11))))))
theorem W6_arg12 : W6 m c (Proc.devRef .tc main_arg12) = aB1 m c :=
  (W6_of_ne m c main_arg12 (by decide)).trans ((W5_of m c main_arg12 (by decide)).trans ((W4_of_ne m c main_arg12 (by decide)).trans ((W3_of m c main_arg12 (by decide)).trans ((W2_of_ne m c main_arg12 (by decide)).trans ((W1_of m c main_arg12 (by decide)).trans (W0_arg m c main_arg12))))))
theorem W6_arg14 : W6 m c (Proc.devRef .tc main_arg14) = abp m c :=
  (W6_of_ne m c main_arg14 (by decide)).trans ((W5_of m c main_arg14 (by decide)).trans ((W4_of_ne m c main_arg14 (by decide)).trans ((W3_of m c main_arg14 (by decide)).trans ((W2_of_ne m c main_arg14 (by decide)).trans ((W1_of m c main_arg14 (by decide)).trans (W0_arg m c main_arg14))))))
theorem W1_arg0 : W1 m c (Proc.devRef .tc main_arg0) = aX m c := (W1_of m c main_arg0 (by decide)).trans (W0_arg m c main_arg0)

/-! ## The two perceptron regions: their results as functions of their input arrays, and those functions in the
    specification's vocabulary -/

variable (G0h : MlpFn S50000x96) (G0s G0q : MlpFn S1x96) (G2h : MlpFn S50000x96) (G2s G2q : MlpFn S1x96)

/-- The hypothesis on a perceptron region's three result functions: the block result is the specification's
    perceptron of twice the first array plus the second, the two rows its column sums and sums of squares. -/
structure MlpLinks (Gh : MlpFn S50000x96) (Gs Gq : MlpFn S1x96) : Prop where
  h : ∀ (h agg : FVec Ideal S50000x96 .f32) (Wa : FVec Ideal S96x96 .bf16) (ba : FVec Ideal S1x96 .f32) (Wb : FVec Ideal S96x96 .bf16) (bb : FVec Ideal S1x96 .f32), mat (Gh h agg Wa ba Wb bb) = Cert.NetSpec.mlp (fun r l => kTwo * mat h r l + mat agg r l) (mat Wa) (rowv ba) (mat Wb) (rowv bb)
  s : ∀ (h agg : FVec Ideal S50000x96 .f32) (Wa : FVec Ideal S96x96 .bf16) (ba : FVec Ideal S1x96 .f32) (Wb : FVec Ideal S96x96 .bf16) (bb : FVec Ideal S1x96 .f32), rowv (Gs h agg Wa ba Wb bb) = Cert.NetSpec.colSum (Cert.NetSpec.mlp (fun r l => kTwo * mat h r l + mat agg r l) (mat Wa) (rowv ba) (mat Wb) (rowv bb))
  q : ∀ (h agg : FVec Ideal S50000x96 .f32) (Wa : FVec Ideal S96x96 .bf16) (ba : FVec Ideal S1x96 .f32) (Wb : FVec Ideal S96x96 .bf16) (bb : FVec Ideal S1x96 .f32), rowv (Gq h agg Wa ba Wb bb) = Cert.NetSpec.colSumSq (Cert.NetSpec.mlp (fun r l => kTwo * mat h r l + mat agg r l) (mat Wa) (rowv ba) (mat Wb) (rowv bb))

/-- The hypothesis on a perceptron region's run: the three result arrays after the region are those functions of the
    arrays as the region finds them. -/
structure Finals0 : Prop where
  f6 : ∀ (V : (c : Dev nD) → (b : Ref sig .tc) → Buf (Elt Ideal) ((c : Thread nD τ).loc b)) (c : Dev nD), (dat0 V c).arrAt 6 cfg0.N = G0h (V c (Pipeline.arrRef spec0 0)) (V c (Pipeline.arrRef spec0 1)) (V c (Pipeline.arrRef spec0 2)) (V c (Pipeline.arrRef spec0 3)) (V c (Pipeline.arrRef spec0 4)) (V c (Pipeline.arrRef spec0 5))
  f7 : ∀ (V : (c : Dev nD) → (b : Ref sig .tc) → Buf (Elt Ideal) ((c : Thread nD τ).loc b)) (c : Dev nD), (dat0 V c).arrAt 7 cfg0.N = G0s (V c (Pipeline.arrRef spec0 0)) (V c (Pipeline.arrRef spec0 1)) (V c (Pipeline.arrRef spec0 2)) (V c (Pipeline.arrRef spec0 3)) (V c (Pipeline.arrRef spec0 4)) (V c (Pipeline.arrRef spec0 5))
  f8 : ∀ (V : (c : Dev nD) → (b : Ref sig .tc) → Buf (Elt Ideal) ((c : Thread nD τ).loc b)) (c : Dev nD), (dat0 V c).arrAt 8 cfg0.N = G0q (V c (Pipeline.arrRef spec0 0)) (V c (Pipeline.arrRef spec0 1)) (V c (Pipeline.arrRef spec0 2)) (V c (Pipeline.arrRef spec0 3)) (V c (Pipeline.arrRef spec0 4)) (V c (Pipeline.arrRef spec0 5))
structure Finals2 : Prop where
  f6 : ∀ (V : (c : Dev nD) → (b : Ref sig .tc) → Buf (Elt Ideal) ((c : Thread nD τ).loc b)) (c : Dev nD), (dat2 V c).arrAt 6 cfg2.N = G2h (V c (Pipeline.arrRef spec2 0)) (V c (Pipeline.arrRef spec2 1)) (V c (Pipeline.arrRef spec2 2)) (V c (Pipeline.arrRef spec2 3)) (V c (Pipeline.arrRef spec2 4)) (V c (Pipeline.arrRef spec2 5))
  f7 : ∀ (V : (c : Dev nD) → (b : Ref sig .tc) → Buf (Elt Ideal) ((c : Thread nD τ).loc b)) (c : Dev nD), (dat2 V c).arrAt 7 cfg2.N = G2s (V c (Pipeline.arrRef spec2 0)) (V c (Pipeline.arrRef spec2 1)) (V c (Pipeline.arrRef spec2 2)) (V c (Pipeline.arrRef spec2 3)) (V c (Pipeline.arrRef spec2 4)) (V c (Pipeline.arrRef spec2 5))
  f8 : ∀ (V : (c : Dev nD) → (b : Ref sig .tc) → Buf (Elt Ideal) ((c : Thread nD τ).loc b)) (c : Dev nD), (dat2 V c).arrAt 8 cfg2.N = G2q (V c (Pipeline.arrRef spec2 0)) (V c (Pipeline.arrRef spec2 1)) (V c (Pipeline.arrRef spec2 2)) (V c (Pipeline.arrRef spec2 3)) (V c (Pipeline.arrRef spec2 4)) (V c (Pipeline.arrRef spec2 5))

/-! ## The stages as terms of the launch memory -/

/-- The weights in the matrix unit's format. -/
def sWa0 : FVec Ideal S96x96 .bf16 := truncf .bf16 (aW0a m c) bitsLt_bf16_f32
def sWb0 : FVec Ideal S96x96 .bf16 := truncf .bf16 (aW0b m c) bitsLt_bf16_f32
def sWa1 : FVec Ideal S96x96 .bf16 := truncf .bf16 (aW1a m c) bitsLt_bf16_f32
def sWb1 : FVec Ideal S96x96 .bf16 := truncf .bf16 (aW1b m c) bitsLt_bf16_f32
def sWp : FVec Ideal S96x64 .bf16 := truncf .bf16 (aWp m c) bitsLt_bf16_f32
/-- The features' aggregate. -/
def sAgg0 : FVec Ideal S50000x96 .f32 := hostAgg (aX m c) (aSrc m c) (aDst m c)
/-- Region 0's three results. -/
def sH0 : FVec Ideal S50000x96 .f32 := G0h (aX m c) (sAgg0 m c) (sWa0 m c) (rowOf (ab0a m c)) (sWb0 m c) (rowOf (ab0b m c))
def sS0 : FVec Ideal S1x96 .f32 := G0s (aX m c) (sAgg0 m c) (sWa0 m c) (rowOf (ab0a m c)) (sWb0 m c) (rowOf (ab0b m c))
def sQ0 : FVec Ideal S1x96 .f32 := G0q (aX m c) (sAgg0 m c) (sWa0 m c) (rowOf (ab0a m c)) (sWb0 m c) (rowOf (ab0b m c))
/-- Layer 0's mean and inverse deviation rows. -/
def sMu0 : FVec Ideal S1x96 .f32 := rowOf (muVec (sS0 m c G0s))
def sInv0 : FVec Ideal S1x96 .f32 := rowOf (invVec (sS0 m c G0s) (sQ0 m c G0q))
/-- Region 1's result: layer 0's output. -/
def sL1 : FVec Ideal S50000x96 .f32 := G1 (sH0 m c G0h) (sMu0 m c G0s) (sInv0 m c G0s G0q) (rowOf (aG0 m c)) (rowOf (aB0 m c))
/-- Its aggregate. -/
def sAgg1 : FVec Ideal S50000x96 .f32 := hostAgg (sL1 m c G0h G0s G0q) (aSrc m c) (aDst m c)
/-- Region 2's three results. -/
def sH1 : FVec Ideal S50000x96 .f32 := G2h (sL1 m c G0h G0s G0q) (sAgg1 m c G0h G0s G0q) (sWa1 m c) (rowOf (ab1a m c)) (sWb1 m c) (rowOf (ab1b m c))
def sS1 : FVec Ideal S1x96 .f32 := G2s (sL1 m c G0h G0s G0q) (sAgg1 m c G0h G0s G0q) (sWa1 m c) (rowOf (ab1a m c)) (sWb1 m c) (rowOf (ab1b m c))
def sQ1 : FVec Ideal S1x96 .f32 := G2q (sL1 m c G0h G0s G0q) (sAgg1 m c G0h G0s G0q) (sWa1 m c) (rowOf (ab1a m c)) (sWb1 m c) (rowOf (ab1b m c))
/-- Layer 1's mean and inverse deviation rows. -/
def sMu1 : FVec Ideal S1x96 .f32 := rowOf (muVec (sS1 m c G0h G0s G0q G2s))
def sInv1 : FVec Ideal S1x96 .f32 := rowOf (invVec (sS1 m c G0h G0s G0q G2s) (sQ1 m c G0h G0s G0q G2q))
/-- Region 3's result: the program's. -/
def sOut : FVec Ideal S50000x64 .f32 :=
  G3 (sH1 m c G0h G0s G0q G2h) (sMu1 m c G0h G0s G0q G2s) (sInv1 m c G0h G0s G0q G2s G2q) (rowOf (aG1 m c)) (rowOf (aB1 m c)) (sWp m c) (rowOf64 (abp m c))

/-! ## Every consumed buffer, at the boundary where it is consumed -/

variable (hf0 : Finals0 G0h G0s G0q) (hf2 : Finals2 G2h G2s G2q)

/-! ### Entering region 0: the first host stretch's results -/

theorem W1_v14 : W1 m c (Proc.devRef .tc main_v14) = sAgg0 m c := ho0_v14 (W0 m c)
theorem W1_v0 : W1 m c (Proc.devRef .tc main_v0) = sWa0 m c := ho0_v0 (W0 m c)
theorem W1_v1 : W1 m c (Proc.devRef .tc main_v1) = sWb0 m c := ho0_v1 (W0 m c)
theorem W1_v2 : W1 m c (Proc.devRef .tc main_v2) = sWa1 m c := ho0_v2 (W0 m c)
theorem W1_v3 : W1 m c (Proc.devRef .tc main_v3) = sWb1 m c := ho0_v3 (W0 m c)
theorem W1_v4 : W1 m c (Proc.devRef .tc main_v4) = sWp m c := ho0_v4 (W0 m c)
theorem W1_v15 : W1 m c (Proc.devRef .tc main_v15) = rowOf (ab0a m c) := ho0_v15 (W0 m c)
theorem W1_v16 : W1 m c (Proc.devRef .tc main_v16) = rowOf (ab0b m c) := ho0_v16 (W0 m c)

/-! ### Leaving region 0 -/

include hf0 in
theorem W2_v17_0 : W2 m c (Proc.devRef .tc main_v17_0) = sH0 m c G0h := by
  refine (W2_arr m c 6).trans ((hf0.f6 (V1 m) c).trans ?_)
  show G0h (W1 m c (Proc.devRef .tc main_arg0)) (W1 m c (Proc.devRef .tc main_v14)) (W1 m c (Proc.devRef .tc main_v0)) (W1 m c (Proc.devRef .tc main_v15)) (W1 m c (Proc.devRef .tc main_v1)) (W1 m c (Proc.devRef .tc main_v16)) = _
  rw [W1_arg0, W1_v14, W1_v0, W1_v15, W1_v1, W1_v16]; rfl
include hf0 in
theorem W2_v17_1 : W2 m c (Proc.devRef .tc main_v17_1) = sS0 m c G0s := by
  refine (W2_arr m c 7).trans ((hf0.f7 (V1 m) c).trans ?_)
  show G0s (W1 m c (Proc.devRef .tc main_arg0)) (W1 m c (Proc.devRef .tc main_v14)) (W1 m c (Proc.devRef .tc main_v0)) (W1 m c (Proc.devRef .tc main_v15)) (W1 m c (Proc.devRef .tc main_v1)) (W1 m c (Proc.devRef .tc main_v16)) = _
  rw [W1_arg0, W1_v14, W1_v0, W1_v15, W1_v1, W1_v16]; rfl
include hf0 in
theorem W2_v17_2 : W2 m c (Proc.devRef .tc main_v17_2) = sQ0 m c G0q := by
  refine (W2_arr m c 8).trans ((hf0.f8 (V1 m) c).trans ?_)
  show G0q (W1 m c (Proc.devRef .tc main_arg0)) (W1 m c (Proc.devRef .tc main_v14)) (W1 m c (Proc.devRef .tc main_v0)) (W1 m c (Proc.devRef .tc main_v15)) (W1 m c (Proc.devRef .tc main_v1)) (W1 m c (Proc.devRef .tc main_v16)) = _
  rw [W1_arg0, W1_v14, W1_v0, W1_v15, W1_v1, W1_v16]; rfl

/-! ### Entering region 1: the second host stretch's results -/

include hf0 in
theorem W3_v17_0 : W3 m c (Proc.devRef .tc main_v17_0) = sH0 m c G0h :=
  (W3_of m c main_v17_0 (by decide)).trans (W2_v17_0 m c G0h G0s G0q hf0)
include hf0 in
theorem W3_v29 : W3 m c (Proc.devRef .tc main_v29) = sMu0 m c G0s := by
  refine (ho1_v29 (W2 m c)).trans ?_
  rw [W2_v17_1 m c G0h G0s G0q hf0]; rfl
include hf0 in
theorem W3_v30 : W3 m c (Proc.devRef .tc main_v30) = sInv0 m c G0s G0q := by
  refine (ho1_v30 (W2 m c)).trans ?_
  rw [W2_v17_1 m c G0h G0s G0q hf0, W2_v17_2 m c G0h G0s G0q hf0]; rfl
theorem W3_v31 : W3 m c (Proc.devRef .tc main_v31) = rowOf (aG0 m c) := by
  refine (ho1_v31 (W2 m c)).trans ?_
  rw [W2_arg9]
theorem W3_v32 : W3 m c (Proc.devRef .tc main_v32) = rowOf (aB0 m c) := by
  refine (ho1_v32 (W2 m c)).trans ?_
  rw [W2_arg10]

/-! ### Leaving region 1 -/

include hf0 in
theorem W4_v33 : W4 m c (Proc.devRef .tc main_v33) = sL1 m c G0h G0s G0q := by
  refine (W4_arr m c 5).trans ((final1 (V3 m) c).trans ?_)
  show G1 (W3 m c (Proc.devRef .tc main_v17_0)) (W3 m c (Proc.devRef .tc main_v29)) (W3 m c (Proc.devRef .tc main_v30)) (W3 m c (Proc.devRef .tc main_v31)) (W3 m c (Proc.devRef .tc main_v32)) = _
  rw [W3_v17_0 m c G0h G0s G0q hf0, W3_v29 m c G0h G0s G0q hf0, W3_v30 m c G0h G0s G0q hf0, W3_v31, W3_v32]; rfl

/-! ### Entering region 2: the third host stretch's results, and the weights carried from the first -/

include hf0 in
theorem W5_v33 : W5 m c (Proc.devRef .tc main_v33) = sL1 m c G0h G0s G0q :=
  (W5_of m c main_v33 (by decide)).trans (W4_v33 m c G0h G0s G0q hf0)
include hf0 in
theorem W5_v43 : W5 m c (Proc.devRef .tc main_v43) = sAgg1 m c G0h G0s G0q := by
  refine (ho2_v43 (W4 m c)).trans ?_
  rw [W4_v33 m c G0h G0s G0q hf0, W4_arg15, W4_arg16]; rfl
theorem W5_v44 : W5 m c (Proc.devRef .tc main_v44) = rowOf (ab1a m c) := by
  refine (ho2_v44 (W4 m c)).trans ?_
  rw [W4_arg6]
theorem W5_v45 : W5 m c (Proc.devRef .tc main_v45) = rowOf (ab1b m c) := by
  refine (ho2_v45 (W4 m c)).trans ?_
  rw [W4_arg8]
theorem W5_v2 : W5 m c (Proc.devRef .tc main_v2) = sWa1 m c :=
  (W5_of m c main_v2 (by decide)).trans ((W4_of_ne m c main_v2 (by decide)).trans ((W3_of m c main_v2 (by decide)).trans ((W2_of_ne m c main_v2 (by decide)).trans (W1_v2 m c))))
theorem W5_v3 : W5 m c (Proc.devRef .tc main_v3) = sWb1 m c :=
  (W5_of m c main_v3 (by decide)).trans ((W4_of_ne m c main_v3 (by decide)).trans ((W3_of m c main_v3 (by decide)).trans ((W2_of_ne m c main_v3 (by decide)).trans (W1_v3 m c))))

/-! ### Leaving region 2 -/

include hf0 hf2 in
theorem W6_v46_0 : W6 m c (Proc.devRef .tc main_v46_0) = sH1 m c G0h G0s G0q G2h := by
  refine (W6_arr m c 6).trans ((hf2.f6 (V5 m) c).trans ?_)
  show G2h (W5 m c (Proc.devRef .tc main_v33)) (W5 m c (Proc.devRef .tc main_v43)) (W5 m c (Proc.devRef .tc main_v2)) (W5 m c (Proc.devRef .tc main_v44)) (W5 m c (Proc.devRef .tc main_v3)) (W5 m c (Proc.devRef .tc main_v45)) = _
  rw [W5_v33 m c G0h G0s G0q hf0, W5_v43 m c G0h G0s G0q hf0, W5_v2, W5_v44, W5_v3, W5_v45]; rfl
include hf0 hf2 in
theorem W6_v46_1 : W6 m c (Proc.devRef .tc main_v46_1) = sS1 m c G0h G0s G0q G2s := by
  refine (W6_arr m c 7).trans ((hf2.f7 (V5 m) c).trans ?_)
  show G2s (W5 m c (Proc.devRef .tc main_v33)) (W5 m c (Proc.devRef .tc main_v43)) (W5 m c (Proc.devRef .tc main_v2)) (W5 m c (Proc.devRef .tc main_v44)) (W5 m c (Proc.devRef .tc main_v3)) (W5 m c (Proc.devRef .tc main_v45)) = _
  rw [W5_v33 m c G0h G0s G0q hf0, W5_v43 m c G0h G0s G0q hf0, W5_v2, W5_v44, W5_v3, W5_v45]; rfl
include hf0 hf2 in
theorem W6_v46_2 : W6 m c (Proc.devRef .tc main_v46_2) = sQ1 m c G0h G0s G0q G2q := by
  refine (W6_arr m c 8).trans ((hf2.f8 (V5 m) c).trans ?_)
  show G2q (W5 m c (Proc.devRef .tc main_v33)) (W5 m c (Proc.devRef .tc main_v43)) (W5 m c (Proc.devRef .tc main_v2)) (W5 m c (Proc.devRef .tc main_v44)) (W5 m c (Proc.devRef .tc main_v3)) (W5 m c (Proc.devRef .tc main_v45)) = _
  rw [W5_v33 m c G0h G0s G0q hf0, W5_v43 m c G0h G0s G0q hf0, W5_v2, W5_v44, W5_v3, W5_v45]; rfl

/-! ### Entering region 3: the last host stretch's results, and the head's weights carried from the first -/

include hf0 hf2 in
theorem W7_v46_0 : W7 m c (Proc.devRef .tc main_v46_0) = sH1 m c G0h G0s G0q G2h :=
  (W7_of m c main_v46_0 (by decide)).trans (W6_v46_0 m c G0h G0s G0q G2h G2s G2q hf0 hf2)
include hf0 hf2 in
theorem W7_v58 : W7 m c (Proc.devRef .tc main_v58) = sMu1 m c G0h G0s G0q G2s := by
  refine (ho3_v58 (W6 m c)).trans ?_
  rw [W6_v46_1 m c G0h G0s G0q G2h G2s G2q hf0 hf2]; rfl
include hf0 hf2 in
theorem W7_v59 : W7 m c (Proc.devRef .tc main_v59) = sInv1 m c G0h G0s G0q G2s G2q := by
  refine (ho3_v59 (W6 m c)).trans ?_
  rw [W6_v46_1 m c G0h G0s G0q G2h G2s G2q hf0 hf2, W6_v46_2 m c G0h G0s G0q G2h G2s G2q hf0 hf2]; rfl
theorem W7_v60 : W7 m c (Proc.devRef .tc main_v60) = rowOf (aG1 m c) := by
  refine (ho3_v60 (W6 m c)).trans ?_
  rw [W6_arg11]
theorem W7_v61 : W7 m c (Proc.devRef .tc main_v61) = rowOf (aB1 m c) := by
  refine (ho3_v61 (W6 m c)).trans ?_
  rw [W6_arg12]
theorem W7_v62 : W7 m c (Proc.devRef .tc main_v62) = rowOf64 (abp m c) := by
  refine (ho3_v62 (W6 m c)).trans ?_
  rw [W6_arg14]
theorem W7_v4 : W7 m c (Proc.devRef .tc main_v4) = sWp m c :=
  (W7_of m c main_v4 (by decide)).trans ((W6_of_ne m c main_v4 (by decide)).trans ((W5_of m c main_v4 (by decide)).trans ((W4_of_ne m c main_v4 (by decide)).trans ((W3_of m c main_v4 (by decide)).trans ((W2_of_ne m c main_v4 (by decide)).trans (W1_v4 m c))))))

/-! ### Leaving region 3: the result -/

include hf0 hf2 in
/-- The program's result array is the last stage. -/
theorem W8_v63 : W8 m c (Proc.devRef .tc main_v63) = sOut m c G0h G0s G0q G2h G2s G2q := by
  refine (W8_arr m c 7).trans ((final3 (V7 m) c).trans ?_)
  show G3 (W7 m c (Proc.devRef .tc main_v46_0)) (W7 m c (Proc.devRef .tc main_v58)) (W7 m c (Proc.devRef .tc main_v59)) (W7 m c (Proc.devRef .tc main_v60)) (W7 m c (Proc.devRef .tc main_v61)) (W7 m c (Proc.devRef .tc main_v4)) (W7 m c (Proc.devRef .tc main_v62)) = _
  rw [W7_v46_0 m c G0h G0s G0q G2h G2s G2q hf0 hf2, W7_v58 m c G0h G0s G0q G2h G2s G2q hf0 hf2, W7_v59 m c G0h G0s G0q G2h G2s G2q hf0 hf2, W7_v60, W7_v61, W7_v4, W7_v62]; rfl

/-! ## The stages in the specification's vocabulary -/

variable (hl0 : MlpLinks G0h G0s G0q) (hl2 : MlpLinks G2h G2s G2q)

/-- The weights' change of format keeps their entries. -/
theorem mat_sWa0 : mat (sWa0 m c) = mat (aW0a m c) := mat_truncf _
theorem mat_sWb0 : mat (sWb0 m c) = mat (aW0b m c) := mat_truncf _
theorem mat_sWa1 : mat (sWa1 m c) = mat (aW1a m c) := mat_truncf _
theorem mat_sWb1 : mat (sWb1 m c) = mat (aW1b m c) := mat_truncf _
theorem mat_sWp : mat (sWp m c) = mat (aWp m c) := mat_truncf64 _

/-- The host's aggregation of an array is the specification's aggregate of its entries (onto zero). -/
theorem mat_hostAgg (X : FVec Ideal S50000x96 .f32) : mat (hostAgg X (aSrc m c) (aDst m c)) = aggK m c (mat X) := by
  funext v j
  exact hostAgg_apply X (aSrc m c) (aDst m c) v j

theorem mat_sAgg0 : mat (sAgg0 m c) = aggK m c (mat (aX m c)) := mat_hostAgg m c _

/-! ### Layer 0 -/

include hl0 in
theorem mat_sH0 : mat (sH0 m c G0h) = kH1 m c := by
  unfold sH0
  rw [hl0.h, mat_sAgg0, rowv_rowOf, rowv_rowOf, mat_sWa0, mat_sWb0]
include hl0 in
theorem rowv_sS0 : rowv (sS0 m c G0s) = Cert.NetSpec.colSum (kH1 m c) := by
  unfold sS0
  rw [hl0.s, mat_sAgg0, rowv_rowOf, rowv_rowOf, mat_sWa0, mat_sWb0]
include hl0 in
theorem rowv_sQ0 : rowv (sQ0 m c G0q) = Cert.NetSpec.colSumSq (kH1 m c) := by
  unfold sQ0
  rw [hl0.q, mat_sAgg0, rowv_rowOf, rowv_rowOf, mat_sWa0, mat_sWb0]
include hl0 in
theorem rowv_sMu0 : rowv (sMu0 m c G0s) = Cert.NetSpec.meanK kCnt (kH1 m c) := by
  unfold sMu0
  rw [rowv_rowOf]
  exact vecv_muVec_meanK _ _ (rowv_sS0 m c G0h G0s G0q hl0).symm
include hl0 in
theorem rowv_sInv0 : rowv (sInv0 m c G0s G0q) = Cert.NetSpec.invK kCnt kEps (kH1 m c) := by
  unfold sInv0
  rw [rowv_rowOf]
  exact vecv_invVec_invK _ _ _ (rowv_sS0 m c G0h G0s G0q hl0).symm (rowv_sQ0 m c G0h G0s G0q hl0).symm
include hl0 in
theorem mat_sL1 : mat (sL1 m c G0h G0s G0q) = kL1 m c := by
  unfold sL1
  rw [G1_spec, mat_sH0 m c G0h G0s G0q hl0, rowv_sMu0 m c G0h G0s G0q hl0, rowv_sInv0 m c G0h G0s G0q hl0, rowv_rowOf, rowv_rowOf]

/-! ### Layer 1 -/

include hl0 in
theorem mat_sAgg1 : mat (sAgg1 m c G0h G0s G0q) = aggK m c (kL1 m c) := by
  unfold sAgg1
  rw [mat_hostAgg, mat_sL1 m c G0h G0s G0q hl0]
include hl0 hl2 in
theorem mat_sH1 : mat (sH1 m c G0h G0s G0q G2h) = kH2 m c := by
  unfold sH1
  rw [hl2.h, mat_sL1 m c G0h G0s G0q hl0, mat_sAgg1 m c G0h G0s G0q hl0, rowv_rowOf, rowv_rowOf, mat_sWa1, mat_sWb1]
include hl0 hl2 in
theorem rowv_sS1 : rowv (sS1 m c G0h G0s G0q G2s) = Cert.NetSpec.colSum (kH2 m c) := by
  unfold sS1
  rw [hl2.s, mat_sL1 m c G0h G0s G0q hl0, mat_sAgg1 m c G0h G0s G0q hl0, rowv_rowOf, rowv_rowOf, mat_sWa1, mat_sWb1]
include hl0 hl2 in
theorem rowv_sQ1 : rowv (sQ1 m c G0h G0s G0q G2q) = Cert.NetSpec.colSumSq (kH2 m c) := by
  unfold sQ1
  rw [hl2.q, mat_sL1 m c G0h G0s G0q hl0, mat_sAgg1 m c G0h G0s G0q hl0, rowv_rowOf, rowv_rowOf, mat_sWa1, mat_sWb1]
include hl0 hl2 in
theorem rowv_sMu1 : rowv (sMu1 m c G0h G0s G0q G2s) = Cert.NetSpec.meanK kCnt (kH2 m c) := by
  unfold sMu1
  rw [rowv_rowOf]
  exact vecv_muVec_meanK _ _ (rowv_sS1 m c G0h G0s G0q G2h G2s G2q hl0 hl2).symm
include hl0 hl2 in
theorem rowv_sInv1 : rowv (sInv1 m c G0h G0s G0q G2s G2q) = Cert.NetSpec.invK kCnt kEps (kH2 m c) := by
  unfold sInv1
  rw [rowv_rowOf]
  exact vecv_invVec_invK _ _ _ (rowv_sS1 m c G0h G0s G0q G2h G2s G2q hl0 hl2).symm (rowv_sQ1 m c G0h G0s G0q G2h G2s G2q hl0 hl2).symm

/-! ### The head -/

include hl0 hl2 in
theorem mat_sOut : mat (sOut m c G0h G0s G0q G2h G2s G2q)
    = Cert.NetSpec.head (Cert.NetSpec.bnRelu (kH2 m c) (Cert.NetSpec.meanK kCnt (kH2 m c)) (Cert.NetSpec.invK kCnt kEps (kH2 m c))
        (vecv (aG1 m c)) (vecv (aB1 m c))) (mat (aWp m c)) (vecv (abp m c)) := by
  unfold sOut
  rw [G3_spec, mat_sH1 m c G0h G0s G0q G2h G2s G2q hl0 hl2, rowv_sMu1 m c G0h G0s G0q G2h G2s G2q hl0 hl2, rowv_sInv1 m c G0h G0s G0q G2h G2s G2q hl0 hl2, rowv_rowOf, rowv_rowOf, rowv_rowOf64, mat_sWp]

include hf0 hf2 hl0 hl2 in
/-- The program's result, entry by entry: the linear head of layer 1's batch-normalised, rectified perceptron, over
    layer 0's, over the features and the edge lists of the launch memory — given the two perceptron regions' results
    as functions (`hf0`, `hf2`) and those functions in the specification's vocabulary (`hl0`, `hl2`). -/
theorem kernel_spec_of :
    mat (φ := .f32) (W8 m c (Proc.devRef .tc main_v63) : FVec Ideal S50000x64 .f32)
      = Cert.NetSpec.head (Cert.NetSpec.bnRelu (kH2 m c) (Cert.NetSpec.meanK kCnt (kH2 m c)) (Cert.NetSpec.invK kCnt kEps (kH2 m c))
          (vecv (aG1 m c)) (vecv (aB1 m c))) (mat (aWp m c)) (vecv (abp m c)) :=
  (congrArg (mat (n := 50000) (d := 64) (φ := .f32)) (W8_v63 m c G0h G0s G0q G2h G2s G2q hf0 hf2)).trans (mat_sOut m c G0h G0s G0q G2h G2s G2q hl0 hl2)

end Chain

/-! ## The two perceptron regions' results -/

theorem links0 : MlpLinks G0_h2 G0_sum G0_sumsq := ⟨G0_h2_spec, G0_sum_spec, G0_sumsq_spec⟩
theorem links2 : MlpLinks G2_h2 G2_sum G2_sumsq := ⟨G2_h2_spec, G2_sum_spec, G2_sumsq_spec⟩
theorem finals0 : Finals0 G0_h2 G0_sum G0_sumsq := ⟨final0_6, final0_7, final0_8⟩
theorem finals2 : Finals2 G2_h2 G2_sum G2_sumsq := ⟨final2_6, final2_7, final2_8⟩

/-- The kernel program's result over the launch memory, stage by stage in the specification's vocabulary. -/
theorem kernel_spec_stages (m : (ℓ : Loc nD τ sig) → Buf (Elt Ideal) ℓ) (c : Dev nD) :
    mat (φ := .f32) (W8 m c (Proc.devRef .tc main_v63) : FVec Ideal S50000x64 .f32)
      = Cert.NetSpec.head (Cert.NetSpec.bnRelu (kH2 m c) (Cert.NetSpec.meanK kCnt (kH2 m c)) (Cert.NetSpec.invK kCnt kEps (kH2 m c))
          (vecv (aG1 m c)) (vecv (aB1 m c))) (mat (aWp m c)) (vecv (abp m c)) :=
  kernel_spec_of m c G0_h2 G0_sum G0_sumsq G2_h2 G2_sum G2_sumsq finals0 finals2 links0 links2

/-- THE KERNEL PROGRAM'S RESULT: the network in the kernel's form, of the seventeen argument arrays as launched. -/
theorem kernel_spec (m : (ℓ : Loc nD τ sig) → Buf (Elt Ideal) ℓ) (c : Dev nD) :
    Cert.NetBridge.mat (φ := .f32) (W8 m c (Proc.devRef .tc main_v63) : FVec Ideal S50000x64 .f32)
      = Cert.NetBridge.kNet (m ((c : Dev nD), Proc.devRef .tc main_arg0))
        (m ((c : Dev nD), Proc.devRef .tc main_arg1))
        (m ((c : Dev nD), Proc.devRef .tc main_arg2))
        (m ((c : Dev nD), Proc.devRef .tc main_arg3))
        (m ((c : Dev nD), Proc.devRef .tc main_arg4))
        (m ((c : Dev nD), Proc.devRef .tc main_arg5))
        (m ((c : Dev nD), Proc.devRef .tc main_arg6))
        (m ((c : Dev nD), Proc.devRef .tc main_arg7))
        (m ((c : Dev nD), Proc.devRef .tc main_arg8))
        (m ((c : Dev nD), Proc.devRef .tc main_arg9))
        (m ((c : Dev nD), Proc.devRef .tc main_arg10))
        (m ((c : Dev nD), Proc.devRef .tc main_arg11))
        (m ((c : Dev nD), Proc.devRef .tc main_arg12))
        (m ((c : Dev nD), Proc.devRef .tc main_arg13))
        (m ((c : Dev nD), Proc.devRef .tc main_arg14))
        (m ((c : Dev nD), Proc.devRef .tc main_arg15))
        (m ((c : Dev nD), Proc.devRef .tc main_arg16)) :=
  (kernel_spec_stages m c).trans rfl

end Cert.KernelIdeal.HandValue

end
-- ==== Proof.RefValueStages.lean ====
/- The reference program's line of operations cut into four consecutive stretches: the two index vectors (the edge
   lists with the self-loops appended), the first layer, the second layer, and the prediction head; with, for each
   stretch, the buffers it writes, so that any other buffer is known to keep its contents through it. -/
import proofs.«111056_j31628139167864_2_alg».proof.Proof.RefRun

noncomputable section

namespace Cert.ReferenceIdeal.RefValue

open Cert.ReferenceIdeal Cert.ReferenceIdeal.Gen Cert.ReferenceIdeal.RefRun Idealize.ShloMosaic Idealize.ShloMosaic.TcCoe Idealize.SL.Sem Idealize.ShloMosaic.StableHlo

variable {F : FTy → Type} [FloatOps F]

/-- The iota and the two concatenations: the source and destination index vectors with the self-loops appended. -/
abbrev pre : List (HloOp τ sig (Elt F)) :=
  [ StableHlo.nullary main_v0 (iotaInDim S50000 32 0),
    StableHlo.binary main_arg15 main_v0 main_v1 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.binary main_arg16 main_v0 main_v2 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)) ]

/-- The buffers the operations of `pre` write, in order. -/
abbrev preW : List (Ref sig .tc) :=
  [main_v0, main_v1, main_v2]

set_option maxRecDepth 8192 in
set_option maxHeartbeats 4000000 in
theorem pre_writes : (pre : List (HloOp τ sig (Elt F))).Forall fun op => op.writes ⊆ (preW.map (Proc.devRef (τ := τ) .tc)).toFinset := by
  simp only [List.Forall]
  refine ⟨?_, ?_, ?_⟩ <;>
    (simp only [nullary_writes, unary_writes, binary_writes, ternary_writes, Finset.singleton_subset_iff, List.mem_toFinset]
     exact List.mem_map_of_mem (by decide))

/-- A buffer that `pre` does not write keeps its contents through it. -/
theorem pre_keep (V : Valuation τ sig (Elt F)) (r : Ref sig .tc) (h : r ∉ preW) :
    after pre V (Proc.devRef .tc r) = V (Proc.devRef .tc r) :=
  after_of_writes_sub pre V pre_writes h

/-- The first layer: from the index wrap to the activation %44. -/
abbrev L1 : List (HloOp τ sig (Elt F)) :=
  [ StableHlo.nullary main_c (constantI S_ 32 0#32),
    StableHlo.unary main_c main_v3 (broadcastInDim S850000 ![] bcast_S_S850000 : (⟨S_, .i32⟩ : BufTy).Contents (Elt F) → (⟨S850000, .i32⟩ : BufTy).Contents (Elt F)),
    StableHlo.binary main_v1 main_v3 main_v4 (cmpi .slt : (⟨S850000, .i32⟩ : BufTy).Contents (Elt F) → (⟨S850000, .i32⟩ : BufTy).Contents (Elt F) → (⟨S850000, .i1⟩ : BufTy).Contents (Elt F)),
    StableHlo.nullary main_c_0 (constantI S_ 32 50000#32),
    StableHlo.unary main_c_0 main_v5 (broadcastInDim S850000 ![] bcast_S_S850000 : (⟨S_, .i32⟩ : BufTy).Contents (Elt F) → (⟨S850000, .i32⟩ : BufTy).Contents (Elt F)),
    StableHlo.binary main_v1 main_v5 main_v6 (addi : (⟨S850000, .i32⟩ : BufTy).Contents (Elt F) → (⟨S850000, .i32⟩ : BufTy).Contents (Elt F) → (⟨S850000, .i32⟩ : BufTy).Contents (Elt F)),
    StableHlo.ternary main_v4 main_v6 main_v1 main_v7 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v7 main_v8 (broadcastInDim S850000x1 ![0] bcast_S850000_S850000x1_0 : (⟨S850000, .i32⟩ : BufTy).Contents (Elt F) → (⟨S850000x1, .i32⟩ : BufTy).Contents (Elt F)),
    StableHlo.binary main_arg0 main_v8 main_v9 ((fun x i => Host.gather gather_S50000x96_S850000x1_S850000x96_1_0_n_n_0_1_196 x i) : (⟨S50000x96, .f32⟩ : BufTy).Contents (Elt F) → (⟨S850000x1, .i32⟩ : BufTy).Contents (Elt F) → (⟨S850000x96, .f32⟩ : BufTy).Contents (Elt F)),
    StableHlo.nullary main_cst (constant S_ .f32 0x00000000#32),
    StableHlo.unary main_cst main_v10 (broadcastInDim S50000x96 ![] bcast_S_S50000x96 : (⟨S_, .f32⟩ : BufTy).Contents (Elt F) → (⟨S50000x96, .f32⟩ : BufTy).Contents (Elt F)),
    StableHlo.unary main_v2 main_v11 (broadcastInDim S850000x1 ![0] bcast_S850000_S850000x1_0 : (⟨S850000, .i32⟩ : BufTy).Contents (Elt F) → (⟨S850000x1, .i32⟩ : BufTy).Contents (Elt F)),
    StableHlo.ternary main_v10 main_v11 main_v9 main_v12 ((fun x i u => Host.scatterAdd scatter_S50000x96_S850000x1_S850000x96_1_0_0_1 x i u) : (⟨S50000x96, .f32⟩ : BufTy).Contents (Elt F) → (⟨S850000x1, .i32⟩ : BufTy).Contents (Elt F) → (⟨S850000x96, .f32⟩ : BufTy).Contents (Elt F) → (⟨S50000x96, .f32⟩ : BufTy).Contents (Elt F)),
    StableHlo.binary main_arg0 main_v12 main_v13 (addf : (⟨S50000x96, .f32⟩ : BufTy).Contents (Elt F) → (⟨S50000x96, .f32⟩ : BufTy).Contents (Elt F) → (⟨S50000x96, .f32⟩ : BufTy).Contents (Elt F)),
    StableHlo.binary main_v13 main_arg1 main_v14 ((fun l r => Host.dotGeneral dot_S50000x96_S96x96_S50000x96_1_0_0_1_n_n none l r) : (⟨S50000x96, .f32⟩ : BufTy).Contents (Elt F) → (⟨S96x96, .f32⟩ : BufTy).Contents (Elt F) → (⟨S50000x96, .f32⟩ : BufTy).Contents (Elt F)),
    StableHlo.unary main_arg2 main_v15 (broadcastInDim S1x96 ![1] bcast_S96_S1x96_1 : (⟨S96, .f32⟩ : BufTy).Contents (Elt F) → (⟨S1x96, .f32⟩ : BufTy).Contents (Elt F)),
    StableHlo.unary main_v15 main_v16 (broadcastInDim S50000x96 ![0, 1] bcast_S1x96_S50000x96_0_1 : (⟨S1x96, .f32⟩ : BufTy).Contents (Elt F) → (⟨S50000x96, .f32⟩ : BufTy).Contents (Elt F)),
    StableHlo.binary main_v14 main_v16 main_v17 (addf : (⟨S50000x96, .f32⟩ : BufTy).Contents (Elt F) → (⟨S50000x96, .f32⟩ : BufTy).Contents (Elt F) → (⟨S50000x96, .f32⟩ : BufTy).Contents (Elt F)),
    StableHlo.nullary main_cst_1 (constant S_ .f32 0x00000000#32),
    StableHlo.unary main_cst_1 main_v18 (broadcastInDim S50000x96 ![] bcast_S_S50000x96 : (⟨S_, .f32⟩ : BufTy).Contents (Elt F) → (⟨S50000x96, .f32⟩ : BufTy).Contents (Elt F)),
    StableHlo.binary main_v17 main_v18 main_v19 (maximumf : (⟨S50000x96, .f32⟩ : BufTy).Contents (Elt F) → (⟨S50000x96, .f32⟩ : BufTy).Contents (Elt F) → (⟨S50000x96, .f32⟩ : BufTy).Contents (Elt F)),
    StableHlo.binary main_v19 main_arg3 main_v20 ((fun l r => Host.dotGeneral dot_S50000x96_S96x96_S50000x96_1_0_0_1_n_n none l r) : (⟨S50000x96, .f32⟩ : BufTy).Contents (Elt F) → (⟨S96x96, .f32⟩ : BufTy).Contents (Elt F) → (⟨S50000x96, .f32⟩ : BufTy).Contents (Elt F)),
    StableHlo.unary main_arg4 main_v21 (broadcastInDim S1x96 ![1] bcast_S96_S1x96_1 : (⟨S96, .f32⟩ : BufTy).Contents (Elt F) → (⟨S1x96, .f32⟩ : BufTy).Contents (Elt F)),
    StableHlo.unary main_v21 main_v22 (broadcastInDim S50000x96 ![0, 1] bcast_S1x96_S50000x96_0_1 : (⟨S1x96, .f32⟩ : BufTy).Contents (Elt F) → (⟨S50000x96, .f32⟩ : BufTy).Contents (Elt F)),
    StableHlo.binary main_v20 main_v22 main_v23 (addf : (⟨S50000x96, .f32⟩ : BufTy).Contents (Elt F) → (⟨S50000x96, .f32⟩ : BufTy).Contents (Elt F) → (⟨S50000x96, .f32⟩ : BufTy).Contents (Elt F)),
    StableHlo.nullary main_cst_2 (constant S_ .f32 0x00000000#32),
    StableHlo.binary main_v23 main_cst_2 main_v24 ((fun x v => Host.reduceAdd x v reducesTo_S50000x96_S96_d0 h_S_) : (⟨S50000x96, .f32⟩ : BufTy).Contents (Elt F) → (⟨S_, .f32⟩ : BufTy).Contents (Elt F) → (⟨S96, .f32⟩ : BufTy).Contents (Elt F)),
    StableHlo.nullary main_cst_3 (constant S_ .f32 0x47435000#32),
    StableHlo.unary main_cst_3 main_v25 (broadcastInDim S96 ![] bcast_S_S96 : (⟨S_, .f32⟩ : BufTy).Contents (Elt F) → (⟨S96, .f32⟩ : BufTy).Contents (Elt F)),
    StableHlo.binary main_v24 main_v25 main_v26 (Host.divf : (⟨S96, .f32⟩ : BufTy).Contents (Elt F) → (⟨S96, .f32⟩ : BufTy).Contents (Elt F) → (⟨S96, .f32⟩ : BufTy).Contents (Elt F)),
    StableHlo.nullary main_c_4 (constantI S_ 32 0#32),
    StableHlo.TRef.nullary main_call0.cst (constant S_ .f32 0x00000000#32),
    StableHlo.TRef.binary (.of main_v23 : StableHlo.TRef sig ⟨S50000x96, .f32⟩) main_call0.cst main_call0.v0 (fun x v => Host.reduceAdd x v reducesTo_S50000x96_S96_d0 h_S_),
    StableHlo.TRef.unary main_call0.v0 main_call0.v1 (broadcastInDim S1x96 ![1] bcast_S96_S1x96_1),
    StableHlo.TRef.nullary main_call0.cst_0 (constant S_ .f32 0x47435000#32),
    StableHlo.TRef.unary main_call0.cst_0 main_call0.v2 (broadcastInDim S1x96 ![] bcast_S_S1x96),
    StableHlo.TRef.binary main_call0.v1 main_call0.v2 main_call0.v3 Host.divf,
    StableHlo.TRef.unary main_call0.v3 main_call0.v4 (broadcastInDim S50000x96 ![0, 1] bcast_S1x96_S50000x96_0_1),
    StableHlo.TRef.binary (.of main_v23 : StableHlo.TRef sig ⟨S50000x96, .f32⟩) main_call0.v4 main_call0.v5 subf,
    StableHlo.TRef.binary main_call0.v5 main_call0.v5 main_call0.v6 mulf,
    StableHlo.TRef.unary (.of main_c_4 : StableHlo.TRef sig ⟨S_, .i32⟩) main_call0.v7 (sitofp .f32),
    StableHlo.TRef.nullary main_call0.cst_1 (constant S_ .f32 0x47435000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S50000x96_S96_d0 h_S_),
    StableHlo.TRef.unary main_call0.v8 main_call0.v10 (broadcastInDim S96 ![] bcast_S_S96),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S96 ![] bcast_S_S96),
    StableHlo.TRef.ternary main_call0.v12 main_call0.v11 main_call0.call0.v1 main_call0.call0.v2 (fun p a b => select (broadcastInDim S96 ![] bcast_S_S96 p) a b),
    StableHlo.unary main_v26 main_v28 (broadcastInDim S1x96 ![1] bcast_S96_S1x96_1 : (⟨S96, .f32⟩ : BufTy).Contents (Elt F) → (⟨S1x96, .f32⟩ : BufTy).Contents (Elt F)),
    StableHlo.unary main_v28 main_v29 (broadcastInDim S50000x96 ![0, 1] bcast_S1x96_S50000x96_0_1 : (⟨S1x96, .f32⟩ : BufTy).Contents (Elt F) → (⟨S50000x96, .f32⟩ : BufTy).Contents (Elt F)),
    StableHlo.binary main_v23 main_v29 main_v30 (subf : (⟨S50000x96, .f32⟩ : BufTy).Contents (Elt F) → (⟨S50000x96, .f32⟩ : BufTy).Contents (Elt F) → (⟨S50000x96, .f32⟩ : BufTy).Contents (Elt F)),
    StableHlo.nullary main_cst_5 (constant S_ .f32 0x3727C5AC#32),
    StableHlo.unary main_cst_5 main_v31 (broadcastInDim S96 ![] bcast_S_S96 : (⟨S_, .f32⟩ : BufTy).Contents (Elt F) → (⟨S96, .f32⟩ : BufTy).Contents (Elt F)),
    StableHlo.binary main_v27 main_v31 main_v32 (addf : (⟨S96, .f32⟩ : BufTy).Contents (Elt F) → (⟨S96, .f32⟩ : BufTy).Contents (Elt F) → (⟨S96, .f32⟩ : BufTy).Contents (Elt F)),
    StableHlo.unary main_v32 main_v33 (Host.rsqrt : (⟨S96, .f32⟩ : BufTy).Contents (Elt F) → (⟨S96, .f32⟩ : BufTy).Contents (Elt F)),
    StableHlo.unary main_v33 main_v34 (broadcastInDim S1x96 ![1] bcast_S96_S1x96_1 : (⟨S96, .f32⟩ : BufTy).Contents (Elt F) → (⟨S1x96, .f32⟩ : BufTy).Contents (Elt F)),
    StableHlo.unary main_v34 main_v35 (broadcastInDim S50000x96 ![0, 1] bcast_S1x96_S50000x96_0_1 : (⟨S1x96, .f32⟩ : BufTy).Contents (Elt F) → (⟨S50000x96, .f32⟩ : BufTy).Contents (Elt F)),
    StableHlo.binary main_v30 main_v35 main_v36 (mulf : (⟨S50000x96, .f32⟩ : BufTy).Contents (Elt F) → (⟨S50000x96, .f32⟩ : BufTy).Contents (Elt F) → (⟨S50000x96, .f32⟩ : BufTy).Contents (Elt F)),
    StableHlo.unary main_arg9 main_v37 (broadcastInDim S1x96 ![1] bcast_S96_S1x96_1 : (⟨S96, .f32⟩ : BufTy).Contents (Elt F) → (⟨S1x96, .f32⟩ : BufTy).Contents (Elt F)),
    StableHlo.unary main_v37 main_v38 (broadcastInDim S50000x96 ![0, 1] bcast_S1x96_S50000x96_0_1 : (⟨S1x96, .f32⟩ : BufTy).Contents (Elt F) → (⟨S50000x96, .f32⟩ : BufTy).Contents (Elt F)),
    StableHlo.binary main_v36 main_v38 main_v39 (mulf : (⟨S50000x96, .f32⟩ : BufTy).Contents (Elt F) → (⟨S50000x96, .f32⟩ : BufTy).Contents (Elt F) → (⟨S50000x96, .f32⟩ : BufTy).Contents (Elt F)),
    StableHlo.unary main_arg10 main_v40 (broadcastInDim S1x96 ![1] bcast_S96_S1x96_1 : (⟨S96, .f32⟩ : BufTy).Contents (Elt F) → (⟨S1x96, .f32⟩ : BufTy).Contents (Elt F)),
    StableHlo.unary main_v40 main_v41 (broadcastInDim S50000x96 ![0, 1] bcast_S1x96_S50000x96_0_1 : (⟨S1x96, .f32⟩ : BufTy).Contents (Elt F) → (⟨S50000x96, .f32⟩ : BufTy).Contents (Elt F)),
    StableHlo.binary main_v39 main_v41 main_v42 (addf : (⟨S50000x96, .f32⟩ : BufTy).Contents (Elt F) → (⟨S50000x96, .f32⟩ : BufTy).Contents (Elt F) → (⟨S50000x96, .f32⟩ : BufTy).Contents (Elt F)),
    StableHlo.nullary main_cst_6 (constant S_ .f32 0x00000000#32),
    StableHlo.unary main_cst_6 main_v43 (broadcastInDim S50000x96 ![] bcast_S_S50000x96 : (⟨S_, .f32⟩ : BufTy).Contents (Elt F) → (⟨S50000x96, .f32⟩ : BufTy).Contents (Elt F)),
    StableHlo.binary main_v42 main_v43 main_v44 (maximumf : (⟨S50000x96, .f32⟩ : BufTy).Contents (Elt F) → (⟨S50000x96, .f32⟩ : BufTy).Contents (Elt F) → (⟨S50000x96, .f32⟩ : BufTy).Contents (Elt F)) ]

/-- The buffers the operations of `L1` write, in order. -/
abbrev L1W : List (Ref sig .tc) :=
  [main_c, main_v3, main_v4, main_c_0, main_v5, main_v6, main_v7, main_v8, main_v9, main_cst,
   main_v10, main_v11, main_v12, main_v13, main_v14, main_v15, main_v16, main_v17, main_cst_1, main_v18,
   main_v19, main_v20, main_v21, main_v22, main_v23, main_cst_2, main_v24, main_cst_3, main_v25, main_v26,
   main_c_4, main_call0_cst, main_call0_v0, main_call0_v1, main_call0_cst_0, main_call0_v2, main_call0_v3, main_call0_v4, main_call0_v5, main_call0_v6,
   main_call0_v7, main_call0_cst_1, main_call0_v8, main_call0_cst_2, main_call0_v9, main_call0_v10, main_call0_v11, main_call0_cst_3, main_call0_v12, main_call0_cst_4,
   main_call0_call0_v0, main_call0_call0_v1, main_v27, main_v28, main_v29, main_v30, main_cst_5, main_v31, main_v32, main_v33,
   main_v34, main_v35, main_v36, main_v37, main_v38, main_v39, main_v40, main_v41, main_v42, main_cst_6,
   main_v43, main_v44]

set_option maxRecDepth 8192 in
set_option maxHeartbeats 4000000 in
theorem L1_writes : (L1 : List (HloOp τ sig (Elt F))).Forall fun op => op.writes ⊆ (L1W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_,
    ?_, ?_, ?_, ?_, ?_, ?_, ?_, ?_, ?_, ?_, ?_, ?_, ?_, ?_, ?_, ?_, ?_, ?_, ?_, ?_, ?_, ?_, ?_, ?_, ?_, ?_, ?_, ?_, ?_, ?_,
    ?_, ?_, ?_, ?_, ?_, ?_, ?_, ?_, ?_, ?_, ?_, ?_⟩ <;>
    (simp only [nullary_writes, unary_writes, binary_writes, ternary_writes, Finset.singleton_subset_iff, List.mem_toFinset]
     exact List.mem_map_of_mem (by decide))

/-- A buffer that `L1` does not write keeps its contents through it. -/
theorem L1_keep (V : Valuation τ sig (Elt F)) (r : Ref sig .tc) (h : r ∉ L1W) :
    after L1 V (Proc.devRef .tc r) = V (Proc.devRef .tc r) :=
  after_of_writes_sub L1 V L1_writes h

/-- The second layer: from the index wrap to the activation %86. -/
abbrev L2 : List (HloOp τ sig (Elt F)) :=
  [ StableHlo.nullary main_c_7 (constantI S_ 32 0#32),
    StableHlo.unary main_c_7 main_v45 (broadcastInDim S850000 ![] bcast_S_S850000 : (⟨S_, .i32⟩ : BufTy).Contents (Elt F) → (⟨S850000, .i32⟩ : BufTy).Contents (Elt F)),
    StableHlo.binary main_v1 main_v45 main_v46 (cmpi .slt : (⟨S850000, .i32⟩ : BufTy).Contents (Elt F) → (⟨S850000, .i32⟩ : BufTy).Contents (Elt F) → (⟨S850000, .i1⟩ : BufTy).Contents (Elt F)),
    StableHlo.nullary main_c_8 (constantI S_ 32 50000#32),
    StableHlo.unary main_c_8 main_v47 (broadcastInDim S850000 ![] bcast_S_S850000 : (⟨S_, .i32⟩ : BufTy).Contents (Elt F) → (⟨S850000, .i32⟩ : BufTy).Contents (Elt F)),
    StableHlo.binary main_v1 main_v47 main_v48 (addi : (⟨S850000, .i32⟩ : BufTy).Contents (Elt F) → (⟨S850000, .i32⟩ : BufTy).Contents (Elt F) → (⟨S850000, .i32⟩ : BufTy).Contents (Elt F)),
    StableHlo.ternary main_v46 main_v48 main_v1 main_v49 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v49 main_v50 (broadcastInDim S850000x1 ![0] bcast_S850000_S850000x1_0 : (⟨S850000, .i32⟩ : BufTy).Contents (Elt F) → (⟨S850000x1, .i32⟩ : BufTy).Contents (Elt F)),
    StableHlo.binary main_v44 main_v50 main_v51 ((fun x i => Host.gather gather_S50000x96_S850000x1_S850000x96_1_0_n_n_0_1_196 x i) : (⟨S50000x96, .f32⟩ : BufTy).Contents (Elt F) → (⟨S850000x1, .i32⟩ : BufTy).Contents (Elt F) → (⟨S850000x96, .f32⟩ : BufTy).Contents (Elt F)),
    StableHlo.nullary main_cst_9 (constant S_ .f32 0x00000000#32),
    StableHlo.unary main_cst_9 main_v52 (broadcastInDim S50000x96 ![] bcast_S_S50000x96 : (⟨S_, .f32⟩ : BufTy).Contents (Elt F) → (⟨S50000x96, .f32⟩ : BufTy).Contents (Elt F)),
    StableHlo.unary main_v2 main_v53 (broadcastInDim S850000x1 ![0] bcast_S850000_S850000x1_0 : (⟨S850000, .i32⟩ : BufTy).Contents (Elt F) → (⟨S850000x1, .i32⟩ : BufTy).Contents (Elt F)),
    StableHlo.ternary main_v52 main_v53 main_v51 main_v54 ((fun x i u => Host.scatterAdd scatter_S50000x96_S850000x1_S850000x96_1_0_0_1 x i u) : (⟨S50000x96, .f32⟩ : BufTy).Contents (Elt F) → (⟨S850000x1, .i32⟩ : BufTy).Contents (Elt F) → (⟨S850000x96, .f32⟩ : BufTy).Contents (Elt F) → (⟨S50000x96, .f32⟩ : BufTy).Contents (Elt F)),
    StableHlo.binary main_v44 main_v54 main_v55 (addf : (⟨S50000x96, .f32⟩ : BufTy).Contents (Elt F) → (⟨S50000x96, .f32⟩ : BufTy).Contents (Elt F) → (⟨S50000x96, .f32⟩ : BufTy).Contents (Elt F)),
    StableHlo.binary main_v55 main_arg5 main_v56 ((fun l r => Host.dotGeneral dot_S50000x96_S96x96_S50000x96_1_0_0_1_n_n none l r) : (⟨S50000x96, .f32⟩ : BufTy).Contents (Elt F) → (⟨S96x96, .f32⟩ : BufTy).Contents (Elt F) → (⟨S50000x96, .f32⟩ : BufTy).Contents (Elt F)),
    StableHlo.unary main_arg6 main_v57 (broadcastInDim S1x96 ![1] bcast_S96_S1x96_1 : (⟨S96, .f32⟩ : BufTy).Contents (Elt F) → (⟨S1x96, .f32⟩ : BufTy).Contents (Elt F)),
    StableHlo.unary main_v57 main_v58 (broadcastInDim S50000x96 ![0, 1] bcast_S1x96_S50000x96_0_1 : (⟨S1x96, .f32⟩ : BufTy).Contents (Elt F) → (⟨S50000x96, .f32⟩ : BufTy).Contents (Elt F)),
    StableHlo.binary main_v56 main_v58 main_v59 (addf : (⟨S50000x96, .f32⟩ : BufTy).Contents (Elt F) → (⟨S50000x96, .f32⟩ : BufTy).Contents (Elt F) → (⟨S50000x96, .f32⟩ : BufTy).Contents (Elt F)),
    StableHlo.nullary main_cst_10 (constant S_ .f32 0x00000000#32),
    StableHlo.unary main_cst_10 main_v60 (broadcastInDim S50000x96 ![] bcast_S_S50000x96 : (⟨S_, .f32⟩ : BufTy).Contents (Elt F) → (⟨S50000x96, .f32⟩ : BufTy).Contents (Elt F)),
    StableHlo.binary main_v59 main_v60 main_v61 (maximumf : (⟨S50000x96, .f32⟩ : BufTy).Contents (Elt F) → (⟨S50000x96, .f32⟩ : BufTy).Contents (Elt F) → (⟨S50000x96, .f32⟩ : BufTy).Contents (Elt F)),
    StableHlo.binary main_v61 main_arg7 main_v62 ((fun l r => Host.dotGeneral dot_S50000x96_S96x96_S50000x96_1_0_0_1_n_n none l r) : (⟨S50000x96, .f32⟩ : BufTy).Contents (Elt F) → (⟨S96x96, .f32⟩ : BufTy).Contents (Elt F) → (⟨S50000x96, .f32⟩ : BufTy).Contents (Elt F)),
    StableHlo.unary main_arg8 main_v63 (broadcastInDim S1x96 ![1] bcast_S96_S1x96_1 : (⟨S96, .f32⟩ : BufTy).Contents (Elt F) → (⟨S1x96, .f32⟩ : BufTy).Contents (Elt F)),
    StableHlo.unary main_v63 main_v64 (broadcastInDim S50000x96 ![0, 1] bcast_S1x96_S50000x96_0_1 : (⟨S1x96, .f32⟩ : BufTy).Contents (Elt F) → (⟨S50000x96, .f32⟩ : BufTy).Contents (Elt F)),
    StableHlo.binary main_v62 main_v64 main_v65 (addf : (⟨S50000x96, .f32⟩ : BufTy).Contents (Elt F) → (⟨S50000x96, .f32⟩ : BufTy).Contents (Elt F) → (⟨S50000x96, .f32⟩ : BufTy).Contents (Elt F)),
    StableHlo.nullary main_cst_11 (constant S_ .f32 0x00000000#32),
    StableHlo.binary main_v65 main_cst_11 main_v66 ((fun x v => Host.reduceAdd x v reducesTo_S50000x96_S96_d0 h_S_) : (⟨S50000x96, .f32⟩ : BufTy).Contents (Elt F) → (⟨S_, .f32⟩ : BufTy).Contents (Elt F) → (⟨S96, .f32⟩ : BufTy).Contents (Elt F)),
    StableHlo.nullary main_cst_12 (constant S_ .f32 0x47435000#32),
    StableHlo.unary main_cst_12 main_v67 (broadcastInDim S96 ![] bcast_S_S96 : (⟨S_, .f32⟩ : BufTy).Contents (Elt F) → (⟨S96, .f32⟩ : BufTy).Contents (Elt F)),
    StableHlo.binary main_v66 main_v67 main_v68 (Host.divf : (⟨S96, .f32⟩ : BufTy).Contents (Elt F) → (⟨S96, .f32⟩ : BufTy).Contents (Elt F) → (⟨S96, .f32⟩ : BufTy).Contents (Elt F)),
    StableHlo.nullary main_c_13 (constantI S_ 32 0#32),
    StableHlo.TRef.nullary main_call1.cst (constant S_ .f32 0x00000000#32),
    StableHlo.TRef.binary (.of main_v65 : StableHlo.TRef sig ⟨S50000x96, .f32⟩) main_call1.cst main_call1.v0 (fun x v => Host.reduceAdd x v reducesTo_S50000x96_S96_d0 h_S_),
    StableHlo.TRef.unary main_call1.v0 main_call1.v1 (broadcastInDim S1x96 ![1] bcast_S96_S1x96_1),
    StableHlo.TRef.nullary main_call1.cst_0 (constant S_ .f32 0x47435000#32),
    StableHlo.TRef.unary main_call1.cst_0 main_call1.v2 (broadcastInDim S1x96 ![] bcast_S_S1x96),
    StableHlo.TRef.binary main_call1.v1 main_call1.v2 main_call1.v3 Host.divf,
    StableHlo.TRef.unary main_call1.v3 main_call1.v4 (broadcastInDim S50000x96 ![0, 1] bcast_S1x96_S50000x96_0_1),
    StableHlo.TRef.binary (.of main_v65 : StableHlo.TRef sig ⟨S50000x96, .f32⟩) main_call1.v4 main_call1.v5 subf,
    StableHlo.TRef.binary main_call1.v5 main_call1.v5 main_call1.v6 mulf,
    StableHlo.TRef.unary (.of main_c_13 : StableHlo.TRef sig ⟨S_, .i32⟩) main_call1.v7 (sitofp .f32),
    StableHlo.TRef.nullary main_call1.cst_1 (constant S_ .f32 0x47435000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S50000x96_S96_d0 h_S_),
    StableHlo.TRef.unary main_call1.v8 main_call1.v10 (broadcastInDim S96 ![] bcast_S_S96),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S96 ![] bcast_S_S96),
    StableHlo.TRef.ternary main_call1.v12 main_call1.v11 main_call1.call0.v1 main_call1.call0.v2 (fun p a b => select (broadcastInDim S96 ![] bcast_S_S96 p) a b),
    StableHlo.unary main_v68 main_v70 (broadcastInDim S1x96 ![1] bcast_S96_S1x96_1 : (⟨S96, .f32⟩ : BufTy).Contents (Elt F) → (⟨S1x96, .f32⟩ : BufTy).Contents (Elt F)),
    StableHlo.unary main_v70 main_v71 (broadcastInDim S50000x96 ![0, 1] bcast_S1x96_S50000x96_0_1 : (⟨S1x96, .f32⟩ : BufTy).Contents (Elt F) → (⟨S50000x96, .f32⟩ : BufTy).Contents (Elt F)),
    StableHlo.binary main_v65 main_v71 main_v72 (subf : (⟨S50000x96, .f32⟩ : BufTy).Contents (Elt F) → (⟨S50000x96, .f32⟩ : BufTy).Contents (Elt F) → (⟨S50000x96, .f32⟩ : BufTy).Contents (Elt F)),
    StableHlo.nullary main_cst_14 (constant S_ .f32 0x3727C5AC#32),
    StableHlo.unary main_cst_14 main_v73 (broadcastInDim S96 ![] bcast_S_S96 : (⟨S_, .f32⟩ : BufTy).Contents (Elt F) → (⟨S96, .f32⟩ : BufTy).Contents (Elt F)),
    StableHlo.binary main_v69 main_v73 main_v74 (addf : (⟨S96, .f32⟩ : BufTy).Contents (Elt F) → (⟨S96, .f32⟩ : BufTy).Contents (Elt F) → (⟨S96, .f32⟩ : BufTy).Contents (Elt F)),
    StableHlo.unary main_v74 main_v75 (Host.rsqrt : (⟨S96, .f32⟩ : BufTy).Contents (Elt F) → (⟨S96, .f32⟩ : BufTy).Contents (Elt F)),
    StableHlo.unary main_v75 main_v76 (broadcastInDim S1x96 ![1] bcast_S96_S1x96_1 : (⟨S96, .f32⟩ : BufTy).Contents (Elt F) → (⟨S1x96, .f32⟩ : BufTy).Contents (Elt F)),
    StableHlo.unary main_v76 main_v77 (broadcastInDim S50000x96 ![0, 1] bcast_S1x96_S50000x96_0_1 : (⟨S1x96, .f32⟩ : BufTy).Contents (Elt F) → (⟨S50000x96, .f32⟩ : BufTy).Contents (Elt F)),
    StableHlo.binary main_v72 main_v77 main_v78 (mulf : (⟨S50000x96, .f32⟩ : BufTy).Contents (Elt F) → (⟨S50000x96, .f32⟩ : BufTy).Contents (Elt F) → (⟨S50000x96, .f32⟩ : BufTy).Contents (Elt F)),
    StableHlo.unary main_arg11 main_v79 (broadcastInDim S1x96 ![1] bcast_S96_S1x96_1 : (⟨S96, .f32⟩ : BufTy).Contents (Elt F) → (⟨S1x96, .f32⟩ : BufTy).Contents (Elt F)),
    StableHlo.unary main_v79 main_v80 (broadcastInDim S50000x96 ![0, 1] bcast_S1x96_S50000x96_0_1 : (⟨S1x96, .f32⟩ : BufTy).Contents (Elt F) → (⟨S50000x96, .f32⟩ : BufTy).Contents (Elt F)),
    StableHlo.binary main_v78 main_v80 main_v81 (mulf : (⟨S50000x96, .f32⟩ : BufTy).Contents (Elt F) → (⟨S50000x96, .f32⟩ : BufTy).Contents (Elt F) → (⟨S50000x96, .f32⟩ : BufTy).Contents (Elt F)),
    StableHlo.unary main_arg12 main_v82 (broadcastInDim S1x96 ![1] bcast_S96_S1x96_1 : (⟨S96, .f32⟩ : BufTy).Contents (Elt F) → (⟨S1x96, .f32⟩ : BufTy).Contents (Elt F)),
    StableHlo.unary main_v82 main_v83 (broadcastInDim S50000x96 ![0, 1] bcast_S1x96_S50000x96_0_1 : (⟨S1x96, .f32⟩ : BufTy).Contents (Elt F) → (⟨S50000x96, .f32⟩ : BufTy).Contents (Elt F)),
    StableHlo.binary main_v81 main_v83 main_v84 (addf : (⟨S50000x96, .f32⟩ : BufTy).Contents (Elt F) → (⟨S50000x96, .f32⟩ : BufTy).Contents (Elt F) → (⟨S50000x96, .f32⟩ : BufTy).Contents (Elt F)),
    StableHlo.nullary main_cst_15 (constant S_ .f32 0x00000000#32),
    StableHlo.unary main_cst_15 main_v85 (broadcastInDim S50000x96 ![] bcast_S_S50000x96 : (⟨S_, .f32⟩ : BufTy).Contents (Elt F) → (⟨S50000x96, .f32⟩ : BufTy).Contents (Elt F)),
    StableHlo.binary main_v84 main_v85 main_v86 (maximumf : (⟨S50000x96, .f32⟩ : BufTy).Contents (Elt F) → (⟨S50000x96, .f32⟩ : BufTy).Contents (Elt F) → (⟨S50000x96, .f32⟩ : BufTy).Contents (Elt F)) ]

/-- The buffers the operations of `L2` write, in order. -/
abbrev L2W : List (Ref sig .tc) :=
  [main_c_7, main_v45, main_v46, main_c_8, main_v47, main_v48, main_v49, main_v50, main_v51, main_cst_9,
   main_v52, main_v53, main_v54, main_v55, main_v56, main_v57, main_v58, main_v59, main_cst_10, main_v60,
   main_v61, main_v62, main_v63, main_v64, main_v65, main_cst_11, main_v66, main_cst_12, main_v67, main_v68,
   main_c_13, main_call1_cst, main_call1_v0, main_call1_v1, main_call1_cst_0, main_call1_v2, main_call1_v3, main_call1_v4, main_call1_v5, main_call1_v6,
   main_call1_v7, main_call1_cst_1, main_call1_v8, main_call1_cst_2, main_call1_v9, main_call1_v10, main_call1_v11, main_call1_cst_3, main_call1_v12, main_call1_cst_4,
   main_call1_call0_v0, main_call1_call0_v1, main_v69, main_v70, main_v71, main_v72, main_cst_14, main_v73, main_v74, main_v75,
   main_v76, main_v77, main_v78, main_v79, main_v80, main_v81, main_v82, main_v83, main_v84, main_cst_15,
   main_v85, main_v86]

set_option maxRecDepth 8192 in
set_option maxHeartbeats 4000000 in
theorem L2_writes : (L2 : List (HloOp τ sig (Elt F))).Forall fun op => op.writes ⊆ (L2W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_,
    ?_, ?_, ?_, ?_, ?_, ?_, ?_, ?_, ?_, ?_, ?_, ?_, ?_, ?_, ?_, ?_, ?_, ?_, ?_, ?_, ?_, ?_, ?_, ?_, ?_, ?_, ?_, ?_, ?_, ?_,
    ?_, ?_, ?_, ?_, ?_, ?_, ?_, ?_, ?_, ?_, ?_, ?_⟩ <;>
    (simp only [nullary_writes, unary_writes, binary_writes, ternary_writes, Finset.singleton_subset_iff, List.mem_toFinset]
     exact List.mem_map_of_mem (by decide))

/-- A buffer that `L2` does not write keeps its contents through it. -/
theorem L2_keep (V : Valuation τ sig (Elt F)) (r : Ref sig .tc) (h : r ∉ L2W) :
    after L2 V (Proc.devRef .tc r) = V (Proc.devRef .tc r) :=
  after_of_writes_sub L2 V L2_writes h

/-- The prediction head: %87 … %90. -/
abbrev hd : List (HloOp τ sig (Elt F)) :=
  [ StableHlo.binary main_v86 main_arg13 main_v87 ((fun l r => Host.dotGeneral dot_S50000x96_S96x64_S50000x64_1_0_0_1_n_n none l r) : (⟨S50000x96, .f32⟩ : BufTy).Contents (Elt F) → (⟨S96x64, .f32⟩ : BufTy).Contents (Elt F) → (⟨S50000x64, .f32⟩ : BufTy).Contents (Elt F)),
    StableHlo.unary main_arg14 main_v88 (broadcastInDim S1x64 ![1] bcast_S64_S1x64_1 : (⟨S64, .f32⟩ : BufTy).Contents (Elt F) → (⟨S1x64, .f32⟩ : BufTy).Contents (Elt F)),
    StableHlo.unary main_v88 main_v89 (broadcastInDim S50000x64 ![0, 1] bcast_S1x64_S50000x64_0_1 : (⟨S1x64, .f32⟩ : BufTy).Contents (Elt F) → (⟨S50000x64, .f32⟩ : BufTy).Contents (Elt F)),
    StableHlo.binary main_v87 main_v89 main_v90 (addf : (⟨S50000x64, .f32⟩ : BufTy).Contents (Elt F) → (⟨S50000x64, .f32⟩ : BufTy).Contents (Elt F) → (⟨S50000x64, .f32⟩ : BufTy).Contents (Elt F)) ]

/-- The buffers the operations of `hd` write, in order. -/
abbrev hdW : List (Ref sig .tc) :=
  [main_v87, main_v88, main_v89, main_v90]

set_option maxRecDepth 8192 in
set_option maxHeartbeats 4000000 in
theorem hd_writes : (hd : List (HloOp τ sig (Elt F))).Forall fun op => op.writes ⊆ (hdW.map (Proc.devRef (τ := τ) .tc)).toFinset := by
  simp only [List.Forall]
  refine ⟨?_, ?_, ?_, ?_⟩ <;>
    (simp only [nullary_writes, unary_writes, binary_writes, ternary_writes, Finset.singleton_subset_iff, List.mem_toFinset]
     exact List.mem_map_of_mem (by decide))

/-- A buffer that `hd` does not write keeps its contents through it. -/
theorem hd_keep (V : Valuation τ sig (Elt F)) (r : Ref sig .tc) (h : r ∉ hdW) :
    after hd V (Proc.devRef .tc r) = V (Proc.devRef .tc r) :=
  after_of_writes_sub hd V hd_writes h

/-- The whole line is the four stretches in order. -/
theorem ops_split : (ops : List (HloOp τ sig (Elt F))) = pre ++ (L1 ++ (L2 ++ hd)) := rfl

/-- The fold over the whole line is the folds over the four stretches, in order. -/
theorem after_ops (V : Valuation τ sig (Elt F)) :
    after ops V = after hd (after L2 (after L1 (after pre V))) := by
  rw [ops_split, after_append', after_append', after_append']

end Cert.ReferenceIdeal.RefValue

end
-- ==== Proof.LibReadResults.lean ====
/-
  Reading a straight line of whole-array operations at one buffer.

  A line of operations run from given buffer contents leaves, at the buffer one of them writes, that operation's function
  of what its operand buffers held just before, and at any other buffer what was there. Unwinding this from the last
  operation to the first gives the buffer's final contents as one composed term over the starting contents, with the
  starting contents of the buffers read left as explicit leaves.

  `read_results` does the unwinding in one pass for a goal `StableHlo.after ops V (Proc.devRef .tc r) = …` (or an
  equation between two such folds) over literal lists of the nullary / unary / binary / ternary / quaternary / reshape
  builders. It differs from a plain one-pass reading in one point: the function of a two-operand operation is applied
  only AFTER its two operands have been read (`ap2`, unfolded last). A two-operand join (a concatenate) takes its pieces
  as a list of pairs of a shape and an array, and a rewriting pass does not rewrite inside such a pair; applied too early
  the function would bury the still unread operands there. With the leaves exposed, two programs that run the same
  operations on buffers named differently are compared by rewriting the leaves and `rfl`. Generic in the signature and
  the value types.
-/
import Idealize.ShloMosaic.Lib.StableHlo.Run

noncomputable section

namespace Cert.LibReadResults

open Idealize.ShloMosaic

/-- `f x y`, kept folded while the two operands are being read. -/
def ap2 {α β γ : Type} (f : α → β → γ) (x : α) (y : β) : γ := f x y

section
variable {τ : Topo} {sig : RefSig} {Val : EltTy → Type} {a b y : Ref sig .tc}
/-- A two-operand operation's result at its own buffer: its function, kept folded, of the operands' contents. -/
theorem binary_ap2 (f : a.ty.Contents Val → b.ty.Contents Val → y.ty.Contents Val) (ha hb hy) (F : Valuation τ sig Val) :
    (StableHlo.binary (τ := τ) a b y f ha hb hy).result F (no_index (Proc.devRef .tc y))
      = ap2 f (F (Proc.devRef .tc a)) (F (Proc.devRef .tc b)) := StableHlo.binary_result a b y f ha hb hy F
end

/-- Reads a fold of literal operations at a literal buffer as the operations' composed term over the starting contents:
    one pass that replaces each operation's result at its own buffer by its function of the operands' contents and at
    any other buffer by what was there, the function of a two-operand operation applied only after its operands have
    been read (a joined array takes its pieces as pairs of a shape and an array, and the pass does not rewrite inside
    such a pair). -/
macro "read_results" : tactic =>
  `(tactic| (simp (disch := decide) only [StableHlo.after_cons, StableHlo.after_nil,
      StableHlo.nullary_result', StableHlo.unary_result', binary_ap2, StableHlo.ternary_result', StableHlo.quaternary_result', StableHlo.reshape_result',
      StableHlo.nullary_result_ne', StableHlo.unary_result_ne', StableHlo.binary_result_ne', StableHlo.ternary_result_ne', StableHlo.quaternary_result_ne', StableHlo.reshape_result_ne']; simp only [ap2]))

end Cert.LibReadResults

end
-- ==== Proof.RefValueHost.lean ====
/- The reference program's result as a composition of whole-array functions: one function for a layer (neighbour sum,
   two-layer perceptron, batch normalisation over the rows, rectifier), used twice, and one for the prediction head;
   and the reading of the line of operations, stretch by stretch, as that composition. -/
import proofs.«111056_j31628139167864_2_alg».proof.Proof.RefValueStages
import proofs.«111056_j31628139167864_2_alg».proof.Proof.LibReadResults

noncomputable section

namespace Cert.ReferenceIdeal.RefValue

open Cert.ReferenceIdeal Cert.ReferenceIdeal.Gen Cert.ReferenceIdeal.RefRun Idealize.ShloMosaic Idealize.ShloMosaic.TcCoe Idealize.SL.Sem Idealize.ShloMosaic.StableHlo Cert.LibReadResults

variable {F : FTy → Type} [FloatOps F]

/-- The zero matrix (a splat of the zero word). -/
def zeros : FVec F S50000x96 .f32 :=
  broadcastInDim S50000x96 ![] bcast_S_S50000x96 (constant S_ .f32 0x00000000#32)

/-- A vector of 96 entries repeated down the 50000 rows. -/
def rowB (b : FVec F S96 .f32) : FVec F S50000x96 .f32 :=
  broadcastInDim S50000x96 ![0, 1] bcast_S1x96_S50000x96_0_1 (broadcastInDim S1x96 ![1] bcast_S96_S1x96_1 b)

/-- An index vector with the self-loop indices 0 … 49999 appended. -/
def catIota (a : IVec S800000 32) : IVec S850000 32 :=
  concatenate S850000 0 [⟨S800000, a⟩, ⟨S50000, iotaInDim S50000 32 0⟩] concatenates_S800000_S50000_S850000_d0

/-- The source indices as a column, a negative index wrapped by the number of rows (%3 … %8). -/
def wrapCol (S : IVec S850000 32) : IVec S850000x1 32 :=
  broadcastInDim S850000x1 ![0] bcast_S850000_S850000x1_0
    (select (cmpi .slt S (broadcastInDim S850000 ![] bcast_S_S850000 (constantI S_ 32 0#32)))
      (addi S (broadcastInDim S850000 ![] bcast_S_S850000 (constantI S_ 32 50000#32))) S)

/-- The destination indices as a column (%11). -/
def colOf (D : IVec S850000 32) : IVec S850000x1 32 :=
  broadcastInDim S850000x1 ![0] bcast_S850000_S850000x1_0 D

/-- The neighbour sum (%9 … %12): the rows of `X` gathered along the sources, accumulated onto zero along the destinations. -/
def hostAgg (X : FVec F S50000x96 .f32) (S D : IVec S850000 32) : FVec F S50000x96 .f32 :=
  Host.scatterAdd scatter_S50000x96_S850000x1_S850000x96_1_0_0_1 zeros (colOf D) (Host.gather gather_S50000x96_S850000x1_S850000x96_1_0_n_n_0_1_196 X (wrapCol S))

/-- The two-layer perceptron (%14 … %23). -/
def hostMlp (P : FVec F S50000x96 .f32) (Wa : FVec F S96x96 .f32) (ba : FVec F S96 .f32)
    (Wb : FVec F S96x96 .f32) (bb : FVec F S96 .f32) : FVec F S50000x96 .f32 :=
  addf (Host.dotGeneral dot_S50000x96_S96x96_S50000x96_1_0_0_1_n_n none
      (maximumf (addf (Host.dotGeneral dot_S50000x96_S96x96_S50000x96_1_0_0_1_n_n none P Wa) (rowB ba)) zeros) Wb) (rowB bb)

/-- The column means (%24 … %26). -/
def hostMean (H : FVec F S50000x96 .f32) : FVec F S96 .f32 :=
  Host.divf (Host.reduceAdd H (constant S_ .f32 0x00000000#32) reducesTo_S50000x96_S96_d0 h_S_)
    (broadcastInDim S96 ![] bcast_S_S96 (constant S_ .f32 0x47435000#32))

/-- The deviations from the column means inside the variance function (its %0 … %5). -/
def varDev (H : FVec F S50000x96 .f32) : FVec F S50000x96 .f32 :=
  subf H (broadcastInDim S50000x96 ![0, 1] bcast_S1x96_S50000x96_0_1
    (Host.divf (broadcastInDim S1x96 ![1] bcast_S96_S1x96_1
        (Host.reduceAdd H (constant S_ .f32 0x00000000#32) reducesTo_S50000x96_S96_d0 h_S_))
      (broadcastInDim S1x96 ![] bcast_S_S1x96 (constant S_ .f32 0x47435000#32))))

/-- The variance function's divisor (its %7, %8): the row count less the correction 0, converted from the integer. -/
def varCount : FVec F S_ .f32 :=
  subf (constant S_ .f32 0x47435000#32) (sitofp .f32 (constantI S_ 32 0#32 : IVec S_ 32) : FVec F S_ .f32)

/-- The column variances as the variance function computes them (its %9 … %13, the selection included). -/
def hostVar (H : FVec F S50000x96 .f32) : FVec F S96 .f32 :=
  select (broadcastInDim S96 ![] bcast_S_S96 (cmpf .ogt (varCount (F := F)) (constant S_ .f32 0x00000000#32)))
    (Host.divf (Host.reduceAdd (mulf (varDev H) (varDev H)) (constant S_ .f32 0x00000000#32) reducesTo_S50000x96_S96_d0 h_S_)
      (broadcastInDim S96 ![] bcast_S_S96 (varCount (F := F))))
    (broadcastInDim S96 ![] bcast_S_S96 (id (constant S_ .f32 0x7FC00000#32)))

/-- The batch normalisation and the rectifier (%28 … %44). -/
def hostBn (H : FVec F S50000x96 .f32) (gamma beta : FVec F S96 .f32) : FVec F S50000x96 .f32 :=
  maximumf (addf (mulf (mulf (subf H (rowB (hostMean H)))
      (rowB (Host.rsqrt (addf (hostVar H) (broadcastInDim S96 ![] bcast_S_S96 (constant S_ .f32 0x3727C5AC#32))))))
    (rowB gamma)) (rowB beta)) zeros

/-- One layer (%3 … %44, and again %45 … %86). -/
def hostLayer (X : FVec F S50000x96 .f32) (S D : IVec S850000 32) (Wa : FVec F S96x96 .f32) (ba : FVec F S96 .f32)
    (Wb : FVec F S96x96 .f32) (bb : FVec F S96 .f32) (gamma beta : FVec F S96 .f32) : FVec F S50000x96 .f32 :=
  hostBn (hostMlp (addf X (hostAgg X S D)) Wa ba Wb bb) gamma beta

/-- The prediction head (%87 … %90). -/
def hostHead (H : FVec F S50000x96 .f32) (Wp : FVec F S96x64 .f32) (bp : FVec F S64 .f32) : FVec F S50000x64 .f32 :=
  addf (Host.dotGeneral dot_S50000x96_S96x64_S50000x64_1_0_0_1_n_n none H Wp)
    (broadcastInDim S50000x64 ![0, 1] bcast_S1x64_S50000x64_0_1 (broadcastInDim S1x64 ![1] bcast_S64_S1x64_1 bp))

attribute [local irreducible] Host.reduceAdd Host.gather Host.scatterAdd concatenate broadcastInDim

set_option maxRecDepth 8192 in
theorem pre_v1 (V : Valuation τ sig (Elt F)) :
    after pre V (Proc.devRef .tc main_v1) = catIota (V (Proc.devRef .tc main_arg15)) := by
  read_results
  rfl

set_option maxRecDepth 8192 in
theorem pre_v2 (V : Valuation τ sig (Elt F)) :
    after pre V (Proc.devRef .tc main_v2) = catIota (V (Proc.devRef .tc main_arg16)) := by
  read_results
  rfl

set_option maxRecDepth 8192 in
set_option maxHeartbeats 4000000 in
theorem L1_read (W : Valuation τ sig (Elt F)) :
    after L1 W (Proc.devRef .tc main_v44)
      = hostLayer (W (Proc.devRef .tc main_arg0)) (W (Proc.devRef .tc main_v1)) (W (Proc.devRef .tc main_v2)) (W (Proc.devRef .tc main_arg1)) (W (Proc.devRef .tc main_arg2))
          (W (Proc.devRef .tc main_arg3)) (W (Proc.devRef .tc main_arg4)) (W (Proc.devRef .tc main_arg9)) (W (Proc.devRef .tc main_arg10)) := by
  read_results
  rfl

set_option maxRecDepth 8192 in
set_option maxHeartbeats 4000000 in
theorem L2_read (W : Valuation τ sig (Elt F)) :
    after L2 W (Proc.devRef .tc main_v86)
      = hostLayer (W (Proc.devRef .tc main_v44)) (W (Proc.devRef .tc main_v1)) (W (Proc.devRef .tc main_v2)) (W (Proc.devRef .tc main_arg5)) (W (Proc.devRef .tc main_arg6))
          (W (Proc.devRef .tc main_arg7)) (W (Proc.devRef .tc main_arg8)) (W (Proc.devRef .tc main_arg11)) (W (Proc.devRef .tc main_arg12)) := by
  read_results
  rfl

set_option maxRecDepth 8192 in
theorem hd_read (W : Valuation τ sig (Elt F)) :
    after hd W (Proc.devRef .tc main_v90) = hostHead (W (Proc.devRef .tc main_v86)) (W (Proc.devRef .tc main_arg13)) (W (Proc.devRef .tc main_arg14)) := by
  read_results
  rfl

end Cert.ReferenceIdeal.RefValue

end
-- ==== Proof.RefValue.lean ====
/- The reference program's result in closed form, index by index: the neighbour sum as one sum over the 850000 edges
   (the given edges followed by the self-loops), the two dense layers as sums over the 96 input features, the column
   mean and variance as sums over the 50000 rows, the normalisation, scale, shift and rectifier entrywise, and the head
   as a sum over the 96 features; and the proof that the line of operations computes it. All at the exact reals. -/
import proofs.«111056_j31628139167864_2_alg».proof.Proof.RefValueHost
import proofs.«111056_j31628139167864_2_alg».proof.Proof.AggRead
import Idealize.ShloMosaic.PureOps.Ideal.Laws

noncomputable section

namespace Cert.ReferenceIdeal.RefValue

open Cert.ReferenceIdeal Cert.ReferenceIdeal.Gen Cert.ReferenceIdeal.RefRun Idealize.ShloMosaic Idealize.ShloMosaic.TcCoe Idealize.SL.Sem Idealize.ShloMosaic.StableHlo Idealize.ShloMosaic.ValueIdx Cert.GatherScatter Cert.LibHostReads Cert.AggRead

open scoped BigOperators

/-! ## The closed forms -/

/-- The row a source word reads: the word, a negative one wrapped by the row count, read signed and clamped into
    the rows. -/
def rowOfWord (w : BitVec 32) : Fin 50000 := ⟨min (wrapIdx 50000#32 w).toInt.toNat (50000 - 1), by omega⟩

/-- The neighbour sum over already concatenated index vectors: entry (v, j) is zero plus the sum, over the 850000
    edges whose destination word read signed is v, of `X` at the source's row, column j. -/
def refAggC (X : FVec Ideal S50000x96 .f32) (S D : IVec S850000 32) : FVec Ideal S50000x96 .f32 :=
  fun i => 0 + ∑ e ∈ Finset.univ.filter (fun e : Fin 850000 => (D (ix1 e)).toInt = ((i 0).val : Int)),
    X (ix2 (rowOfWord (S (ix1 e))) (i 1))

/-- The neighbour sum (%12 / %54): over the given edges followed by the 50000 self-loops (one sum over the 850000
    concatenated edges, the index vectors left concatenated). -/
def refAgg (X : FVec Ideal S50000x96 .f32) (src dst : IVec S800000 32) : FVec Ideal S50000x96 .f32 :=
  refAggC X (catIota src) (catIota dst)

/-- A dense layer: entry (r, c) is ∑ₖ P(r,k)·W(k,c) + b(c). -/
def dense (P : FVec Ideal S50000x96 .f32) (W : FVec Ideal S96x96 .f32) (b : FVec Ideal S96 .f32) : FVec Ideal S50000x96 .f32 :=
  fun i => (∑ k : Fin 96, P (ix2 (i 0) k) * W (ix2 k (i 1))) + b (ix1 (i 1))

/-- The two-layer perceptron: dense, rectifier, dense. -/
def refMlp (P : FVec Ideal S50000x96 .f32) (Wa : FVec Ideal S96x96 .f32) (ba : FVec Ideal S96 .f32)
    (Wb : FVec Ideal S96x96 .f32) (bb : FVec Ideal S96 .f32) : FVec Ideal S50000x96 .f32 :=
  dense (fun i => max (dense P Wa ba i) 0) Wb bb

/-- The column mean: (0 + ∑ᵣ H(r,c)) / 50000, the divisor as its f32 word. -/
def refMean (H : FVec Ideal S50000x96 .f32) : FVec Ideal S96 .f32 :=
  fun q => Ideal.div (0 + ∑ r : Fin 50000, H (ix2 r (q 0))) (Ideal.ofBits .f32 0x47435000#32)

/-- The variance function's divisor: the row count's word less the integer correction 0 converted. -/
def refCount : EReal := Ideal.ofBits .f32 0x47435000#32 - (((0#32 : BitVec 32).toInt : ℝ) : EReal)

/-- The column variance as the variance function computes it, its selection on the divisor's sign included. -/
def refVar (H : FVec Ideal S50000x96 .f32) : FVec Ideal S96 .f32 :=
  fun q => Scalar.select (Ideal.cmp .ogt refCount 0)
    (Ideal.div (0 + ∑ r : Fin 50000, (H (ix2 r (q 0)) - refMean H (ix1 (q 0))) * (H (ix2 r (q 0)) - refMean H (ix1 (q 0)))) refCount)
    (Ideal.ofBits .f32 0x7FC00000#32)

/-- Normalisation, scale, shift, rectifier. -/
def refBn (H : FVec Ideal S50000x96 .f32) (gamma beta : FVec Ideal S96 .f32) : FVec Ideal S50000x96 .f32 :=
  fun i => max ((H i - refMean H (ix1 (i 1))) * Ideal.rsqrt (refVar H (ix1 (i 1)) + Ideal.ofBits .f32 0x3727C5AC#32)
    * gamma (ix1 (i 1)) + beta (ix1 (i 1))) 0

/-- One layer. -/
def refLayer (X : FVec Ideal S50000x96 .f32) (src dst : IVec S800000 32) (Wa : FVec Ideal S96x96 .f32) (ba : FVec Ideal S96 .f32)
    (Wb : FVec Ideal S96x96 .f32) (bb : FVec Ideal S96 .f32) (gamma beta : FVec Ideal S96 .f32) : FVec Ideal S50000x96 .f32 :=
  refBn (refMlp (fun i => X i + refAgg X src dst i) Wa ba Wb bb) gamma beta

/-- The prediction head: entry (r, c) is ∑ₖ H(r,k)·Wp(k,c) + bp(c). -/
def refHead (H : FVec Ideal S50000x96 .f32) (Wp : FVec Ideal S96x64 .f32) (bp : FVec Ideal S64 .f32) : FVec Ideal S50000x64 .f32 :=
  fun i => (∑ k : Fin 96, H (ix2 (i 0) k) * Wp (ix2 k (i 1))) + bp (ix1 (i 1))

/-! ## The whole-array functions are the closed forms -/

theorem hGather : gather_S50000x96_S850000x1_S850000x96_1_0_n_n_0_1_196 = rowGatherDims 50000 850000 96 gather_S50000x96_S850000x1_S850000x96_1_0_n_n_0_1_196_wf := rfl
theorem hScatter : scatter_S50000x96_S850000x1_S850000x96_1_0_0_1 = rowScatterDims 50000 850000 96 scatter_S50000x96_S850000x1_S850000x96_1_0_0_1_wf := rfl
theorem hDot96 : dot_S50000x96_S96x96_S50000x96_1_0_0_1_n_n = DotDims.plain 50000 96 96 := rfl
theorem hDot64 : dot_S50000x96_S96x64_S50000x64_1_0_0_1_n_n = DotDims.plain 50000 96 64 := rfl

/-- The host's entrywise quotient and reciprocal square root, and its column sum, at the exact reals. -/
theorem hostDivf_apply {s : Shape} (a b : FVec Ideal s .f32) (i : s.Idx) : Host.divf a b i = Ideal.div (a i) (b i) := rfl
theorem hostRsqrt_apply {s : Shape} (a : FVec Ideal s .f32) (i : s.Idx) : Host.rsqrt a i = Ideal.rsqrt (a i) := rfl
theorem reduceAdd_def (H : FVec Ideal S50000x96 .f32) (c : FVec Ideal S_ .f32) :
    Host.reduceAdd H c reducesTo_S50000x96_S96_d0 h_S_
      = Ideal.hostReduceAdd reducesTo_S50000x96_S96_d0 H (c (Shape.Idx.first h_S_)) := rfl

theorem zeros_apply (i : S50000x96.Idx) : zeros (F := Ideal) i = 0 := by
  unfold zeros
  rw [splat_apply, constant_apply]
  exact Ideal.ofBits_zero_f32

theorem rowB_apply (b : FVec Ideal S96 .f32) (r : Fin 50000) (c : Fin 96) : rowB b (ix2 r c) = b (ix1 c) :=
  rowBias_apply (by decide) _ _ b r c

theorem hostAgg_eq (X : FVec Ideal S50000x96 .f32) (S D : IVec S850000 32) : hostAgg X S D = refAggC X S D := by
  funext i
  obtain ⟨v, j, rfl⟩ : ∃ (v : Fin 50000) (j : Fin 96), i = ix2 v j := ⟨i 0, i 1, eq_ix2 i⟩
  unfold hostAgg refAggC zeros colOf wrapCol
  exact agg_apply (by decide) (by decide) _ _ hGather _ _ hScatter _ _ _ X S D 50000#32 v j

theorem dense_eq (P : FVec Ideal S50000x96 .f32) (W : FVec Ideal S96x96 .f32) (b : FVec Ideal S96 .f32) :
    addf (Host.dotGeneral dot_S50000x96_S96x96_S50000x96_1_0_0_1_n_n none P W) (rowB b) = dense P W b := by
  funext i
  obtain ⟨r, c, rfl⟩ : ∃ (r : Fin 50000) (c : Fin 96), i = ix2 r c := ⟨i 0, i 1, eq_ix2 i⟩
  rw [addf_apply, dot_apply _ hDot96, rowB_apply]
  rfl

theorem hostMlp_eq (P : FVec Ideal S50000x96 .f32) (Wa : FVec Ideal S96x96 .f32) (ba : FVec Ideal S96 .f32)
    (Wb : FVec Ideal S96x96 .f32) (bb : FVec Ideal S96 .f32) : hostMlp P Wa ba Wb bb = refMlp P Wa ba Wb bb := by
  unfold hostMlp refMlp
  rw [dense_eq P Wa ba]
  have hmax : maximumf (dense P Wa ba) zeros = fun i => max (dense P Wa ba i) 0 := by
    funext i
    rw [maximumf_apply, zeros_apply]
  rw [hmax, dense_eq]

theorem hRed : Shape.Reduces S50000x96 [0] S96 := by decide

theorem lift_ix (q : Fin 96) (r : Fin 50000) : hRed.lift (ix1 q) r = ix2 r q := by
  funext c
  refine Fin.ext ?_
  match c with
  | ⟨0, _⟩ => rfl
  | ⟨1, _⟩ => rfl

theorem colSum_apply (H : FVec Ideal S50000x96 .f32) (q : Fin 96) :
    Host.reduceAdd H (constant S_ .f32 0x00000000#32) reducesTo_S50000x96_S96_d0 h_S_ (ix1 q)
      = 0 + ∑ r : Fin 50000, H (ix2 r q) := by
  rw [reduceAdd_def, constant_apply, Ideal.hostReduceAdd_single _ hRed, Ideal.ofBits_zero_f32]
  refine congrArg (0 + ·) ?_
  exact Finset.sum_congr rfl fun r _ => congrArg H (lift_ix q r)

theorem hostMean_eq (H : FVec Ideal S50000x96 .f32) : hostMean H = refMean H := by
  funext q
  obtain ⟨c, rfl⟩ : ∃ c : Fin 96, q = ix1 c := ⟨q 0, eq_ix1 q⟩
  unfold hostMean refMean
  rw [hostDivf_apply, colSum_apply, splat_apply, constant_apply]

theorem row1_apply {α : Type} (v : S96.Idx → α) (c : Fin 96) :
    broadcastInDim S1x96 ![1] bcast_S96_S1x96_1 v (ix2 (0 : Fin 1) c) = v (ix1 c) :=
  broadcastInDim_apply _ _ v (ix2 (0 : Fin 1) c) (ix1 c) (fun a => match a with
    | ⟨0, _⟩ => by show c.val = if (96 : Nat) = 1 then 0 else c.val; rw [if_neg (by decide)])

theorem down_apply {α : Type} (y : S1x96.Idx → α) (r : Fin 50000) (c : Fin 96) :
    broadcastInDim S50000x96 ![0, 1] bcast_S1x96_S50000x96_0_1 y (ix2 r c) = y (ix2 (0 : Fin 1) c) :=
  broadcastInDim_apply _ _ y (ix2 r c) (ix2 (0 : Fin 1) c) (fun a => match a with
    | ⟨0, _⟩ => by show 0 = if (1 : Nat) = 1 then 0 else r.val; rw [if_pos rfl]
    | ⟨1, _⟩ => by show c.val = if (96 : Nat) = 1 then 0 else c.val; rw [if_neg (by decide)])

theorem varDev_apply (H : FVec Ideal S50000x96 .f32) (r : Fin 50000) (c : Fin 96) :
    varDev H (ix2 r c) = H (ix2 r c) - refMean H (ix1 c) := by
  unfold varDev refMean
  rw [subf_apply, down_apply, hostDivf_apply, row1_apply, splat_apply, colSum_apply, constant_apply]

theorem varCount_apply : varCount (F := Ideal) ix0 = refCount := rfl

theorem hostVar_eq (H : FVec Ideal S50000x96 .f32) : hostVar H = refVar H := by
  funext q
  obtain ⟨c, rfl⟩ : ∃ c : Fin 96, q = ix1 c := ⟨q 0, eq_ix1 q⟩
  unfold hostVar refVar
  rw [select_apply, splat_apply, splat_apply, hostDivf_apply, splat_apply, colSum_apply, cmpf_apply, constant_apply,
    varCount_apply, Ideal.ofBits_zero_f32]
  refine congrArg₂ (Scalar.select (Ideal.cmp .ogt refCount 0)) ?_ rfl
  refine congrArg (fun s => Ideal.div (0 + s) refCount) ?_
  exact Finset.sum_congr rfl fun r _ => by rw [mulf_apply, varDev_apply]

theorem hostBn_eq (H : FVec Ideal S50000x96 .f32) (gamma beta : FVec Ideal S96 .f32) : hostBn H gamma beta = refBn H gamma beta := by
  funext i
  obtain ⟨r, c, rfl⟩ : ∃ (r : Fin 50000) (c : Fin 96), i = ix2 r c := ⟨i 0, i 1, eq_ix2 i⟩
  unfold hostBn refBn
  rw [maximumf_apply, addf_apply, mulf_apply, mulf_apply, subf_apply, rowB_apply, rowB_apply, rowB_apply, rowB_apply,
    zeros_apply, hostMean_eq, hostRsqrt_apply, addf_apply, hostVar_eq, splat_apply, constant_apply]

theorem hostLayer_eq (X : FVec Ideal S50000x96 .f32) (src dst : IVec S800000 32) (Wa : FVec Ideal S96x96 .f32) (ba : FVec Ideal S96 .f32)
    (Wb : FVec Ideal S96x96 .f32) (bb : FVec Ideal S96 .f32) (gamma beta : FVec Ideal S96 .f32) :
    hostLayer X (catIota src) (catIota dst) Wa ba Wb bb gamma beta = refLayer X src dst Wa ba Wb bb gamma beta := by
  unfold hostLayer refLayer refAgg
  rw [hostAgg_eq, hostMlp_eq, hostBn_eq]
  rfl

theorem hostHead_eq (H : FVec Ideal S50000x96 .f32) (Wp : FVec Ideal S96x64 .f32) (bp : FVec Ideal S64 .f32) :
    hostHead H Wp bp = refHead H Wp bp := by
  funext i
  obtain ⟨r, c, rfl⟩ : ∃ (r : Fin 50000) (c : Fin 64), i = ix2 r c := ⟨i 0, i 1, eq_ix2 i⟩
  unfold hostHead refHead
  rw [addf_apply, dot_apply _ hDot64, rowBias_apply (by decide)]

/-! ## The line of operations computes the closed form -/

/-- The reference program's result buffer after its line of operations, from any contents `V` of the buffers: the head
    of the second layer of the first layer of the seventeen arguments. -/
theorem ref_result (V : Valuation τ sig (Elt Ideal)) :
    after (ops (F := Ideal)) V (Proc.devRef .tc main_v90)
      = refHead (refLayer (refLayer (V (Proc.devRef .tc main_arg0)) (V (Proc.devRef .tc main_arg15)) (V (Proc.devRef .tc main_arg16))
            (V (Proc.devRef .tc main_arg1)) (V (Proc.devRef .tc main_arg2)) (V (Proc.devRef .tc main_arg3)) (V (Proc.devRef .tc main_arg4))
            (V (Proc.devRef .tc main_arg9)) (V (Proc.devRef .tc main_arg10)))
          (V (Proc.devRef .tc main_arg15)) (V (Proc.devRef .tc main_arg16))
          (V (Proc.devRef .tc main_arg5)) (V (Proc.devRef .tc main_arg6)) (V (Proc.devRef .tc main_arg7)) (V (Proc.devRef .tc main_arg8))
          (V (Proc.devRef .tc main_arg11)) (V (Proc.devRef .tc main_arg12)))
        (V (Proc.devRef .tc main_arg13)) (V (Proc.devRef .tc main_arg14)) := by
  rw [after_ops, hd_read]
  rw [L2_read, L2_keep _ main_arg13 (by decide), L2_keep _ main_arg14 (by decide)]
  rw [L1_read, L1_keep _ main_v1 (by decide), L1_keep _ main_v2 (by decide), L1_keep _ main_arg5 (by decide), L1_keep _ main_arg6 (by decide), L1_keep _ main_arg7 (by decide), L1_keep _ main_arg8 (by decide), L1_keep _ main_arg11 (by decide), L1_keep _ main_arg12 (by decide), L1_keep _ main_arg13 (by decide), L1_keep _ main_arg14 (by decide)]
  rw [pre_v1, pre_v2, pre_keep _ main_arg0 (by decide), pre_keep _ main_arg1 (by decide), pre_keep _ main_arg2 (by decide), pre_keep _ main_arg3 (by decide), pre_keep _ main_arg4 (by decide), pre_keep _ main_arg9 (by decide), pre_keep _ main_arg10 (by decide), pre_keep _ main_arg5 (by decide), pre_keep _ main_arg6 (by decide), pre_keep _ main_arg7 (by decide), pre_keep _ main_arg8 (by decide), pre_keep _ main_arg11 (by decide), pre_keep _ main_arg12 (by decide), pre_keep _ main_arg13 (by decide), pre_keep _ main_arg14 (by decide)]
  rw [hostLayer_eq, hostLayer_eq, hostHead_eq]

end Cert.ReferenceIdeal.RefValue

end
-- ==== Proof.LibStackedPieces.lean ====
/-
  Arrays laid one after another along their first axis, read at an entry.

  `jnp.concatenate([x1, x2, x3], axis=0)` of matrices of one width (or of vectors) reads, at row r, the piece whose span of
  rows holds r, at the row r less the rows of the pieces before it; every other coordinate is unchanged. Stated for three
  and for two pieces, for matrices [n, w] and for vectors [n], at any extents and any element type, with the row inside
  the piece given by the caller together with the one arithmetic fact that places it (so each lemma applies to a printed
  concatenation by unification and the side goal is closed by `rfl` or `omega`).
-/
import Idealize.ShloMosaic.Lib.Pipeline.Value
import Idealize.ShloMosaic.Lib.ValueIdx

noncomputable section

namespace Cert.LibStackedPieces

open Idealize.ShloMosaic Idealize.ShloMosaic.ValueIdx

section Stack
variable {α : Type}

/-- Three matrices stacked by rows: row r of the stack is row r' of the piece whose span holds r. -/
theorem stack3_rows_0 {n1 n2 n3 n w : Nat} (x1 : (⟨2, ![n1, w]⟩ : Shape).Idx → α) (x2 : (⟨2, ![n2, w]⟩ : Shape).Idx → α)
    (x3 : (⟨2, ![n3, w]⟩ : Shape).Idx → α) (h : Shape.Concatenates [⟨2, ![n1, w]⟩, ⟨2, ![n2, w]⟩, ⟨2, ![n3, w]⟩] ⟨2, ![n, w]⟩ 0)
    (r : Fin n) (e : Fin w) (r' : Fin n1) (hr : r.val = r'.val) :
    concatenate ⟨2, ![n, w]⟩ 0 [⟨⟨2, ![n1, w]⟩, x1⟩, ⟨⟨2, ![n2, w]⟩, x2⟩, ⟨⟨2, ![n3, w]⟩, x3⟩] h (ix2 r e) = x1 (ix2 r' e) :=
  concatenate_apply_piece 0 [⟨⟨2, ![n1, w]⟩, x1⟩, ⟨⟨2, ![n2, w]⟩, x2⟩, ⟨⟨2, ![n3, w]⟩, x3⟩] h (ix2 r e) 0 (by simp) _ x1 rfl rfl 0 (by simp) (ix2 r' e)
    (fun b hb => by match b with | ⟨0, _⟩ => exact absurd rfl hb | ⟨1, _⟩ => rfl) (by show 0 + r'.val = r.val; omega)
theorem stack3_rows_1 {n1 n2 n3 n w : Nat} (x1 : (⟨2, ![n1, w]⟩ : Shape).Idx → α) (x2 : (⟨2, ![n2, w]⟩ : Shape).Idx → α)
    (x3 : (⟨2, ![n3, w]⟩ : Shape).Idx → α) (h : Shape.Concatenates [⟨2, ![n1, w]⟩, ⟨2, ![n2, w]⟩, ⟨2, ![n3, w]⟩] ⟨2, ![n, w]⟩ 0)
    (r : Fin n) (e : Fin w) (r' : Fin n2) (hr : r.val = n1 + r'.val) :
    concatenate ⟨2, ![n, w]⟩ 0 [⟨⟨2, ![n1, w]⟩, x1⟩, ⟨⟨2, ![n2, w]⟩, x2⟩, ⟨⟨2, ![n3, w]⟩, x3⟩] h (ix2 r e) = x2 (ix2 r' e) :=
  concatenate_apply_piece 0 [⟨⟨2, ![n1, w]⟩, x1⟩, ⟨⟨2, ![n2, w]⟩, x2⟩, ⟨⟨2, ![n3, w]⟩, x3⟩] h (ix2 r e) 1 (by simp) _ x2 rfl rfl n1 (by simp) (ix2 r' e)
    (fun b hb => by match b with | ⟨0, _⟩ => exact absurd rfl hb | ⟨1, _⟩ => rfl) (by show n1 + r'.val = r.val; omega)
theorem stack3_rows_2 {n1 n2 n3 n w : Nat} (x1 : (⟨2, ![n1, w]⟩ : Shape).Idx → α) (x2 : (⟨2, ![n2, w]⟩ : Shape).Idx → α)
    (x3 : (⟨2, ![n3, w]⟩ : Shape).Idx → α) (h : Shape.Concatenates [⟨2, ![n1, w]⟩, ⟨2, ![n2, w]⟩, ⟨2, ![n3, w]⟩] ⟨2, ![n, w]⟩ 0)
    (r : Fin n) (e : Fin w) (r' : Fin n3) (hr : r.val = n1 + n2 + r'.val) :
    concatenate ⟨2, ![n, w]⟩ 0 [⟨⟨2, ![n1, w]⟩, x1⟩, ⟨⟨2, ![n2, w]⟩, x2⟩, ⟨⟨2, ![n3, w]⟩, x3⟩] h (ix2 r e) = x3 (ix2 r' e) :=
  concatenate_apply_piece 0 [⟨⟨2, ![n1, w]⟩, x1⟩, ⟨⟨2, ![n2, w]⟩, x2⟩, ⟨⟨2, ![n3, w]⟩, x3⟩] h (ix2 r e) 2 (by simp) _ x3 rfl rfl (n1 + n2) (by simp) (ix2 r' e)
    (fun b hb => by match b with | ⟨0, _⟩ => exact absurd rfl hb | ⟨1, _⟩ => rfl) (by show n1 + n2 + r'.val = r.val; omega)

/-- Three vectors laid end to end. -/
theorem stack3_vec_0 {n1 n2 n3 n : Nat} (x1 : (⟨1, ![n1]⟩ : Shape).Idx → α) (x2 : (⟨1, ![n2]⟩ : Shape).Idx → α)
    (x3 : (⟨1, ![n3]⟩ : Shape).Idx → α) (h : Shape.Concatenates [⟨1, ![n1]⟩, ⟨1, ![n2]⟩, ⟨1, ![n3]⟩] ⟨1, ![n]⟩ 0)
    (r : Fin n) (r' : Fin n1) (hr : r.val = r'.val) :
    concatenate ⟨1, ![n]⟩ 0 [⟨⟨1, ![n1]⟩, x1⟩, ⟨⟨1, ![n2]⟩, x2⟩, ⟨⟨1, ![n3]⟩, x3⟩] h (ix1 r) = x1 (ix1 r') :=
  concatenate_apply_piece 0 [⟨⟨1, ![n1]⟩, x1⟩, ⟨⟨1, ![n2]⟩, x2⟩, ⟨⟨1, ![n3]⟩, x3⟩] h (ix1 r) 0 (by simp) _ x1 rfl rfl 0 (by simp) (ix1 r')
    (fun b hb => by match b with | ⟨0, _⟩ => exact absurd rfl hb) (by show 0 + r'.val = r.val; omega)
theorem stack3_vec_1 {n1 n2 n3 n : Nat} (x1 : (⟨1, ![n1]⟩ : Shape).Idx → α) (x2 : (⟨1, ![n2]⟩ : Shape).Idx → α)
    (x3 : (⟨1, ![n3]⟩ : Shape).Idx → α) (h : Shape.Concatenates [⟨1, ![n1]⟩, ⟨1, ![n2]⟩, ⟨1, ![n3]⟩] ⟨1, ![n]⟩ 0)
    (r : Fin n) (r' : Fin n2) (hr : r.val = n1 + r'.val) :
    concatenate ⟨1, ![n]⟩ 0 [⟨⟨1, ![n1]⟩, x1⟩, ⟨⟨1, ![n2]⟩, x2⟩, ⟨⟨1, ![n3]⟩, x3⟩] h (ix1 r) = x2 (ix1 r') :=
  concatenate_apply_piece 0 [⟨⟨1, ![n1]⟩, x1⟩, ⟨⟨1, ![n2]⟩, x2⟩, ⟨⟨1, ![n3]⟩, x3⟩] h (ix1 r) 1 (by simp) _ x2 rfl rfl n1 (by simp) (ix1 r')
    (fun b hb => by match b with | ⟨0, _⟩ => exact absurd rfl hb) (by show n1 + r'.val = r.val; omega)
theorem stack3_vec_2 {n1 n2 n3 n : Nat} (x1 : (⟨1, ![n1]⟩ : Shape).Idx → α) (x2 : (⟨1, ![n2]⟩ : Shape).Idx → α)
    (x3 : (⟨1, ![n3]⟩ : Shape).Idx → α) (h : Shape.Concatenates [⟨1, ![n1]⟩, ⟨1, ![n2]⟩, ⟨1, ![n3]⟩] ⟨1, ![n]⟩ 0)
    (r : Fin n) (r' : Fin n3) (hr : r.val = n1 + n2 + r'.val) :
    concatenate ⟨1, ![n]⟩ 0 [⟨⟨1, ![n1]⟩, x1⟩, ⟨⟨1, ![n2]⟩, x2⟩, ⟨⟨1, ![n3]⟩, x3⟩] h (ix1 r) = x3 (ix1 r') :=
  concatenate_apply_piece 0 [⟨⟨1, ![n1]⟩, x1⟩, ⟨⟨1, ![n2]⟩, x2⟩, ⟨⟨1, ![n3]⟩, x3⟩] h (ix1 r) 2 (by simp) _ x3 rfl rfl (n1 + n2) (by simp) (ix1 r')
    (fun b hb => by match b with | ⟨0, _⟩ => exact absurd rfl hb) (by show n1 + n2 + r'.val = r.val; omega)

/-- Two matrices stacked by rows, and two vectors laid end to end. -/
theorem stack2_rows_0 {n1 n2 n w : Nat} (x1 : (⟨2, ![n1, w]⟩ : Shape).Idx → α) (x2 : (⟨2, ![n2, w]⟩ : Shape).Idx → α)
    (h : Shape.Concatenates [⟨2, ![n1, w]⟩, ⟨2, ![n2, w]⟩] ⟨2, ![n, w]⟩ 0) (r : Fin n) (e : Fin w) (r' : Fin n1) (hr : r.val = r'.val) :
    concatenate ⟨2, ![n, w]⟩ 0 [⟨⟨2, ![n1, w]⟩, x1⟩, ⟨⟨2, ![n2, w]⟩, x2⟩] h (ix2 r e) = x1 (ix2 r' e) :=
  concatenate_apply_piece 0 [⟨⟨2, ![n1, w]⟩, x1⟩, ⟨⟨2, ![n2, w]⟩, x2⟩] h (ix2 r e) 0 (by simp) _ x1 rfl rfl 0 (by simp) (ix2 r' e)
    (fun b hb => by match b with | ⟨0, _⟩ => exact absurd rfl hb | ⟨1, _⟩ => rfl) (by show 0 + r'.val = r.val; omega)
theorem stack2_rows_1 {n1 n2 n w : Nat} (x1 : (⟨2, ![n1, w]⟩ : Shape).Idx → α) (x2 : (⟨2, ![n2, w]⟩ : Shape).Idx → α)
    (h : Shape.Concatenates [⟨2, ![n1, w]⟩, ⟨2, ![n2, w]⟩] ⟨2, ![n, w]⟩ 0) (r : Fin n) (e : Fin w) (r' : Fin n2) (hr : r.val = n1 + r'.val) :
    concatenate ⟨2, ![n, w]⟩ 0 [⟨⟨2, ![n1, w]⟩, x1⟩, ⟨⟨2, ![n2, w]⟩, x2⟩] h (ix2 r e) = x2 (ix2 r' e) :=
  concatenate_apply_piece 0 [⟨⟨2, ![n1, w]⟩, x1⟩, ⟨⟨2, ![n2, w]⟩, x2⟩] h (ix2 r e) 1 (by simp) _ x2 rfl rfl n1 (by simp) (ix2 r' e)
    (fun b hb => by match b with | ⟨0, _⟩ => exact absurd rfl hb | ⟨1, _⟩ => rfl) (by show n1 + r'.val = r.val; omega)
theorem stack2_vec_0 {n1 n2 n : Nat} (x1 : (⟨1, ![n1]⟩ : Shape).Idx → α) (x2 : (⟨1, ![n2]⟩ : Shape).Idx → α)
    (h : Shape.Concatenates [⟨1, ![n1]⟩, ⟨1, ![n2]⟩] ⟨1, ![n]⟩ 0) (r : Fin n) (r' : Fin n1) (hr : r.val = r'.val) :
    concatenate ⟨1, ![n]⟩ 0 [⟨⟨1, ![n1]⟩, x1⟩, ⟨⟨1, ![n2]⟩, x2⟩] h (ix1 r) = x1 (ix1 r') :=
  concatenate_apply_piece 0 [⟨⟨1, ![n1]⟩, x1⟩, ⟨⟨1, ![n2]⟩, x2⟩] h (ix1 r) 0 (by simp) _ x1 rfl rfl 0 (by simp) (ix1 r')
    (fun b hb => by match b with | ⟨0, _⟩ => exact absurd rfl hb) (by show 0 + r'.val = r.val; omega)
theorem stack2_vec_1 {n1 n2 n : Nat} (x1 : (⟨1, ![n1]⟩ : Shape).Idx → α) (x2 : (⟨1, ![n2]⟩ : Shape).Idx → α)
    (h : Shape.Concatenates [⟨1, ![n1]⟩, ⟨1, ![n2]⟩] ⟨1, ![n]⟩ 0) (r : Fin n) (r' : Fin n2) (hr : r.val = n1 + r'.val) :
    concatenate ⟨1, ![n]⟩ 0 [⟨⟨1, ![n1]⟩, x1⟩, ⟨⟨1, ![n2]⟩, x2⟩] h (ix1 r) = x2 (ix1 r') :=
  concatenate_apply_piece 0 [⟨⟨1, ![n1]⟩, x1⟩, ⟨⟨1, ![n2]⟩, x2⟩] h (ix1 r) 1 (by simp) _ x2 rfl rfl n1 (by simp) (ix1 r')
    (fun b hb => by match b with | ⟨0, _⟩ => exact absurd rfl hb) (by show n1 + r'.val = r.val; omega)

end Stack

end Cert.LibStackedPieces

end
-- ==== Proof.RefSpec.lean ====
/- The reference program's result in the vocabulary of a plain two-layer graph network over finite index types:
   the neighbour sum split into the given edges and the self-loops (a self-loop contributes the node's own row), the
   mean as the column sum over the count, the variance function's count and selection resolved (the count is the
   real number fifty thousand, which is positive), the reduction's initial zero dropped. -/
import proofs.«111056_j31628139167864_2_alg».proof.Proof.RefValue
import proofs.«111056_j31628139167864_2_alg».proof.Proof.LibStackedPieces
import proofs.«111056_j31628139167864_2_alg».proof.Proof.NetSpec
import proofs.«111056_j31628139167864_2_alg».proof.Proof.NetMath

noncomputable section

namespace Cert.ReferenceIdeal.RefValue

open Cert.ReferenceIdeal Cert.ReferenceIdeal.Gen Cert.ReferenceIdeal.RefRun Idealize.ShloMosaic Idealize.ShloMosaic.TcCoe Idealize.SL.Sem Idealize.ShloMosaic.StableHlo Idealize.ShloMosaic.ValueIdx Cert.AggRead Cert.LibStackedPieces Cert.NetSpec Cert.NetMath

open scoped BigOperators

/-! ## The vocabulary -/

/-- A two-axis array's entries by coordinates, and a vector's. -/
def mat {n d : Nat} (x : (⟨2, ![n, d]⟩ : Shape).Idx → EReal) : Fin n → Fin d → EReal := fun r j => x (ix2 r j)
def vecv {d : Nat} (x : (⟨1, ![d]⟩ : Shape).Idx → EReal) : Fin d → EReal := fun j => x (ix1 j)

/-- The row count and the variance's additive constant, as their f32 words. -/
def cnt : EReal := Ideal.ofBits .f32 0x47435000#32
def eps : EReal := Ideal.ofBits .f32 0x3727C5AC#32

/-- The row edge `e` reads, and the node it lands on read signed. -/
def srcRow (s : IVec S800000 32) (e : Fin 800000) : Fin 50000 :=
  ⟨min (wrapIdx 50000#32 (s (ix1 e))).toInt.toNat (50000 - 1), by omega⟩
def dstInt (d : IVec S800000 32) (e : Fin 800000) : Int := (d (ix1 e)).toInt

/-- The neighbour sum with the self-loop: the rows arriving over the given edges, plus the node's own row. -/
def aggR (s d : IVec S800000 32) (Y : Fin 50000 → Fin 96 → EReal) : Fin 50000 → Fin 96 → EReal :=
  fun v j => agg Y (srcRow s) (dstInt d) v j + Y v j

/-- A layer before normalisation, and the whole layer. -/
def specH (s d : IVec S800000 32) (Y : Fin 50000 → Fin 96 → EReal) (Wa : Fin 96 → Fin 96 → EReal) (ba : Fin 96 → EReal)
    (Wb : Fin 96 → Fin 96 → EReal) (bb : Fin 96 → EReal) : Fin 50000 → Fin 96 → EReal :=
  mlp (fun r l => Y r l + aggR s d Y r l) Wa ba Wb bb
def specL (s d : IVec S800000 32) (Y : Fin 50000 → Fin 96 → EReal) (Wa : Fin 96 → Fin 96 → EReal) (ba : Fin 96 → EReal)
    (Wb : Fin 96 → Fin 96 → EReal) (bb : Fin 96 → EReal) (g b : Fin 96 → EReal) : Fin 50000 → Fin 96 → EReal :=
  bnRelu (specH s d Y Wa ba Wb bb) (meanK cnt (specH s d Y Wa ba Wb bb)) (invR cnt eps (specH s d Y Wa ba Wb bb)) g b

/-! ## Words of small numbers -/

/-- The 32-bit word of a number below 50000 read signed is the number. -/
theorem toInt_small (u : Fin 50000) : (BitVec.ofNat 32 u.val).toInt = (u.val : Int) := by
  have hu : (BitVec.ofNat 32 u.val).toNat = u.val := by
    rw [BitVec.toNat_ofNat]; exact Nat.mod_eq_of_lt (by have := u.isLt; omega)
  rw [BitVec.toInt_eq_toNat_of_lt (by rw [hu]; have := u.isLt; omega), hu]

/-- Such a word is not negative, so it is not wrapped, and the row it reads is the number. -/
theorem rowOfWord_small (u : Fin 50000) : rowOfWord (BitVec.ofNat 32 u.val) = u := by
  have hi := toInt_small u
  have hslt : (BitVec.ofNat 32 u.val).slt 0#32 = false := by
    rw [BitVec.slt_eq_decide, hi, BitVec.toInt_zero]; exact decide_eq_false (by omega)
  refine Fin.ext ?_
  show min (wrapIdx 50000#32 (BitVec.ofNat 32 u.val)).toInt.toNat (50000 - 1) = u.val
  rw [wrapIdx_eq, hslt, if_neg Bool.false_ne_true, hi]
  have := u.isLt
  omega

/-! ## The concatenated index vectors, part by part -/

theorem catIota_lo (a : IVec S800000 32) (e : Fin 800000) :
    catIota a (ix1 (n := 850000) (Fin.castAdd 50000 e)) = a (ix1 e) :=
  stack2_vec_0 a _ _ (Fin.castAdd 50000 e) e rfl

theorem catIota_hi (a : IVec S800000 32) (u : Fin 50000) :
    catIota a (ix1 (n := 850000) (Fin.natAdd 800000 u)) = BitVec.ofNat 32 u.val :=
  (stack2_vec_1 a _ _ (Fin.natAdd 800000 u) u rfl).trans rfl

/-! ## The pieces in the vocabulary -/

theorem refAgg_spec (X : FVec Ideal S50000x96 .f32) (s d : IVec S800000 32) :
    mat (refAgg X s d) = aggR s d (mat X) := by
  funext v j
  show (0 : EReal) + ∑ e ∈ Finset.univ.filter (fun e : Fin 850000 => (catIota d (ix1 e)).toInt = (v.val : Int)),
      X (ix2 (rowOfWord (catIota s (ix1 e))) j) = _
  rw [zero_add]
  refine (sum_filter_append (M := 800000) (n := 50000)
    (fun e => (catIota d (ix1 (n := 850000) e)).toInt = (v.val : Int))
    (fun e => X (ix2 (rowOfWord (catIota s (ix1 (n := 850000) e))) j))).trans ?_
  refine congrArg₂ (· + ·) ?_ ?_
  · refine Finset.sum_congr (Finset.filter_congr fun e _ => by rw [catIota_lo]; rfl) (fun e _ => ?_)
    rw [catIota_lo]
    rfl
  · have hset : (Finset.univ : Finset (Fin 50000)).filter
          (fun u => (catIota d (ix1 (n := 850000) (Fin.natAdd 800000 u))).toInt = (v.val : Int))
        = Finset.univ.filter (fun u => u = v) :=
      Finset.filter_congr fun u _ => by
        rw [catIota_hi, toInt_small]
        exact ⟨fun h => Fin.ext (by omega), fun h => by rw [h]⟩
    rw [hset, sum_filter_eq_self v (fun u => X (ix2 (rowOfWord (catIota s (ix1 (n := 850000) (Fin.natAdd 800000 u)))) j)),
      catIota_hi, rowOfWord_small]
    rfl

theorem refMlp_spec (P : FVec Ideal S50000x96 .f32) (Wa : FVec Ideal S96x96 .f32) (ba : FVec Ideal S96 .f32)
    (Wb : FVec Ideal S96x96 .f32) (bb : FVec Ideal S96 .f32) :
    mat (refMlp P Wa ba Wb bb) = mlp (mat P) (mat Wa) (vecv ba) (mat Wb) (vecv bb) := rfl

theorem refHead_spec (H : FVec Ideal S50000x96 .f32) (Wp : FVec Ideal S96x64 .f32) (bp : FVec Ideal S64 .f32) :
    mat (refHead H Wp bp) = head (mat H) (mat Wp) (vecv bp) := rfl

theorem refMean_spec (H : FVec Ideal S50000x96 .f32) (j : Fin 96) : refMean H (ix1 j) = meanK cnt (mat H) j := by
  show Ideal.div (0 + ∑ r : Fin 50000, H (ix2 r j)) (Ideal.ofBits .f32 0x47435000#32) = _
  rw [zero_add]
  rfl

/-- The variance function's count is the row count: the converted integer zero is the real zero. -/
theorem refCount_eq : refCount = cnt := by
  unfold refCount cnt
  rw [BitVec.toInt_zero, Int.cast_zero, EReal.coe_zero, sub_zero]

/-- The row count is positive, so the comparison answers one. -/
theorem cmp_cnt : Ideal.cmp .ogt cnt 0 = 1#1 := by
  have hpos : (0 : EReal) < cnt := by
    unfold cnt
    rw [lit_count]
    exact_mod_cast (by norm_num : (0 : ℝ) < 50000)
  show BitVec.ofBool (decide ((0 : EReal) < cnt)) = 1#1
  rw [decide_eq_true hpos]
  rfl

theorem refVar_spec (H : FVec Ideal S50000x96 .f32) (j : Fin 96) :
    refVar H (ix1 j) = Ideal.div (∑ r : Fin 50000, (mat H r j - meanK cnt (mat H) j) * (mat H r j - meanK cnt (mat H) j)) cnt := by
  show Scalar.select (Ideal.cmp .ogt refCount 0)
      (Ideal.div (0 + ∑ r : Fin 50000, (H (ix2 r j) - refMean H (ix1 j)) * (H (ix2 r j) - refMean H (ix1 j))) refCount)
      (Ideal.ofBits .f32 0x7FC00000#32) = _
  rw [refCount_eq, cmp_cnt, select_one, zero_add, refMean_spec]
  rfl

theorem refBn_spec (H : FVec Ideal S50000x96 .f32) (g b : FVec Ideal S96 .f32) :
    mat (refBn H g b) = bnRelu (mat H) (meanK cnt (mat H)) (invR cnt eps (mat H)) (vecv g) (vecv b) := by
  funext r j
  show max ((H (ix2 r j) - refMean H (ix1 j)) * Ideal.rsqrt (refVar H (ix1 j) + Ideal.ofBits .f32 0x3727C5AC#32)
      * g (ix1 j) + b (ix1 j)) 0 = _
  rw [refMean_spec, refVar_spec]
  rfl

theorem refLayer_spec (X : FVec Ideal S50000x96 .f32) (s d : IVec S800000 32) (Wa : FVec Ideal S96x96 .f32) (ba : FVec Ideal S96 .f32)
    (Wb : FVec Ideal S96x96 .f32) (bb : FVec Ideal S96 .f32) (g b : FVec Ideal S96 .f32) :
    mat (refLayer X s d Wa ba Wb bb g b) = specL s d (mat X) (mat Wa) (vecv ba) (mat Wb) (vecv bb) (vecv g) (vecv b) := by
  unfold refLayer specL specH
  rw [refBn_spec, refMlp_spec]
  have hin : mat (fun i => X i + refAgg X s d i) = fun r l => mat X r l + aggR s d (mat X) r l := by
    rw [← refAgg_spec]
    rfl
  rw [hin]

/-! ## The result -/

/-- The reference program's result, entry by entry, is the plain network's: the head of the second layer of the
    first layer of the arguments. -/
theorem ref_spec (V : Valuation τ sig (Elt Ideal)) :
    mat (n := 50000) (d := 64) (after (ops (F := Ideal)) V (Proc.devRef .tc main_v90))
      = head (specL (V (Proc.devRef .tc main_arg15)) (V (Proc.devRef .tc main_arg16))
            (specL (V (Proc.devRef .tc main_arg15)) (V (Proc.devRef .tc main_arg16)) (mat (n := 50000) (d := 96) (V (Proc.devRef .tc main_arg0)))
              (mat (n := 96) (d := 96) (V (Proc.devRef .tc main_arg1))) (vecv (d := 96) (V (Proc.devRef .tc main_arg2))) (mat (n := 96) (d := 96) (V (Proc.devRef .tc main_arg3))) (vecv (d := 96) (V (Proc.devRef .tc main_arg4)))
              (vecv (d := 96) (V (Proc.devRef .tc main_arg9))) (vecv (d := 96) (V (Proc.devRef .tc main_arg10))))
            (mat (n := 96) (d := 96) (V (Proc.devRef .tc main_arg5))) (vecv (d := 96) (V (Proc.devRef .tc main_arg6))) (mat (n := 96) (d := 96) (V (Proc.devRef .tc main_arg7))) (vecv (d := 96) (V (Proc.devRef .tc main_arg8)))
            (vecv (d := 96) (V (Proc.devRef .tc main_arg11))) (vecv (d := 96) (V (Proc.devRef .tc main_arg12))))
          (mat (n := 96) (d := 64) (V (Proc.devRef .tc main_arg13))) (vecv (d := 64) (V (Proc.devRef .tc main_arg14))) := by
  rw [ref_result, refHead_spec, refLayer_spec, refLayer_spec]

end Cert.ReferenceIdeal.RefValue

end
-- ==== Proof.RefNet.lean ====
/- The reference program's result as the plain two-layer network in its self-loop form, as a function of the
   seventeen argument arrays. -/
import proofs.«111056_j31628139167864_2_alg».proof.Proof.RefSpec
import proofs.«111056_j31628139167864_2_alg».proof.Proof.NetBridge

noncomputable section

namespace Cert.ReferenceIdeal.RefValue

open Cert.ReferenceIdeal Cert.ReferenceIdeal.Gen Cert.ReferenceIdeal.RefRun Idealize.ShloMosaic Idealize.ShloMosaic.TcCoe Idealize.SL.Sem Idealize.ShloMosaic.StableHlo

end Cert.ReferenceIdeal.RefValue

namespace Cert.ReferenceIdeal.RefNet

open Cert.ReferenceIdeal Cert.ReferenceIdeal.Gen Cert.ReferenceIdeal.RefRun Cert.ReferenceIdeal.RefValue Idealize.ShloMosaic Idealize.ShloMosaic.TcCoe Idealize.SL.Sem Idealize.ShloMosaic.StableHlo

/-- The reference program's result buffer after its line of operations, entry by entry, is the network in its
    self-loop form at the contents of the seventeen argument buffers. -/
theorem ref_spec (V : Valuation τ sig (Elt Ideal)) :
    Cert.NetBridge.mat (n := 50000) (d := 64) (φ := .f32) (after (ops (F := Ideal)) V (Proc.devRef .tc main_v90))
      = Cert.NetBridge.rNet (V (Proc.devRef .tc main_arg0))
          (V (Proc.devRef .tc main_arg1))
          (V (Proc.devRef .tc main_arg2))
          (V (Proc.devRef .tc main_arg3))
          (V (Proc.devRef .tc main_arg4))
          (V (Proc.devRef .tc main_arg5))
          (V (Proc.devRef .tc main_arg6))
          (V (Proc.devRef .tc main_arg7))
          (V (Proc.devRef .tc main_arg8))
          (V (Proc.devRef .tc main_arg9))
          (V (Proc.devRef .tc main_arg10))
          (V (Proc.devRef .tc main_arg11))
          (V (Proc.devRef .tc main_arg12))
          (V (Proc.devRef .tc main_arg13))
          (V (Proc.devRef .tc main_arg14))
          (V (Proc.devRef .tc main_arg15))
          (V (Proc.devRef .tc main_arg16)) := by
  refine (RefValue.ref_spec V).trans ?_
  rfl

end Cert.ReferenceIdeal.RefNet

end
-- ==== Proof.LibFiniteInputs.lean ====
/-
  Finite inputs are real numbers.

  A certificate's usual precondition says of each float argument x that all(|x| < +∞). It prints as a reduction by
  "and", over every axis and from the constant 1, of the comparison of |x| with a broadcast of the word 0x7F800000. On
  the extended reals |x| is max x (-x), that word is ⊤, and the comparison is the linear order's: so when the reduction
  is 1 at its one index, every entry x has max x (-x) < ⊤, which excludes x = ⊤ directly and x = ⊥ through -⊥ = ⊤, and
  what is left is a real number. Generic in the argument's shape and in the axes of the reduction.
-/
import Idealize.ShloMosaic.Lib.ReduceAll
import Idealize.ShloMosaic.Lib.ValueIdx
import Idealize.ShloMosaic.Lib.IdealHost
import Idealize.ShloMosaic.PureOps.Ideal
import Idealize.ShloMosaic.PureOps.Ideal.Laws

noncomputable section

open Idealize.ShloMosaic Idealize.ShloMosaic.ValueIdx

namespace Cert.LibFiniteInputs

/-- The rank-0 shape has one index. -/
instance : Subsingleton (⟨0, ![]⟩ : Shape).Idx := ⟨fun a b => funext fun d => d.elim0⟩

/-- The word 0x7F800000 read as an f32 is +∞. -/
theorem ofBits_inf_f32 : Ideal.ofBits .f32 0x7F800000#32 = ⊤ := by simp [Ideal.ofBits, Ideal.ieee]

/-- An extended real whose absolute value max x (-x) is below ⊤ is a real number. -/
theorem real_of_abs_lt_top (x : EReal) (h : max x (-x) < ⊤) : ∃ r : ℝ, x = (r : EReal) := by
  induction x using EReal.rec with
  | bot => simp at h
  | top => simp at h
  | coe r => exact ⟨r, rfl⟩

/-- One argument's part of the precondition: if all(|x| < +∞), printed as the reduce by and over all axes of the
    comparison of |x| with the broadcast +∞ word, is 1 at the one index, every entry of x is a real number. -/
theorem real_of_all_finite {S : Shape} {axes : List (Fin S.rank)} (x : FVec Ideal S .f32)
    (hb : (⟨0, ![]⟩ : Shape).BroadcastsInDim S (![] : Fin 0 → Fin S.rank)) (hr : S.ReducesTo axes ⟨0, ![]⟩)
    (hu : 0 < (⟨0, ![]⟩ : Shape).numel)
    (h : Host.reduce IntOp.andi
          (cmpf .olt (Host.absf x) (broadcastInDim S ![] hb (constant (⟨0, ![]⟩ : Shape) .f32 0x7F800000#32)))
          (constantI (⟨0, ![]⟩ : Shape) 1 1#1) hr hu ix0 = 1#1) :
    ∀ i, ∃ r : ℝ, x i = (r : EReal) := by
  intro i
  have e := Host.reduce_andi_all _ _ hr hu ix0 h i
  have e' : Ideal.cmp .olt (max (x i) (-(x i))) ⊤ = 1#1 := by
    rw [← ofBits_inf_f32]; exact e
  refine real_of_abs_lt_top (x i) ?_
  simp only [Ideal.cmp] at e'
  by_contra hc
  simp [hc] at e'

end Cert.LibFiniteInputs

end
-- ==== Proof.FinitePre.lean ====
/-
  The precondition read back: when every float argument passes `all (|x| < +∞)`, every entry of every float
  argument is a real number.
-/
import proofs.«111056_j31628139167864_2_alg».proof.Pre_finite_inputs
import proofs.«111056_j31628139167864_2_alg».proof.Proof.Gen.Pre_finite_inputs
import proofs.«111056_j31628139167864_2_alg».proof.Proof.LibFiniteInputs
import Idealize.ShloMosaic.Lib.Affine
import Idealize.ShloMosaic.Lib.ReduceAll

set_option maxRecDepth 16384

noncomputable section

namespace Cert.FinitePre

open Idealize.ShloMosaic Idealize.ShloMosaic.ValueIdx Cert.Pre_finite_inputs Cert.Pre_finite_inputs.Gen Cert.LibFiniteInputs

theorem args_real (a0 : FVec Ideal S50000x96 .f32) (a1 : FVec Ideal S96x96 .f32) (a2 : FVec Ideal S96 .f32) (a3 : FVec Ideal S96x96 .f32) (a4 : FVec Ideal S96 .f32) (a5 : FVec Ideal S96x96 .f32) (a6 : FVec Ideal S96 .f32) (a7 : FVec Ideal S96x96 .f32) (a8 : FVec Ideal S96 .f32) (a9 : FVec Ideal S96 .f32) (a10 : FVec Ideal S96 .f32) (a11 : FVec Ideal S96 .f32) (a12 : FVec Ideal S96 .f32) (a13 : FVec Ideal S96x64 .f32) (a14 : FVec Ideal S64 .f32) (a15 a16 : IVec S800000 32)
    (h : Cert.Pre_finite_inputs.fn (F := Ideal) a0 a1 a2 a3 a4 a5 a6 a7 a8 a9 a10 a11 a12 a13 a14 a15 a16 = fun _ => 1#1) :
    (∀ i, ∃ r : ℝ, a0 i = (r : EReal)) ∧ (∀ i, ∃ r : ℝ, a1 i = (r : EReal)) ∧ (∀ i, ∃ r : ℝ, a2 i = (r : EReal)) ∧ (∀ i, ∃ r : ℝ, a3 i = (r : EReal)) ∧ (∀ i, ∃ r : ℝ, a4 i = (r : EReal)) ∧ (∀ i, ∃ r : ℝ, a5 i = (r : EReal)) ∧ (∀ i, ∃ r : ℝ, a6 i = (r : EReal)) ∧ (∀ i, ∃ r : ℝ, a7 i = (r : EReal)) ∧ (∀ i, ∃ r : ℝ, a8 i = (r : EReal)) ∧ (∀ i, ∃ r : ℝ, a9 i = (r : EReal)) ∧ (∀ i, ∃ r : ℝ, a10 i = (r : EReal)) ∧ (∀ i, ∃ r : ℝ, a11 i = (r : EReal)) ∧ (∀ i, ∃ r : ℝ, a12 i = (r : EReal)) ∧ (∀ i, ∃ r : ℝ, a13 i = (r : EReal)) ∧ (∀ i, ∃ r : ℝ, a14 i = (r : EReal)) := by
  have h0 := congrFun h ix0
  unfold Cert.Pre_finite_inputs.fn Cert.Pre_finite_inputs.fn_part1 Cert.Pre_finite_inputs.fn_part2 Cert.Pre_finite_inputs.fn_part3 Cert.Pre_finite_inputs.fn_part4 at h0
  dsimp only at h0
  obtain ⟨h0, p14⟩ := IntOp.andi_eq_one.1 h0
  obtain ⟨h0, p13⟩ := IntOp.andi_eq_one.1 h0
  obtain ⟨h0, p12⟩ := IntOp.andi_eq_one.1 h0
  obtain ⟨h0, p11⟩ := IntOp.andi_eq_one.1 h0
  obtain ⟨h0, p10⟩ := IntOp.andi_eq_one.1 h0
  obtain ⟨h0, p9⟩ := IntOp.andi_eq_one.1 h0
  obtain ⟨h0, p8⟩ := IntOp.andi_eq_one.1 h0
  obtain ⟨h0, p7⟩ := IntOp.andi_eq_one.1 h0
  obtain ⟨h0, p6⟩ := IntOp.andi_eq_one.1 h0
  obtain ⟨h0, p5⟩ := IntOp.andi_eq_one.1 h0
  obtain ⟨h0, p4⟩ := IntOp.andi_eq_one.1 h0
  obtain ⟨h0, p3⟩ := IntOp.andi_eq_one.1 h0
  obtain ⟨h0, p2⟩ := IntOp.andi_eq_one.1 h0
  obtain ⟨h0, p1⟩ := IntOp.andi_eq_one.1 h0
  exact ⟨real_of_all_finite a0 _ _ _ h0, real_of_all_finite a1 _ _ _ p1, real_of_all_finite a2 _ _ _ p2, real_of_all_finite a3 _ _ _ p3, real_of_all_finite a4 _ _ _ p4, real_of_all_finite a5 _ _ _ p5, real_of_all_finite a6 _ _ _ p6, real_of_all_finite a7 _ _ _ p7, real_of_all_finite a8 _ _ _ p8, real_of_all_finite a9 _ _ _ p9, real_of_all_finite a10 _ _ _ p10, real_of_all_finite a11 _ _ _ p11, real_of_all_finite a12 _ _ _ p12, real_of_all_finite a13 _ _ _ p13, real_of_all_finite a14 _ _ _ p14⟩

end Cert.FinitePre

end
-- ==== Proof.Algebraic.lean ====
/-
  The value claim. At the exact instance the kernel program ends with its result array at the kernel's form of the
  network applied to its argument arrays, and the reference at the reference's form applied to its own; the
  arguments agree, the precondition makes every float argument's entries real numbers, and on real data the two
  forms are one function: the self-loop edges contribute each node's own row to its neighbour sum, which is the
  kernel's `2·h + Σ`; and the mean squared deviation is `E[x²] − E[x]²`.
-/
import proofs.«111056_j31628139167864_2_alg».proof.Defs
import proofs.«111056_j31628139167864_2_alg».proof.Proof.Frames
import proofs.«111056_j31628139167864_2_alg».proof.Proof.RefRun
import proofs.«111056_j31628139167864_2_alg».proof.Proof.KChain
import proofs.«111056_j31628139167864_2_alg».proof.Proof.RefNet
import proofs.«111056_j31628139167864_2_alg».proof.Proof.NetBridge
import proofs.«111056_j31628139167864_2_alg».proof.Proof.FinitePre
import proofs.«111056_j31628139167864_2_alg».proof.Proof.Gen.KernelIdeal
import proofs.«111056_j31628139167864_2_alg».proof.Proof.Gen.ReferenceIdeal
import proofs.«111056_j31628139167864_2_alg».proof.Proof.Gen.Pre_finite_inputs

set_option maxRecDepth 16384

noncomputable section

namespace Cert.Algebraic

open Idealize.ShloMosaic Idealize.SL.Sem

theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' hpre hagree
  refine ⟨fun c => Cert.KernelIdeal.Hand.W8 m c (Proc.devRef .tc Cert.KernelIdeal.main_v63), Cert.KernelIdeal.Hand.run_result (F := Ideal) m ρ, ?_⟩
  refine (θ_run (Cert.ReferenceIdeal.defs (F := Ideal)) _ _).mono (fun r h c => ⟨(h c).1.trans ?_, (h c).2⟩)
    (Cert.ReferenceIdeal.RefRun.run (F := Ideal) m' ρ')
  obtain ⟨e0, e1, e2, e3, e4, e5, e6, e7, e8, e9, e10, e11, e12, e13, e14, e15, e16⟩ := hagree c
  obtain ⟨r0, r1, r2, r3, r4, r5, r6, r7, r8, r9, r10, r11, r12, r13, r14⟩ := Cert.FinitePre.args_real _ _ _ _ _ _ _ _ _ _ _ _ _ _ _ _ _ (hpre c)
  have hk := Cert.KernelIdeal.HandValue.kernel_spec m c
  have hr := Cert.ReferenceIdeal.RefNet.ref_spec (fun b => m' ((c : Dev Cert.ReferenceIdeal.nD), b))
  have hnet := Cert.NetBridge.net_eq' (m ((c : Dev Cert.KernelIdeal.nD), (Proc.devRef .tc Cert.KernelIdeal.main_arg0))) (m ((c : Dev Cert.KernelIdeal.nD), (Proc.devRef .tc Cert.KernelIdeal.main_arg1))) (m ((c : Dev Cert.KernelIdeal.nD), (Proc.devRef .tc Cert.KernelIdeal.main_arg2))) (m ((c : Dev Cert.KernelIdeal.nD), (Proc.devRef .tc Cert.KernelIdeal.main_arg3))) (m ((c : Dev Cert.KernelIdeal.nD), (Proc.devRef .tc Cert.KernelIdeal.main_arg4))) (m ((c : Dev Cert.KernelIdeal.nD), (Proc.devRef .tc Cert.KernelIdeal.main_arg5))) (m ((c : Dev Cert.KernelIdeal.nD), (Proc.devRef .tc Cert.KernelIdeal.main_arg6))) (m ((c : Dev Cert.KernelIdeal.nD), (Proc.devRef .tc Cert.KernelIdeal.main_arg7))) (m ((c : Dev Cert.KernelIdeal.nD), (Proc.devRef .tc Cert.KernelIdeal.main_arg8))) (m ((c : Dev Cert.KernelIdeal.nD), (Proc.devRef .tc Cert.KernelIdeal.main_arg9))) (m ((c : Dev Cert.KernelIdeal.nD), (Proc.devRef .tc Cert.KernelIdeal.main_arg10))) (m ((c : Dev Cert.KernelIdeal.nD), (Proc.devRef .tc Cert.KernelIdeal.main_arg11))) (m ((c : Dev Cert.KernelIdeal.nD), (Proc.devRef .tc Cert.KernelIdeal.main_arg12))) (m ((c : Dev Cert.KernelIdeal.nD), (Proc.devRef .tc Cert.KernelIdeal.main_arg13))) (m ((c : Dev Cert.KernelIdeal.nD), (Proc.devRef .tc Cert.KernelIdeal.main_arg14))) (m ((c : Dev Cert.KernelIdeal.nD), (Proc.devRef .tc Cert.KernelIdeal.main_arg15))) (m ((c : Dev Cert.KernelIdeal.nD), (Proc.devRef .tc Cert.KernelIdeal.main_arg16)))
    r0 r1 r2 r3 r4 r5 r6 r7 r8 r9 r10
  refine Cert.NetBridge.mat_ext (n := 50000) (d := 64) (φ := .f32) _ _ ?_
  refine hr.trans ?_
  rw [hk, hnet]
  change Cert.NetBridge.rNet (m' (c.tc.loc Cert.ReferenceIdeal.main_arg0)) (m' (c.tc.loc Cert.ReferenceIdeal.main_arg1)) (m' (c.tc.loc Cert.ReferenceIdeal.main_arg2)) (m' (c.tc.loc Cert.ReferenceIdeal.main_arg3)) (m' (c.tc.loc Cert.ReferenceIdeal.main_arg4)) (m' (c.tc.loc Cert.ReferenceIdeal.main_arg5)) (m' (c.tc.loc Cert.ReferenceIdeal.main_arg6)) (m' (c.tc.loc Cert.ReferenceIdeal.main_arg7)) (m' (c.tc.loc Cert.ReferenceIdeal.main_arg8)) (m' (c.tc.loc Cert.ReferenceIdeal.main_arg9)) (m' (c.tc.loc Cert.ReferenceIdeal.main_arg10)) (m' (c.tc.loc Cert.ReferenceIdeal.main_arg11)) (m' (c.tc.loc Cert.ReferenceIdeal.main_arg12)) (m' (c.tc.loc Cert.ReferenceIdeal.main_arg13)) (m' (c.tc.loc Cert.ReferenceIdeal.main_arg14)) (m' (c.tc.loc Cert.ReferenceIdeal.main_arg15)) (m' (c.tc.loc Cert.ReferenceIdeal.main_arg16)) = _
  rw [e0, e1, e2, e3, e4, e5, e6, e7, e8, e9, e10, e11, e12, e13, e14, e15, e16]

end Cert.Algebraic

end
-- ==== Proof.lean ====
/-
  The five claims of this certificate: a two-layer graph network (sum aggregation over the edge list, a
  Linear–ReLU–Linear perceptron, batch normalisation over the nodes with batch statistics, ReLU; then a linear head)
  computed by four tiled kernels among host operations, against its plain array-language reference.

  Frames. The kernel program is eight items in a row — four stretches of host operations and four kernel regions.
  Each region's grid points are run against proof data that names what every window's staging buffer holds after
  each point (for the perceptron kernel also the two accumulators carried from point to point); a region enters from
  "every unscoped buffer holds the previous boundary's contents" and leaves at the next boundary's contents, where its
  output arrays hold what the write-backs leave and everything else is untouched. No item writes an argument array,
  so the arguments end as launched. The same text, read at the word-level instance, frames the printed kernel.
  The reference is host operations only: its run is the fold of its operations over the launch memory.

  Preserves. The idealisation rewrote nothing: the claim is `True`.
-/
import proofs.«111056_j31628139167864_2_alg».proof.Defs
import proofs.«111056_j31628139167864_2_alg».proof.Proof.Gen.Kernel
import proofs.«111056_j31628139167864_2_alg».proof.Proof.Gen.KernelIdeal
import proofs.«111056_j31628139167864_2_alg».proof.Proof.Gen.ReferenceIdeal
import proofs.«111056_j31628139167864_2_alg».proof.Proof.Gen.Pre_finite_inputs
import proofs.«111056_j31628139167864_2_alg».proof.Proof.Frames
import proofs.«111056_j31628139167864_2_alg».proof.Proof.KFrames
import proofs.«111056_j31628139167864_2_alg».proof.Proof.RefRun
import proofs.«111056_j31628139167864_2_alg».proof.Proof.Algebraic
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Hand.frame (F := Bits) m ρ
theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

theorem claim : Cert.Claim := ⟨Cert.Kernel.Gen.facts, Cert.KernelIdeal.Gen.facts, Cert.ReferenceIdeal.Gen.facts, Cert.Pre_finite_inputs.Gen.facts,
  frame_k, frame_ki, Cert.ReferenceIdeal.RefRun.frame_ref, trivial, Cert.Algebraic.algebraic⟩

end Cert.Proof

end
